-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x18 : Shape := ⟨2, ![8192, 18]⟩
abbrev S8192x8192 : Shape := ⟨2, ![8192, 8192]⟩
abbrev S18x16 : Shape := ⟨2, ![18, 16]⟩
abbrev S16 : Shape := ⟨1, ![16]⟩
abbrev S16x16 : Shape := ⟨2, ![16, 16]⟩
abbrev S16x8 : Shape := ⟨2, ![16, 8]⟩
abbrev S8 : Shape := ⟨1, ![8]⟩
abbrev S16x20 : Shape := ⟨2, ![16, 20]⟩
abbrev S20 : Shape := ⟨1, ![20]⟩
abbrev S8x8 : Shape := ⟨2, ![8, 8]⟩
abbrev S_ : Shape := ⟨0, ![]⟩

class Facts : Prop where
  bcast_S_S8192x18 : S_.BroadcastsInDim S8192x18 (![] : Fin 0 → Fin S8192x18.rank)
  reducesTo_S8192x18_S_d0_1 : S8192x18.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S18x16 : S_.BroadcastsInDim S18x16 (![] : Fin 0 → Fin S18x16.rank)
  reducesTo_S18x16_S_d0_1 : S18x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S16x20 : S_.BroadcastsInDim S16x20 (![] : Fin 0 → Fin S16x20.rank)
  reducesTo_S16x20_S_d0_1 : S16x20.ReducesTo [0, 1] S_
  bcast_S_S20 : S_.BroadcastsInDim S20 (![] : Fin 0 → Fin S20.rank)
  reducesTo_S20_S_d0 : S20.ReducesTo [0] S_
  bcast_S_S8x8 : S_.BroadcastsInDim S8x8 (![] : Fin 0 → Fin S8x8.rank)
  reducesTo_S8x8_S_d0_1 : S8x8.ReducesTo [0, 1] S_

variable [Facts]

def fn_part5 {F : FTy → Type} [FloatOps F] (main_arg18 : FVec F S8 .f32) (main_arg19 : FVec F S8 .f32) (main_v83 : IVec S_ 1) (main_v84 : FVec F S16 .f32) (main_cst_32 : FVec F S_ .f32) : IVec S_ 1 :=
  let main_v85 : FVec F S16 .f32 := broadcastInDim S16 ![] bcast_S_S16 main_cst_32
  let main_v86 : IVec S16 1 := cmpf .olt main_v84 main_v85
  let main_c_33 : IVec S_ 1 := constantI S_ 1 1#1
  let main_v87 : IVec S_ 1 := (fun x v => Host.reduce IntOp.andi x v reducesTo_S16_S_d0 h_S_) main_v86 main_c_33
  let main_v88 : IVec S_ 1 := andi main_v83 main_v87
  let main_v89 : FVec F S8 .f32 := Host.absf main_arg18
  let main_cst_34 : FVec F S_ .f32 := constant S_ .f32 0x7F800000#32
  let main_v90 : FVec F S8 .f32 := broadcastInDim S8 ![] bcast_S_S8 main_cst_34
  let main_v91 : IVec S8 1 := cmpf .olt main_v89 main_v90
  let main_c_35 : IVec S_ 1 := constantI S_ 1 1#1
  let main_v92 : IVec S_ 1 := (fun x v => Host.reduce IntOp.andi x v reducesTo_S8_S_d0 h_S_) main_v91 main_c_35
  let main_v93 : IVec S_ 1 := andi main_v88 main_v92
  let main_v94 : FVec F S8 .f32 := Host.absf main_arg19
  let main_cst_36 : FVec F S_ .f32 := constant S_ .f32 0x7F800000#32
  let main_v95 : FVec F S8 .f32 := broadcastInDim S8 ![] bcast_S_S8 main_cst_36
  let main_v96 : IVec S8 1 := cmpf .olt main_v94 main_v95
  let main_c_37 : IVec S_ 1 := constantI S_ 1 1#1
  let main_v97 : IVec S_ 1 := (fun x v => Host.reduce IntOp.andi x v reducesTo_S8_S_d0 h_S_) main_v96 main_c_37
  let main_v98 : IVec S_ 1 := andi main_v93 main_v97
  main_v98

def fn_part4 {F : FTy → Type} [FloatOps F] (main_arg14 : FVec F S16 .f32) (main_arg15 : FVec F S16 .f32) (main_arg16 : FVec F S16 .f32) (main_arg17 : FVec F S16 .f32) (main_arg18 : FVec F S8 .f32) (main_arg19 : FVec F S8 .f32) (main_v63 : IVec S_ 1) (main_v67 : IVec S_ 1) : IVec S_ 1 :=
  let main_v68 : IVec S_ 1 := andi main_v63 main_v67
  let main_v69 : FVec F S16 .f32 := Host.absf main_arg14
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  let main_v74 : FVec F S16 .f32 := Host.absf main_arg15
  let main_cst_28 : FVec F S_ .f32 := constant S_ .f32 0x7F800000#32
  let main_v75 : FVec F S16 .f32 := broadcastInDim S16 ![] bcast_S_S16 main_cst_28
  let main_v76 : IVec S16 1 := cmpf .olt main_v74 main_v75
  let main_c_29 : IVec S_ 1 := constantI S_ 1 1#1
  let main_v77 : IVec S_ 1 := (fun x v => Host.reduce IntOp.andi x v reducesTo_S16_S_d0 h_S_) main_v76 main_c_29
  let main_v78 : IVec S_ 1 := andi main_v73 main_v77
  let main_v79 : FVec F S16 .f32 := Host.absf main_arg16
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  let main_v84 : FVec F S16 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S8 .f32) (main_arg12 : FVec F S8x8 .f32) (main_arg13 : FVec F S8 .f32) (main_arg14 : FVec F S16 .f32) (main_arg15 : FVec F S16 .f32) (main_arg16 : FVec F S16 .f32) (main_arg17 : FVec F S16 .f32) (main_arg18 : FVec F S8 .f32) (main_arg19 : FVec F S8 .f32) (main_v48 : IVec S_ 1) (main_v49 : FVec F S8x8 .f32) (main_v50 : FVec F S8x8 .f32) : IVec S_ 1 :=
  let main_v51 : IVec S8x8 1 := cmpf .olt main_v49 main_v50
  let main_c_19 : IVec S_ 1 := constantI S_ 1 1#1
  let main_v52 : IVec S_ 1 := (fun x v => Host.reduce IntOp.andi x v reducesTo_S8x8_S_d0_1 h_S_) main_v51 main_c_19
  let main_v53 : IVec S_ 1 := andi main_v48 main_v52
  let main_v54 : FVec F S8 .f32 := Host.absf main_arg11
  let main_cst_20 : FVec F S_ .f32 := constant S_ .f32 0x7F800000#32
  let main_v55 : FVec F S8 .f32 := broadcastInDim S8 ![] bcast_S_S8 main_cst_20
  let main_v56 : IVec S8 1 := cmpf .olt main_v54 main_v55
  let main_c_21 : IVec S_ 1 := constantI S_ 1 1#1
  let main_v57 : IVec S_ 1 := (fun x v => Host.reduce IntOp.andi x v reducesTo_S8_S_d0 h_S_) main_v56 main_c_21
  let main_v58 : IVec S_ 1 := andi main_v53 main_v57
  let main_v59 : FVec F S8x8 .f32 := Host.absf main_arg12
  let main_cst_22 : FVec F S_ .f32 := constant S_ .f32 0x7F800000#32
  let main_v60 : FVec F S8x8 .f32 := broadcastInDim S8x8 ![] bcast_S_S8x8 main_cst_22
  let main_v61 : IVec S8x8 1 := cmpf .olt main_v59 main_v60
  let main_c_23 : IVec S_ 1 := constantI S_ 1 1#1
  let main_v62 : IVec S_ 1 := (fun x v => Host.reduce IntOp.andi x v reducesTo_S8x8_S_d0_1 h_S_) main_v61 main_c_23
  let main_v63 : IVec S_ 1 := andi main_v58 main_v62
  let main_v64 : FVec F S8 .f32 := Host.absf main_arg13
  let main_cst_24 : FVec F S_ .f32 := constant S_ .f32 0x7F800000#32
  let main_v65 : FVec F S8 .f32 := broadcastInDim S8 ![] bcast_S_S8 main_cst_24
  let main_v66 : IVec S8 1 := cmpf .olt main_v64 main_v65
  let main_c_25 : IVec S_ 1 := constantI S_ 1 1#1
  let main_v67 : IVec S_ 1 := (fun x v => Host.reduce IntOp.andi x v reducesTo_S8_S_d0 h_S_) main_v66 main_c_25
  fn_part4 (F := F) main_arg14 main_arg15 main_arg16 main_arg17 main_arg18 main_arg19 main_v63 main_v67

def fn_part2 {F : FTy → Type} [FloatOps F] (main_arg7 : FVec F S8 .f32) (main_arg8 : FVec F S16x20 .f32) (main_arg9 : FVec F S20 .f32) (main_arg10 : FVec F S8x8 .f32) (main_arg11 : FVec F S8 .f32) (main_arg12 : FVec F S8x8 .f32) (main_arg13 : FVec F S8 .f32) (main_arg14 : FVec F S16 .f32) (main_arg15 : FVec F S16 .f32) (main_arg16 : FVec F S16 .f32) (main_arg17 : FVec F S16 .f32) (main_arg18 : FVec F S8 .f32) (main_arg19 : FVec F S8 .f32) (main_v33 : IVec S_ 1) : IVec S_ 1 :=
  let main_v34 : FVec F S8 .f32 := Host.absf main_arg7
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S16x20 .f32 := Host.absf main_arg8
  let main_cst_14 : FVec F S_ .f32 := constant S_ .f32 0x7F800000#32
  let main_v40 : FVec F S16x20 .f32 := broadcastInDim S16x20 ![] bcast_S_S16x20 main_cst_14
  let main_v41 : IVec S16x20 1 := cmpf .olt main_v39 main_v40
  let main_c_15 : IVec S_ 1 := constantI S_ 1 1#1
  let main_v42 : IVec S_ 1 := (fun x v => Host.reduce IntOp.andi x v reducesTo_S16x20_S_d0_1 h_S_) main_v41 main_c_15
  let main_v43 : IVec S_ 1 := andi main_v38 main_v42
  let main_v44 : FVec F S20 .f32 := Host.absf main_arg9
  let main_cst_16 : FVec F S_ .f32 := constant S_ .f32 0x7F800000#32
  let main_v45 : FVec F S20 .f32 := broadcastInDim S20 ![] bcast_S_S20 main_cst_16
  let main_v46 : IVec S20 1 := cmpf .olt main_v44 main_v45
  let main_c_17 : IVec S_ 1 := constantI S_ 1 1#1
  let main_v47 : IVec S_ 1 := (fun x v => Host.reduce IntOp.andi x v reducesTo_S20_S_d0 h_S_) main_v46 main_c_17
  let main_v48 : IVec S_ 1 := andi main_v43 main_v47
  let main_v49 : FVec F S8x8 .f32 := Host.absf main_arg10
  let main_cst_18 : FVec F S_ .f32 := constant S_ .f32 0x7F800000#32
  let main_v50 : FVec F S8x8 .f32 := broadcastInDim S8x8 ![] bcast_S_S8x8 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S16x16 .f32) (main_arg5 : FVec F S16 .f32) (main_arg6 : FVec F S16x8 .f32) (main_arg7 : FVec F S8 .f32) (main_arg8 : FVec F S16x20 .f32) (main_arg9 : FVec F S20 .f32) (main_arg10 : FVec F S8x8 .f32) (main_arg11 : FVec F S8 .f32) (main_arg12 : FVec F S8x8 .f32) (main_arg13 : FVec F S8 .f32) (main_arg14 : FVec F S16 .f32) (main_arg15 : FVec F S16 .f32) (main_arg16 : FVec F S16 .f32) (main_arg17 : FVec F S16 .f32) (main_arg18 : FVec F S8 .f32) (main_arg19 : FVec F S8 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg4
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x8 .f32 := Host.absf main_arg6
  let main_cst_10 : FVec F S_ .f32 := constant S_ .f32 0x7F800000#32
  let main_v30 : FVec F S16x8 .f32 := broadcastInDim S16x8 ![] bcast_S_S16x8 main_cst_10
  let main_v31 : IVec S16x8 1 := cmpf .olt main_v29 main_v30
  let main_c_11 : IVec S_ 1 := constantI S_ 1 1#1
  let main_v32 : IVec S_ 1 := (fun x v => Host.reduce IntOp.andi x v reducesTo_S16x8_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S8192x18 .f32) (main_arg1 : FVec F S8192x8192 .f32) (main_arg2 : FVec F S18x16 .f32) (main_arg3 : FVec F S16 .f32) (main_arg4 : FVec F S16x16 .f32) (main_arg5 : FVec F S16 .f32) (main_arg6 : FVec F S16x8 .f32) (main_arg7 : FVec F S8 .f32) (main_arg8 : FVec F S16x20 .f32) (main_arg9 : FVec F S20 .f32) (main_arg10 : FVec F S8x8 .f32) (main_arg11 : FVec F S8 .f32) (main_arg12 : FVec F S8x8 .f32) (main_arg13 : FVec F S8 .f32) (main_arg14 : FVec F S16 .f32) (main_arg15 : FVec F S16 .f32) (main_arg16 : FVec F S16 .f32) (main_arg17 : FVec F S16 .f32) (main_arg18 : FVec F S8 .f32) (main_arg19 : FVec F S8 .f32) : IVec S_ 1 :=
  let main_v0 : FVec F S8192x18 .f32 := Host.absf main_arg0
  let main_cst : FVec F S_ .f32 := constant S_ .f32 0x7F800000#32
  let main_v1 : FVec F S8192x18 .f32 := broadcastInDim S8192x18 ![] bcast_S_S8192x18 main_cst
  let main_v2 : IVec S8192x18 1 := cmpf .olt main_v0 main_v1
  let main_c : IVec S_ 1 := constantI S_ 1 1#1
  let main_v3 : IVec S_ 1 := (fun x v => Host.reduce IntOp.andi x v reducesTo_S8192x18_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S18x16 .f32 := Host.absf main_arg2
  let main_cst_2 : FVec F S_ .f32 := constant S_ .f32 0x7F800000#32
  let main_v10 : FVec F S18x16 .f32 := broadcastInDim S18x16 ![] bcast_S_S18x16 main_cst_2
  let main_v11 : IVec S18x16 1 := cmpf .olt main_v9 main_v10
  let main_c_3 : IVec S_ 1 := constantI S_ 1 1#1
  let main_v12 : IVec S_ 1 := (fun x v => Host.reduce IntOp.andi x v reducesTo_S18x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S8192x18 : Shape := ⟨2, ![8192, 18]⟩
abbrev S8192x8192 : Shape := ⟨2, ![8192, 8192]⟩
abbrev S18x16 : Shape := ⟨2, ![18, 16]⟩
abbrev S16 : Shape := ⟨1, ![16]⟩
abbrev S16x16 : Shape := ⟨2, ![16, 16]⟩
abbrev S16x8 : Shape := ⟨2, ![16, 8]⟩
abbrev S8 : Shape := ⟨1, ![8]⟩
abbrev S16x20 : Shape := ⟨2, ![16, 20]⟩
abbrev S20 : Shape := ⟨1, ![20]⟩
abbrev S8x8 : Shape := ⟨2, ![8, 8]⟩
abbrev S8192x16 : Shape := ⟨2, ![8192, 16]⟩
abbrev S1x16 : Shape := ⟨2, ![1, 16]⟩
abbrev S2048x2048 : Shape := ⟨2, ![2048, 2048]⟩
abbrev S2048x16 : Shape := ⟨2, ![2048, 16]⟩
abbrev S_ : Shape := ⟨0, ![]⟩
abbrev S4096x2048 : Shape := ⟨2, ![4096, 2048]⟩
abbrev S4096x16 : Shape := ⟨2, ![4096, 16]⟩
abbrev S16x28 : Shape := ⟨2, ![16, 28]⟩
abbrev S28 : Shape := ⟨1, ![28]⟩
abbrev S8192x28 : Shape := ⟨2, ![8192, 28]⟩
abbrev S1x28 : Shape := ⟨2, ![1, 28]⟩
abbrev S2048x28 : Shape := ⟨2, ![2048, 28]⟩
abbrev S4096x28 : Shape := ⟨2, ![4096, 28]⟩
abbrev S8192x8 : Shape := ⟨2, ![8192, 8]⟩
abbrev S8192x20 : Shape := ⟨2, ![8192, 20]⟩
abbrev S8192 : Shape := ⟨1, ![8192]⟩
abbrev S8192x1 : Shape := ⟨2, ![8192, 1]⟩
abbrev S1x20 : Shape := ⟨2, ![1, 20]⟩
abbrev S2048x20 : Shape := ⟨2, ![2048, 20]⟩
abbrev S4096x20 : Shape := ⟨2, ![4096, 20]⟩
abbrev S20x8192 : Shape := ⟨2, ![20, 8192]⟩
abbrev S20x8 : Shape := ⟨2, ![20, 8]⟩
abbrev S20x20 : Shape := ⟨2, ![20, 20]⟩
abbrev S1x8 : Shape := ⟨2, ![1, 8]⟩

abbrev nBuf : Space → Nat
  | .hbm => 204
  | .vmem => 34
  | .smem => 0
  | _ => 0

abbrev hbmTy0_0 (i : Nat) : BufTy := match i % 128 with
  | 0 => ⟨S8192x18, .f32⟩
  | 1 => ⟨S8192x8192, .f32⟩
  | 2 => ⟨S18x16, .f32⟩
  | 3 => ⟨S16, .f32⟩
  | 4 => ⟨S16x16, .f32⟩
  | 5 => ⟨S16, .f32⟩
  | 6 => ⟨S16x8, .f32⟩
  | 7 => ⟨S8, .f32⟩
  | 8 => ⟨S16x20, .f32⟩
  | 9 => ⟨S20, .f32⟩
  | 10 => ⟨S8x8, .f32⟩
  | 11 => ⟨S8, .f32⟩
  | 12 => ⟨S8x8, .f32⟩
  | 13 => ⟨S8, .f32⟩
  | 14 => ⟨S16, .f32⟩
  | 15 => ⟨S16, .f32⟩
  | 16 => ⟨S16, .f32⟩
  | 17 => ⟨S16, .f32⟩
  | 18 => ⟨S8, .f32⟩
  | 19 => ⟨S8, .f32⟩
  | 20 => ⟨S8192x16, .f32⟩
  | 21 => ⟨S1x16, .f32⟩
  | 22 => ⟨S8192x16, .f32⟩
  | 23 => ⟨S8192x8192, .bf16⟩
  | 24 => ⟨S_, .f32⟩
  | 25 => ⟨S16, .f32⟩
  | 26 => ⟨S_, .f32⟩
  | 27 => ⟨S16, .f32⟩
  | 28 => ⟨S16, .f32⟩
  | 29 => ⟨S_, .i32⟩
  | 30 => ⟨S_, .f32⟩
  | 31 => ⟨S16, .f32⟩
  | 32 => ⟨S1x16, .f32⟩
  | 33 => ⟨S_, .f32⟩
  | 34 => ⟨S1x16, .f32⟩
  | 35 => ⟨S1x16, .f32⟩
  | 36 => ⟨S8192x16, .f32⟩
  | 37 => ⟨S8192x16, .f32⟩
  | 38 => ⟨S8192x16, .f32⟩
  | 39 => ⟨S_, .f32⟩
  | 40 => ⟨S_, .f32⟩
  | 41 => ⟨S_, .f32⟩
  | 42 => ⟨S_, .f32⟩
  | 43 => ⟨S16, .f32⟩
  | 44 => ⟨S16, .f32⟩
  | 45 => ⟨S16, .f32⟩
  | 46 => ⟨S_, .f32⟩
  | 47 => ⟨S_, .i1⟩
  | 48 => ⟨S_, .f32⟩
  | 49 => ⟨S_, .f32⟩
  | 50 => ⟨S16, .f32⟩
  | 51 => ⟨S16, .f32⟩
  | 52 => ⟨S1x16, .f32⟩
  | 53 => ⟨S8192x16, .f32⟩
  | 54 => ⟨S8192x16, .f32⟩
  | 55 => ⟨S1x16, .f32⟩
  | 56 => ⟨S8192x16, .f32⟩
  | 57 => ⟨S8192x16, .f32⟩
  | 58 => ⟨S_, .f32⟩
  | 59 => ⟨S16, .f32⟩
  | 60 => ⟨S16, .f32⟩
  | 61 => ⟨S16, .f32⟩
  | 62 => ⟨S1x16, .f32⟩
  | 63 => ⟨S8192x16, .f32⟩
  | 64 => ⟨S8192x16, .f32⟩
  | 65 => ⟨S1x16, .f32⟩
  | 66 => ⟨S8192x16, .f32⟩
  | 67 => ⟨S8192x16, .f32⟩
  | 68 => ⟨S8192x16, .f32⟩
  | 69 => ⟨S1x16, .f32⟩
  | 70 => ⟨S8192x16, .f32⟩
  | 71 => ⟨S_, .f32⟩
  | 72 => ⟨S16, .f32⟩
  | 73 => ⟨S_, .f32⟩
  | 74 => ⟨S16, .f32⟩
  | 75 => ⟨S16, .f32⟩
  | 76 => ⟨S_, .i32⟩
  | 77 => ⟨S_, .f32⟩
  | 78 => ⟨S16, .f32⟩
  | 79 => ⟨S1x16, .f32⟩
  | 80 => ⟨S_, .f32⟩
  | 81 => ⟨S1x16, .f32⟩
  | 82 => ⟨S1x16, .f32⟩
  | 83 => ⟨S8192x16, .f32⟩
  | 84 => ⟨S8192x16, .f32⟩
  | 85 => ⟨S8192x16, .f32⟩
  | 86 => ⟨S_, .f32⟩
  | 87 => ⟨S_, .f32⟩
  | 88 => ⟨S_, .f32⟩
  | 89 => ⟨S_, .f32⟩
  | 90 => ⟨S16, .f32⟩
  | 91 => ⟨S16, .f32⟩
  | 92 => ⟨S16, .f32⟩
  | 93 => ⟨S_, .f32⟩
  | 94 => ⟨S_, .i1⟩
  | 95 => ⟨S_, .f32⟩
  | 96 => ⟨S_, .f32⟩
  | 97 => ⟨S16, .f32⟩
  | 98 => ⟨S16, .f32⟩
  | 99 => ⟨S1x16, .f32⟩
  | 100 => ⟨S8192x16, .f32⟩
  | 101 => ⟨S8192x16, .f32⟩
  | 102 => ⟨S1x16, .f32⟩
  | 103 => ⟨S8192x16, .f32⟩
  | 104 => ⟨S8192x16, .f32⟩
  | 105 => ⟨S_, .f32⟩
  | 106 => ⟨S16, .f32⟩
  | 107 => ⟨S16, .f32⟩
  | 108 => ⟨S16, .f32⟩
  | 109 => ⟨S1x16, .f32⟩
  | 110 => ⟨S8192x16, .f32⟩
  | 111 => ⟨S8192x16, .f32⟩
  | 112 => ⟨S1x16, .f32⟩
  | 113 => ⟨S8192x16, .f32⟩
  | 114 => ⟨S8192x16, .f32⟩
  | 115 => ⟨S16x28, .f32⟩
  | 116 => ⟨S28, .f32⟩
  | 117 => ⟨S8192x28, .f32⟩
  | 118 => ⟨S1x28, .f32⟩
  | 119 => ⟨S8192x28, .f32⟩
  | 120 => ⟨S8192x8, .f32⟩
  | 121 => ⟨S8192x20, .f32⟩
  | 122 => ⟨S_, .f32⟩
  | 123 => ⟨S8192, .f32⟩
  | 124 => ⟨S_, .f32⟩
  | 125 => ⟨S8192, .f32⟩
  | 126 => ⟨S8192, .f32⟩
  | 127 => ⟨S8192x1, .f32⟩
  | _ => ⟨S8192x18, .f32⟩

abbrev hbmTy0_1 (i : Nat) : BufTy := match i % 128 with
  | 0 => ⟨S8192x20, .f32⟩
  | 1 => ⟨S8192x20, .f32⟩
  | 2 => ⟨S8192x20, .f32⟩
  | 3 => ⟨S_, .f32⟩
  | 4 => ⟨S8192, .f32⟩
  | 5 => ⟨S8192x1, .f32⟩
  | 6 => ⟨S8192x20, .f32⟩
  | 7 => ⟨S8192x20, .f32⟩
  | 8 => ⟨S_, .f32⟩
  | 9 => ⟨S20, .f32⟩
  | 10 => ⟨S1x20, .f32⟩
  | 11 => ⟨S8192x20, .f32⟩
  | 12 => ⟨S20x8192, .f32⟩
  | 13 => ⟨S20x8, .f32⟩
  | 14 => ⟨S20x8192, .f32⟩
  | 15 => ⟨S20x20, .f32⟩
  | 16 => ⟨S20x8, .f32⟩
  | 17 => ⟨S20x8, .f32⟩
  | 18 => ⟨S1x8, .f32⟩
  | 19 => ⟨S20x8, .f32⟩
  | 20 => ⟨S20x8, .f32⟩
  | 21 => ⟨S_, .f32⟩
  | 22 => ⟨S20x8, .f32⟩
  | 23 => ⟨S20x8, .f32⟩
  | 24 => ⟨S_, .f32⟩
  | 25 => ⟨S8, .f32⟩
  | 26 => ⟨S_, .f32⟩
  | 27 => ⟨S8, .f32⟩
  | 28 => ⟨S8, .f32⟩
  | 29 => ⟨S_, .i32⟩
  | 30 => ⟨S_, .f32⟩
  | 31 => ⟨S8, .f32⟩
  | 32 => ⟨S1x8, .f32⟩
  | 33 => ⟨S_, .f32⟩
  | 34 => ⟨S1x8, .f32⟩
  | 35 => ⟨S1x8, .f32⟩
  | 36 => ⟨S20x8, .f32⟩
  | 37 => ⟨S20x8, .f32⟩
  | 38 => ⟨S20x8, .f32⟩
  | 39 => ⟨S_, .f32⟩
  | 40 => ⟨S_, .f32⟩
  | 41 => ⟨S_, .f32⟩
  | 42 => ⟨S_, .f32⟩
  | 43 => ⟨S8, .f32⟩
  | 44 => ⟨S8, .f32⟩
  | 45 => ⟨S8, .f32⟩
  | 46 => ⟨S_, .f32⟩
  | 47 => ⟨S_, .i1⟩
  | 48 => ⟨S_, .f32⟩
  | 49 => ⟨S_, .f32⟩
  | 50 => ⟨S8, .f32⟩
  | 51 => ⟨S8, .f32⟩
  | 52 => ⟨S1x8, .f32⟩
  | 53 => ⟨S20x8, .f32⟩
  | 54 => ⟨S20x8, .f32⟩
  | 55 => ⟨S1x8, .f32⟩
  | 56 => ⟨S20x8, .f32⟩
  | 57 => ⟨S20x8, .f32⟩
  | 58 => ⟨S_, .f32⟩
  | 59 => ⟨S8, .f32⟩
  | 60 => ⟨S8, .f32⟩
  | 61 => ⟨S8, .f32⟩
  | 62 => ⟨S1x8, .f32⟩
  | 63 => ⟨S20x8, .f32⟩
  | 64 => ⟨S20x8, .f32⟩
  | 65 => ⟨S1x8, .f32⟩
  | 66 => ⟨S20x8, .f32⟩
  | 67 => ⟨S20x8, .f32⟩
  | 68 => ⟨S20x8, .f32⟩
  | 69 => ⟨S20x8, .f32⟩
  | 70 => ⟨S1x8, .f32⟩
  | 71 => ⟨S20x8, .f32⟩
  | 72 => ⟨S20x8, .f32⟩
  | 73 => ⟨S_, .f32⟩
  | 74 => ⟨S8, .f32⟩
  | 75 => ⟨S1x8, .f32⟩
  | _ => ⟨S8192x18, .f32⟩

abbrev hbmTy (i : Nat) : BufTy := match i / 128 with
  | 0 => hbmTy0_0 i
  | 1 => hbmTy0_1 i
  | _ => ⟨S8192x18, .f32⟩

abbrev bufTy : (tb : Table) → Fin (tcTables nBuf tb) → BufTy
  | .hbm, ⟨i, _⟩ => hbmTy i
  | .local _ .vmem, ⟨0, _⟩ => ⟨S2048x2048, .f32⟩
  | .local _ .vmem, ⟨1, _⟩ => ⟨S2048x2048, .f32⟩
  | .local _ .vmem, ⟨2, _⟩ => ⟨S2048x16, .f32⟩
  | .local _ .vmem, ⟨3, _⟩ => ⟨S2048x16, .f32⟩
  | .local _ .vmem, ⟨4, _⟩ => ⟨S1x16, .f32⟩
  | .local _ .vmem, ⟨5, _⟩ => ⟨S2048x16, .f32⟩
  | .local _ .vmem, ⟨6, _⟩ => ⟨S2048x16, .f32⟩
  | .local _ .vmem, ⟨7, _⟩ => ⟨S2048x2048, .bf16⟩
  | .local _ .vmem, ⟨8, _⟩ => ⟨S2048x2048, .bf16⟩
  | .local _ .vmem, ⟨9, _⟩ => ⟨S2048x16, .f32⟩
  | .local _ .vmem, ⟨10, _⟩ => ⟨S4096x2048, .bf16⟩
  | .local _ .vmem, ⟨11, _⟩ => ⟨S4096x2048, .bf16⟩
  | .local _ .vmem, ⟨12, _⟩ => ⟨S2048x16, .f32⟩
  | .local _ .vmem, ⟨13, _⟩ => ⟨S2048x16, .f32⟩
  | .local _ .vmem, ⟨14, _⟩ => ⟨S1x16, .f32⟩
  | .local _ .vmem, ⟨15, _⟩ => ⟨S4096x16, .f32⟩
  | .local _ .vmem, ⟨16, _⟩ => ⟨S4096x16, .f32⟩
  | .local _ .vmem, ⟨17, _⟩ => ⟨S4096x16, .f32⟩
  | .local _ .vmem, ⟨18, _⟩ => ⟨S4096x2048, .bf16⟩
  | .local _ .vmem, ⟨19, _⟩ => ⟨S4096x2048, .bf16⟩
  | .local _ .vmem, ⟨20, _⟩ => ⟨S2048x28, .f32⟩
  | .local _ .vmem, ⟨21, _⟩ => ⟨S2048x28, .f32⟩
  | .local _ .vmem, ⟨22, _⟩ => ⟨S1x28, .f32⟩
  | .local _ .vmem, ⟨23, _⟩ => ⟨S4096x28, .f32⟩
  | .local _ .vmem, ⟨24, _⟩ => ⟨S4096x28, .f32⟩
  | .local _ .vmem, ⟨25, _⟩ => ⟨S4096x28, .f32⟩
  | .local _ .vmem, ⟨26, _⟩ => ⟨S4096x2048, .bf16⟩
  | .local _ .vmem, ⟨27, _⟩ => ⟨S4096x2048, .bf16⟩
  | .local _ .vmem, ⟨28, _⟩ => ⟨S2048x20, .f32⟩
  | .local _ .vmem, ⟨29, _⟩ => ⟨S2048x20, .f32⟩
  | .local _ .vmem, ⟨30, _⟩ => ⟨S1x20, .f32⟩
  | .local _ .vmem, ⟨31, _⟩ => ⟨S4096x20, .f32⟩
  | .local _ .vmem, ⟨32, _⟩ => ⟨S4096x20, .f32⟩
  | .local _ .vmem, ⟨33, _⟩ => ⟨S4096x20, .f32⟩
  | _, _ => ⟨S8192x18, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2_0 : Ref sig .tc := ⟨.hbm, 22, rfl⟩
abbrev main_v2_1 : Ref sig .tc := ⟨.hbm, 23, rfl⟩
abbrev main_cst : Ref sig .tc := ⟨.hbm, 24, rfl⟩
abbrev main_v3 : Ref sig .tc := ⟨.hbm, 25, rfl⟩
abbrev main_cst_0 : Ref sig .tc := ⟨.hbm, 26, rfl⟩
abbrev main_v4 : Ref sig .tc := ⟨.hbm, 27, rfl⟩
abbrev main_v5 : Ref sig .tc := ⟨.hbm, 28, rfl⟩
abbrev main_c : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_cst_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_cst_1 : Ref sig .tc := ⟨.hbm, 40, rfl⟩
abbrev main_call0_v8 : Ref sig .tc := ⟨.hbm, 41, rfl⟩
abbrev main_call0_cst_2 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_cst_3 : Ref sig .tc := ⟨.hbm, 46, rfl⟩
abbrev main_call0_v12 : Ref sig .tc := ⟨.hbm, 47, rfl⟩
abbrev main_call0_cst_4 : Ref sig .tc := ⟨.hbm, 48, rfl⟩
abbrev main_call0_call0_v0 : Ref sig .tc := ⟨.hbm, 49, rfl⟩
abbrev main_call0_call0_v1 : Ref sig .tc := ⟨.hbm, 50, rfl⟩
abbrev main_v6 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_cst_1 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_cst_2 : Ref sig .tc := ⟨.hbm, 71, rfl⟩
abbrev main_v25 : Ref sig .tc := ⟨.hbm, 72, rfl⟩
abbrev main_cst_3 : Ref sig .tc := ⟨.hbm, 73, rfl⟩
abbrev main_v26 : Ref sig .tc := ⟨.hbm, 74, rfl⟩
abbrev main_v27 : Ref sig .tc := ⟨.hbm, 75, rfl⟩
abbrev main_c_4 : Ref sig .tc := ⟨.hbm, 76, rfl⟩
abbrev main_call1_cst : Ref sig .tc := ⟨.hbm, 77, rfl⟩
abbrev main_call1_v0 : Ref sig .tc := ⟨.hbm, 78, rfl⟩
abbrev main_call1_v1 : Ref sig .tc := ⟨.hbm, 79, rfl⟩
abbrev main_call1_cst_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_cst_1 : Ref sig .tc := ⟨.hbm, 87, rfl⟩
abbrev main_call1_v8 : Ref sig .tc := ⟨.hbm, 88, rfl⟩
abbrev main_call1_cst_2 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_cst_3 : Ref sig .tc := ⟨.hbm, 93, rfl⟩
abbrev main_call1_v12 : Ref sig .tc := ⟨.hbm, 94, rfl⟩
abbrev main_call1_cst_4 : Ref sig .tc := ⟨.hbm, 95, rfl⟩
abbrev main_call1_call0_v0 : Ref sig .tc := ⟨.hbm, 96, rfl⟩
abbrev main_call1_call0_v1 : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev main_cst_5 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_cst_6 : Ref sig .tc := ⟨.hbm, 122, rfl⟩
abbrev main_v51 : Ref sig .tc := ⟨.hbm, 123, rfl⟩
abbrev main_cst_7 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_cst_8 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_cst_9 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_call2_cst : Ref sig .tc := ⟨.hbm, 149, rfl⟩
abbrev main_call2_v0 : Ref sig .tc := ⟨.hbm, 150, rfl⟩
abbrev main_v74 : Ref sig .tc := ⟨.hbm, 151, rfl⟩
abbrev main_cst_10 : Ref sig .tc := ⟨.hbm, 152, rfl⟩
abbrev main_v75 : Ref sig .tc := ⟨.hbm, 153, rfl⟩
abbrev main_cst_11 : Ref sig .tc := ⟨.hbm, 154, rfl⟩
abbrev main_v76 : Ref sig .tc := ⟨.hbm, 155, rfl⟩
abbrev main_v77 : Ref sig .tc := ⟨.hbm, 156, rfl⟩
abbrev main_c_12 : Ref sig .tc := ⟨.hbm, 157, rfl⟩
abbrev main_call3_cst : Ref sig .tc := ⟨.hbm, 158, rfl⟩
abbrev main_call3_v0 : Ref sig .tc := ⟨.hbm, 159, rfl⟩
abbrev main_call3_v1 : Ref sig .tc := ⟨.hbm, 160, rfl⟩
abbrev main_call3_cst_0 : Ref sig .tc := ⟨.hbm, 161, rfl⟩
abbrev main_call3_v2 : Ref sig .tc := ⟨.hbm, 162, rfl⟩
abbrev main_call3_v3 : Ref sig .tc := ⟨.hbm, 163, rfl⟩
abbrev main_call3_v4 : Ref sig .tc := ⟨.hbm, 164, rfl⟩
abbrev main_call3_v5 : Ref sig .tc := ⟨.hbm, 165, rfl⟩
abbrev main_call3_v6 : Ref sig .tc := ⟨.hbm, 166, rfl⟩
abbrev main_call3_v7 : Ref sig .tc := ⟨.hbm, 167, rfl⟩
abbrev main_call3_cst_1 : Ref sig .tc := ⟨.hbm, 168, rfl⟩
abbrev main_call3_v8 : Ref sig .tc := ⟨.hbm, 169, rfl⟩
abbrev main_call3_cst_2 : Ref sig .tc := ⟨.hbm, 170, rfl⟩
abbrev main_call3_v9 : Ref sig .tc := ⟨.hbm, 171, rfl⟩
abbrev main_call3_v10 : Ref sig .tc := ⟨.hbm, 172, rfl⟩
abbrev main_call3_v11 : Ref sig .tc := ⟨.hbm, 173, rfl⟩
abbrev main_call3_cst_3 : Ref sig .tc := ⟨.hbm, 174, rfl⟩
abbrev main_call3_v12 : Ref sig .tc := ⟨.hbm, 175, rfl⟩
abbrev main_call3_cst_4 : Ref sig .tc := ⟨.hbm, 176, rfl⟩
abbrev main_call3_call0_v0 : Ref sig .tc := ⟨.hbm, 177, rfl⟩
abbrev main_call3_call0_v1 : Ref sig .tc := ⟨.hbm, 178, rfl⟩
abbrev main_v78 : Ref sig .tc := ⟨.hbm, 179, rfl⟩
abbrev main_v79 : Ref sig .tc := ⟨.hbm, 180, rfl⟩
abbrev main_v80 : Ref sig .tc := ⟨.hbm, 181, rfl⟩
abbrev main_v81 : Ref sig .tc := ⟨.hbm, 182, rfl⟩
abbrev main_v82 : Ref sig .tc := ⟨.hbm, 183, rfl⟩
abbrev main_v83 : Ref sig .tc := ⟨.hbm, 184, rfl⟩
abbrev main_v84 : Ref sig .tc := ⟨.hbm, 185, rfl⟩
abbrev main_cst_13 : Ref sig .tc := ⟨.hbm, 186, rfl⟩
abbrev main_v85 : Ref sig .tc := ⟨.hbm, 187, rfl⟩
abbrev main_v86 : Ref sig .tc := ⟨.hbm, 188, rfl⟩
abbrev main_v87 : Ref sig .tc := ⟨.hbm, 189, rfl⟩
abbrev main_v88 : Ref sig .tc := ⟨.hbm, 190, rfl⟩
abbrev main_v89 : Ref sig .tc := ⟨.hbm, 191, rfl⟩
abbrev main_v90 : Ref sig .tc := ⟨.hbm, 192, rfl⟩
abbrev main_v91 : Ref sig .tc := ⟨.hbm, 193, rfl⟩
abbrev main_v92 : Ref sig .tc := ⟨.hbm, 194, rfl⟩
abbrev main_v93 : Ref sig .tc := ⟨.hbm, 195, rfl⟩
abbrev main_v94 : Ref sig .tc := ⟨.hbm, 196, rfl⟩
abbrev main_v95 : Ref sig .tc := ⟨.hbm, 197, rfl⟩
abbrev main_v96 : Ref sig .tc := ⟨.hbm, 198, rfl⟩
abbrev main_v97 : Ref sig .tc := ⟨.hbm, 199, rfl⟩
abbrev main_v98 : Ref sig .tc := ⟨.hbm, 200, rfl⟩
abbrev main_cst_14 : Ref sig .tc := ⟨.hbm, 201, rfl⟩
abbrev main_v99 : Ref sig .tc := ⟨.hbm, 202, rfl⟩
abbrev main_v100 : Ref sig .tc := ⟨.hbm, 203, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc2_scratch0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc3_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4096x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S4096x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![2, 4], ![false, false]⟩

def k2_cond2 (i : grid2.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S4096x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x28 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x28 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S4096x28 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![2, 4], ![false, false]⟩

def k3_cond2 (i : grid3.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S4096x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x20 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x20 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S4096x20 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  shapeCasts_S16_S1x16 : S16.ShapeCasts S1x16
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S2048x2048_S2048x2048_0_0 : ∀ a, (![0, 0] : Fin 2 → Nat) a + S2048x2048.size a ≤ S2048x2048.size a
  h_S2048x2048 : 0 < S2048x2048.numel
  bitsLt_bf16_f32 : FTy.bits .bf16 < FTy.bits .f32
  packedbf16_S2048x2048_S2048x2048_0_0 : (Rect.unit (s := S2048x2048) ![0, 0] S2048x2048.size inb_S2048x2048_S2048x2048_0_0).PackedRows (EltTy.packing .bf16)
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  reducesTo_S8192x16_S16_d0 : S8192x16.ReducesTo [0] S16
  h_S_ : 0 < S_.numel
  bcast_S_S16 : S_.BroadcastsInDim S16 (![] : Fin 0 → Fin S16.rank)
  bcast_S16_S1x16_1 : S16.BroadcastsInDim S1x16 (![1] : Fin 1 → Fin S1x16.rank)
  bcast_S_S1x16 : S_.BroadcastsInDim S1x16 (![] : Fin 0 → Fin S1x16.rank)
  bcast_S1x16_S8192x16_0_1 : S1x16.BroadcastsInDim S8192x16 (![0, 1] : Fin 2 → Fin S8192x16.rank)
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  broadcasts_S1x16_S4096x16 : S1x16.Broadcasts S4096x16
  concatenates_S16x8_S16x20_S16x28_d1 : Shape.Concatenates [S16x8, S16x20] S16x28 1
  concatenates_S8_S20_S28_d0 : Shape.Concatenates [S8, S20] S28 0
  shapeCasts_S28_S1x28 : S28.ShapeCasts S1x28
  inb_S4096x28_S4096x28_0_0 : ∀ a, (![0, 0] : Fin 2 → Nat) a + S4096x28.size a ≤ S4096x28.size a
  h_S4096x28 : 0 < S4096x28.numel
  shapeCasts_S4096x28_S4096x28 : S4096x28.ShapeCasts S4096x28
  inb_S2048x28_S2048x28_0_0 : ∀ a, (![0, 0] : Fin 2 → Nat) a + S2048x28.size a ≤ S2048x28.size a
  h_S2048x28 : 0 < S2048x28.numel
  shapeCasts_S2048x28_S2048x28 : S2048x28.ShapeCasts S2048x28
  inb_S1x28_S1x28_0_0 : ∀ a, (![0, 0] : Fin 2 → Nat) a + S1x28.size a ≤ S1x28.size a
  h_S1x28 : 0 < S1x28.numel
  shapeCasts_S1x28_S1x28 : S1x28.ShapeCasts S1x28
  broadcasts_S1x28_S4096x28 : S1x28.Broadcasts S4096x28
  slices_S8192x28_S8192x8_0_0 : S8192x28.Slices ![0, 0] S8192x8
  slices_S8192x28_S8192x20_0_8 : S8192x28.Slices ![0, 8] S8192x20
  reducesTo_S8192x20_S8192_d1 : S8192x20.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x20_0_1 : S8192x1.BroadcastsInDim S8192x20 (![0, 1] : Fin 2 → Fin S8192x20.rank)
  bcast_S_S20 : S_.BroadcastsInDim S20 (![] : Fin 0 → Fin S20.rank)
  shapeCasts_S20_S1x20 : S20.ShapeCasts S1x20
  inb_S4096x20_S4096x20_0_0 : ∀ a, (![0, 0] : Fin 2 → Nat) a + S4096x20.size a ≤ S4096x20.size a
  h_S4096x20 : 0 < S4096x20.numel
  shapeCasts_S4096x20_S4096x20 : S4096x20.ShapeCasts S4096x20
  inb_S2048x20_S2048x20_0_0 : ∀ a, (![0, 0] : Fin 2 → Nat) a + S2048x20.size a ≤ S2048x20.size a
  h_S2048x20 : 0 < S2048x20.numel
  shapeCasts_S2048x20_S2048x20 : S2048x20.ShapeCasts S2048x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S4096x20 : S1x20.Broadcasts S4096x20
  transposes_S8192x20_S20x8192_1_0 : S8192x20.Transposes [1, 0] S20x8192
  bcast_S8_S1x8_1 : S8.BroadcastsInDim S1x8 (![1] : Fin 1 → Fin S1x8.rank)
  bcast_S1x8_S20x8_0_1 : S1x8.BroadcastsInDim S20x8 (![0, 1] : Fin 2 → Fin S20x8.rank)
  bcast_S_S20x8 : S_.BroadcastsInDim S20x8 (![] : Fin 0 → Fin S20x8.rank)
  reducesTo_S20x8_S8_d0 : S20x8.ReducesTo [0] S8
  bcast_S_S8 : S_.BroadcastsInDim S8 (![] : Fin 0 → Fin S8.rank)
  bcast_S_S1x8 : S_.BroadcastsInDim S1x8 (![] : Fin 0 → Fin S1x8.rank)
  dot_S8192x18_S18x16_S8192x16_1_0_0_1_n_n_wf : DotDims.WF S8192x18 S18x16 S8192x16 [1] [0] [0] [1] [] []
  dot_S2048x2048_S2048x16_S2048x16_1_0_0_1_n_n_wf : DotDims.WF S2048x2048 S2048x16 S2048x16 [1] [0] [0] [1] [] []
  dot_S8192x16_S16x16_S8192x16_1_0_0_1_n_n_wf : DotDims.WF S8192x16 S16x16 S8192x16 [1] [0] [0] [1] [] []
  dot_S4096x2048_S2048x16_S4096x16_1_0_0_1_n_n_wf : DotDims.WF S4096x2048 S2048x16 S4096x16 [1] [0] [0] [1] [] []
  dot_S8192x16_S16x28_S8192x28_1_0_0_1_n_n_wf : DotDims.WF S8192x16 S16x28 S8192x28 [1] [0] [0] [1] [] []
  dot_S4096x2048_S2048x28_S4096x28_1_0_0_1_n_n_wf : DotDims.WF S4096x2048 S2048x28 S4096x28 [1] [0] [0] [1] [] []
  dot_S4096x2048_S2048x20_S4096x20_1_0_0_1_n_n_wf : DotDims.WF S4096x2048 S2048x20 S4096x20 [1] [0] [0] [1] [] []
  dot_S20x8192_S8192x8_S20x8_1_0_0_1_n_n_wf : DotDims.WF S20x8192 S8192x8 S20x8 [1] [0] [0] [1] [] []
  dot_S20x8192_S8192x20_S20x20_1_0_0_1_n_n_wf : DotDims.WF S20x8192 S8192x20 S20x20 [1] [0] [0] [1] [] []
  dot_S20x8_S8x8_S20x8_1_0_0_1_n_n_wf : DotDims.WF S20x8 S8x8 S20x8 [1] [0] [0] [1] [] []
  dot_S20x20_S20x8_S20x8_1_0_0_1_n_n_wf : DotDims.WF S20x20 S20x8 S20x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x8192.size a
  hwx0_0 : ∀ i : grid0.Coords, EltTy.bits .f32 = 32 ∨ (Rect.block (s := S8192x8192) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S8192x16.size a
  hwx0_1 : ∀ i : grid0.Coords, EltTy.bits .f32 = 32 ∨ (Rect.block (s := S8192x16) S2048x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x16.size a ≤ S8192x16.size a
  hwx0_3 : ∀ i : grid0.Coords, EltTy.bits .f32 = 32 ∨ (Rect.block (s := S8192x16) S2048x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S8192x8192.size a
  hwx0_4 : ∀ i : grid0.Coords, EltTy.bits .bf16 = 32 ∨ (Rect.block (s := S8192x8192) S2048x2048.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x2048.size a ≤ S8192x8192.size a
  hwx1_0 : ∀ i : grid1.Coords, EltTy.bits .bf16 = 32 ∨ (Rect.block (s := S8192x8192) S4096x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x16.size a ≤ S8192x16.size a
  hwx1_1 : ∀ i : grid1.Coords, EltTy.bits .f32 = 32 ∨ (Rect.block (s := S8192x16) S2048x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x16.size a ≤ S8192x16.size a
  hwx1_3 : ∀ i : grid1.Coords, EltTy.bits .f32 = 32 ∨ (Rect.block (s := S8192x16) S4096x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x2048.size a ≤ S8192x8192.size a
  hwx2_0 : ∀ i : grid2.Coords, EltTy.bits .bf16 = 32 ∨ (Rect.block (s := S8192x8192) S4096x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x28.size a ≤ S8192x28.size a
  hwx2_1 : ∀ i : grid2.Coords, EltTy.bits .f32 = 32 ∨ (Rect.block (s := S8192x28) S2048x28.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x28.size a ≤ S1x28.size a
  hwx2_2 : ∀ i : grid2.Coords, EltTy.bits .f32 = 32 ∨ (Rect.block (s := S1x28) S1x28.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x28.size a ≤ S8192x28.size a
  hwx2_3 : ∀ i : grid2.Coords, EltTy.bits .f32 = 32 ∨ (Rect.block (s := S8192x28) S4096x28.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x2048.size a ≤ S8192x8192.size a
  hwx3_0 : ∀ i : grid3.Coords, EltTy.bits .bf16 = 32 ∨ (Rect.block (s := S8192x8192) S4096x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x20.size a ≤ S8192x20.size a
  hwx3_1 : ∀ i : grid3.Coords, EltTy.bits .f32 = 32 ∨ (Rect.block (s := S8192x20) S2048x20.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x20.size a ≤ S1x20.size a
  hwx3_2 : ∀ i : grid3.Coords, EltTy.bits .f32 = 32 ∨ (Rect.block (s := S1x20) S1x20.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4096x20.size a ≤ S8192x20.size a
  hwx3_3 : ∀ i : grid3.Coords, EltTy.bits .f32 = 32 ∨ (Rect.block (s := S8192x20) S4096x20.size (cc3_transform_3 i) (hinb3_3 i)).WholeWords (EltTy.packing .f32)

variable [Facts₀]

def dot_S8192x18_S18x16_S8192x16_1_0_0_1_n_n : DotDims S8192x18 S18x16 S8192x16 where
  lhsContracting := [1]
  rhsContracting := [0]
  lhsNonContracting := [0]
  rhsNonContracting := [1]
  lhsBatch := []
  rhsBatch := []
  wf := dot_S8192x18_S18x16_S8192x16_1_0_0_1_n_n_wf
def dot_S2048x2048_S2048x16_S2048x16_1_0_0_1_n_n : DotDims S2048x2048 S2048x16 S2048x16 where
  lhsContracting := [1]
  rhsContracting := [0]
  lhsNonContracting := [0]
  rhsNonContracting := [1]
  lhsBatch := []
  rhsBatch := []
  wf := dot_S2048x2048_S2048x16_S2048x16_1_0_0_1_n_n_wf
def dot_S8192x16_S16x16_S8192x16_1_0_0_1_n_n : DotDims S8192x16 S16x16 S8192x16 where
  lhsContracting := [1]
  rhsContracting := [0]
  lhsNonContracting := [0]
  rhsNonContracting := [1]
  lhsBatch := []
  rhsBatch := []
  wf := dot_S8192x16_S16x16_S8192x16_1_0_0_1_n_n_wf
def dot_S4096x2048_S2048x16_S4096x16_1_0_0_1_n_n : DotDims S4096x2048 S2048x16 S4096x16 where
  lhsContracting := [1]
  rhsContracting := [0]
  lhsNonContracting := [0]
  rhsNonContracting := [1]
  lhsBatch := []
  rhsBatch := []
  wf := dot_S4096x2048_S2048x16_S4096x16_1_0_0_1_n_n_wf
def dot_S8192x16_S16x28_S8192x28_1_0_0_1_n_n : DotDims S8192x16 S16x28 S8192x28 where
  lhsContracting := [1]
  rhsContracting := [0]
  lhsNonContracting := [0]
  rhsNonContracting := [1]
  lhsBatch := []
  rhsBatch := []
  wf := dot_S8192x16_S16x28_S8192x28_1_0_0_1_n_n_wf
def dot_S4096x2048_S2048x28_S4096x28_1_0_0_1_n_n : DotDims S4096x2048 S2048x28 S4096x28 where
  lhsContracting := [1]
  rhsContracting := [0]
  lhsNonContracting := [0]
  rhsNonContracting := [1]
  lhsBatch := []
  rhsBatch := []
  wf := dot_S4096x2048_S2048x28_S4096x28_1_0_0_1_n_n_wf
def dot_S4096x2048_S2048x20_S4096x20_1_0_0_1_n_n : DotDims S4096x2048 S2048x20 S4096x20 where
  lhsContracting := [1]
  rhsContracting := [0]
  lhsNonContracting := [0]
  rhsNonContracting := [1]
  lhsBatch := []
  rhsBatch := []
  wf := dot_S4096x2048_S2048x20_S4096x20_1_0_0_1_n_n_wf
def dot_S20x8192_S8192x8_S20x8_1_0_0_1_n_n : DotDims S20x8192 S8192x8 S20x8 where
  lhsContracting := [1]
  rhsContracting := [0]
  lhsNonContracting := [0]
  rhsNonContracting := [1]
  lhsBatch := []
  rhsBatch := []
  wf := dot_S20x8192_S8192x8_S20x8_1_0_0_1_n_n_wf
def dot_S20x8192_S8192x20_S20x20_1_0_0_1_n_n : DotDims S20x8192 S8192x20 S20x20 where
  lhsContracting := [1]
  rhsContracting := [0]
  lhsNonContracting := [0]
  rhsNonContracting := [1]
  lhsBatch := []
  rhsBatch := []
  wf := dot_S20x8192_S8192x20_S20x20_1_0_0_1_n_n_wf
def dot_S20x8_S8x8_S20x8_1_0_0_1_n_n : DotDims S20x8 S8x8 S20x8 where
  lhsContracting := [1]
  rhsContracting := [0]
  lhsNonContracting := [0]
  rhsNonContracting := [1]
  lhsBatch := []
  rhsBatch := []
  wf := dot_S20x8_S8x8_S20x8_1_0_0_1_n_n_wf
def dot_S20x20_S20x8_S20x8_1_0_0_1_n_n : DotDims S20x20 S20x8 S20x8 where
  lhsContracting := [1]
  rhsContracting := [0]
  lhsNonContracting := [0]
  rhsNonContracting := [1]
  lhsBatch := []
  rhsBatch := []
  wf := dot_S20x20_S20x8_S20x8_1_0_0_1_n_n_wf

abbrev win0_0 : Pipeline.Window sig grid0 :=
  Pipeline.Window.ofSpec (Memref.whole main_arg1) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S2048x16.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S2048x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun _ => false | ⟨_ + 5, h⟩ => absurd h (Nat.not_lt.2 (Nat.le_add_left _ _))

abbrev win1_0 : Pipeline.Window sig grid1 :=
  Pipeline.Window.ofSpec (Memref.whole main_v2_1) S4096x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2048x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S4096x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v2_1) S4096x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S2048x28.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x28.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S4096x28.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v2_1) S4096x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S2048x20.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x20.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S4096x20.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S8192x18 : Shape := ⟨2, ![8192, 18]⟩
abbrev S8192x8192 : Shape := ⟨2, ![8192, 8192]⟩
abbrev S18x16 : Shape := ⟨2, ![18, 16]⟩
abbrev S16 : Shape := ⟨1, ![16]⟩
abbrev S16x16 : Shape := ⟨2, ![16, 16]⟩
abbrev S16x8 : Shape := ⟨2, ![16, 8]⟩
abbrev S8 : Shape := ⟨1, ![8]⟩
abbrev S16x20 : Shape := ⟨2, ![16, 20]⟩
abbrev S20 : Shape := ⟨1, ![20]⟩
abbrev S8x8 : Shape := ⟨2, ![8, 8]⟩
abbrev S8192x16 : Shape := ⟨2, ![8192, 16]⟩
abbrev S1x16 : Shape := ⟨2, ![1, 16]⟩
abbrev S_ : Shape := ⟨0, ![]⟩
abbrev S8192x8 : Shape := ⟨2, ![8192, 8]⟩
abbrev S1x8 : Shape := ⟨2, ![1, 8]⟩
abbrev S8192x20 : Shape := ⟨2, ![8192, 20]⟩
abbrev S1x20 : Shape := ⟨2, ![1, 20]⟩
abbrev S8192 : Shape := ⟨1, ![8192]⟩
abbrev S8192x1 : Shape := ⟨2, ![8192, 1]⟩
abbrev S20x8192 : Shape := ⟨2, ![20, 8192]⟩
abbrev S20x8 : Shape := ⟨2, ![20, 8]⟩
abbrev S20x20 : Shape := ⟨2, ![20, 20]⟩

abbrev nBuf : Space → Nat
  | .hbm => 213
  | .vmem => 0
  | .smem => 0
  | _ => 0

abbrev hbmTy0_0 (i : Nat) : BufTy := match i % 128 with
  | 0 => ⟨S8192x18, .f32⟩
  | 1 => ⟨S8192x8192, .f32⟩
  | 2 => ⟨S18x16, .f32⟩
  | 3 => ⟨S16, .f32⟩
  | 4 => ⟨S16x16, .f32⟩
  | 5 => ⟨S16, .f32⟩
  | 6 => ⟨S16x8, .f32⟩
  | 7 => ⟨S8, .f32⟩
  | 8 => ⟨S16x20, .f32⟩
  | 9 => ⟨S20, .f32⟩
  | 10 => ⟨S8x8, .f32⟩
  | 11 => ⟨S8, .f32⟩
  | 12 => ⟨S8x8, .f32⟩
  | 13 => ⟨S8, .f32⟩
  | 14 => ⟨S16, .f32⟩
  | 15 => ⟨S16, .f32⟩
  | 16 => ⟨S16, .f32⟩
  | 17 => ⟨S16, .f32⟩
  | 18 => ⟨S8, .f32⟩
  | 19 => ⟨S8, .f32⟩
  | 20 => ⟨S8192x16, .f32⟩
  | 21 => ⟨S8192x16, .f32⟩
  | 22 => ⟨S1x16, .f32⟩
  | 23 => ⟨S8192x16, .f32⟩
  | 24 => ⟨S8192x16, .f32⟩
  | 25 => ⟨S_, .f32⟩
  | 26 => ⟨S8192x16, .f32⟩
  | 27 => ⟨S8192x16, .f32⟩
  | 28 => ⟨S_, .f32⟩
  | 29 => ⟨S16, .f32⟩
  | 30 => ⟨S_, .f32⟩
  | 31 => ⟨S16, .f32⟩
  | 32 => ⟨S16, .f32⟩
  | 33 => ⟨S_, .i32⟩
  | 34 => ⟨S_, .f32⟩
  | 35 => ⟨S16, .f32⟩
  | 36 => ⟨S1x16, .f32⟩
  | 37 => ⟨S_, .f32⟩
  | 38 => ⟨S1x16, .f32⟩
  | 39 => ⟨S1x16, .f32⟩
  | 40 => ⟨S8192x16, .f32⟩
  | 41 => ⟨S8192x16, .f32⟩
  | 42 => ⟨S8192x16, .f32⟩
  | 43 => ⟨S_, .f32⟩
  | 44 => ⟨S_, .f32⟩
  | 45 => ⟨S_, .f32⟩
  | 46 => ⟨S_, .f32⟩
  | 47 => ⟨S16, .f32⟩
  | 48 => ⟨S16, .f32⟩
  | 49 => ⟨S16, .f32⟩
  | 50 => ⟨S_, .f32⟩
  | 51 => ⟨S_, .i1⟩
  | 52 => ⟨S_, .f32⟩
  | 53 => ⟨S_, .f32⟩
  | 54 => ⟨S16, .f32⟩
  | 55 => ⟨S16, .f32⟩
  | 56 => ⟨S1x16, .f32⟩
  | 57 => ⟨S8192x16, .f32⟩
  | 58 => ⟨S8192x16, .f32⟩
  | 59 => ⟨S1x16, .f32⟩
  | 60 => ⟨S8192x16, .f32⟩
  | 61 => ⟨S8192x16, .f32⟩
  | 62 => ⟨S_, .f32⟩
  | 63 => ⟨S16, .f32⟩
  | 64 => ⟨S16, .f32⟩
  | 65 => ⟨S16, .f32⟩
  | 66 => ⟨S1x16, .f32⟩
  | 67 => ⟨S8192x16, .f32⟩
  | 68 => ⟨S8192x16, .f32⟩
  | 69 => ⟨S1x16, .f32⟩
  | 70 => ⟨S8192x16, .f32⟩
  | 71 => ⟨S8192x16, .f32⟩
  | 72 => ⟨S8192x16, .f32⟩
  | 73 => ⟨S8192x16, .f32⟩
  | 74 => ⟨S1x16, .f32⟩
  | 75 => ⟨S8192x16, .f32⟩
  | 76 => ⟨S8192x16, .f32⟩
  | 77 => ⟨S_, .f32⟩
  | 78 => ⟨S8192x16, .f32⟩
  | 79 => ⟨S8192x16, .f32⟩
  | 80 => ⟨S_, .f32⟩
  | 81 => ⟨S16, .f32⟩
  | 82 => ⟨S_, .f32⟩
  | 83 => ⟨S16, .f32⟩
  | 84 => ⟨S16, .f32⟩
  | 85 => ⟨S_, .i32⟩
  | 86 => ⟨S_, .f32⟩
  | 87 => ⟨S16, .f32⟩
  | 88 => ⟨S1x16, .f32⟩
  | 89 => ⟨S_, .f32⟩
  | 90 => ⟨S1x16, .f32⟩
  | 91 => ⟨S1x16, .f32⟩
  | 92 => ⟨S8192x16, .f32⟩
  | 93 => ⟨S8192x16, .f32⟩
  | 94 => ⟨S8192x16, .f32⟩
  | 95 => ⟨S_, .f32⟩
  | 96 => ⟨S_, .f32⟩
  | 97 => ⟨S_, .f32⟩
  | 98 => ⟨S_, .f32⟩
  | 99 => ⟨S16, .f32⟩
  | 100 => ⟨S16, .f32⟩
  | 101 => ⟨S16, .f32⟩
  | 102 => ⟨S_, .f32⟩
  | 103 => ⟨S_, .i1⟩
  | 104 => ⟨S_, .f32⟩
  | 105 => ⟨S_, .f32⟩
  | 106 => ⟨S16, .f32⟩
  | 107 => ⟨S16, .f32⟩
  | 108 => ⟨S1x16, .f32⟩
  | 109 => ⟨S8192x16, .f32⟩
  | 110 => ⟨S8192x16, .f32⟩
  | 111 => ⟨S1x16, .f32⟩
  | 112 => ⟨S8192x16, .f32⟩
  | 113 => ⟨S8192x16, .f32⟩
  | 114 => ⟨S_, .f32⟩
  | 115 => ⟨S16, .f32⟩
  | 116 => ⟨S16, .f32⟩
  | 117 => ⟨S16, .f32⟩
  | 118 => ⟨S1x16, .f32⟩
  | 119 => ⟨S8192x16, .f32⟩
  | 120 => ⟨S8192x16, .f32⟩
  | 121 => ⟨S1x16, .f32⟩
  | 122 => ⟨S8192x16, .f32⟩
  | 123 => ⟨S8192x16, .f32⟩
  | 124 => ⟨S8192x8, .f32⟩
  | 125 => ⟨S8192x8, .f32⟩
  | 126 => ⟨S1x8, .f32⟩
  | 127 => ⟨S8192x8, .f32⟩
  | _ => ⟨S8192x18, .f32⟩

abbrev hbmTy0_1 (i : Nat) : BufTy := match i % 128 with
  | 0 => ⟨S8192x8, .f32⟩
  | 1 => ⟨S8192x20, .f32⟩
  | 2 => ⟨S8192x20, .f32⟩
  | 3 => ⟨S1x20, .f32⟩
  | 4 => ⟨S8192x20, .f32⟩
  | 5 => ⟨S8192x20, .f32⟩
  | 6 => ⟨S_, .f32⟩
  | 7 => ⟨S8192, .f32⟩
  | 8 => ⟨S_, .f32⟩
  | 9 => ⟨S8192, .f32⟩
  | 10 => ⟨S8192, .f32⟩
  | 11 => ⟨S8192x1, .f32⟩
  | 12 => ⟨S8192x20, .f32⟩
  | 13 => ⟨S8192x20, .f32⟩
  | 14 => ⟨S8192x20, .f32⟩
  | 15 => ⟨S_, .f32⟩
  | 16 => ⟨S8192, .f32⟩
  | 17 => ⟨S8192x1, .f32⟩
  | 18 => ⟨S8192x20, .f32⟩
  | 19 => ⟨S8192x20, .f32⟩
  | 20 => ⟨S20x8192, .f32⟩
  | 21 => ⟨S20x8, .f32⟩
  | 22 => ⟨S20x8192, .f32⟩
  | 23 => ⟨S20x8192, .f32⟩
  | 24 => ⟨S20x20, .f32⟩
  | 25 => ⟨S20x8, .f32⟩
  | 26 => ⟨S20x8, .f32⟩
  | 27 => ⟨S1x8, .f32⟩
  | 28 => ⟨S20x8, .f32⟩
  | 29 => ⟨S20x8, .f32⟩
  | 30 => ⟨S_, .f32⟩
  | 31 => ⟨S20x8, .f32⟩
  | 32 => ⟨S20x8, .f32⟩
  | 33 => ⟨S_, .f32⟩
  | 34 => ⟨S8, .f32⟩
  | 35 => ⟨S_, .f32⟩
  | 36 => ⟨S8, .f32⟩
  | 37 => ⟨S8, .f32⟩
  | 38 => ⟨S_, .i32⟩
  | 39 => ⟨S_, .f32⟩
  | 40 => ⟨S8, .f32⟩
  | 41 => ⟨S1x8, .f32⟩
  | 42 => ⟨S_, .f32⟩
  | 43 => ⟨S1x8, .f32⟩
  | 44 => ⟨S1x8, .f32⟩
  | 45 => ⟨S20x8, .f32⟩
  | 46 => ⟨S20x8, .f32⟩
  | 47 => ⟨S20x8, .f32⟩
  | 48 => ⟨S_, .f32⟩
  | 49 => ⟨S_, .f32⟩
  | 50 => ⟨S_, .f32⟩
  | 51 => ⟨S_, .f32⟩
  | 52 => ⟨S8, .f32⟩
  | 53 => ⟨S8, .f32⟩
  | 54 => ⟨S8, .f32⟩
  | 55 => ⟨S_, .f32⟩
  | 56 => ⟨S_, .i1⟩
  | 57 => ⟨S_, .f32⟩
  | 58 => ⟨S_, .f32⟩
  | 59 => ⟨S8, .f32⟩
  | 60 => ⟨S8, .f32⟩
  | 61 => ⟨S1x8, .f32⟩
  | 62 => ⟨S20x8, .f32⟩
  | 63 => ⟨S20x8, .f32⟩
  | 64 => ⟨S1x8, .f32⟩
  | 65 => ⟨S20x8, .f32⟩
  | 66 => ⟨S20x8, .f32⟩
  | 67 => ⟨S_, .f32⟩
  | 68 => ⟨S8, .f32⟩
  | 69 => ⟨S8, .f32⟩
  | 70 => ⟨S8, .f32⟩
  | 71 => ⟨S1x8, .f32⟩
  | 72 => ⟨S20x8, .f32⟩
  | 73 => ⟨S20x8, .f32⟩
  | 74 => ⟨S1x8, .f32⟩
  | 75 => ⟨S20x8, .f32⟩
  | 76 => ⟨S20x8, .f32⟩
  | 77 => ⟨S20x8, .f32⟩
  | 78 => ⟨S20x8, .f32⟩
  | 79 => ⟨S1x8, .f32⟩
  | 80 => ⟨S20x8, .f32⟩
  | 81 => ⟨S20x8, .f32⟩
  | 82 => ⟨S_, .f32⟩
  | 83 => ⟨S8, .f32⟩
  | 84 => ⟨S1x8, .f32⟩
  | _ => ⟨S8192x18, .f32⟩

abbrev hbmTy (i : Nat) : BufTy := match i / 128 with
  | 0 => hbmTy0_0 i
  | 1 => hbmTy0_1 i
  | _ => ⟨S8192x18, .f32⟩

abbrev bufTy : (tb : Table) → Fin (tcTables nBuf tb) → BufTy
  | .hbm, ⟨i, _⟩ => hbmTy i
  | _, _ => ⟨S8192x18, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_call0_cst : Ref sig .tc := ⟨.hbm, 25, rfl⟩
abbrev main_call0_v0 : Ref sig .tc := ⟨.hbm, 26, rfl⟩
abbrev main_v5 : Ref sig .tc := ⟨.hbm, 27, rfl⟩
abbrev main_cst : Ref sig .tc := ⟨.hbm, 28, rfl⟩
abbrev main_v6 : Ref sig .tc := ⟨.hbm, 29, rfl⟩
abbrev main_cst_0 : Ref sig .tc := ⟨.hbm, 30, rfl⟩
abbrev main_v7 : Ref sig .tc := ⟨.hbm, 31, rfl⟩
abbrev main_v8 : Ref sig .tc := ⟨.hbm, 32, rfl⟩
abbrev main_c : Ref sig .tc := ⟨.hbm, 33, rfl⟩
abbrev main_call1_cst : Ref sig .tc := ⟨.hbm, 34, rfl⟩
abbrev main_call1_v0 : Ref sig .tc := ⟨.hbm, 35, rfl⟩
abbrev main_call1_v1 : Ref sig .tc := ⟨.hbm, 36, rfl⟩
abbrev main_call1_cst_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_cst_1 : Ref sig .tc := ⟨.hbm, 44, rfl⟩
abbrev main_call1_v8 : Ref sig .tc := ⟨.hbm, 45, rfl⟩
abbrev main_call1_cst_2 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_cst_3 : Ref sig .tc := ⟨.hbm, 50, rfl⟩
abbrev main_call1_v12 : Ref sig .tc := ⟨.hbm, 51, rfl⟩
abbrev main_call1_cst_4 : Ref sig .tc := ⟨.hbm, 52, rfl⟩
abbrev main_call1_call0_v0 : Ref sig .tc := ⟨.hbm, 53, rfl⟩
abbrev main_call1_call0_v1 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_cst_1 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_call2_cst : Ref sig .tc := ⟨.hbm, 77, rfl⟩
abbrev main_call2_v0 : Ref sig .tc := ⟨.hbm, 78, rfl⟩
abbrev main_v30 : Ref sig .tc := ⟨.hbm, 79, rfl⟩
abbrev main_cst_2 : Ref sig .tc := ⟨.hbm, 80, rfl⟩
abbrev main_v31 : Ref sig .tc := ⟨.hbm, 81, rfl⟩
abbrev main_cst_3 : Ref sig .tc := ⟨.hbm, 82, rfl⟩
abbrev main_v32 : Ref sig .tc := ⟨.hbm, 83, rfl⟩
abbrev main_v33 : Ref sig .tc := ⟨.hbm, 84, rfl⟩
abbrev main_c_4 : Ref sig .tc := ⟨.hbm, 85, rfl⟩
abbrev main_call3_cst : Ref sig .tc := ⟨.hbm, 86, rfl⟩
abbrev main_call3_v0 : Ref sig .tc := ⟨.hbm, 87, rfl⟩
abbrev main_call3_v1 : Ref sig .tc := ⟨.hbm, 88, rfl⟩
abbrev main_call3_cst_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_v6 : Ref sig .tc := ⟨.hbm, 94, rfl⟩
abbrev main_call3_v7 : Ref sig .tc := ⟨.hbm, 95, rfl⟩
abbrev main_call3_cst_1 : Ref sig .tc := ⟨.hbm, 96, rfl⟩
abbrev main_call3_v8 : Ref sig .tc := ⟨.hbm, 97, rfl⟩
abbrev main_call3_cst_2 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_cst_3 : Ref sig .tc := ⟨.hbm, 102, rfl⟩
abbrev main_call3_v12 : Ref sig .tc := ⟨.hbm, 103, rfl⟩
abbrev main_call3_cst_4 : Ref sig .tc := ⟨.hbm, 104, rfl⟩
abbrev main_call3_call0_v0 : Ref sig .tc := ⟨.hbm, 105, rfl⟩
abbrev main_call3_call0_v1 : Ref sig .tc := ⟨.hbm, 106, rfl⟩
abbrev main_v34 : Ref sig .tc := ⟨.hbm, 107, rfl⟩
abbrev main_v35 : Ref sig .tc := ⟨.hbm, 108, rfl⟩
abbrev main_v36 : Ref sig .tc := ⟨.hbm, 109, rfl⟩
abbrev main_v37 : Ref sig .tc := ⟨.hbm, 110, rfl⟩
abbrev main_v38 : Ref sig .tc := ⟨.hbm, 111, rfl⟩
abbrev main_v39 : Ref sig .tc := ⟨.hbm, 112, rfl⟩
abbrev main_v40 : Ref sig .tc := ⟨.hbm, 113, rfl⟩
abbrev main_cst_5 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_cst_6 : Ref sig .tc := ⟨.hbm, 134, rfl⟩
abbrev main_v60 : Ref sig .tc := ⟨.hbm, 135, rfl⟩
abbrev main_cst_7 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_cst_8 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_call4_cst : Ref sig .tc := ⟨.hbm, 158, rfl⟩
abbrev main_call4_v0 : Ref sig .tc := ⟨.hbm, 159, rfl⟩
abbrev main_v81 : Ref sig .tc := ⟨.hbm, 160, rfl⟩
abbrev main_cst_9 : Ref sig .tc := ⟨.hbm, 161, rfl⟩
abbrev main_v82 : Ref sig .tc := ⟨.hbm, 162, rfl⟩
abbrev main_cst_10 : Ref sig .tc := ⟨.hbm, 163, rfl⟩
abbrev main_v83 : Ref sig .tc := ⟨.hbm, 164, rfl⟩
abbrev main_v84 : Ref sig .tc := ⟨.hbm, 165, rfl⟩
abbrev main_c_11 : Ref sig .tc := ⟨.hbm, 166, rfl⟩
abbrev main_call5_cst : Ref sig .tc := ⟨.hbm, 167, rfl⟩
abbrev main_call5_v0 : Ref sig .tc := ⟨.hbm, 168, rfl⟩
abbrev main_call5_v1 : Ref sig .tc := ⟨.hbm, 169, rfl⟩
abbrev main_call5_cst_0 : Ref sig .tc := ⟨.hbm, 170, rfl⟩
abbrev main_call5_v2 : Ref sig .tc := ⟨.hbm, 171, rfl⟩
abbrev main_call5_v3 : Ref sig .tc := ⟨.hbm, 172, rfl⟩
abbrev main_call5_v4 : Ref sig .tc := ⟨.hbm, 173, rfl⟩
abbrev main_call5_v5 : Ref sig .tc := ⟨.hbm, 174, rfl⟩
abbrev main_call5_v6 : Ref sig .tc := ⟨.hbm, 175, rfl⟩
abbrev main_call5_v7 : Ref sig .tc := ⟨.hbm, 176, rfl⟩
abbrev main_call5_cst_1 : Ref sig .tc := ⟨.hbm, 177, rfl⟩
abbrev main_call5_v8 : Ref sig .tc := ⟨.hbm, 178, rfl⟩
abbrev main_call5_cst_2 : Ref sig .tc := ⟨.hbm, 179, rfl⟩
abbrev main_call5_v9 : Ref sig .tc := ⟨.hbm, 180, rfl⟩
abbrev main_call5_v10 : Ref sig .tc := ⟨.hbm, 181, rfl⟩
abbrev main_call5_v11 : Ref sig .tc := ⟨.hbm, 182, rfl⟩
abbrev main_call5_cst_3 : Ref sig .tc := ⟨.hbm, 183, rfl⟩
abbrev main_call5_v12 : Ref sig .tc := ⟨.hbm, 184, rfl⟩
abbrev main_call5_cst_4 : Ref sig .tc := ⟨.hbm, 185, rfl⟩
abbrev main_call5_call0_v0 : Ref sig .tc := ⟨.hbm, 186, rfl⟩
abbrev main_call5_call0_v1 : Ref sig .tc := ⟨.hbm, 187, rfl⟩
abbrev main_v85 : Ref sig .tc := ⟨.hbm, 188, rfl⟩
abbrev main_v86 : Ref sig .tc := ⟨.hbm, 189, rfl⟩
abbrev main_v87 : Ref sig .tc := ⟨.hbm, 190, rfl⟩
abbrev main_v88 : Ref sig .tc := ⟨.hbm, 191, rfl⟩
abbrev main_v89 : Ref sig .tc := ⟨.hbm, 192, rfl⟩
abbrev main_v90 : Ref sig .tc := ⟨.hbm, 193, rfl⟩
abbrev main_v91 : Ref sig .tc := ⟨.hbm, 194, rfl⟩
abbrev main_cst_12 : Ref sig .tc := ⟨.hbm, 195, rfl⟩
abbrev main_v92 : Ref sig .tc := ⟨.hbm, 196, rfl⟩
abbrev main_v93 : Ref sig .tc := ⟨.hbm, 197, rfl⟩
abbrev main_v94 : Ref sig .tc := ⟨.hbm, 198, rfl⟩
abbrev main_v95 : Ref sig .tc := ⟨.hbm, 199, rfl⟩
abbrev main_v96 : Ref sig .tc := ⟨.hbm, 200, rfl⟩
abbrev main_v97 : Ref sig .tc := ⟨.hbm, 201, rfl⟩
abbrev main_v98 : Ref sig .tc := ⟨.hbm, 202, rfl⟩
abbrev main_v99 : Ref sig .tc := ⟨.hbm, 203, rfl⟩
abbrev main_v100 : Ref sig .tc := ⟨.hbm, 204, rfl⟩
abbrev main_v101 : Ref sig .tc := ⟨.hbm, 205, rfl⟩
abbrev main_v102 : Ref sig .tc := ⟨.hbm, 206, rfl⟩
abbrev main_v103 : Ref sig .tc := ⟨.hbm, 207, rfl⟩
abbrev main_v104 : Ref sig .tc := ⟨.hbm, 208, rfl⟩
abbrev main_v105 : Ref sig .tc := ⟨.hbm, 209, rfl⟩
abbrev main_cst_13 : Ref sig .tc := ⟨.hbm, 210, rfl⟩
abbrev main_v106 : Ref sig .tc := ⟨.hbm, 211, rfl⟩
abbrev main_v107 : Ref sig .tc := ⟨.hbm, 212, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bcast_S_S8192x16 : S_.BroadcastsInDim S8192x16 (![] : Fin 0 → Fin S8192x16.rank)
  reducesTo_S8192x16_S16_d0 : S8192x16.ReducesTo [0] S16
  h_S_ : 0 < S_.numel
  bcast_S_S16 : S_.BroadcastsInDim S16 (![] : Fin 0 → Fin S16.rank)
  bcast_S_S1x16 : S_.BroadcastsInDim S1x16 (![] : Fin 0 → Fin S1x16.rank)
  bcast_S8_S1x8_1 : S8.BroadcastsInDim S1x8 (![1] : Fin 1 → Fin S1x8.rank)
  bcast_S1x8_S8192x8_0_1 : S1x8.BroadcastsInDim S8192x8 (![0, 1] : Fin 2 → Fin S8192x8.rank)
  bcast_S20_S1x20_1 : S20.BroadcastsInDim S1x20 (![1] : Fin 1 → Fin S1x20.rank)
  bcast_S1x20_S8192x20_0_1 : S1x20.BroadcastsInDim S8192x20 (![0, 1] : Fin 2 → Fin S8192x20.rank)
  reducesTo_S8192x20_S8192_d1 : S8192x20.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x20_0_1 : S8192x1.BroadcastsInDim S8192x20 (![0, 1] : Fin 2 → Fin S8192x20.rank)
  transposes_S8192x20_S20x8192_1_0 : S8192x20.Transposes [1, 0] S20x8192
  bcast_S1x8_S20x8_0_1 : S1x8.BroadcastsInDim S20x8 (![0, 1] : Fin 2 → Fin S20x8.rank)
  bcast_S_S20x8 : S_.BroadcastsInDim S20x8 (![] : Fin 0 → Fin S20x8.rank)
  reducesTo_S20x8_S8_d0 : S20x8.ReducesTo [0] S8
  bcast_S_S8 : S_.BroadcastsInDim S8 (![] : Fin 0 → Fin S8.rank)
  bcast_S_S1x8 : S_.BroadcastsInDim S1x8 (![] : Fin 0 → Fin S1x8.rank)
  dot_S8192x18_S18x16_S8192x16_1_0_0_1_n_n_wf : DotDims.WF S8192x18 S18x16 S8192x16 [1] [0] [0] [1] [] []
  dot_S8192x8192_S8192x16_S8192x16_1_0_0_1_n_n_wf : DotDims.WF S8192x8192 S8192x16 S8192x16 [1] [0] [0] [1] [] []
  dot_S8192x16_S16x16_S8192x16_1_0_0_1_n_n_wf : DotDims.WF S8192x16 S16x16 S8192x16 [1] [0] [0] [1] [] []
  dot_S8192x16_S16x8_S8192x8_1_0_0_1_n_n_wf : DotDims.WF S8192x16 S16x8 S8192x8 [1] [0] [0] [1] [] []
  dot_S8192x8192_S8192x8_S8192x8_1_0_0_1_n_n_wf : DotDims.WF S8192x8192 S8192x8 S8192x8 [1] [0] [0] [1] [] []
  dot_S8192x16_S16x20_S8192x20_1_0_0_1_n_n_wf : DotDims.WF S8192x16 S16x20 S8192x20 [1] [0] [0] [1] [] []
  dot_S8192x8192_S8192x20_S8192x20_1_0_0_1_n_n_wf : DotDims.WF S8192x8192 S8192x20 S8192x20 [1] [0] [0] [1] [] []
  dot_S20x8192_S8192x8_S20x8_1_0_0_1_n_n_wf : DotDims.WF S20x8192 S8192x8 S20x8 [1] [0] [0] [1] [] []
  dot_S20x8192_S8192x8192_S20x8192_1_0_0_1_n_n_wf : DotDims.WF S20x8192 S8192x8192 S20x8192 [1] [0] [0] [1] [] []
  dot_S20x8192_S8192x20_S20x20_1_0_0_1_n_n_wf : DotDims.WF S20x8192 S8192x20 S20x20 [1] [0] [0] [1] [] []
  dot_S20x8_S8x8_S20x8_1_0_0_1_n_n_wf : DotDims.WF S20x8 S8x8 S20x8 [1] [0] [0] [1] [] []
  dot_S20x20_S20x8_S20x8_1_0_0_1_n_n_wf : DotDims.WF S20x20 S20x8 S20x8 [1] [0] [0] [1] [] []

variable [Facts₀]

def dot_S8192x18_S18x16_S8192x16_1_0_0_1_n_n : DotDims S8192x18 S18x16 S8192x16 where
  lhsContracting := [1]
  rhsContracting := [0]
  lhsNonContracting := [0]
  rhsNonContracting := [1]
  lhsBatch := []
  rhsBatch := []
  wf := dot_S8192x18_S18x16_S8192x16_1_0_0_1_n_n_wf
def dot_S8192x8192_S8192x16_S8192x16_1_0_0_1_n_n : DotDims S8192x8192 S8192x16 S8192x16 where
  lhsContracting := [1]
  rhsContracting := [0]
  lhsNonContracting := [0]
  rhsNonContracting := [1]
  lhsBatch := []
  rhsBatch := []
  wf := dot_S8192x8192_S8192x16_S8192x16_1_0_0_1_n_n_wf
def dot_S8192x16_S16x16_S8192x16_1_0_0_1_n_n : DotDims S8192x16 S16x16 S8192x16 where
  lhsContracting := [1]
  rhsContracting := [0]
  lhsNonContracting := [0]
  rhsNonContracting := [1]
  lhsBatch := []
  rhsBatch := []
  wf := dot_S8192x16_S16x16_S8192x16_1_0_0_1_n_n_wf
def dot_S8192x16_S16x8_S8192x8_1_0_0_1_n_n : DotDims S8192x16 S16x8 S8192x8 where
  lhsContracting := [1]
  rhsContracting := [0]
  lhsNonContracting := [0]
  rhsNonContracting := [1]
  lhsBatch := []
  rhsBatch := []
  wf := dot_S8192x16_S16x8_S8192x8_1_0_0_1_n_n_wf
def dot_S8192x8192_S8192x8_S8192x8_1_0_0_1_n_n : DotDims S8192x8192 S8192x8 S8192x8 where
  lhsContracting := [1]
  rhsContracting := [0]
  lhsNonContracting := [0]
  rhsNonContracting := [1]
  lhsBatch := []
  rhsBatch := []
  wf := dot_S8192x8192_S8192x8_S8192x8_1_0_0_1_n_n_wf
def dot_S8192x16_S16x20_S8192x20_1_0_0_1_n_n : DotDims S8192x16 S16x20 S8192x20 where
  lhsContracting := [1]
  rhsContracting := [0]
  lhsNonContracting := [0]
  rhsNonContracting := [1]
  lhsBatch := []
  rhsBatch := []
  wf := dot_S8192x16_S16x20_S8192x20_1_0_0_1_n_n_wf
def dot_S8192x8192_S8192x20_S8192x20_1_0_0_1_n_n : DotDims S8192x8192 S8192x20 S8192x20 where
  lhsContracting := [1]
  rhsContracting := [0]
  lhsNonContracting := [0]
  rhsNonContracting := [1]
  lhsBatch := []
  rhsBatch := []
  wf := dot_S8192x8192_S8192x20_S8192x20_1_0_0_1_n_n_wf
def dot_S20x8192_S8192x8_S20x8_1_0_0_1_n_n : DotDims S20x8192 S8192x8 S20x8 where
  lhsContracting := [1]
  rhsContracting := [0]
  lhsNonContracting := [0]
  rhsNonContracting := [1]
  lhsBatch := []
  rhsBatch := []
  wf := dot_S20x8192_S8192x8_S20x8_1_0_0_1_n_n_wf
def dot_S20x8192_S8192x8192_S20x8192_1_0_0_1_n_n : DotDims S20x8192 S8192x8192 S20x8192 where
  lhsContracting := [1]
  rhsContracting := [0]
  lhsNonContracting := [0]
  rhsNonContracting := [1]
  lhsBatch := []
  rhsBatch := []
  wf := dot_S20x8192_S8192x8192_S20x8192_1_0_0_1_n_n_wf
def dot_S20x8192_S8192x20_S20x20_1_0_0_1_n_n : DotDims S20x8192 S8192x20 S20x20 where
  lhsContracting := [1]
  rhsContracting := [0]
  lhsNonContracting := [0]
  rhsNonContracting := [1]
  lhsBatch := []
  rhsBatch := []
  wf := dot_S20x8192_S8192x20_S20x20_1_0_0_1_n_n_wf
def dot_S20x8_S8x8_S20x8_1_0_0_1_n_n : DotDims S20x8 S8x8 S20x8 where
  lhsContracting := [1]
  rhsContracting := [0]
  lhsNonContracting := [0]
  rhsNonContracting := [1]
  lhsBatch := []
  rhsBatch := []
  wf := dot_S20x8_S8x8_S20x8_1_0_0_1_n_n_wf
def dot_S20x20_S20x8_S20x8_1_0_0_1_n_n : DotDims S20x20 S20x8 S20x8 where
  lhsContracting := [1]
  rhsContracting := [0]
  lhsNonContracting := [0]
  rhsNonContracting := [1]
  lhsBatch := []
  rhsBatch := []
  wf := dot_S20x20_S20x8_S20x8_1_0_0_1_n_n_wf

class Facts : Prop extends Facts₀ where

variable [Facts]
-- ==== Proof.K_R0Runs.lean ====
/-
  Region 0 of the program (the first pass "adjacency block times right factor, accumulated over the reduction axis",
  which also writes out a copy of each adjacency block it reads):
  what the per-case runs of its kernel body and its proof data share. The grid is (row blocks) × (4 reduction steps),
  the reduction step the fast axis, so a point's step is its number mod 4. The body's first conditional (reset the
  accumulator) is taken exactly at step 0, its second (add the bias row, apply the epilogue, store the output block)
  exactly at step 3; the output window is idle, and not written back, at every other step. The accumulator is a
  scratch buffer of the kernel's own, carried from one point to the next.
-/
import proofs.«155634_j8117488189610_2_alg».proof.Proof.Gen.Kernel.Launch
import proofs.«155634_j8117488189610_2_alg».proof.Proof.Gen.Kernel.Skeleton
import proofs.«155634_j8117488189610_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's branch conditions, in closed form over the grid -/

/-- The first conditional's condition: the reduction step is 0. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 4 = 0 :=
  (by decide +kernel : ∀ t : Fin grid0.N, condFirst (grid0.coords t) ↔ t.val % 4 = 0)

/-- The second conditional's condition: the reduction step is the last one. -/
abbrev condLast (i : grid0.Coords) : Prop := k0_cond2 i = 1#1
theorem hcondLast : ∀ t : Fin cfg0.N, condLast (grid0.coords t) ↔ t.val % 4 = 3 :=
  (by decide +kernel : ∀ t : Fin grid0.N, condLast (grid0.coords t) ↔ t.val % 4 = 3)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
/-- The copy of the adjacency block is stored whole at every point. -/
theorem live_4 : ∀ t : Fin cfg0.N, cfg0.idle 4 (grid0.coords t) = false := by decide +kernel
/-- Away from the last reduction step the body stores nothing into the output block, -/
theorem idle_3 : ∀ t : Fin cfg0.N, ¬condLast (grid0.coords t) → cfg0.idle 3 (grid0.coords t) = true := by decide +kernel
/-- and the pipeline does not write it back there; -/
theorem noFlush_3 : ∀ t : Fin cfg0.N, ¬condLast (grid0.coords t) → (cfg0.win 3).flush t = false := by decide +kernel
/-- at the last step it is stored whole. -/
theorem live_3 : ∀ t : Fin cfg0.N, condLast (grid0.coords t) → cfg0.idle 3 (grid0.coords t) = false := by decide +kernel

/-! ## The memrefs the body is called with -/

abbrev ms_0 (t : Fin cfg0.N) : Memref sig .tc .vmem S2048x2048 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S2048x16 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x16 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S2048x16 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S2048x2048 .bf16 := win0_4.stage (cfg0.slots t 4)
abbrev hs_4 (t : Fin cfg0.N) : (ms_4 t).IsWhole := hstage0_4 ((cfg0.slots t 4).cast nbuf0_4)
/-- One staging buffer of the copy's window, through which its contents are stated. -/
abbrev VC : View sig .tc .vmem S2048x2048 .bf16 := (Memref.whole cc0_stg4_0 : Memref sig .tc .vmem S2048x2048 .bf16).view
/-- The accumulator: a whole scoped buffer of the kernel's own. -/
abbrev scM : Memref sig .tc .vmem S2048x16 .f32 := Memref.whole cc0_scratch0
/-- One staging buffer of the output window, through which its contents are stated. -/
abbrev VO : View sig .tc .vmem S2048x16 .f32 := (Memref.whole cc0_stg3_0 : Memref sig .tc .vmem S2048x16 .f32).view
abbrev VS : View sig .tc .vmem S2048x16 .f32 := scM.view

/-- What rides beside the accumulator through the region: every other scoped buffer of the core that no window of
    this region stages (the other regions' staging buffers and accumulators), each at some contents. -/
abbrev others (c : Dev nD) : sProp 𝕄 :=
  Pipeline.scopedRestBut (Ix := Unit) (Name := ℕ) (U := Pipeline.UD sig nD τ) (Lvl := ℕ) (Val := Elt F) spec0 c [cc0_scratch0]

/-- The class invariant (the scoped rest at anything, the generator register at some state) with the accumulator
    split out as a memref owned at some contents. -/
theorem PhiA_eq (c : Dev nD) :
    (Pipeline.ΦA spec0 c : sProp 𝕄)
      = iprop(iprop((∃ d, owns (c : Thread nD τ) scM fullShare d) ∗ others c) ∗ (∃ r, prngReg c r)) := by
  unfold Pipeline.ΦA; rw [scopedRest0_split]; simp only [scM, owns_whole]; try rfl

end Cert.Kernel.Reg0

end
-- ==== Proof.K_R0RunA.lean ====
/-
  Region 0's kernel body run whole at reduction step 0 (the accumulator, found at anything, is reset and takes the first partial product; the copy of the adjacency block is stored; nothing is stored into the output block, which is handed back untouched): on whole staging memrefs at given contents the body runs to its
  continuation, the inputs as they were and each buffer it stored into with its stores written; the lists of those
  stores are the witness the run finds.
-/
import proofs.«155634_j8117488189610_2_alg».proof.Proof.K_R0Runs

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun_A (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : condFirst i) (hc1 : ¬condLast i)
    (x0 : Vec F S2048x2048 .f32) (x1 : Vec F S2048x16 .f32) (x2 : Vec F S1x16 .f32) :
    Σ' (LC : List (View.Piece (Elt F) S2048x2048 .bf16)), { LS : List (View.Piece (Elt F) S2048x16 .f32) //
      ∀ (xi3 : Vec F S2048x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LC) ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Reg0

end
-- ==== Proof.K_R0RunB.lean ====
/-
  Region 0's kernel body run whole at a middle reduction step (the accumulator takes one more partial product; the copy of the adjacency block is stored; nothing is stored into the output block, which is handed back untouched): on whole staging memrefs at given contents the body runs to its
  continuation, the inputs as they were and each buffer it stored into with its stores written; the lists of those
  stores are the witness the run finds.
-/
import proofs.«155634_j8117488189610_2_alg».proof.Proof.K_R0RunA

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun_B (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : ¬condFirst i) (hc1 : ¬condLast i)
    (x0 : Vec F S2048x2048 .f32) (x1 : Vec F S2048x16 .f32) (x2 : Vec F S1x16 .f32) (xs : Vec F S2048x16 .f32) :
    Σ' (LC : List (View.Piece (Elt F) S2048x2048 .bf16)), { LS : List (View.Piece (Elt F) S2048x16 .f32) //
      ∀ (xi3 : Vec F S2048x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LC) ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Reg0

end
-- ==== Proof.K_R0RunC.lean ====
/-
  Region 0's kernel body run whole at the last reduction step (the copy of the adjacency block is stored; the accumulator takes the last partial product, then the bias row is added, the epilogue applied and the output block stored whole): on whole staging memrefs at given contents the body runs to its
  continuation, the inputs as they were and each buffer it stored into with its stores written; the lists of those
  stores are the witness the run finds.
-/
import proofs.«155634_j8117488189610_2_alg».proof.Proof.K_R0RunB

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun_C (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : ¬condFirst i) (hc1 : condLast i)
    (x0 : Vec F S2048x2048 .f32) (x1 : Vec F S2048x16 .f32) (x2 : Vec F S1x16 .f32) (xs : Vec F S2048x16 .f32) :
    Σ' (LO : List (View.Piece (Elt F) S2048x16 .f32)), Σ' (LC : List (View.Piece (Elt F) S2048x2048 .bf16)), { LS : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LC) ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs, %hfs, HS⟩, Hk⟩
    obtain rfl := harg2.eq_unread hf0; obtain rfl := harg3.eq_unread hf1; obtain rfl := harg4.eq_unread hf2; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS

end Cert.Kernel.Reg0

end
-- ==== Proof.K_R0Dat.lean ====
/-
  Region 0's proof data and body obligation, over any contents `V` the region may be entered from.
  What the buffers hold after the body at each grid point is stated by recursion on the point: at reduction step 0
  the accumulator is what the first case's run leaves from the point's three input blocks; at a later step, what that
  step's case leaves from the input blocks and the accumulator of the point before; the copy of the adjacency block is
  stored whole at every point; the output block is stored (whole) at the last step only, and at every other point its
  staging buffer is handed back as found. The invariant carried from point to point is the accumulator at these
  contents, beside the other scoped buffers and the generator register at anything.
-/
import proofs.«155634_j8117488189610_2_alg».proof.Proof.K_R0RunC

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before_0_of {c : Dev nD} (dat : Dat τ (Elt F) Unit ℕ (Pipeline.UD sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_1_of {c : Dev nD} (dat : Dat τ (Elt F) Unit ℕ (Pipeline.UD sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_2_of {c : Dev nD} (dat : Dat τ (Elt F) Unit ℕ (Pipeline.UD sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

theorem ccover_A (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : condFirst i) (hc1 : ¬condLast i) (x0 : Vec F S2048x2048 .f32) (x1 : Vec F S2048x16 .f32) (x2 : Vec F S1x16 .f32) (y : S2048x2048.Idx) :
    ∃ pc ∈ (kernelRun_A c i arg2 harg2 arg3 harg3 arg4 harg4 arg5 harg5 arg6 harg6 arg7 harg7 hc0 hc1 x0 x1 x2).1, y ∈ pc.1.set :=
  View.cover_of_tiledL (kernelRun_A c i arg2 harg2 arg3 harg3 arg4 harg4 arg5 harg5 arg6 harg6 arg7 harg7 hc0 hc1 x0 x1 x2).1 S2048x2048.size (by sl_kernel_rfl) y
/-- The copy of the adjacency block the body stores at such a point. -/
def outC_A (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : condFirst i) (hc1 : ¬condLast i) (x0 : Vec F S2048x2048 .f32) (x1 : Vec F S2048x16 .f32) (x2 : Vec F S1x16 .f32) : Vec F S2048x2048 .bf16 :=
  VC.read (Elt F) (VC.writes (Elt F) VC.junk (kernelRun_A c i arg2 harg2 arg3 harg3 arg4 harg4 arg5 harg5 arg6 harg6 arg7 harg7 hc0 hc1 x0 x1 x2).1)
theorem scover_A (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : condFirst i) (hc1 : ¬condLast i) (x0 : Vec F S2048x2048 .f32) (x1 : Vec F S2048x16 .f32) (x2 : Vec F S1x16 .f32) (y : S2048x16.Idx) :
    ∃ pc ∈ (kernelRun_A c i arg2 harg2 arg3 harg3 arg4 harg4 arg5 harg5 arg6 harg6 arg7 harg7 hc0 hc1 x0 x1 x2).2.1, y ∈ pc.1.set :=
  View.cover_of_tiledL (kernelRun_A c i arg2 harg2 arg3 harg3 arg4 harg4 arg5 harg5 arg6 harg6 arg7 harg7 hc0 hc1 x0 x1 x2).2.1 S2048x16.size (by sl_kernel_rfl) y
/-- The accumulator after such a point. -/
def sout_A (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : condFirst i) (hc1 : ¬condLast i) (x0 : Vec F S2048x2048 .f32) (x1 : Vec F S2048x16 .f32) (x2 : Vec F S1x16 .f32) : Vec F S2048x16 .f32 :=
  VS.read (Elt F) (VS.writes (Elt F) VS.junk (kernelRun_A c i arg2 harg2 arg3 harg3 arg4 harg4 arg5 harg5 arg6 harg6 arg7 harg7 hc0 hc1 x0 x1 x2).2.1)

theorem ccover_B (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : ¬condFirst i) (hc1 : ¬condLast i) (x0 : Vec F S2048x2048 .f32) (x1 : Vec F S2048x16 .f32) (x2 : Vec F S1x16 .f32) (xs : Vec F S2048x16 .f32) (y : S2048x2048.Idx) :
    ∃ pc ∈ (kernelRun_B c i arg2 harg2 arg3 harg3 arg4 harg4 arg5 harg5 arg6 harg6 arg7 harg7 hc0 hc1 x0 x1 x2 xs).1, y ∈ pc.1.set :=
  View.cover_of_tiledL (kernelRun_B c i arg2 harg2 arg3 harg3 arg4 harg4 arg5 harg5 arg6 harg6 arg7 harg7 hc0 hc1 x0 x1 x2 xs).1 S2048x2048.size (by sl_kernel_rfl) y
/-- The copy of the adjacency block the body stores at such a point. -/
def outC_B (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : ¬condFirst i) (hc1 : ¬condLast i) (x0 : Vec F S2048x2048 .f32) (x1 : Vec F S2048x16 .f32) (x2 : Vec F S1x16 .f32) (xs : Vec F S2048x16 .f32) : Vec F S2048x2048 .bf16 :=
  VC.read (Elt F) (VC.writes (Elt F) VC.junk (kernelRun_B c i arg2 harg2 arg3 harg3 arg4 harg4 arg5 harg5 arg6 harg6 arg7 harg7 hc0 hc1 x0 x1 x2 xs).1)
theorem scover_B (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : ¬condFirst i) (hc1 : ¬condLast i) (x0 : Vec F S2048x2048 .f32) (x1 : Vec F S2048x16 .f32) (x2 : Vec F S1x16 .f32) (xs : Vec F S2048x16 .f32) (y : S2048x16.Idx) :
    ∃ pc ∈ (kernelRun_B c i arg2 harg2 arg3 harg3 arg4 harg4 arg5 harg5 arg6 harg6 arg7 harg7 hc0 hc1 x0 x1 x2 xs).2.1, y ∈ pc.1.set :=
  View.cover_of_tiledL (kernelRun_B c i arg2 harg2 arg3 harg3 arg4 harg4 arg5 harg5 arg6 harg6 arg7 harg7 hc0 hc1 x0 x1 x2 xs).2.1 S2048x16.size (by sl_kernel_rfl) y
/-- The accumulator after such a point. -/
def sout_B (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : ¬condFirst i) (hc1 : ¬condLast i) (x0 : Vec F S2048x2048 .f32) (x1 : Vec F S2048x16 .f32) (x2 : Vec F S1x16 .f32) (xs : Vec F S2048x16 .f32) : Vec F S2048x16 .f32 :=
  VS.read (Elt F) (VS.writes (Elt F) VS.junk (kernelRun_B c i arg2 harg2 arg3 harg3 arg4 harg4 arg5 harg5 arg6 harg6 arg7 harg7 hc0 hc1 x0 x1 x2 xs).2.1)

theorem ccover_C (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : ¬condFirst i) (hc1 : condLast i) (x0 : Vec F S2048x2048 .f32) (x1 : Vec F S2048x16 .f32) (x2 : Vec F S1x16 .f32) (xs : Vec F S2048x16 .f32) (y : S2048x2048.Idx) :
    ∃ pc ∈ (kernelRun_C c i arg2 harg2 arg3 harg3 arg4 harg4 arg5 harg5 arg6 harg6 arg7 harg7 hc0 hc1 x0 x1 x2 xs).2.1, y ∈ pc.1.set :=
  View.cover_of_tiledL (kernelRun_C c i arg2 harg2 arg3 harg3 arg4 harg4 arg5 harg5 arg6 harg6 arg7 harg7 hc0 hc1 x0 x1 x2 xs).2.1 S2048x2048.size (by sl_kernel_rfl) y
/-- The copy of the adjacency block the body stores at such a point. -/
def outC_C (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : ¬condFirst i) (hc1 : condLast i) (x0 : Vec F S2048x2048 .f32) (x1 : Vec F S2048x16 .f32) (x2 : Vec F S1x16 .f32) (xs : Vec F S2048x16 .f32) : Vec F S2048x2048 .bf16 :=
  VC.read (Elt F) (VC.writes (Elt F) VC.junk (kernelRun_C c i arg2 harg2 arg3 harg3 arg4 harg4 arg5 harg5 arg6 harg6 arg7 harg7 hc0 hc1 x0 x1 x2 xs).2.1)
theorem scover_C (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : ¬condFirst i) (hc1 : condLast i) (x0 : Vec F S2048x2048 .f32) (x1 : Vec F S2048x16 .f32) (x2 : Vec F S1x16 .f32) (xs : Vec F S2048x16 .f32) (y : S2048x16.Idx) :
    ∃ pc ∈ (kernelRun_C c i arg2 harg2 arg3 harg3 arg4 harg4 arg5 harg5 arg6 harg6 arg7 harg7 hc0 hc1 x0 x1 x2 xs).2.2.1, y ∈ pc.1.set :=
  View.cover_of_tiledL (kernelRun_C c i arg2 harg2 arg3 harg3 arg4 harg4 arg5 harg5 arg6 harg6 arg7 harg7 hc0 hc1 x0 x1 x2 xs).2.2.1 S2048x16.size (by sl_kernel_rfl) y
/-- The accumulator after such a point. -/
def sout_C (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : ¬condFirst i) (hc1 : condLast i) (x0 : Vec F S2048x2048 .f32) (x1 : Vec F S2048x16 .f32) (x2 : Vec F S1x16 .f32) (xs : Vec F S2048x16 .f32) : Vec F S2048x16 .f32 :=
  VS.read (Elt F) (VS.writes (Elt F) VS.junk (kernelRun_C c i arg2 harg2 arg3 harg3 arg4 harg4 arg5 harg5 arg6 harg6 arg7 harg7 hc0 hc1 x0 x1 x2 xs).2.2.1)
theorem cover_C (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : ¬condFirst i) (hc1 : condLast i) (x0 : Vec F S2048x2048 .f32) (x1 : Vec F S2048x16 .f32) (x2 : Vec F S1x16 .f32) (xs : Vec F S2048x16 .f32) (y : S2048x16.Idx) :
    ∃ pc ∈ (kernelRun_C c i arg2 harg2 arg3 harg3 arg4 harg4 arg5 harg5 arg6 harg6 arg7 harg7 hc0 hc1 x0 x1 x2 xs).1, y ∈ pc.1.set :=
  View.cover_of_tiledL (kernelRun_C c i arg2 harg2 arg3 harg3 arg4 harg4 arg5 harg5 arg6 harg6 arg7 harg7 hc0 hc1 x0 x1 x2 xs).1 S2048x16.size (by sl_kernel_rfl) y
/-- The output block stored at a point of the last reduction step. -/
def out_C (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : ¬condFirst i) (hc1 : condLast i) (x0 : Vec F S2048x2048 .f32) (x1 : Vec F S2048x16 .f32) (x2 : Vec F S1x16 .f32) (xs : Vec F S2048x16 .f32) : Vec F S2048x16 .f32 :=
  VO.read (Elt F) (VO.writes (Elt F) VO.junk (kernelRun_C c i arg2 harg2 arg3 harg3 arg4 harg4 arg5 harg5 arg6 harg6 arg7 harg7 hc0 hc1 x0 x1 x2 xs).1)

/-- A placeholder for the output block's staging buffer at a point where nothing is stored into it and it is not
    written back: nothing consults it. -/
def outIdle : Vec F S2048x16 .f32 := VO.read (Elt F) VO.junk

/-! ## What the output block, the copy and the accumulator hold after each point -/

/-- After the body at position `n`: (the output window's staging buffer, (the copy's staging buffer, the accumulator)). -/
def outsAt (c : Dev nD) : (n : ℕ) → n < cfg0.N → Vec F S2048x16 .f32 × (Vec F S2048x2048 .bf16 × Vec F S2048x16 .f32)
  | 0, hn => (outIdle, outC_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩),
      sout_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩))
  | n + 1, hn =>
    if h0 : (n + 1) % 4 = 0 then
      if h1 : (n + 1) % 4 = 3 then
        False.elim (by omega)
      else
        (outIdle, outC_A c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩) (iblk V c 2 ⟨n + 1, hn⟩),
          sout_A c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩) (iblk V c 2 ⟨n + 1, hn⟩))
    else
      if h1 : (n + 1) % 4 = 3 then
        (out_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2.2,
          outC_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2.2,
          sout_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2.2)
      else
        (outIdle, outC_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2.2,
          sout_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2.2)

theorem outsAt_A (c : Dev nD) (t : Fin cfg0.N) (h0 : t.val % 4 = 0) (h1 : ¬t.val % 4 = 3) :
    outsAt V c t.val t.isLt = (outIdle, outC_A c (grid0.coords t) (ms_0 t) (hs_0 t) (ms_1 t) (hs_1 t) (ms_2 t) (hs_2 t) (ms_3 t) (hs_3 t) (ms_4 t) (hs_4 t) scM (Memref.isWhole_whole _) ((hcondFirst t).mpr h0) (fun h => h1 ((hcondLast t).mp h)) (iblk V c 0 t) (iblk V c 1 t) (iblk V c 2 t),
      sout_A c (grid0.coords t) (ms_0 t) (hs_0 t) (ms_1 t) (hs_1 t) (ms_2 t) (hs_2 t) (ms_3 t) (hs_3 t) (ms_4 t) (hs_4 t) scM (Memref.isWhole_whole _) ((hcondFirst t).mpr h0) (fun h => h1 ((hcondLast t).mp h)) (iblk V c 0 t) (iblk V c 1 t) (iblk V c 2 t)) := by
  obtain ⟨n, hn⟩ := t
  cases n with
  | zero => exact rfl
  | succ n => exact (dif_pos h0).trans ((dif_neg h1).trans rfl)

theorem outsAt_B (c : Dev nD) (t : Fin cfg0.N) (h0 : ¬t.val % 4 = 0) (h1 : ¬t.val % 4 = 3) :
    outsAt V c t.val t.isLt = (outIdle, outC_B c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2.2,
      sout_B c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 4 = 0) (h1 : t.val % 4 = 3) :
    outsAt V c t.val t.isLt = (out_C c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2,
      outC_C c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2,
      sout_C c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant carried from point to point -/

def PhiS (c : Dev nD) : (n : ℕ) → n ≤ cfg0.N → sProp 𝕄
  | 0, _ => Pipeline.ΦA spec0 c
  | n + 1, hn => iprop(iprop(owns (c : Thread nD τ) scM fullShare ((outsAt V c n hn).2.2) ∗ others c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM fullShare ((outsAt V c n hn).2.2) ∗ others c) ∗ (∃ r, prngReg c r)) := rfl
theorem PhiS_pos (c : Dev nD) (n : ℕ) (h : n ≤ cfg0.N) (hz : n ≠ 0) :
    PhiS V c n h = iprop(iprop(owns (c : Thread nD τ) scM fullShare ((outsAt V c (n - 1) (by omega)).2.2) ∗ others c) ∗ (∃ r, prngReg c r)) := by
  cases n with
  | zero => exact absurd rfl hz
  | succ n => rfl

/-! ## The proof data -/

def dat (c : Dev nD) : Dat τ (Elt F) Unit ℕ (Pipeline.UD sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
    | ⟨4, _⟩ => (outsAt V c t.val t.isLt).2.1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = (outsAt V c t.val t.isLt).1 := by dsimp only [dat]
theorem after_4 (c : Dev nD) (t : Fin cfg0.N) : (dat V c).after 4 t = (outsAt V c t.val t.isLt).2.1 := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg0.N = 16 from N_0)
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [show (dat V c).leavesExact 2 t = owns (c : Thread nD τ) (ms_2 t) fullShare ((dat V c).after 2 t) from by
    unfold Dat.leavesExact; rw [live_2 t], after_2]
  rw [show (dat V c).leavesExact 4 t = owns (c : Thread nD τ) (ms_4 t) fullShare ((dat V c).after 4 t) from by
    unfold Dat.leavesExact; rw [live_4 t], after_4]
  by_cases h0 : t.val % 4 = 0
  · by_cases h1 : t.val % 4 = 3
    · exfalso; omega
    · by_cases hz : t.val = 0
      · rw [Dat.leavesExact_idle (dat V c) 3 t (idle_3 t (fun h => h1 ((hcondLast t).mp h))) (noFlush_3 t (fun h => h1 ((hcondLast t).mp h)))]
        rw [outsAt_A V c t h0 h1]
        unfold sout_A outC_A; (try dsimp only)
        rw [PhiS_castSucc V c t, PhiS_zero V c _ _ hz, PhiA_eq]
        iintro ⟨⟨⟨HS, Hoth⟩, Hg⟩, Ho, ⟨%d0, H0⟩, ⟨%d1, H1⟩, ⟨%d2, H2⟩, ⟨%d3, H3⟩, ⟨%d4, H4⟩⟩
        iapply ((kernelRun_A c (grid0.coords t) _ _ _ _ _ _ _ _ _ _ _ _ ((hcondFirst t).mpr h0) (fun h => h1 ((hcondLast t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [H4]; · iexists _; iexact H4
        isplitl [HS]; · iexact HS
        iintro ⟨H0, H1, H2, H3, ⟨%e4, H4⟩, ⟨%es, HS⟩⟩
        isplitl [HS Hoth Hg]
        · isplitl [HS Hoth]
          · isplitl [HS]
            · unfold owns; iexists _; isplitr
              swap; · iexact HS
              ipureintro; exact View.read_writes_of_cover _ _ _ _ _ (scover_A c _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexists _; iexact H3
        unfold owns; iexists _; isplitr
        swap; · iexact H4
        ipureintro; exact View.read_writes_of_cover _ _ _ _ _ (ccover_A c _ _ _ _ _ _ _ _ _ _ _ _ _ _ _ _ _ _)
      · rw [Dat.leavesExact_idle (dat V c) 3 t (idle_3 t (fun h => h1 ((hcondLast t).mp h))) (noFlush_3 t (fun h => h1 ((hcondLast t).mp h)))]
        rw [outsAt_A V c t h0 h1]
        unfold sout_A outC_A; (try dsimp only)
        rw [PhiS_castSucc V c t, PhiS_pos V c _ _ hz]
        iintro ⟨⟨⟨HS, Hoth⟩, Hg⟩, Ho, ⟨%d0, H0⟩, ⟨%d1, H1⟩, ⟨%d2, H2⟩, ⟨%d3, H3⟩, ⟨%d4, H4⟩⟩
        iapply ((kernelRun_A c (grid0.coords t) _ _ _ _ _ _ _ _ _ _ _ _ ((hcondFirst t).mpr h0) (fun h => h1 ((hcondLast t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [H4]; · iexists _; iexact H4
        isplitl [HS]; · iexists _; iexact HS
        iintro ⟨H0, H1, H2, H3, ⟨%e4, H4⟩, ⟨%es, HS⟩⟩
        isplitl [HS Hoth Hg]
        · isplitl [HS Hoth]
          · isplitl [HS]
            · unfold owns; iexists _; isplitr
              swap; · iexact HS
              ipureintro; exact View.read_writes_of_cover _ _ _ _ _ (scover_A c _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexists _; iexact H3
        unfold owns; iexists _; isplitr
        swap; · iexact H4
        ipureintro; exact View.read_writes_of_cover _ _ _ _ _ (ccover_A c _ _ _ _ _ _ _ _ _ _ _ _ _ _ _ _ _ _)
  · have hz : t.val ≠ 0 := fun hz => h0 (by rw [hz])
    by_cases h1 : t.val % 4 = 3
    · rw [show (dat V c).leavesExact 3 t = owns (c : Thread nD τ) (ms_3 t) fullShare ((dat V c).after 3 t) from by
        unfold Dat.leavesExact; rw [live_3 t ((hcondLast t).mpr h1)], after_3]
      rw [outsAt_C V c t h0 h1]
      unfold out_C sout_C outC_C; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((kernelRun_C c (grid0.coords t) _ _ _ _ _ _ _ _ _ _ _ _ (fun h => h0 ((hcondFirst t).mp h)) ((hcondLast t).mpr h1) (iblk V c 0 t) (iblk V c 1 t) (iblk V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, ⟨%e3, H3⟩, ⟨%e4, H4⟩, ⟨%es, HS⟩⟩
      isplitl [HS Hoth Hg]
      · isplitl [HS Hoth]
        · isplitl [HS]
          · unfold owns; iexists _; isplitr
            swap; · iexact HS
            ipureintro; exact View.read_writes_of_cover _ _ _ _ _ (scover_C c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover_C c _ _ _ _ _ _ _ _ _ _ _ _ _ _ _ _ _ _ _)
      unfold owns; iexists _; isplitr
      swap; · iexact H4
      ipureintro; exact View.read_writes_of_cover _ _ _ _ _ (ccover_C c _ _ _ _ _ _ _ _ _ _ _ _ _ _ _ _ _ _ _)
    · rw [Dat.leavesExact_idle (dat V c) 3 t (idle_3 t (fun h => h1 ((hcondLast t).mp h))) (noFlush_3 t (fun h => h1 ((hcondLast t).mp h)))]
      rw [outsAt_B V c t h0 h1]
      unfold sout_B outC_B; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((kernelRun_B c (grid0.coords t) _ _ _ _ _ _ _ _ _ _ _ _ (fun h => h0 ((hcondFirst t).mp h)) (fun h => h1 ((hcondLast t).mp h)) (iblk V c 0 t) (iblk V c 1 t) (iblk V c 2 t) _).2.2 _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hoth Hg]
      · isplitl [HS Hoth]
        · isplitl [HS]
          · unfold owns; iexists _; isplitr
            swap; · iexact HS
            ipureintro; exact View.read_writes_of_cover _ _ _ _ _ (scover_B c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexists _; iexact H3
      unfold owns; iexists _; isplitr
      swap; · iexact H4
      ipureintro; exact View.read_writes_of_cover _ _ _ _ _ (ccover_B c _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the accumulator's contents are forgotten. -/
theorem hout (c : Dev nD) : (dat V c).Φ (Fin.last cfg0.N) ⊢ Pipeline.ΦA spec0 c := by
  have hne : (Fin.last cfg0.N).val ≠ 0 := by rw [Fin.val_last]; have : cfg0.N = 16 := N_0; omega
  rw [show (dat V c).Φ (Fin.last cfg0.N) = PhiS V c (Fin.last cfg0.N).val (Nat.le_of_lt_succ (Fin.last cfg0.N).isLt) from rfl, PhiS_pos V c _ _ hne, PhiA_eq]
  iintro ⟨⟨HS, Hoth⟩, Hg⟩
  isplitl [HS Hoth]
  · isplitl [HS]
    · iexists _; iexact HS
    iexact Hoth
  iexact Hg

end Cert.Kernel.Reg0

end
-- ==== Proof.K_R1Runs.lean ====
/-
  Region 1 of the program (one pass "adjacency block times right factor, accumulated over the reduction axis"):
  what the per-case runs of its kernel body and its proof data share. The grid is (row blocks) × (4 reduction steps),
  the reduction step the fast axis, so a point's step is its number mod 4. The body's first conditional (reset the
  accumulator) is taken exactly at step 0, its second (add the bias row, apply the epilogue, store the output block)
  exactly at step 3; the output window is idle, and not written back, at every other step. The accumulator is a
  scratch buffer of the kernel's own, carried from one point to the next.
-/
import proofs.«155634_j8117488189610_2_alg».proof.Proof.Gen.Kernel.Launch
import proofs.«155634_j8117488189610_2_alg».proof.Proof.Gen.Kernel.Skeleton
import proofs.«155634_j8117488189610_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's branch conditions, in closed form over the grid -/

/-- The first conditional's condition: the reduction step is 0. -/
abbrev condFirst (i : grid1.Coords) : Prop := (Scalar.cmpi .ne (Scalar.extui (Scalar.cmpi .eq (BitVec.ofNat 32 (i 1).val) 0#32)) 0#32) = 1#1
theorem hcondFirst : ∀ t : Fin cfg1.N, condFirst (grid1.coords t) ↔ t.val % 4 = 0 :=
  (by decide +kernel : ∀ t : Fin grid1.N, condFirst (grid1.coords t) ↔ t.val % 4 = 0)

/-- The second conditional's condition: the reduction step is the last one. -/
abbrev condLast (i : grid1.Coords) : Prop := k1_cond2 i = 1#1
theorem hcondLast : ∀ t : Fin cfg1.N, condLast (grid1.coords t) ↔ t.val % 4 = 3 :=
  (by decide +kernel : ∀ t : Fin grid1.N, condLast (grid1.coords t) ↔ t.val % 4 = 3)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
/-- Away from the last reduction step the body stores nothing into the output block, -/
theorem idle_3 : ∀ t : Fin cfg1.N, ¬condLast (grid1.coords t) → cfg1.idle 3 (grid1.coords t) = true := by decide +kernel
/-- and the pipeline does not write it back there; -/
theorem noFlush_3 : ∀ t : Fin cfg1.N, ¬condLast (grid1.coords t) → (cfg1.win 3).flush t = false := by decide +kernel
/-- at the last step it is stored whole. -/
theorem live_3 : ∀ t : Fin cfg1.N, condLast (grid1.coords t) → cfg1.idle 3 (grid1.coords t) = false := by decide +kernel

/-! ## The memrefs the body is called with -/

abbrev ms_0 (t : Fin cfg1.N) : Memref sig .tc .vmem S4096x2048 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S2048x16 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x16 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S4096x16 .f32 := win1_3.stage (cfg1.slots t 3)
abbrev hs_3 (t : Fin cfg1.N) : (ms_3 t).IsWhole := hstage1_3 ((cfg1.slots t 3).cast nbuf1_3)
/-- The accumulator: a whole scoped buffer of the kernel's own. -/
abbrev scM : Memref sig .tc .vmem S4096x16 .f32 := Memref.whole cc1_scratch0
/-- One staging buffer of the output window, through which its contents are stated. -/
abbrev VO : View sig .tc .vmem S4096x16 .f32 := (Memref.whole cc1_stg3_0 : Memref sig .tc .vmem S4096x16 .f32).view
abbrev VS : View sig .tc .vmem S4096x16 .f32 := scM.view

/-- What rides beside the accumulator through the region: every other scoped buffer of the core that no window of
    this region stages (the other regions' staging buffers and accumulators), each at some contents. -/
abbrev others (c : Dev nD) : sProp 𝕄 :=
  Pipeline.scopedRestBut (Ix := Unit) (Name := ℕ) (U := Pipeline.UD sig nD τ) (Lvl := ℕ) (Val := Elt F) spec1 c [cc1_scratch0]

/-- The class invariant (the scoped rest at anything, the generator register at some state) with the accumulator
    split out as a memref owned at some contents. -/
theorem PhiA_eq (c : Dev nD) :
    (Pipeline.ΦA spec1 c : sProp 𝕄)
      = iprop(iprop((∃ d, owns (c : Thread nD τ) scM fullShare d) ∗ others c) ∗ (∃ r, prngReg c r)) := by
  unfold Pipeline.ΦA; rw [scopedRest1_split]; simp only [scM, owns_whole]; try rfl

end Cert.Kernel.Reg1

end
-- ==== Proof.K_R1RunA.lean ====
/-
  Region 1's kernel body run whole at reduction step 0 (the accumulator, found at anything, is reset and takes the first partial product; nothing is stored into the output block, which is handed back untouched): on whole staging memrefs at given contents the body runs to its
  continuation, the inputs as they were and each buffer it stored into with its stores written; the list of those
  stores is the witness the run finds.
-/
import proofs.«155634_j8117488189610_2_alg».proof.Proof.K_R1Runs

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun_A (c : Dev nD) (i : grid1.Coords) (arg2 : Memref sig .tc .vmem S4096x2048 .bf16) (harg2 : arg2.IsWhole) (arg3 : Memref sig .tc .vmem S2048x16 .f32) (harg3 : arg3.IsWhole) (arg4 : Memref sig .tc .vmem S1x16 .f32) (harg4 : arg4.IsWhole) (arg5 : Memref sig .tc .vmem S4096x16 .f32) (harg5 : arg5.IsWhole) (arg6 : Memref sig .tc .vmem S4096x16 .f32) (harg6 : arg6.IsWhole) (hc0 : condFirst i) (hc1 : ¬condLast i)
    (x0 : Vec F S4096x2048 .bf16) (x1 : Vec F S2048x16 .f32) (x2 : Vec F S1x16 .f32) :
    { LS : List (View.Piece (Elt F) S4096x16 .f32) //
      ∀ (xi3 : Vec F S4096x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1_kernel i arg2 harg2 arg3 harg3 arg4 harg4 arg5 harg5 arg6 harg6) K } := by
  refine ⟨?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Reg1

end
-- ==== Proof.K_R1RunB.lean ====
/-
  Region 1's kernel body run whole at a middle reduction step (the accumulator takes one more partial product; nothing is stored into the output block, which is handed back untouched): on whole staging memrefs at given contents the body runs to its
  continuation, the inputs as they were and each buffer it stored into with its stores written; the list of those
  stores is the witness the run finds.
-/
import proofs.«155634_j8117488189610_2_alg».proof.Proof.K_R1RunA

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun_B (c : Dev nD) (i : grid1.Coords) (arg2 : Memref sig .tc .vmem S4096x2048 .bf16) (harg2 : arg2.IsWhole) (arg3 : Memref sig .tc .vmem S2048x16 .f32) (harg3 : arg3.IsWhole) (arg4 : Memref sig .tc .vmem S1x16 .f32) (harg4 : arg4.IsWhole) (arg5 : Memref sig .tc .vmem S4096x16 .f32) (harg5 : arg5.IsWhole) (arg6 : Memref sig .tc .vmem S4096x16 .f32) (harg6 : arg6.IsWhole) (hc0 : ¬condFirst i) (hc1 : ¬condLast i)
    (x0 : Vec F S4096x2048 .bf16) (x1 : Vec F S2048x16 .f32) (x2 : Vec F S1x16 .f32) (xs : Vec F S4096x16 .f32) :
    { LS : List (View.Piece (Elt F) S4096x16 .f32) //
      ∀ (xi3 : Vec F S4096x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1_kernel i arg2 harg2 arg3 harg3 arg4 harg4 arg5 harg5 arg6 harg6) K } := by
  refine ⟨?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Reg1

end
-- ==== Proof.K_R1RunC.lean ====
/-
  Region 1's kernel body run whole at the last reduction step (the accumulator takes the last partial product, then the bias row is added, the epilogue applied and the output block stored whole): on whole staging memrefs at given contents the body runs to its
  continuation, the inputs as they were and each buffer it stored into with its stores written; the list of those
  stores is the witness the run finds.
-/
import proofs.«155634_j8117488189610_2_alg».proof.Proof.K_R1RunB

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun_C (c : Dev nD) (i : grid1.Coords) (arg2 : Memref sig .tc .vmem S4096x2048 .bf16) (harg2 : arg2.IsWhole) (arg3 : Memref sig .tc .vmem S2048x16 .f32) (harg3 : arg3.IsWhole) (arg4 : Memref sig .tc .vmem S1x16 .f32) (harg4 : arg4.IsWhole) (arg5 : Memref sig .tc .vmem S4096x16 .f32) (harg5 : arg5.IsWhole) (arg6 : Memref sig .tc .vmem S4096x16 .f32) (harg6 : arg6.IsWhole) (hc0 : ¬condFirst i) (hc1 : condLast i)
    (x0 : Vec F S4096x2048 .bf16) (x1 : Vec F S2048x16 .f32) (x2 : Vec F S1x16 .f32) (xs : Vec F S4096x16 .f32) :
    Σ' (LO : List (View.Piece (Elt F) S4096x16 .f32)), { LS : List (View.Piece (Elt F) S4096x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc1_kernel i arg2 harg2 arg3 harg3 arg4 harg4 arg5 harg5 arg6 harg6) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Reg1

end
-- ==== Proof.K_R1Dat.lean ====
/-
  Region 1's proof data and body obligation, over any contents `V` the region may be entered from.
  What the buffers hold after the body at each grid point is stated by recursion on the point: at reduction step 0
  the accumulator is what the first case's run leaves from the point's three input blocks; at a later step, what that
  step's case leaves from the input blocks and the accumulator of the point before; the output block is stored (whole)
  at the last step only, and at every other point its staging buffer is handed back as found. The invariant carried
  from point to point is the accumulator at these contents, beside the other scoped buffers and the generator
  register at anything.
-/
import proofs.«155634_j8117488189610_2_alg».proof.Proof.K_R1RunC

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before_0_of {c : Dev nD} (dat : Dat τ (Elt F) Unit ℕ (Pipeline.UD sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_1_of {c : Dev nD} (dat : Dat τ (Elt F) Unit ℕ (Pipeline.UD sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_2_of {c : Dev nD} (dat : Dat τ (Elt F) Unit ℕ (Pipeline.UD sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

theorem scover_A (c : Dev nD) (i : grid1.Coords) (arg2 : Memref sig .tc .vmem S4096x2048 .bf16) (harg2 : arg2.IsWhole) (arg3 : Memref sig .tc .vmem S2048x16 .f32) (harg3 : arg3.IsWhole) (arg4 : Memref sig .tc .vmem S1x16 .f32) (harg4 : arg4.IsWhole) (arg5 : Memref sig .tc .vmem S4096x16 .f32) (harg5 : arg5.IsWhole) (arg6 : Memref sig .tc .vmem S4096x16 .f32) (harg6 : arg6.IsWhole) (hc0 : condFirst i) (hc1 : ¬condLast i) (x0 : Vec F S4096x2048 .bf16) (x1 : Vec F S2048x16 .f32) (x2 : Vec F S1x16 .f32) (y : S4096x16.Idx) :
    ∃ pc ∈ (kernelRun_A c i arg2 harg2 arg3 harg3 arg4 harg4 arg5 harg5 arg6 harg6 hc0 hc1 x0 x1 x2).1, y ∈ pc.1.set :=
  View.cover_of_tiledL (kernelRun_A c i arg2 harg2 arg3 harg3 arg4 harg4 arg5 harg5 arg6 harg6 hc0 hc1 x0 x1 x2).1 S4096x16.size (by sl_kernel_rfl) y
/-- The accumulator after a point of reduction step 0. -/
def sout_A (c : Dev nD) (i : grid1.Coords) (arg2 : Memref sig .tc .vmem S4096x2048 .bf16) (harg2 : arg2.IsWhole) (arg3 : Memref sig .tc .vmem S2048x16 .f32) (harg3 : arg3.IsWhole) (arg4 : Memref sig .tc .vmem S1x16 .f32) (harg4 : arg4.IsWhole) (arg5 : Memref sig .tc .vmem S4096x16 .f32) (harg5 : arg5.IsWhole) (arg6 : Memref sig .tc .vmem S4096x16 .f32) (harg6 : arg6.IsWhole) (hc0 : condFirst i) (hc1 : ¬condLast i) (x0 : Vec F S4096x2048 .bf16) (x1 : Vec F S2048x16 .f32) (x2 : Vec F S1x16 .f32) : Vec F S4096x16 .f32 :=
  VS.read (Elt F) (VS.writes (Elt F) VS.junk (kernelRun_A c i arg2 harg2 arg3 harg3 arg4 harg4 arg5 harg5 arg6 harg6 hc0 hc1 x0 x1 x2).1)

theorem scover_B (c : Dev nD) (i : grid1.Coords) (arg2 : Memref sig .tc .vmem S4096x2048 .bf16) (harg2 : arg2.IsWhole) (arg3 : Memref sig .tc .vmem S2048x16 .f32) (harg3 : arg3.IsWhole) (arg4 : Memref sig .tc .vmem S1x16 .f32) (harg4 : arg4.IsWhole) (arg5 : Memref sig .tc .vmem S4096x16 .f32) (harg5 : arg5.IsWhole) (arg6 : Memref sig .tc .vmem S4096x16 .f32) (harg6 : arg6.IsWhole) (hc0 : ¬condFirst i) (hc1 : ¬condLast i) (x0 : Vec F S4096x2048 .bf16) (x1 : Vec F S2048x16 .f32) (x2 : Vec F S1x16 .f32) (xs : Vec F S4096x16 .f32) (y : S4096x16.Idx) :
    ∃ pc ∈ (kernelRun_B c i arg2 harg2 arg3 harg3 arg4 harg4 arg5 harg5 arg6 harg6 hc0 hc1 x0 x1 x2 xs).1, y ∈ pc.1.set :=
  View.cover_of_tiledL (kernelRun_B c i arg2 harg2 arg3 harg3 arg4 harg4 arg5 harg5 arg6 harg6 hc0 hc1 x0 x1 x2 xs).1 S4096x16.size (by sl_kernel_rfl) y
/-- The accumulator after a point of a middle reduction step. -/
def sout_B (c : Dev nD) (i : grid1.Coords) (arg2 : Memref sig .tc .vmem S4096x2048 .bf16) (harg2 : arg2.IsWhole) (arg3 : Memref sig .tc .vmem S2048x16 .f32) (harg3 : arg3.IsWhole) (arg4 : Memref sig .tc .vmem S1x16 .f32) (harg4 : arg4.IsWhole) (arg5 : Memref sig .tc .vmem S4096x16 .f32) (harg5 : arg5.IsWhole) (arg6 : Memref sig .tc .vmem S4096x16 .f32) (harg6 : arg6.IsWhole) (hc0 : ¬condFirst i) (hc1 : ¬condLast i) (x0 : Vec F S4096x2048 .bf16) (x1 : Vec F S2048x16 .f32) (x2 : Vec F S1x16 .f32) (xs : Vec F S4096x16 .f32) : Vec F S4096x16 .f32 :=
  VS.read (Elt F) (VS.writes (Elt F) VS.junk (kernelRun_B c i arg2 harg2 arg3 harg3 arg4 harg4 arg5 harg5 arg6 harg6 hc0 hc1 x0 x1 x2 xs).1)

theorem cover_C (c : Dev nD) (i : grid1.Coords) (arg2 : Memref sig .tc .vmem S4096x2048 .bf16) (harg2 : arg2.IsWhole) (arg3 : Memref sig .tc .vmem S2048x16 .f32) (harg3 : arg3.IsWhole) (arg4 : Memref sig .tc .vmem S1x16 .f32) (harg4 : arg4.IsWhole) (arg5 : Memref sig .tc .vmem S4096x16 .f32) (harg5 : arg5.IsWhole) (arg6 : Memref sig .tc .vmem S4096x16 .f32) (harg6 : arg6.IsWhole) (hc0 : ¬condFirst i) (hc1 : condLast i) (x0 : Vec F S4096x2048 .bf16) (x1 : Vec F S2048x16 .f32) (x2 : Vec F S1x16 .f32) (xs : Vec F S4096x16 .f32) (y : S4096x16.Idx) :
    ∃ pc ∈ (kernelRun_C c i arg2 harg2 arg3 harg3 arg4 harg4 arg5 harg5 arg6 harg6 hc0 hc1 x0 x1 x2 xs).1, y ∈ pc.1.set :=
  View.cover_of_tiledL (kernelRun_C c i arg2 harg2 arg3 harg3 arg4 harg4 arg5 harg5 arg6 harg6 hc0 hc1 x0 x1 x2 xs).1 S4096x16.size (by sl_kernel_rfl) y
/-- The output block stored at a point of the last reduction step. -/
def out_C (c : Dev nD) (i : grid1.Coords) (arg2 : Memref sig .tc .vmem S4096x2048 .bf16) (harg2 : arg2.IsWhole) (arg3 : Memref sig .tc .vmem S2048x16 .f32) (harg3 : arg3.IsWhole) (arg4 : Memref sig .tc .vmem S1x16 .f32) (harg4 : arg4.IsWhole) (arg5 : Memref sig .tc .vmem S4096x16 .f32) (harg5 : arg5.IsWhole) (arg6 : Memref sig .tc .vmem S4096x16 .f32) (harg6 : arg6.IsWhole) (hc0 : ¬condFirst i) (hc1 : condLast i) (x0 : Vec F S4096x2048 .bf16) (x1 : Vec F S2048x16 .f32) (x2 : Vec F S1x16 .f32) (xs : Vec F S4096x16 .f32) : Vec F S4096x16 .f32 :=
  VO.read (Elt F) (VO.writes (Elt F) VO.junk (kernelRun_C c i arg2 harg2 arg3 harg3 arg4 harg4 arg5 harg5 arg6 harg6 hc0 hc1 x0 x1 x2 xs).1)
theorem scover_C (c : Dev nD) (i : grid1.Coords) (arg2 : Memref sig .tc .vmem S4096x2048 .bf16) (harg2 : arg2.IsWhole) (arg3 : Memref sig .tc .vmem S2048x16 .f32) (harg3 : arg3.IsWhole) (arg4 : Memref sig .tc .vmem S1x16 .f32) (harg4 : arg4.IsWhole) (arg5 : Memref sig .tc .vmem S4096x16 .f32) (harg5 : arg5.IsWhole) (arg6 : Memref sig .tc .vmem S4096x16 .f32) (harg6 : arg6.IsWhole) (hc0 : ¬condFirst i) (hc1 : condLast i) (x0 : Vec F S4096x2048 .bf16) (x1 : Vec F S2048x16 .f32) (x2 : Vec F S1x16 .f32) (xs : Vec F S4096x16 .f32) (y : S4096x16.Idx) :
    ∃ pc ∈ (kernelRun_C c i arg2 harg2 arg3 harg3 arg4 harg4 arg5 harg5 arg6 harg6 hc0 hc1 x0 x1 x2 xs).2.1, y ∈ pc.1.set :=
  View.cover_of_tiledL (kernelRun_C c i arg2 harg2 arg3 harg3 arg4 harg4 arg5 harg5 arg6 harg6 hc0 hc1 x0 x1 x2 xs).2.1 S4096x16.size (by sl_kernel_rfl) y
/-- The accumulator after a point of the last reduction step. -/
def sout_C (c : Dev nD) (i : grid1.Coords) (arg2 : Memref sig .tc .vmem S4096x2048 .bf16) (harg2 : arg2.IsWhole) (arg3 : Memref sig .tc .vmem S2048x16 .f32) (harg3 : arg3.IsWhole) (arg4 : Memref sig .tc .vmem S1x16 .f32) (harg4 : arg4.IsWhole) (arg5 : Memref sig .tc .vmem S4096x16 .f32) (harg5 : arg5.IsWhole) (arg6 : Memref sig .tc .vmem S4096x16 .f32) (harg6 : arg6.IsWhole) (hc0 : ¬condFirst i) (hc1 : condLast i) (x0 : Vec F S4096x2048 .bf16) (x1 : Vec F S2048x16 .f32) (x2 : Vec F S1x16 .f32) (xs : Vec F S4096x16 .f32) : Vec F S4096x16 .f32 :=
  VS.read (Elt F) (VS.writes (Elt F) VS.junk (kernelRun_C c i arg2 harg2 arg3 harg3 arg4 harg4 arg5 harg5 arg6 harg6 hc0 hc1 x0 x1 x2 xs).2.1)

/-- A placeholder for the output block's staging buffer at a point where nothing is stored into it and it is not
    written back: nothing consults it. -/
def outIdle : Vec F S4096x16 .f32 := VO.read (Elt F) VO.junk

/-! ## What the output block and the accumulator hold after each point -/

/-- After the body at position `n`: (the output window's staging buffer, the accumulator). -/
def outsAt (c : Dev nD) : (n : ℕ) → n < cfg1.N → Vec F S4096x16 .f32 × Vec F S4096x16 .f32
  | 0, hn => (outIdle, sout_A c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩))
  | n + 1, hn =>
    if h0 : (n + 1) % 4 = 0 then
      if h1 : (n + 1) % 4 = 3 then
        False.elim (by omega)
      else
        (outIdle, sout_A c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩) (iblk V c 2 ⟨n + 1, hn⟩))
    else
      if h1 : (n + 1) % 4 = 3 then
        (out_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2,
         sout_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        (outIdle, sout_B c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2)

theorem outsAt_A (c : Dev nD) (t : Fin cfg1.N) (h0 : t.val % 4 = 0) (h1 : ¬t.val % 4 = 3) :
    outsAt V c t.val t.isLt = (outIdle, sout_A c (grid1.coords t) (ms_0 t) (hs_0 t) (ms_1 t) (hs_1 t) (ms_2 t) (hs_2 t) (ms_3 t) (hs_3 t) scM (Memref.isWhole_whole _) ((hcondFirst t).mpr h0) (fun h => h1 ((hcondLast t).mp h)) (iblk V c 0 t) (iblk V c 1 t) (iblk V c 2 t)) := by
  obtain ⟨n, hn⟩ := t
  cases n with
  | zero => exact rfl
  | succ n => exact (dif_pos h0).trans ((dif_neg h1).trans rfl)

theorem outsAt_B (c : Dev nD) (t : Fin cfg1.N) (h0 : ¬t.val % 4 = 0) (h1 : ¬t.val % 4 = 3) :
    outsAt V c t.val t.isLt = (outIdle, sout_B c (grid1.coords t) (ms_0 t) (hs_0 t) (ms_1 t) (hs_1 t) (ms_2 t) (hs_2 t) (ms_3 t) (hs_3 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg1.N) (h0 : ¬t.val % 4 = 0) (h1 : t.val % 4 = 3) :
    outsAt V c t.val t.isLt = (out_C c (grid1.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2,
      sout_C c (grid1.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant carried from point to point -/

def PhiS (c : Dev nD) : (n : ℕ) → n ≤ cfg1.N → sProp 𝕄
  | 0, _ => Pipeline.ΦA spec1 c
  | n + 1, hn => iprop(iprop(owns (c : Thread nD τ) scM fullShare ((outsAt V c n hn).2) ∗ others c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) scM fullShare ((outsAt V c n hn).2) ∗ others c) ∗ (∃ r, prngReg c r)) := rfl
theorem PhiS_pos (c : Dev nD) (n : ℕ) (h : n ≤ cfg1.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The proof data -/

def dat (c : Dev nD) : Dat τ (Elt F) Unit ℕ (Pipeline.UD sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = (outsAt V c t.val t.isLt).1 := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 8 := lt_of_lt_of_eq t.isLt (show cfg1.N = 8 from N_1)
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [show (dat V c).leavesExact 2 t = owns (c : Thread nD τ) (ms_2 t) fullShare ((dat V c).after 2 t) from by
    unfold Dat.leavesExact; rw [live_2 t], after_2]
  by_cases h0 : t.val % 4 = 0
  · by_cases h1 : t.val % 4 = 3
    · exfalso; omega
    · rw [Dat.leavesExact_idle (dat V c) 3 t (idle_3 t (fun h => h1 ((hcondLast t).mp h))) (noFlush_3 t (fun h => h1 ((hcondLast t).mp h)))]
      rw [outsAt_A V c t h0 h1]
      unfold sout_A; (try dsimp only)
      by_cases hz : t.val = 0
      · rw [PhiS_castSucc V c t, PhiS_zero V c _ _ hz, PhiA_eq]
        iintro ⟨⟨⟨HS, Hoth⟩, Hg⟩, Ho, ⟨%d0, H0⟩, ⟨%d1, H1⟩, ⟨%d2, H2⟩, ⟨%d3, H3⟩⟩
        iapply ((kernelRun_A c (grid1.coords t) _ _ _ _ _ _ _ _ _ _ ((hcondFirst t).mpr h0) (fun h => h1 ((hcondLast t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (scover_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((kernelRun_A c (grid1.coords t) _ _ _ _ _ _ _ _ _ _ ((hcondFirst t).mpr h0) (fun h => h1 ((hcondLast t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (scover_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 4 = 3
    · rw [show (dat V c).leavesExact 3 t = owns (c : Thread nD τ) (ms_3 t) fullShare ((dat V c).after 3 t) from by
        unfold Dat.leavesExact; rw [live_3 t ((hcondLast t).mpr h1)], after_3]
      rw [outsAt_C V c t h0 h1]
      unfold out_C sout_C; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((kernelRun_C c (grid1.coords t) _ _ _ _ _ _ _ _ _ _ (fun h => h0 ((hcondFirst t).mp h)) ((hcondLast t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (scover_C c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_C c _ _ _ _ _ _ _ _ _ _ _ _ _ _ _ _ _)
    · rw [Dat.leavesExact_idle (dat V c) 3 t (idle_3 t (fun h => h1 ((hcondLast t).mp h))) (noFlush_3 t (fun h => h1 ((hcondLast t).mp h)))]
      rw [outsAt_B V c t h0 h1]
      unfold sout_B; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((kernelRun_B c (grid1.coords t) _ _ _ _ _ _ _ _ _ _ (fun h => h0 ((hcondFirst t).mp h)) (fun h => h1 ((hcondLast t).mp h)) (iblk V c 0 t) (iblk V c 1 t) (iblk V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (scover_B c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the accumulator's contents are forgotten. -/
theorem hout (c : Dev nD) : (dat V c).Φ (Fin.last cfg1.N) ⊢ Pipeline.ΦA spec1 c := by
  have hne : (Fin.last cfg1.N).val ≠ 0 := by rw [Fin.val_last]; have : cfg1.N = 8 := N_1; omega
  rw [show (dat V c).Φ (Fin.last cfg1.N) = PhiS V c (Fin.last cfg1.N).val (Nat.le_of_lt_succ (Fin.last cfg1.N).isLt) from rfl, PhiS_pos V c _ _ hne, PhiA_eq]
  iintro ⟨⟨HS, Hoth⟩, Hg⟩
  isplitl [HS Hoth]
  · isplitl [HS]
    · iexists _; iexact HS
    iexact Hoth
  iexact Hg

end Cert.Kernel.Reg1

end
-- ==== Proof.K_R2Runs.lean ====
/-
  Region 2 of the program (one pass "adjacency block times right factor, accumulated over the reduction axis"):
  what the per-case runs of its kernel body and its proof data share. The grid is (row blocks) × (4 reduction steps),
  the reduction step the fast axis, so a point's step is its number mod 4. The body's first conditional (reset the
  accumulator) is taken exactly at step 0, its second (add the bias row, apply the epilogue, store the output block)
  exactly at step 3; the output window is idle, and not written back, at every other step. The accumulator is a
  scratch buffer of the kernel's own, carried from one point to the next.
-/
import proofs.«155634_j8117488189610_2_alg».proof.Proof.Gen.Kernel.Launch
import proofs.«155634_j8117488189610_2_alg».proof.Proof.Gen.Kernel.Skeleton
import proofs.«155634_j8117488189610_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's branch conditions, in closed form over the grid -/

/-- The first conditional's condition: the reduction step is 0. -/
abbrev condFirst (i : grid2.Coords) : Prop := (Scalar.cmpi .ne (Scalar.extui (Scalar.cmpi .eq (BitVec.ofNat 32 (i 1).val) 0#32)) 0#32) = 1#1
theorem hcondFirst : ∀ t : Fin cfg2.N, condFirst (grid2.coords t) ↔ t.val % 4 = 0 :=
  (by decide +kernel : ∀ t : Fin grid2.N, condFirst (grid2.coords t) ↔ t.val % 4 = 0)

/-- The second conditional's condition: the reduction step is the last one. -/
abbrev condLast (i : grid2.Coords) : Prop := k2_cond2 i = 1#1
theorem hcondLast : ∀ t : Fin cfg2.N, condLast (grid2.coords t) ↔ t.val % 4 = 3 :=
  (by decide +kernel : ∀ t : Fin grid2.N, condLast (grid2.coords t) ↔ t.val % 4 = 3)

/-! ## Where the windows are idle -/

theorem live_0 : ∀ t : Fin cfg2.N, cfg2.idle 0 (grid2.coords t) = false := by decide +kernel
theorem live_1 : ∀ t : Fin cfg2.N, cfg2.idle 1 (grid2.coords t) = false := by decide +kernel
theorem live_2 : ∀ t : Fin cfg2.N, cfg2.idle 2 (grid2.coords t) = false := by decide +kernel
/-- Away from the last reduction step the body stores nothing into the output block, -/
theorem idle_3 : ∀ t : Fin cfg2.N, ¬condLast (grid2.coords t) → cfg2.idle 3 (grid2.coords t) = true := by decide +kernel
/-- and the pipeline does not write it back there; -/
theorem noFlush_3 : ∀ t : Fin cfg2.N, ¬condLast (grid2.coords t) → (cfg2.win 3).flush t = false := by decide +kernel
/-- at the last step it is stored whole. -/
theorem live_3 : ∀ t : Fin cfg2.N, condLast (grid2.coords t) → cfg2.idle 3 (grid2.coords t) = false := by decide +kernel

/-! ## The memrefs the body is called with -/

abbrev ms_0 (t : Fin cfg2.N) : Memref sig .tc .vmem S4096x2048 .bf16 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S2048x28 .f32 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S1x28 .f32 := win2_2.stage (cfg2.slots t 2)
abbrev hs_2 (t : Fin cfg2.N) : (ms_2 t).IsWhole := hstage2_2 ((cfg2.slots t 2).cast nbuf2_2)
abbrev ms_3 (t : Fin cfg2.N) : Memref sig .tc .vmem S4096x28 .f32 := win2_3.stage (cfg2.slots t 3)
abbrev hs_3 (t : Fin cfg2.N) : (ms_3 t).IsWhole := hstage2_3 ((cfg2.slots t 3).cast nbuf2_3)
/-- The accumulator: a whole scoped buffer of the kernel's own. -/
abbrev scM : Memref sig .tc .vmem S4096x28 .f32 := Memref.whole cc2_scratch0
/-- One staging buffer of the output window, through which its contents are stated. -/
abbrev VO : View sig .tc .vmem S4096x28 .f32 := (Memref.whole cc2_stg3_0 : Memref sig .tc .vmem S4096x28 .f32).view
abbrev VS : View sig .tc .vmem S4096x28 .f32 := scM.view

/-- What rides beside the accumulator through the region: every other scoped buffer of the core that no window of
    this region stages (the other regions' staging buffers and accumulators), each at some contents. -/
abbrev others (c : Dev nD) : sProp 𝕄 :=
  Pipeline.scopedRestBut (Ix := Unit) (Name := ℕ) (U := Pipeline.UD sig nD τ) (Lvl := ℕ) (Val := Elt F) spec2 c [cc2_scratch0]

/-- The class invariant (the scoped rest at anything, the generator register at some state) with the accumulator
    split out as a memref owned at some contents. -/
theorem PhiA_eq (c : Dev nD) :
    (Pipeline.ΦA spec2 c : sProp 𝕄)
      = iprop(iprop((∃ d, owns (c : Thread nD τ) scM fullShare d) ∗ others c) ∗ (∃ r, prngReg c r)) := by
  unfold Pipeline.ΦA; rw [scopedRest2_split]; simp only [scM, owns_whole]; try rfl

end Cert.Kernel.Reg2

end
-- ==== Proof.K_R2RunA.lean ====
/-
  Region 2's kernel body run whole at reduction step 0 (the accumulator, found at anything, is reset and takes the first partial product; nothing is stored into the output block, which is handed back untouched): on whole staging memrefs at given contents the body runs to its
  continuation, the inputs as they were and each buffer it stored into with its stores written; the list of those
  stores is the witness the run finds.
-/
import proofs.«155634_j8117488189610_2_alg».proof.Proof.K_R2Runs

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun_A (c : Dev nD) (i : grid2.Coords) (arg2 : Memref sig .tc .vmem S4096x2048 .bf16) (harg2 : arg2.IsWhole) (arg3 : Memref sig .tc .vmem S2048x28 .f32) (harg3 : arg3.IsWhole) (arg4 : Memref sig .tc .vmem S1x28 .f32) (harg4 : arg4.IsWhole) (arg5 : Memref sig .tc .vmem S4096x28 .f32) (harg5 : arg5.IsWhole) (arg6 : Memref sig .tc .vmem S4096x28 .f32) (harg6 : arg6.IsWhole) (hc0 : condFirst i) (hc1 : ¬condLast i)
    (x0 : Vec F S4096x2048 .bf16) (x1 : Vec F S2048x28 .f32) (x2 : Vec F S1x28 .f32) :
    { LS : List (View.Piece (Elt F) S4096x28 .f32) //
      ∀ (xi3 : Vec F S4096x28 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc2_kernel i arg2 harg2 arg3 harg3 arg4 harg4 arg5 harg5 arg6 harg6) K } := by
  refine ⟨?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Reg2

end
-- ==== Proof.K_R2RunB.lean ====
/-
  Region 2's kernel body run whole at a middle reduction step (the accumulator takes one more partial product; nothing is stored into the output block, which is handed back untouched): on whole staging memrefs at given contents the body runs to its
  continuation, the inputs as they were and each buffer it stored into with its stores written; the list of those
  stores is the witness the run finds.
-/
import proofs.«155634_j8117488189610_2_alg».proof.Proof.K_R2RunA

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun_B (c : Dev nD) (i : grid2.Coords) (arg2 : Memref sig .tc .vmem S4096x2048 .bf16) (harg2 : arg2.IsWhole) (arg3 : Memref sig .tc .vmem S2048x28 .f32) (harg3 : arg3.IsWhole) (arg4 : Memref sig .tc .vmem S1x28 .f32) (harg4 : arg4.IsWhole) (arg5 : Memref sig .tc .vmem S4096x28 .f32) (harg5 : arg5.IsWhole) (arg6 : Memref sig .tc .vmem S4096x28 .f32) (harg6 : arg6.IsWhole) (hc0 : ¬condFirst i) (hc1 : ¬condLast i)
    (x0 : Vec F S4096x2048 .bf16) (x1 : Vec F S2048x28 .f32) (x2 : Vec F S1x28 .f32) (xs : Vec F S4096x28 .f32) :
    { LS : List (View.Piece (Elt F) S4096x28 .f32) //
      ∀ (xi3 : Vec F S4096x28 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc2_kernel i arg2 harg2 arg3 harg3 arg4 harg4 arg5 harg5 arg6 harg6) K } := by
  refine ⟨?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Reg2

end
-- ==== Proof.K_R2RunC.lean ====
/-
  Region 2's kernel body run whole at the last reduction step (the accumulator takes the last partial product, then the bias row is added, the epilogue applied and the output block stored whole): on whole staging memrefs at given contents the body runs to its
  continuation, the inputs as they were and each buffer it stored into with its stores written; the list of those
  stores is the witness the run finds.
-/
import proofs.«155634_j8117488189610_2_alg».proof.Proof.K_R2RunB

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun_C (c : Dev nD) (i : grid2.Coords) (arg2 : Memref sig .tc .vmem S4096x2048 .bf16) (harg2 : arg2.IsWhole) (arg3 : Memref sig .tc .vmem S2048x28 .f32) (harg3 : arg3.IsWhole) (arg4 : Memref sig .tc .vmem S1x28 .f32) (harg4 : arg4.IsWhole) (arg5 : Memref sig .tc .vmem S4096x28 .f32) (harg5 : arg5.IsWhole) (arg6 : Memref sig .tc .vmem S4096x28 .f32) (harg6 : arg6.IsWhole) (hc0 : ¬condFirst i) (hc1 : condLast i)
    (x0 : Vec F S4096x2048 .bf16) (x1 : Vec F S2048x28 .f32) (x2 : Vec F S1x28 .f32) (xs : Vec F S4096x28 .f32) :
    Σ' (LO : List (View.Piece (Elt F) S4096x28 .f32)), { LS : List (View.Piece (Elt F) S4096x28 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc2_kernel i arg2 harg2 arg3 harg3 arg4 harg4 arg5 harg5 arg6 harg6) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Reg2

end
-- ==== Proof.K_R2Dat.lean ====
/-
  Region 2's proof data and body obligation, over any contents `V` the region may be entered from.
  What the buffers hold after the body at each grid point is stated by recursion on the point: at reduction step 0
  the accumulator is what the first case's run leaves from the point's three input blocks; at a later step, what that
  step's case leaves from the input blocks and the accumulator of the point before; the output block is stored (whole)
  at the last step only, and at every other point its staging buffer is handed back as found. The invariant carried
  from point to point is the accumulator at these contents, beside the other scoped buffers and the generator
  register at anything.
-/
import proofs.«155634_j8117488189610_2_alg».proof.Proof.K_R2RunC

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before_0_of {c : Dev nD} (dat : Dat τ (Elt F) Unit ℕ (Pipeline.UD sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_1_of {c : Dev nD} (dat : Dat τ (Elt F) Unit ℕ (Pipeline.UD sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_2_of {c : Dev nD} (dat : Dat τ (Elt F) Unit ℕ (Pipeline.UD sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

theorem scover_A (c : Dev nD) (i : grid2.Coords) (arg2 : Memref sig .tc .vmem S4096x2048 .bf16) (harg2 : arg2.IsWhole) (arg3 : Memref sig .tc .vmem S2048x28 .f32) (harg3 : arg3.IsWhole) (arg4 : Memref sig .tc .vmem S1x28 .f32) (harg4 : arg4.IsWhole) (arg5 : Memref sig .tc .vmem S4096x28 .f32) (harg5 : arg5.IsWhole) (arg6 : Memref sig .tc .vmem S4096x28 .f32) (harg6 : arg6.IsWhole) (hc0 : condFirst i) (hc1 : ¬condLast i) (x0 : Vec F S4096x2048 .bf16) (x1 : Vec F S2048x28 .f32) (x2 : Vec F S1x28 .f32) (y : S4096x28.Idx) :
    ∃ pc ∈ (kernelRun_A c i arg2 harg2 arg3 harg3 arg4 harg4 arg5 harg5 arg6 harg6 hc0 hc1 x0 x1 x2).1, y ∈ pc.1.set :=
  View.cover_of_tiledL (kernelRun_A c i arg2 harg2 arg3 harg3 arg4 harg4 arg5 harg5 arg6 harg6 hc0 hc1 x0 x1 x2).1 S4096x28.size (by sl_kernel_rfl) y
/-- The accumulator after a point of reduction step 0. -/
def sout_A (c : Dev nD) (i : grid2.Coords) (arg2 : Memref sig .tc .vmem S4096x2048 .bf16) (harg2 : arg2.IsWhole) (arg3 : Memref sig .tc .vmem S2048x28 .f32) (harg3 : arg3.IsWhole) (arg4 : Memref sig .tc .vmem S1x28 .f32) (harg4 : arg4.IsWhole) (arg5 : Memref sig .tc .vmem S4096x28 .f32) (harg5 : arg5.IsWhole) (arg6 : Memref sig .tc .vmem S4096x28 .f32) (harg6 : arg6.IsWhole) (hc0 : condFirst i) (hc1 : ¬condLast i) (x0 : Vec F S4096x2048 .bf16) (x1 : Vec F S2048x28 .f32) (x2 : Vec F S1x28 .f32) : Vec F S4096x28 .f32 :=
  VS.read (Elt F) (VS.writes (Elt F) VS.junk (kernelRun_A c i arg2 harg2 arg3 harg3 arg4 harg4 arg5 harg5 arg6 harg6 hc0 hc1 x0 x1 x2).1)

theorem scover_B (c : Dev nD) (i : grid2.Coords) (arg2 : Memref sig .tc .vmem S4096x2048 .bf16) (harg2 : arg2.IsWhole) (arg3 : Memref sig .tc .vmem S2048x28 .f32) (harg3 : arg3.IsWhole) (arg4 : Memref sig .tc .vmem S1x28 .f32) (harg4 : arg4.IsWhole) (arg5 : Memref sig .tc .vmem S4096x28 .f32) (harg5 : arg5.IsWhole) (arg6 : Memref sig .tc .vmem S4096x28 .f32) (harg6 : arg6.IsWhole) (hc0 : ¬condFirst i) (hc1 : ¬condLast i) (x0 : Vec F S4096x2048 .bf16) (x1 : Vec F S2048x28 .f32) (x2 : Vec F S1x28 .f32) (xs : Vec F S4096x28 .f32) (y : S4096x28.Idx) :
    ∃ pc ∈ (kernelRun_B c i arg2 harg2 arg3 harg3 arg4 harg4 arg5 harg5 arg6 harg6 hc0 hc1 x0 x1 x2 xs).1, y ∈ pc.1.set :=
  View.cover_of_tiledL (kernelRun_B c i arg2 harg2 arg3 harg3 arg4 harg4 arg5 harg5 arg6 harg6 hc0 hc1 x0 x1 x2 xs).1 S4096x28.size (by sl_kernel_rfl) y
/-- The accumulator after a point of a middle reduction step. -/
def sout_B (c : Dev nD) (i : grid2.Coords) (arg2 : Memref sig .tc .vmem S4096x2048 .bf16) (harg2 : arg2.IsWhole) (arg3 : Memref sig .tc .vmem S2048x28 .f32) (harg3 : arg3.IsWhole) (arg4 : Memref sig .tc .vmem S1x28 .f32) (harg4 : arg4.IsWhole) (arg5 : Memref sig .tc .vmem S4096x28 .f32) (harg5 : arg5.IsWhole) (arg6 : Memref sig .tc .vmem S4096x28 .f32) (harg6 : arg6.IsWhole) (hc0 : ¬condFirst i) (hc1 : ¬condLast i) (x0 : Vec F S4096x2048 .bf16) (x1 : Vec F S2048x28 .f32) (x2 : Vec F S1x28 .f32) (xs : Vec F S4096x28 .f32) : Vec F S4096x28 .f32 :=
  VS.read (Elt F) (VS.writes (Elt F) VS.junk (kernelRun_B c i arg2 harg2 arg3 harg3 arg4 harg4 arg5 harg5 arg6 harg6 hc0 hc1 x0 x1 x2 xs).1)

theorem cover_C (c : Dev nD) (i : grid2.Coords) (arg2 : Memref sig .tc .vmem S4096x2048 .bf16) (harg2 : arg2.IsWhole) (arg3 : Memref sig .tc .vmem S2048x28 .f32) (harg3 : arg3.IsWhole) (arg4 : Memref sig .tc .vmem S1x28 .f32) (harg4 : arg4.IsWhole) (arg5 : Memref sig .tc .vmem S4096x28 .f32) (harg5 : arg5.IsWhole) (arg6 : Memref sig .tc .vmem S4096x28 .f32) (harg6 : arg6.IsWhole) (hc0 : ¬condFirst i) (hc1 : condLast i) (x0 : Vec F S4096x2048 .bf16) (x1 : Vec F S2048x28 .f32) (x2 : Vec F S1x28 .f32) (xs : Vec F S4096x28 .f32) (y : S4096x28.Idx) :
    ∃ pc ∈ (kernelRun_C c i arg2 harg2 arg3 harg3 arg4 harg4 arg5 harg5 arg6 harg6 hc0 hc1 x0 x1 x2 xs).1, y ∈ pc.1.set :=
  View.cover_of_tiledL (kernelRun_C c i arg2 harg2 arg3 harg3 arg4 harg4 arg5 harg5 arg6 harg6 hc0 hc1 x0 x1 x2 xs).1 S4096x28.size (by sl_kernel_rfl) y
/-- The output block stored at a point of the last reduction step. -/
def out_C (c : Dev nD) (i : grid2.Coords) (arg2 : Memref sig .tc .vmem S4096x2048 .bf16) (harg2 : arg2.IsWhole) (arg3 : Memref sig .tc .vmem S2048x28 .f32) (harg3 : arg3.IsWhole) (arg4 : Memref sig .tc .vmem S1x28 .f32) (harg4 : arg4.IsWhole) (arg5 : Memref sig .tc .vmem S4096x28 .f32) (harg5 : arg5.IsWhole) (arg6 : Memref sig .tc .vmem S4096x28 .f32) (harg6 : arg6.IsWhole) (hc0 : ¬condFirst i) (hc1 : condLast i) (x0 : Vec F S4096x2048 .bf16) (x1 : Vec F S2048x28 .f32) (x2 : Vec F S1x28 .f32) (xs : Vec F S4096x28 .f32) : Vec F S4096x28 .f32 :=
  VO.read (Elt F) (VO.writes (Elt F) VO.junk (kernelRun_C c i arg2 harg2 arg3 harg3 arg4 harg4 arg5 harg5 arg6 harg6 hc0 hc1 x0 x1 x2 xs).1)
theorem scover_C (c : Dev nD) (i : grid2.Coords) (arg2 : Memref sig .tc .vmem S4096x2048 .bf16) (harg2 : arg2.IsWhole) (arg3 : Memref sig .tc .vmem S2048x28 .f32) (harg3 : arg3.IsWhole) (arg4 : Memref sig .tc .vmem S1x28 .f32) (harg4 : arg4.IsWhole) (arg5 : Memref sig .tc .vmem S4096x28 .f32) (harg5 : arg5.IsWhole) (arg6 : Memref sig .tc .vmem S4096x28 .f32) (harg6 : arg6.IsWhole) (hc0 : ¬condFirst i) (hc1 : condLast i) (x0 : Vec F S4096x2048 .bf16) (x1 : Vec F S2048x28 .f32) (x2 : Vec F S1x28 .f32) (xs : Vec F S4096x28 .f32) (y : S4096x28.Idx) :
    ∃ pc ∈ (kernelRun_C c i arg2 harg2 arg3 harg3 arg4 harg4 arg5 harg5 arg6 harg6 hc0 hc1 x0 x1 x2 xs).2.1, y ∈ pc.1.set :=
  View.cover_of_tiledL (kernelRun_C c i arg2 harg2 arg3 harg3 arg4 harg4 arg5 harg5 arg6 harg6 hc0 hc1 x0 x1 x2 xs).2.1 S4096x28.size (by sl_kernel_rfl) y
/-- The accumulator after a point of the last reduction step. -/
def sout_C (c : Dev nD) (i : grid2.Coords) (arg2 : Memref sig .tc .vmem S4096x2048 .bf16) (harg2 : arg2.IsWhole) (arg3 : Memref sig .tc .vmem S2048x28 .f32) (harg3 : arg3.IsWhole) (arg4 : Memref sig .tc .vmem S1x28 .f32) (harg4 : arg4.IsWhole) (arg5 : Memref sig .tc .vmem S4096x28 .f32) (harg5 : arg5.IsWhole) (arg6 : Memref sig .tc .vmem S4096x28 .f32) (harg6 : arg6.IsWhole) (hc0 : ¬condFirst i) (hc1 : condLast i) (x0 : Vec F S4096x2048 .bf16) (x1 : Vec F S2048x28 .f32) (x2 : Vec F S1x28 .f32) (xs : Vec F S4096x28 .f32) : Vec F S4096x28 .f32 :=
  VS.read (Elt F) (VS.writes (Elt F) VS.junk (kernelRun_C c i arg2 harg2 arg3 harg3 arg4 harg4 arg5 harg5 arg6 harg6 hc0 hc1 x0 x1 x2 xs).2.1)

/-- A placeholder for the output block's staging buffer at a point where nothing is stored into it and it is not
    written back: nothing consults it. -/
def outIdle : Vec F S4096x28 .f32 := VO.read (Elt F) VO.junk

/-! ## What the output block and the accumulator hold after each point -/

/-- After the body at position `n`: (the output window's staging buffer, the accumulator). -/
def outsAt (c : Dev nD) : (n : ℕ) → n < cfg2.N → Vec F S4096x28 .f32 × Vec F S4096x28 .f32
  | 0, hn => (outIdle, sout_A c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩))
  | n + 1, hn =>
    if h0 : (n + 1) % 4 = 0 then
      if h1 : (n + 1) % 4 = 3 then
        False.elim (by omega)
      else
        (outIdle, sout_A c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩) (iblk V c 2 ⟨n + 1, hn⟩))
    else
      if h1 : (n + 1) % 4 = 3 then
        (out_C c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2,
         sout_C c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        (outIdle, sout_B c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2)

theorem outsAt_A (c : Dev nD) (t : Fin cfg2.N) (h0 : t.val % 4 = 0) (h1 : ¬t.val % 4 = 3) :
    outsAt V c t.val t.isLt = (outIdle, sout_A c (grid2.coords t) (ms_0 t) (hs_0 t) (ms_1 t) (hs_1 t) (ms_2 t) (hs_2 t) (ms_3 t) (hs_3 t) scM (Memref.isWhole_whole _) ((hcondFirst t).mpr h0) (fun h => h1 ((hcondLast t).mp h)) (iblk V c 0 t) (iblk V c 1 t) (iblk V c 2 t)) := by
  obtain ⟨n, hn⟩ := t
  cases n with
  | zero => exact rfl
  | succ n => exact (dif_pos h0).trans ((dif_neg h1).trans rfl)

theorem outsAt_B (c : Dev nD) (t : Fin cfg2.N) (h0 : ¬t.val % 4 = 0) (h1 : ¬t.val % 4 = 3) :
    outsAt V c t.val t.isLt = (outIdle, sout_B c (grid2.coords t) (ms_0 t) (hs_0 t) (ms_1 t) (hs_1 t) (ms_2 t) (hs_2 t) (ms_3 t) (hs_3 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg2.N) (h0 : ¬t.val % 4 = 0) (h1 : t.val % 4 = 3) :
    outsAt V c t.val t.isLt = (out_C c (grid2.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2,
      sout_C c (grid2.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant carried from point to point -/

def PhiS (c : Dev nD) : (n : ℕ) → n ≤ cfg2.N → sProp 𝕄
  | 0, _ => Pipeline.ΦA spec2 c
  | n + 1, hn => iprop(iprop(owns (c : Thread nD τ) scM fullShare ((outsAt V c n hn).2) ∗ others c) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(owns (c : Thread nD τ) scM fullShare ((outsAt V c n hn).2) ∗ others c) ∗ (∃ r, prngReg c r)) := rfl
theorem PhiS_pos (c : Dev nD) (n : ℕ) (h : n ≤ cfg2.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The proof data -/

def dat (c : Dev nD) : Dat τ (Elt F) Unit ℕ (Pipeline.UD sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]
theorem PhiS_castSucc (c : Dev nD) (t : Fin cfg2.N) :
    (dat V c).Φ t.castSucc = PhiS V c t.val (Nat.le_of_lt t.isLt) := by
  dsimp only [dat]; simp only [Fin.coe_castSucc]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = (outsAt V c t.val t.isLt).1 := by dsimp only [dat]
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d

/-! ## The body obligation -/

def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 8 := lt_of_lt_of_eq t.isLt (show cfg2.N = 8 from N_2)
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [show (dat V c).leavesExact 2 t = owns (c : Thread nD τ) (ms_2 t) fullShare ((dat V c).after 2 t) from by
    unfold Dat.leavesExact; rw [live_2 t], after_2]
  by_cases h0 : t.val % 4 = 0
  · by_cases h1 : t.val % 4 = 3
    · exfalso; omega
    · rw [Dat.leavesExact_idle (dat V c) 3 t (idle_3 t (fun h => h1 ((hcondLast t).mp h))) (noFlush_3 t (fun h => h1 ((hcondLast t).mp h)))]
      rw [outsAt_A V c t h0 h1]
      unfold sout_A; (try dsimp only)
      by_cases hz : t.val = 0
      · rw [PhiS_castSucc V c t, PhiS_zero V c _ _ hz, PhiA_eq]
        iintro ⟨⟨⟨HS, Hoth⟩, Hg⟩, Ho, ⟨%d0, H0⟩, ⟨%d1, H1⟩, ⟨%d2, H2⟩, ⟨%d3, H3⟩⟩
        iapply ((kernelRun_A c (grid2.coords t) _ _ _ _ _ _ _ _ _ _ ((hcondFirst t).mpr h0) (fun h => h1 ((hcondLast t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (scover_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((kernelRun_A c (grid2.coords t) _ _ _ _ _ _ _ _ _ _ ((hcondFirst t).mpr h0) (fun h => h1 ((hcondLast t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (scover_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 4 = 3
    · rw [show (dat V c).leavesExact 3 t = owns (c : Thread nD τ) (ms_3 t) fullShare ((dat V c).after 3 t) from by
        unfold Dat.leavesExact; rw [live_3 t ((hcondLast t).mpr h1)], after_3]
      rw [outsAt_C V c t h0 h1]
      unfold out_C sout_C; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((kernelRun_C c (grid2.coords t) _ _ _ _ _ _ _ _ _ _ (fun h => h0 ((hcondFirst t).mp h)) ((hcondLast t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (scover_C c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_C c _ _ _ _ _ _ _ _ _ _ _ _ _ _ _ _ _)
    · rw [Dat.leavesExact_idle (dat V c) 3 t (idle_3 t (fun h => h1 ((hcondLast t).mp h))) (noFlush_3 t (fun h => h1 ((hcondLast t).mp h)))]
      rw [outsAt_B V c t h0 h1]
      unfold sout_B; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((kernelRun_B c (grid2.coords t) _ _ _ _ _ _ _ _ _ _ (fun h => h0 ((hcondFirst t).mp h)) (fun h => h1 ((hcondLast t).mp h)) (iblk V c 0 t) (iblk V c 1 t) (iblk V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (scover_B c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the accumulator's contents are forgotten. -/
theorem hout (c : Dev nD) : (dat V c).Φ (Fin.last cfg2.N) ⊢ Pipeline.ΦA spec2 c := by
  have hne : (Fin.last cfg2.N).val ≠ 0 := by rw [Fin.val_last]; have : cfg2.N = 8 := N_2; omega
  rw [show (dat V c).Φ (Fin.last cfg2.N) = PhiS V c (Fin.last cfg2.N).val (Nat.le_of_lt_succ (Fin.last cfg2.N).isLt) from rfl, PhiS_pos V c _ _ hne, PhiA_eq]
  iintro ⟨⟨HS, Hoth⟩, Hg⟩
  isplitl [HS Hoth]
  · isplitl [HS]
    · iexists _; iexact HS
    iexact Hoth
  iexact Hg

end Cert.Kernel.Reg2

end
-- ==== Proof.K_R3Runs.lean ====
/-
  Region 3 of the program (one pass "adjacency block times right factor, accumulated over the reduction axis"):
  what the per-case runs of its kernel body and its proof data share. The grid is (row blocks) × (4 reduction steps),
  the reduction step the fast axis, so a point's step is its number mod 4. The body's first conditional (reset the
  accumulator) is taken exactly at step 0, its second (add the bias row, apply the epilogue, store the output block)
  exactly at step 3; the output window is idle, and not written back, at every other step. The accumulator is a
  scratch buffer of the kernel's own, carried from one point to the next.
-/
import proofs.«155634_j8117488189610_2_alg».proof.Proof.Gen.Kernel.Launch
import proofs.«155634_j8117488189610_2_alg».proof.Proof.Gen.Kernel.Skeleton
import proofs.«155634_j8117488189610_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's branch conditions, in closed form over the grid -/

/-- The first conditional's condition: the reduction step is 0. -/
abbrev condFirst (i : grid3.Coords) : Prop := (Scalar.cmpi .ne (Scalar.extui (Scalar.cmpi .eq (BitVec.ofNat 32 (i 1).val) 0#32)) 0#32) = 1#1
theorem hcondFirst : ∀ t : Fin cfg3.N, condFirst (grid3.coords t) ↔ t.val % 4 = 0 :=
  (by decide +kernel : ∀ t : Fin grid3.N, condFirst (grid3.coords t) ↔ t.val % 4 = 0)

/-- The second conditional's condition: the reduction step is the last one. -/
abbrev condLast (i : grid3.Coords) : Prop := k3_cond2 i = 1#1
theorem hcondLast : ∀ t : Fin cfg3.N, condLast (grid3.coords t) ↔ t.val % 4 = 3 :=
  (by decide +kernel : ∀ t : Fin grid3.N, condLast (grid3.coords t) ↔ t.val % 4 = 3)

/-! ## Where the windows are idle -/

theorem live_0 : ∀ t : Fin cfg3.N, cfg3.idle 0 (grid3.coords t) = false := by decide +kernel
theorem live_1 : ∀ t : Fin cfg3.N, cfg3.idle 1 (grid3.coords t) = false := by decide +kernel
theorem live_2 : ∀ t : Fin cfg3.N, cfg3.idle 2 (grid3.coords t) = false := by decide +kernel
/-- Away from the last reduction step the body stores nothing into the output block, -/
theorem idle_3 : ∀ t : Fin cfg3.N, ¬condLast (grid3.coords t) → cfg3.idle 3 (grid3.coords t) = true := by decide +kernel
/-- and the pipeline does not write it back there; -/
theorem noFlush_3 : ∀ t : Fin cfg3.N, ¬condLast (grid3.coords t) → (cfg3.win 3).flush t = false := by decide +kernel
/-- at the last step it is stored whole. -/
theorem live_3 : ∀ t : Fin cfg3.N, condLast (grid3.coords t) → cfg3.idle 3 (grid3.coords t) = false := by decide +kernel

/-! ## The memrefs the body is called with -/

abbrev ms_0 (t : Fin cfg3.N) : Memref sig .tc .vmem S4096x2048 .bf16 := win3_0.stage (cfg3.slots t 0)
abbrev hs_0 (t : Fin cfg3.N) : (ms_0 t).IsWhole := hstage3_0 ((cfg3.slots t 0).cast nbuf3_0)
abbrev ms_1 (t : Fin cfg3.N) : Memref sig .tc .vmem S2048x20 .f32 := win3_1.stage (cfg3.slots t 1)
abbrev hs_1 (t : Fin cfg3.N) : (ms_1 t).IsWhole := hstage3_1 ((cfg3.slots t 1).cast nbuf3_1)
abbrev ms_2 (t : Fin cfg3.N) : Memref sig .tc .vmem S1x20 .f32 := win3_2.stage (cfg3.slots t 2)
abbrev hs_2 (t : Fin cfg3.N) : (ms_2 t).IsWhole := hstage3_2 ((cfg3.slots t 2).cast nbuf3_2)
abbrev ms_3 (t : Fin cfg3.N) : Memref sig .tc .vmem S4096x20 .f32 := win3_3.stage (cfg3.slots t 3)
abbrev hs_3 (t : Fin cfg3.N) : (ms_3 t).IsWhole := hstage3_3 ((cfg3.slots t 3).cast nbuf3_3)
/-- The accumulator: a whole scoped buffer of the kernel's own. -/
abbrev scM : Memref sig .tc .vmem S4096x20 .f32 := Memref.whole cc3_scratch0
/-- One staging buffer of the output window, through which its contents are stated. -/
abbrev VO : View sig .tc .vmem S4096x20 .f32 := (Memref.whole cc3_stg3_0 : Memref sig .tc .vmem S4096x20 .f32).view
abbrev VS : View sig .tc .vmem S4096x20 .f32 := scM.view

/-- What rides beside the accumulator through the region: every other scoped buffer of the core that no window of
    this region stages (the other regions' staging buffers and accumulators), each at some contents. -/
abbrev others (c : Dev nD) : sProp 𝕄 :=
  Pipeline.scopedRestBut (Ix := Unit) (Name := ℕ) (U := Pipeline.UD sig nD τ) (Lvl := ℕ) (Val := Elt F) spec3 c [cc3_scratch0]

/-- The class invariant (the scoped rest at anything, the generator register at some state) with the accumulator
    split out as a memref owned at some contents. -/
theorem PhiA_eq (c : Dev nD) :
    (Pipeline.ΦA spec3 c : sProp 𝕄)
      = iprop(iprop((∃ d, owns (c : Thread nD τ) scM fullShare d) ∗ others c) ∗ (∃ r, prngReg c r)) := by
  unfold Pipeline.ΦA; rw [scopedRest3_split]; simp only [scM, owns_whole]; try rfl

end Cert.Kernel.Reg3

end
-- ==== Proof.K_R3RunA.lean ====
/-
  Region 3's kernel body run whole at reduction step 0 (the accumulator, found at anything, is reset and takes the first partial product; nothing is stored into the output block, which is handed back untouched): on whole staging memrefs at given contents the body runs to its
  continuation, the inputs as they were and each buffer it stored into with its stores written; the list of those
  stores is the witness the run finds.
-/
import proofs.«155634_j8117488189610_2_alg».proof.Proof.K_R3Runs

set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun_A (c : Dev nD) (i : grid3.Coords) (arg2 : Memref sig .tc .vmem S4096x2048 .bf16) (harg2 : arg2.IsWhole) (arg3 : Memref sig .tc .vmem S2048x20 .f32) (harg3 : arg3.IsWhole) (arg4 : Memref sig .tc .vmem S1x20 .f32) (harg4 : arg4.IsWhole) (arg5 : Memref sig .tc .vmem S4096x20 .f32) (harg5 : arg5.IsWhole) (arg6 : Memref sig .tc .vmem S4096x20 .f32) (harg6 : arg6.IsWhole) (hc0 : condFirst i) (hc1 : ¬condLast i)
    (x0 : Vec F S4096x2048 .bf16) (x1 : Vec F S2048x20 .f32) (x2 : Vec F S1x20 .f32) :
    { LS : List (View.Piece (Elt F) S4096x20 .f32) //
      ∀ (xi3 : Vec F S4096x20 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc3_kernel i arg2 harg2 arg3 harg3 arg4 harg4 arg5 harg5 arg6 harg6) K } := by
  refine ⟨?_, fun xi3 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Reg3

end
-- ==== Proof.K_R3RunB.lean ====
/-
  Region 3's kernel body run whole at a middle reduction step (the accumulator takes one more partial product; nothing is stored into the output block, which is handed back untouched): on whole staging memrefs at given contents the body runs to its
  continuation, the inputs as they were and each buffer it stored into with its stores written; the list of those
  stores is the witness the run finds.
-/
import proofs.«155634_j8117488189610_2_alg».proof.Proof.K_R3RunA

set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun_B (c : Dev nD) (i : grid3.Coords) (arg2 : Memref sig .tc .vmem S4096x2048 .bf16) (harg2 : arg2.IsWhole) (arg3 : Memref sig .tc .vmem S2048x20 .f32) (harg3 : arg3.IsWhole) (arg4 : Memref sig .tc .vmem S1x20 .f32) (harg4 : arg4.IsWhole) (arg5 : Memref sig .tc .vmem S4096x20 .f32) (harg5 : arg5.IsWhole) (arg6 : Memref sig .tc .vmem S4096x20 .f32) (harg6 : arg6.IsWhole) (hc0 : ¬condFirst i) (hc1 : ¬condLast i)
    (x0 : Vec F S4096x2048 .bf16) (x1 : Vec F S2048x20 .f32) (x2 : Vec F S1x20 .f32) (xs : Vec F S4096x20 .f32) :
    { LS : List (View.Piece (Elt F) S4096x20 .f32) //
      ∀ (xi3 : Vec F S4096x20 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc3_kernel i arg2 harg2 arg3 harg3 arg4 harg4 arg5 harg5 arg6 harg6) K } := by
  refine ⟨?_, fun xi3 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Reg3

end
-- ==== Proof.K_R3RunC.lean ====
/-
  Region 3's kernel body run whole at the last reduction step (the accumulator takes the last partial product, then the bias row is added, the epilogue applied and the output block stored whole): on whole staging memrefs at given contents the body runs to its
  continuation, the inputs as they were and each buffer it stored into with its stores written; the list of those
  stores is the witness the run finds.
-/
import proofs.«155634_j8117488189610_2_alg».proof.Proof.K_R3RunB

set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun_C (c : Dev nD) (i : grid3.Coords) (arg2 : Memref sig .tc .vmem S4096x2048 .bf16) (harg2 : arg2.IsWhole) (arg3 : Memref sig .tc .vmem S2048x20 .f32) (harg3 : arg3.IsWhole) (arg4 : Memref sig .tc .vmem S1x20 .f32) (harg4 : arg4.IsWhole) (arg5 : Memref sig .tc .vmem S4096x20 .f32) (harg5 : arg5.IsWhole) (arg6 : Memref sig .tc .vmem S4096x20 .f32) (harg6 : arg6.IsWhole) (hc0 : ¬condFirst i) (hc1 : condLast i)
    (x0 : Vec F S4096x2048 .bf16) (x1 : Vec F S2048x20 .f32) (x2 : Vec F S1x20 .f32) (xs : Vec F S4096x20 .f32) :
    Σ' (LO : List (View.Piece (Elt F) S4096x20 .f32)), { LS : List (View.Piece (Elt F) S4096x20 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc3_kernel i arg2 harg2 arg3 harg3 arg4 harg4 arg5 harg5 arg6 harg6) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Reg3

end
-- ==== Proof.K_R3Dat.lean ====
/-
  Region 3's proof data and body obligation, over any contents `V` the region may be entered from.
  What the buffers hold after the body at each grid point is stated by recursion on the point: at reduction step 0
  the accumulator is what the first case's run leaves from the point's three input blocks; at a later step, what that
  step's case leaves from the input blocks and the accumulator of the point before; the output block is stored (whole)
  at the last step only, and at every other point its staging buffer is handed back as found. The invariant carried
  from point to point is the accumulator at these contents, beside the other scoped buffers and the generator
  register at anything.
-/
import proofs.«155634_j8117488189610_2_alg».proof.Proof.K_R3RunC

set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before_0_of {c : Dev nD} (dat : Dat τ (Elt F) Unit ℕ (Pipeline.UD sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_1_of {c : Dev nD} (dat : Dat τ (Elt F) Unit ℕ (Pipeline.UD sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_2_of {c : Dev nD} (dat : Dat τ (Elt F) Unit ℕ (Pipeline.UD sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

theorem scover_A (c : Dev nD) (i : grid3.Coords) (arg2 : Memref sig .tc .vmem S4096x2048 .bf16) (harg2 : arg2.IsWhole) (arg3 : Memref sig .tc .vmem S2048x20 .f32) (harg3 : arg3.IsWhole) (arg4 : Memref sig .tc .vmem S1x20 .f32) (harg4 : arg4.IsWhole) (arg5 : Memref sig .tc .vmem S4096x20 .f32) (harg5 : arg5.IsWhole) (arg6 : Memref sig .tc .vmem S4096x20 .f32) (harg6 : arg6.IsWhole) (hc0 : condFirst i) (hc1 : ¬condLast i) (x0 : Vec F S4096x2048 .bf16) (x1 : Vec F S2048x20 .f32) (x2 : Vec F S1x20 .f32) (y : S4096x20.Idx) :
    ∃ pc ∈ (kernelRun_A c i arg2 harg2 arg3 harg3 arg4 harg4 arg5 harg5 arg6 harg6 hc0 hc1 x0 x1 x2).1, y ∈ pc.1.set :=
  View.cover_of_tiledL (kernelRun_A c i arg2 harg2 arg3 harg3 arg4 harg4 arg5 harg5 arg6 harg6 hc0 hc1 x0 x1 x2).1 S4096x20.size (by sl_kernel_rfl) y
/-- The accumulator after a point of reduction step 0. -/
def sout_A (c : Dev nD) (i : grid3.Coords) (arg2 : Memref sig .tc .vmem S4096x2048 .bf16) (harg2 : arg2.IsWhole) (arg3 : Memref sig .tc .vmem S2048x20 .f32) (harg3 : arg3.IsWhole) (arg4 : Memref sig .tc .vmem S1x20 .f32) (harg4 : arg4.IsWhole) (arg5 : Memref sig .tc .vmem S4096x20 .f32) (harg5 : arg5.IsWhole) (arg6 : Memref sig .tc .vmem S4096x20 .f32) (harg6 : arg6.IsWhole) (hc0 : condFirst i) (hc1 : ¬condLast i) (x0 : Vec F S4096x2048 .bf16) (x1 : Vec F S2048x20 .f32) (x2 : Vec F S1x20 .f32) : Vec F S4096x20 .f32 :=
  VS.read (Elt F) (VS.writes (Elt F) VS.junk (kernelRun_A c i arg2 harg2 arg3 harg3 arg4 harg4 arg5 harg5 arg6 harg6 hc0 hc1 x0 x1 x2).1)

theorem scover_B (c : Dev nD) (i : grid3.Coords) (arg2 : Memref sig .tc .vmem S4096x2048 .bf16) (harg2 : arg2.IsWhole) (arg3 : Memref sig .tc .vmem S2048x20 .f32) (harg3 : arg3.IsWhole) (arg4 : Memref sig .tc .vmem S1x20 .f32) (harg4 : arg4.IsWhole) (arg5 : Memref sig .tc .vmem S4096x20 .f32) (harg5 : arg5.IsWhole) (arg6 : Memref sig .tc .vmem S4096x20 .f32) (harg6 : arg6.IsWhole) (hc0 : ¬condFirst i) (hc1 : ¬condLast i) (x0 : Vec F S4096x2048 .bf16) (x1 : Vec F S2048x20 .f32) (x2 : Vec F S1x20 .f32) (xs : Vec F S4096x20 .f32) (y : S4096x20.Idx) :
    ∃ pc ∈ (kernelRun_B c i arg2 harg2 arg3 harg3 arg4 harg4 arg5 harg5 arg6 harg6 hc0 hc1 x0 x1 x2 xs).1, y ∈ pc.1.set :=
  View.cover_of_tiledL (kernelRun_B c i arg2 harg2 arg3 harg3 arg4 harg4 arg5 harg5 arg6 harg6 hc0 hc1 x0 x1 x2 xs).1 S4096x20.size (by sl_kernel_rfl) y
/-- The accumulator after a point of a middle reduction step. -/
def sout_B (c : Dev nD) (i : grid3.Coords) (arg2 : Memref sig .tc .vmem S4096x2048 .bf16) (harg2 : arg2.IsWhole) (arg3 : Memref sig .tc .vmem S2048x20 .f32) (harg3 : arg3.IsWhole) (arg4 : Memref sig .tc .vmem S1x20 .f32) (harg4 : arg4.IsWhole) (arg5 : Memref sig .tc .vmem S4096x20 .f32) (harg5 : arg5.IsWhole) (arg6 : Memref sig .tc .vmem S4096x20 .f32) (harg6 : arg6.IsWhole) (hc0 : ¬condFirst i) (hc1 : ¬condLast i) (x0 : Vec F S4096x2048 .bf16) (x1 : Vec F S2048x20 .f32) (x2 : Vec F S1x20 .f32) (xs : Vec F S4096x20 .f32) : Vec F S4096x20 .f32 :=
  VS.read (Elt F) (VS.writes (Elt F) VS.junk (kernelRun_B c i arg2 harg2 arg3 harg3 arg4 harg4 arg5 harg5 arg6 harg6 hc0 hc1 x0 x1 x2 xs).1)

theorem cover_C (c : Dev nD) (i : grid3.Coords) (arg2 : Memref sig .tc .vmem S4096x2048 .bf16) (harg2 : arg2.IsWhole) (arg3 : Memref sig .tc .vmem S2048x20 .f32) (harg3 : arg3.IsWhole) (arg4 : Memref sig .tc .vmem S1x20 .f32) (harg4 : arg4.IsWhole) (arg5 : Memref sig .tc .vmem S4096x20 .f32) (harg5 : arg5.IsWhole) (arg6 : Memref sig .tc .vmem S4096x20 .f32) (harg6 : arg6.IsWhole) (hc0 : ¬condFirst i) (hc1 : condLast i) (x0 : Vec F S4096x2048 .bf16) (x1 : Vec F S2048x20 .f32) (x2 : Vec F S1x20 .f32) (xs : Vec F S4096x20 .f32) (y : S4096x20.Idx) :
    ∃ pc ∈ (kernelRun_C c i arg2 harg2 arg3 harg3 arg4 harg4 arg5 harg5 arg6 harg6 hc0 hc1 x0 x1 x2 xs).1, y ∈ pc.1.set :=
  View.cover_of_tiledL (kernelRun_C c i arg2 harg2 arg3 harg3 arg4 harg4 arg5 harg5 arg6 harg6 hc0 hc1 x0 x1 x2 xs).1 S4096x20.size (by sl_kernel_rfl) y
/-- The output block stored at a point of the last reduction step. -/
def out_C (c : Dev nD) (i : grid3.Coords) (arg2 : Memref sig .tc .vmem S4096x2048 .bf16) (harg2 : arg2.IsWhole) (arg3 : Memref sig .tc .vmem S2048x20 .f32) (harg3 : arg3.IsWhole) (arg4 : Memref sig .tc .vmem S1x20 .f32) (harg4 : arg4.IsWhole) (arg5 : Memref sig .tc .vmem S4096x20 .f32) (harg5 : arg5.IsWhole) (arg6 : Memref sig .tc .vmem S4096x20 .f32) (harg6 : arg6.IsWhole) (hc0 : ¬condFirst i) (hc1 : condLast i) (x0 : Vec F S4096x2048 .bf16) (x1 : Vec F S2048x20 .f32) (x2 : Vec F S1x20 .f32) (xs : Vec F S4096x20 .f32) : Vec F S4096x20 .f32 :=
  VO.read (Elt F) (VO.writes (Elt F) VO.junk (kernelRun_C c i arg2 harg2 arg3 harg3 arg4 harg4 arg5 harg5 arg6 harg6 hc0 hc1 x0 x1 x2 xs).1)
theorem scover_C (c : Dev nD) (i : grid3.Coords) (arg2 : Memref sig .tc .vmem S4096x2048 .bf16) (harg2 : arg2.IsWhole) (arg3 : Memref sig .tc .vmem S2048x20 .f32) (harg3 : arg3.IsWhole) (arg4 : Memref sig .tc .vmem S1x20 .f32) (harg4 : arg4.IsWhole) (arg5 : Memref sig .tc .vmem S4096x20 .f32) (harg5 : arg5.IsWhole) (arg6 : Memref sig .tc .vmem S4096x20 .f32) (harg6 : arg6.IsWhole) (hc0 : ¬condFirst i) (hc1 : condLast i) (x0 : Vec F S4096x2048 .bf16) (x1 : Vec F S2048x20 .f32) (x2 : Vec F S1x20 .f32) (xs : Vec F S4096x20 .f32) (y : S4096x20.Idx) :
    ∃ pc ∈ (kernelRun_C c i arg2 harg2 arg3 harg3 arg4 harg4 arg5 harg5 arg6 harg6 hc0 hc1 x0 x1 x2 xs).2.1, y ∈ pc.1.set :=
  View.cover_of_tiledL (kernelRun_C c i arg2 harg2 arg3 harg3 arg4 harg4 arg5 harg5 arg6 harg6 hc0 hc1 x0 x1 x2 xs).2.1 S4096x20.size (by sl_kernel_rfl) y
/-- The accumulator after a point of the last reduction step. -/
def sout_C (c : Dev nD) (i : grid3.Coords) (arg2 : Memref sig .tc .vmem S4096x2048 .bf16) (harg2 : arg2.IsWhole) (arg3 : Memref sig .tc .vmem S2048x20 .f32) (harg3 : arg3.IsWhole) (arg4 : Memref sig .tc .vmem S1x20 .f32) (harg4 : arg4.IsWhole) (arg5 : Memref sig .tc .vmem S4096x20 .f32) (harg5 : arg5.IsWhole) (arg6 : Memref sig .tc .vmem S4096x20 .f32) (harg6 : arg6.IsWhole) (hc0 : ¬condFirst i) (hc1 : condLast i) (x0 : Vec F S4096x2048 .bf16) (x1 : Vec F S2048x20 .f32) (x2 : Vec F S1x20 .f32) (xs : Vec F S4096x20 .f32) : Vec F S4096x20 .f32 :=
  VS.read (Elt F) (VS.writes (Elt F) VS.junk (kernelRun_C c i arg2 harg2 arg3 harg3 arg4 harg4 arg5 harg5 arg6 harg6 hc0 hc1 x0 x1 x2 xs).2.1)

/-- A placeholder for the output block's staging buffer at a point where nothing is stored into it and it is not
    written back: nothing consults it. -/
def outIdle : Vec F S4096x20 .f32 := VO.read (Elt F) VO.junk

/-! ## What the output block and the accumulator hold after each point -/

/-- After the body at position `n`: (the output window's staging buffer, the accumulator). -/
def outsAt (c : Dev nD) : (n : ℕ) → n < cfg3.N → Vec F S4096x20 .f32 × Vec F S4096x20 .f32
  | 0, hn => (outIdle, sout_A c (grid3.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩))
  | n + 1, hn =>
    if h0 : (n + 1) % 4 = 0 then
      if h1 : (n + 1) % 4 = 3 then
        False.elim (by omega)
      else
        (outIdle, sout_A c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩) (iblk V c 2 ⟨n + 1, hn⟩))
    else
      if h1 : (n + 1) % 4 = 3 then
        (out_C c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2,
         sout_C c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        (outIdle, sout_B c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2)

theorem outsAt_A (c : Dev nD) (t : Fin cfg3.N) (h0 : t.val % 4 = 0) (h1 : ¬t.val % 4 = 3) :
    outsAt V c t.val t.isLt = (outIdle, sout_A c (grid3.coords t) (ms_0 t) (hs_0 t) (ms_1 t) (hs_1 t) (ms_2 t) (hs_2 t) (ms_3 t) (hs_3 t) scM (Memref.isWhole_whole _) ((hcondFirst t).mpr h0) (fun h => h1 ((hcondLast t).mp h)) (iblk V c 0 t) (iblk V c 1 t) (iblk V c 2 t)) := by
  obtain ⟨n, hn⟩ := t
  cases n with
  | zero => exact rfl
  | succ n => exact (dif_pos h0).trans ((dif_neg h1).trans rfl)

theorem outsAt_B (c : Dev nD) (t : Fin cfg3.N) (h0 : ¬t.val % 4 = 0) (h1 : ¬t.val % 4 = 3) :
    outsAt V c t.val t.isLt = (outIdle, sout_B c (grid3.coords t) (ms_0 t) (hs_0 t) (ms_1 t) (hs_1 t) (ms_2 t) (hs_2 t) (ms_3 t) (hs_3 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg3.N) (h0 : ¬t.val % 4 = 0) (h1 : t.val % 4 = 3) :
    outsAt V c t.val t.isLt = (out_C c (grid3.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2,
      sout_C c (grid3.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant carried from point to point -/

def PhiS (c : Dev nD) : (n : ℕ) → n ≤ cfg3.N → sProp 𝕄
  | 0, _ => Pipeline.ΦA spec3 c
  | n + 1, hn => iprop(iprop(owns (c : Thread nD τ) scM fullShare ((outsAt V c n hn).2) ∗ others c) ∗ (∃ r, prngReg c r))

theorem PhiS_zero (c : Dev nD) (n : ℕ) (h : n ≤ cfg3.N) (hz : n = 0) : PhiS V c n h = Pipeline.ΦA spec3 c := by
  subst hz; rfl
theorem PhiS_succ (c : Dev nD) (n : ℕ) (hn : n < cfg3.N) :
    PhiS V c (n + 1) hn = iprop(iprop(owns (c : Thread nD τ) scM fullShare ((outsAt V c n hn).2) ∗ others c) ∗ (∃ r, prngReg c r)) := rfl
theorem PhiS_pos (c : Dev nD) (n : ℕ) (h : n ≤ cfg3.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The proof data -/

def dat (c : Dev nD) : Dat τ (Elt F) Unit ℕ (Pipeline.UD sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]
theorem PhiS_castSucc (c : Dev nD) (t : Fin cfg3.N) :
    (dat V c).Φ t.castSucc = PhiS V c t.val (Nat.le_of_lt t.isLt) := by
  dsimp only [dat]; simp only [Fin.coe_castSucc]
theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = (outsAt V c t.val t.isLt).1 := by dsimp only [dat]
theorem before_0 (c : Dev nD) (t : Fin cfg3.N) (d) : (dat V c).before 0 t d = iblk V c 0 t :=
  before_0_of V (dat V c) (A_eq V c 0) (after_0 V c) t d
theorem before_1 (c : Dev nD) (t : Fin cfg3.N) (d) : (dat V c).before 1 t d = iblk V c 1 t :=
  before_1_of V (dat V c) (A_eq V c 1) (after_1 V c) t d
theorem before_2 (c : Dev nD) (t : Fin cfg3.N) (d) : (dat V c).before 2 t d = iblk V c 2 t :=
  before_2_of V (dat V c) (A_eq V c 2) (after_2 V c) t d

/-! ## The body obligation -/

def bodyPre (c : Dev nD) (t : Fin cfg3.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 8 := lt_of_lt_of_eq t.isLt (show cfg3.N = 8 from N_3)
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [show (dat V c).leavesExact 2 t = owns (c : Thread nD τ) (ms_2 t) fullShare ((dat V c).after 2 t) from by
    unfold Dat.leavesExact; rw [live_2 t], after_2]
  by_cases h0 : t.val % 4 = 0
  · by_cases h1 : t.val % 4 = 3
    · exfalso; omega
    · rw [Dat.leavesExact_idle (dat V c) 3 t (idle_3 t (fun h => h1 ((hcondLast t).mp h))) (noFlush_3 t (fun h => h1 ((hcondLast t).mp h)))]
      rw [outsAt_A V c t h0 h1]
      unfold sout_A; (try dsimp only)
      by_cases hz : t.val = 0
      · rw [PhiS_castSucc V c t, PhiS_zero V c _ _ hz, PhiA_eq]
        iintro ⟨⟨⟨HS, Hoth⟩, Hg⟩, Ho, ⟨%d0, H0⟩, ⟨%d1, H1⟩, ⟨%d2, H2⟩, ⟨%d3, H3⟩⟩
        iapply ((kernelRun_A c (grid3.coords t) _ _ _ _ _ _ _ _ _ _ ((hcondFirst t).mpr h0) (fun h => h1 ((hcondLast t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (scover_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((kernelRun_A c (grid3.coords t) _ _ _ _ _ _ _ _ _ _ ((hcondFirst t).mpr h0) (fun h => h1 ((hcondLast t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (scover_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 4 = 3
    · rw [show (dat V c).leavesExact 3 t = owns (c : Thread nD τ) (ms_3 t) fullShare ((dat V c).after 3 t) from by
        unfold Dat.leavesExact; rw [live_3 t ((hcondLast t).mpr h1)], after_3]
      rw [outsAt_C V c t h0 h1]
      unfold out_C sout_C; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((kernelRun_C c (grid3.coords t) _ _ _ _ _ _ _ _ _ _ (fun h => h0 ((hcondFirst t).mp h)) ((hcondLast t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (scover_C c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_C c _ _ _ _ _ _ _ _ _ _ _ _ _ _ _ _ _)
    · rw [Dat.leavesExact_idle (dat V c) 3 t (idle_3 t (fun h => h1 ((hcondLast t).mp h))) (noFlush_3 t (fun h => h1 ((hcondLast t).mp h)))]
      rw [outsAt_B V c t h0 h1]
      unfold sout_B; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((kernelRun_B c (grid3.coords t) _ _ _ _ _ _ _ _ _ _ (fun h => h0 ((hcondFirst t).mp h)) (fun h => h1 ((hcondLast t).mp h)) (iblk V c 0 t) (iblk V c 1 t) (iblk V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (scover_B c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W3, bigSep_W3]
  exact sound_body V c t

/-- What the launch hands the region is the invariant before the first point. -/
theorem hin (c : Dev nD) : Pipeline.ΦA spec3 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the accumulator's contents are forgotten. -/
theorem hout (c : Dev nD) : (dat V c).Φ (Fin.last cfg3.N) ⊢ Pipeline.ΦA spec3 c := by
  have hne : (Fin.last cfg3.N).val ≠ 0 := by rw [Fin.val_last]; have : cfg3.N = 8 := N_3; omega
  rw [show (dat V c).Φ (Fin.last cfg3.N) = PhiS V c (Fin.last cfg3.N).val (Nat.le_of_lt_succ (Fin.last cfg3.N).isLt) from rfl, PhiS_pos V c _ _ hne, PhiA_eq]
  iintro ⟨⟨HS, Hoth⟩, Hg⟩
  isplitl [HS Hoth]
  · isplitl [HS]
    · iexists _; iexact HS
    iexact Hoth
  iexact Hg

end Cert.Kernel.Reg3

end
-- ==== Proof.K_Run.lean ====
/-
  The whole program's run. @main is seventeen items in order: stretches of host operations and the four kernel
  regions. The contents of the core's unscoped buffers at each boundary are a fold through @main: a host stretch
  applies its operations; a region leaves each of its arrays at what its pipeline leaves there (an input as entered, an
  output with its blocks written back) and every other buffer as entered. Each region is entered from, and left at,
  "every unscoped buffer at that boundary's contents, beside the generator register and the core owing nothing"; the
  launch composes them, and the last thread state read against the final memory gives every unscoped buffer at the
  last boundary's contents. No host operation writes an argument and no region changes one, so each argument ends as
  launched.
-/
import proofs.«155634_j8117488189610_2_alg».proof.Proof.K_R0Dat
import proofs.«155634_j8117488189610_2_alg».proof.Proof.K_R1Dat
import proofs.«155634_j8117488189610_2_alg».proof.Proof.K_R2Dat
import proofs.«155634_j8117488189610_2_alg».proof.Proof.K_R3Dat
import proofs.«155634_j8117488189610_2_alg».proof.Proof.Gen.Kernel.Regions
import Idealize.ShloMosaic.Lib.Pipeline.Regions
import Idealize.ShloMosaic.Lib.Pipeline.RegionsLoop

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the host stretch `hostOps0`. -/
def W1 (c : Dev nD) : Valuation τ sig (Elt F) := StableHlo.after hostOps0 (W0 m ρ c)
theorem W1_of (c : Dev nD) (r : Ref sig .tc) (h : r ∉ hostOps0_W) : W1 m ρ c (Proc.devRef .tc r) = W0 m ρ c (Proc.devRef .tc r) := by
  unfold W1; exact StableHlo.after_of_writes_sub hostOps0 _ hostOps0_writes h
abbrev V1 : (c : Dev nD) → (b : Ref sig .tc) → Buf (Elt F) ((c : Thread nD τ).loc b) := fun c b => W1 m ρ c b
/-- After region 0: its arrays at what the pipeline leaves (an input as entered, an output with its write-backs
    folded), every other buffer as entered. -/
def W2 (c : Dev nD) : Valuation τ sig (Elt F) :=
  Pipeline.withArrays spec0 c (W1 m ρ c) fun w => (Reg0.dat (V1 m ρ) c).arrAt w cfg0.N
theorem W2_arr (c : Dev nD) (w : Fin cfg0.W) :
    W2 m ρ c (Proc.devRef .tc (Pipeline.arrRef spec0 w)) = (Reg0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Reg0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host stretch `hostOps1`. -/
def W3 (c : Dev nD) : Valuation τ sig (Elt F) := StableHlo.after hostOps1 (W2 m ρ c)
theorem W3_of (c : Dev nD) (r : Ref sig .tc) (h : r ∉ hostOps1_W) : W3 m ρ c (Proc.devRef .tc r) = W2 m ρ c (Proc.devRef .tc r) := by
  unfold W3; exact StableHlo.after_of_writes_sub hostOps1 _ hostOps1_writes h
abbrev V3 : (c : Dev nD) → (b : Ref sig .tc) → Buf (Elt F) ((c : Thread nD τ).loc b) := fun c b => W3 m ρ c b
/-- After the host stretch `hostOps1_1`. -/
def W4 (c : Dev nD) : Valuation τ sig (Elt F) := StableHlo.after hostOps1_1 (W3 m ρ c)
theorem W4_of (c : Dev nD) (r : Ref sig .tc) (h : r ∉ hostOps1_1_W) : W4 m ρ c (Proc.devRef .tc r) = W3 m ρ c (Proc.devRef .tc r) := by
  unfold W4; exact StableHlo.after_of_writes_sub hostOps1_1 _ hostOps1_1_writes h
abbrev V4 : (c : Dev nD) → (b : Ref sig .tc) → Buf (Elt F) ((c : Thread nD τ).loc b) := fun c b => W4 m ρ c b
/-- After the host stretch `hostOps1_2`. -/
def W5 (c : Dev nD) : Valuation τ sig (Elt F) := StableHlo.after hostOps1_2 (W4 m ρ c)
theorem W5_of (c : Dev nD) (r : Ref sig .tc) (h : r ∉ hostOps1_2_W) : W5 m ρ c (Proc.devRef .tc r) = W4 m ρ c (Proc.devRef .tc r) := by
  unfold W5; exact StableHlo.after_of_writes_sub hostOps1_2 _ hostOps1_2_writes h
abbrev V5 : (c : Dev nD) → (b : Ref sig .tc) → Buf (Elt F) ((c : Thread nD τ).loc b) := fun c b => W5 m ρ c b
/-- After region 1: its arrays at what the pipeline leaves (an input as entered, an output with its write-backs
    folded), every other buffer as entered. -/
def W6 (c : Dev nD) : Valuation τ sig (Elt F) :=
  Pipeline.withArrays spec1 c (W5 m ρ c) fun w => (Reg1.dat (V5 m ρ) c).arrAt w cfg1.N
theorem W6_arr (c : Dev nD) (w : Fin cfg1.W) :
    W6 m ρ c (Proc.devRef .tc (Pipeline.arrRef spec1 w)) = (Reg1.dat (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (Reg1.dat (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the host stretch `hostOps2`. -/
def W7 (c : Dev nD) : Valuation τ sig (Elt F) := StableHlo.after hostOps2 (W6 m ρ c)
theorem W7_of (c : Dev nD) (r : Ref sig .tc) (h : r ∉ hostOps2_W) : W7 m ρ c (Proc.devRef .tc r) = W6 m ρ c (Proc.devRef .tc r) := by
  unfold W7; exact StableHlo.after_of_writes_sub hostOps2 _ hostOps2_writes h
abbrev V7 : (c : Dev nD) → (b : Ref sig .tc) → Buf (Elt F) ((c : Thread nD τ).loc b) := fun c b => W7 m ρ c b
/-- After the host stretch `hostOps2_1`. -/
def W8 (c : Dev nD) : Valuation τ sig (Elt F) := StableHlo.after hostOps2_1 (W7 m ρ c)
theorem W8_of (c : Dev nD) (r : Ref sig .tc) (h : r ∉ hostOps2_1_W) : W8 m ρ c (Proc.devRef .tc r) = W7 m ρ c (Proc.devRef .tc r) := by
  unfold W8; exact StableHlo.after_of_writes_sub hostOps2_1 _ hostOps2_1_writes h
abbrev V8 : (c : Dev nD) → (b : Ref sig .tc) → Buf (Elt F) ((c : Thread nD τ).loc b) := fun c b => W8 m ρ c b
/-- After the host stretch `hostOps2_2`. -/
def W9 (c : Dev nD) : Valuation τ sig (Elt F) := StableHlo.after hostOps2_2 (W8 m ρ c)
theorem W9_of (c : Dev nD) (r : Ref sig .tc) (h : r ∉ hostOps2_2_W) : W9 m ρ c (Proc.devRef .tc r) = W8 m ρ c (Proc.devRef .tc r) := by
  unfold W9; exact StableHlo.after_of_writes_sub hostOps2_2 _ hostOps2_2_writes h
abbrev V9 : (c : Dev nD) → (b : Ref sig .tc) → Buf (Elt F) ((c : Thread nD τ).loc b) := fun c b => W9 m ρ c b
/-- After region 2: its arrays at what the pipeline leaves (an input as entered, an output with its write-backs
    folded), every other buffer as entered. -/
def W10 (c : Dev nD) : Valuation τ sig (Elt F) :=
  Pipeline.withArrays spec2 c (W9 m ρ c) fun w => (Reg2.dat (V9 m ρ) c).arrAt w cfg2.N
theorem W10_arr (c : Dev nD) (w : Fin cfg2.W) :
    W10 m ρ c (Proc.devRef .tc (Pipeline.arrRef spec2 w)) = (Reg2.dat (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev V10 : (c : Dev nD) → (b : Ref sig .tc) → Buf (Elt F) ((c : Thread nD τ).loc b) := fun c b => W10 m ρ c b
theorem hF2 (c : Dev nD) (w : Fin cfg2.W) : (Reg2.dat (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)
/-- After the host stretch `hostOps3`. -/
def W11 (c : Dev nD) : Valuation τ sig (Elt F) := StableHlo.after hostOps3 (W10 m ρ c)
theorem W11_of (c : Dev nD) (r : Ref sig .tc) (h : r ∉ hostOps3_W) : W11 m ρ c (Proc.devRef .tc r) = W10 m ρ c (Proc.devRef .tc r) := by
  unfold W11; exact StableHlo.after_of_writes_sub hostOps3 _ hostOps3_writes h
abbrev V11 : (c : Dev nD) → (b : Ref sig .tc) → Buf (Elt F) ((c : Thread nD τ).loc b) := fun c b => W11 m ρ c b
/-- After region 3: its arrays at what the pipeline leaves (an input as entered, an output with its write-backs
    folded), every other buffer as entered. -/
def W12 (c : Dev nD) : Valuation τ sig (Elt F) :=
  Pipeline.withArrays spec3 c (W11 m ρ c) fun w => (Reg3.dat (V11 m ρ) c).arrAt w cfg3.N
theorem W12_arr (c : Dev nD) (w : Fin cfg3.W) :
    W12 m ρ c (Proc.devRef .tc (Pipeline.arrRef spec3 w)) = (Reg3.dat (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
abbrev V12 : (c : Dev nD) → (b : Ref sig .tc) → Buf (Elt F) ((c : Thread nD τ).loc b) := fun c b => W12 m ρ c b
theorem hF3 (c : Dev nD) (w : Fin cfg3.W) : (Reg3.dat (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)
/-- After the host stretch `hostOps4`. -/
def W13 (c : Dev nD) : Valuation τ sig (Elt F) := StableHlo.after hostOps4 (W12 m ρ c)
theorem W13_of (c : Dev nD) (r : Ref sig .tc) (h : r ∉ hostOps4_W) : W13 m ρ c (Proc.devRef .tc r) = W12 m ρ c (Proc.devRef .tc r) := by
  unfold W13; exact StableHlo.after_of_writes_sub hostOps4 _ hostOps4_writes h
abbrev V13 : (c : Dev nD) → (b : Ref sig .tc) → Buf (Elt F) ((c : Thread nD τ).loc b) := fun c b => W13 m ρ c b
/-- After the host stretch `hostOps4_1`. -/
def W14 (c : Dev nD) : Valuation τ sig (Elt F) := StableHlo.after hostOps4_1 (W13 m ρ c)
theorem W14_of (c : Dev nD) (r : Ref sig .tc) (h : r ∉ hostOps4_1_W) : W14 m ρ c (Proc.devRef .tc r) = W13 m ρ c (Proc.devRef .tc r) := by
  unfold W14; exact StableHlo.after_of_writes_sub hostOps4_1 _ hostOps4_1_writes h
abbrev V14 : (c : Dev nD) → (b : Ref sig .tc) → Buf (Elt F) ((c : Thread nD τ).loc b) := fun c b => W14 m ρ c b
/-- After the host stretch `hostOps4_2`. -/
def W15 (c : Dev nD) : Valuation τ sig (Elt F) := StableHlo.after hostOps4_2 (W14 m ρ c)
theorem W15_of (c : Dev nD) (r : Ref sig .tc) (h : r ∉ hostOps4_2_W) : W15 m ρ c (Proc.devRef .tc r) = W14 m ρ c (Proc.devRef .tc r) := by
  unfold W15; exact StableHlo.after_of_writes_sub hostOps4_2 _ hostOps4_2_writes h
abbrev V15 : (c : Dev nD) → (b : Ref sig .tc) → Buf (Elt F) ((c : Thread nD τ).loc b) := fun c b => W15 m ρ c b
/-- After the host stretch `hostOps4_3`. -/
def W16 (c : Dev nD) : Valuation τ sig (Elt F) := StableHlo.after hostOps4_3 (W15 m ρ c)
theorem W16_of (c : Dev nD) (r : Ref sig .tc) (h : r ∉ hostOps4_3_W) : W16 m ρ c (Proc.devRef .tc r) = W15 m ρ c (Proc.devRef .tc r) := by
  unfold W16; exact StableHlo.after_of_writes_sub hostOps4_3 _ hostOps4_3_writes h
abbrev V16 : (c : Dev nD) → (b : Ref sig .tc) → Buf (Elt F) ((c : Thread nD τ).loc b) := fun c b => W16 m ρ c b
/-- After the host stretch `hostOps4_4`. -/
def W17 (c : Dev nD) : Valuation τ sig (Elt F) := StableHlo.after hostOps4_4 (W16 m ρ c)
theorem W17_of (c : Dev nD) (r : Ref sig .tc) (h : r ∉ hostOps4_4_W) : W17 m ρ c (Proc.devRef .tc r) = W16 m ρ c (Proc.devRef .tc r) := by
  unfold W17; exact StableHlo.after_of_writes_sub hostOps4_4 _ hostOps4_4_writes h
abbrev V17 : (c : Dev nD) → (b : Ref sig .tc) → Buf (Elt F) ((c : Thread nD τ).loc b) := fun c b => W17 m ρ c b

/-! ## The arguments end as launched -/

theorem W17_main_arg0 (c : Dev nD) : W17 m ρ c (Proc.devRef .tc main_arg0) = m ((c : Thread nD τ).loc main_arg0) :=
  (W17_of m ρ c main_arg0 (by decide)).trans <|
  (W16_of m ρ c main_arg0 (by decide)).trans <|
  (W15_of m ρ c main_arg0 (by decide)).trans <|
  (W14_of m ρ c main_arg0 (by decide)).trans <|
  (W13_of m ρ c main_arg0 (by decide)).trans <|
  (W12_of_ne m ρ c main_arg0 (by decide)).trans <|
  (W11_of m ρ c main_arg0 (by decide)).trans <|
  (W10_of_ne m ρ c main_arg0 (by decide)).trans <|
  (W9_of m ρ c main_arg0 (by decide)).trans <|
  (W8_of m ρ c main_arg0 (by decide)).trans <|
  (W7_of m ρ c main_arg0 (by decide)).trans <|
  (W6_of_ne m ρ c main_arg0 (by decide)).trans <|
  (W5_of m ρ c main_arg0 (by decide)).trans <|
  (W4_of m ρ c main_arg0 (by decide)).trans <|
  (W3_of m ρ c main_arg0 (by decide)).trans <|
  (W2_of_ne m ρ c main_arg0 (by decide)).trans <|
  (W1_of m ρ c main_arg0 (by decide))
theorem W17_main_arg1 (c : Dev nD) : W17 m ρ c (Proc.devRef .tc main_arg1) = m ((c : Thread nD τ).loc main_arg1) :=
  (W17_of m ρ c main_arg1 (by decide)).trans <|
  (W16_of m ρ c main_arg1 (by decide)).trans <|
  (W15_of m ρ c main_arg1 (by decide)).trans <|
  (W14_of m ρ c main_arg1 (by decide)).trans <|
  (W13_of m ρ c main_arg1 (by decide)).trans <|
  (W12_of_ne m ρ c main_arg1 (by decide)).trans <|
  (W11_of m ρ c main_arg1 (by decide)).trans <|
  (W10_of_ne m ρ c main_arg1 (by decide)).trans <|
  (W9_of m ρ c main_arg1 (by decide)).trans <|
  (W8_of m ρ c main_arg1 (by decide)).trans <|
  (W7_of m ρ c main_arg1 (by decide)).trans <|
  (W6_of_ne m ρ c main_arg1 (by decide)).trans <|
  (W5_of m ρ c main_arg1 (by decide)).trans <|
  (W4_of m ρ c main_arg1 (by decide)).trans <|
  (W3_of m ρ c main_arg1 (by decide)).trans <|
  ((W2_arr m ρ c 0).trans (((Reg0.dat (V1 m ρ) c).arrAt_in 0 rfl _).trans (Reg0.A_eq (V1 m ρ) c 0))).trans <|
  (W1_of m ρ c main_arg1 (by decide))
theorem W17_main_arg2 (c : Dev nD) : W17 m ρ c (Proc.devRef .tc main_arg2) = m ((c : Thread nD τ).loc main_arg2) :=
  (W17_of m ρ c main_arg2 (by decide)).trans <|
  (W16_of m ρ c main_arg2 (by decide)).trans <|
  (W15_of m ρ c main_arg2 (by decide)).trans <|
  (W14_of m ρ c main_arg2 (by decide)).trans <|
  (W13_of m ρ c main_arg2 (by decide)).trans <|
  (W12_of_ne m ρ c main_arg2 (by decide)).trans <|
  (W11_of m ρ c main_arg2 (by decide)).trans <|
  (W10_of_ne m ρ c main_arg2 (by decide)).trans <|
  (W9_of m ρ c main_arg2 (by decide)).trans <|
  (W8_of m ρ c main_arg2 (by decide)).trans <|
  (W7_of m ρ c main_arg2 (by decide)).trans <|
  (W6_of_ne m ρ c main_arg2 (by decide)).trans <|
  (W5_of m ρ c main_arg2 (by decide)).trans <|
  (W4_of m ρ c main_arg2 (by decide)).trans <|
  (W3_of m ρ c main_arg2 (by decide)).trans <|
  (W2_of_ne m ρ c main_arg2 (by decide)).trans <|
  (W1_of m ρ c main_arg2 (by decide))
theorem W17_main_arg3 (c : Dev nD) : W17 m ρ c (Proc.devRef .tc main_arg3) = m ((c : Thread nD τ).loc main_arg3) :=
  (W17_of m ρ c main_arg3 (by decide)).trans <|
  (W16_of m ρ c main_arg3 (by decide)).trans <|
  (W15_of m ρ c main_arg3 (by decide)).trans <|
  (W14_of m ρ c main_arg3 (by decide)).trans <|
  (W13_of m ρ c main_arg3 (by decide)).trans <|
  (W12_of_ne m ρ c main_arg3 (by decide)).trans <|
  (W11_of m ρ c main_arg3 (by decide)).trans <|
  (W10_of_ne m ρ c main_arg3 (by decide)).trans <|
  (W9_of m ρ c main_arg3 (by decide)).trans <|
  (W8_of m ρ c main_arg3 (by decide)).trans <|
  (W7_of m ρ c main_arg3 (by decide)).trans <|
  (W6_of_ne m ρ c main_arg3 (by decide)).trans <|
  (W5_of m ρ c main_arg3 (by decide)).trans <|
  (W4_of m ρ c main_arg3 (by decide)).trans <|
  (W3_of m ρ c main_arg3 (by decide)).trans <|
  (W2_of_ne m ρ c main_arg3 (by decide)).trans <|
  (W1_of m ρ c main_arg3 (by decide))
theorem W17_main_arg4 (c : Dev nD) : W17 m ρ c (Proc.devRef .tc main_arg4) = m ((c : Thread nD τ).loc main_arg4) :=
  (W17_of m ρ c main_arg4 (by decide)).trans <|
  (W16_of m ρ c main_arg4 (by decide)).trans <|
  (W15_of m ρ c main_arg4 (by decide)).trans <|
  (W14_of m ρ c main_arg4 (by decide)).trans <|
  (W13_of m ρ c main_arg4 (by decide)).trans <|
  (W12_of_ne m ρ c main_arg4 (by decide)).trans <|
  (W11_of m ρ c main_arg4 (by decide)).trans <|
  (W10_of_ne m ρ c main_arg4 (by decide)).trans <|
  (W9_of m ρ c main_arg4 (by decide)).trans <|
  (W8_of m ρ c main_arg4 (by decide)).trans <|
  (W7_of m ρ c main_arg4 (by decide)).trans <|
  (W6_of_ne m ρ c main_arg4 (by decide)).trans <|
  (W5_of m ρ c main_arg4 (by decide)).trans <|
  (W4_of m ρ c main_arg4 (by decide)).trans <|
  (W3_of m ρ c main_arg4 (by decide)).trans <|
  (W2_of_ne m ρ c main_arg4 (by decide)).trans <|
  (W1_of m ρ c main_arg4 (by decide))
theorem W17_main_arg5 (c : Dev nD) : W17 m ρ c (Proc.devRef .tc main_arg5) = m ((c : Thread nD τ).loc main_arg5) :=
  (W17_of m ρ c main_arg5 (by decide)).trans <|
  (W16_of m ρ c main_arg5 (by decide)).trans <|
  (W15_of m ρ c main_arg5 (by decide)).trans <|
  (W14_of m ρ c main_arg5 (by decide)).trans <|
  (W13_of m ρ c main_arg5 (by decide)).trans <|
  (W12_of_ne m ρ c main_arg5 (by decide)).trans <|
  (W11_of m ρ c main_arg5 (by decide)).trans <|
  (W10_of_ne m ρ c main_arg5 (by decide)).trans <|
  (W9_of m ρ c main_arg5 (by decide)).trans <|
  (W8_of m ρ c main_arg5 (by decide)).trans <|
  (W7_of m ρ c main_arg5 (by decide)).trans <|
  (W6_of_ne m ρ c main_arg5 (by decide)).trans <|
  (W5_of m ρ c main_arg5 (by decide)).trans <|
  (W4_of m ρ c main_arg5 (by decide)).trans <|
  (W3_of m ρ c main_arg5 (by decide)).trans <|
  (W2_of_ne m ρ c main_arg5 (by decide)).trans <|
  (W1_of m ρ c main_arg5 (by decide))
theorem W17_main_arg6 (c : Dev nD) : W17 m ρ c (Proc.devRef .tc main_arg6) = m ((c : Thread nD τ).loc main_arg6) :=
  (W17_of m ρ c main_arg6 (by decide)).trans <|
  (W16_of m ρ c main_arg6 (by decide)).trans <|
  (W15_of m ρ c main_arg6 (by decide)).trans <|
  (W14_of m ρ c main_arg6 (by decide)).trans <|
  (W13_of m ρ c main_arg6 (by decide)).trans <|
  (W12_of_ne m ρ c main_arg6 (by decide)).trans <|
  (W11_of m ρ c main_arg6 (by decide)).trans <|
  (W10_of_ne m ρ c main_arg6 (by decide)).trans <|
  (W9_of m ρ c main_arg6 (by decide)).trans <|
  (W8_of m ρ c main_arg6 (by decide)).trans <|
  (W7_of m ρ c main_arg6 (by decide)).trans <|
  (W6_of_ne m ρ c main_arg6 (by decide)).trans <|
  (W5_of m ρ c main_arg6 (by decide)).trans <|
  (W4_of m ρ c main_arg6 (by decide)).trans <|
  (W3_of m ρ c main_arg6 (by decide)).trans <|
  (W2_of_ne m ρ c main_arg6 (by decide)).trans <|
  (W1_of m ρ c main_arg6 (by decide))
theorem W17_main_arg7 (c : Dev nD) : W17 m ρ c (Proc.devRef .tc main_arg7) = m ((c : Thread nD τ).loc main_arg7) :=
  (W17_of m ρ c main_arg7 (by decide)).trans <|
  (W16_of m ρ c main_arg7 (by decide)).trans <|
  (W15_of m ρ c main_arg7 (by decide)).trans <|
  (W14_of m ρ c main_arg7 (by decide)).trans <|
  (W13_of m ρ c main_arg7 (by decide)).trans <|
  (W12_of_ne m ρ c main_arg7 (by decide)).trans <|
  (W11_of m ρ c main_arg7 (by decide)).trans <|
  (W10_of_ne m ρ c main_arg7 (by decide)).trans <|
  (W9_of m ρ c main_arg7 (by decide)).trans <|
  (W8_of m ρ c main_arg7 (by decide)).trans <|
  (W7_of m ρ c main_arg7 (by decide)).trans <|
  (W6_of_ne m ρ c main_arg7 (by decide)).trans <|
  (W5_of m ρ c main_arg7 (by decide)).trans <|
  (W4_of m ρ c main_arg7 (by decide)).trans <|
  (W3_of m ρ c main_arg7 (by decide)).trans <|
  (W2_of_ne m ρ c main_arg7 (by decide)).trans <|
  (W1_of m ρ c main_arg7 (by decide))
theorem W17_main_arg8 (c : Dev nD) : W17 m ρ c (Proc.devRef .tc main_arg8) = m ((c : Thread nD τ).loc main_arg8) :=
  (W17_of m ρ c main_arg8 (by decide)).trans <|
  (W16_of m ρ c main_arg8 (by decide)).trans <|
  (W15_of m ρ c main_arg8 (by decide)).trans <|
  (W14_of m ρ c main_arg8 (by decide)).trans <|
  (W13_of m ρ c main_arg8 (by decide)).trans <|
  (W12_of_ne m ρ c main_arg8 (by decide)).trans <|
  (W11_of m ρ c main_arg8 (by decide)).trans <|
  (W10_of_ne m ρ c main_arg8 (by decide)).trans <|
  (W9_of m ρ c main_arg8 (by decide)).trans <|
  (W8_of m ρ c main_arg8 (by decide)).trans <|
  (W7_of m ρ c main_arg8 (by decide)).trans <|
  (W6_of_ne m ρ c main_arg8 (by decide)).trans <|
  (W5_of m ρ c main_arg8 (by decide)).trans <|
  (W4_of m ρ c main_arg8 (by decide)).trans <|
  (W3_of m ρ c main_arg8 (by decide)).trans <|
  (W2_of_ne m ρ c main_arg8 (by decide)).trans <|
  (W1_of m ρ c main_arg8 (by decide))
theorem W17_main_arg9 (c : Dev nD) : W17 m ρ c (Proc.devRef .tc main_arg9) = m ((c : Thread nD τ).loc main_arg9) :=
  (W17_of m ρ c main_arg9 (by decide)).trans <|
  (W16_of m ρ c main_arg9 (by decide)).trans <|
  (W15_of m ρ c main_arg9 (by decide)).trans <|
  (W14_of m ρ c main_arg9 (by decide)).trans <|
  (W13_of m ρ c main_arg9 (by decide)).trans <|
  (W12_of_ne m ρ c main_arg9 (by decide)).trans <|
  (W11_of m ρ c main_arg9 (by decide)).trans <|
  (W10_of_ne m ρ c main_arg9 (by decide)).trans <|
  (W9_of m ρ c main_arg9 (by decide)).trans <|
  (W8_of m ρ c main_arg9 (by decide)).trans <|
  (W7_of m ρ c main_arg9 (by decide)).trans <|
  (W6_of_ne m ρ c main_arg9 (by decide)).trans <|
  (W5_of m ρ c main_arg9 (by decide)).trans <|
  (W4_of m ρ c main_arg9 (by decide)).trans <|
  (W3_of m ρ c main_arg9 (by decide)).trans <|
  (W2_of_ne m ρ c main_arg9 (by decide)).trans <|
  (W1_of m ρ c main_arg9 (by decide))
theorem W17_main_arg10 (c : Dev nD) : W17 m ρ c (Proc.devRef .tc main_arg10) = m ((c : Thread nD τ).loc main_arg10) :=
  (W17_of m ρ c main_arg10 (by decide)).trans <|
  (W16_of m ρ c main_arg10 (by decide)).trans <|
  (W15_of m ρ c main_arg10 (by decide)).trans <|
  (W14_of m ρ c main_arg10 (by decide)).trans <|
  (W13_of m ρ c main_arg10 (by decide)).trans <|
  (W12_of_ne m ρ c main_arg10 (by decide)).trans <|
  (W11_of m ρ c main_arg10 (by decide)).trans <|
  (W10_of_ne m ρ c main_arg10 (by decide)).trans <|
  (W9_of m ρ c main_arg10 (by decide)).trans <|
  (W8_of m ρ c main_arg10 (by decide)).trans <|
  (W7_of m ρ c main_arg10 (by decide)).trans <|
  (W6_of_ne m ρ c main_arg10 (by decide)).trans <|
  (W5_of m ρ c main_arg10 (by decide)).trans <|
  (W4_of m ρ c main_arg10 (by decide)).trans <|
  (W3_of m ρ c main_arg10 (by decide)).trans <|
  (W2_of_ne m ρ c main_arg10 (by decide)).trans <|
  (W1_of m ρ c main_arg10 (by decide))
theorem W17_main_arg11 (c : Dev nD) : W17 m ρ c (Proc.devRef .tc main_arg11) = m ((c : Thread nD τ).loc main_arg11) :=
  (W17_of m ρ c main_arg11 (by decide)).trans <|
  (W16_of m ρ c main_arg11 (by decide)).trans <|
  (W15_of m ρ c main_arg11 (by decide)).trans <|
  (W14_of m ρ c main_arg11 (by decide)).trans <|
  (W13_of m ρ c main_arg11 (by decide)).trans <|
  (W12_of_ne m ρ c main_arg11 (by decide)).trans <|
  (W11_of m ρ c main_arg11 (by decide)).trans <|
  (W10_of_ne m ρ c main_arg11 (by decide)).trans <|
  (W9_of m ρ c main_arg11 (by decide)).trans <|
  (W8_of m ρ c main_arg11 (by decide)).trans <|
  (W7_of m ρ c main_arg11 (by decide)).trans <|
  (W6_of_ne m ρ c main_arg11 (by decide)).trans <|
  (W5_of m ρ c main_arg11 (by decide)).trans <|
  (W4_of m ρ c main_arg11 (by decide)).trans <|
  (W3_of m ρ c main_arg11 (by decide)).trans <|
  (W2_of_ne m ρ c main_arg11 (by decide)).trans <|
  (W1_of m ρ c main_arg11 (by decide))
theorem W17_main_arg12 (c : Dev nD) : W17 m ρ c (Proc.devRef .tc main_arg12) = m ((c : Thread nD τ).loc main_arg12) :=
  (W17_of m ρ c main_arg12 (by decide)).trans <|
  (W16_of m ρ c main_arg12 (by decide)).trans <|
  (W15_of m ρ c main_arg12 (by decide)).trans <|
  (W14_of m ρ c main_arg12 (by decide)).trans <|
  (W13_of m ρ c main_arg12 (by decide)).trans <|
  (W12_of_ne m ρ c main_arg12 (by decide)).trans <|
  (W11_of m ρ c main_arg12 (by decide)).trans <|
  (W10_of_ne m ρ c main_arg12 (by decide)).trans <|
  (W9_of m ρ c main_arg12 (by decide)).trans <|
  (W8_of m ρ c main_arg12 (by decide)).trans <|
  (W7_of m ρ c main_arg12 (by decide)).trans <|
  (W6_of_ne m ρ c main_arg12 (by decide)).trans <|
  (W5_of m ρ c main_arg12 (by decide)).trans <|
  (W4_of m ρ c main_arg12 (by decide)).trans <|
  (W3_of m ρ c main_arg12 (by decide)).trans <|
  (W2_of_ne m ρ c main_arg12 (by decide)).trans <|
  (W1_of m ρ c main_arg12 (by decide))
theorem W17_main_arg13 (c : Dev nD) : W17 m ρ c (Proc.devRef .tc main_arg13) = m ((c : Thread nD τ).loc main_arg13) :=
  (W17_of m ρ c main_arg13 (by decide)).trans <|
  (W16_of m ρ c main_arg13 (by decide)).trans <|
  (W15_of m ρ c main_arg13 (by decide)).trans <|
  (W14_of m ρ c main_arg13 (by decide)).trans <|
  (W13_of m ρ c main_arg13 (by decide)).trans <|
  (W12_of_ne m ρ c main_arg13 (by decide)).trans <|
  (W11_of m ρ c main_arg13 (by decide)).trans <|
  (W10_of_ne m ρ c main_arg13 (by decide)).trans <|
  (W9_of m ρ c main_arg13 (by decide)).trans <|
  (W8_of m ρ c main_arg13 (by decide)).trans <|
  (W7_of m ρ c main_arg13 (by decide)).trans <|
  (W6_of_ne m ρ c main_arg13 (by decide)).trans <|
  (W5_of m ρ c main_arg13 (by decide)).trans <|
  (W4_of m ρ c main_arg13 (by decide)).trans <|
  (W3_of m ρ c main_arg13 (by decide)).trans <|
  (W2_of_ne m ρ c main_arg13 (by decide)).trans <|
  (W1_of m ρ c main_arg13 (by decide))
theorem W17_main_arg14 (c : Dev nD) : W17 m ρ c (Proc.devRef .tc main_arg14) = m ((c : Thread nD τ).loc main_arg14) :=
  (W17_of m ρ c main_arg14 (by decide)).trans <|
  (W16_of m ρ c main_arg14 (by decide)).trans <|
  (W15_of m ρ c main_arg14 (by decide)).trans <|
  (W14_of m ρ c main_arg14 (by decide)).trans <|
  (W13_of m ρ c main_arg14 (by decide)).trans <|
  (W12_of_ne m ρ c main_arg14 (by decide)).trans <|
  (W11_of m ρ c main_arg14 (by decide)).trans <|
  (W10_of_ne m ρ c main_arg14 (by decide)).trans <|
  (W9_of m ρ c main_arg14 (by decide)).trans <|
  (W8_of m ρ c main_arg14 (by decide)).trans <|
  (W7_of m ρ c main_arg14 (by decide)).trans <|
  (W6_of_ne m ρ c main_arg14 (by decide)).trans <|
  (W5_of m ρ c main_arg14 (by decide)).trans <|
  (W4_of m ρ c main_arg14 (by decide)).trans <|
  (W3_of m ρ c main_arg14 (by decide)).trans <|
  (W2_of_ne m ρ c main_arg14 (by decide)).trans <|
  (W1_of m ρ c main_arg14 (by decide))
theorem W17_main_arg15 (c : Dev nD) : W17 m ρ c (Proc.devRef .tc main_arg15) = m ((c : Thread nD τ).loc main_arg15) :=
  (W17_of m ρ c main_arg15 (by decide)).trans <|
  (W16_of m ρ c main_arg15 (by decide)).trans <|
  (W15_of m ρ c main_arg15 (by decide)).trans <|
  (W14_of m ρ c main_arg15 (by decide)).trans <|
  (W13_of m ρ c main_arg15 (by decide)).trans <|
  (W12_of_ne m ρ c main_arg15 (by decide)).trans <|
  (W11_of m ρ c main_arg15 (by decide)).trans <|
  (W10_of_ne m ρ c main_arg15 (by decide)).trans <|
  (W9_of m ρ c main_arg15 (by decide)).trans <|
  (W8_of m ρ c main_arg15 (by decide)).trans <|
  (W7_of m ρ c main_arg15 (by decide)).trans <|
  (W6_of_ne m ρ c main_arg15 (by decide)).trans <|
  (W5_of m ρ c main_arg15 (by decide)).trans <|
  (W4_of m ρ c main_arg15 (by decide)).trans <|
  (W3_of m ρ c main_arg15 (by decide)).trans <|
  (W2_of_ne m ρ c main_arg15 (by decide)).trans <|
  (W1_of m ρ c main_arg15 (by decide))
theorem W17_main_arg16 (c : Dev nD) : W17 m ρ c (Proc.devRef .tc main_arg16) = m ((c : Thread nD τ).loc main_arg16) :=
  (W17_of m ρ c main_arg16 (by decide)).trans <|
  (W16_of m ρ c main_arg16 (by decide)).trans <|
  (W15_of m ρ c main_arg16 (by decide)).trans <|
  (W14_of m ρ c main_arg16 (by decide)).trans <|
  (W13_of m ρ c main_arg16 (by decide)).trans <|
  (W12_of_ne m ρ c main_arg16 (by decide)).trans <|
  (W11_of m ρ c main_arg16 (by decide)).trans <|
  (W10_of_ne m ρ c main_arg16 (by decide)).trans <|
  (W9_of m ρ c main_arg16 (by decide)).trans <|
  (W8_of m ρ c main_arg16 (by decide)).trans <|
  (W7_of m ρ c main_arg16 (by decide)).trans <|
  (W6_of_ne m ρ c main_arg16 (by decide)).trans <|
  (W5_of m ρ c main_arg16 (by decide)).trans <|
  (W4_of m ρ c main_arg16 (by decide)).trans <|
  (W3_of m ρ c main_arg16 (by decide)).trans <|
  (W2_of_ne m ρ c main_arg16 (by decide)).trans <|
  (W1_of m ρ c main_arg16 (by decide))
theorem W17_main_arg17 (c : Dev nD) : W17 m ρ c (Proc.devRef .tc main_arg17) = m ((c : Thread nD τ).loc main_arg17) :=
  (W17_of m ρ c main_arg17 (by decide)).trans <|
  (W16_of m ρ c main_arg17 (by decide)).trans <|
  (W15_of m ρ c main_arg17 (by decide)).trans <|
  (W14_of m ρ c main_arg17 (by decide)).trans <|
  (W13_of m ρ c main_arg17 (by decide)).trans <|
  (W12_of_ne m ρ c main_arg17 (by decide)).trans <|
  (W11_of m ρ c main_arg17 (by decide)).trans <|
  (W10_of_ne m ρ c main_arg17 (by decide)).trans <|
  (W9_of m ρ c main_arg17 (by decide)).trans <|
  (W8_of m ρ c main_arg17 (by decide)).trans <|
  (W7_of m ρ c main_arg17 (by decide)).trans <|
  (W6_of_ne m ρ c main_arg17 (by decide)).trans <|
  (W5_of m ρ c main_arg17 (by decide)).trans <|
  (W4_of m ρ c main_arg17 (by decide)).trans <|
  (W3_of m ρ c main_arg17 (by decide)).trans <|
  (W2_of_ne m ρ c main_arg17 (by decide)).trans <|
  (W1_of m ρ c main_arg17 (by decide))
theorem W17_main_arg18 (c : Dev nD) : W17 m ρ c (Proc.devRef .tc main_arg18) = m ((c : Thread nD τ).loc main_arg18) :=
  (W17_of m ρ c main_arg18 (by decide)).trans <|
  (W16_of m ρ c main_arg18 (by decide)).trans <|
  (W15_of m ρ c main_arg18 (by decide)).trans <|
  (W14_of m ρ c main_arg18 (by decide)).trans <|
  (W13_of m ρ c main_arg18 (by decide)).trans <|
  (W12_of_ne m ρ c main_arg18 (by decide)).trans <|
  (W11_of m ρ c main_arg18 (by decide)).trans <|
  (W10_of_ne m ρ c main_arg18 (by decide)).trans <|
  (W9_of m ρ c main_arg18 (by decide)).trans <|
  (W8_of m ρ c main_arg18 (by decide)).trans <|
  (W7_of m ρ c main_arg18 (by decide)).trans <|
  (W6_of_ne m ρ c main_arg18 (by decide)).trans <|
  (W5_of m ρ c main_arg18 (by decide)).trans <|
  (W4_of m ρ c main_arg18 (by decide)).trans <|
  (W3_of m ρ c main_arg18 (by decide)).trans <|
  (W2_of_ne m ρ c main_arg18 (by decide)).trans <|
  (W1_of m ρ c main_arg18 (by decide))
theorem W17_main_arg19 (c : Dev nD) : W17 m ρ c (Proc.devRef .tc main_arg19) = m ((c : Thread nD τ).loc main_arg19) :=
  (W17_of m ρ c main_arg19 (by decide)).trans <|
  (W16_of m ρ c main_arg19 (by decide)).trans <|
  (W15_of m ρ c main_arg19 (by decide)).trans <|
  (W14_of m ρ c main_arg19 (by decide)).trans <|
  (W13_of m ρ c main_arg19 (by decide)).trans <|
  (W12_of_ne m ρ c main_arg19 (by decide)).trans <|
  (W11_of m ρ c main_arg19 (by decide)).trans <|
  (W10_of_ne m ρ c main_arg19 (by decide)).trans <|
  (W9_of m ρ c main_arg19 (by decide)).trans <|
  (W8_of m ρ c main_arg19 (by decide)).trans <|
  (W7_of m ρ c main_arg19 (by decide)).trans <|
  (W6_of_ne m ρ c main_arg19 (by decide)).trans <|
  (W5_of m ρ c main_arg19 (by decide)).trans <|
  (W4_of m ρ c main_arg19 (by decide)).trans <|
  (W3_of m ρ c main_arg19 (by decide)).trans <|
  (W2_of_ne m ρ c main_arg19 (by decide)).trans <|
  (W1_of m ρ c main_arg19 (by decide))

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (Pipeline.UD sig nD τ) ℕ (Pipeline.pin (pcfgs (F := F)) adm p) c
  | ⟨0, _⟩ => fun c => Reg0.dat (V1 m ρ) c
  | ⟨1, _⟩ => fun c => Reg1.dat (V5 m ρ) c
  | ⟨2, _⟩ => fun c => Reg2.dat (V9 m ρ) c
  | ⟨3, _⟩ => fun c => Reg3.dat (V11 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W17 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register and the scoped buffers no window
    stages go into the region's invariant (the class invariant before the first point) and come back out of it after the
    last; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 0).pre c (fun _ => fullShare) (adm (F := F) 0).1 ∗ Pipeline.scopedRest spec0 c)
        ⊢ (Pipeline.ΦA spec0 c : sProp 𝕄) := by
      unfold Pipeline.ΦA
      iintro ⟨Hp, -, Hr⟩
      isplitl [Hr]; · iexact Hr
      iexact Hp
    exact h1.trans (Reg0.hin (V1 m ρ) c)
  hout c := by
    rw [Pipeline.ownSems0_none]
    have h2 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (Reg0.hout (V1 m ρ) c).trans h2
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are split
    out of the unscoped buffers and put back at the exit contents; the generator register and the scoped buffers no window
    stages go into the region's invariant (the class invariant before the first point) and come back out of it after the
    last; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 1).pre c (fun _ => fullShare) (adm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h1.trans (Reg1.hin (V5 m ρ) c)
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (Reg1.hout (V5 m ρ) c).trans h2
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W9`, left at `W10`. Its arrays are split
    out of the unscoped buffers and put back at the exit contents; the generator register and the scoped buffers no window
    stages go into the region's invariant (the class invariant before the first point) and come back out of it after the
    last; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 2).pre c (fun _ => fullShare) (adm (F := F) 2).1 ∗ Pipeline.scopedRest spec2 c)
        ⊢ (Pipeline.ΦA spec2 c : sProp 𝕄) := by
      unfold Pipeline.ΦA
      iintro ⟨Hp, -, Hr⟩
      isplitl [Hr]; · iexact Hr
      iexact Hp
    exact h1.trans (Reg2.hin (V9 m ρ) c)
  hout c := by
    rw [Pipeline.ownSems0_none]
    have h2 : (Pipeline.ΦA spec2 c : sProp 𝕄) ⊢ iprop((∃ r, prngReg c r) ∗ BI.emp ∗ Pipeline.scopedRest spec2 c) := by
      unfold Pipeline.ΦA
      iintro ⟨Hr, Hp⟩
      isplitl [Hp]; · iexact Hp
      isplitr; · iempintro
      iexact Hr
    exact (Reg2.hout (V9 m ρ) c).trans h2
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W11`, left at `W12`. Its arrays are split
    out of the unscoped buffers and put back at the exit contents; the generator register and the scoped buffers no window
    stages go into the region's invariant (the class invariant before the first point) and come back out of it after the
    last; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Reg3.body_obligation (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 3).pre c (fun _ => fullShare) (adm (F := F) 3).1 ∗ Pipeline.scopedRest spec3 c)
        ⊢ (Pipeline.ΦA spec3 c : sProp 𝕄) := by
      unfold Pipeline.ΦA
      iintro ⟨Hp, -, Hr⟩
      isplitl [Hr]; · iexact Hr
      iexact Hp
    exact h1.trans (Reg3.hin (V11 m ρ) c)
  hout c := by
    rw [Pipeline.ownSems0_none]
    have h2 : (Pipeline.ΦA spec3 c : sProp 𝕄) ⊢ iprop((∃ r, prngReg c r) ∗ BI.emp ∗ Pipeline.scopedRest spec3 c) := by
      unfold Pipeline.ΦA
      iintro ⟨Hr, Hp⟩
      isplitl [Hp]; · iexact Hp
      isplitr; · iempintro
      iexact Hr
    exact (Reg3.hout (V11 m ρ) c).trans h2
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)),
    .host (hseg hostOps2_1 hostOps2_1_sub hostOps2_1_fresh (W7 m ρ)),
    .host (hseg hostOps2_2 hostOps2_2_sub hostOps2_2_fresh (W8 m ρ)),
    .region (reg2 m ρ),
    .host (hseg hostOps3 hostOps3_sub hostOps3_fresh (W10 m ρ)),
    .region (reg3 m ρ),
    .host (hseg hostOps4 hostOps4_sub hostOps4_fresh (W12 m ρ)),
    .host (hseg hostOps4_1 hostOps4_1_sub hostOps4_1_fresh (W13 m ρ)),
    .host (hseg hostOps4_2 hostOps4_2_sub hostOps4_2_fresh (W14 m ρ)),
    .host (hseg hostOps4_3 hostOps4_3_sub hostOps4_3_fresh (W15 m ρ)),
    .host (hseg hostOps4_4 hostOps4_4_sub hostOps4_4_fresh (W16 m ρ)) ]

theorem main_run (c : Dev nD) : main (F := F) c = Pipeline.Seg.run (segs m ρ) := (main_chain c).trans (by chain_rfl)

set_option backward.isDefEq.respectTransparency.types false in
/-- Every weakly fair execution of @main terminates, nothing faulting, and every final state has each unscoped
    TensorCore buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W17 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W17 m ρ c) ∗ R c) ⊢ iprop(Tₙ m ρ c ∗ ∃ W, owes (c.tc : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h => h)

/-- The frame: @main runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c =>
    ⟨(h c _ (mem_uc main_arg0 (by decide))).trans (W17_main_arg0 m ρ c),
     (h c _ (mem_uc main_arg1 (by decide))).trans (W17_main_arg1 m ρ c),
     (h c _ (mem_uc main_arg2 (by decide))).trans (W17_main_arg2 m ρ c),
     (h c _ (mem_uc main_arg3 (by decide))).trans (W17_main_arg3 m ρ c),
     (h c _ (mem_uc main_arg4 (by decide))).trans (W17_main_arg4 m ρ c),
     (h c _ (mem_uc main_arg5 (by decide))).trans (W17_main_arg5 m ρ c),
     (h c _ (mem_uc main_arg6 (by decide))).trans (W17_main_arg6 m ρ c),
     (h c _ (mem_uc main_arg7 (by decide))).trans (W17_main_arg7 m ρ c),
     (h c _ (mem_uc main_arg8 (by decide))).trans (W17_main_arg8 m ρ c),
     (h c _ (mem_uc main_arg9 (by decide))).trans (W17_main_arg9 m ρ c),
     (h c _ (mem_uc main_arg10 (by decide))).trans (W17_main_arg10 m ρ c),
     (h c _ (mem_uc main_arg11 (by decide))).trans (W17_main_arg11 m ρ c),
     (h c _ (mem_uc main_arg12 (by decide))).trans (W17_main_arg12 m ρ c),
     (h c _ (mem_uc main_arg13 (by decide))).trans (W17_main_arg13 m ρ c),
     (h c _ (mem_uc main_arg14 (by decide))).trans (W17_main_arg14 m ρ c),
     (h c _ (mem_uc main_arg15 (by decide))).trans (W17_main_arg15 m ρ c),
     (h c _ (mem_uc main_arg16 (by decide))).trans (W17_main_arg16 m ρ c),
     (h c _ (mem_uc main_arg17 (by decide))).trans (W17_main_arg17 m ρ c),
     (h c _ (mem_uc main_arg18 (by decide))).trans (W17_main_arg18 m ρ c),
     (h c _ (mem_uc main_arg19 (by decide))).trans (W17_main_arg19 m ρ c)⟩) (run_all m ρ)

/-- The run with the result named: the result buffer ends at the last boundary's contents there, the arguments as
    launched. -/
theorem run_result : θ_run defs (onTc (τ := τ) (main (F := F))) ⟨m, fun _ => 0, ρ⟩ (fun r => ∀ c : Dev nD,
      r.2.mem ((c.tc : Thread nD τ).loc main_v100) = W17 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c =>
    ⟨h c _ (mem_uc main_v100 (by decide)),
     (h c _ (mem_uc main_arg0 (by decide))).trans (W17_main_arg0 m ρ c),
     (h c _ (mem_uc main_arg1 (by decide))).trans (W17_main_arg1 m ρ c),
     (h c _ (mem_uc main_arg2 (by decide))).trans (W17_main_arg2 m ρ c),
     (h c _ (mem_uc main_arg3 (by decide))).trans (W17_main_arg3 m ρ c),
     (h c _ (mem_uc main_arg4 (by decide))).trans (W17_main_arg4 m ρ c),
     (h c _ (mem_uc main_arg5 (by decide))).trans (W17_main_arg5 m ρ c),
     (h c _ (mem_uc main_arg6 (by decide))).trans (W17_main_arg6 m ρ c),
     (h c _ (mem_uc main_arg7 (by decide))).trans (W17_main_arg7 m ρ c),
     (h c _ (mem_uc main_arg8 (by decide))).trans (W17_main_arg8 m ρ c),
     (h c _ (mem_uc main_arg9 (by decide))).trans (W17_main_arg9 m ρ c),
     (h c _ (mem_uc main_arg10 (by decide))).trans (W17_main_arg10 m ρ c),
     (h c _ (mem_uc main_arg11 (by decide))).trans (W17_main_arg11 m ρ c),
     (h c _ (mem_uc main_arg12 (by decide))).trans (W17_main_arg12 m ρ c),
     (h c _ (mem_uc main_arg13 (by decide))).trans (W17_main_arg13 m ρ c),
     (h c _ (mem_uc main_arg14 (by decide))).trans (W17_main_arg14 m ρ c),
     (h c _ (mem_uc main_arg15 (by decide))).trans (W17_main_arg15 m ρ c),
     (h c _ (mem_uc main_arg16 (by decide))).trans (W17_main_arg16 m ρ c),
     (h c _ (mem_uc main_arg17 (by decide))).trans (W17_main_arg17 m ρ c),
     (h c _ (mem_uc main_arg18 (by decide))).trans (W17_main_arg18 m ρ c),
     (h c _ (mem_uc main_arg19 (by decide))).trans (W17_main_arg19 m ρ c)⟩) (run_all m ρ)

end Cert.Kernel.Whole

end
-- ==== Proof.KI_R0Runs.lean ====
/-
  Region 0 of the program (the first pass "adjacency block times right factor, accumulated over the reduction axis",
  which also writes out a copy of each adjacency block it reads):
  what the per-case runs of its kernel body and its proof data share. The grid is (row blocks) × (4 reduction steps),
  the reduction step the fast axis, so a point's step is its number mod 4. The body's first conditional (reset the
  accumulator) is taken exactly at step 0, its second (add the bias row, apply the epilogue, store the output block)
  exactly at step 3; the output window is idle, and not written back, at every other step. The accumulator is a
  scratch buffer of the kernel's own, carried from one point to the next.
-/
import proofs.«155634_j8117488189610_2_alg».proof.Proof.Gen.KernelIdeal.Launch
import proofs.«155634_j8117488189610_2_alg».proof.Proof.Gen.KernelIdeal.Skeleton
import proofs.«155634_j8117488189610_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's branch conditions, in closed form over the grid -/

/-- The first conditional's condition: the reduction step is 0. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 4 = 0 :=
  (by decide +kernel : ∀ t : Fin grid0.N, condFirst (grid0.coords t) ↔ t.val % 4 = 0)

/-- The second conditional's condition: the reduction step is the last one. -/
abbrev condLast (i : grid0.Coords) : Prop := k0_cond2 i = 1#1
theorem hcondLast : ∀ t : Fin cfg0.N, condLast (grid0.coords t) ↔ t.val % 4 = 3 :=
  (by decide +kernel : ∀ t : Fin grid0.N, condLast (grid0.coords t) ↔ t.val % 4 = 3)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
/-- The copy of the adjacency block is stored whole at every point. -/
theorem live_4 : ∀ t : Fin cfg0.N, cfg0.idle 4 (grid0.coords t) = false := by decide +kernel
/-- Away from the last reduction step the body stores nothing into the output block, -/
theorem idle_3 : ∀ t : Fin cfg0.N, ¬condLast (grid0.coords t) → cfg0.idle 3 (grid0.coords t) = true := by decide +kernel
/-- and the pipeline does not write it back there; -/
theorem noFlush_3 : ∀ t : Fin cfg0.N, ¬condLast (grid0.coords t) → (cfg0.win 3).flush t = false := by decide +kernel
/-- at the last step it is stored whole. -/
theorem live_3 : ∀ t : Fin cfg0.N, condLast (grid0.coords t) → cfg0.idle 3 (grid0.coords t) = false := by decide +kernel

/-! ## The memrefs the body is called with -/

abbrev ms_0 (t : Fin cfg0.N) : Memref sig .tc .vmem S2048x2048 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S2048x16 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x16 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S2048x16 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S2048x2048 .bf16 := win0_4.stage (cfg0.slots t 4)
abbrev hs_4 (t : Fin cfg0.N) : (ms_4 t).IsWhole := hstage0_4 ((cfg0.slots t 4).cast nbuf0_4)
/-- One staging buffer of the copy's window, through which its contents are stated. -/
abbrev VC : View sig .tc .vmem S2048x2048 .bf16 := (Memref.whole cc0_stg4_0 : Memref sig .tc .vmem S2048x2048 .bf16).view
/-- The accumulator: a whole scoped buffer of the kernel's own. -/
abbrev scM : Memref sig .tc .vmem S2048x16 .f32 := Memref.whole cc0_scratch0
/-- One staging buffer of the output window, through which its contents are stated. -/
abbrev VO : View sig .tc .vmem S2048x16 .f32 := (Memref.whole cc0_stg3_0 : Memref sig .tc .vmem S2048x16 .f32).view
abbrev VS : View sig .tc .vmem S2048x16 .f32 := scM.view

/-- What rides beside the accumulator through the region: every other scoped buffer of the core that no window of
    this region stages (the other regions' staging buffers and accumulators), each at some contents. -/
abbrev others (c : Dev nD) : sProp 𝕄 :=
  Pipeline.scopedRestBut (Ix := Unit) (Name := ℕ) (U := Pipeline.UD sig nD τ) (Lvl := ℕ) (Val := Elt F) spec0 c [cc0_scratch0]

/-- The class invariant (the scoped rest at anything, the generator register at some state) with the accumulator
    split out as a memref owned at some contents. -/
theorem PhiA_eq (c : Dev nD) :
    (Pipeline.ΦA spec0 c : sProp 𝕄)
      = iprop(iprop((∃ d, owns (c : Thread nD τ) scM fullShare d) ∗ others c) ∗ (∃ r, prngReg c r)) := by
  unfold Pipeline.ΦA; rw [scopedRest0_split]; simp only [scM, owns_whole]; try rfl

end Cert.KernelIdeal.Reg0

end
-- ==== Proof.KI_R0RunA.lean ====
/-
  Region 0's kernel body run whole at reduction step 0 (the accumulator, found at anything, is reset and takes the first partial product; the copy of the adjacency block is stored; nothing is stored into the output block, which is handed back untouched): on whole staging memrefs at given contents the body runs to its
  continuation, the inputs as they were and each buffer it stored into with its stores written; the lists of those
  stores are the witness the run finds.
-/
import proofs.«155634_j8117488189610_2_alg».proof.Proof.KI_R0Runs

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun_A (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : condFirst i) (hc1 : ¬condLast i)
    (x0 : Vec F S2048x2048 .f32) (x1 : Vec F S2048x16 .f32) (x2 : Vec F S1x16 .f32) :
    Σ' (LC : List (View.Piece (Elt F) S2048x2048 .bf16)), { LS : List (View.Piece (Elt F) S2048x16 .f32) //
      ∀ (xi3 : Vec F S2048x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LC) ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Reg0

end
-- ==== Proof.KI_R0RunB.lean ====
/-
  Region 0's kernel body run whole at a middle reduction step (the accumulator takes one more partial product; the copy of the adjacency block is stored; nothing is stored into the output block, which is handed back untouched): on whole staging memrefs at given contents the body runs to its
  continuation, the inputs as they were and each buffer it stored into with its stores written; the lists of those
  stores are the witness the run finds.
-/
import proofs.«155634_j8117488189610_2_alg».proof.Proof.KI_R0RunA

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun_B (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : ¬condFirst i) (hc1 : ¬condLast i)
    (x0 : Vec F S2048x2048 .f32) (x1 : Vec F S2048x16 .f32) (x2 : Vec F S1x16 .f32) (xs : Vec F S2048x16 .f32) :
    Σ' (LC : List (View.Piece (Elt F) S2048x2048 .bf16)), { LS : List (View.Piece (Elt F) S2048x16 .f32) //
      ∀ (xi3 : Vec F S2048x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LC) ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Reg0

end
-- ==== Proof.KI_R0RunC.lean ====
/-
  Region 0's kernel body run whole at the last reduction step (the copy of the adjacency block is stored; the accumulator takes the last partial product, then the bias row is added, the epilogue applied and the output block stored whole): on whole staging memrefs at given contents the body runs to its
  continuation, the inputs as they were and each buffer it stored into with its stores written; the lists of those
  stores are the witness the run finds.
-/
import proofs.«155634_j8117488189610_2_alg».proof.Proof.KI_R0RunB

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun_C (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : ¬condFirst i) (hc1 : condLast i)
    (x0 : Vec F S2048x2048 .f32) (x1 : Vec F S2048x16 .f32) (x2 : Vec F S1x16 .f32) (xs : Vec F S2048x16 .f32) :
    Σ' (LO : List (View.Piece (Elt F) S2048x16 .f32)), Σ' (LC : List (View.Piece (Elt F) S2048x2048 .bf16)), { LS : List (View.Piece (Elt F) S2048x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LC) ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs, %hfs, HS⟩, Hk⟩
    obtain rfl := harg2.eq_unread hf0; obtain rfl := harg3.eq_unread hf1; obtain rfl := harg4.eq_unread hf2; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS

end Cert.KernelIdeal.Reg0

end
-- ==== Proof.KI_R0Dat.lean ====
/-
  Region 0's proof data and body obligation, over any contents `V` the region may be entered from.
  What the buffers hold after the body at each grid point is stated by recursion on the point: at reduction step 0
  the accumulator is what the first case's run leaves from the point's three input blocks; at a later step, what that
  step's case leaves from the input blocks and the accumulator of the point before; the copy of the adjacency block is
  stored whole at every point; the output block is stored (whole) at the last step only, and at every other point its
  staging buffer is handed back as found. The invariant carried from point to point is the accumulator at these
  contents, beside the other scoped buffers and the generator register at anything.
-/
import proofs.«155634_j8117488189610_2_alg».proof.Proof.KI_R0RunC

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before_0_of {c : Dev nD} (dat : Dat τ (Elt F) Unit ℕ (Pipeline.UD sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_1_of {c : Dev nD} (dat : Dat τ (Elt F) Unit ℕ (Pipeline.UD sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_2_of {c : Dev nD} (dat : Dat τ (Elt F) Unit ℕ (Pipeline.UD sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

theorem ccover_A (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : condFirst i) (hc1 : ¬condLast i) (x0 : Vec F S2048x2048 .f32) (x1 : Vec F S2048x16 .f32) (x2 : Vec F S1x16 .f32) (y : S2048x2048.Idx) :
    ∃ pc ∈ (kernelRun_A c i arg2 harg2 arg3 harg3 arg4 harg4 arg5 harg5 arg6 harg6 arg7 harg7 hc0 hc1 x0 x1 x2).1, y ∈ pc.1.set :=
  View.cover_of_tiledL (kernelRun_A c i arg2 harg2 arg3 harg3 arg4 harg4 arg5 harg5 arg6 harg6 arg7 harg7 hc0 hc1 x0 x1 x2).1 S2048x2048.size (by sl_kernel_rfl) y
/-- The copy of the adjacency block the body stores at such a point. -/
def outC_A (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : condFirst i) (hc1 : ¬condLast i) (x0 : Vec F S2048x2048 .f32) (x1 : Vec F S2048x16 .f32) (x2 : Vec F S1x16 .f32) : Vec F S2048x2048 .bf16 :=
  VC.read (Elt F) (VC.writes (Elt F) VC.junk (kernelRun_A c i arg2 harg2 arg3 harg3 arg4 harg4 arg5 harg5 arg6 harg6 arg7 harg7 hc0 hc1 x0 x1 x2).1)
theorem scover_A (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : condFirst i) (hc1 : ¬condLast i) (x0 : Vec F S2048x2048 .f32) (x1 : Vec F S2048x16 .f32) (x2 : Vec F S1x16 .f32) (y : S2048x16.Idx) :
    ∃ pc ∈ (kernelRun_A c i arg2 harg2 arg3 harg3 arg4 harg4 arg5 harg5 arg6 harg6 arg7 harg7 hc0 hc1 x0 x1 x2).2.1, y ∈ pc.1.set :=
  View.cover_of_tiledL (kernelRun_A c i arg2 harg2 arg3 harg3 arg4 harg4 arg5 harg5 arg6 harg6 arg7 harg7 hc0 hc1 x0 x1 x2).2.1 S2048x16.size (by sl_kernel_rfl) y
/-- The accumulator after such a point. -/
def sout_A (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : condFirst i) (hc1 : ¬condLast i) (x0 : Vec F S2048x2048 .f32) (x1 : Vec F S2048x16 .f32) (x2 : Vec F S1x16 .f32) : Vec F S2048x16 .f32 :=
  VS.read (Elt F) (VS.writes (Elt F) VS.junk (kernelRun_A c i arg2 harg2 arg3 harg3 arg4 harg4 arg5 harg5 arg6 harg6 arg7 harg7 hc0 hc1 x0 x1 x2).2.1)

theorem ccover_B (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : ¬condFirst i) (hc1 : ¬condLast i) (x0 : Vec F S2048x2048 .f32) (x1 : Vec F S2048x16 .f32) (x2 : Vec F S1x16 .f32) (xs : Vec F S2048x16 .f32) (y : S2048x2048.Idx) :
    ∃ pc ∈ (kernelRun_B c i arg2 harg2 arg3 harg3 arg4 harg4 arg5 harg5 arg6 harg6 arg7 harg7 hc0 hc1 x0 x1 x2 xs).1, y ∈ pc.1.set :=
  View.cover_of_tiledL (kernelRun_B c i arg2 harg2 arg3 harg3 arg4 harg4 arg5 harg5 arg6 harg6 arg7 harg7 hc0 hc1 x0 x1 x2 xs).1 S2048x2048.size (by sl_kernel_rfl) y
/-- The copy of the adjacency block the body stores at such a point. -/
def outC_B (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : ¬condFirst i) (hc1 : ¬condLast i) (x0 : Vec F S2048x2048 .f32) (x1 : Vec F S2048x16 .f32) (x2 : Vec F S1x16 .f32) (xs : Vec F S2048x16 .f32) : Vec F S2048x2048 .bf16 :=
  VC.read (Elt F) (VC.writes (Elt F) VC.junk (kernelRun_B c i arg2 harg2 arg3 harg3 arg4 harg4 arg5 harg5 arg6 harg6 arg7 harg7 hc0 hc1 x0 x1 x2 xs).1)
theorem scover_B (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : ¬condFirst i) (hc1 : ¬condLast i) (x0 : Vec F S2048x2048 .f32) (x1 : Vec F S2048x16 .f32) (x2 : Vec F S1x16 .f32) (xs : Vec F S2048x16 .f32) (y : S2048x16.Idx) :
    ∃ pc ∈ (kernelRun_B c i arg2 harg2 arg3 harg3 arg4 harg4 arg5 harg5 arg6 harg6 arg7 harg7 hc0 hc1 x0 x1 x2 xs).2.1, y ∈ pc.1.set :=
  View.cover_of_tiledL (kernelRun_B c i arg2 harg2 arg3 harg3 arg4 harg4 arg5 harg5 arg6 harg6 arg7 harg7 hc0 hc1 x0 x1 x2 xs).2.1 S2048x16.size (by sl_kernel_rfl) y
/-- The accumulator after such a point. -/
def sout_B (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : ¬condFirst i) (hc1 : ¬condLast i) (x0 : Vec F S2048x2048 .f32) (x1 : Vec F S2048x16 .f32) (x2 : Vec F S1x16 .f32) (xs : Vec F S2048x16 .f32) : Vec F S2048x16 .f32 :=
  VS.read (Elt F) (VS.writes (Elt F) VS.junk (kernelRun_B c i arg2 harg2 arg3 harg3 arg4 harg4 arg5 harg5 arg6 harg6 arg7 harg7 hc0 hc1 x0 x1 x2 xs).2.1)

theorem ccover_C (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : ¬condFirst i) (hc1 : condLast i) (x0 : Vec F S2048x2048 .f32) (x1 : Vec F S2048x16 .f32) (x2 : Vec F S1x16 .f32) (xs : Vec F S2048x16 .f32) (y : S2048x2048.Idx) :
    ∃ pc ∈ (kernelRun_C c i arg2 harg2 arg3 harg3 arg4 harg4 arg5 harg5 arg6 harg6 arg7 harg7 hc0 hc1 x0 x1 x2 xs).2.1, y ∈ pc.1.set :=
  View.cover_of_tiledL (kernelRun_C c i arg2 harg2 arg3 harg3 arg4 harg4 arg5 harg5 arg6 harg6 arg7 harg7 hc0 hc1 x0 x1 x2 xs).2.1 S2048x2048.size (by sl_kernel_rfl) y
/-- The copy of the adjacency block the body stores at such a point. -/
def outC_C (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : ¬condFirst i) (hc1 : condLast i) (x0 : Vec F S2048x2048 .f32) (x1 : Vec F S2048x16 .f32) (x2 : Vec F S1x16 .f32) (xs : Vec F S2048x16 .f32) : Vec F S2048x2048 .bf16 :=
  VC.read (Elt F) (VC.writes (Elt F) VC.junk (kernelRun_C c i arg2 harg2 arg3 harg3 arg4 harg4 arg5 harg5 arg6 harg6 arg7 harg7 hc0 hc1 x0 x1 x2 xs).2.1)
theorem scover_C (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : ¬condFirst i) (hc1 : condLast i) (x0 : Vec F S2048x2048 .f32) (x1 : Vec F S2048x16 .f32) (x2 : Vec F S1x16 .f32) (xs : Vec F S2048x16 .f32) (y : S2048x16.Idx) :
    ∃ pc ∈ (kernelRun_C c i arg2 harg2 arg3 harg3 arg4 harg4 arg5 harg5 arg6 harg6 arg7 harg7 hc0 hc1 x0 x1 x2 xs).2.2.1, y ∈ pc.1.set :=
  View.cover_of_tiledL (kernelRun_C c i arg2 harg2 arg3 harg3 arg4 harg4 arg5 harg5 arg6 harg6 arg7 harg7 hc0 hc1 x0 x1 x2 xs).2.2.1 S2048x16.size (by sl_kernel_rfl) y
/-- The accumulator after such a point. -/
def sout_C (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : ¬condFirst i) (hc1 : condLast i) (x0 : Vec F S2048x2048 .f32) (x1 : Vec F S2048x16 .f32) (x2 : Vec F S1x16 .f32) (xs : Vec F S2048x16 .f32) : Vec F S2048x16 .f32 :=
  VS.read (Elt F) (VS.writes (Elt F) VS.junk (kernelRun_C c i arg2 harg2 arg3 harg3 arg4 harg4 arg5 harg5 arg6 harg6 arg7 harg7 hc0 hc1 x0 x1 x2 xs).2.2.1)
theorem cover_C (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : ¬condFirst i) (hc1 : condLast i) (x0 : Vec F S2048x2048 .f32) (x1 : Vec F S2048x16 .f32) (x2 : Vec F S1x16 .f32) (xs : Vec F S2048x16 .f32) (y : S2048x16.Idx) :
    ∃ pc ∈ (kernelRun_C c i arg2 harg2 arg3 harg3 arg4 harg4 arg5 harg5 arg6 harg6 arg7 harg7 hc0 hc1 x0 x1 x2 xs).1, y ∈ pc.1.set :=
  View.cover_of_tiledL (kernelRun_C c i arg2 harg2 arg3 harg3 arg4 harg4 arg5 harg5 arg6 harg6 arg7 harg7 hc0 hc1 x0 x1 x2 xs).1 S2048x16.size (by sl_kernel_rfl) y
/-- The output block stored at a point of the last reduction step. -/
def out_C (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : ¬condFirst i) (hc1 : condLast i) (x0 : Vec F S2048x2048 .f32) (x1 : Vec F S2048x16 .f32) (x2 : Vec F S1x16 .f32) (xs : Vec F S2048x16 .f32) : Vec F S2048x16 .f32 :=
  VO.read (Elt F) (VO.writes (Elt F) VO.junk (kernelRun_C c i arg2 harg2 arg3 harg3 arg4 harg4 arg5 harg5 arg6 harg6 arg7 harg7 hc0 hc1 x0 x1 x2 xs).1)

/-- A placeholder for the output block's staging buffer at a point where nothing is stored into it and it is not
    written back: nothing consults it. -/
def outIdle : Vec F S2048x16 .f32 := VO.read (Elt F) VO.junk

/-! ## What the output block, the copy and the accumulator hold after each point -/

/-- After the body at position `n`: (the output window's staging buffer, (the copy's staging buffer, the accumulator)). -/
def outsAt (c : Dev nD) : (n : ℕ) → n < cfg0.N → Vec F S2048x16 .f32 × (Vec F S2048x2048 .bf16 × Vec F S2048x16 .f32)
  | 0, hn => (outIdle, outC_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩),
      sout_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) scM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩))
  | n + 1, hn =>
    if h0 : (n + 1) % 4 = 0 then
      if h1 : (n + 1) % 4 = 3 then
        False.elim (by omega)
      else
        (outIdle, outC_A c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩) (iblk V c 2 ⟨n + 1, hn⟩),
          sout_A c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩) (iblk V c 2 ⟨n + 1, hn⟩))
    else
      if h1 : (n + 1) % 4 = 3 then
        (out_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2.2,
          outC_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2.2,
          sout_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2.2)
      else
        (outIdle, outC_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2.2,
          sout_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2.2)

theorem outsAt_A (c : Dev nD) (t : Fin cfg0.N) (h0 : t.val % 4 = 0) (h1 : ¬t.val % 4 = 3) :
    outsAt V c t.val t.isLt = (outIdle, outC_A c (grid0.coords t) (ms_0 t) (hs_0 t) (ms_1 t) (hs_1 t) (ms_2 t) (hs_2 t) (ms_3 t) (hs_3 t) (ms_4 t) (hs_4 t) scM (Memref.isWhole_whole _) ((hcondFirst t).mpr h0) (fun h => h1 ((hcondLast t).mp h)) (iblk V c 0 t) (iblk V c 1 t) (iblk V c 2 t),
      sout_A c (grid0.coords t) (ms_0 t) (hs_0 t) (ms_1 t) (hs_1 t) (ms_2 t) (hs_2 t) (ms_3 t) (hs_3 t) (ms_4 t) (hs_4 t) scM (Memref.isWhole_whole _) ((hcondFirst t).mpr h0) (fun h => h1 ((hcondLast t).mp h)) (iblk V c 0 t) (iblk V c 1 t) (iblk V c 2 t)) := by
  obtain ⟨n, hn⟩ := t
  cases n with
  | zero => exact rfl
  | succ n => exact (dif_pos h0).trans ((dif_neg h1).trans rfl)

theorem outsAt_B (c : Dev nD) (t : Fin cfg0.N) (h0 : ¬t.val % 4 = 0) (h1 : ¬t.val % 4 = 3) :
    outsAt V c t.val t.isLt = (outIdle, outC_B c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2.2,
      sout_B c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 4 = 0) (h1 : t.val % 4 = 3) :
    outsAt V c t.val t.isLt = (out_C c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2,
      outC_C c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2,
      sout_C c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant carried from point to point -/

def PhiS (c : Dev nD) : (n : ℕ) → n ≤ cfg0.N → sProp 𝕄
  | 0, _ => Pipeline.ΦA spec0 c
  | n + 1, hn => iprop(iprop(owns (c : Thread nD τ) scM fullShare ((outsAt V c n hn).2.2) ∗ others c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM fullShare ((outsAt V c n hn).2.2) ∗ others c) ∗ (∃ r, prngReg c r)) := rfl
theorem PhiS_pos (c : Dev nD) (n : ℕ) (h : n ≤ cfg0.N) (hz : n ≠ 0) :
    PhiS V c n h = iprop(iprop(owns (c : Thread nD τ) scM fullShare ((outsAt V c (n - 1) (by omega)).2.2) ∗ others c) ∗ (∃ r, prngReg c r)) := by
  cases n with
  | zero => exact absurd rfl hz
  | succ n => rfl

/-! ## The proof data -/

def dat (c : Dev nD) : Dat τ (Elt F) Unit ℕ (Pipeline.UD sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
    | ⟨4, _⟩ => (outsAt V c t.val t.isLt).2.1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = (outsAt V c t.val t.isLt).1 := by dsimp only [dat]
theorem after_4 (c : Dev nD) (t : Fin cfg0.N) : (dat V c).after 4 t = (outsAt V c t.val t.isLt).2.1 := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg0.N = 16 from N_0)
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [show (dat V c).leavesExact 2 t = owns (c : Thread nD τ) (ms_2 t) fullShare ((dat V c).after 2 t) from by
    unfold Dat.leavesExact; rw [live_2 t], after_2]
  rw [show (dat V c).leavesExact 4 t = owns (c : Thread nD τ) (ms_4 t) fullShare ((dat V c).after 4 t) from by
    unfold Dat.leavesExact; rw [live_4 t], after_4]
  by_cases h0 : t.val % 4 = 0
  · by_cases h1 : t.val % 4 = 3
    · exfalso; omega
    · by_cases hz : t.val = 0
      · rw [Dat.leavesExact_idle (dat V c) 3 t (idle_3 t (fun h => h1 ((hcondLast t).mp h))) (noFlush_3 t (fun h => h1 ((hcondLast t).mp h)))]
        rw [outsAt_A V c t h0 h1]
        unfold sout_A outC_A; (try dsimp only)
        rw [PhiS_castSucc V c t, PhiS_zero V c _ _ hz, PhiA_eq]
        iintro ⟨⟨⟨HS, Hoth⟩, Hg⟩, Ho, ⟨%d0, H0⟩, ⟨%d1, H1⟩, ⟨%d2, H2⟩, ⟨%d3, H3⟩, ⟨%d4, H4⟩⟩
        iapply ((kernelRun_A c (grid0.coords t) _ _ _ _ _ _ _ _ _ _ _ _ ((hcondFirst t).mpr h0) (fun h => h1 ((hcondLast t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [H4]; · iexists _; iexact H4
        isplitl [HS]; · iexact HS
        iintro ⟨H0, H1, H2, H3, ⟨%e4, H4⟩, ⟨%es, HS⟩⟩
        isplitl [HS Hoth Hg]
        · isplitl [HS Hoth]
          · isplitl [HS]
            · unfold owns; iexists _; isplitr
              swap; · iexact HS
              ipureintro; exact View.read_writes_of_cover _ _ _ _ _ (scover_A c _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexists _; iexact H3
        unfold owns; iexists _; isplitr
        swap; · iexact H4
        ipureintro; exact View.read_writes_of_cover _ _ _ _ _ (ccover_A c _ _ _ _ _ _ _ _ _ _ _ _ _ _ _ _ _ _)
      · rw [Dat.leavesExact_idle (dat V c) 3 t (idle_3 t (fun h => h1 ((hcondLast t).mp h))) (noFlush_3 t (fun h => h1 ((hcondLast t).mp h)))]
        rw [outsAt_A V c t h0 h1]
        unfold sout_A outC_A; (try dsimp only)
        rw [PhiS_castSucc V c t, PhiS_pos V c _ _ hz]
        iintro ⟨⟨⟨HS, Hoth⟩, Hg⟩, Ho, ⟨%d0, H0⟩, ⟨%d1, H1⟩, ⟨%d2, H2⟩, ⟨%d3, H3⟩, ⟨%d4, H4⟩⟩
        iapply ((kernelRun_A c (grid0.coords t) _ _ _ _ _ _ _ _ _ _ _ _ ((hcondFirst t).mpr h0) (fun h => h1 ((hcondLast t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [H4]; · iexists _; iexact H4
        isplitl [HS]; · iexists _; iexact HS
        iintro ⟨H0, H1, H2, H3, ⟨%e4, H4⟩, ⟨%es, HS⟩⟩
        isplitl [HS Hoth Hg]
        · isplitl [HS Hoth]
          · isplitl [HS]
            · unfold owns; iexists _; isplitr
              swap; · iexact HS
              ipureintro; exact View.read_writes_of_cover _ _ _ _ _ (scover_A c _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexists _; iexact H3
        unfold owns; iexists _; isplitr
        swap; · iexact H4
        ipureintro; exact View.read_writes_of_cover _ _ _ _ _ (ccover_A c _ _ _ _ _ _ _ _ _ _ _ _ _ _ _ _ _ _)
  · have hz : t.val ≠ 0 := fun hz => h0 (by rw [hz])
    by_cases h1 : t.val % 4 = 3
    · rw [show (dat V c).leavesExact 3 t = owns (c : Thread nD τ) (ms_3 t) fullShare ((dat V c).after 3 t) from by
        unfold Dat.leavesExact; rw [live_3 t ((hcondLast t).mpr h1)], after_3]
      rw [outsAt_C V c t h0 h1]
      unfold out_C sout_C outC_C; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((kernelRun_C c (grid0.coords t) _ _ _ _ _ _ _ _ _ _ _ _ (fun h => h0 ((hcondFirst t).mp h)) ((hcondLast t).mpr h1) (iblk V c 0 t) (iblk V c 1 t) (iblk V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, ⟨%e3, H3⟩, ⟨%e4, H4⟩, ⟨%es, HS⟩⟩
      isplitl [HS Hoth Hg]
      · isplitl [HS Hoth]
        · isplitl [HS]
          · unfold owns; iexists _; isplitr
            swap; · iexact HS
            ipureintro; exact View.read_writes_of_cover _ _ _ _ _ (scover_C c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover_C c _ _ _ _ _ _ _ _ _ _ _ _ _ _ _ _ _ _ _)
      unfold owns; iexists _; isplitr
      swap; · iexact H4
      ipureintro; exact View.read_writes_of_cover _ _ _ _ _ (ccover_C c _ _ _ _ _ _ _ _ _ _ _ _ _ _ _ _ _ _ _)
    · rw [Dat.leavesExact_idle (dat V c) 3 t (idle_3 t (fun h => h1 ((hcondLast t).mp h))) (noFlush_3 t (fun h => h1 ((hcondLast t).mp h)))]
      rw [outsAt_B V c t h0 h1]
      unfold sout_B outC_B; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((kernelRun_B c (grid0.coords t) _ _ _ _ _ _ _ _ _ _ _ _ (fun h => h0 ((hcondFirst t).mp h)) (fun h => h1 ((hcondLast t).mp h)) (iblk V c 0 t) (iblk V c 1 t) (iblk V c 2 t) _).2.2 _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hoth Hg]
      · isplitl [HS Hoth]
        · isplitl [HS]
          · unfold owns; iexists _; isplitr
            swap; · iexact HS
            ipureintro; exact View.read_writes_of_cover _ _ _ _ _ (scover_B c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexists _; iexact H3
      unfold owns; iexists _; isplitr
      swap; · iexact H4
      ipureintro; exact View.read_writes_of_cover _ _ _ _ _ (ccover_B c _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the accumulator's contents are forgotten. -/
theorem hout (c : Dev nD) : (dat V c).Φ (Fin.last cfg0.N) ⊢ Pipeline.ΦA spec0 c := by
  have hne : (Fin.last cfg0.N).val ≠ 0 := by rw [Fin.val_last]; have : cfg0.N = 16 := N_0; omega
  rw [show (dat V c).Φ (Fin.last cfg0.N) = PhiS V c (Fin.last cfg0.N).val (Nat.le_of_lt_succ (Fin.last cfg0.N).isLt) from rfl, PhiS_pos V c _ _ hne, PhiA_eq]
  iintro ⟨⟨HS, Hoth⟩, Hg⟩
  isplitl [HS Hoth]
  · isplitl [HS]
    · iexists _; iexact HS
    iexact Hoth
  iexact Hg

end Cert.KernelIdeal.Reg0

end
-- ==== Proof.KI_R1Runs.lean ====
/-
  Region 1 of the program (one pass "adjacency block times right factor, accumulated over the reduction axis"):
  what the per-case runs of its kernel body and its proof data share. The grid is (row blocks) × (4 reduction steps),
  the reduction step the fast axis, so a point's step is its number mod 4. The body's first conditional (reset the
  accumulator) is taken exactly at step 0, its second (add the bias row, apply the epilogue, store the output block)
  exactly at step 3; the output window is idle, and not written back, at every other step. The accumulator is a
  scratch buffer of the kernel's own, carried from one point to the next.
-/
import proofs.«155634_j8117488189610_2_alg».proof.Proof.Gen.KernelIdeal.Launch
import proofs.«155634_j8117488189610_2_alg».proof.Proof.Gen.KernelIdeal.Skeleton
import proofs.«155634_j8117488189610_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's branch conditions, in closed form over the grid -/

/-- The first conditional's condition: the reduction step is 0. -/
abbrev condFirst (i : grid1.Coords) : Prop := (Scalar.cmpi .ne (Scalar.extui (Scalar.cmpi .eq (BitVec.ofNat 32 (i 1).val) 0#32)) 0#32) = 1#1
theorem hcondFirst : ∀ t : Fin cfg1.N, condFirst (grid1.coords t) ↔ t.val % 4 = 0 :=
  (by decide +kernel : ∀ t : Fin grid1.N, condFirst (grid1.coords t) ↔ t.val % 4 = 0)

/-- The second conditional's condition: the reduction step is the last one. -/
abbrev condLast (i : grid1.Coords) : Prop := k1_cond2 i = 1#1
theorem hcondLast : ∀ t : Fin cfg1.N, condLast (grid1.coords t) ↔ t.val % 4 = 3 :=
  (by decide +kernel : ∀ t : Fin grid1.N, condLast (grid1.coords t) ↔ t.val % 4 = 3)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
/-- Away from the last reduction step the body stores nothing into the output block, -/
theorem idle_3 : ∀ t : Fin cfg1.N, ¬condLast (grid1.coords t) → cfg1.idle 3 (grid1.coords t) = true := by decide +kernel
/-- and the pipeline does not write it back there; -/
theorem noFlush_3 : ∀ t : Fin cfg1.N, ¬condLast (grid1.coords t) → (cfg1.win 3).flush t = false := by decide +kernel
/-- at the last step it is stored whole. -/
theorem live_3 : ∀ t : Fin cfg1.N, condLast (grid1.coords t) → cfg1.idle 3 (grid1.coords t) = false := by decide +kernel

/-! ## The memrefs the body is called with -/

abbrev ms_0 (t : Fin cfg1.N) : Memref sig .tc .vmem S4096x2048 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S2048x16 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x16 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S4096x16 .f32 := win1_3.stage (cfg1.slots t 3)
abbrev hs_3 (t : Fin cfg1.N) : (ms_3 t).IsWhole := hstage1_3 ((cfg1.slots t 3).cast nbuf1_3)
/-- The accumulator: a whole scoped buffer of the kernel's own. -/
abbrev scM : Memref sig .tc .vmem S4096x16 .f32 := Memref.whole cc1_scratch0
/-- One staging buffer of the output window, through which its contents are stated. -/
abbrev VO : View sig .tc .vmem S4096x16 .f32 := (Memref.whole cc1_stg3_0 : Memref sig .tc .vmem S4096x16 .f32).view
abbrev VS : View sig .tc .vmem S4096x16 .f32 := scM.view

/-- What rides beside the accumulator through the region: every other scoped buffer of the core that no window of
    this region stages (the other regions' staging buffers and accumulators), each at some contents. -/
abbrev others (c : Dev nD) : sProp 𝕄 :=
  Pipeline.scopedRestBut (Ix := Unit) (Name := ℕ) (U := Pipeline.UD sig nD τ) (Lvl := ℕ) (Val := Elt F) spec1 c [cc1_scratch0]

/-- The class invariant (the scoped rest at anything, the generator register at some state) with the accumulator
    split out as a memref owned at some contents. -/
theorem PhiA_eq (c : Dev nD) :
    (Pipeline.ΦA spec1 c : sProp 𝕄)
      = iprop(iprop((∃ d, owns (c : Thread nD τ) scM fullShare d) ∗ others c) ∗ (∃ r, prngReg c r)) := by
  unfold Pipeline.ΦA; rw [scopedRest1_split]; simp only [scM, owns_whole]; try rfl

end Cert.KernelIdeal.Reg1

end
-- ==== Proof.KI_R1RunA.lean ====
/-
  Region 1's kernel body run whole at reduction step 0 (the accumulator, found at anything, is reset and takes the first partial product; nothing is stored into the output block, which is handed back untouched): on whole staging memrefs at given contents the body runs to its
  continuation, the inputs as they were and each buffer it stored into with its stores written; the list of those
  stores is the witness the run finds.
-/
import proofs.«155634_j8117488189610_2_alg».proof.Proof.KI_R1Runs

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun_A (c : Dev nD) (i : grid1.Coords) (arg2 : Memref sig .tc .vmem S4096x2048 .bf16) (harg2 : arg2.IsWhole) (arg3 : Memref sig .tc .vmem S2048x16 .f32) (harg3 : arg3.IsWhole) (arg4 : Memref sig .tc .vmem S1x16 .f32) (harg4 : arg4.IsWhole) (arg5 : Memref sig .tc .vmem S4096x16 .f32) (harg5 : arg5.IsWhole) (arg6 : Memref sig .tc .vmem S4096x16 .f32) (harg6 : arg6.IsWhole) (hc0 : condFirst i) (hc1 : ¬condLast i)
    (x0 : Vec F S4096x2048 .bf16) (x1 : Vec F S2048x16 .f32) (x2 : Vec F S1x16 .f32) :
    { LS : List (View.Piece (Elt F) S4096x16 .f32) //
      ∀ (xi3 : Vec F S4096x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1_kernel i arg2 harg2 arg3 harg3 arg4 harg4 arg5 harg5 arg6 harg6) K } := by
  refine ⟨?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Reg1

end
-- ==== Proof.KI_R1RunB.lean ====
/-
  Region 1's kernel body run whole at a middle reduction step (the accumulator takes one more partial product; nothing is stored into the output block, which is handed back untouched): on whole staging memrefs at given contents the body runs to its
  continuation, the inputs as they were and each buffer it stored into with its stores written; the list of those
  stores is the witness the run finds.
-/
import proofs.«155634_j8117488189610_2_alg».proof.Proof.KI_R1RunA

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun_B (c : Dev nD) (i : grid1.Coords) (arg2 : Memref sig .tc .vmem S4096x2048 .bf16) (harg2 : arg2.IsWhole) (arg3 : Memref sig .tc .vmem S2048x16 .f32) (harg3 : arg3.IsWhole) (arg4 : Memref sig .tc .vmem S1x16 .f32) (harg4 : arg4.IsWhole) (arg5 : Memref sig .tc .vmem S4096x16 .f32) (harg5 : arg5.IsWhole) (arg6 : Memref sig .tc .vmem S4096x16 .f32) (harg6 : arg6.IsWhole) (hc0 : ¬condFirst i) (hc1 : ¬condLast i)
    (x0 : Vec F S4096x2048 .bf16) (x1 : Vec F S2048x16 .f32) (x2 : Vec F S1x16 .f32) (xs : Vec F S4096x16 .f32) :
    { LS : List (View.Piece (Elt F) S4096x16 .f32) //
      ∀ (xi3 : Vec F S4096x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1_kernel i arg2 harg2 arg3 harg3 arg4 harg4 arg5 harg5 arg6 harg6) K } := by
  refine ⟨?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Reg1

end
-- ==== Proof.KI_R1RunC.lean ====
/-
  Region 1's kernel body run whole at the last reduction step (the accumulator takes the last partial product, then the bias row is added, the epilogue applied and the output block stored whole): on whole staging memrefs at given contents the body runs to its
  continuation, the inputs as they were and each buffer it stored into with its stores written; the list of those
  stores is the witness the run finds.
-/
import proofs.«155634_j8117488189610_2_alg».proof.Proof.KI_R1RunB

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun_C (c : Dev nD) (i : grid1.Coords) (arg2 : Memref sig .tc .vmem S4096x2048 .bf16) (harg2 : arg2.IsWhole) (arg3 : Memref sig .tc .vmem S2048x16 .f32) (harg3 : arg3.IsWhole) (arg4 : Memref sig .tc .vmem S1x16 .f32) (harg4 : arg4.IsWhole) (arg5 : Memref sig .tc .vmem S4096x16 .f32) (harg5 : arg5.IsWhole) (arg6 : Memref sig .tc .vmem S4096x16 .f32) (harg6 : arg6.IsWhole) (hc0 : ¬condFirst i) (hc1 : condLast i)
    (x0 : Vec F S4096x2048 .bf16) (x1 : Vec F S2048x16 .f32) (x2 : Vec F S1x16 .f32) (xs : Vec F S4096x16 .f32) :
    Σ' (LO : List (View.Piece (Elt F) S4096x16 .f32)), { LS : List (View.Piece (Elt F) S4096x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc1_kernel i arg2 harg2 arg3 harg3 arg4 harg4 arg5 harg5 arg6 harg6) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Reg1

end
-- ==== Proof.KI_R1Dat.lean ====
/-
  Region 1's proof data and body obligation, over any contents `V` the region may be entered from.
  What the buffers hold after the body at each grid point is stated by recursion on the point: at reduction step 0
  the accumulator is what the first case's run leaves from the point's three input blocks; at a later step, what that
  step's case leaves from the input blocks and the accumulator of the point before; the output block is stored (whole)
  at the last step only, and at every other point its staging buffer is handed back as found. The invariant carried
  from point to point is the accumulator at these contents, beside the other scoped buffers and the generator
  register at anything.
-/
import proofs.«155634_j8117488189610_2_alg».proof.Proof.KI_R1RunC

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before_0_of {c : Dev nD} (dat : Dat τ (Elt F) Unit ℕ (Pipeline.UD sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_1_of {c : Dev nD} (dat : Dat τ (Elt F) Unit ℕ (Pipeline.UD sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_2_of {c : Dev nD} (dat : Dat τ (Elt F) Unit ℕ (Pipeline.UD sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

theorem scover_A (c : Dev nD) (i : grid1.Coords) (arg2 : Memref sig .tc .vmem S4096x2048 .bf16) (harg2 : arg2.IsWhole) (arg3 : Memref sig .tc .vmem S2048x16 .f32) (harg3 : arg3.IsWhole) (arg4 : Memref sig .tc .vmem S1x16 .f32) (harg4 : arg4.IsWhole) (arg5 : Memref sig .tc .vmem S4096x16 .f32) (harg5 : arg5.IsWhole) (arg6 : Memref sig .tc .vmem S4096x16 .f32) (harg6 : arg6.IsWhole) (hc0 : condFirst i) (hc1 : ¬condLast i) (x0 : Vec F S4096x2048 .bf16) (x1 : Vec F S2048x16 .f32) (x2 : Vec F S1x16 .f32) (y : S4096x16.Idx) :
    ∃ pc ∈ (kernelRun_A c i arg2 harg2 arg3 harg3 arg4 harg4 arg5 harg5 arg6 harg6 hc0 hc1 x0 x1 x2).1, y ∈ pc.1.set :=
  View.cover_of_tiledL (kernelRun_A c i arg2 harg2 arg3 harg3 arg4 harg4 arg5 harg5 arg6 harg6 hc0 hc1 x0 x1 x2).1 S4096x16.size (by sl_kernel_rfl) y
/-- The accumulator after a point of reduction step 0. -/
def sout_A (c : Dev nD) (i : grid1.Coords) (arg2 : Memref sig .tc .vmem S4096x2048 .bf16) (harg2 : arg2.IsWhole) (arg3 : Memref sig .tc .vmem S2048x16 .f32) (harg3 : arg3.IsWhole) (arg4 : Memref sig .tc .vmem S1x16 .f32) (harg4 : arg4.IsWhole) (arg5 : Memref sig .tc .vmem S4096x16 .f32) (harg5 : arg5.IsWhole) (arg6 : Memref sig .tc .vmem S4096x16 .f32) (harg6 : arg6.IsWhole) (hc0 : condFirst i) (hc1 : ¬condLast i) (x0 : Vec F S4096x2048 .bf16) (x1 : Vec F S2048x16 .f32) (x2 : Vec F S1x16 .f32) : Vec F S4096x16 .f32 :=
  VS.read (Elt F) (VS.writes (Elt F) VS.junk (kernelRun_A c i arg2 harg2 arg3 harg3 arg4 harg4 arg5 harg5 arg6 harg6 hc0 hc1 x0 x1 x2).1)

theorem scover_B (c : Dev nD) (i : grid1.Coords) (arg2 : Memref sig .tc .vmem S4096x2048 .bf16) (harg2 : arg2.IsWhole) (arg3 : Memref sig .tc .vmem S2048x16 .f32) (harg3 : arg3.IsWhole) (arg4 : Memref sig .tc .vmem S1x16 .f32) (harg4 : arg4.IsWhole) (arg5 : Memref sig .tc .vmem S4096x16 .f32) (harg5 : arg5.IsWhole) (arg6 : Memref sig .tc .vmem S4096x16 .f32) (harg6 : arg6.IsWhole) (hc0 : ¬condFirst i) (hc1 : ¬condLast i) (x0 : Vec F S4096x2048 .bf16) (x1 : Vec F S2048x16 .f32) (x2 : Vec F S1x16 .f32) (xs : Vec F S4096x16 .f32) (y : S4096x16.Idx) :
    ∃ pc ∈ (kernelRun_B c i arg2 harg2 arg3 harg3 arg4 harg4 arg5 harg5 arg6 harg6 hc0 hc1 x0 x1 x2 xs).1, y ∈ pc.1.set :=
  View.cover_of_tiledL (kernelRun_B c i arg2 harg2 arg3 harg3 arg4 harg4 arg5 harg5 arg6 harg6 hc0 hc1 x0 x1 x2 xs).1 S4096x16.size (by sl_kernel_rfl) y
/-- The accumulator after a point of a middle reduction step. -/
def sout_B (c : Dev nD) (i : grid1.Coords) (arg2 : Memref sig .tc .vmem S4096x2048 .bf16) (harg2 : arg2.IsWhole) (arg3 : Memref sig .tc .vmem S2048x16 .f32) (harg3 : arg3.IsWhole) (arg4 : Memref sig .tc .vmem S1x16 .f32) (harg4 : arg4.IsWhole) (arg5 : Memref sig .tc .vmem S4096x16 .f32) (harg5 : arg5.IsWhole) (arg6 : Memref sig .tc .vmem S4096x16 .f32) (harg6 : arg6.IsWhole) (hc0 : ¬condFirst i) (hc1 : ¬condLast i) (x0 : Vec F S4096x2048 .bf16) (x1 : Vec F S2048x16 .f32) (x2 : Vec F S1x16 .f32) (xs : Vec F S4096x16 .f32) : Vec F S4096x16 .f32 :=
  VS.read (Elt F) (VS.writes (Elt F) VS.junk (kernelRun_B c i arg2 harg2 arg3 harg3 arg4 harg4 arg5 harg5 arg6 harg6 hc0 hc1 x0 x1 x2 xs).1)

theorem cover_C (c : Dev nD) (i : grid1.Coords) (arg2 : Memref sig .tc .vmem S4096x2048 .bf16) (harg2 : arg2.IsWhole) (arg3 : Memref sig .tc .vmem S2048x16 .f32) (harg3 : arg3.IsWhole) (arg4 : Memref sig .tc .vmem S1x16 .f32) (harg4 : arg4.IsWhole) (arg5 : Memref sig .tc .vmem S4096x16 .f32) (harg5 : arg5.IsWhole) (arg6 : Memref sig .tc .vmem S4096x16 .f32) (harg6 : arg6.IsWhole) (hc0 : ¬condFirst i) (hc1 : condLast i) (x0 : Vec F S4096x2048 .bf16) (x1 : Vec F S2048x16 .f32) (x2 : Vec F S1x16 .f32) (xs : Vec F S4096x16 .f32) (y : S4096x16.Idx) :
    ∃ pc ∈ (kernelRun_C c i arg2 harg2 arg3 harg3 arg4 harg4 arg5 harg5 arg6 harg6 hc0 hc1 x0 x1 x2 xs).1, y ∈ pc.1.set :=
  View.cover_of_tiledL (kernelRun_C c i arg2 harg2 arg3 harg3 arg4 harg4 arg5 harg5 arg6 harg6 hc0 hc1 x0 x1 x2 xs).1 S4096x16.size (by sl_kernel_rfl) y
/-- The output block stored at a point of the last reduction step. -/
def out_C (c : Dev nD) (i : grid1.Coords) (arg2 : Memref sig .tc .vmem S4096x2048 .bf16) (harg2 : arg2.IsWhole) (arg3 : Memref sig .tc .vmem S2048x16 .f32) (harg3 : arg3.IsWhole) (arg4 : Memref sig .tc .vmem S1x16 .f32) (harg4 : arg4.IsWhole) (arg5 : Memref sig .tc .vmem S4096x16 .f32) (harg5 : arg5.IsWhole) (arg6 : Memref sig .tc .vmem S4096x16 .f32) (harg6 : arg6.IsWhole) (hc0 : ¬condFirst i) (hc1 : condLast i) (x0 : Vec F S4096x2048 .bf16) (x1 : Vec F S2048x16 .f32) (x2 : Vec F S1x16 .f32) (xs : Vec F S4096x16 .f32) : Vec F S4096x16 .f32 :=
  VO.read (Elt F) (VO.writes (Elt F) VO.junk (kernelRun_C c i arg2 harg2 arg3 harg3 arg4 harg4 arg5 harg5 arg6 harg6 hc0 hc1 x0 x1 x2 xs).1)
theorem scover_C (c : Dev nD) (i : grid1.Coords) (arg2 : Memref sig .tc .vmem S4096x2048 .bf16) (harg2 : arg2.IsWhole) (arg3 : Memref sig .tc .vmem S2048x16 .f32) (harg3 : arg3.IsWhole) (arg4 : Memref sig .tc .vmem S1x16 .f32) (harg4 : arg4.IsWhole) (arg5 : Memref sig .tc .vmem S4096x16 .f32) (harg5 : arg5.IsWhole) (arg6 : Memref sig .tc .vmem S4096x16 .f32) (harg6 : arg6.IsWhole) (hc0 : ¬condFirst i) (hc1 : condLast i) (x0 : Vec F S4096x2048 .bf16) (x1 : Vec F S2048x16 .f32) (x2 : Vec F S1x16 .f32) (xs : Vec F S4096x16 .f32) (y : S4096x16.Idx) :
    ∃ pc ∈ (kernelRun_C c i arg2 harg2 arg3 harg3 arg4 harg4 arg5 harg5 arg6 harg6 hc0 hc1 x0 x1 x2 xs).2.1, y ∈ pc.1.set :=
  View.cover_of_tiledL (kernelRun_C c i arg2 harg2 arg3 harg3 arg4 harg4 arg5 harg5 arg6 harg6 hc0 hc1 x0 x1 x2 xs).2.1 S4096x16.size (by sl_kernel_rfl) y
/-- The accumulator after a point of the last reduction step. -/
def sout_C (c : Dev nD) (i : grid1.Coords) (arg2 : Memref sig .tc .vmem S4096x2048 .bf16) (harg2 : arg2.IsWhole) (arg3 : Memref sig .tc .vmem S2048x16 .f32) (harg3 : arg3.IsWhole) (arg4 : Memref sig .tc .vmem S1x16 .f32) (harg4 : arg4.IsWhole) (arg5 : Memref sig .tc .vmem S4096x16 .f32) (harg5 : arg5.IsWhole) (arg6 : Memref sig .tc .vmem S4096x16 .f32) (harg6 : arg6.IsWhole) (hc0 : ¬condFirst i) (hc1 : condLast i) (x0 : Vec F S4096x2048 .bf16) (x1 : Vec F S2048x16 .f32) (x2 : Vec F S1x16 .f32) (xs : Vec F S4096x16 .f32) : Vec F S4096x16 .f32 :=
  VS.read (Elt F) (VS.writes (Elt F) VS.junk (kernelRun_C c i arg2 harg2 arg3 harg3 arg4 harg4 arg5 harg5 arg6 harg6 hc0 hc1 x0 x1 x2 xs).2.1)

/-- A placeholder for the output block's staging buffer at a point where nothing is stored into it and it is not
    written back: nothing consults it. -/
def outIdle : Vec F S4096x16 .f32 := VO.read (Elt F) VO.junk

/-! ## What the output block and the accumulator hold after each point -/

/-- After the body at position `n`: (the output window's staging buffer, the accumulator). -/
def outsAt (c : Dev nD) : (n : ℕ) → n < cfg1.N → Vec F S4096x16 .f32 × Vec F S4096x16 .f32
  | 0, hn => (outIdle, sout_A c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩))
  | n + 1, hn =>
    if h0 : (n + 1) % 4 = 0 then
      if h1 : (n + 1) % 4 = 3 then
        False.elim (by omega)
      else
        (outIdle, sout_A c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩) (iblk V c 2 ⟨n + 1, hn⟩))
    else
      if h1 : (n + 1) % 4 = 3 then
        (out_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2,
         sout_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        (outIdle, sout_B c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2)

theorem outsAt_A (c : Dev nD) (t : Fin cfg1.N) (h0 : t.val % 4 = 0) (h1 : ¬t.val % 4 = 3) :
    outsAt V c t.val t.isLt = (outIdle, sout_A c (grid1.coords t) (ms_0 t) (hs_0 t) (ms_1 t) (hs_1 t) (ms_2 t) (hs_2 t) (ms_3 t) (hs_3 t) scM (Memref.isWhole_whole _) ((hcondFirst t).mpr h0) (fun h => h1 ((hcondLast t).mp h)) (iblk V c 0 t) (iblk V c 1 t) (iblk V c 2 t)) := by
  obtain ⟨n, hn⟩ := t
  cases n with
  | zero => exact rfl
  | succ n => exact (dif_pos h0).trans ((dif_neg h1).trans rfl)

theorem outsAt_B (c : Dev nD) (t : Fin cfg1.N) (h0 : ¬t.val % 4 = 0) (h1 : ¬t.val % 4 = 3) :
    outsAt V c t.val t.isLt = (outIdle, sout_B c (grid1.coords t) (ms_0 t) (hs_0 t) (ms_1 t) (hs_1 t) (ms_2 t) (hs_2 t) (ms_3 t) (hs_3 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg1.N) (h0 : ¬t.val % 4 = 0) (h1 : t.val % 4 = 3) :
    outsAt V c t.val t.isLt = (out_C c (grid1.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2,
      sout_C c (grid1.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant carried from point to point -/

def PhiS (c : Dev nD) : (n : ℕ) → n ≤ cfg1.N → sProp 𝕄
  | 0, _ => Pipeline.ΦA spec1 c
  | n + 1, hn => iprop(iprop(owns (c : Thread nD τ) scM fullShare ((outsAt V c n hn).2) ∗ others c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) scM fullShare ((outsAt V c n hn).2) ∗ others c) ∗ (∃ r, prngReg c r)) := rfl
theorem PhiS_pos (c : Dev nD) (n : ℕ) (h : n ≤ cfg1.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The proof data -/

def dat (c : Dev nD) : Dat τ (Elt F) Unit ℕ (Pipeline.UD sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = (outsAt V c t.val t.isLt).1 := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 8 := lt_of_lt_of_eq t.isLt (show cfg1.N = 8 from N_1)
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [show (dat V c).leavesExact 2 t = owns (c : Thread nD τ) (ms_2 t) fullShare ((dat V c).after 2 t) from by
    unfold Dat.leavesExact; rw [live_2 t], after_2]
  by_cases h0 : t.val % 4 = 0
  · by_cases h1 : t.val % 4 = 3
    · exfalso; omega
    · rw [Dat.leavesExact_idle (dat V c) 3 t (idle_3 t (fun h => h1 ((hcondLast t).mp h))) (noFlush_3 t (fun h => h1 ((hcondLast t).mp h)))]
      rw [outsAt_A V c t h0 h1]
      unfold sout_A; (try dsimp only)
      by_cases hz : t.val = 0
      · rw [PhiS_castSucc V c t, PhiS_zero V c _ _ hz, PhiA_eq]
        iintro ⟨⟨⟨HS, Hoth⟩, Hg⟩, Ho, ⟨%d0, H0⟩, ⟨%d1, H1⟩, ⟨%d2, H2⟩, ⟨%d3, H3⟩⟩
        iapply ((kernelRun_A c (grid1.coords t) _ _ _ _ _ _ _ _ _ _ ((hcondFirst t).mpr h0) (fun h => h1 ((hcondLast t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (scover_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((kernelRun_A c (grid1.coords t) _ _ _ _ _ _ _ _ _ _ ((hcondFirst t).mpr h0) (fun h => h1 ((hcondLast t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (scover_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 4 = 3
    · rw [show (dat V c).leavesExact 3 t = owns (c : Thread nD τ) (ms_3 t) fullShare ((dat V c).after 3 t) from by
        unfold Dat.leavesExact; rw [live_3 t ((hcondLast t).mpr h1)], after_3]
      rw [outsAt_C V c t h0 h1]
      unfold out_C sout_C; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((kernelRun_C c (grid1.coords t) _ _ _ _ _ _ _ _ _ _ (fun h => h0 ((hcondFirst t).mp h)) ((hcondLast t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (scover_C c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_C c _ _ _ _ _ _ _ _ _ _ _ _ _ _ _ _ _)
    · rw [Dat.leavesExact_idle (dat V c) 3 t (idle_3 t (fun h => h1 ((hcondLast t).mp h))) (noFlush_3 t (fun h => h1 ((hcondLast t).mp h)))]
      rw [outsAt_B V c t h0 h1]
      unfold sout_B; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((kernelRun_B c (grid1.coords t) _ _ _ _ _ _ _ _ _ _ (fun h => h0 ((hcondFirst t).mp h)) (fun h => h1 ((hcondLast t).mp h)) (iblk V c 0 t) (iblk V c 1 t) (iblk V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (scover_B c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the accumulator's contents are forgotten. -/
theorem hout (c : Dev nD) : (dat V c).Φ (Fin.last cfg1.N) ⊢ Pipeline.ΦA spec1 c := by
  have hne : (Fin.last cfg1.N).val ≠ 0 := by rw [Fin.val_last]; have : cfg1.N = 8 := N_1; omega
  rw [show (dat V c).Φ (Fin.last cfg1.N) = PhiS V c (Fin.last cfg1.N).val (Nat.le_of_lt_succ (Fin.last cfg1.N).isLt) from rfl, PhiS_pos V c _ _ hne, PhiA_eq]
  iintro ⟨⟨HS, Hoth⟩, Hg⟩
  isplitl [HS Hoth]
  · isplitl [HS]
    · iexists _; iexact HS
    iexact Hoth
  iexact Hg

end Cert.KernelIdeal.Reg1

end
-- ==== Proof.KI_R2Runs.lean ====
/-
  Region 2 of the program (one pass "adjacency block times right factor, accumulated over the reduction axis"):
  what the per-case runs of its kernel body and its proof data share. The grid is (row blocks) × (4 reduction steps),
  the reduction step the fast axis, so a point's step is its number mod 4. The body's first conditional (reset the
  accumulator) is taken exactly at step 0, its second (add the bias row, apply the epilogue, store the output block)
  exactly at step 3; the output window is idle, and not written back, at every other step. The accumulator is a
  scratch buffer of the kernel's own, carried from one point to the next.
-/
import proofs.«155634_j8117488189610_2_alg».proof.Proof.Gen.KernelIdeal.Launch
import proofs.«155634_j8117488189610_2_alg».proof.Proof.Gen.KernelIdeal.Skeleton
import proofs.«155634_j8117488189610_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's branch conditions, in closed form over the grid -/

/-- The first conditional's condition: the reduction step is 0. -/
abbrev condFirst (i : grid2.Coords) : Prop := (Scalar.cmpi .ne (Scalar.extui (Scalar.cmpi .eq (BitVec.ofNat 32 (i 1).val) 0#32)) 0#32) = 1#1
theorem hcondFirst : ∀ t : Fin cfg2.N, condFirst (grid2.coords t) ↔ t.val % 4 = 0 :=
  (by decide +kernel : ∀ t : Fin grid2.N, condFirst (grid2.coords t) ↔ t.val % 4 = 0)

/-- The second conditional's condition: the reduction step is the last one. -/
abbrev condLast (i : grid2.Coords) : Prop := k2_cond2 i = 1#1
theorem hcondLast : ∀ t : Fin cfg2.N, condLast (grid2.coords t) ↔ t.val % 4 = 3 :=
  (by decide +kernel : ∀ t : Fin grid2.N, condLast (grid2.coords t) ↔ t.val % 4 = 3)

/-! ## Where the windows are idle -/

theorem live_0 : ∀ t : Fin cfg2.N, cfg2.idle 0 (grid2.coords t) = false := by decide +kernel
theorem live_1 : ∀ t : Fin cfg2.N, cfg2.idle 1 (grid2.coords t) = false := by decide +kernel
theorem live_2 : ∀ t : Fin cfg2.N, cfg2.idle 2 (grid2.coords t) = false := by decide +kernel
/-- Away from the last reduction step the body stores nothing into the output block, -/
theorem idle_3 : ∀ t : Fin cfg2.N, ¬condLast (grid2.coords t) → cfg2.idle 3 (grid2.coords t) = true := by decide +kernel
/-- and the pipeline does not write it back there; -/
theorem noFlush_3 : ∀ t : Fin cfg2.N, ¬condLast (grid2.coords t) → (cfg2.win 3).flush t = false := by decide +kernel
/-- at the last step it is stored whole. -/
theorem live_3 : ∀ t : Fin cfg2.N, condLast (grid2.coords t) → cfg2.idle 3 (grid2.coords t) = false := by decide +kernel

/-! ## The memrefs the body is called with -/

abbrev ms_0 (t : Fin cfg2.N) : Memref sig .tc .vmem S4096x2048 .bf16 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S2048x28 .f32 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S1x28 .f32 := win2_2.stage (cfg2.slots t 2)
abbrev hs_2 (t : Fin cfg2.N) : (ms_2 t).IsWhole := hstage2_2 ((cfg2.slots t 2).cast nbuf2_2)
abbrev ms_3 (t : Fin cfg2.N) : Memref sig .tc .vmem S4096x28 .f32 := win2_3.stage (cfg2.slots t 3)
abbrev hs_3 (t : Fin cfg2.N) : (ms_3 t).IsWhole := hstage2_3 ((cfg2.slots t 3).cast nbuf2_3)
/-- The accumulator: a whole scoped buffer of the kernel's own. -/
abbrev scM : Memref sig .tc .vmem S4096x28 .f32 := Memref.whole cc2_scratch0
/-- One staging buffer of the output window, through which its contents are stated. -/
abbrev VO : View sig .tc .vmem S4096x28 .f32 := (Memref.whole cc2_stg3_0 : Memref sig .tc .vmem S4096x28 .f32).view
abbrev VS : View sig .tc .vmem S4096x28 .f32 := scM.view

/-- What rides beside the accumulator through the region: every other scoped buffer of the core that no window of
    this region stages (the other regions' staging buffers and accumulators), each at some contents. -/
abbrev others (c : Dev nD) : sProp 𝕄 :=
  Pipeline.scopedRestBut (Ix := Unit) (Name := ℕ) (U := Pipeline.UD sig nD τ) (Lvl := ℕ) (Val := Elt F) spec2 c [cc2_scratch0]

/-- The class invariant (the scoped rest at anything, the generator register at some state) with the accumulator
    split out as a memref owned at some contents. -/
theorem PhiA_eq (c : Dev nD) :
    (Pipeline.ΦA spec2 c : sProp 𝕄)
      = iprop(iprop((∃ d, owns (c : Thread nD τ) scM fullShare d) ∗ others c) ∗ (∃ r, prngReg c r)) := by
  unfold Pipeline.ΦA; rw [scopedRest2_split]; simp only [scM, owns_whole]; try rfl

end Cert.KernelIdeal.Reg2

end
-- ==== Proof.KI_R2RunA.lean ====
/-
  Region 2's kernel body run whole at reduction step 0 (the accumulator, found at anything, is reset and takes the first partial product; nothing is stored into the output block, which is handed back untouched): on whole staging memrefs at given contents the body runs to its
  continuation, the inputs as they were and each buffer it stored into with its stores written; the list of those
  stores is the witness the run finds.
-/
import proofs.«155634_j8117488189610_2_alg».proof.Proof.KI_R2Runs

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun_A (c : Dev nD) (i : grid2.Coords) (arg2 : Memref sig .tc .vmem S4096x2048 .bf16) (harg2 : arg2.IsWhole) (arg3 : Memref sig .tc .vmem S2048x28 .f32) (harg3 : arg3.IsWhole) (arg4 : Memref sig .tc .vmem S1x28 .f32) (harg4 : arg4.IsWhole) (arg5 : Memref sig .tc .vmem S4096x28 .f32) (harg5 : arg5.IsWhole) (arg6 : Memref sig .tc .vmem S4096x28 .f32) (harg6 : arg6.IsWhole) (hc0 : condFirst i) (hc1 : ¬condLast i)
    (x0 : Vec F S4096x2048 .bf16) (x1 : Vec F S2048x28 .f32) (x2 : Vec F S1x28 .f32) :
    { LS : List (View.Piece (Elt F) S4096x28 .f32) //
      ∀ (xi3 : Vec F S4096x28 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc2_kernel i arg2 harg2 arg3 harg3 arg4 harg4 arg5 harg5 arg6 harg6) K } := by
  refine ⟨?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Reg2

end
-- ==== Proof.KI_R2RunB.lean ====
/-
  Region 2's kernel body run whole at a middle reduction step (the accumulator takes one more partial product; nothing is stored into the output block, which is handed back untouched): on whole staging memrefs at given contents the body runs to its
  continuation, the inputs as they were and each buffer it stored into with its stores written; the list of those
  stores is the witness the run finds.
-/
import proofs.«155634_j8117488189610_2_alg».proof.Proof.KI_R2RunA

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun_B (c : Dev nD) (i : grid2.Coords) (arg2 : Memref sig .tc .vmem S4096x2048 .bf16) (harg2 : arg2.IsWhole) (arg3 : Memref sig .tc .vmem S2048x28 .f32) (harg3 : arg3.IsWhole) (arg4 : Memref sig .tc .vmem S1x28 .f32) (harg4 : arg4.IsWhole) (arg5 : Memref sig .tc .vmem S4096x28 .f32) (harg5 : arg5.IsWhole) (arg6 : Memref sig .tc .vmem S4096x28 .f32) (harg6 : arg6.IsWhole) (hc0 : ¬condFirst i) (hc1 : ¬condLast i)
    (x0 : Vec F S4096x2048 .bf16) (x1 : Vec F S2048x28 .f32) (x2 : Vec F S1x28 .f32) (xs : Vec F S4096x28 .f32) :
    { LS : List (View.Piece (Elt F) S4096x28 .f32) //
      ∀ (xi3 : Vec F S4096x28 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc2_kernel i arg2 harg2 arg3 harg3 arg4 harg4 arg5 harg5 arg6 harg6) K } := by
  refine ⟨?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Reg2

end
-- ==== Proof.KI_R2RunC.lean ====
/-
  Region 2's kernel body run whole at the last reduction step (the accumulator takes the last partial product, then the bias row is added, the epilogue applied and the output block stored whole): on whole staging memrefs at given contents the body runs to its
  continuation, the inputs as they were and each buffer it stored into with its stores written; the list of those
  stores is the witness the run finds.
-/
import proofs.«155634_j8117488189610_2_alg».proof.Proof.KI_R2RunB

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun_C (c : Dev nD) (i : grid2.Coords) (arg2 : Memref sig .tc .vmem S4096x2048 .bf16) (harg2 : arg2.IsWhole) (arg3 : Memref sig .tc .vmem S2048x28 .f32) (harg3 : arg3.IsWhole) (arg4 : Memref sig .tc .vmem S1x28 .f32) (harg4 : arg4.IsWhole) (arg5 : Memref sig .tc .vmem S4096x28 .f32) (harg5 : arg5.IsWhole) (arg6 : Memref sig .tc .vmem S4096x28 .f32) (harg6 : arg6.IsWhole) (hc0 : ¬condFirst i) (hc1 : condLast i)
    (x0 : Vec F S4096x2048 .bf16) (x1 : Vec F S2048x28 .f32) (x2 : Vec F S1x28 .f32) (xs : Vec F S4096x28 .f32) :
    Σ' (LO : List (View.Piece (Elt F) S4096x28 .f32)), { LS : List (View.Piece (Elt F) S4096x28 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc2_kernel i arg2 harg2 arg3 harg3 arg4 harg4 arg5 harg5 arg6 harg6) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Reg2

end
-- ==== Proof.KI_R2Dat.lean ====
/-
  Region 2's proof data and body obligation, over any contents `V` the region may be entered from.
  What the buffers hold after the body at each grid point is stated by recursion on the point: at reduction step 0
  the accumulator is what the first case's run leaves from the point's three input blocks; at a later step, what that
  step's case leaves from the input blocks and the accumulator of the point before; the output block is stored (whole)
  at the last step only, and at every other point its staging buffer is handed back as found. The invariant carried
  from point to point is the accumulator at these contents, beside the other scoped buffers and the generator
  register at anything.
-/
import proofs.«155634_j8117488189610_2_alg».proof.Proof.KI_R2RunC

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before_0_of {c : Dev nD} (dat : Dat τ (Elt F) Unit ℕ (Pipeline.UD sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_1_of {c : Dev nD} (dat : Dat τ (Elt F) Unit ℕ (Pipeline.UD sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_2_of {c : Dev nD} (dat : Dat τ (Elt F) Unit ℕ (Pipeline.UD sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

theorem scover_A (c : Dev nD) (i : grid2.Coords) (arg2 : Memref sig .tc .vmem S4096x2048 .bf16) (harg2 : arg2.IsWhole) (arg3 : Memref sig .tc .vmem S2048x28 .f32) (harg3 : arg3.IsWhole) (arg4 : Memref sig .tc .vmem S1x28 .f32) (harg4 : arg4.IsWhole) (arg5 : Memref sig .tc .vmem S4096x28 .f32) (harg5 : arg5.IsWhole) (arg6 : Memref sig .tc .vmem S4096x28 .f32) (harg6 : arg6.IsWhole) (hc0 : condFirst i) (hc1 : ¬condLast i) (x0 : Vec F S4096x2048 .bf16) (x1 : Vec F S2048x28 .f32) (x2 : Vec F S1x28 .f32) (y : S4096x28.Idx) :
    ∃ pc ∈ (kernelRun_A c i arg2 harg2 arg3 harg3 arg4 harg4 arg5 harg5 arg6 harg6 hc0 hc1 x0 x1 x2).1, y ∈ pc.1.set :=
  View.cover_of_tiledL (kernelRun_A c i arg2 harg2 arg3 harg3 arg4 harg4 arg5 harg5 arg6 harg6 hc0 hc1 x0 x1 x2).1 S4096x28.size (by sl_kernel_rfl) y
/-- The accumulator after a point of reduction step 0. -/
def sout_A (c : Dev nD) (i : grid2.Coords) (arg2 : Memref sig .tc .vmem S4096x2048 .bf16) (harg2 : arg2.IsWhole) (arg3 : Memref sig .tc .vmem S2048x28 .f32) (harg3 : arg3.IsWhole) (arg4 : Memref sig .tc .vmem S1x28 .f32) (harg4 : arg4.IsWhole) (arg5 : Memref sig .tc .vmem S4096x28 .f32) (harg5 : arg5.IsWhole) (arg6 : Memref sig .tc .vmem S4096x28 .f32) (harg6 : arg6.IsWhole) (hc0 : condFirst i) (hc1 : ¬condLast i) (x0 : Vec F S4096x2048 .bf16) (x1 : Vec F S2048x28 .f32) (x2 : Vec F S1x28 .f32) : Vec F S4096x28 .f32 :=
  VS.read (Elt F) (VS.writes (Elt F) VS.junk (kernelRun_A c i arg2 harg2 arg3 harg3 arg4 harg4 arg5 harg5 arg6 harg6 hc0 hc1 x0 x1 x2).1)

theorem scover_B (c : Dev nD) (i : grid2.Coords) (arg2 : Memref sig .tc .vmem S4096x2048 .bf16) (harg2 : arg2.IsWhole) (arg3 : Memref sig .tc .vmem S2048x28 .f32) (harg3 : arg3.IsWhole) (arg4 : Memref sig .tc .vmem S1x28 .f32) (harg4 : arg4.IsWhole) (arg5 : Memref sig .tc .vmem S4096x28 .f32) (harg5 : arg5.IsWhole) (arg6 : Memref sig .tc .vmem S4096x28 .f32) (harg6 : arg6.IsWhole) (hc0 : ¬condFirst i) (hc1 : ¬condLast i) (x0 : Vec F S4096x2048 .bf16) (x1 : Vec F S2048x28 .f32) (x2 : Vec F S1x28 .f32) (xs : Vec F S4096x28 .f32) (y : S4096x28.Idx) :
    ∃ pc ∈ (kernelRun_B c i arg2 harg2 arg3 harg3 arg4 harg4 arg5 harg5 arg6 harg6 hc0 hc1 x0 x1 x2 xs).1, y ∈ pc.1.set :=
  View.cover_of_tiledL (kernelRun_B c i arg2 harg2 arg3 harg3 arg4 harg4 arg5 harg5 arg6 harg6 hc0 hc1 x0 x1 x2 xs).1 S4096x28.size (by sl_kernel_rfl) y
/-- The accumulator after a point of a middle reduction step. -/
def sout_B (c : Dev nD) (i : grid2.Coords) (arg2 : Memref sig .tc .vmem S4096x2048 .bf16) (harg2 : arg2.IsWhole) (arg3 : Memref sig .tc .vmem S2048x28 .f32) (harg3 : arg3.IsWhole) (arg4 : Memref sig .tc .vmem S1x28 .f32) (harg4 : arg4.IsWhole) (arg5 : Memref sig .tc .vmem S4096x28 .f32) (harg5 : arg5.IsWhole) (arg6 : Memref sig .tc .vmem S4096x28 .f32) (harg6 : arg6.IsWhole) (hc0 : ¬condFirst i) (hc1 : ¬condLast i) (x0 : Vec F S4096x2048 .bf16) (x1 : Vec F S2048x28 .f32) (x2 : Vec F S1x28 .f32) (xs : Vec F S4096x28 .f32) : Vec F S4096x28 .f32 :=
  VS.read (Elt F) (VS.writes (Elt F) VS.junk (kernelRun_B c i arg2 harg2 arg3 harg3 arg4 harg4 arg5 harg5 arg6 harg6 hc0 hc1 x0 x1 x2 xs).1)

theorem cover_C (c : Dev nD) (i : grid2.Coords) (arg2 : Memref sig .tc .vmem S4096x2048 .bf16) (harg2 : arg2.IsWhole) (arg3 : Memref sig .tc .vmem S2048x28 .f32) (harg3 : arg3.IsWhole) (arg4 : Memref sig .tc .vmem S1x28 .f32) (harg4 : arg4.IsWhole) (arg5 : Memref sig .tc .vmem S4096x28 .f32) (harg5 : arg5.IsWhole) (arg6 : Memref sig .tc .vmem S4096x28 .f32) (harg6 : arg6.IsWhole) (hc0 : ¬condFirst i) (hc1 : condLast i) (x0 : Vec F S4096x2048 .bf16) (x1 : Vec F S2048x28 .f32) (x2 : Vec F S1x28 .f32) (xs : Vec F S4096x28 .f32) (y : S4096x28.Idx) :
    ∃ pc ∈ (kernelRun_C c i arg2 harg2 arg3 harg3 arg4 harg4 arg5 harg5 arg6 harg6 hc0 hc1 x0 x1 x2 xs).1, y ∈ pc.1.set :=
  View.cover_of_tiledL (kernelRun_C c i arg2 harg2 arg3 harg3 arg4 harg4 arg5 harg5 arg6 harg6 hc0 hc1 x0 x1 x2 xs).1 S4096x28.size (by sl_kernel_rfl) y
/-- The output block stored at a point of the last reduction step. -/
def out_C (c : Dev nD) (i : grid2.Coords) (arg2 : Memref sig .tc .vmem S4096x2048 .bf16) (harg2 : arg2.IsWhole) (arg3 : Memref sig .tc .vmem S2048x28 .f32) (harg3 : arg3.IsWhole) (arg4 : Memref sig .tc .vmem S1x28 .f32) (harg4 : arg4.IsWhole) (arg5 : Memref sig .tc .vmem S4096x28 .f32) (harg5 : arg5.IsWhole) (arg6 : Memref sig .tc .vmem S4096x28 .f32) (harg6 : arg6.IsWhole) (hc0 : ¬condFirst i) (hc1 : condLast i) (x0 : Vec F S4096x2048 .bf16) (x1 : Vec F S2048x28 .f32) (x2 : Vec F S1x28 .f32) (xs : Vec F S4096x28 .f32) : Vec F S4096x28 .f32 :=
  VO.read (Elt F) (VO.writes (Elt F) VO.junk (kernelRun_C c i arg2 harg2 arg3 harg3 arg4 harg4 arg5 harg5 arg6 harg6 hc0 hc1 x0 x1 x2 xs).1)
theorem scover_C (c : Dev nD) (i : grid2.Coords) (arg2 : Memref sig .tc .vmem S4096x2048 .bf16) (harg2 : arg2.IsWhole) (arg3 : Memref sig .tc .vmem S2048x28 .f32) (harg3 : arg3.IsWhole) (arg4 : Memref sig .tc .vmem S1x28 .f32) (harg4 : arg4.IsWhole) (arg5 : Memref sig .tc .vmem S4096x28 .f32) (harg5 : arg5.IsWhole) (arg6 : Memref sig .tc .vmem S4096x28 .f32) (harg6 : arg6.IsWhole) (hc0 : ¬condFirst i) (hc1 : condLast i) (x0 : Vec F S4096x2048 .bf16) (x1 : Vec F S2048x28 .f32) (x2 : Vec F S1x28 .f32) (xs : Vec F S4096x28 .f32) (y : S4096x28.Idx) :
    ∃ pc ∈ (kernelRun_C c i arg2 harg2 arg3 harg3 arg4 harg4 arg5 harg5 arg6 harg6 hc0 hc1 x0 x1 x2 xs).2.1, y ∈ pc.1.set :=
  View.cover_of_tiledL (kernelRun_C c i arg2 harg2 arg3 harg3 arg4 harg4 arg5 harg5 arg6 harg6 hc0 hc1 x0 x1 x2 xs).2.1 S4096x28.size (by sl_kernel_rfl) y
/-- The accumulator after a point of the last reduction step. -/
def sout_C (c : Dev nD) (i : grid2.Coords) (arg2 : Memref sig .tc .vmem S4096x2048 .bf16) (harg2 : arg2.IsWhole) (arg3 : Memref sig .tc .vmem S2048x28 .f32) (harg3 : arg3.IsWhole) (arg4 : Memref sig .tc .vmem S1x28 .f32) (harg4 : arg4.IsWhole) (arg5 : Memref sig .tc .vmem S4096x28 .f32) (harg5 : arg5.IsWhole) (arg6 : Memref sig .tc .vmem S4096x28 .f32) (harg6 : arg6.IsWhole) (hc0 : ¬condFirst i) (hc1 : condLast i) (x0 : Vec F S4096x2048 .bf16) (x1 : Vec F S2048x28 .f32) (x2 : Vec F S1x28 .f32) (xs : Vec F S4096x28 .f32) : Vec F S4096x28 .f32 :=
  VS.read (Elt F) (VS.writes (Elt F) VS.junk (kernelRun_C c i arg2 harg2 arg3 harg3 arg4 harg4 arg5 harg5 arg6 harg6 hc0 hc1 x0 x1 x2 xs).2.1)

/-- A placeholder for the output block's staging buffer at a point where nothing is stored into it and it is not
    written back: nothing consults it. -/
def outIdle : Vec F S4096x28 .f32 := VO.read (Elt F) VO.junk

/-! ## What the output block and the accumulator hold after each point -/

/-- After the body at position `n`: (the output window's staging buffer, the accumulator). -/
def outsAt (c : Dev nD) : (n : ℕ) → n < cfg2.N → Vec F S4096x28 .f32 × Vec F S4096x28 .f32
  | 0, hn => (outIdle, sout_A c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩))
  | n + 1, hn =>
    if h0 : (n + 1) % 4 = 0 then
      if h1 : (n + 1) % 4 = 3 then
        False.elim (by omega)
      else
        (outIdle, sout_A c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩) (iblk V c 2 ⟨n + 1, hn⟩))
    else
      if h1 : (n + 1) % 4 = 3 then
        (out_C c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2,
         sout_C c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        (outIdle, sout_B c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2)

theorem outsAt_A (c : Dev nD) (t : Fin cfg2.N) (h0 : t.val % 4 = 0) (h1 : ¬t.val % 4 = 3) :
    outsAt V c t.val t.isLt = (outIdle, sout_A c (grid2.coords t) (ms_0 t) (hs_0 t) (ms_1 t) (hs_1 t) (ms_2 t) (hs_2 t) (ms_3 t) (hs_3 t) scM (Memref.isWhole_whole _) ((hcondFirst t).mpr h0) (fun h => h1 ((hcondLast t).mp h)) (iblk V c 0 t) (iblk V c 1 t) (iblk V c 2 t)) := by
  obtain ⟨n, hn⟩ := t
  cases n with
  | zero => exact rfl
  | succ n => exact (dif_pos h0).trans ((dif_neg h1).trans rfl)

theorem outsAt_B (c : Dev nD) (t : Fin cfg2.N) (h0 : ¬t.val % 4 = 0) (h1 : ¬t.val % 4 = 3) :
    outsAt V c t.val t.isLt = (outIdle, sout_B c (grid2.coords t) (ms_0 t) (hs_0 t) (ms_1 t) (hs_1 t) (ms_2 t) (hs_2 t) (ms_3 t) (hs_3 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg2.N) (h0 : ¬t.val % 4 = 0) (h1 : t.val % 4 = 3) :
    outsAt V c t.val t.isLt = (out_C c (grid2.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2,
      sout_C c (grid2.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant carried from point to point -/

def PhiS (c : Dev nD) : (n : ℕ) → n ≤ cfg2.N → sProp 𝕄
  | 0, _ => Pipeline.ΦA spec2 c
  | n + 1, hn => iprop(iprop(owns (c : Thread nD τ) scM fullShare ((outsAt V c n hn).2) ∗ others c) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(owns (c : Thread nD τ) scM fullShare ((outsAt V c n hn).2) ∗ others c) ∗ (∃ r, prngReg c r)) := rfl
theorem PhiS_pos (c : Dev nD) (n : ℕ) (h : n ≤ cfg2.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The proof data -/

def dat (c : Dev nD) : Dat τ (Elt F) Unit ℕ (Pipeline.UD sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]
theorem PhiS_castSucc (c : Dev nD) (t : Fin cfg2.N) :
    (dat V c).Φ t.castSucc = PhiS V c t.val (Nat.le_of_lt t.isLt) := by
  dsimp only [dat]; simp only [Fin.coe_castSucc]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = (outsAt V c t.val t.isLt).1 := by dsimp only [dat]
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d

/-! ## The body obligation -/

def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 8 := lt_of_lt_of_eq t.isLt (show cfg2.N = 8 from N_2)
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [show (dat V c).leavesExact 2 t = owns (c : Thread nD τ) (ms_2 t) fullShare ((dat V c).after 2 t) from by
    unfold Dat.leavesExact; rw [live_2 t], after_2]
  by_cases h0 : t.val % 4 = 0
  · by_cases h1 : t.val % 4 = 3
    · exfalso; omega
    · rw [Dat.leavesExact_idle (dat V c) 3 t (idle_3 t (fun h => h1 ((hcondLast t).mp h))) (noFlush_3 t (fun h => h1 ((hcondLast t).mp h)))]
      rw [outsAt_A V c t h0 h1]
      unfold sout_A; (try dsimp only)
      by_cases hz : t.val = 0
      · rw [PhiS_castSucc V c t, PhiS_zero V c _ _ hz, PhiA_eq]
        iintro ⟨⟨⟨HS, Hoth⟩, Hg⟩, Ho, ⟨%d0, H0⟩, ⟨%d1, H1⟩, ⟨%d2, H2⟩, ⟨%d3, H3⟩⟩
        iapply ((kernelRun_A c (grid2.coords t) _ _ _ _ _ _ _ _ _ _ ((hcondFirst t).mpr h0) (fun h => h1 ((hcondLast t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (scover_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((kernelRun_A c (grid2.coords t) _ _ _ _ _ _ _ _ _ _ ((hcondFirst t).mpr h0) (fun h => h1 ((hcondLast t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (scover_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 4 = 3
    · rw [show (dat V c).leavesExact 3 t = owns (c : Thread nD τ) (ms_3 t) fullShare ((dat V c).after 3 t) from by
        unfold Dat.leavesExact; rw [live_3 t ((hcondLast t).mpr h1)], after_3]
      rw [outsAt_C V c t h0 h1]
      unfold out_C sout_C; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((kernelRun_C c (grid2.coords t) _ _ _ _ _ _ _ _ _ _ (fun h => h0 ((hcondFirst t).mp h)) ((hcondLast t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (scover_C c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_C c _ _ _ _ _ _ _ _ _ _ _ _ _ _ _ _ _)
    · rw [Dat.leavesExact_idle (dat V c) 3 t (idle_3 t (fun h => h1 ((hcondLast t).mp h))) (noFlush_3 t (fun h => h1 ((hcondLast t).mp h)))]
      rw [outsAt_B V c t h0 h1]
      unfold sout_B; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((kernelRun_B c (grid2.coords t) _ _ _ _ _ _ _ _ _ _ (fun h => h0 ((hcondFirst t).mp h)) (fun h => h1 ((hcondLast t).mp h)) (iblk V c 0 t) (iblk V c 1 t) (iblk V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (scover_B c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the accumulator's contents are forgotten. -/
theorem hout (c : Dev nD) : (dat V c).Φ (Fin.last cfg2.N) ⊢ Pipeline.ΦA spec2 c := by
  have hne : (Fin.last cfg2.N).val ≠ 0 := by rw [Fin.val_last]; have : cfg2.N = 8 := N_2; omega
  rw [show (dat V c).Φ (Fin.last cfg2.N) = PhiS V c (Fin.last cfg2.N).val (Nat.le_of_lt_succ (Fin.last cfg2.N).isLt) from rfl, PhiS_pos V c _ _ hne, PhiA_eq]
  iintro ⟨⟨HS, Hoth⟩, Hg⟩
  isplitl [HS Hoth]
  · isplitl [HS]
    · iexists _; iexact HS
    iexact Hoth
  iexact Hg

end Cert.KernelIdeal.Reg2

end
-- ==== Proof.KI_R3Runs.lean ====
/-
  Region 3 of the program (one pass "adjacency block times right factor, accumulated over the reduction axis"):
  what the per-case runs of its kernel body and its proof data share. The grid is (row blocks) × (4 reduction steps),
  the reduction step the fast axis, so a point's step is its number mod 4. The body's first conditional (reset the
  accumulator) is taken exactly at step 0, its second (add the bias row, apply the epilogue, store the output block)
  exactly at step 3; the output window is idle, and not written back, at every other step. The accumulator is a
  scratch buffer of the kernel's own, carried from one point to the next.
-/
import proofs.«155634_j8117488189610_2_alg».proof.Proof.Gen.KernelIdeal.Launch
import proofs.«155634_j8117488189610_2_alg».proof.Proof.Gen.KernelIdeal.Skeleton
import proofs.«155634_j8117488189610_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's branch conditions, in closed form over the grid -/

/-- The first conditional's condition: the reduction step is 0. -/
abbrev condFirst (i : grid3.Coords) : Prop := (Scalar.cmpi .ne (Scalar.extui (Scalar.cmpi .eq (BitVec.ofNat 32 (i 1).val) 0#32)) 0#32) = 1#1
theorem hcondFirst : ∀ t : Fin cfg3.N, condFirst (grid3.coords t) ↔ t.val % 4 = 0 :=
  (by decide +kernel : ∀ t : Fin grid3.N, condFirst (grid3.coords t) ↔ t.val % 4 = 0)

/-- The second conditional's condition: the reduction step is the last one. -/
abbrev condLast (i : grid3.Coords) : Prop := k3_cond2 i = 1#1
theorem hcondLast : ∀ t : Fin cfg3.N, condLast (grid3.coords t) ↔ t.val % 4 = 3 :=
  (by decide +kernel : ∀ t : Fin grid3.N, condLast (grid3.coords t) ↔ t.val % 4 = 3)

/-! ## Where the windows are idle -/

theorem live_0 : ∀ t : Fin cfg3.N, cfg3.idle 0 (grid3.coords t) = false := by decide +kernel
theorem live_1 : ∀ t : Fin cfg3.N, cfg3.idle 1 (grid3.coords t) = false := by decide +kernel
theorem live_2 : ∀ t : Fin cfg3.N, cfg3.idle 2 (grid3.coords t) = false := by decide +kernel
/-- Away from the last reduction step the body stores nothing into the output block, -/
theorem idle_3 : ∀ t : Fin cfg3.N, ¬condLast (grid3.coords t) → cfg3.idle 3 (grid3.coords t) = true := by decide +kernel
/-- and the pipeline does not write it back there; -/
theorem noFlush_3 : ∀ t : Fin cfg3.N, ¬condLast (grid3.coords t) → (cfg3.win 3).flush t = false := by decide +kernel
/-- at the last step it is stored whole. -/
theorem live_3 : ∀ t : Fin cfg3.N, condLast (grid3.coords t) → cfg3.idle 3 (grid3.coords t) = false := by decide +kernel

/-! ## The memrefs the body is called with -/

abbrev ms_0 (t : Fin cfg3.N) : Memref sig .tc .vmem S4096x2048 .bf16 := win3_0.stage (cfg3.slots t 0)
abbrev hs_0 (t : Fin cfg3.N) : (ms_0 t).IsWhole := hstage3_0 ((cfg3.slots t 0).cast nbuf3_0)
abbrev ms_1 (t : Fin cfg3.N) : Memref sig .tc .vmem S2048x20 .f32 := win3_1.stage (cfg3.slots t 1)
abbrev hs_1 (t : Fin cfg3.N) : (ms_1 t).IsWhole := hstage3_1 ((cfg3.slots t 1).cast nbuf3_1)
abbrev ms_2 (t : Fin cfg3.N) : Memref sig .tc .vmem S1x20 .f32 := win3_2.stage (cfg3.slots t 2)
abbrev hs_2 (t : Fin cfg3.N) : (ms_2 t).IsWhole := hstage3_2 ((cfg3.slots t 2).cast nbuf3_2)
abbrev ms_3 (t : Fin cfg3.N) : Memref sig .tc .vmem S4096x20 .f32 := win3_3.stage (cfg3.slots t 3)
abbrev hs_3 (t : Fin cfg3.N) : (ms_3 t).IsWhole := hstage3_3 ((cfg3.slots t 3).cast nbuf3_3)
/-- The accumulator: a whole scoped buffer of the kernel's own. -/
abbrev scM : Memref sig .tc .vmem S4096x20 .f32 := Memref.whole cc3_scratch0
/-- One staging buffer of the output window, through which its contents are stated. -/
abbrev VO : View sig .tc .vmem S4096x20 .f32 := (Memref.whole cc3_stg3_0 : Memref sig .tc .vmem S4096x20 .f32).view
abbrev VS : View sig .tc .vmem S4096x20 .f32 := scM.view

/-- What rides beside the accumulator through the region: every other scoped buffer of the core that no window of
    this region stages (the other regions' staging buffers and accumulators), each at some contents. -/
abbrev others (c : Dev nD) : sProp 𝕄 :=
  Pipeline.scopedRestBut (Ix := Unit) (Name := ℕ) (U := Pipeline.UD sig nD τ) (Lvl := ℕ) (Val := Elt F) spec3 c [cc3_scratch0]

/-- The class invariant (the scoped rest at anything, the generator register at some state) with the accumulator
    split out as a memref owned at some contents. -/
theorem PhiA_eq (c : Dev nD) :
    (Pipeline.ΦA spec3 c : sProp 𝕄)
      = iprop(iprop((∃ d, owns (c : Thread nD τ) scM fullShare d) ∗ others c) ∗ (∃ r, prngReg c r)) := by
  unfold Pipeline.ΦA; rw [scopedRest3_split]; simp only [scM, owns_whole]; try rfl

end Cert.KernelIdeal.Reg3

end
-- ==== Proof.KI_R3RunA.lean ====
/-
  Region 3's kernel body run whole at reduction step 0 (the accumulator, found at anything, is reset and takes the first partial product; nothing is stored into the output block, which is handed back untouched): on whole staging memrefs at given contents the body runs to its
  continuation, the inputs as they were and each buffer it stored into with its stores written; the list of those
  stores is the witness the run finds.
-/
import proofs.«155634_j8117488189610_2_alg».proof.Proof.KI_R3Runs

set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun_A (c : Dev nD) (i : grid3.Coords) (arg2 : Memref sig .tc .vmem S4096x2048 .bf16) (harg2 : arg2.IsWhole) (arg3 : Memref sig .tc .vmem S2048x20 .f32) (harg3 : arg3.IsWhole) (arg4 : Memref sig .tc .vmem S1x20 .f32) (harg4 : arg4.IsWhole) (arg5 : Memref sig .tc .vmem S4096x20 .f32) (harg5 : arg5.IsWhole) (arg6 : Memref sig .tc .vmem S4096x20 .f32) (harg6 : arg6.IsWhole) (hc0 : condFirst i) (hc1 : ¬condLast i)
    (x0 : Vec F S4096x2048 .bf16) (x1 : Vec F S2048x20 .f32) (x2 : Vec F S1x20 .f32) :
    { LS : List (View.Piece (Elt F) S4096x20 .f32) //
      ∀ (xi3 : Vec F S4096x20 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc3_kernel i arg2 harg2 arg3 harg3 arg4 harg4 arg5 harg5 arg6 harg6) K } := by
  refine ⟨?_, fun xi3 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Reg3

end
-- ==== Proof.KI_R3RunB.lean ====
/-
  Region 3's kernel body run whole at a middle reduction step (the accumulator takes one more partial product; nothing is stored into the output block, which is handed back untouched): on whole staging memrefs at given contents the body runs to its
  continuation, the inputs as they were and each buffer it stored into with its stores written; the list of those
  stores is the witness the run finds.
-/
import proofs.«155634_j8117488189610_2_alg».proof.Proof.KI_R3RunA

set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun_B (c : Dev nD) (i : grid3.Coords) (arg2 : Memref sig .tc .vmem S4096x2048 .bf16) (harg2 : arg2.IsWhole) (arg3 : Memref sig .tc .vmem S2048x20 .f32) (harg3 : arg3.IsWhole) (arg4 : Memref sig .tc .vmem S1x20 .f32) (harg4 : arg4.IsWhole) (arg5 : Memref sig .tc .vmem S4096x20 .f32) (harg5 : arg5.IsWhole) (arg6 : Memref sig .tc .vmem S4096x20 .f32) (harg6 : arg6.IsWhole) (hc0 : ¬condFirst i) (hc1 : ¬condLast i)
    (x0 : Vec F S4096x2048 .bf16) (x1 : Vec F S2048x20 .f32) (x2 : Vec F S1x20 .f32) (xs : Vec F S4096x20 .f32) :
    { LS : List (View.Piece (Elt F) S4096x20 .f32) //
      ∀ (xi3 : Vec F S4096x20 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc3_kernel i arg2 harg2 arg3 harg3 arg4 harg4 arg5 harg5 arg6 harg6) K } := by
  refine ⟨?_, fun xi3 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Reg3

end
-- ==== Proof.KI_R3RunC.lean ====
/-
  Region 3's kernel body run whole at the last reduction step (the accumulator takes the last partial product, then the bias row is added, the epilogue applied and the output block stored whole): on whole staging memrefs at given contents the body runs to its
  continuation, the inputs as they were and each buffer it stored into with its stores written; the list of those
  stores is the witness the run finds.
-/
import proofs.«155634_j8117488189610_2_alg».proof.Proof.KI_R3RunB

set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun_C (c : Dev nD) (i : grid3.Coords) (arg2 : Memref sig .tc .vmem S4096x2048 .bf16) (harg2 : arg2.IsWhole) (arg3 : Memref sig .tc .vmem S2048x20 .f32) (harg3 : arg3.IsWhole) (arg4 : Memref sig .tc .vmem S1x20 .f32) (harg4 : arg4.IsWhole) (arg5 : Memref sig .tc .vmem S4096x20 .f32) (harg5 : arg5.IsWhole) (arg6 : Memref sig .tc .vmem S4096x20 .f32) (harg6 : arg6.IsWhole) (hc0 : ¬condFirst i) (hc1 : condLast i)
    (x0 : Vec F S4096x2048 .bf16) (x1 : Vec F S2048x20 .f32) (x2 : Vec F S1x20 .f32) (xs : Vec F S4096x20 .f32) :
    Σ' (LO : List (View.Piece (Elt F) S4096x20 .f32)), { LS : List (View.Piece (Elt F) S4096x20 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc3_kernel i arg2 harg2 arg3 harg3 arg4 harg4 arg5 harg5 arg6 harg6) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Reg3

end
-- ==== Proof.KI_R3Dat.lean ====
/-
  Region 3's proof data and body obligation, over any contents `V` the region may be entered from.
  What the buffers hold after the body at each grid point is stated by recursion on the point: at reduction step 0
  the accumulator is what the first case's run leaves from the point's three input blocks; at a later step, what that
  step's case leaves from the input blocks and the accumulator of the point before; the output block is stored (whole)
  at the last step only, and at every other point its staging buffer is handed back as found. The invariant carried
  from point to point is the accumulator at these contents, beside the other scoped buffers and the generator
  register at anything.
-/
import proofs.«155634_j8117488189610_2_alg».proof.Proof.KI_R3RunC

set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before_0_of {c : Dev nD} (dat : Dat τ (Elt F) Unit ℕ (Pipeline.UD sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_1_of {c : Dev nD} (dat : Dat τ (Elt F) Unit ℕ (Pipeline.UD sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_2_of {c : Dev nD} (dat : Dat τ (Elt F) Unit ℕ (Pipeline.UD sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

theorem scover_A (c : Dev nD) (i : grid3.Coords) (arg2 : Memref sig .tc .vmem S4096x2048 .bf16) (harg2 : arg2.IsWhole) (arg3 : Memref sig .tc .vmem S2048x20 .f32) (harg3 : arg3.IsWhole) (arg4 : Memref sig .tc .vmem S1x20 .f32) (harg4 : arg4.IsWhole) (arg5 : Memref sig .tc .vmem S4096x20 .f32) (harg5 : arg5.IsWhole) (arg6 : Memref sig .tc .vmem S4096x20 .f32) (harg6 : arg6.IsWhole) (hc0 : condFirst i) (hc1 : ¬condLast i) (x0 : Vec F S4096x2048 .bf16) (x1 : Vec F S2048x20 .f32) (x2 : Vec F S1x20 .f32) (y : S4096x20.Idx) :
    ∃ pc ∈ (kernelRun_A c i arg2 harg2 arg3 harg3 arg4 harg4 arg5 harg5 arg6 harg6 hc0 hc1 x0 x1 x2).1, y ∈ pc.1.set :=
  View.cover_of_tiledL (kernelRun_A c i arg2 harg2 arg3 harg3 arg4 harg4 arg5 harg5 arg6 harg6 hc0 hc1 x0 x1 x2).1 S4096x20.size (by sl_kernel_rfl) y
/-- The accumulator after a point of reduction step 0. -/
def sout_A (c : Dev nD) (i : grid3.Coords) (arg2 : Memref sig .tc .vmem S4096x2048 .bf16) (harg2 : arg2.IsWhole) (arg3 : Memref sig .tc .vmem S2048x20 .f32) (harg3 : arg3.IsWhole) (arg4 : Memref sig .tc .vmem S1x20 .f32) (harg4 : arg4.IsWhole) (arg5 : Memref sig .tc .vmem S4096x20 .f32) (harg5 : arg5.IsWhole) (arg6 : Memref sig .tc .vmem S4096x20 .f32) (harg6 : arg6.IsWhole) (hc0 : condFirst i) (hc1 : ¬condLast i) (x0 : Vec F S4096x2048 .bf16) (x1 : Vec F S2048x20 .f32) (x2 : Vec F S1x20 .f32) : Vec F S4096x20 .f32 :=
  VS.read (Elt F) (VS.writes (Elt F) VS.junk (kernelRun_A c i arg2 harg2 arg3 harg3 arg4 harg4 arg5 harg5 arg6 harg6 hc0 hc1 x0 x1 x2).1)

theorem scover_B (c : Dev nD) (i : grid3.Coords) (arg2 : Memref sig .tc .vmem S4096x2048 .bf16) (harg2 : arg2.IsWhole) (arg3 : Memref sig .tc .vmem S2048x20 .f32) (harg3 : arg3.IsWhole) (arg4 : Memref sig .tc .vmem S1x20 .f32) (harg4 : arg4.IsWhole) (arg5 : Memref sig .tc .vmem S4096x20 .f32) (harg5 : arg5.IsWhole) (arg6 : Memref sig .tc .vmem S4096x20 .f32) (harg6 : arg6.IsWhole) (hc0 : ¬condFirst i) (hc1 : ¬condLast i) (x0 : Vec F S4096x2048 .bf16) (x1 : Vec F S2048x20 .f32) (x2 : Vec F S1x20 .f32) (xs : Vec F S4096x20 .f32) (y : S4096x20.Idx) :
    ∃ pc ∈ (kernelRun_B c i arg2 harg2 arg3 harg3 arg4 harg4 arg5 harg5 arg6 harg6 hc0 hc1 x0 x1 x2 xs).1, y ∈ pc.1.set :=
  View.cover_of_tiledL (kernelRun_B c i arg2 harg2 arg3 harg3 arg4 harg4 arg5 harg5 arg6 harg6 hc0 hc1 x0 x1 x2 xs).1 S4096x20.size (by sl_kernel_rfl) y
/-- The accumulator after a point of a middle reduction step. -/
def sout_B (c : Dev nD) (i : grid3.Coords) (arg2 : Memref sig .tc .vmem S4096x2048 .bf16) (harg2 : arg2.IsWhole) (arg3 : Memref sig .tc .vmem S2048x20 .f32) (harg3 : arg3.IsWhole) (arg4 : Memref sig .tc .vmem S1x20 .f32) (harg4 : arg4.IsWhole) (arg5 : Memref sig .tc .vmem S4096x20 .f32) (harg5 : arg5.IsWhole) (arg6 : Memref sig .tc .vmem S4096x20 .f32) (harg6 : arg6.IsWhole) (hc0 : ¬condFirst i) (hc1 : ¬condLast i) (x0 : Vec F S4096x2048 .bf16) (x1 : Vec F S2048x20 .f32) (x2 : Vec F S1x20 .f32) (xs : Vec F S4096x20 .f32) : Vec F S4096x20 .f32 :=
  VS.read (Elt F) (VS.writes (Elt F) VS.junk (kernelRun_B c i arg2 harg2 arg3 harg3 arg4 harg4 arg5 harg5 arg6 harg6 hc0 hc1 x0 x1 x2 xs).1)

theorem cover_C (c : Dev nD) (i : grid3.Coords) (arg2 : Memref sig .tc .vmem S4096x2048 .bf16) (harg2 : arg2.IsWhole) (arg3 : Memref sig .tc .vmem S2048x20 .f32) (harg3 : arg3.IsWhole) (arg4 : Memref sig .tc .vmem S1x20 .f32) (harg4 : arg4.IsWhole) (arg5 : Memref sig .tc .vmem S4096x20 .f32) (harg5 : arg5.IsWhole) (arg6 : Memref sig .tc .vmem S4096x20 .f32) (harg6 : arg6.IsWhole) (hc0 : ¬condFirst i) (hc1 : condLast i) (x0 : Vec F S4096x2048 .bf16) (x1 : Vec F S2048x20 .f32) (x2 : Vec F S1x20 .f32) (xs : Vec F S4096x20 .f32) (y : S4096x20.Idx) :
    ∃ pc ∈ (kernelRun_C c i arg2 harg2 arg3 harg3 arg4 harg4 arg5 harg5 arg6 harg6 hc0 hc1 x0 x1 x2 xs).1, y ∈ pc.1.set :=
  View.cover_of_tiledL (kernelRun_C c i arg2 harg2 arg3 harg3 arg4 harg4 arg5 harg5 arg6 harg6 hc0 hc1 x0 x1 x2 xs).1 S4096x20.size (by sl_kernel_rfl) y
/-- The output block stored at a point of the last reduction step. -/
def out_C (c : Dev nD) (i : grid3.Coords) (arg2 : Memref sig .tc .vmem S4096x2048 .bf16) (harg2 : arg2.IsWhole) (arg3 : Memref sig .tc .vmem S2048x20 .f32) (harg3 : arg3.IsWhole) (arg4 : Memref sig .tc .vmem S1x20 .f32) (harg4 : arg4.IsWhole) (arg5 : Memref sig .tc .vmem S4096x20 .f32) (harg5 : arg5.IsWhole) (arg6 : Memref sig .tc .vmem S4096x20 .f32) (harg6 : arg6.IsWhole) (hc0 : ¬condFirst i) (hc1 : condLast i) (x0 : Vec F S4096x2048 .bf16) (x1 : Vec F S2048x20 .f32) (x2 : Vec F S1x20 .f32) (xs : Vec F S4096x20 .f32) : Vec F S4096x20 .f32 :=
  VO.read (Elt F) (VO.writes (Elt F) VO.junk (kernelRun_C c i arg2 harg2 arg3 harg3 arg4 harg4 arg5 harg5 arg6 harg6 hc0 hc1 x0 x1 x2 xs).1)
theorem scover_C (c : Dev nD) (i : grid3.Coords) (arg2 : Memref sig .tc .vmem S4096x2048 .bf16) (harg2 : arg2.IsWhole) (arg3 : Memref sig .tc .vmem S2048x20 .f32) (harg3 : arg3.IsWhole) (arg4 : Memref sig .tc .vmem S1x20 .f32) (harg4 : arg4.IsWhole) (arg5 : Memref sig .tc .vmem S4096x20 .f32) (harg5 : arg5.IsWhole) (arg6 : Memref sig .tc .vmem S4096x20 .f32) (harg6 : arg6.IsWhole) (hc0 : ¬condFirst i) (hc1 : condLast i) (x0 : Vec F S4096x2048 .bf16) (x1 : Vec F S2048x20 .f32) (x2 : Vec F S1x20 .f32) (xs : Vec F S4096x20 .f32) (y : S4096x20.Idx) :
    ∃ pc ∈ (kernelRun_C c i arg2 harg2 arg3 harg3 arg4 harg4 arg5 harg5 arg6 harg6 hc0 hc1 x0 x1 x2 xs).2.1, y ∈ pc.1.set :=
  View.cover_of_tiledL (kernelRun_C c i arg2 harg2 arg3 harg3 arg4 harg4 arg5 harg5 arg6 harg6 hc0 hc1 x0 x1 x2 xs).2.1 S4096x20.size (by sl_kernel_rfl) y
/-- The accumulator after a point of the last reduction step. -/
def sout_C (c : Dev nD) (i : grid3.Coords) (arg2 : Memref sig .tc .vmem S4096x2048 .bf16) (harg2 : arg2.IsWhole) (arg3 : Memref sig .tc .vmem S2048x20 .f32) (harg3 : arg3.IsWhole) (arg4 : Memref sig .tc .vmem S1x20 .f32) (harg4 : arg4.IsWhole) (arg5 : Memref sig .tc .vmem S4096x20 .f32) (harg5 : arg5.IsWhole) (arg6 : Memref sig .tc .vmem S4096x20 .f32) (harg6 : arg6.IsWhole) (hc0 : ¬condFirst i) (hc1 : condLast i) (x0 : Vec F S4096x2048 .bf16) (x1 : Vec F S2048x20 .f32) (x2 : Vec F S1x20 .f32) (xs : Vec F S4096x20 .f32) : Vec F S4096x20 .f32 :=
  VS.read (Elt F) (VS.writes (Elt F) VS.junk (kernelRun_C c i arg2 harg2 arg3 harg3 arg4 harg4 arg5 harg5 arg6 harg6 hc0 hc1 x0 x1 x2 xs).2.1)

/-- A placeholder for the output block's staging buffer at a point where nothing is stored into it and it is not
    written back: nothing consults it. -/
def outIdle : Vec F S4096x20 .f32 := VO.read (Elt F) VO.junk

/-! ## What the output block and the accumulator hold after each point -/

/-- After the body at position `n`: (the output window's staging buffer, the accumulator). -/
def outsAt (c : Dev nD) : (n : ℕ) → n < cfg3.N → Vec F S4096x20 .f32 × Vec F S4096x20 .f32
  | 0, hn => (outIdle, sout_A c (grid3.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩))
  | n + 1, hn =>
    if h0 : (n + 1) % 4 = 0 then
      if h1 : (n + 1) % 4 = 3 then
        False.elim (by omega)
      else
        (outIdle, sout_A c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩) (iblk V c 2 ⟨n + 1, hn⟩))
    else
      if h1 : (n + 1) % 4 = 3 then
        (out_C c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2,
         sout_C c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        (outIdle, sout_B c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2)

theorem outsAt_A (c : Dev nD) (t : Fin cfg3.N) (h0 : t.val % 4 = 0) (h1 : ¬t.val % 4 = 3) :
    outsAt V c t.val t.isLt = (outIdle, sout_A c (grid3.coords t) (ms_0 t) (hs_0 t) (ms_1 t) (hs_1 t) (ms_2 t) (hs_2 t) (ms_3 t) (hs_3 t) scM (Memref.isWhole_whole _) ((hcondFirst t).mpr h0) (fun h => h1 ((hcondLast t).mp h)) (iblk V c 0 t) (iblk V c 1 t) (iblk V c 2 t)) := by
  obtain ⟨n, hn⟩ := t
  cases n with
  | zero => exact rfl
  | succ n => exact (dif_pos h0).trans ((dif_neg h1).trans rfl)

theorem outsAt_B (c : Dev nD) (t : Fin cfg3.N) (h0 : ¬t.val % 4 = 0) (h1 : ¬t.val % 4 = 3) :
    outsAt V c t.val t.isLt = (outIdle, sout_B c (grid3.coords t) (ms_0 t) (hs_0 t) (ms_1 t) (hs_1 t) (ms_2 t) (hs_2 t) (ms_3 t) (hs_3 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg3.N) (h0 : ¬t.val % 4 = 0) (h1 : t.val % 4 = 3) :
    outsAt V c t.val t.isLt = (out_C c (grid3.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2,
      sout_C c (grid3.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant carried from point to point -/

def PhiS (c : Dev nD) : (n : ℕ) → n ≤ cfg3.N → sProp 𝕄
  | 0, _ => Pipeline.ΦA spec3 c
  | n + 1, hn => iprop(iprop(owns (c : Thread nD τ) scM fullShare ((outsAt V c n hn).2) ∗ others c) ∗ (∃ r, prngReg c r))

theorem PhiS_zero (c : Dev nD) (n : ℕ) (h : n ≤ cfg3.N) (hz : n = 0) : PhiS V c n h = Pipeline.ΦA spec3 c := by
  subst hz; rfl
theorem PhiS_succ (c : Dev nD) (n : ℕ) (hn : n < cfg3.N) :
    PhiS V c (n + 1) hn = iprop(iprop(owns (c : Thread nD τ) scM fullShare ((outsAt V c n hn).2) ∗ others c) ∗ (∃ r, prngReg c r)) := rfl
theorem PhiS_pos (c : Dev nD) (n : ℕ) (h : n ≤ cfg3.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The proof data -/

def dat (c : Dev nD) : Dat τ (Elt F) Unit ℕ (Pipeline.UD sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]
theorem PhiS_castSucc (c : Dev nD) (t : Fin cfg3.N) :
    (dat V c).Φ t.castSucc = PhiS V c t.val (Nat.le_of_lt t.isLt) := by
  dsimp only [dat]; simp only [Fin.coe_castSucc]
theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = (outsAt V c t.val t.isLt).1 := by dsimp only [dat]
theorem before_0 (c : Dev nD) (t : Fin cfg3.N) (d) : (dat V c).before 0 t d = iblk V c 0 t :=
  before_0_of V (dat V c) (A_eq V c 0) (after_0 V c) t d
theorem before_1 (c : Dev nD) (t : Fin cfg3.N) (d) : (dat V c).before 1 t d = iblk V c 1 t :=
  before_1_of V (dat V c) (A_eq V c 1) (after_1 V c) t d
theorem before_2 (c : Dev nD) (t : Fin cfg3.N) (d) : (dat V c).before 2 t d = iblk V c 2 t :=
  before_2_of V (dat V c) (A_eq V c 2) (after_2 V c) t d

/-! ## The body obligation -/

def bodyPre (c : Dev nD) (t : Fin cfg3.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 8 := lt_of_lt_of_eq t.isLt (show cfg3.N = 8 from N_3)
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [show (dat V c).leavesExact 2 t = owns (c : Thread nD τ) (ms_2 t) fullShare ((dat V c).after 2 t) from by
    unfold Dat.leavesExact; rw [live_2 t], after_2]
  by_cases h0 : t.val % 4 = 0
  · by_cases h1 : t.val % 4 = 3
    · exfalso; omega
    · rw [Dat.leavesExact_idle (dat V c) 3 t (idle_3 t (fun h => h1 ((hcondLast t).mp h))) (noFlush_3 t (fun h => h1 ((hcondLast t).mp h)))]
      rw [outsAt_A V c t h0 h1]
      unfold sout_A; (try dsimp only)
      by_cases hz : t.val = 0
      · rw [PhiS_castSucc V c t, PhiS_zero V c _ _ hz, PhiA_eq]
        iintro ⟨⟨⟨HS, Hoth⟩, Hg⟩, Ho, ⟨%d0, H0⟩, ⟨%d1, H1⟩, ⟨%d2, H2⟩, ⟨%d3, H3⟩⟩
        iapply ((kernelRun_A c (grid3.coords t) _ _ _ _ _ _ _ _ _ _ ((hcondFirst t).mpr h0) (fun h => h1 ((hcondLast t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (scover_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((kernelRun_A c (grid3.coords t) _ _ _ _ _ _ _ _ _ _ ((hcondFirst t).mpr h0) (fun h => h1 ((hcondLast t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (scover_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 4 = 3
    · rw [show (dat V c).leavesExact 3 t = owns (c : Thread nD τ) (ms_3 t) fullShare ((dat V c).after 3 t) from by
        unfold Dat.leavesExact; rw [live_3 t ((hcondLast t).mpr h1)], after_3]
      rw [outsAt_C V c t h0 h1]
      unfold out_C sout_C; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((kernelRun_C c (grid3.coords t) _ _ _ _ _ _ _ _ _ _ (fun h => h0 ((hcondFirst t).mp h)) ((hcondLast t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (scover_C c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_C c _ _ _ _ _ _ _ _ _ _ _ _ _ _ _ _ _)
    · rw [Dat.leavesExact_idle (dat V c) 3 t (idle_3 t (fun h => h1 ((hcondLast t).mp h))) (noFlush_3 t (fun h => h1 ((hcondLast t).mp h)))]
      rw [outsAt_B V c t h0 h1]
      unfold sout_B; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((kernelRun_B c (grid3.coords t) _ _ _ _ _ _ _ _ _ _ (fun h => h0 ((hcondFirst t).mp h)) (fun h => h1 ((hcondLast t).mp h)) (iblk V c 0 t) (iblk V c 1 t) (iblk V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (scover_B c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W3, bigSep_W3]
  exact sound_body V c t

/-- What the launch hands the region is the invariant before the first point. -/
theorem hin (c : Dev nD) : Pipeline.ΦA spec3 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the accumulator's contents are forgotten. -/
theorem hout (c : Dev nD) : (dat V c).Φ (Fin.last cfg3.N) ⊢ Pipeline.ΦA spec3 c := by
  have hne : (Fin.last cfg3.N).val ≠ 0 := by rw [Fin.val_last]; have : cfg3.N = 8 := N_3; omega
  rw [show (dat V c).Φ (Fin.last cfg3.N) = PhiS V c (Fin.last cfg3.N).val (Nat.le_of_lt_succ (Fin.last cfg3.N).isLt) from rfl, PhiS_pos V c _ _ hne, PhiA_eq]
  iintro ⟨⟨HS, Hoth⟩, Hg⟩
  isplitl [HS Hoth]
  · isplitl [HS]
    · iexists _; iexact HS
    iexact Hoth
  iexact Hg

end Cert.KernelIdeal.Reg3

end
-- ==== Proof.KI_Run.lean ====
/-
  The whole program's run. @main is seventeen items in order: stretches of host operations and the four kernel
  regions. The contents of the core's unscoped buffers at each boundary are a fold through @main: a host stretch
  applies its operations; a region leaves each of its arrays at what its pipeline leaves there (an input as entered, an
  output with its blocks written back) and every other buffer as entered. Each region is entered from, and left at,
  "every unscoped buffer at that boundary's contents, beside the generator register and the core owing nothing"; the
  launch composes them, and the last thread state read against the final memory gives every unscoped buffer at the
  last boundary's contents. No host operation writes an argument and no region changes one, so each argument ends as
  launched.
-/
import proofs.«155634_j8117488189610_2_alg».proof.Proof.KI_R0Dat
import proofs.«155634_j8117488189610_2_alg».proof.Proof.KI_R1Dat
import proofs.«155634_j8117488189610_2_alg».proof.Proof.KI_R2Dat
import proofs.«155634_j8117488189610_2_alg».proof.Proof.KI_R3Dat
import proofs.«155634_j8117488189610_2_alg».proof.Proof.Gen.KernelIdeal.Regions
import Idealize.ShloMosaic.Lib.Pipeline.Regions
import Idealize.ShloMosaic.Lib.Pipeline.RegionsLoop

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the host stretch `hostOps0`. -/
def W1 (c : Dev nD) : Valuation τ sig (Elt F) := StableHlo.after hostOps0 (W0 m ρ c)
theorem W1_of (c : Dev nD) (r : Ref sig .tc) (h : r ∉ hostOps0_W) : W1 m ρ c (Proc.devRef .tc r) = W0 m ρ c (Proc.devRef .tc r) := by
  unfold W1; exact StableHlo.after_of_writes_sub hostOps0 _ hostOps0_writes h
abbrev V1 : (c : Dev nD) → (b : Ref sig .tc) → Buf (Elt F) ((c : Thread nD τ).loc b) := fun c b => W1 m ρ c b
/-- After region 0: its arrays at what the pipeline leaves (an input as entered, an output with its write-backs
    folded), every other buffer as entered. -/
def W2 (c : Dev nD) : Valuation τ sig (Elt F) :=
  Pipeline.withArrays spec0 c (W1 m ρ c) fun w => (Reg0.dat (V1 m ρ) c).arrAt w cfg0.N
theorem W2_arr (c : Dev nD) (w : Fin cfg0.W) :
    W2 m ρ c (Proc.devRef .tc (Pipeline.arrRef spec0 w)) = (Reg0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Reg0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host stretch `hostOps1`. -/
def W3 (c : Dev nD) : Valuation τ sig (Elt F) := StableHlo.after hostOps1 (W2 m ρ c)
theorem W3_of (c : Dev nD) (r : Ref sig .tc) (h : r ∉ hostOps1_W) : W3 m ρ c (Proc.devRef .tc r) = W2 m ρ c (Proc.devRef .tc r) := by
  unfold W3; exact StableHlo.after_of_writes_sub hostOps1 _ hostOps1_writes h
abbrev V3 : (c : Dev nD) → (b : Ref sig .tc) → Buf (Elt F) ((c : Thread nD τ).loc b) := fun c b => W3 m ρ c b
/-- After the host stretch `hostOps1_1`. -/
def W4 (c : Dev nD) : Valuation τ sig (Elt F) := StableHlo.after hostOps1_1 (W3 m ρ c)
theorem W4_of (c : Dev nD) (r : Ref sig .tc) (h : r ∉ hostOps1_1_W) : W4 m ρ c (Proc.devRef .tc r) = W3 m ρ c (Proc.devRef .tc r) := by
  unfold W4; exact StableHlo.after_of_writes_sub hostOps1_1 _ hostOps1_1_writes h
abbrev V4 : (c : Dev nD) → (b : Ref sig .tc) → Buf (Elt F) ((c : Thread nD τ).loc b) := fun c b => W4 m ρ c b
/-- After the host stretch `hostOps1_2`. -/
def W5 (c : Dev nD) : Valuation τ sig (Elt F) := StableHlo.after hostOps1_2 (W4 m ρ c)
theorem W5_of (c : Dev nD) (r : Ref sig .tc) (h : r ∉ hostOps1_2_W) : W5 m ρ c (Proc.devRef .tc r) = W4 m ρ c (Proc.devRef .tc r) := by
  unfold W5; exact StableHlo.after_of_writes_sub hostOps1_2 _ hostOps1_2_writes h
abbrev V5 : (c : Dev nD) → (b : Ref sig .tc) → Buf (Elt F) ((c : Thread nD τ).loc b) := fun c b => W5 m ρ c b
/-- After region 1: its arrays at what the pipeline leaves (an input as entered, an output with its write-backs
    folded), every other buffer as entered. -/
def W6 (c : Dev nD) : Valuation τ sig (Elt F) :=
  Pipeline.withArrays spec1 c (W5 m ρ c) fun w => (Reg1.dat (V5 m ρ) c).arrAt w cfg1.N
theorem W6_arr (c : Dev nD) (w : Fin cfg1.W) :
    W6 m ρ c (Proc.devRef .tc (Pipeline.arrRef spec1 w)) = (Reg1.dat (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (Reg1.dat (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the host stretch `hostOps2`. -/
def W7 (c : Dev nD) : Valuation τ sig (Elt F) := StableHlo.after hostOps2 (W6 m ρ c)
theorem W7_of (c : Dev nD) (r : Ref sig .tc) (h : r ∉ hostOps2_W) : W7 m ρ c (Proc.devRef .tc r) = W6 m ρ c (Proc.devRef .tc r) := by
  unfold W7; exact StableHlo.after_of_writes_sub hostOps2 _ hostOps2_writes h
abbrev V7 : (c : Dev nD) → (b : Ref sig .tc) → Buf (Elt F) ((c : Thread nD τ).loc b) := fun c b => W7 m ρ c b
/-- After the host stretch `hostOps2_1`. -/
def W8 (c : Dev nD) : Valuation τ sig (Elt F) := StableHlo.after hostOps2_1 (W7 m ρ c)
theorem W8_of (c : Dev nD) (r : Ref sig .tc) (h : r ∉ hostOps2_1_W) : W8 m ρ c (Proc.devRef .tc r) = W7 m ρ c (Proc.devRef .tc r) := by
  unfold W8; exact StableHlo.after_of_writes_sub hostOps2_1 _ hostOps2_1_writes h
abbrev V8 : (c : Dev nD) → (b : Ref sig .tc) → Buf (Elt F) ((c : Thread nD τ).loc b) := fun c b => W8 m ρ c b
/-- After the host stretch `hostOps2_2`. -/
def W9 (c : Dev nD) : Valuation τ sig (Elt F) := StableHlo.after hostOps2_2 (W8 m ρ c)
theorem W9_of (c : Dev nD) (r : Ref sig .tc) (h : r ∉ hostOps2_2_W) : W9 m ρ c (Proc.devRef .tc r) = W8 m ρ c (Proc.devRef .tc r) := by
  unfold W9; exact StableHlo.after_of_writes_sub hostOps2_2 _ hostOps2_2_writes h
abbrev V9 : (c : Dev nD) → (b : Ref sig .tc) → Buf (Elt F) ((c : Thread nD τ).loc b) := fun c b => W9 m ρ c b
/-- After region 2: its arrays at what the pipeline leaves (an input as entered, an output with its write-backs
    folded), every other buffer as entered. -/
def W10 (c : Dev nD) : Valuation τ sig (Elt F) :=
  Pipeline.withArrays spec2 c (W9 m ρ c) fun w => (Reg2.dat (V9 m ρ) c).arrAt w cfg2.N
theorem W10_arr (c : Dev nD) (w : Fin cfg2.W) :
    W10 m ρ c (Proc.devRef .tc (Pipeline.arrRef spec2 w)) = (Reg2.dat (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev V10 : (c : Dev nD) → (b : Ref sig .tc) → Buf (Elt F) ((c : Thread nD τ).loc b) := fun c b => W10 m ρ c b
theorem hF2 (c : Dev nD) (w : Fin cfg2.W) : (Reg2.dat (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)
/-- After the host stretch `hostOps3`. -/
def W11 (c : Dev nD) : Valuation τ sig (Elt F) := StableHlo.after hostOps3 (W10 m ρ c)
theorem W11_of (c : Dev nD) (r : Ref sig .tc) (h : r ∉ hostOps3_W) : W11 m ρ c (Proc.devRef .tc r) = W10 m ρ c (Proc.devRef .tc r) := by
  unfold W11; exact StableHlo.after_of_writes_sub hostOps3 _ hostOps3_writes h
abbrev V11 : (c : Dev nD) → (b : Ref sig .tc) → Buf (Elt F) ((c : Thread nD τ).loc b) := fun c b => W11 m ρ c b
/-- After region 3: its arrays at what the pipeline leaves (an input as entered, an output with its write-backs
    folded), every other buffer as entered. -/
def W12 (c : Dev nD) : Valuation τ sig (Elt F) :=
  Pipeline.withArrays spec3 c (W11 m ρ c) fun w => (Reg3.dat (V11 m ρ) c).arrAt w cfg3.N
theorem W12_arr (c : Dev nD) (w : Fin cfg3.W) :
    W12 m ρ c (Proc.devRef .tc (Pipeline.arrRef spec3 w)) = (Reg3.dat (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
abbrev V12 : (c : Dev nD) → (b : Ref sig .tc) → Buf (Elt F) ((c : Thread nD τ).loc b) := fun c b => W12 m ρ c b
theorem hF3 (c : Dev nD) (w : Fin cfg3.W) : (Reg3.dat (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)
/-- After the host stretch `hostOps4`. -/
def W13 (c : Dev nD) : Valuation τ sig (Elt F) := StableHlo.after hostOps4 (W12 m ρ c)
theorem W13_of (c : Dev nD) (r : Ref sig .tc) (h : r ∉ hostOps4_W) : W13 m ρ c (Proc.devRef .tc r) = W12 m ρ c (Proc.devRef .tc r) := by
  unfold W13; exact StableHlo.after_of_writes_sub hostOps4 _ hostOps4_writes h
abbrev V13 : (c : Dev nD) → (b : Ref sig .tc) → Buf (Elt F) ((c : Thread nD τ).loc b) := fun c b => W13 m ρ c b
/-- After the host stretch `hostOps4_1`. -/
def W14 (c : Dev nD) : Valuation τ sig (Elt F) := StableHlo.after hostOps4_1 (W13 m ρ c)
theorem W14_of (c : Dev nD) (r : Ref sig .tc) (h : r ∉ hostOps4_1_W) : W14 m ρ c (Proc.devRef .tc r) = W13 m ρ c (Proc.devRef .tc r) := by
  unfold W14; exact StableHlo.after_of_writes_sub hostOps4_1 _ hostOps4_1_writes h
abbrev V14 : (c : Dev nD) → (b : Ref sig .tc) → Buf (Elt F) ((c : Thread nD τ).loc b) := fun c b => W14 m ρ c b
/-- After the host stretch `hostOps4_2`. -/
def W15 (c : Dev nD) : Valuation τ sig (Elt F) := StableHlo.after hostOps4_2 (W14 m ρ c)
theorem W15_of (c : Dev nD) (r : Ref sig .tc) (h : r ∉ hostOps4_2_W) : W15 m ρ c (Proc.devRef .tc r) = W14 m ρ c (Proc.devRef .tc r) := by
  unfold W15; exact StableHlo.after_of_writes_sub hostOps4_2 _ hostOps4_2_writes h
abbrev V15 : (c : Dev nD) → (b : Ref sig .tc) → Buf (Elt F) ((c : Thread nD τ).loc b) := fun c b => W15 m ρ c b
/-- After the host stretch `hostOps4_3`. -/
def W16 (c : Dev nD) : Valuation τ sig (Elt F) := StableHlo.after hostOps4_3 (W15 m ρ c)
theorem W16_of (c : Dev nD) (r : Ref sig .tc) (h : r ∉ hostOps4_3_W) : W16 m ρ c (Proc.devRef .tc r) = W15 m ρ c (Proc.devRef .tc r) := by
  unfold W16; exact StableHlo.after_of_writes_sub hostOps4_3 _ hostOps4_3_writes h
abbrev V16 : (c : Dev nD) → (b : Ref sig .tc) → Buf (Elt F) ((c : Thread nD τ).loc b) := fun c b => W16 m ρ c b
/-- After the host stretch `hostOps4_4`. -/
def W17 (c : Dev nD) : Valuation τ sig (Elt F) := StableHlo.after hostOps4_4 (W16 m ρ c)
theorem W17_of (c : Dev nD) (r : Ref sig .tc) (h : r ∉ hostOps4_4_W) : W17 m ρ c (Proc.devRef .tc r) = W16 m ρ c (Proc.devRef .tc r) := by
  unfold W17; exact StableHlo.after_of_writes_sub hostOps4_4 _ hostOps4_4_writes h
abbrev V17 : (c : Dev nD) → (b : Ref sig .tc) → Buf (Elt F) ((c : Thread nD τ).loc b) := fun c b => W17 m ρ c b

/-! ## The arguments end as launched -/

theorem W17_main_arg0 (c : Dev nD) : W17 m ρ c (Proc.devRef .tc main_arg0) = m ((c : Thread nD τ).loc main_arg0) :=
  (W17_of m ρ c main_arg0 (by decide)).trans <|
  (W16_of m ρ c main_arg0 (by decide)).trans <|
  (W15_of m ρ c main_arg0 (by decide)).trans <|
  (W14_of m ρ c main_arg0 (by decide)).trans <|
  (W13_of m ρ c main_arg0 (by decide)).trans <|
  (W12_of_ne m ρ c main_arg0 (by decide)).trans <|
  (W11_of m ρ c main_arg0 (by decide)).trans <|
  (W10_of_ne m ρ c main_arg0 (by decide)).trans <|
  (W9_of m ρ c main_arg0 (by decide)).trans <|
  (W8_of m ρ c main_arg0 (by decide)).trans <|
  (W7_of m ρ c main_arg0 (by decide)).trans <|
  (W6_of_ne m ρ c main_arg0 (by decide)).trans <|
  (W5_of m ρ c main_arg0 (by decide)).trans <|
  (W4_of m ρ c main_arg0 (by decide)).trans <|
  (W3_of m ρ c main_arg0 (by decide)).trans <|
  (W2_of_ne m ρ c main_arg0 (by decide)).trans <|
  (W1_of m ρ c main_arg0 (by decide))
theorem W17_main_arg1 (c : Dev nD) : W17 m ρ c (Proc.devRef .tc main_arg1) = m ((c : Thread nD τ).loc main_arg1) :=
  (W17_of m ρ c main_arg1 (by decide)).trans <|
  (W16_of m ρ c main_arg1 (by decide)).trans <|
  (W15_of m ρ c main_arg1 (by decide)).trans <|
  (W14_of m ρ c main_arg1 (by decide)).trans <|
  (W13_of m ρ c main_arg1 (by decide)).trans <|
  (W12_of_ne m ρ c main_arg1 (by decide)).trans <|
  (W11_of m ρ c main_arg1 (by decide)).trans <|
  (W10_of_ne m ρ c main_arg1 (by decide)).trans <|
  (W9_of m ρ c main_arg1 (by decide)).trans <|
  (W8_of m ρ c main_arg1 (by decide)).trans <|
  (W7_of m ρ c main_arg1 (by decide)).trans <|
  (W6_of_ne m ρ c main_arg1 (by decide)).trans <|
  (W5_of m ρ c main_arg1 (by decide)).trans <|
  (W4_of m ρ c main_arg1 (by decide)).trans <|
  (W3_of m ρ c main_arg1 (by decide)).trans <|
  ((W2_arr m ρ c 0).trans (((Reg0.dat (V1 m ρ) c).arrAt_in 0 rfl _).trans (Reg0.A_eq (V1 m ρ) c 0))).trans <|
  (W1_of m ρ c main_arg1 (by decide))
theorem W17_main_arg2 (c : Dev nD) : W17 m ρ c (Proc.devRef .tc main_arg2) = m ((c : Thread nD τ).loc main_arg2) :=
  (W17_of m ρ c main_arg2 (by decide)).trans <|
  (W16_of m ρ c main_arg2 (by decide)).trans <|
  (W15_of m ρ c main_arg2 (by decide)).trans <|
  (W14_of m ρ c main_arg2 (by decide)).trans <|
  (W13_of m ρ c main_arg2 (by decide)).trans <|
  (W12_of_ne m ρ c main_arg2 (by decide)).trans <|
  (W11_of m ρ c main_arg2 (by decide)).trans <|
  (W10_of_ne m ρ c main_arg2 (by decide)).trans <|
  (W9_of m ρ c main_arg2 (by decide)).trans <|
  (W8_of m ρ c main_arg2 (by decide)).trans <|
  (W7_of m ρ c main_arg2 (by decide)).trans <|
  (W6_of_ne m ρ c main_arg2 (by decide)).trans <|
  (W5_of m ρ c main_arg2 (by decide)).trans <|
  (W4_of m ρ c main_arg2 (by decide)).trans <|
  (W3_of m ρ c main_arg2 (by decide)).trans <|
  (W2_of_ne m ρ c main_arg2 (by decide)).trans <|
  (W1_of m ρ c main_arg2 (by decide))
theorem W17_main_arg3 (c : Dev nD) : W17 m ρ c (Proc.devRef .tc main_arg3) = m ((c : Thread nD τ).loc main_arg3) :=
  (W17_of m ρ c main_arg3 (by decide)).trans <|
  (W16_of m ρ c main_arg3 (by decide)).trans <|
  (W15_of m ρ c main_arg3 (by decide)).trans <|
  (W14_of m ρ c main_arg3 (by decide)).trans <|
  (W13_of m ρ c main_arg3 (by decide)).trans <|
  (W12_of_ne m ρ c main_arg3 (by decide)).trans <|
  (W11_of m ρ c main_arg3 (by decide)).trans <|
  (W10_of_ne m ρ c main_arg3 (by decide)).trans <|
  (W9_of m ρ c main_arg3 (by decide)).trans <|
  (W8_of m ρ c main_arg3 (by decide)).trans <|
  (W7_of m ρ c main_arg3 (by decide)).trans <|
  (W6_of_ne m ρ c main_arg3 (by decide)).trans <|
  (W5_of m ρ c main_arg3 (by decide)).trans <|
  (W4_of m ρ c main_arg3 (by decide)).trans <|
  (W3_of m ρ c main_arg3 (by decide)).trans <|
  (W2_of_ne m ρ c main_arg3 (by decide)).trans <|
  (W1_of m ρ c main_arg3 (by decide))
theorem W17_main_arg4 (c : Dev nD) : W17 m ρ c (Proc.devRef .tc main_arg4) = m ((c : Thread nD τ).loc main_arg4) :=
  (W17_of m ρ c main_arg4 (by decide)).trans <|
  (W16_of m ρ c main_arg4 (by decide)).trans <|
  (W15_of m ρ c main_arg4 (by decide)).trans <|
  (W14_of m ρ c main_arg4 (by decide)).trans <|
  (W13_of m ρ c main_arg4 (by decide)).trans <|
  (W12_of_ne m ρ c main_arg4 (by decide)).trans <|
  (W11_of m ρ c main_arg4 (by decide)).trans <|
  (W10_of_ne m ρ c main_arg4 (by decide)).trans <|
  (W9_of m ρ c main_arg4 (by decide)).trans <|
  (W8_of m ρ c main_arg4 (by decide)).trans <|
  (W7_of m ρ c main_arg4 (by decide)).trans <|
  (W6_of_ne m ρ c main_arg4 (by decide)).trans <|
  (W5_of m ρ c main_arg4 (by decide)).trans <|
  (W4_of m ρ c main_arg4 (by decide)).trans <|
  (W3_of m ρ c main_arg4 (by decide)).trans <|
  (W2_of_ne m ρ c main_arg4 (by decide)).trans <|
  (W1_of m ρ c main_arg4 (by decide))
theorem W17_main_arg5 (c : Dev nD) : W17 m ρ c (Proc.devRef .tc main_arg5) = m ((c : Thread nD τ).loc main_arg5) :=
  (W17_of m ρ c main_arg5 (by decide)).trans <|
  (W16_of m ρ c main_arg5 (by decide)).trans <|
  (W15_of m ρ c main_arg5 (by decide)).trans <|
  (W14_of m ρ c main_arg5 (by decide)).trans <|
  (W13_of m ρ c main_arg5 (by decide)).trans <|
  (W12_of_ne m ρ c main_arg5 (by decide)).trans <|
  (W11_of m ρ c main_arg5 (by decide)).trans <|
  (W10_of_ne m ρ c main_arg5 (by decide)).trans <|
  (W9_of m ρ c main_arg5 (by decide)).trans <|
  (W8_of m ρ c main_arg5 (by decide)).trans <|
  (W7_of m ρ c main_arg5 (by decide)).trans <|
  (W6_of_ne m ρ c main_arg5 (by decide)).trans <|
  (W5_of m ρ c main_arg5 (by decide)).trans <|
  (W4_of m ρ c main_arg5 (by decide)).trans <|
  (W3_of m ρ c main_arg5 (by decide)).trans <|
  (W2_of_ne m ρ c main_arg5 (by decide)).trans <|
  (W1_of m ρ c main_arg5 (by decide))
theorem W17_main_arg6 (c : Dev nD) : W17 m ρ c (Proc.devRef .tc main_arg6) = m ((c : Thread nD τ).loc main_arg6) :=
  (W17_of m ρ c main_arg6 (by decide)).trans <|
  (W16_of m ρ c main_arg6 (by decide)).trans <|
  (W15_of m ρ c main_arg6 (by decide)).trans <|
  (W14_of m ρ c main_arg6 (by decide)).trans <|
  (W13_of m ρ c main_arg6 (by decide)).trans <|
  (W12_of_ne m ρ c main_arg6 (by decide)).trans <|
  (W11_of m ρ c main_arg6 (by decide)).trans <|
  (W10_of_ne m ρ c main_arg6 (by decide)).trans <|
  (W9_of m ρ c main_arg6 (by decide)).trans <|
  (W8_of m ρ c main_arg6 (by decide)).trans <|
  (W7_of m ρ c main_arg6 (by decide)).trans <|
  (W6_of_ne m ρ c main_arg6 (by decide)).trans <|
  (W5_of m ρ c main_arg6 (by decide)).trans <|
  (W4_of m ρ c main_arg6 (by decide)).trans <|
  (W3_of m ρ c main_arg6 (by decide)).trans <|
  (W2_of_ne m ρ c main_arg6 (by decide)).trans <|
  (W1_of m ρ c main_arg6 (by decide))
theorem W17_main_arg7 (c : Dev nD) : W17 m ρ c (Proc.devRef .tc main_arg7) = m ((c : Thread nD τ).loc main_arg7) :=
  (W17_of m ρ c main_arg7 (by decide)).trans <|
  (W16_of m ρ c main_arg7 (by decide)).trans <|
  (W15_of m ρ c main_arg7 (by decide)).trans <|
  (W14_of m ρ c main_arg7 (by decide)).trans <|
  (W13_of m ρ c main_arg7 (by decide)).trans <|
  (W12_of_ne m ρ c main_arg7 (by decide)).trans <|
  (W11_of m ρ c main_arg7 (by decide)).trans <|
  (W10_of_ne m ρ c main_arg7 (by decide)).trans <|
  (W9_of m ρ c main_arg7 (by decide)).trans <|
  (W8_of m ρ c main_arg7 (by decide)).trans <|
  (W7_of m ρ c main_arg7 (by decide)).trans <|
  (W6_of_ne m ρ c main_arg7 (by decide)).trans <|
  (W5_of m ρ c main_arg7 (by decide)).trans <|
  (W4_of m ρ c main_arg7 (by decide)).trans <|
  (W3_of m ρ c main_arg7 (by decide)).trans <|
  (W2_of_ne m ρ c main_arg7 (by decide)).trans <|
  (W1_of m ρ c main_arg7 (by decide))
theorem W17_main_arg8 (c : Dev nD) : W17 m ρ c (Proc.devRef .tc main_arg8) = m ((c : Thread nD τ).loc main_arg8) :=
  (W17_of m ρ c main_arg8 (by decide)).trans <|
  (W16_of m ρ c main_arg8 (by decide)).trans <|
  (W15_of m ρ c main_arg8 (by decide)).trans <|
  (W14_of m ρ c main_arg8 (by decide)).trans <|
  (W13_of m ρ c main_arg8 (by decide)).trans <|
  (W12_of_ne m ρ c main_arg8 (by decide)).trans <|
  (W11_of m ρ c main_arg8 (by decide)).trans <|
  (W10_of_ne m ρ c main_arg8 (by decide)).trans <|
  (W9_of m ρ c main_arg8 (by decide)).trans <|
  (W8_of m ρ c main_arg8 (by decide)).trans <|
  (W7_of m ρ c main_arg8 (by decide)).trans <|
  (W6_of_ne m ρ c main_arg8 (by decide)).trans <|
  (W5_of m ρ c main_arg8 (by decide)).trans <|
  (W4_of m ρ c main_arg8 (by decide)).trans <|
  (W3_of m ρ c main_arg8 (by decide)).trans <|
  (W2_of_ne m ρ c main_arg8 (by decide)).trans <|
  (W1_of m ρ c main_arg8 (by decide))
theorem W17_main_arg9 (c : Dev nD) : W17 m ρ c (Proc.devRef .tc main_arg9) = m ((c : Thread nD τ).loc main_arg9) :=
  (W17_of m ρ c main_arg9 (by decide)).trans <|
  (W16_of m ρ c main_arg9 (by decide)).trans <|
  (W15_of m ρ c main_arg9 (by decide)).trans <|
  (W14_of m ρ c main_arg9 (by decide)).trans <|
  (W13_of m ρ c main_arg9 (by decide)).trans <|
  (W12_of_ne m ρ c main_arg9 (by decide)).trans <|
  (W11_of m ρ c main_arg9 (by decide)).trans <|
  (W10_of_ne m ρ c main_arg9 (by decide)).trans <|
  (W9_of m ρ c main_arg9 (by decide)).trans <|
  (W8_of m ρ c main_arg9 (by decide)).trans <|
  (W7_of m ρ c main_arg9 (by decide)).trans <|
  (W6_of_ne m ρ c main_arg9 (by decide)).trans <|
  (W5_of m ρ c main_arg9 (by decide)).trans <|
  (W4_of m ρ c main_arg9 (by decide)).trans <|
  (W3_of m ρ c main_arg9 (by decide)).trans <|
  (W2_of_ne m ρ c main_arg9 (by decide)).trans <|
  (W1_of m ρ c main_arg9 (by decide))
theorem W17_main_arg10 (c : Dev nD) : W17 m ρ c (Proc.devRef .tc main_arg10) = m ((c : Thread nD τ).loc main_arg10) :=
  (W17_of m ρ c main_arg10 (by decide)).trans <|
  (W16_of m ρ c main_arg10 (by decide)).trans <|
  (W15_of m ρ c main_arg10 (by decide)).trans <|
  (W14_of m ρ c main_arg10 (by decide)).trans <|
  (W13_of m ρ c main_arg10 (by decide)).trans <|
  (W12_of_ne m ρ c main_arg10 (by decide)).trans <|
  (W11_of m ρ c main_arg10 (by decide)).trans <|
  (W10_of_ne m ρ c main_arg10 (by decide)).trans <|
  (W9_of m ρ c main_arg10 (by decide)).trans <|
  (W8_of m ρ c main_arg10 (by decide)).trans <|
  (W7_of m ρ c main_arg10 (by decide)).trans <|
  (W6_of_ne m ρ c main_arg10 (by decide)).trans <|
  (W5_of m ρ c main_arg10 (by decide)).trans <|
  (W4_of m ρ c main_arg10 (by decide)).trans <|
  (W3_of m ρ c main_arg10 (by decide)).trans <|
  (W2_of_ne m ρ c main_arg10 (by decide)).trans <|
  (W1_of m ρ c main_arg10 (by decide))
theorem W17_main_arg11 (c : Dev nD) : W17 m ρ c (Proc.devRef .tc main_arg11) = m ((c : Thread nD τ).loc main_arg11) :=
  (W17_of m ρ c main_arg11 (by decide)).trans <|
  (W16_of m ρ c main_arg11 (by decide)).trans <|
  (W15_of m ρ c main_arg11 (by decide)).trans <|
  (W14_of m ρ c main_arg11 (by decide)).trans <|
  (W13_of m ρ c main_arg11 (by decide)).trans <|
  (W12_of_ne m ρ c main_arg11 (by decide)).trans <|
  (W11_of m ρ c main_arg11 (by decide)).trans <|
  (W10_of_ne m ρ c main_arg11 (by decide)).trans <|
  (W9_of m ρ c main_arg11 (by decide)).trans <|
  (W8_of m ρ c main_arg11 (by decide)).trans <|
  (W7_of m ρ c main_arg11 (by decide)).trans <|
  (W6_of_ne m ρ c main_arg11 (by decide)).trans <|
  (W5_of m ρ c main_arg11 (by decide)).trans <|
  (W4_of m ρ c main_arg11 (by decide)).trans <|
  (W3_of m ρ c main_arg11 (by decide)).trans <|
  (W2_of_ne m ρ c main_arg11 (by decide)).trans <|
  (W1_of m ρ c main_arg11 (by decide))
theorem W17_main_arg12 (c : Dev nD) : W17 m ρ c (Proc.devRef .tc main_arg12) = m ((c : Thread nD τ).loc main_arg12) :=
  (W17_of m ρ c main_arg12 (by decide)).trans <|
  (W16_of m ρ c main_arg12 (by decide)).trans <|
  (W15_of m ρ c main_arg12 (by decide)).trans <|
  (W14_of m ρ c main_arg12 (by decide)).trans <|
  (W13_of m ρ c main_arg12 (by decide)).trans <|
  (W12_of_ne m ρ c main_arg12 (by decide)).trans <|
  (W11_of m ρ c main_arg12 (by decide)).trans <|
  (W10_of_ne m ρ c main_arg12 (by decide)).trans <|
  (W9_of m ρ c main_arg12 (by decide)).trans <|
  (W8_of m ρ c main_arg12 (by decide)).trans <|
  (W7_of m ρ c main_arg12 (by decide)).trans <|
  (W6_of_ne m ρ c main_arg12 (by decide)).trans <|
  (W5_of m ρ c main_arg12 (by decide)).trans <|
  (W4_of m ρ c main_arg12 (by decide)).trans <|
  (W3_of m ρ c main_arg12 (by decide)).trans <|
  (W2_of_ne m ρ c main_arg12 (by decide)).trans <|
  (W1_of m ρ c main_arg12 (by decide))
theorem W17_main_arg13 (c : Dev nD) : W17 m ρ c (Proc.devRef .tc main_arg13) = m ((c : Thread nD τ).loc main_arg13) :=
  (W17_of m ρ c main_arg13 (by decide)).trans <|
  (W16_of m ρ c main_arg13 (by decide)).trans <|
  (W15_of m ρ c main_arg13 (by decide)).trans <|
  (W14_of m ρ c main_arg13 (by decide)).trans <|
  (W13_of m ρ c main_arg13 (by decide)).trans <|
  (W12_of_ne m ρ c main_arg13 (by decide)).trans <|
  (W11_of m ρ c main_arg13 (by decide)).trans <|
  (W10_of_ne m ρ c main_arg13 (by decide)).trans <|
  (W9_of m ρ c main_arg13 (by decide)).trans <|
  (W8_of m ρ c main_arg13 (by decide)).trans <|
  (W7_of m ρ c main_arg13 (by decide)).trans <|
  (W6_of_ne m ρ c main_arg13 (by decide)).trans <|
  (W5_of m ρ c main_arg13 (by decide)).trans <|
  (W4_of m ρ c main_arg13 (by decide)).trans <|
  (W3_of m ρ c main_arg13 (by decide)).trans <|
  (W2_of_ne m ρ c main_arg13 (by decide)).trans <|
  (W1_of m ρ c main_arg13 (by decide))
theorem W17_main_arg14 (c : Dev nD) : W17 m ρ c (Proc.devRef .tc main_arg14) = m ((c : Thread nD τ).loc main_arg14) :=
  (W17_of m ρ c main_arg14 (by decide)).trans <|
  (W16_of m ρ c main_arg14 (by decide)).trans <|
  (W15_of m ρ c main_arg14 (by decide)).trans <|
  (W14_of m ρ c main_arg14 (by decide)).trans <|
  (W13_of m ρ c main_arg14 (by decide)).trans <|
  (W12_of_ne m ρ c main_arg14 (by decide)).trans <|
  (W11_of m ρ c main_arg14 (by decide)).trans <|
  (W10_of_ne m ρ c main_arg14 (by decide)).trans <|
  (W9_of m ρ c main_arg14 (by decide)).trans <|
  (W8_of m ρ c main_arg14 (by decide)).trans <|
  (W7_of m ρ c main_arg14 (by decide)).trans <|
  (W6_of_ne m ρ c main_arg14 (by decide)).trans <|
  (W5_of m ρ c main_arg14 (by decide)).trans <|
  (W4_of m ρ c main_arg14 (by decide)).trans <|
  (W3_of m ρ c main_arg14 (by decide)).trans <|
  (W2_of_ne m ρ c main_arg14 (by decide)).trans <|
  (W1_of m ρ c main_arg14 (by decide))
theorem W17_main_arg15 (c : Dev nD) : W17 m ρ c (Proc.devRef .tc main_arg15) = m ((c : Thread nD τ).loc main_arg15) :=
  (W17_of m ρ c main_arg15 (by decide)).trans <|
  (W16_of m ρ c main_arg15 (by decide)).trans <|
  (W15_of m ρ c main_arg15 (by decide)).trans <|
  (W14_of m ρ c main_arg15 (by decide)).trans <|
  (W13_of m ρ c main_arg15 (by decide)).trans <|
  (W12_of_ne m ρ c main_arg15 (by decide)).trans <|
  (W11_of m ρ c main_arg15 (by decide)).trans <|
  (W10_of_ne m ρ c main_arg15 (by decide)).trans <|
  (W9_of m ρ c main_arg15 (by decide)).trans <|
  (W8_of m ρ c main_arg15 (by decide)).trans <|
  (W7_of m ρ c main_arg15 (by decide)).trans <|
  (W6_of_ne m ρ c main_arg15 (by decide)).trans <|
  (W5_of m ρ c main_arg15 (by decide)).trans <|
  (W4_of m ρ c main_arg15 (by decide)).trans <|
  (W3_of m ρ c main_arg15 (by decide)).trans <|
  (W2_of_ne m ρ c main_arg15 (by decide)).trans <|
  (W1_of m ρ c main_arg15 (by decide))
theorem W17_main_arg16 (c : Dev nD) : W17 m ρ c (Proc.devRef .tc main_arg16) = m ((c : Thread nD τ).loc main_arg16) :=
  (W17_of m ρ c main_arg16 (by decide)).trans <|
  (W16_of m ρ c main_arg16 (by decide)).trans <|
  (W15_of m ρ c main_arg16 (by decide)).trans <|
  (W14_of m ρ c main_arg16 (by decide)).trans <|
  (W13_of m ρ c main_arg16 (by decide)).trans <|
  (W12_of_ne m ρ c main_arg16 (by decide)).trans <|
  (W11_of m ρ c main_arg16 (by decide)).trans <|
  (W10_of_ne m ρ c main_arg16 (by decide)).trans <|
  (W9_of m ρ c main_arg16 (by decide)).trans <|
  (W8_of m ρ c main_arg16 (by decide)).trans <|
  (W7_of m ρ c main_arg16 (by decide)).trans <|
  (W6_of_ne m ρ c main_arg16 (by decide)).trans <|
  (W5_of m ρ c main_arg16 (by decide)).trans <|
  (W4_of m ρ c main_arg16 (by decide)).trans <|
  (W3_of m ρ c main_arg16 (by decide)).trans <|
  (W2_of_ne m ρ c main_arg16 (by decide)).trans <|
  (W1_of m ρ c main_arg16 (by decide))
theorem W17_main_arg17 (c : Dev nD) : W17 m ρ c (Proc.devRef .tc main_arg17) = m ((c : Thread nD τ).loc main_arg17) :=
  (W17_of m ρ c main_arg17 (by decide)).trans <|
  (W16_of m ρ c main_arg17 (by decide)).trans <|
  (W15_of m ρ c main_arg17 (by decide)).trans <|
  (W14_of m ρ c main_arg17 (by decide)).trans <|
  (W13_of m ρ c main_arg17 (by decide)).trans <|
  (W12_of_ne m ρ c main_arg17 (by decide)).trans <|
  (W11_of m ρ c main_arg17 (by decide)).trans <|
  (W10_of_ne m ρ c main_arg17 (by decide)).trans <|
  (W9_of m ρ c main_arg17 (by decide)).trans <|
  (W8_of m ρ c main_arg17 (by decide)).trans <|
  (W7_of m ρ c main_arg17 (by decide)).trans <|
  (W6_of_ne m ρ c main_arg17 (by decide)).trans <|
  (W5_of m ρ c main_arg17 (by decide)).trans <|
  (W4_of m ρ c main_arg17 (by decide)).trans <|
  (W3_of m ρ c main_arg17 (by decide)).trans <|
  (W2_of_ne m ρ c main_arg17 (by decide)).trans <|
  (W1_of m ρ c main_arg17 (by decide))
theorem W17_main_arg18 (c : Dev nD) : W17 m ρ c (Proc.devRef .tc main_arg18) = m ((c : Thread nD τ).loc main_arg18) :=
  (W17_of m ρ c main_arg18 (by decide)).trans <|
  (W16_of m ρ c main_arg18 (by decide)).trans <|
  (W15_of m ρ c main_arg18 (by decide)).trans <|
  (W14_of m ρ c main_arg18 (by decide)).trans <|
  (W13_of m ρ c main_arg18 (by decide)).trans <|
  (W12_of_ne m ρ c main_arg18 (by decide)).trans <|
  (W11_of m ρ c main_arg18 (by decide)).trans <|
  (W10_of_ne m ρ c main_arg18 (by decide)).trans <|
  (W9_of m ρ c main_arg18 (by decide)).trans <|
  (W8_of m ρ c main_arg18 (by decide)).trans <|
  (W7_of m ρ c main_arg18 (by decide)).trans <|
  (W6_of_ne m ρ c main_arg18 (by decide)).trans <|
  (W5_of m ρ c main_arg18 (by decide)).trans <|
  (W4_of m ρ c main_arg18 (by decide)).trans <|
  (W3_of m ρ c main_arg18 (by decide)).trans <|
  (W2_of_ne m ρ c main_arg18 (by decide)).trans <|
  (W1_of m ρ c main_arg18 (by decide))
theorem W17_main_arg19 (c : Dev nD) : W17 m ρ c (Proc.devRef .tc main_arg19) = m ((c : Thread nD τ).loc main_arg19) :=
  (W17_of m ρ c main_arg19 (by decide)).trans <|
  (W16_of m ρ c main_arg19 (by decide)).trans <|
  (W15_of m ρ c main_arg19 (by decide)).trans <|
  (W14_of m ρ c main_arg19 (by decide)).trans <|
  (W13_of m ρ c main_arg19 (by decide)).trans <|
  (W12_of_ne m ρ c main_arg19 (by decide)).trans <|
  (W11_of m ρ c main_arg19 (by decide)).trans <|
  (W10_of_ne m ρ c main_arg19 (by decide)).trans <|
  (W9_of m ρ c main_arg19 (by decide)).trans <|
  (W8_of m ρ c main_arg19 (by decide)).trans <|
  (W7_of m ρ c main_arg19 (by decide)).trans <|
  (W6_of_ne m ρ c main_arg19 (by decide)).trans <|
  (W5_of m ρ c main_arg19 (by decide)).trans <|
  (W4_of m ρ c main_arg19 (by decide)).trans <|
  (W3_of m ρ c main_arg19 (by decide)).trans <|
  (W2_of_ne m ρ c main_arg19 (by decide)).trans <|
  (W1_of m ρ c main_arg19 (by decide))

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (Pipeline.UD sig nD τ) ℕ (Pipeline.pin (pcfgs (F := F)) adm p) c
  | ⟨0, _⟩ => fun c => Reg0.dat (V1 m ρ) c
  | ⟨1, _⟩ => fun c => Reg1.dat (V5 m ρ) c
  | ⟨2, _⟩ => fun c => Reg2.dat (V9 m ρ) c
  | ⟨3, _⟩ => fun c => Reg3.dat (V11 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W17 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register and the scoped buffers no window
    stages go into the region's invariant (the class invariant before the first point) and come back out of it after the
    last; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 0).pre c (fun _ => fullShare) (adm (F := F) 0).1 ∗ Pipeline.scopedRest spec0 c)
        ⊢ (Pipeline.ΦA spec0 c : sProp 𝕄) := by
      unfold Pipeline.ΦA
      iintro ⟨Hp, -, Hr⟩
      isplitl [Hr]; · iexact Hr
      iexact Hp
    exact h1.trans (Reg0.hin (V1 m ρ) c)
  hout c := by
    rw [Pipeline.ownSems0_none]
    have h2 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (Reg0.hout (V1 m ρ) c).trans h2
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are split
    out of the unscoped buffers and put back at the exit contents; the generator register and the scoped buffers no window
    stages go into the region's invariant (the class invariant before the first point) and come back out of it after the
    last; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 1).pre c (fun _ => fullShare) (adm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h1.trans (Reg1.hin (V5 m ρ) c)
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (Reg1.hout (V5 m ρ) c).trans h2
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W9`, left at `W10`. Its arrays are split
    out of the unscoped buffers and put back at the exit contents; the generator register and the scoped buffers no window
    stages go into the region's invariant (the class invariant before the first point) and come back out of it after the
    last; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 2).pre c (fun _ => fullShare) (adm (F := F) 2).1 ∗ Pipeline.scopedRest spec2 c)
        ⊢ (Pipeline.ΦA spec2 c : sProp 𝕄) := by
      unfold Pipeline.ΦA
      iintro ⟨Hp, -, Hr⟩
      isplitl [Hr]; · iexact Hr
      iexact Hp
    exact h1.trans (Reg2.hin (V9 m ρ) c)
  hout c := by
    rw [Pipeline.ownSems0_none]
    have h2 : (Pipeline.ΦA spec2 c : sProp 𝕄) ⊢ iprop((∃ r, prngReg c r) ∗ BI.emp ∗ Pipeline.scopedRest spec2 c) := by
      unfold Pipeline.ΦA
      iintro ⟨Hr, Hp⟩
      isplitl [Hp]; · iexact Hp
      isplitr; · iempintro
      iexact Hr
    exact (Reg2.hout (V9 m ρ) c).trans h2
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W11`, left at `W12`. Its arrays are split
    out of the unscoped buffers and put back at the exit contents; the generator register and the scoped buffers no window
    stages go into the region's invariant (the class invariant before the first point) and come back out of it after the
    last; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Reg3.body_obligation (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 3).pre c (fun _ => fullShare) (adm (F := F) 3).1 ∗ Pipeline.scopedRest spec3 c)
        ⊢ (Pipeline.ΦA spec3 c : sProp 𝕄) := by
      unfold Pipeline.ΦA
      iintro ⟨Hp, -, Hr⟩
      isplitl [Hr]; · iexact Hr
      iexact Hp
    exact h1.trans (Reg3.hin (V11 m ρ) c)
  hout c := by
    rw [Pipeline.ownSems0_none]
    have h2 : (Pipeline.ΦA spec3 c : sProp 𝕄) ⊢ iprop((∃ r, prngReg c r) ∗ BI.emp ∗ Pipeline.scopedRest spec3 c) := by
      unfold Pipeline.ΦA
      iintro ⟨Hr, Hp⟩
      isplitl [Hp]; · iexact Hp
      isplitr; · iempintro
      iexact Hr
    exact (Reg3.hout (V11 m ρ) c).trans h2
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)),
    .host (hseg hostOps2_1 hostOps2_1_sub hostOps2_1_fresh (W7 m ρ)),
    .host (hseg hostOps2_2 hostOps2_2_sub hostOps2_2_fresh (W8 m ρ)),
    .region (reg2 m ρ),
    .host (hseg hostOps3 hostOps3_sub hostOps3_fresh (W10 m ρ)),
    .region (reg3 m ρ),
    .host (hseg hostOps4 hostOps4_sub hostOps4_fresh (W12 m ρ)),
    .host (hseg hostOps4_1 hostOps4_1_sub hostOps4_1_fresh (W13 m ρ)),
    .host (hseg hostOps4_2 hostOps4_2_sub hostOps4_2_fresh (W14 m ρ)),
    .host (hseg hostOps4_3 hostOps4_3_sub hostOps4_3_fresh (W15 m ρ)),
    .host (hseg hostOps4_4 hostOps4_4_sub hostOps4_4_fresh (W16 m ρ)) ]

theorem main_run (c : Dev nD) : main (F := F) c = Pipeline.Seg.run (segs m ρ) := (main_chain c).trans (by chain_rfl)

set_option backward.isDefEq.respectTransparency.types false in
/-- Every weakly fair execution of @main terminates, nothing faulting, and every final state has each unscoped
    TensorCore buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W17 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W17 m ρ c) ∗ R c) ⊢ iprop(Tₙ m ρ c ∗ ∃ W, owes (c.tc : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h => h)

/-- The frame: @main runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c =>
    ⟨(h c _ (mem_uc main_arg0 (by decide))).trans (W17_main_arg0 m ρ c),
     (h c _ (mem_uc main_arg1 (by decide))).trans (W17_main_arg1 m ρ c),
     (h c _ (mem_uc main_arg2 (by decide))).trans (W17_main_arg2 m ρ c),
     (h c _ (mem_uc main_arg3 (by decide))).trans (W17_main_arg3 m ρ c),
     (h c _ (mem_uc main_arg4 (by decide))).trans (W17_main_arg4 m ρ c),
     (h c _ (mem_uc main_arg5 (by decide))).trans (W17_main_arg5 m ρ c),
     (h c _ (mem_uc main_arg6 (by decide))).trans (W17_main_arg6 m ρ c),
     (h c _ (mem_uc main_arg7 (by decide))).trans (W17_main_arg7 m ρ c),
     (h c _ (mem_uc main_arg8 (by decide))).trans (W17_main_arg8 m ρ c),
     (h c _ (mem_uc main_arg9 (by decide))).trans (W17_main_arg9 m ρ c),
     (h c _ (mem_uc main_arg10 (by decide))).trans (W17_main_arg10 m ρ c),
     (h c _ (mem_uc main_arg11 (by decide))).trans (W17_main_arg11 m ρ c),
     (h c _ (mem_uc main_arg12 (by decide))).trans (W17_main_arg12 m ρ c),
     (h c _ (mem_uc main_arg13 (by decide))).trans (W17_main_arg13 m ρ c),
     (h c _ (mem_uc main_arg14 (by decide))).trans (W17_main_arg14 m ρ c),
     (h c _ (mem_uc main_arg15 (by decide))).trans (W17_main_arg15 m ρ c),
     (h c _ (mem_uc main_arg16 (by decide))).trans (W17_main_arg16 m ρ c),
     (h c _ (mem_uc main_arg17 (by decide))).trans (W17_main_arg17 m ρ c),
     (h c _ (mem_uc main_arg18 (by decide))).trans (W17_main_arg18 m ρ c),
     (h c _ (mem_uc main_arg19 (by decide))).trans (W17_main_arg19 m ρ c)⟩) (run_all m ρ)

/-- The run with the result named: the result buffer ends at the last boundary's contents there, the arguments as
    launched. -/
theorem run_result : θ_run defs (onTc (τ := τ) (main (F := F))) ⟨m, fun _ => 0, ρ⟩ (fun r => ∀ c : Dev nD,
      r.2.mem ((c.tc : Thread nD τ).loc main_v100) = W17 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c =>
    ⟨h c _ (mem_uc main_v100 (by decide)),
     (h c _ (mem_uc main_arg0 (by decide))).trans (W17_main_arg0 m ρ c),
     (h c _ (mem_uc main_arg1 (by decide))).trans (W17_main_arg1 m ρ c),
     (h c _ (mem_uc main_arg2 (by decide))).trans (W17_main_arg2 m ρ c),
     (h c _ (mem_uc main_arg3 (by decide))).trans (W17_main_arg3 m ρ c),
     (h c _ (mem_uc main_arg4 (by decide))).trans (W17_main_arg4 m ρ c),
     (h c _ (mem_uc main_arg5 (by decide))).trans (W17_main_arg5 m ρ c),
     (h c _ (mem_uc main_arg6 (by decide))).trans (W17_main_arg6 m ρ c),
     (h c _ (mem_uc main_arg7 (by decide))).trans (W17_main_arg7 m ρ c),
     (h c _ (mem_uc main_arg8 (by decide))).trans (W17_main_arg8 m ρ c),
     (h c _ (mem_uc main_arg9 (by decide))).trans (W17_main_arg9 m ρ c),
     (h c _ (mem_uc main_arg10 (by decide))).trans (W17_main_arg10 m ρ c),
     (h c _ (mem_uc main_arg11 (by decide))).trans (W17_main_arg11 m ρ c),
     (h c _ (mem_uc main_arg12 (by decide))).trans (W17_main_arg12 m ρ c),
     (h c _ (mem_uc main_arg13 (by decide))).trans (W17_main_arg13 m ρ c),
     (h c _ (mem_uc main_arg14 (by decide))).trans (W17_main_arg14 m ρ c),
     (h c _ (mem_uc main_arg15 (by decide))).trans (W17_main_arg15 m ρ c),
     (h c _ (mem_uc main_arg16 (by decide))).trans (W17_main_arg16 m ρ c),
     (h c _ (mem_uc main_arg17 (by decide))).trans (W17_main_arg17 m ρ c),
     (h c _ (mem_uc main_arg18 (by decide))).trans (W17_main_arg18 m ρ c),
     (h c _ (mem_uc main_arg19 (by decide))).trans (W17_main_arg19 m ρ c)⟩) (run_all m ρ)

end Cert.KernelIdeal.Whole

end
-- ==== Proof.RefOps.lean ====
/-
  The reference program's @main read as ONE straight line of host operations — the outlined functions
  (the rectifier, the variance with its guarded quotient) written out at their call sites over each call's
  own buffers — and its run: every weakly fair execution terminates with every buffer at the fold of the
  operations' results over the launch contents. No operation writes an argument array, so each argument ends as
  launched; the result buffer ends at the fold's value there.
-/
import proofs.«155634_j8117488189610_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The first window of @main, calls written out. -/
abbrev ops0 : List (HloOp τ sig (Elt F)) :=
  [ binary main_arg0 main_arg2 main_v0 ((fun l r => Host.dotGeneral dot_S8192x18_S18x16_S8192x16_1_0_0_1_n_n none l r) : (⟨S8192x18, .f32⟩ : BufTy).Contents (Elt F) → (⟨S18x16, .f32⟩ : BufTy).Contents (Elt F) → (⟨S8192x16, .f32⟩ : BufTy).Contents (Elt F)),
    binary main_arg1 main_v0 main_v1 ((fun l r => Host.dotGeneral dot_S8192x8192_S8192x16_S8192x16_1_0_0_1_n_n none l r) : (⟨S8192x8192, .f32⟩ : BufTy).Contents (Elt F) → (⟨S8192x16, .f32⟩ : BufTy).Contents (Elt F) → (⟨S8192x16, .f32⟩ : BufTy).Contents (Elt F)),
    unary main_arg3 main_v2 (broadcastInDim S1x16 ![1] bcast_S16_S1x16_1 : (⟨S16, .f32⟩ : BufTy).Contents (Elt F) → (⟨S1x16, .f32⟩ : BufTy).Contents (Elt F)),
    unary main_v2 main_v3 (broadcastInDim S8192x16 ![0, 1] bcast_S1x16_S8192x16_0_1 : (⟨S1x16, .f32⟩ : BufTy).Contents (Elt F) → (⟨S8192x16, .f32⟩ : BufTy).Contents (Elt F)),
    binary main_v1 main_v3 main_v4 (addf : (⟨S8192x16, .f32⟩ : BufTy).Contents (Elt F) → (⟨S8192x16, .f32⟩ : BufTy).Contents (Elt F) → (⟨S8192x16, .f32⟩ : BufTy).Contents (Elt F)),
    TRef.nullary main_call0.cst (constant S_ .f32 0x00000000#32),
    TRef.unary main_call0.cst main_call0.v0 (broadcastInDim S8192x16 ![] bcast_S_S8192x16),
    TRef.binary (.of main_v4) main_call0.v0 main_call0.v1 maximumf,
    nullary main_cst (constant S_ .f32 0x00000000#32),
    binary main_v5 main_cst main_v6 ((fun x v => Host.reduceAdd x v reducesTo_S8192x16_S16_d0 h_S_) : (⟨S8192x16, .f32⟩ : BufTy).Contents (Elt F) → (⟨S_, .f32⟩ : BufTy).Contents (Elt F) → (⟨S16, .f32⟩ : BufTy).Contents (Elt F)),
    nullary main_cst_0 (constant S_ .f32 0x46000000#32),
    unary main_cst_0 main_v7 (broadcastInDim S16 ![] bcast_S_S16 : (⟨S_, .f32⟩ : BufTy).Contents (Elt F) → (⟨S16, .f32⟩ : BufTy).Contents (Elt F)),
    binary main_v6 main_v7 main_v8 (Host.divf : (⟨S16, .f32⟩ : BufTy).Contents (Elt F) → (⟨S16, .f32⟩ : BufTy).Contents (Elt F) → (⟨S16, .f32⟩ : BufTy).Contents (Elt F)),
    nullary main_c (constantI S_ 32 0#32),
    TRef.nullary main_call1.cst (constant S_ .f32 0x00000000#32),
    TRef.binary (.of main_v5) main_call1.cst main_call1.v0 (fun x v => Host.reduceAdd x v reducesTo_S8192x16_S16_d0 h_S_),
    TRef.unary main_call1.v0 main_call1.v1 (broadcastInDim S1x16 ![1] bcast_S16_S1x16_1),
    TRef.nullary main_call1.cst_0 (constant S_ .f32 0x46000000#32),
    TRef.unary main_call1.cst_0 main_call1.v2 (broadcastInDim S1x16 ![] bcast_S_S1x16),
    TRef.binary main_call1.v1 main_call1.v2 main_call1.v3 Host.divf,
    TRef.unary main_call1.v3 main_call1.v4 (broadcastInDim S8192x16 ![0, 1] bcast_S1x16_S8192x16_0_1),
    TRef.binary (.of main_v5) main_call1.v4 main_call1.v5 subf,
    TRef.binary main_call1.v5 main_call1.v5 main_call1.v6 mulf,
    TRef.unary (.of main_c) main_call1.v7 (sitofp .f32),
    TRef.nullary main_call1.cst_1 (constant S_ .f32 0x46000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S8192x16_S16_d0 h_S_),
    TRef.unary main_call1.v8 main_call1.v10 (broadcastInDim S16 ![] bcast_S_S16),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S16 ![] bcast_S_S16),
    TRef.ternary main_call1.v12 main_call1.v11 main_call1.call0.v1 main_call1.call0.v2 (fun p a b => select (broadcastInDim S16 ![] bcast_S_S16 p) a b),
    unary main_v8 main_v10 (broadcastInDim S1x16 ![1] bcast_S16_S1x16_1 : (⟨S16, .f32⟩ : BufTy).Contents (Elt F) → (⟨S1x16, .f32⟩ : BufTy).Contents (Elt F)),
    unary main_v10 main_v11 (broadcastInDim S8192x16 ![0, 1] bcast_S1x16_S8192x16_0_1 : (⟨S1x16, .f32⟩ : BufTy).Contents (Elt F) → (⟨S8192x16, .f32⟩ : BufTy).Contents (Elt F)),
    binary main_v5 main_v11 main_v12 (subf : (⟨S8192x16, .f32⟩ : BufTy).Contents (Elt F) → (⟨S8192x16, .f32⟩ : BufTy).Contents (Elt F) → (⟨S8192x16, .f32⟩ : BufTy).Contents (Elt F)),
    unary main_arg14 main_v13 (broadcastInDim S1x16 ![1] bcast_S16_S1x16_1 : (⟨S16, .f32⟩ : BufTy).Contents (Elt F) → (⟨S1x16, .f32⟩ : BufTy).Contents (Elt F)),
    unary main_v13 main_v14 (broadcastInDim S8192x16 ![0, 1] bcast_S1x16_S8192x16_0_1 : (⟨S1x16, .f32⟩ : BufTy).Contents (Elt F) → (⟨S8192x16, .f32⟩ : BufTy).Contents (Elt F)),
    binary main_v14 main_v12 main_v15 (mulf : (⟨S8192x16, .f32⟩ : BufTy).Contents (Elt F) → (⟨S8192x16, .f32⟩ : BufTy).Contents (Elt F) → (⟨S8192x16, .f32⟩ : BufTy).Contents (Elt F)),
    nullary main_cst_1 (constant S_ .f32 0x3727C5AC#32),
    unary main_cst_1 main_v16 (broadcastInDim S16 ![] bcast_S_S16 : (⟨S_, .f32⟩ : BufTy).Contents (Elt F) → (⟨S16, .f32⟩ : BufTy).Contents (Elt F)),
    binary main_v9 main_v16 main_v17 (addf : (⟨S16, .f32⟩ : BufTy).Contents (Elt F) → (⟨S16, .f32⟩ : BufTy).Contents (Elt F) → (⟨S16, .f32⟩ : BufTy).Contents (Elt F)),
    unary main_v17 main_v18 (Host.rsqrt : (⟨S16, .f32⟩ : BufTy).Contents (Elt F) → (⟨S16, .f32⟩ : BufTy).Contents (Elt F)),
    unary main_v18 main_v19 (broadcastInDim S1x16 ![1] bcast_S16_S1x16_1 : (⟨S16, .f32⟩ : BufTy).Contents (Elt F) → (⟨S1x16, .f32⟩ : BufTy).Contents (Elt F)),
    unary main_v19 main_v20 (broadcastInDim S8192x16 ![0, 1] bcast_S1x16_S8192x16_0_1 : (⟨S1x16, .f32⟩ : BufTy).Contents (Elt F) → (⟨S8192x16, .f32⟩ : BufTy).Contents (Elt F)),
    binary main_v15 main_v20 main_v21 (mulf : (⟨S8192x16, .f32⟩ : BufTy).Contents (Elt F) → (⟨S8192x16, .f32⟩ : BufTy).Contents (Elt F) → (⟨S8192x16, .f32⟩ : BufTy).Contents (Elt F)),
    unary main_arg15 main_v22 (broadcastInDim S1x16 ![1] bcast_S16_S1x16_1 : (⟨S16, .f32⟩ : BufTy).Contents (Elt F) → (⟨S1x16, .f32⟩ : BufTy).Contents (Elt F)),
    unary main_v22 main_v23 (broadcastInDim S8192x16 ![0, 1] bcast_S1x16_S8192x16_0_1 : (⟨S1x16, .f32⟩ : BufTy).Contents (Elt F) → (⟨S8192x16, .f32⟩ : BufTy).Contents (Elt F)),
    binary main_v21 main_v23 main_v24 (addf : (⟨S8192x16, .f32⟩ : BufTy).Contents (Elt F) → (⟨S8192x16, .f32⟩ : BufTy).Contents (Elt F) → (⟨S8192x16, .f32⟩ : BufTy).Contents (Elt F)),
    binary main_v24 main_arg4 main_v25 ((fun l r => Host.dotGeneral dot_S8192x16_S16x16_S8192x16_1_0_0_1_n_n none l r) : (⟨S8192x16, .f32⟩ : BufTy).Contents (Elt F) → (⟨S16x16, .f32⟩ : BufTy).Contents (Elt F) → (⟨S8192x16, .f32⟩ : BufTy).Contents (Elt F)),
    binary main_arg1 main_v25 main_v26 ((fun l r => Host.dotGeneral dot_S8192x8192_S8192x16_S8192x16_1_0_0_1_n_n none l r) : (⟨S8192x8192, .f32⟩ : BufTy).Contents (Elt F) → (⟨S8192x16, .f32⟩ : BufTy).Contents (Elt F) → (⟨S8192x16, .f32⟩ : BufTy).Contents (Elt F)),
    unary main_arg5 main_v27 (broadcastInDim S1x16 ![1] bcast_S16_S1x16_1 : (⟨S16, .f32⟩ : BufTy).Contents (Elt F) → (⟨S1x16, .f32⟩ : BufTy).Contents (Elt F)),
    unary main_v27 main_v28 (broadcastInDim S8192x16 ![0, 1] bcast_S1x16_S8192x16_0_1 : (⟨S1x16, .f32⟩ : BufTy).Contents (Elt F) → (⟨S8192x16, .f32⟩ : BufTy).Contents (Elt F)),
    binary main_v26 main_v28 main_v29 (addf : (⟨S8192x16, .f32⟩ : BufTy).Contents (Elt F) → (⟨S8192x16, .f32⟩ : BufTy).Contents (Elt F) → (⟨S8192x16, .f32⟩ : BufTy).Contents (Elt F)),
    TRef.nullary main_call2.cst (constant S_ .f32 0x00000000#32),
    TRef.unary main_call2.cst main_call2.v0 (broadcastInDim S8192x16 ![] bcast_S_S8192x16),
    TRef.binary (.of main_v29) main_call2.v0 main_call2.v1 maximumf,
    nullary main_cst_2 (constant S_ .f32 0x00000000#32),
    binary main_v30 main_cst_2 main_v31 ((fun x v => Host.reduceAdd x v reducesTo_S8192x16_S16_d0 h_S_) : (⟨S8192x16, .f32⟩ : BufTy).Contents (Elt F) → (⟨S_, .f32⟩ : BufTy).Contents (Elt F) → (⟨S16, .f32⟩ : BufTy).Contents (Elt F)),
    nullary main_cst_3 (constant S_ .f32 0x46000000#32),
    unary main_cst_3 main_v32 (broadcastInDim S16 ![] bcast_S_S16 : (⟨S_, .f32⟩ : BufTy).Contents (Elt F) → (⟨S16, .f32⟩ : BufTy).Contents (Elt F)),
    binary main_v31 main_v32 main_v33 (Host.divf : (⟨S16, .f32⟩ : BufTy).Contents (Elt F) → (⟨S16, .f32⟩ : BufTy).Contents (Elt F) → (⟨S16, .f32⟩ : BufTy).Contents (Elt F)),
    nullary main_c_4 (constantI S_ 32 0#32),
    TRef.nullary main_call3.cst (constant S_ .f32 0x00000000#32),
    TRef.binary (.of main_v30) main_call3.cst main_call3.v0 (fun x v => Host.reduceAdd x v reducesTo_S8192x16_S16_d0 h_S_),
    TRef.unary main_call3.v0 main_call3.v1 (broadcastInDim S1x16 ![1] bcast_S16_S1x16_1),
    TRef.nullary main_call3.cst_0 (constant S_ .f32 0x46000000#32),
    TRef.unary main_call3.cst_0 main_call3.v2 (broadcastInDim S1x16 ![] bcast_S_S1x16),
    TRef.binary main_call3.v1 main_call3.v2 main_call3.v3 Host.divf,
    TRef.unary main_call3.v3 main_call3.v4 (broadcastInDim S8192x16 ![0, 1] bcast_S1x16_S8192x16_0_1),
    TRef.binary (.of main_v30) main_call3.v4 main_call3.v5 subf,
    TRef.binary main_call3.v5 main_call3.v5 main_call3.v6 mulf,
    TRef.unary (.of main_c_4) main_call3.v7 (sitofp .f32),
    TRef.nullary main_call3.cst_1 (constant S_ .f32 0x46000000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S8192x16_S16_d0 h_S_),
    TRef.unary main_call3.v8 main_call3.v10 (broadcastInDim S16 ![] bcast_S_S16),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S16 ![] bcast_S_S16),
    TRef.ternary main_call3.v12 main_call3.v11 main_call3.call0.v1 main_call3.call0.v2 (fun p a b => select (broadcastInDim S16 ![] bcast_S_S16 p) a b),
    unary main_v33 main_v35 (broadcastInDim S1x16 ![1] bcast_S16_S1x16_1 : (⟨S16, .f32⟩ : BufTy).Contents (Elt F) → (⟨S1x16, .f32⟩ : BufTy).Contents (Elt F)),
    unary main_v35 main_v36 (broadcastInDim S8192x16 ![0, 1] bcast_S1x16_S8192x16_0_1 : (⟨S1x16, .f32⟩ : BufTy).Contents (Elt F) → (⟨S8192x16, .f32⟩ : BufTy).Contents (Elt F)),
    binary main_v30 main_v36 main_v37 (subf : (⟨S8192x16, .f32⟩ : BufTy).Contents (Elt F) → (⟨S8192x16, .f32⟩ : BufTy).Contents (Elt F) → (⟨S8192x16, .f32⟩ : BufTy).Contents (Elt F)),
    unary main_arg16 main_v38 (broadcastInDim S1x16 ![1] bcast_S16_S1x16_1 : (⟨S16, .f32⟩ : BufTy).Contents (Elt F) → (⟨S1x16, .f32⟩ : BufTy).Contents (Elt F)),
    unary main_v38 main_v39 (broadcastInDim S8192x16 ![0, 1] bcast_S1x16_S8192x16_0_1 : (⟨S1x16, .f32⟩ : BufTy).Contents (Elt F) → (⟨S8192x16, .f32⟩ : BufTy).Contents (Elt F)),
    binary main_v39 main_v37 main_v40 (mulf : (⟨S8192x16, .f32⟩ : BufTy).Contents (Elt F) → (⟨S8192x16, .f32⟩ : BufTy).Contents (Elt F) → (⟨S8192x16, .f32⟩ : BufTy).Contents (Elt F)),
    nullary main_cst_5 (constant S_ .f32 0x3727C5AC#32),
    unary main_cst_5 main_v41 (broadcastInDim S16 ![] bcast_S_S16 : (⟨S_, .f32⟩ : BufTy).Contents (Elt F) → (⟨S16, .f32⟩ : BufTy).Contents (Elt F)),
    binary main_v34 main_v41 main_v42 (addf : (⟨S16, .f32⟩ : BufTy).Contents (Elt F) → (⟨S16, .f32⟩ : BufTy).Contents (Elt F) → (⟨S16, .f32⟩ : BufTy).Contents (Elt F)),
    unary main_v42 main_v43 (Host.rsqrt : (⟨S16, .f32⟩ : BufTy).Contents (Elt F) → (⟨S16, .f32⟩ : BufTy).Contents (Elt F)),
    unary main_v43 main_v44 (broadcastInDim S1x16 ![1] bcast_S16_S1x16_1 : (⟨S16, .f32⟩ : BufTy).Contents (Elt F) → (⟨S1x16, .f32⟩ : BufTy).Contents (Elt F)),
    unary main_v44 main_v45 (broadcastInDim S8192x16 ![0, 1] bcast_S1x16_S8192x16_0_1 : (⟨S1x16, .f32⟩ : BufTy).Contents (Elt F) → (⟨S8192x16, .f32⟩ : BufTy).Contents (Elt F)),
    binary main_v40 main_v45 main_v46 (mulf : (⟨S8192x16, .f32⟩ : BufTy).Contents (Elt F) → (⟨S8192x16, .f32⟩ : BufTy).Contents (Elt F) → (⟨S8192x16, .f32⟩ : BufTy).Contents (Elt F)),
    unary main_arg17 main_v47 (broadcastInDim S1x16 ![1] bcast_S16_S1x16_1 : (⟨S16, .f32⟩ : BufTy).Contents (Elt F) → (⟨S1x16, .f32⟩ : BufTy).Contents (Elt F)),
    unary main_v47 main_v48 (broadcastInDim S8192x16 ![0, 1] bcast_S1x16_S8192x16_0_1 : (⟨S1x16, .f32⟩ : BufTy).Contents (Elt F) → (⟨S8192x16, .f32⟩ : BufTy).Contents (Elt F)),
    binary main_v46 main_v48 main_v49 (addf : (⟨S8192x16, .f32⟩ : BufTy).Contents (Elt F) → (⟨S8192x16, .f32⟩ : BufTy).Contents (Elt F) → (⟨S8192x16, .f32⟩ : BufTy).Contents (Elt F)),
    binary main_v49 main_arg6 main_v50 ((fun l r => Host.dotGeneral dot_S8192x16_S16x8_S8192x8_1_0_0_1_n_n none l r) : (⟨S8192x16, .f32⟩ : BufTy).Contents (Elt F) → (⟨S16x8, .f32⟩ : BufTy).Contents (Elt F) → (⟨S8192x8, .f32⟩ : BufTy).Contents (Elt F)),
    binary main_arg1 main_v50 main_v51 ((fun l r => Host.dotGeneral dot_S8192x8192_S8192x8_S8192x8_1_0_0_1_n_n none l r) : (⟨S8192x8192, .f32⟩ : BufTy).Contents (Elt F) → (⟨S8192x8, .f32⟩ : BufTy).Contents (Elt F) → (⟨S8192x8, .f32⟩ : BufTy).Contents (Elt F)) ]

/-- The second window, calls written out. -/
abbrev ops1 : List (HloOp τ sig (Elt F)) :=
  [ unary main_arg7 main_v52 (broadcastInDim S1x8 ![1] bcast_S8_S1x8_1 : (⟨S8, .f32⟩ : BufTy).Contents (Elt F) → (⟨S1x8, .f32⟩ : BufTy).Contents (Elt F)),
    unary main_v52 main_v53 (broadcastInDim S8192x8 ![0, 1] bcast_S1x8_S8192x8_0_1 : (⟨S1x8, .f32⟩ : BufTy).Contents (Elt F) → (⟨S8192x8, .f32⟩ : BufTy).Contents (Elt F)),
    binary main_v51 main_v53 main_v54 (addf : (⟨S8192x8, .f32⟩ : BufTy).Contents (Elt F) → (⟨S8192x8, .f32⟩ : BufTy).Contents (Elt F) → (⟨S8192x8, .f32⟩ : BufTy).Contents (Elt F)),
    binary main_v49 main_arg8 main_v55 ((fun l r => Host.dotGeneral dot_S8192x16_S16x20_S8192x20_1_0_0_1_n_n none l r) : (⟨S8192x16, .f32⟩ : BufTy).Contents (Elt F) → (⟨S16x20, .f32⟩ : BufTy).Contents (Elt F) → (⟨S8192x20, .f32⟩ : BufTy).Contents (Elt F)),
    binary main_arg1 main_v55 main_v56 ((fun l r => Host.dotGeneral dot_S8192x8192_S8192x20_S8192x20_1_0_0_1_n_n none l r) : (⟨S8192x8192, .f32⟩ : BufTy).Contents (Elt F) → (⟨S8192x20, .f32⟩ : BufTy).Contents (Elt F) → (⟨S8192x20, .f32⟩ : BufTy).Contents (Elt F)),
    unary main_arg9 main_v57 (broadcastInDim S1x20 ![1] bcast_S20_S1x20_1 : (⟨S20, .f32⟩ : BufTy).Contents (Elt F) → (⟨S1x20, .f32⟩ : BufTy).Contents (Elt F)),
    unary main_v57 main_v58 (broadcastInDim S8192x20 ![0, 1] bcast_S1x20_S8192x20_0_1 : (⟨S1x20, .f32⟩ : BufTy).Contents (Elt F) → (⟨S8192x20, .f32⟩ : BufTy).Contents (Elt F)),
    binary main_v56 main_v58 main_v59 (addf : (⟨S8192x20, .f32⟩ : BufTy).Contents (Elt F) → (⟨S8192x20, .f32⟩ : BufTy).Contents (Elt F) → (⟨S8192x20, .f32⟩ : BufTy).Contents (Elt F)),
    nullary main_cst_6 (constant S_ .f32 0xFF800000#32),
    binary main_v59 main_cst_6 main_v60 ((fun x v => Host.reduce FloatOps.maximumf x v reducesTo_S8192x20_S8192_d1 h_S_) : (⟨S8192x20, .f32⟩ : BufTy).Contents (Elt F) → (⟨S_, .f32⟩ : BufTy).Contents (Elt F) → (⟨S8192, .f32⟩ : BufTy).Contents (Elt F)),
    nullary main_cst_7 (constant S_ .f32 0xFF800000#32),
    unary main_cst_7 main_v61 (broadcastInDim S8192 ![] bcast_S_S8192 : (⟨S_, .f32⟩ : BufTy).Contents (Elt F) → (⟨S8192, .f32⟩ : BufTy).Contents (Elt F)),
    binary main_v61 main_v60 main_v62 (maximumf : (⟨S8192, .f32⟩ : BufTy).Contents (Elt F) → (⟨S8192, .f32⟩ : BufTy).Contents (Elt F) → (⟨S8192, .f32⟩ : BufTy).Contents (Elt F)),
    unary main_v62 main_v63 (broadcastInDim S8192x1 ![0] bcast_S8192_S8192x1_0 : (⟨S8192, .f32⟩ : BufTy).Contents (Elt F) → (⟨S8192x1, .f32⟩ : BufTy).Contents (Elt F)),
    unary main_v63 main_v64 (broadcastInDim S8192x20 ![0, 1] bcast_S8192x1_S8192x20_0_1 : (⟨S8192x1, .f32⟩ : BufTy).Contents (Elt F) → (⟨S8192x20, .f32⟩ : BufTy).Contents (Elt F)),
    binary main_v59 main_v64 main_v65 (subf : (⟨S8192x20, .f32⟩ : BufTy).Contents (Elt F) → (⟨S8192x20, .f32⟩ : BufTy).Contents (Elt F) → (⟨S8192x20, .f32⟩ : BufTy).Contents (Elt F)),
    unary main_v65 main_v66 (Host.exp : (⟨S8192x20, .f32⟩ : BufTy).Contents (Elt F) → (⟨S8192x20, .f32⟩ : BufTy).Contents (Elt F)),
    nullary main_cst_8 (constant S_ .f32 0x00000000#32),
    binary main_v66 main_cst_8 main_v67 ((fun x v => Host.reduceAdd x v reducesTo_S8192x20_S8192_d1 h_S_) : (⟨S8192x20, .f32⟩ : BufTy).Contents (Elt F) → (⟨S_, .f32⟩ : BufTy).Contents (Elt F) → (⟨S8192, .f32⟩ : BufTy).Contents (Elt F)),
    unary main_v67 main_v68 (broadcastInDim S8192x1 ![0] bcast_S8192_S8192x1_0 : (⟨S8192, .f32⟩ : BufTy).Contents (Elt F) → (⟨S8192x1, .f32⟩ : BufTy).Contents (Elt F)),
    unary main_v68 main_v69 (broadcastInDim S8192x20 ![0, 1] bcast_S8192x1_S8192x20_0_1 : (⟨S8192x1, .f32⟩ : BufTy).Contents (Elt F) → (⟨S8192x20, .f32⟩ : BufTy).Contents (Elt F)),
    binary main_v66 main_v69 main_v70 (Host.divf : (⟨S8192x20, .f32⟩ : BufTy).Contents (Elt F) → (⟨S8192x20, .f32⟩ : BufTy).Contents (Elt F) → (⟨S8192x20, .f32⟩ : BufTy).Contents (Elt F)),
    unary main_v70 main_v71 ((transpose S20x8192 [1, 0] · transposes_S8192x20_S20x8192_1_0) : (⟨S8192x20, .f32⟩ : BufTy).Contents (Elt F) → (⟨S20x8192, .f32⟩ : BufTy).Contents (Elt F)),
    binary main_v71 main_v54 main_v72 ((fun l r => Host.dotGeneral dot_S20x8192_S8192x8_S20x8_1_0_0_1_n_n none l r) : (⟨S20x8192, .f32⟩ : BufTy).Contents (Elt F) → (⟨S8192x8, .f32⟩ : BufTy).Contents (Elt F) → (⟨S20x8, .f32⟩ : BufTy).Contents (Elt F)),
    unary main_v70 main_v73 ((transpose S20x8192 [1, 0] · transposes_S8192x20_S20x8192_1_0) : (⟨S8192x20, .f32⟩ : BufTy).Contents (Elt F) → (⟨S20x8192, .f32⟩ : BufTy).Contents (Elt F)),
    binary main_v73 main_arg1 main_v74 ((fun l r => Host.dotGeneral dot_S20x8192_S8192x8192_S20x8192_1_0_0_1_n_n none l r) : (⟨S20x8192, .f32⟩ : BufTy).Contents (Elt F) → (⟨S8192x8192, .f32⟩ : BufTy).Contents (Elt F) → (⟨S20x8192, .f32⟩ : BufTy).Contents (Elt F)),
    binary main_v74 main_v70 main_v75 ((fun l r => Host.dotGeneral dot_S20x8192_S8192x20_S20x20_1_0_0_1_n_n none l r) : (⟨S20x8192, .f32⟩ : BufTy).Contents (Elt F) → (⟨S8192x20, .f32⟩ : BufTy).Contents (Elt F) → (⟨S20x20, .f32⟩ : BufTy).Contents (Elt F)),
    binary main_v72 main_arg10 main_v76 ((fun l r => Host.dotGeneral dot_S20x8_S8x8_S20x8_1_0_0_1_n_n none l r) : (⟨S20x8, .f32⟩ : BufTy).Contents (Elt F) → (⟨S8x8, .f32⟩ : BufTy).Contents (Elt F) → (⟨S20x8, .f32⟩ : BufTy).Contents (Elt F)),
    binary main_v75 main_v76 main_v77 ((fun l r => Host.dotGeneral dot_S20x20_S20x8_S20x8_1_0_0_1_n_n none l r) : (⟨S20x20, .f32⟩ : BufTy).Contents (Elt F) → (⟨S20x8, .f32⟩ : BufTy).Contents (Elt F) → (⟨S20x8, .f32⟩ : BufTy).Contents (Elt F)),
    unary main_arg11 main_v78 (broadcastInDim S1x8 ![1] bcast_S8_S1x8_1 : (⟨S8, .f32⟩ : BufTy).Contents (Elt F) → (⟨S1x8, .f32⟩ : BufTy).Contents (Elt F)),
    unary main_v78 main_v79 (broadcastInDim S20x8 ![0, 1] bcast_S1x8_S20x8_0_1 : (⟨S1x8, .f32⟩ : BufTy).Contents (Elt F) → (⟨S20x8, .f32⟩ : BufTy).Contents (Elt F)),
    binary main_v77 main_v79 main_v80 (addf : (⟨S20x8, .f32⟩ : BufTy).Contents (Elt F) → (⟨S20x8, .f32⟩ : BufTy).Contents (Elt F) → (⟨S20x8, .f32⟩ : BufTy).Contents (Elt F)),
    TRef.nullary main_call4.cst (constant S_ .f32 0x00000000#32),
    TRef.unary main_call4.cst main_call4.v0 (broadcastInDim S20x8 ![] bcast_S_S20x8),
    TRef.binary (.of main_v80) main_call4.v0 main_call4.v1 maximumf,
    nullary main_cst_9 (constant S_ .f32 0x00000000#32),
    binary main_v81 main_cst_9 main_v82 ((fun x v => Host.reduceAdd x v reducesTo_S20x8_S8_d0 h_S_) : (⟨S20x8, .f32⟩ : BufTy).Contents (Elt F) → (⟨S_, .f32⟩ : BufTy).Contents (Elt F) → (⟨S8, .f32⟩ : BufTy).Contents (Elt F)),
    nullary main_cst_10 (constant S_ .f32 0x41A00000#32),
    unary main_cst_10 main_v83 (broadcastInDim S8 ![] bcast_S_S8 : (⟨S_, .f32⟩ : BufTy).Contents (Elt F) → (⟨S8, .f32⟩ : BufTy).Contents (Elt F)),
    binary main_v82 main_v83 main_v84 (Host.divf : (⟨S8, .f32⟩ : BufTy).Contents (Elt F) → (⟨S8, .f32⟩ : BufTy).Contents (Elt F) → (⟨S8, .f32⟩ : BufTy).Contents (Elt F)),
    nullary main_c_11 (constantI S_ 32 0#32),
    TRef.nullary main_call5.cst (constant S_ .f32 0x00000000#32),
    TRef.binary (.of main_v81) main_call5.cst main_call5.v0 (fun x v => Host.reduceAdd x v reducesTo_S20x8_S8_d0 h_S_),
    TRef.unary main_call5.v0 main_call5.v1 (broadcastInDim S1x8 ![1] bcast_S8_S1x8_1),
    TRef.nullary main_call5.cst_0 (constant S_ .f32 0x41A00000#32),
    TRef.unary main_call5.cst_0 main_call5.v2 (broadcastInDim S1x8 ![] bcast_S_S1x8),
    TRef.binary main_call5.v1 main_call5.v2 main_call5.v3 Host.divf,
    TRef.unary main_call5.v3 main_call5.v4 (broadcastInDim S20x8 ![0, 1] bcast_S1x8_S20x8_0_1),
    TRef.binary (.of main_v81) main_call5.v4 main_call5.v5 subf,
    TRef.binary main_call5.v5 main_call5.v5 main_call5.v6 mulf,
    TRef.unary (.of main_c_11) main_call5.v7 (sitofp .f32),
    TRef.nullary main_call5.cst_1 (constant S_ .f32 0x41A00000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S20x8_S8_d0 h_S_),
    TRef.unary main_call5.v8 main_call5.v10 (broadcastInDim S8 ![] bcast_S_S8),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S8 ![] bcast_S_S8),
    TRef.ternary main_call5.v12 main_call5.v11 main_call5.call0.v1 main_call5.call0.v2 (fun p a b => select (broadcastInDim S8 ![] bcast_S_S8 p) a b),
    unary main_v84 main_v86 (broadcastInDim S1x8 ![1] bcast_S8_S1x8_1 : (⟨S8, .f32⟩ : BufTy).Contents (Elt F) → (⟨S1x8, .f32⟩ : BufTy).Contents (Elt F)),
    unary main_v86 main_v87 (broadcastInDim S20x8 ![0, 1] bcast_S1x8_S20x8_0_1 : (⟨S1x8, .f32⟩ : BufTy).Contents (Elt F) → (⟨S20x8, .f32⟩ : BufTy).Contents (Elt F)),
    binary main_v81 main_v87 main_v88 (subf : (⟨S20x8, .f32⟩ : BufTy).Contents (Elt F) → (⟨S20x8, .f32⟩ : BufTy).Contents (Elt F) → (⟨S20x8, .f32⟩ : BufTy).Contents (Elt F)),
    unary main_arg18 main_v89 (broadcastInDim S1x8 ![1] bcast_S8_S1x8_1 : (⟨S8, .f32⟩ : BufTy).Contents (Elt F) → (⟨S1x8, .f32⟩ : BufTy).Contents (Elt F)),
    unary main_v89 main_v90 (broadcastInDim S20x8 ![0, 1] bcast_S1x8_S20x8_0_1 : (⟨S1x8, .f32⟩ : BufTy).Contents (Elt F) → (⟨S20x8, .f32⟩ : BufTy).Contents (Elt F)),
    binary main_v90 main_v88 main_v91 (mulf : (⟨S20x8, .f32⟩ : BufTy).Contents (Elt F) → (⟨S20x8, .f32⟩ : BufTy).Contents (Elt F) → (⟨S20x8, .f32⟩ : BufTy).Contents (Elt F)),
    nullary main_cst_12 (constant S_ .f32 0x3727C5AC#32),
    unary main_cst_12 main_v92 (broadcastInDim S8 ![] bcast_S_S8 : (⟨S_, .f32⟩ : BufTy).Contents (Elt F) → (⟨S8, .f32⟩ : BufTy).Contents (Elt F)),
    binary main_v85 main_v92 main_v93 (addf : (⟨S8, .f32⟩ : BufTy).Contents (Elt F) → (⟨S8, .f32⟩ : BufTy).Contents (Elt F) → (⟨S8, .f32⟩ : BufTy).Contents (Elt F)),
    unary main_v93 main_v94 (Host.rsqrt : (⟨S8, .f32⟩ : BufTy).Contents (Elt F) → (⟨S8, .f32⟩ : BufTy).Contents (Elt F)),
    unary main_v94 main_v95 (broadcastInDim S1x8 ![1] bcast_S8_S1x8_1 : (⟨S8, .f32⟩ : BufTy).Contents (Elt F) → (⟨S1x8, .f32⟩ : BufTy).Contents (Elt F)),
    unary main_v95 main_v96 (broadcastInDim S20x8 ![0, 1] bcast_S1x8_S20x8_0_1 : (⟨S1x8, .f32⟩ : BufTy).Contents (Elt F) → (⟨S20x8, .f32⟩ : BufTy).Contents (Elt F)),
    binary main_v91 main_v96 main_v97 (mulf : (⟨S20x8, .f32⟩ : BufTy).Contents (Elt F) → (⟨S20x8, .f32⟩ : BufTy).Contents (Elt F) → (⟨S20x8, .f32⟩ : BufTy).Contents (Elt F)),
    unary main_arg19 main_v98 (broadcastInDim S1x8 ![1] bcast_S8_S1x8_1 : (⟨S8, .f32⟩ : BufTy).Contents (Elt F) → (⟨S1x8, .f32⟩ : BufTy).Contents (Elt F)),
    unary main_v98 main_v99 (broadcastInDim S20x8 ![0, 1] bcast_S1x8_S20x8_0_1 : (⟨S1x8, .f32⟩ : BufTy).Contents (Elt F) → (⟨S20x8, .f32⟩ : BufTy).Contents (Elt F)),
    binary main_v97 main_v99 main_v100 (addf : (⟨S20x8, .f32⟩ : BufTy).Contents (Elt F) → (⟨S20x8, .f32⟩ : BufTy).Contents (Elt F) → (⟨S20x8, .f32⟩ : BufTy).Contents (Elt F)),
    binary main_v100 main_arg12 main_v101 ((fun l r => Host.dotGeneral dot_S20x8_S8x8_S20x8_1_0_0_1_n_n none l r) : (⟨S20x8, .f32⟩ : BufTy).Contents (Elt F) → (⟨S8x8, .f32⟩ : BufTy).Contents (Elt F) → (⟨S20x8, .f32⟩ : BufTy).Contents (Elt F)),
    binary main_v75 main_v101 main_v102 ((fun l r => Host.dotGeneral dot_S20x20_S20x8_S20x8_1_0_0_1_n_n none l r) : (⟨S20x20, .f32⟩ : BufTy).Contents (Elt F) → (⟨S20x8, .f32⟩ : BufTy).Contents (Elt F) → (⟨S20x8, .f32⟩ : BufTy).Contents (Elt F)),
    unary main_arg13 main_v103 (broadcastInDim S1x8 ![1] bcast_S8_S1x8_1 : (⟨S8, .f32⟩ : BufTy).Contents (Elt F) → (⟨S1x8, .f32⟩ : BufTy).Contents (Elt F)),
    unary main_v103 main_v104 (broadcastInDim S20x8 ![0, 1] bcast_S1x8_S20x8_0_1 : (⟨S1x8, .f32⟩ : BufTy).Contents (Elt F) → (⟨S20x8, .f32⟩ : BufTy).Contents (Elt F)) ]

/-- The last window. -/
abbrev ops2 : List (HloOp τ sig (Elt F)) :=
  [ binary main_v102 main_v104 main_v105 (addf : (⟨S20x8, .f32⟩ : BufTy).Contents (Elt F) → (⟨S20x8, .f32⟩ : BufTy).Contents (Elt F) → (⟨S20x8, .f32⟩ : BufTy).Contents (Elt F)),
    nullary main_cst_13 (constant S_ .f32 0x00000000#32),
    binary main_v105 main_cst_13 main_v106 ((fun x v => Host.reduceAdd x v reducesTo_S20x8_S8_d0 h_S_) : (⟨S20x8, .f32⟩ : BufTy).Contents (Elt F) → (⟨S_, .f32⟩ : BufTy).Contents (Elt F) → (⟨S8, .f32⟩ : BufTy).Contents (Elt F)),
    unary main_v106 main_v107 (broadcastInDim S1x8 ![1] bcast_S8_S1x8_1 : (⟨S8, .f32⟩ : BufTy).Contents (Elt F) → (⟨S1x8, .f32⟩ : BufTy).Contents (Elt F)) ]

/-- @main's operations, in order. -/
abbrev ops : List (HloOp τ sig (Elt F)) := ops0 ++ (ops1 ++ ops2)

set_option maxRecDepth 8192 in
theorem part0_eq (c : Dev nD) : main_part0 (F := F) c = seq ops0 := by
  simp only [main_part0, fn_relu.body, fn_where.body, fn_var.body, fn_relu_0.body, fn_where_2.body, fn_var_1.body, seq, bind_assoc, pure_bind] <;> rfl

set_option maxRecDepth 8192 in
theorem part1_eq (c : Dev nD) : main_part1 (F := F) c = seq ops1 := by
  simp only [main_part1, fn_relu.body, fn_where.body, fn_var.body, fn_relu_0.body, fn_where_2.body, fn_var_1.body, seq, bind_assoc, pure_bind] <;> rfl

set_option maxRecDepth 8192 in
theorem part2_eq (c : Dev nD) : main_part2 (F := F) c = seq ops2 := by
  simp only [main_part2, seq, bind_assoc, pure_bind] <;> rfl

/-- @main is that straight line: its three windows one after the other. -/
theorem main_eq (c : Dev nD) : main (F := F) c = seq ops := by
  rw [show ops (F := F) = ops0 ++ (ops1 ++ ops2) from rfl, seq_append, seq_append, ← part0_eq c, ← part1_eq c, ← part2_eq c]
  rfl

end Cert.ReferenceIdeal.HandRun

end
-- ==== Proof.RefRun.lean ====
/-
  The run of the reference's straight line: every operation touches TensorCore buffers only, allocates nothing and
  writes only a buffer that is no argument. So every weakly fair execution of @main terminates with each buffer at
  the fold of the operations over the launch contents, and an argument array — written by no operation — ends
  holding what it was launched with.
-/
import proofs.«155634_j8117488189610_2_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., binary_bufs_sub .., binary_bufs_sub ..⟩
theorem ops1_sub : (ops1 : List (HloOp τ sig (Elt F))).Forall fun op => op.bufs ⊆ tcRefs τ sig :=
  ⟨unary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., binary_bufs_sub .., binary_bufs_sub .., unary_bufs_sub .., unary_bufs_sub ..⟩
theorem ops2_sub : (ops2 : List (HloOp τ sig (Elt F))).Forall fun op => op.bufs ⊆ tcRefs τ sig :=
  ⟨binary_bufs_sub .., nullary_bufs_sub .., binary_bufs_sub .., unary_bufs_sub ..⟩

theorem ops0_fresh : (ops0 : List (HloOp τ sig (Elt F))).Forall fun op => op.fresh = ∅ := by
  simp only [List.Forall]; repeat' constructor
theorem ops1_fresh : (ops1 : List (HloOp τ sig (Elt F))).Forall fun op => op.fresh = ∅ := by
  simp only [List.Forall]; repeat' constructor
theorem ops2_fresh : (ops2 : List (HloOp τ sig (Elt F))).Forall fun op => op.fresh = ∅ := by
  simp only [List.Forall]; repeat' constructor

/-- A property of every operation of each window holds of every operation of the line. -/
theorem forall_ops {p : HloOp τ sig (Elt F) → Prop} (h0 : (ops0 (F := F)).Forall p) (h1 : (ops1 (F := F)).Forall p)
    (h2 : (ops2 (F := F)).Forall p) : ∀ op ∈ (ops : List (HloOp τ sig (Elt F))), p op := by
  intro op h
  rcases List.mem_append.mp h with h | h
  · exact List.forall_iff_forall_mem.mp h0 op h
  rcases List.mem_append.mp h with h | h
  · exact List.forall_iff_forall_mem.mp h1 op h
  · exact List.forall_iff_forall_mem.mp h2 op h

/-- Every weakly fair execution of @main terminates, and every final state has each TensorCore buffer at the fold of
    the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq
    (fun _ => List.forall_iff_forall_mem.mpr (forall_ops ops0_sub ops1_sub ops2_sub)) m ρ
    (fun _ => forall_ops ops0_fresh ops1_fresh ops2_fresh)

/-- The buffers the line's operations write: every buffer of @main that is no argument. -/
abbrev written : List (Ref sig .tc) :=
  [main_v0, main_v1, main_v2, main_v3, main_v4, main_call0_cst, main_call0_v0, main_v5, main_cst, main_v6, main_cst_0, main_v7, main_v8, main_c, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v9, main_v10, main_v11, main_v12, main_v13, main_v14, main_v15, main_cst_1, main_v16, main_v17, main_v18, main_v19, main_v20, main_v21, main_v22, main_v23, main_v24, main_v25, main_v26, main_v27, main_v28, main_v29, main_call2_cst, main_call2_v0, main_v30, main_cst_2, main_v31, main_cst_3, main_v32, main_v33, main_c_4, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v34, main_v35, main_v36, main_v37, main_v38, main_v39, main_v40, main_cst_5, main_v41, main_v42, main_v43, main_v44, main_v45, main_v46, main_v47, main_v48, main_v49, main_v50, main_v51, main_v52, main_v53, main_v54, main_v55, main_v56, main_v57, main_v58, main_v59, main_cst_6, main_v60, main_cst_7, main_v61, main_v62, main_v63, main_v64, main_v65, main_v66, main_cst_8, main_v67, main_v68, main_v69, main_v70, main_v71, main_v72, main_v73, main_v74, main_v75, main_v76, main_v77, main_v78, main_v79, main_v80, main_call4_cst, main_call4_v0, main_v81, main_cst_9, main_v82, main_cst_10, main_v83, main_v84, main_c_11, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v85, main_v86, main_v87, main_v88, main_v89, main_v90, main_v91, main_cst_12, main_v92, main_v93, main_v94, main_v95, main_v96, main_v97, main_v98, main_v99, main_v100, main_v101, main_v102, main_v103, main_v104, main_v105, main_cst_13, main_v106, main_v107]

theorem ops0_writes : (ops0 : List (HloOp τ sig (Elt F))).Forall fun op => op.writes ⊆ (written.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
theorem ops1_writes : (ops1 : List (HloOp τ sig (Elt F))).Forall fun op => op.writes ⊆ (written.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
theorem ops2_writes : (ops2 : List (HloOp τ sig (Elt F))).Forall fun op => op.writes ⊆ (written.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- A buffer no operation writes holds after the line what it held before. -/
theorem kept (V : Valuation τ sig (Elt F)) (r : Ref sig .tc) (hr : r ∉ written) :
    after ops V (Proc.devRef .tc r) = V (Proc.devRef .tc r) :=
  after_of_writes_sub ops V (List.forall_iff_forall_mem.mpr (forall_ops ops0_writes ops1_writes ops2_writes)) hr

/-- The reference's frame: @main runs to the end, and every argument array ends as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c =>
    ⟨(h c main_arg0).trans (kept _ main_arg0 (by decide)),
     (h c main_arg1).trans (kept _ main_arg1 (by decide)),
     (h c main_arg2).trans (kept _ main_arg2 (by decide)),
     (h c main_arg3).trans (kept _ main_arg3 (by decide)),
     (h c main_arg4).trans (kept _ main_arg4 (by decide)),
     (h c main_arg5).trans (kept _ main_arg5 (by decide)),
     (h c main_arg6).trans (kept _ main_arg6 (by decide)),
     (h c main_arg7).trans (kept _ main_arg7 (by decide)),
     (h c main_arg8).trans (kept _ main_arg8 (by decide)),
     (h c main_arg9).trans (kept _ main_arg9 (by decide)),
     (h c main_arg10).trans (kept _ main_arg10 (by decide)),
     (h c main_arg11).trans (kept _ main_arg11 (by decide)),
     (h c main_arg12).trans (kept _ main_arg12 (by decide)),
     (h c main_arg13).trans (kept _ main_arg13 (by decide)),
     (h c main_arg14).trans (kept _ main_arg14 (by decide)),
     (h c main_arg15).trans (kept _ main_arg15 (by decide)),
     (h c main_arg16).trans (kept _ main_arg16 (by decide)),
     (h c main_arg17).trans (kept _ main_arg17 (by decide)),
     (h c main_arg18).trans (kept _ main_arg18 (by decide)),
     (h c main_arg19).trans (kept _ main_arg19 (by decide))⟩) (run_main m ρ)

end Cert.ReferenceIdeal.HandRun

end
-- ==== Proof.KI_R0Val.lean ====
/-
  Region 0: what each case of the kernel body leaves, read back as values. Every point stores the copy of its
  adjacency block. A middle step leaves in the accumulator "accumulator + adjacency block × right-factor block"; step 0
  the same from the zero block; the last step also stores into the output block "max(accumulator + bias row, 0)" of the
  accumulator it has just updated.
-/
import proofs.«155634_j8117488189610_2_alg».proof.Proof.KI_R0Dat
import Idealize.ShloMosaic.Lib.Pipeline.Value

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem hz : (![0, 0] : Fin 2 → Nat) = fun _ => 0 := funext fun a => by fin_cases a <;> rfl

theorem sout_B_eq (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : ¬condFirst i) (hc1 : ¬condLast i) (x0 : Vec F S2048x2048 .f32) (x1 : Vec F S2048x16 .f32) (x2 : Vec F S1x16 .f32) (xs : Vec F S2048x16 .f32) :
    sout_B c i arg2 harg2 arg3 harg3 arg4 harg4 arg5 harg5 arg6 harg6 arg7 harg7 hc0 hc1 x0 x1 x2 xs = k0_pay3 x0 xs x1 := by
  unfold sout_B
  rw [View.read_writes_eq_canon _ _ _ (scover_B c i arg2 harg2 arg3 harg3 arg4 harg4 arg5 harg5 arg6 harg6 arg7 harg7 hc0 hc1 x0 x1 x2 xs)]
  unfold kernelRun_B
  dsimp only
  (try sl_unfold_words)
  rw [View.canon_unit_zero hz]
  simp only [View.readAt_eq_ld, harg2.read_unread, harg3.read_unread, harg4.read_unread, harg5.read_unread, harg6.read_unread, harg7.read_unread,
    View.ld_unit_zero (S := S2048x2048) hz, View.ld_unit_zero (S := S2048x16) hz, View.ld_unit_zero (S := S1x16) hz, View.ld_unit_zero (S := S2048x16) hz]

theorem sout_A_eq (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : condFirst i) (hc1 : ¬condLast i) (x0 : Vec F S2048x2048 .f32) (x1 : Vec F S2048x16 .f32) (x2 : Vec F S1x16 .f32) :
    sout_A c i arg2 harg2 arg3 harg3 arg4 harg4 arg5 harg5 arg6 harg6 arg7 harg7 hc0 hc1 x0 x1 x2 = k0_pay3 x0 (k0_pay1 (F := F)) x1 := by
  unfold sout_A
  rw [View.read_writes_eq_canon _ _ _ (scover_A c i arg2 harg2 arg3 harg3 arg4 harg4 arg5 harg5 arg6 harg6 arg7 harg7 hc0 hc1 x0 x1 x2)]
  unfold kernelRun_A
  dsimp only
  (try sl_unfold_words)
  rw [View.canon_cons_unit_zero (S := S2048x16) hz, View.readCov_unit_zero (S := S2048x16) _ hz]
  simp only [View.readAt_eq_ld, harg2.read_unread, harg3.read_unread, harg4.read_unread, harg5.read_unread, harg6.read_unread, harg7.read_unread,
    View.ld_unit_zero (S := S2048x2048) hz, View.ld_unit_zero (S := S2048x16) hz, View.ld_unit_zero (S := S1x16) hz, View.ld_unit_zero (S := S2048x16) hz]

theorem sout_C_eq (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : ¬condFirst i) (hc1 : condLast i) (x0 : Vec F S2048x2048 .f32) (x1 : Vec F S2048x16 .f32) (x2 : Vec F S1x16 .f32) (xs : Vec F S2048x16 .f32) :
    sout_C c i arg2 harg2 arg3 harg3 arg4 harg4 arg5 harg5 arg6 harg6 arg7 harg7 hc0 hc1 x0 x1 x2 xs = k0_pay3 x0 xs x1 := by
  unfold sout_C
  rw [View.read_writes_eq_canon _ _ _ (scover_C c i arg2 harg2 arg3 harg3 arg4 harg4 arg5 harg5 arg6 harg6 arg7 harg7 hc0 hc1 x0 x1 x2 xs)]
  unfold kernelRun_C
  dsimp only
  (try sl_unfold_words)
  rw [View.canon_unit_zero hz]
  simp only [View.readAt_eq_ld, harg2.read_unread, harg3.read_unread, harg4.read_unread, harg5.read_unread, harg6.read_unread, harg7.read_unread,
    View.ld_unit_zero (S := S2048x2048) hz, View.ld_unit_zero (S := S2048x16) hz, View.ld_unit_zero (S := S1x16) hz, View.ld_unit_zero (S := S2048x16) hz]

theorem out_C_eq (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : ¬condFirst i) (hc1 : condLast i) (x0 : Vec F S2048x2048 .f32) (x1 : Vec F S2048x16 .f32) (x2 : Vec F S1x16 .f32) (xs : Vec F S2048x16 .f32) :
    out_C c i arg2 harg2 arg3 harg3 arg4 harg4 arg5 harg5 arg6 harg6 arg7 harg7 hc0 hc1 x0 x1 x2 xs = k0_pay4 (k0_pay3 x0 xs x1) x2 := by
  unfold out_C
  rw [View.read_writes_eq_canon _ _ _ (cover_C c i arg2 harg2 arg3 harg3 arg4 harg4 arg5 harg5 arg6 harg6 arg7 harg7 hc0 hc1 x0 x1 x2 xs)]
  unfold kernelRun_C
  dsimp only
  (try sl_unfold_words)
  rw [View.canon_unit_zero hz, View.readCov_unit_zero (S := S2048x16) _ hz]
  simp only [View.readAt_eq_ld, harg2.read_unread, harg3.read_unread, harg4.read_unread, harg5.read_unread, harg6.read_unread, harg7.read_unread,
    View.ld_unit_zero (S := S2048x2048) hz, View.ld_unit_zero (S := S2048x16) hz, View.ld_unit_zero (S := S1x16) hz, View.ld_unit_zero (S := S2048x16) hz]

/-- The copy stored at such a point is the adjacency block, its format changed. -/
theorem outC_A_eq (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : condFirst i) (hc1 : ¬condLast i) (x0 : Vec F S2048x2048 .f32) (x1 : Vec F S2048x16 .f32) (x2 : Vec F S1x16 .f32) :
    outC_A c i arg2 harg2 arg3 harg3 arg4 harg4 arg5 harg5 arg6 harg6 arg7 harg7 hc0 hc1 x0 x1 x2 = k0_pay2 x0 := by
  unfold outC_A
  rw [View.read_writes_eq_canon _ _ _ (ccover_A c i arg2 harg2 arg3 harg3 arg4 harg4 arg5 harg5 arg6 harg6 arg7 harg7 hc0 hc1 x0 x1 x2)]
  unfold kernelRun_A
  dsimp only
  (try sl_unfold_words)
  rw [View.canon_unit_zero hz]
  simp only [View.readAt_eq_ld, harg2.read_unread, harg3.read_unread, harg4.read_unread, harg5.read_unread, harg6.read_unread, harg7.read_unread,
    View.ld_unit_zero (S := S2048x2048) hz, View.ld_unit_zero (S := S2048x16) hz, View.ld_unit_zero (S := S1x16) hz, View.ld_unit_zero (S := S2048x16) hz]

/-- The copy stored at such a point is the adjacency block, its format changed. -/
theorem outC_B_eq (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : ¬condFirst i) (hc1 : ¬condLast i) (x0 : Vec F S2048x2048 .f32) (x1 : Vec F S2048x16 .f32) (x2 : Vec F S1x16 .f32) (xs : Vec F S2048x16 .f32) :
    outC_B c i arg2 harg2 arg3 harg3 arg4 harg4 arg5 harg5 arg6 harg6 arg7 harg7 hc0 hc1 x0 x1 x2 xs = k0_pay2 x0 := by
  unfold outC_B
  rw [View.read_writes_eq_canon _ _ _ (ccover_B c i arg2 harg2 arg3 harg3 arg4 harg4 arg5 harg5 arg6 harg6 arg7 harg7 hc0 hc1 x0 x1 x2 xs)]
  unfold kernelRun_B
  dsimp only
  (try sl_unfold_words)
  rw [View.canon_unit_zero hz]
  simp only [View.readAt_eq_ld, harg2.read_unread, harg3.read_unread, harg4.read_unread, harg5.read_unread, harg6.read_unread, harg7.read_unread,
    View.ld_unit_zero (S := S2048x2048) hz, View.ld_unit_zero (S := S2048x16) hz, View.ld_unit_zero (S := S1x16) hz, View.ld_unit_zero (S := S2048x16) hz]

/-- The copy stored at such a point is the adjacency block, its format changed. -/
theorem outC_C_eq (c : Dev nD) (i : grid0.Coords) (arg2 : Memref sig .tc .vmem S2048x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S2048x2048 .bf16) (harg6 : arg6.IsWhole) (arg7 : Memref sig .tc .vmem S2048x16 .f32) (harg7 : arg7.IsWhole) (hc0 : ¬condFirst i) (hc1 : condLast i) (x0 : Vec F S2048x2048 .f32) (x1 : Vec F S2048x16 .f32) (x2 : Vec F S1x16 .f32) (xs : Vec F S2048x16 .f32) :
    outC_C c i arg2 harg2 arg3 harg3 arg4 harg4 arg5 harg5 arg6 harg6 arg7 harg7 hc0 hc1 x0 x1 x2 xs = k0_pay2 x0 := by
  unfold outC_C
  rw [View.read_writes_eq_canon _ _ _ (ccover_C c i arg2 harg2 arg3 harg3 arg4 harg4 arg5 harg5 arg6 harg6 arg7 harg7 hc0 hc1 x0 x1 x2 xs)]
  unfold kernelRun_C
  dsimp only
  (try sl_unfold_words)
  rw [View.canon_unit_zero hz]
  simp only [View.readAt_eq_ld, harg2.read_unread, harg3.read_unread, harg4.read_unread, harg5.read_unread, harg6.read_unread, harg7.read_unread,
    View.ld_unit_zero (S := S2048x2048) hz, View.ld_unit_zero (S := S2048x16) hz, View.ld_unit_zero (S := S1x16) hz, View.ld_unit_zero (S := S2048x16) hz]

end Cert.KernelIdeal.Reg0

end
-- ==== Proof.KI_R0Fold.lean ====
/-
  Region 0: the accumulator as a fold, and the copy. The accumulator resets at the points whose reduction step is 0 and
  takes one more partial product at every other point, so after any point it is the fold over that point's run of
  reduction steps; at the last step the output block holds the epilogue of that fold and the bias row; at every point
  the copy's block is the adjacency block with its format changed.
-/
import proofs.«155634_j8117488189610_2_alg».proof.Proof.KI_R0Val

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The accumulator after point `n`. -/
def accS (c : Dev nD) (n : ℕ) (hn : n < cfg0.N) : Vec F S2048x16 .f32 := (outsAt V c n hn).2.2
def accStart (c : Dev nD) (n : ℕ) (hn : n < cfg0.N) : Vec F S2048x16 .f32 :=
  k0_pay3 (iblk V c 0 ⟨n, hn⟩) (k0_pay1 (F := F)) (iblk V c 1 ⟨n, hn⟩)
def accStep (c : Dev nD) (n : ℕ) (hn : n < cfg0.N) (acc : Vec F S2048x16 .f32) : Vec F S2048x16 .f32 :=
  k0_pay3 (iblk V c 0 ⟨n, hn⟩) acc (iblk V c 1 ⟨n, hn⟩)

attribute [local irreducible] sout_A sout_B sout_C out_C outIdle outC_A outC_B outC_C

theorem accS_start (c : Dev nD) (n : ℕ) (hn : n < cfg0.N) (h0 : n % 4 = 0) : accS V c n hn = accStart V c n hn := by
  have h1 : ¬(⟨n, hn⟩ : Fin cfg0.N).val % 4 = 3 := by dsimp only; omega
  have e1 : (outsAt V c n hn).2.2 = sout_A c (grid0.coords ⟨n, hn⟩) (ms_0 ⟨n, hn⟩) (hs_0 ⟨n, hn⟩) (ms_1 ⟨n, hn⟩) (hs_1 ⟨n, hn⟩) (ms_2 ⟨n, hn⟩) (hs_2 ⟨n, hn⟩) (ms_3 ⟨n, hn⟩) (hs_3 ⟨n, hn⟩) (ms_4 ⟨n, hn⟩) (hs_4 ⟨n, hn⟩) scM (Memref.isWhole_whole _) ((hcondFirst ⟨n, hn⟩).mpr h0) (fun h => h1 ((hcondLast ⟨n, hn⟩).mp h)) (iblk V c 0 ⟨n, hn⟩) (iblk V c 1 ⟨n, hn⟩) (iblk V c 2 ⟨n, hn⟩) :=
    Eq.trans (b := (fun q : Vec F S2048x16 .f32 × (Vec F S2048x2048 .bf16 × Vec F S2048x16 .f32) => q.2.2) (outIdle, outC_A c (grid0.coords ⟨n, hn⟩) (ms_0 ⟨n, hn⟩) (hs_0 ⟨n, hn⟩) (ms_1 ⟨n, hn⟩) (hs_1 ⟨n, hn⟩) (ms_2 ⟨n, hn⟩) (hs_2 ⟨n, hn⟩) (ms_3 ⟨n, hn⟩) (hs_3 ⟨n, hn⟩) (ms_4 ⟨n, hn⟩) (hs_4 ⟨n, hn⟩) scM (Memref.isWhole_whole _) ((hcondFirst ⟨n, hn⟩).mpr h0) (fun h => h1 ((hcondLast ⟨n, hn⟩).mp h)) (iblk V c 0 ⟨n, hn⟩) (iblk V c 1 ⟨n, hn⟩) (iblk V c 2 ⟨n, hn⟩), sout_A c (grid0.coords ⟨n, hn⟩) (ms_0 ⟨n, hn⟩) (hs_0 ⟨n, hn⟩) (ms_1 ⟨n, hn⟩) (hs_1 ⟨n, hn⟩) (ms_2 ⟨n, hn⟩) (hs_2 ⟨n, hn⟩) (ms_3 ⟨n, hn⟩) (hs_3 ⟨n, hn⟩) (ms_4 ⟨n, hn⟩) (hs_4 ⟨n, hn⟩) scM (Memref.isWhole_whole _) ((hcondFirst ⟨n, hn⟩).mpr h0) (fun h => h1 ((hcondLast ⟨n, hn⟩).mp h)) (iblk V c 0 ⟨n, hn⟩) (iblk V c 1 ⟨n, hn⟩) (iblk V c 2 ⟨n, hn⟩))) (congrArg (fun q : Vec F S2048x16 .f32 × (Vec F S2048x2048 .bf16 × Vec F S2048x16 .f32) => q.2.2) (outsAt_A V c ⟨n, hn⟩ h0 h1)) (Eq.refl _)
  exact Eq.trans (b := sout_A c (grid0.coords ⟨n, hn⟩) (ms_0 ⟨n, hn⟩) (hs_0 ⟨n, hn⟩) (ms_1 ⟨n, hn⟩) (hs_1 ⟨n, hn⟩) (ms_2 ⟨n, hn⟩) (hs_2 ⟨n, hn⟩) (ms_3 ⟨n, hn⟩) (hs_3 ⟨n, hn⟩) (ms_4 ⟨n, hn⟩) (hs_4 ⟨n, hn⟩) scM (Memref.isWhole_whole _) ((hcondFirst ⟨n, hn⟩).mpr h0) (fun h => h1 ((hcondLast ⟨n, hn⟩).mp h)) (iblk V c 0 ⟨n, hn⟩) (iblk V c 1 ⟨n, hn⟩) (iblk V c 2 ⟨n, hn⟩)) e1 (sout_A_eq c (grid0.coords ⟨n, hn⟩) (ms_0 ⟨n, hn⟩) (hs_0 ⟨n, hn⟩) (ms_1 ⟨n, hn⟩) (hs_1 ⟨n, hn⟩) (ms_2 ⟨n, hn⟩) (hs_2 ⟨n, hn⟩) (ms_3 ⟨n, hn⟩) (hs_3 ⟨n, hn⟩) (ms_4 ⟨n, hn⟩) (hs_4 ⟨n, hn⟩) scM (Memref.isWhole_whole _) ((hcondFirst ⟨n, hn⟩).mpr h0) (fun h => h1 ((hcondLast ⟨n, hn⟩).mp h)) (iblk V c 0 ⟨n, hn⟩) (iblk V c 1 ⟨n, hn⟩) (iblk V c 2 ⟨n, hn⟩))

theorem accS_step (c : Dev nD) (n : ℕ) (hn : n + 1 < cfg0.N) (h0 : ¬(n + 1) % 4 = 0) :
    accS V c (n + 1) hn = accStep V c (n + 1) hn (accS V c n (Nat.lt_of_succ_lt hn)) := by
  by_cases h1 : (n + 1) % 4 = 3
  · have e1 : (outsAt V c (n + 1) hn).2.2 = sout_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt V c n (Nat.lt_of_succ_lt hn)).2.2 :=
      Eq.trans (b := (fun q : Vec F S2048x16 .f32 × (Vec F S2048x2048 .bf16 × Vec F S2048x16 .f32) => q.2.2) (out_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt V c n (Nat.lt_of_succ_lt hn)).2.2, outC_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt V c n (Nat.lt_of_succ_lt hn)).2.2, sout_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt V c n (Nat.lt_of_succ_lt hn)).2.2)) (congrArg (fun q : Vec F S2048x16 .f32 × (Vec F S2048x2048 .bf16 × Vec F S2048x16 .f32) => q.2.2) (outsAt_C V c ⟨n + 1, hn⟩ h0 h1)) (Eq.refl _)
    exact Eq.trans (b := sout_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt V c n (Nat.lt_of_succ_lt hn)).2.2) e1 (sout_C_eq c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt V c n (Nat.lt_of_succ_lt hn)).2.2)
  · have e1 : (outsAt V c (n + 1) hn).2.2 = sout_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt V c n (Nat.lt_of_succ_lt hn)).2.2 :=
      Eq.trans (b := (fun q : Vec F S2048x16 .f32 × (Vec F S2048x2048 .bf16 × Vec F S2048x16 .f32) => q.2.2) (outIdle, outC_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt V c n (Nat.lt_of_succ_lt hn)).2.2, sout_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt V c n (Nat.lt_of_succ_lt hn)).2.2)) (congrArg (fun q : Vec F S2048x16 .f32 × (Vec F S2048x2048 .bf16 × Vec F S2048x16 .f32) => q.2.2) (outsAt_B V c ⟨n + 1, hn⟩ h0 h1)) (Eq.refl _)
    exact Eq.trans (b := sout_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt V c n (Nat.lt_of_succ_lt hn)).2.2) e1 (sout_B_eq c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt V c n (Nat.lt_of_succ_lt hn)).2.2)

theorem accS_eq_accAt (c : Dev nD) (t : ℕ) (ht : t < cfg0.N) (h' : 4 * (t / 4) + t % 4 < cfg0.N) :
    accS V c t ht = Pipeline.accAt (accStart V c) (accStep V c) (4 * (t / 4)) (t % 4) h' :=
  Pipeline.eq_accAt_of_mod (accS V c) 4 (accStart V c) (accStep V c)
    (fun n h h0 => accS_start V c n h h0) (fun n h h0 => accS_step V c n h h0) (by decide) t ht h'

theorem out_last (c : Dev nD) (t : Fin cfg0.N) (h1 : t.val % 4 = 3) :
    (outsAt V c t.val t.isLt).1 = k0_pay4 (accS V c t.val t.isLt) (iblk V c 2 t) := by
  have h0 : ¬t.val % 4 = 0 := by omega
  have es : accS V c t.val t.isLt = k0_pay3 (iblk V c 0 t) (outsAt V c (t.val - 1) (Nat.lt_of_le_of_lt (Nat.sub_le _ _) t.isLt)).2.2 (iblk V c 1 t) :=
    Eq.trans (b := sout_C c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2)
      (Eq.trans (b := (fun q : Vec F S2048x16 .f32 × (Vec F S2048x2048 .bf16 × Vec F S2048x16 .f32) => q.2.2) (out_C c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2, outC_C c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2, sout_C c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2)) (congrArg (fun q : Vec F S2048x16 .f32 × (Vec F S2048x2048 .bf16 × Vec F S2048x16 .f32) => q.2.2) (outsAt_C V c t h0 h1)) (Eq.refl _))
      (sout_C_eq c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2)
  have eo : (outsAt V c t.val t.isLt).1 = k0_pay4 (k0_pay3 (iblk V c 0 t) (outsAt V c (t.val - 1) (Nat.lt_of_le_of_lt (Nat.sub_le _ _) t.isLt)).2.2 (iblk V c 1 t)) (iblk V c 2 t) :=
    Eq.trans (b := out_C c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2)
      (Eq.trans (b := (fun q : Vec F S2048x16 .f32 × (Vec F S2048x2048 .bf16 × Vec F S2048x16 .f32) => q.1) (out_C c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2, outC_C c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2, sout_C c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2)) (congrArg (fun q : Vec F S2048x16 .f32 × (Vec F S2048x2048 .bf16 × Vec F S2048x16 .f32) => q.1) (outsAt_C V c t h0 h1)) (Eq.refl _))
      (out_C_eq c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2)
  rw [eo, es]

/-- At every point the copy's staging buffer holds the adjacency block, its format changed. -/
theorem copy_at (c : Dev nD) (t : Fin cfg0.N) : (outsAt V c t.val t.isLt).2.1 = k0_pay2 (iblk V c 0 t) := by
  by_cases h0 : t.val % 4 = 0
  · have h1 : ¬t.val % 4 = 3 := by omega
    exact Eq.trans (b := outC_A c (grid0.coords t) (ms_0 t) (hs_0 t) (ms_1 t) (hs_1 t) (ms_2 t) (hs_2 t) (ms_3 t) (hs_3 t) (ms_4 t) (hs_4 t) scM (Memref.isWhole_whole _) ((hcondFirst t).mpr h0) (fun h => h1 ((hcondLast t).mp h)) (iblk V c 0 t) (iblk V c 1 t) (iblk V c 2 t))
      (Eq.trans (b := (fun q : Vec F S2048x16 .f32 × (Vec F S2048x2048 .bf16 × Vec F S2048x16 .f32) => q.2.1) (outIdle, outC_A c (grid0.coords t) (ms_0 t) (hs_0 t) (ms_1 t) (hs_1 t) (ms_2 t) (hs_2 t) (ms_3 t) (hs_3 t) (ms_4 t) (hs_4 t) scM (Memref.isWhole_whole _) ((hcondFirst t).mpr h0) (fun h => h1 ((hcondLast t).mp h)) (iblk V c 0 t) (iblk V c 1 t) (iblk V c 2 t), sout_A c (grid0.coords t) (ms_0 t) (hs_0 t) (ms_1 t) (hs_1 t) (ms_2 t) (hs_2 t) (ms_3 t) (hs_3 t) (ms_4 t) (hs_4 t) scM (Memref.isWhole_whole _) ((hcondFirst t).mpr h0) (fun h => h1 ((hcondLast t).mp h)) (iblk V c 0 t) (iblk V c 1 t) (iblk V c 2 t))) (congrArg (fun q : Vec F S2048x16 .f32 × (Vec F S2048x2048 .bf16 × Vec F S2048x16 .f32) => q.2.1) (outsAt_A V c t h0 h1)) (Eq.refl _))
      (outC_A_eq c (grid0.coords t) (ms_0 t) (hs_0 t) (ms_1 t) (hs_1 t) (ms_2 t) (hs_2 t) (ms_3 t) (hs_3 t) (ms_4 t) (hs_4 t) scM (Memref.isWhole_whole _) ((hcondFirst t).mpr h0) (fun h => h1 ((hcondLast t).mp h)) (iblk V c 0 t) (iblk V c 1 t) (iblk V c 2 t))
  · by_cases h1 : t.val % 4 = 3
    · exact Eq.trans (b := outC_C c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2)
        (Eq.trans (b := (fun q : Vec F S2048x16 .f32 × (Vec F S2048x2048 .bf16 × Vec F S2048x16 .f32) => q.2.1) (out_C c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2, outC_C c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2, sout_C c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2)) (congrArg (fun q : Vec F S2048x16 .f32 × (Vec F S2048x2048 .bf16 × Vec F S2048x16 .f32) => q.2.1) (outsAt_C V c t h0 h1)) (Eq.refl _))
        (outC_C_eq c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2.2)
    · exact Eq.trans (b := outC_B c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2.2)
        (Eq.trans (b := (fun q : Vec F S2048x16 .f32 × (Vec F S2048x2048 .bf16 × Vec F S2048x16 .f32) => q.2.1) (outIdle, outC_B c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2.2, sout_B c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2.2)) (congrArg (fun q : Vec F S2048x16 .f32 × (Vec F S2048x2048 .bf16 × Vec F S2048x16 .f32) => q.2.1) (outsAt_B V c t h0 h1)) (Eq.refl _))
        (outC_B_eq c (grid0.coords t) (ms_0 t) (hs_0 t) (ms_1 t) (hs_1 t) (ms_2 t) (hs_2 t) (ms_3 t) (hs_3 t) (ms_4 t) (hs_4 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2.2)

end Cert.KernelIdeal.Reg0

end
-- ==== Proof.KI_R0Alg.lean ====
/-
  Region 0's payloads at exact arithmetic, read at an index: the reset block is 0; the copy is the adjacency block
  (a change of float format being the identity); the accumulation step adds to the accumulator's entry the sum over the
  block's contraction axis of the products of the two input blocks' entries; the epilogue is the maximum with 0 of the
  entry plus the bias row's entry of its column.
-/
import proofs.«155634_j8117488189610_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Reg0

open Cert.KernelIdeal Cert.KernelIdeal.Gen
open Idealize.ShloMosaic Idealize.ShloMosaic.TcCoe Idealize.ShloMosaic.ValueIdx

abbrev D : DotDims S2048x2048 S2048x16 S2048x16 := dot_S2048x2048_S2048x16_S2048x16_1_0_0_1_n_n

theorem pay1_apply (j : S2048x16.Idx) : k0_pay1 (F := Ideal) j = 0 := by
  unfold k0_pay1
  simp only [shapeCast_self]
  exact Ideal.ofBits_zero_f32

theorem paycopy_apply (x0 : Vec Ideal S2048x2048 .f32) (j : S2048x2048.Idx) : k0_pay2 (F := Ideal) x0 j = x0 j := by
  unfold k0_pay2
  rfl

theorem pay2_apply (x0 : Vec Ideal S2048x2048 .f32) (xs : Vec Ideal S2048x16 .f32) (x1 : Vec Ideal S2048x16 .f32) (j : S2048x16.Idx) :
    k0_pay3 (F := Ideal) x0 xs x1 j = xs j + ∑ k : D.contr.Idx, x0 (D.lhsIdx j k) * x1 (D.rhsIdx j k) := by
  unfold k0_pay3
  simp only [shapeCast_self, matmul]
  rw [addf_apply, Ideal.matmul_constant_zero_apply]

theorem pay3_apply (v : Vec Ideal S2048x16 .f32) (b : Vec Ideal S1x16 .f32) (j : S2048x16.Idx) :
    k0_pay4 (F := Ideal) v b j = max (v j + b (ix2 (n0 := 1) (n1 := 16) 0 (j 1))) 0 := by
  unfold k0_pay4
  simp only [shapeCast_self]
  rw [maximumf_apply, addf_apply, broadcast_apply,
    broadcastTo_apply b _ j (ix2 (n0 := 1) (n1 := 16) 0 (j 1)) (fun a => by
      match a with
      | ⟨0, _⟩ => rfl
      | ⟨1, _⟩ => rfl)]
  show max _ (Ideal.ofBits .f32 0x00000000#32) = _
  rw [Ideal.ofBits_zero_f32]

end Cert.KernelIdeal.Reg0

end
-- ==== Proof.LibERealMatrix.lean ====
/-
  General facts about finite sums and products of extended reals, as a matrix computation at exact
  arithmetic needs them.

  On the extended reals addition and multiplication are commutative and associative, so regrouping a
  sum (a reduction axis cut into blocks and accumulated block by block) needs no hypothesis. Distributing a
  product over a sum does need one: it fails at the infinities. A triple matrix product can therefore be
  re-associated, (sᵀ A) t = sᵀ (A t), once every entry is a real number; the proof passes to the reals, where
  it is the interchange of two finite sums.
-/
import Mathlib.Data.EReal.Operations
import Mathlib.Algebra.BigOperators.Fin
import Mathlib.Algebra.BigOperators.Ring.Finset
import Mathlib.Algebra.BigOperators.Group.Finset.Sigma
import Mathlib.Logic.Equiv.Fin.Basic
import Mathlib.Tactic.Ring

namespace LibERealMatrix

open Finset

/-- An extended real is FINITE when it is neither infinity: it is the image of a real number. -/
def Fin' (x : EReal) : Prop := x ≠ ⊤ ∧ x ≠ ⊥

theorem Fin'.coe (r : ℝ) : Fin' (r : EReal) := ⟨EReal.coe_ne_top r, EReal.coe_ne_bot r⟩

theorem Fin'.exists_real {x : EReal} (h : Fin' x) : ∃ r : ℝ, x = (r : EReal) :=
  ⟨x.toReal, (EReal.coe_toReal h.1 h.2).symm⟩

/-- A family of finite extended reals is the image of a family of reals. -/
theorem exists_real_family {ι : Type*} (f : ι → EReal) (h : ∀ i, Fin' (f i)) :
    ∃ g : ι → ℝ, ∀ i, f i = (g i : EReal) :=
  ⟨fun i => (f i).toReal, fun i => (EReal.coe_toReal (h i).1 (h i).2).symm⟩

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fin'.add {x y : EReal} (hx : Fin' x) (hy : Fin' y) : Fin' (x + y) := by
  obtain ⟨a, rfl⟩ := hx.exists_real
  obtain ⟨b, rfl⟩ := hy.exists_real
  rw [← EReal.coe_add]; exact Fin'.coe _

theorem Fin'.mul {x y : EReal} (hx : Fin' x) (hy : Fin' y) : Fin' (x * y) := by
  obtain ⟨a, rfl⟩ := hx.exists_real
  obtain ⟨b, rfl⟩ := hy.exists_real
  rw [← EReal.coe_mul]; exact Fin'.coe _

/-- A finite sum of finite extended reals is finite. -/
theorem Fin'.sum {ι : Type*} (s : Finset ι) (f : ι → EReal) (h : ∀ i, Fin' (f i)) :
    Fin' (∑ i ∈ s, f i) := by
  obtain ⟨g, hg⟩ := exists_real_family f h
  simp only [hg]
  rw [← coe_sum]; exact Fin'.coe _

/-- A sum over `Fin (n * b)` is the sum over the `n` blocks of the sums over the `b` positions inside a
    block; the element at block `k`, position `r` is the one numbered `r + b * k`. No hypothesis: only
    commutativity and associativity of the addition are used. -/
theorem sum_fin_mul {M : Type*} [AddCommMonoid M] (n b : ℕ) (f : Fin (n * b) → M) :
    ∑ x, f x = ∑ k : Fin n, ∑ r : Fin b, f (finProdFinEquiv (k, r)) :=
  ((finProdFinEquiv (m := n) (n := b)).sum_comp f).symm.trans (Fintype.sum_prod_type _)

theorem finProdFinEquiv_val (n b : ℕ) (k : Fin n) (r : Fin b) :
    ((finProdFinEquiv (k, r) : Fin (n * b)) : ℕ) = r.val + b * k.val := rfl

/-- A scalar product whose index set is cut into `n` blocks of `b` is the sum of the `n` partial scalar
    products, whatever the entries (infinite ones included). -/
theorem dot_blocked (n b : ℕ) (u v : Fin (n * b) → EReal) :
    ∑ x, u x * v x = ∑ k : Fin n, ∑ r : Fin b, u (finProdFinEquiv (k, r)) * v (finProdFinEquiv (k, r)) :=
  sum_fin_mul n b fun x => u x * v x

/-- The same over ranges of naturals: the numbers below `n * b` are the `r + b * s` with `s < n`, `r < b`. -/
theorem sum_range_mul {M : Type*} [AddCommMonoid M] (n b : ℕ) (f : ℕ → M) :
    ∑ J ∈ range (n * b), f J = ∑ s ∈ range n, ∑ r ∈ range b, f (r + b * s) := by
  rw [← Fin.sum_univ_eq_sum_range f (n * b), sum_fin_mul n b (fun x => f x.val),
    ← Fin.sum_univ_eq_sum_range (fun s => ∑ r ∈ range b, f (r + b * s)) n]
  refine Finset.sum_congr rfl fun s _ => ?_
  rw [← Fin.sum_univ_eq_sum_range (fun r => f (r + b * s.val)) b]
  rfl

/-- An accumulator that starts at zero and takes four partial sums in turn ends at their sum. -/
theorem acc_four {M : Type*} [AddCommMonoid M] (d : Fin 4 → M) :
    (((0 + d 0) + d 1) + d 2) + d 3 = ∑ k, d k := by
  rw [Fin.sum_univ_four, zero_add]

/-- Re-association of a triple product of matrices with FINITE entries:
    `∑ j, (∑ i, s i * A i j) * t j = ∑ i, s i * ∑ j, A i j * t j`. With an infinite entry this fails
    (the product does not distribute over a sum of opposite infinities). -/
theorem sum_mul_sum_assoc {ι κ : Type*} [Fintype ι] [Fintype κ]
    (s : ι → EReal) (A : ι → κ → EReal) (t : κ → EReal)
    (hs : ∀ i, Fin' (s i)) (hA : ∀ i j, Fin' (A i j)) (ht : ∀ j, Fin' (t j)) :
    ∑ j, (∑ i, s i * A i j) * t j = ∑ i, s i * ∑ j, A i j * t j := by
  obtain ⟨s', hs'⟩ := exists_real_family s hs
  obtain ⟨A', hA'⟩ : ∃ g : ι → κ → ℝ, ∀ i j, A i j = (g i j : EReal) :=
    ⟨fun i j => (A i j).toReal, fun i j => (EReal.coe_toReal (hA i j).1 (hA i j).2).symm⟩
  obtain ⟨t', ht'⟩ := exists_real_family t ht
  have hL : ∀ j, (∑ i, s i * A i j) * t j = (((∑ i, s' i * A' i j) * t' j : ℝ) : EReal) := by
    intro j
    rw [EReal.coe_mul, coe_sum, ht']
    refine congrArg (· * (t' j : EReal)) (Finset.sum_congr rfl fun i _ => ?_)
    rw [hs', hA', EReal.coe_mul]
  have hR : ∀ i, s i * ∑ j, A i j * t j = ((s' i * ∑ j, A' i j * t' j : ℝ) : EReal) := by
    intro i
    rw [EReal.coe_mul, coe_sum, hs']
    refine congrArg ((s' i : EReal) * ·) (Finset.sum_congr rfl fun j _ => ?_)
    rw [hA', ht', EReal.coe_mul]
  simp only [hL, hR]
  rw [← coe_sum, ← coe_sum]
  refine congrArg _ ?_
  simp only [Finset.sum_mul, Finset.mul_sum]
  rw [Finset.sum_comm]
  exact Finset.sum_congr rfl fun i _ => Finset.sum_congr rfl fun j _ => by ring

end LibERealMatrix
-- ==== Proof.KI_R0Arr.lean ====
/-
  Region 0 at exact arithmetic: its output array and its copy of the adjacency in closed form. The accumulator after the point of reduction step
  `s` of row block `q` is the sum, over the steps up to `s`, of "adjacency block (q, step) times right-factor block
  (step)", entry by entry (it starts from the zero block); so at the last step it is the full product of the row
  block of the adjacency with the right factor, the reduction axis summed block by block — which on the extended reals
  is the sum over the whole axis, regrouping a sum needing no hypothesis.
-/
import proofs.«155634_j8117488189610_2_alg».proof.Proof.KI_R0Fold
import proofs.«155634_j8117488189610_2_alg».proof.Proof.KI_R0Alg
import proofs.«155634_j8117488189610_2_alg».proof.Proof.LibERealMatrix

set_option maxRecDepth 16384

noncomputable section

namespace Cert.KernelIdeal.Reg0

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The printed index maps, decided over the grid: the adjacency window's block is (row block, reduction step), the
    right factor's (reduction step, 0), the bias row's (0, 0), the output's (row block, 0); the row block is the point's
    number divided by 4, the reduction step its remainder. -/
theorem idx_facts : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = 0 ∧ win0_2.index t (1 : Fin 2) = 0
    ∧ win0_3.index t (0 : Fin 2) = t.val / 4 ∧ win0_3.index t (1 : Fin 2) = 0 :=
  (by decide +kernel : ∀ t : Fin grid0.N, _)

/-- The adjacency block and the right-factor block of point `t`. -/
def blkA (c : Dev nD) (t : Fin cfg0.N) : Vec Ideal S2048x2048 .f32 := iblk V c 0 t
def blkM (c : Dev nD) (t : Fin cfg0.N) : Vec Ideal S2048x16 .f32 := iblk V c 1 t
def blkB (c : Dev nD) (t : Fin cfg0.N) : Vec Ideal S1x16 .f32 := iblk V c 2 t

/-- The addend of point `n`: the product of its two input blocks, entry by entry (zero past the grid). -/
def addend (c : Dev nD) (n : ℕ) (y : S2048x16.Idx) : EReal :=
  if h : n < cfg0.N then ∑ k : D.contr.Idx, blkA V c ⟨n, h⟩ (D.lhsIdx y k) * blkM V c ⟨n, h⟩ (D.rhsIdx y k) else 0

theorem accStart_apply (c : Dev nD) (n : ℕ) (hn : n < cfg0.N) (y : S2048x16.Idx) :
    accStart V c n hn y = 0 + addend V c n y := by
  unfold accStart addend blkA blkM
  rw [pay2_apply, pay1_apply, dif_pos hn]

theorem accStep_apply (c : Dev nD) (n : ℕ) (hn : n < cfg0.N) (acc : Vec Ideal S2048x16 .f32) (y : S2048x16.Idx) :
    accStep V c n hn acc y = acc y + addend V c n y := by
  unfold accStep addend blkA blkM
  rw [pay2_apply, dif_pos hn]

/-- The accumulator after point `t` is the sum of the addends of its run of reduction steps up to it. -/
theorem accS_apply (c : Dev nD) (t : ℕ) (ht : t < cfg0.N) (y : S2048x16.Idx) :
    accS V c t ht y = 0 + ∑ s ∈ Finset.range (t % 4 + 1), addend V c (4 * (t / 4) + s) y := by
  have h' : 4 * (t / 4) + t % 4 < cfg0.N := by rw [Nat.div_add_mod]; exact ht
  rw [accS_eq_accAt V c t ht h']
  exact Pipeline.accAt_add_apply (accStart V c) (accStep V c) (fun _ => 0) (addend V c) (4 * (t / 4)) 3
    (fun h i => accStart_apply V c _ h i) (fun n h acc i _ _ => accStep_apply V c n h acc i)
    (t % 4) (by omega) h' y

/-! ## The arrays in natural-number coordinates, and the blocks read there -/

/-- The region's three input arrays as it finds them: the (copied) adjacency, the right factor, the bias row. -/
def arrA (c : Dev nD) : Vec Ideal S8192x8192 .f32 := V c main_arg1
def arrM (c : Dev nD) : Vec Ideal S8192x16 .f32 := V c main_v0
def arrB (c : Dev nD) : Vec Ideal S1x16 .f32 := V c main_v1

/-- The adjacency's entry at row `R`, column `J` (zero outside the array). -/
def aN (c : Dev nD) (R J : ℕ) : EReal := if h : R < 8192 ∧ J < 8192 then arrA V c (ix2 (n0 := 8192) (n1 := 8192) ⟨R, h.1⟩ ⟨J, h.2⟩) else 0
/-- The right factor's entry at row `J`, column `C` (zero outside the array). -/
def mN (c : Dev nD) (J C : ℕ) : EReal := if h : J < 8192 ∧ C < 16 then arrM V c (ix2 (n0 := 8192) (n1 := 16) ⟨J, h.1⟩ ⟨C, h.2⟩) else 0

theorem blkA_apply (c : Dev nD) (t : Fin cfg0.N) (x : S2048x2048.Idx) :
    blkA V c t x = aN V c (t.val / 4 * 2048 + (x 0).val) (t.val % 4 * 2048 + (x 1).val) := by
  have hN : t.val < 16 := lt_of_lt_of_eq t.isLt (show cfg0.N = 16 from N_0)
  have hx0 : (x 0).val < 2048 := (x 0).isLt
  have hx1 : (x 1).val < 2048 := (x 1).isLt
  obtain ⟨e0, e1, -⟩ := idx_facts t
  unfold blkA iblk aN arrA
  rw [View.read_apply, dif_pos ⟨by omega, by omega⟩]
  show V c main_arg1 _ = V c main_arg1 _
  refine congrArg _ (funext fun a => Fin.ext ?_)
  match a with
  | ⟨0, _⟩ => show win0_0.index t (0 : Fin 2) * 2048 + 1 * (x 0).val = t.val / 4 * 2048 + (x 0).val; rw [e0]; omega
  | ⟨1, _⟩ => show win0_0.index t (1 : Fin 2) * 2048 + 1 * (x 1).val = t.val % 4 * 2048 + (x 1).val; rw [e1]; omega

theorem blkM_apply (c : Dev nD) (t : Fin cfg0.N) (x : S2048x16.Idx) :
    blkM V c t x = mN V c (t.val % 4 * 2048 + (x 0).val) (x 1).val := by
  have hN : t.val < 16 := lt_of_lt_of_eq t.isLt (show cfg0.N = 16 from N_0)
  have hx0 : (x 0).val < 2048 := (x 0).isLt
  have hx1 : (x 1).val < 16 := (x 1).isLt
  obtain ⟨-, -, e2, e3, -⟩ := idx_facts t
  unfold blkM iblk mN arrM
  rw [View.read_apply, dif_pos ⟨by omega, by omega⟩]
  show V c main_v0 _ = V c main_v0 _
  refine congrArg _ (funext fun a => Fin.ext ?_)
  match a with
  | ⟨0, _⟩ => show win0_1.index t (0 : Fin 2) * 2048 + 1 * (x 0).val = t.val % 4 * 2048 + (x 0).val; rw [e2]; omega
  | ⟨1, _⟩ => show win0_1.index t (1 : Fin 2) * 16 + 1 * (x 1).val = (x 1).val; rw [e3]; omega

theorem blkB_apply (c : Dev nD) (t : Fin cfg0.N) (x : S1x16.Idx) : blkB V c t x = arrB V c x := by
  obtain ⟨-, -, -, -, e4, e5, -⟩ := idx_facts t
  have hx0 : (x 0).val < 1 := (x 0).isLt
  unfold blkB iblk arrB
  rw [View.read_apply]
  show V c main_v1 _ = V c main_v1 _
  refine congrArg _ (funext fun a => Fin.ext ?_)
  match a with
  | ⟨0, _⟩ => show win0_2.index t (0 : Fin 2) * 1 + 1 * (x 0).val = (x 0).val; rw [e4]; omega
  | ⟨1, _⟩ => show win0_2.index t (1 : Fin 2) * 16 + 1 * (x 1).val = (x 1).val; rw [e5]; omega

/-- A point's addend is the sum over the 2048 positions of its reduction block. -/
theorem addend_eq (c : Dev nD) (n : ℕ) (hn : n < cfg0.N) (y : S2048x16.Idx) :
    addend V c n y = ∑ r ∈ Finset.range 2048, aN V c (n / 4 * 2048 + (y 0).val) (n % 4 * 2048 + r) * mN V c (n % 4 * 2048 + r) (y 1).val := by
  unfold addend
  rw [dif_pos hn, ← Equiv.sum_comp (contrEquiv1 D 2048 rfl rfl).symm,
    ← Fin.sum_univ_eq_sum_range (fun r => aN V c (n / 4 * 2048 + (y 0).val) (n % 4 * 2048 + r) * mN V c (n % 4 * 2048 + r) (y 1).val) 2048]
  refine Finset.sum_congr rfl fun r _ => ?_
  have hk : (((contrEquiv1 D 2048 rfl rfl).symm r) ⟨0, by decide⟩ : ℕ) = r.val := contrEquiv1_symm_val D 2048 rfl rfl r
  rw [blkA_apply, blkM_apply]
  show aN V c (n / 4 * 2048 + (y 0).val) (n % 4 * 2048 + (((contrEquiv1 D 2048 rfl rfl).symm r) ⟨0, by decide⟩ : ℕ))
      * mN V c (n % 4 * 2048 + (((contrEquiv1 D 2048 rfl rfl).symm r) ⟨0, by decide⟩ : ℕ)) (y 1).val = _
  rw [hk]

/-- At the last reduction step of row block `q` the accumulator is the full product of the adjacency's rows with the
    right factor: the reduction axis summed block by block is the sum over the whole axis. -/
theorem accS_last (c : Dev nD) (t : Fin cfg0.N) (h3 : t.val % 4 = 3) (y : S2048x16.Idx) :
    accS V c t.val t.isLt y = 0 + ∑ J ∈ Finset.range 8192, aN V c (t.val / 4 * 2048 + (y 0).val) J * mN V c J (y 1).val := by
  have hN : t.val < 16 := lt_of_lt_of_eq t.isLt (show cfg0.N = 16 from N_0)
  rw [accS_apply, h3, show (8192 : ℕ) = 4 * 2048 from rfl,
    LibERealMatrix.sum_range_mul 4 2048 (fun J => aN V c (t.val / 4 * 2048 + (y 0).val) J * mN V c J (y 1).val)]
  refine congrArg (0 + ·) (Finset.sum_congr rfl fun s hs => ?_)
  have hs4 : s < 4 := Finset.mem_range.mp hs
  have hlt : 4 * (t.val / 4) + s < cfg0.N := lt_of_lt_of_eq (by omega : 4 * (t.val / 4) + s < 16) (show (16 : ℕ) = cfg0.N from N_0.symm)
  rw [addend_eq V c _ hlt y, show (4 * (t.val / 4) + s) / 4 = t.val / 4 from by omega, show (4 * (t.val / 4) + s) % 4 = s from by omega]
  refine Finset.sum_congr rfl fun r _ => ?_
  rw [show s * 2048 + r = r + 2048 * s from by ring]

/-! ## The output array after the run -/

/-- The array the region leaves: at row `R`, column `C`, the product of the adjacency's row `R` with the right factor's
    column `C`, plus the bias row's entry, the maximum with 0 taken. -/
def Gout (c : Dev nD) : Vec Ideal S8192x16 .f32 := fun I =>
  max ((0 + ∑ J ∈ Finset.range 8192, aN V c (I 0).val J * mN V c J (I 1).val) + arrB V c (ix2 (n0 := 1) (n1 := 16) 0 (I 1))) 0

/-- An element of the output block of point `t` sits at row "row block × 2048 + its row", at its own column. -/
theorem emb_out (t : Fin cfg0.N) (y : S2048x16.Idx) (a : Fin 2) :
    ((((cfg0.win 3).blk t).view.emb y) a : ℕ) = if a = 0 then t.val / 4 * 2048 + (y 0).val else (y 1).val := by
  obtain ⟨-, -, -, -, -, -, e6, e7⟩ := idx_facts t
  match a with
  | ⟨0, _⟩ => show win0_3.index t (0 : Fin 2) * 2048 + 1 * (y 0).val = _; rw [e6]; simp
  | ⟨1, _⟩ => show win0_3.index t (1 : Fin 2) * 16 + 1 * (y 1).val = _; rw [e7]; simp

/-- What a point of the last reduction step writes back is its block of `Gout`. -/
theorem flushed_eq (c : Dev nD) (t : Fin cfg0.N) (hf : (cfg0.win 3).flush t = true) :
    (dat V c).flushed 3 t = ((cfg0.win 3).blk t).view.read (Elt Ideal) (Gout V c) := by
  have h3 : t.val % 4 = 3 := (flush0_3 t).mp hf
  show (cfg0.win 3).cut (grid0.coords t) ((dat V c).after 3 t) = _
  rw [after_3, out_last V c t h3]
  funext y
  show k0_pay4 (F := Ideal) (accS V c t.val t.isLt) (blkB V c t) y = Gout V c (((cfg0.win 3).blk t).view.emb y)
  have hy1 : (y 1).val < 16 := (y 1).isLt
  rw [pay3_apply, accS_last V c t h3, blkB_apply]
  unfold Gout
  have r0 : ((((cfg0.win 3).blk t).view.emb y) 0 : ℕ) = t.val / 4 * 2048 + (y 0).val := (emb_out t y 0).trans (if_pos rfl)
  have r1 : ((((cfg0.win 3).blk t).view.emb y) 1 : ℕ) = (y 1).val := (emb_out t y 1).trans (if_neg (by decide))
  have r1' : (((cfg0.win 3).blk t).view.emb y) 1 = y 1 := Fin.ext r1
  rw [r0, r1, r1']

/-- An index of the array is in point `t`'s block iff each coordinate is in the block's range on its axis. -/
theorem mem_blk (t : Fin cfg0.N) (i : S8192x16.Idx) :
    i ∈ ((cfg0.win 3).blk t).view.set ↔ ∀ a : Fin 2, win0_3.index t a * S2048x16.size a ≤ (i a).val ∧ (i a).val < win0_3.index t a * S2048x16.size a + S2048x16.size a := by
  show i ∈ ((View.whole main_v2_0).slice (win0_3.rect t)).set ↔ _
  rw [View.set_slice_whole, Rect.mem_set_unit]
  exact Iff.rfl

/-- Every index of the array is in the block of the last-step point of its row block. -/
theorem cover (i : S8192x16.Idx) : ∃ t : Fin cfg0.N, (cfg0.win 3).flush t = true ∧ i ∈ ((cfg0.win 3).blk t).view.set := by
  have hi0 : (i 0).val < 8192 := (i 0).isLt
  have hi1 : (i 1).val < 16 := (i 1).isLt
  have htn : 4 * ((i 0).val / 2048) + 3 < cfg0.N := lt_of_lt_of_eq (by omega : 4 * ((i 0).val / 2048) + 3 < 16) (show (16 : ℕ) = cfg0.N from N_0.symm)
  refine ⟨⟨4 * ((i 0).val / 2048) + 3, htn⟩, (flush0_3 _).mpr (by show (4 * ((i 0).val / 2048) + 3) % 4 = 3; omega), ?_⟩
  rw [mem_blk]
  obtain ⟨-, -, -, -, -, -, e6, e7⟩ := idx_facts ⟨4 * ((i 0).val / 2048) + 3, htn⟩
  intro a
  match a with
  | ⟨0, _⟩ =>
    show win0_3.index ⟨4 * ((i 0).val / 2048) + 3, htn⟩ (0 : Fin 2) * 2048 ≤ (i 0).val ∧ (i 0).val < win0_3.index ⟨4 * ((i 0).val / 2048) + 3, htn⟩ (0 : Fin 2) * 2048 + 2048
    rw [e6]; show (4 * ((i 0).val / 2048) + 3) / 4 * 2048 ≤ (i 0).val ∧ (i 0).val < (4 * ((i 0).val / 2048) + 3) / 4 * 2048 + 2048
    rw [show (4 * ((i 0).val / 2048) + 3) / 4 = (i 0).val / 2048 from by omega]; omega
  | ⟨1, _⟩ =>
    show win0_3.index ⟨4 * ((i 0).val / 2048) + 3, htn⟩ (1 : Fin 2) * 16 ≤ (i 1).val ∧ (i 1).val < win0_3.index ⟨4 * ((i 0).val / 2048) + 3, htn⟩ (1 : Fin 2) * 16 + 16
    rw [e7]; omega

/-- The output array after the run. -/
theorem final (c : Dev nD) : (dat V c).arrAt 3 cfg0.N = Gout V c :=
  (dat V c).arrAt_eq_of_cover 3 (Gout V c) (flushed_eq V c) cover

/-! ## The copy of the adjacency -/

theorem idx_facts4 : ∀ t : Fin cfg0.N, win0_4.index t (0 : Fin 2) = t.val / 4 ∧ win0_4.index t (1 : Fin 2) = t.val % 4 :=
  (by decide +kernel : ∀ t : Fin grid0.N, _)

/-- The copy the region leaves: the adjacency, entry by entry (a change of float format is the identity here). -/
def Gcopy (c : Dev nD) : Vec Ideal S8192x8192 .bf16 := fun I => arrA V c I

/-- Every point writes back its block of the adjacency. -/
theorem flushed4_eq (c : Dev nD) (t : Fin cfg0.N) (hf : (cfg0.win 4).flush t = true) :
    (dat V c).flushed 4 t = ((cfg0.win 4).blk t).view.read (Elt Ideal) (Gcopy V c) := by
  show (cfg0.win 4).cut (grid0.coords t) ((dat V c).after 4 t) = _
  rw [after_4, copy_at V c t]
  funext y
  show k0_pay2 (F := Ideal) (blkA V c t) y = Gcopy V c (((cfg0.win 4).blk t).view.emb y)
  rw [paycopy_apply]
  unfold blkA iblk Gcopy arrA
  rw [View.read_apply]
  show V c main_arg1 _ = V c main_arg1 _
  obtain ⟨e0, e1, -⟩ := idx_facts t
  obtain ⟨f0, f1⟩ := idx_facts4 t
  refine congrArg _ (funext fun a => Fin.ext ?_)
  match a with
  | ⟨0, _⟩ => show win0_0.index t (0 : Fin 2) * 2048 + 1 * (y 0).val = win0_4.index t (0 : Fin 2) * 2048 + 1 * (y 0).val; rw [e0, f0]
  | ⟨1, _⟩ => show win0_0.index t (1 : Fin 2) * 2048 + 1 * (y 1).val = win0_4.index t (1 : Fin 2) * 2048 + 1 * (y 1).val; rw [e1, f1]

theorem mem_blk4 (t : Fin cfg0.N) (i : S8192x8192.Idx) :
    i ∈ ((cfg0.win 4).blk t).view.set ↔ ∀ a : Fin 2, win0_4.index t a * S2048x2048.size a ≤ (i a).val ∧ (i a).val < win0_4.index t a * S2048x2048.size a + S2048x2048.size a := by
  show i ∈ ((View.whole main_v2_1).slice (win0_4.rect t)).set ↔ _
  rw [View.set_slice_whole, Rect.mem_set_unit]
  exact Iff.rfl

/-- Every index of the copy is in the block of the point (row block, column block). -/
theorem cover4 (i : S8192x8192.Idx) : ∃ t : Fin cfg0.N, (cfg0.win 4).flush t = true ∧ i ∈ ((cfg0.win 4).blk t).view.set := by
  have hi0 : (i 0).val < 8192 := (i 0).isLt
  have hi1 : (i 1).val < 8192 := (i 1).isLt
  have htn : 4 * ((i 0).val / 2048) + (i 1).val / 2048 < cfg0.N := lt_of_lt_of_eq (by omega : 4 * ((i 0).val / 2048) + (i 1).val / 2048 < 16) (show (16 : ℕ) = cfg0.N from N_0.symm)
  refine ⟨⟨4 * ((i 0).val / 2048) + (i 1).val / 2048, htn⟩, flush0_4 _, ?_⟩
  rw [mem_blk4]
  obtain ⟨f0, f1⟩ := idx_facts4 ⟨4 * ((i 0).val / 2048) + (i 1).val / 2048, htn⟩
  intro a
  match a with
  | ⟨0, _⟩ =>
    show win0_4.index ⟨4 * ((i 0).val / 2048) + (i 1).val / 2048, htn⟩ (0 : Fin 2) * 2048 ≤ (i 0).val ∧ (i 0).val < win0_4.index ⟨4 * ((i 0).val / 2048) + (i 1).val / 2048, htn⟩ (0 : Fin 2) * 2048 + 2048
    rw [f0]; show (4 * ((i 0).val / 2048) + (i 1).val / 2048) / 4 * 2048 ≤ (i 0).val ∧ (i 0).val < (4 * ((i 0).val / 2048) + (i 1).val / 2048) / 4 * 2048 + 2048
    rw [show (4 * ((i 0).val / 2048) + (i 1).val / 2048) / 4 = (i 0).val / 2048 from by omega]; omega
  | ⟨1, _⟩ =>
    show win0_4.index ⟨4 * ((i 0).val / 2048) + (i 1).val / 2048, htn⟩ (1 : Fin 2) * 2048 ≤ (i 1).val ∧ (i 1).val < win0_4.index ⟨4 * ((i 0).val / 2048) + (i 1).val / 2048, htn⟩ (1 : Fin 2) * 2048 + 2048
    rw [f1]; show (4 * ((i 0).val / 2048) + (i 1).val / 2048) % 4 * 2048 ≤ (i 1).val ∧ (i 1).val < (4 * ((i 0).val / 2048) + (i 1).val / 2048) % 4 * 2048 + 2048
    rw [show (4 * ((i 0).val / 2048) + (i 1).val / 2048) % 4 = (i 1).val / 2048 from by omega]; omega

/-- The copy after the run is the adjacency. -/
theorem final4 (c : Dev nD) : (dat V c).arrAt 4 cfg0.N = Gcopy V c :=
  (dat V c).arrAt_eq_of_cover 4 (Gcopy V c) (flushed4_eq V c) cover4

/-- The same with the reduction axis as one index type: the product of the adjacency with the right factor, entry by
    entry, then the epilogue. -/
theorem Gout_apply (c : Dev nD) (I : S8192x16.Idx) :
    Gout V c I = max ((∑ k : Fin 8192, arrA V c (ix2 (n0 := 8192) (n1 := 8192) (I 0) k) * arrM V c (ix2 (n0 := 8192) (n1 := 16) k (I 1))) + arrB V c (ix2 (n0 := 1) (n1 := 16) 0 (I 1))) 0 := by
  unfold Gout
  rw [zero_add, ← Fin.sum_univ_eq_sum_range (fun J => aN V c (I 0).val J * mN V c J (I 1).val) 8192]
  have hs : (∑ k : Fin 8192, aN V c (I 0).val k.val * mN V c k.val (I 1).val) = (∑ k : Fin 8192, arrA V c (ix2 (n0 := 8192) (n1 := 8192) (I 0) k) * arrM V c (ix2 (n0 := 8192) (n1 := 16) k (I 1))) :=
    Finset.sum_congr rfl fun k _ => by
      unfold aN mN
      rw [dif_pos ⟨(I 0).isLt, k.isLt⟩, dif_pos ⟨k.isLt, (I 1).isLt⟩]
      rfl
  rw [hs]

end Cert.KernelIdeal.Reg0

end
-- ==== Proof.KI_R1Val.lean ====
/-
  Region 1: what each case of the kernel body leaves, read back as values. A middle step leaves in the accumulator
  "accumulator + adjacency block × right-factor block"; step 0 the same from the zero block; the last step also stores
  into the output block "max(accumulator + bias row, 0)" (or without the max, as the body says) of the accumulator it has
  just updated. So the accumulator after a point is a running fold over the reduction steps of its row block.
-/
import proofs.«155634_j8117488189610_2_alg».proof.Proof.KI_R1Dat
import Idealize.ShloMosaic.Lib.Pipeline.Value

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem hz : (![0, 0] : Fin 2 → Nat) = fun _ => 0 := funext fun a => by fin_cases a <;> rfl

/-- A middle reduction step: the accumulator `xs` takes the partial product of the two input blocks. -/
theorem sout_B_eq (c : Dev nD) (i : grid1.Coords) (arg2 : Memref sig .tc .vmem S4096x2048 .bf16) (harg2 : arg2.IsWhole) (arg3 : Memref sig .tc .vmem S2048x16 .f32) (harg3 : arg3.IsWhole) (arg4 : Memref sig .tc .vmem S1x16 .f32) (harg4 : arg4.IsWhole) (arg5 : Memref sig .tc .vmem S4096x16 .f32) (harg5 : arg5.IsWhole) (arg6 : Memref sig .tc .vmem S4096x16 .f32) (harg6 : arg6.IsWhole) (hc0 : ¬condFirst i) (hc1 : ¬condLast i) (x0 : Vec F S4096x2048 .bf16) (x1 : Vec F S2048x16 .f32) (x2 : Vec F S1x16 .f32) (xs : Vec F S4096x16 .f32) :
    sout_B c i arg2 harg2 arg3 harg3 arg4 harg4 arg5 harg5 arg6 harg6 hc0 hc1 x0 x1 x2 xs = k1_pay2 x0 xs x1 := by
  unfold sout_B
  rw [View.read_writes_eq_canon _ _ _ (scover_B c i arg2 harg2 arg3 harg3 arg4 harg4 arg5 harg5 arg6 harg6 hc0 hc1 x0 x1 x2 xs)]
  unfold kernelRun_B
  dsimp only
  rw [View.canon_unit_zero hz]
  simp only [View.readAt_eq_ld, harg2.read_unread, harg3.read_unread, harg4.read_unread, harg5.read_unread, harg6.read_unread,
    View.ld_unit_zero (S := S4096x2048) hz, View.ld_unit_zero (S := S2048x16) hz, View.ld_unit_zero (S := S1x16) hz, View.ld_unit_zero (S := S4096x16) hz]

/-- Reduction step 0: the accumulator is reset to the zero block, read back, and takes the first partial product. -/
theorem sout_A_eq (c : Dev nD) (i : grid1.Coords) (arg2 : Memref sig .tc .vmem S4096x2048 .bf16) (harg2 : arg2.IsWhole) (arg3 : Memref sig .tc .vmem S2048x16 .f32) (harg3 : arg3.IsWhole) (arg4 : Memref sig .tc .vmem S1x16 .f32) (harg4 : arg4.IsWhole) (arg5 : Memref sig .tc .vmem S4096x16 .f32) (harg5 : arg5.IsWhole) (arg6 : Memref sig .tc .vmem S4096x16 .f32) (harg6 : arg6.IsWhole) (hc0 : condFirst i) (hc1 : ¬condLast i) (x0 : Vec F S4096x2048 .bf16) (x1 : Vec F S2048x16 .f32) (x2 : Vec F S1x16 .f32) :
    sout_A c i arg2 harg2 arg3 harg3 arg4 harg4 arg5 harg5 arg6 harg6 hc0 hc1 x0 x1 x2 = k1_pay2 x0 (k1_pay1 (F := F)) x1 := by
  unfold sout_A
  rw [View.read_writes_eq_canon _ _ _ (scover_A c i arg2 harg2 arg3 harg3 arg4 harg4 arg5 harg5 arg6 harg6 hc0 hc1 x0 x1 x2)]
  unfold kernelRun_A
  dsimp only
  sl_unfold_words
  rw [View.canon_cons_unit_zero (S := S4096x16) hz, View.readCov_unit_zero (S := S4096x16) _ hz]
  simp only [View.readAt_eq_ld, harg2.read_unread, harg3.read_unread, harg4.read_unread, harg5.read_unread, harg6.read_unread,
    View.ld_unit_zero (S := S4096x2048) hz, View.ld_unit_zero (S := S2048x16) hz, View.ld_unit_zero (S := S1x16) hz, View.ld_unit_zero (S := S4096x16) hz]

/-- The last reduction step, the accumulator: as at a middle step. -/
theorem sout_C_eq (c : Dev nD) (i : grid1.Coords) (arg2 : Memref sig .tc .vmem S4096x2048 .bf16) (harg2 : arg2.IsWhole) (arg3 : Memref sig .tc .vmem S2048x16 .f32) (harg3 : arg3.IsWhole) (arg4 : Memref sig .tc .vmem S1x16 .f32) (harg4 : arg4.IsWhole) (arg5 : Memref sig .tc .vmem S4096x16 .f32) (harg5 : arg5.IsWhole) (arg6 : Memref sig .tc .vmem S4096x16 .f32) (harg6 : arg6.IsWhole) (hc0 : ¬condFirst i) (hc1 : condLast i) (x0 : Vec F S4096x2048 .bf16) (x1 : Vec F S2048x16 .f32) (x2 : Vec F S1x16 .f32) (xs : Vec F S4096x16 .f32) :
    sout_C c i arg2 harg2 arg3 harg3 arg4 harg4 arg5 harg5 arg6 harg6 hc0 hc1 x0 x1 x2 xs = k1_pay2 x0 xs x1 := by
  unfold sout_C
  rw [View.read_writes_eq_canon _ _ _ (scover_C c i arg2 harg2 arg3 harg3 arg4 harg4 arg5 harg5 arg6 harg6 hc0 hc1 x0 x1 x2 xs)]
  unfold kernelRun_C
  dsimp only
  sl_unfold_words
  rw [View.canon_unit_zero hz]
  simp only [View.readAt_eq_ld, harg2.read_unread, harg3.read_unread, harg4.read_unread, harg5.read_unread, harg6.read_unread,
    View.ld_unit_zero (S := S4096x2048) hz, View.ld_unit_zero (S := S2048x16) hz, View.ld_unit_zero (S := S1x16) hz, View.ld_unit_zero (S := S4096x16) hz]

/-- The last reduction step, the output block: the epilogue of the accumulator just updated and the bias row. -/
theorem out_C_eq (c : Dev nD) (i : grid1.Coords) (arg2 : Memref sig .tc .vmem S4096x2048 .bf16) (harg2 : arg2.IsWhole) (arg3 : Memref sig .tc .vmem S2048x16 .f32) (harg3 : arg3.IsWhole) (arg4 : Memref sig .tc .vmem S1x16 .f32) (harg4 : arg4.IsWhole) (arg5 : Memref sig .tc .vmem S4096x16 .f32) (harg5 : arg5.IsWhole) (arg6 : Memref sig .tc .vmem S4096x16 .f32) (harg6 : arg6.IsWhole) (hc0 : ¬condFirst i) (hc1 : condLast i) (x0 : Vec F S4096x2048 .bf16) (x1 : Vec F S2048x16 .f32) (x2 : Vec F S1x16 .f32) (xs : Vec F S4096x16 .f32) :
    out_C c i arg2 harg2 arg3 harg3 arg4 harg4 arg5 harg5 arg6 harg6 hc0 hc1 x0 x1 x2 xs = k1_pay3 (k1_pay2 x0 xs x1) x2 := by
  unfold out_C
  rw [View.read_writes_eq_canon _ _ _ (cover_C c i arg2 harg2 arg3 harg3 arg4 harg4 arg5 harg5 arg6 harg6 hc0 hc1 x0 x1 x2 xs)]
  unfold kernelRun_C
  dsimp only
  sl_unfold_words
  rw [View.canon_unit_zero hz, View.readCov_unit_zero (S := S4096x16) _ hz]
  simp only [View.readAt_eq_ld, harg2.read_unread, harg3.read_unread, harg4.read_unread, harg5.read_unread, harg6.read_unread,
    View.ld_unit_zero (S := S4096x2048) hz, View.ld_unit_zero (S := S2048x16) hz, View.ld_unit_zero (S := S1x16) hz, View.ld_unit_zero (S := S4096x16) hz]

end Cert.KernelIdeal.Reg1

end
-- ==== Proof.KI_R1Fold.lean ====
/-
  Region 1: the accumulator as a fold. It resets at the points whose reduction step is 0 and takes one more partial
  product at every other point, so after any point it is the fold over that point's run of reduction steps; at the last
  step the output block holds the epilogue of that fold and the bias row.
-/
import proofs.«155634_j8117488189610_2_alg».proof.Proof.KI_R1Val

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The accumulator after point `n`. -/
def accS (c : Dev nD) (n : ℕ) (hn : n < cfg1.N) : Vec F S4096x16 .f32 := (outsAt V c n hn).2

/-- What reduction step 0 leaves: the partial product of the point's blocks added to the zero block. -/
def accStart (c : Dev nD) (n : ℕ) (hn : n < cfg1.N) : Vec F S4096x16 .f32 :=
  k1_pay2 (iblk V c 0 ⟨n, hn⟩) (k1_pay1 (F := F)) (iblk V c 1 ⟨n, hn⟩)
/-- What a later step makes of the accumulator: the point's partial product added to it. -/
def accStep (c : Dev nD) (n : ℕ) (hn : n < cfg1.N) (acc : Vec F S4096x16 .f32) : Vec F S4096x16 .f32 :=
  k1_pay2 (iblk V c 0 ⟨n, hn⟩) acc (iblk V c 1 ⟨n, hn⟩)

attribute [local irreducible] sout_A sout_B sout_C out_C outIdle

theorem accS_start (c : Dev nD) (n : ℕ) (hn : n < cfg1.N) (h0 : n % 4 = 0) : accS V c n hn = accStart V c n hn := by
  have h1 : ¬(⟨n, hn⟩ : Fin cfg1.N).val % 4 = 3 := by dsimp only; omega
  have e1 : (outsAt V c n hn).2 = sout_A c (grid1.coords ⟨n, hn⟩) (ms_0 ⟨n, hn⟩) (hs_0 ⟨n, hn⟩) (ms_1 ⟨n, hn⟩) (hs_1 ⟨n, hn⟩) (ms_2 ⟨n, hn⟩) (hs_2 ⟨n, hn⟩) (ms_3 ⟨n, hn⟩) (hs_3 ⟨n, hn⟩) scM (Memref.isWhole_whole _) ((hcondFirst ⟨n, hn⟩).mpr h0) (fun h => h1 ((hcondLast ⟨n, hn⟩).mp h)) (iblk V c 0 ⟨n, hn⟩) (iblk V c 1 ⟨n, hn⟩) (iblk V c 2 ⟨n, hn⟩) :=
    Eq.trans (b := Prod.snd (outIdle, sout_A c (grid1.coords ⟨n, hn⟩) (ms_0 ⟨n, hn⟩) (hs_0 ⟨n, hn⟩) (ms_1 ⟨n, hn⟩) (hs_1 ⟨n, hn⟩) (ms_2 ⟨n, hn⟩) (hs_2 ⟨n, hn⟩) (ms_3 ⟨n, hn⟩) (hs_3 ⟨n, hn⟩) scM (Memref.isWhole_whole _) ((hcondFirst ⟨n, hn⟩).mpr h0) (fun h => h1 ((hcondLast ⟨n, hn⟩).mp h)) (iblk V c 0 ⟨n, hn⟩) (iblk V c 1 ⟨n, hn⟩) (iblk V c 2 ⟨n, hn⟩))) (congrArg Prod.snd (outsAt_A V c ⟨n, hn⟩ h0 h1)) (Eq.refl _)
  exact Eq.trans (b := sout_A c (grid1.coords ⟨n, hn⟩) (ms_0 ⟨n, hn⟩) (hs_0 ⟨n, hn⟩) (ms_1 ⟨n, hn⟩) (hs_1 ⟨n, hn⟩) (ms_2 ⟨n, hn⟩) (hs_2 ⟨n, hn⟩) (ms_3 ⟨n, hn⟩) (hs_3 ⟨n, hn⟩) scM (Memref.isWhole_whole _) ((hcondFirst ⟨n, hn⟩).mpr h0) (fun h => h1 ((hcondLast ⟨n, hn⟩).mp h)) (iblk V c 0 ⟨n, hn⟩) (iblk V c 1 ⟨n, hn⟩) (iblk V c 2 ⟨n, hn⟩)) e1 (sout_A_eq c (grid1.coords ⟨n, hn⟩) (ms_0 ⟨n, hn⟩) (hs_0 ⟨n, hn⟩) (ms_1 ⟨n, hn⟩) (hs_1 ⟨n, hn⟩) (ms_2 ⟨n, hn⟩) (hs_2 ⟨n, hn⟩) (ms_3 ⟨n, hn⟩) (hs_3 ⟨n, hn⟩) scM (Memref.isWhole_whole _) ((hcondFirst ⟨n, hn⟩).mpr h0) (fun h => h1 ((hcondLast ⟨n, hn⟩).mp h)) (iblk V c 0 ⟨n, hn⟩) (iblk V c 1 ⟨n, hn⟩) (iblk V c 2 ⟨n, hn⟩))

theorem accS_step (c : Dev nD) (n : ℕ) (hn : n + 1 < cfg1.N) (h0 : ¬(n + 1) % 4 = 0) :
    accS V c (n + 1) hn = accStep V c (n + 1) hn (accS V c n (Nat.lt_of_succ_lt hn)) := by
  by_cases h1 : (n + 1) % 4 = 3
  · have e1 : (outsAt V c (n + 1) hn).2 = sout_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt V c n (Nat.lt_of_succ_lt hn)).2 :=
      Eq.trans (b := Prod.snd (out_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt V c n (Nat.lt_of_succ_lt hn)).2, sout_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt V c n (Nat.lt_of_succ_lt hn)).2)) (congrArg Prod.snd (outsAt_C V c ⟨n + 1, hn⟩ h0 h1)) (Eq.refl _)
    exact Eq.trans (b := sout_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt V c n (Nat.lt_of_succ_lt hn)).2) e1 (sout_C_eq c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt V c n (Nat.lt_of_succ_lt hn)).2)
  · have e1 : (outsAt V c (n + 1) hn).2 = sout_B c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt V c n (Nat.lt_of_succ_lt hn)).2 :=
      Eq.trans (b := Prod.snd (outIdle, sout_B c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt V c n (Nat.lt_of_succ_lt hn)).2)) (congrArg Prod.snd (outsAt_B V c ⟨n + 1, hn⟩ h0 h1)) (Eq.refl _)
    exact Eq.trans (b := sout_B c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt V c n (Nat.lt_of_succ_lt hn)).2) e1 (sout_B_eq c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt V c n (Nat.lt_of_succ_lt hn)).2)

/-- The accumulator after any point is the fold over its run of reduction steps. -/
theorem accS_eq_accAt (c : Dev nD) (t : ℕ) (ht : t < cfg1.N) (h' : 4 * (t / 4) + t % 4 < cfg1.N) :
    accS V c t ht = Pipeline.accAt (accStart V c) (accStep V c) (4 * (t / 4)) (t % 4) h' :=
  Pipeline.eq_accAt_of_mod (accS V c) 4 (accStart V c) (accStep V c)
    (fun n h h0 => accS_start V c n h h0) (fun n h h0 => accS_step V c n h h0) (by decide) t ht h'

/-- At a point of the last reduction step the output block's staging buffer holds the epilogue of that point's
    accumulator and the bias row. -/
theorem out_last (c : Dev nD) (t : Fin cfg1.N) (h1 : t.val % 4 = 3) :
    (outsAt V c t.val t.isLt).1 = k1_pay3 (accS V c t.val t.isLt) (iblk V c 2 t) := by
  have h0 : ¬t.val % 4 = 0 := by omega
  have es : accS V c t.val t.isLt = k1_pay2 (iblk V c 0 t) (outsAt V c (t.val - 1) (Nat.lt_of_le_of_lt (Nat.sub_le _ _) t.isLt)).2 (iblk V c 1 t) :=
    Eq.trans (b := sout_C c (grid1.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2)
      (Eq.trans (b := Prod.snd (out_C c (grid1.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2, sout_C c (grid1.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2)) (congrArg Prod.snd (outsAt_C V c t h0 h1)) (Eq.refl _))
      (sout_C_eq c (grid1.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2)
  have eo : (outsAt V c t.val t.isLt).1 = k1_pay3 (k1_pay2 (iblk V c 0 t) (outsAt V c (t.val - 1) (Nat.lt_of_le_of_lt (Nat.sub_le _ _) t.isLt)).2 (iblk V c 1 t)) (iblk V c 2 t) :=
    Eq.trans (b := out_C c (grid1.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2)
      (Eq.trans (b := Prod.fst (out_C c (grid1.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2, sout_C c (grid1.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2)) (congrArg Prod.fst (outsAt_C V c t h0 h1)) (Eq.refl _))
      (out_C_eq c (grid1.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2)
  rw [eo, es]

end Cert.KernelIdeal.Reg1

end
-- ==== Proof.KI_R1Alg.lean ====
/-
  Region 1's payloads at exact arithmetic, read at an index: the reset block is 0; the accumulation step adds to the
  accumulator's entry the sum over the block's contraction axis of the products of the two input blocks' entries
  (a change of float format being the identity there); the epilogue is the entry plus the bias row's entry of its
  column, then (where the body applies it) the maximum with 0.
-/
import proofs.«155634_j8117488189610_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Reg1

open Cert.KernelIdeal Cert.KernelIdeal.Gen
open Idealize.ShloMosaic Idealize.ShloMosaic.TcCoe Idealize.ShloMosaic.ValueIdx

/-- The dimension numbers of the block product. -/
abbrev D : DotDims S4096x2048 S2048x16 S4096x16 := dot_S4096x2048_S2048x16_S4096x16_1_0_0_1_n_n

theorem pay1_apply (j : S4096x16.Idx) : k1_pay1 (F := Ideal) j = 0 := by
  unfold k1_pay1
  simp only [shapeCast_self]
  exact Ideal.ofBits_zero_f32

theorem pay2_apply (x0 : Vec Ideal S4096x2048 .bf16) (xs : Vec Ideal S4096x16 .f32) (x1 : Vec Ideal S2048x16 .f32) (j : S4096x16.Idx) :
    k1_pay2 (F := Ideal) x0 xs x1 j = xs j + ∑ k : D.contr.Idx, x0 (D.lhsIdx j k) * x1 (D.rhsIdx j k) := by
  unfold k1_pay2
  simp only [shapeCast_self, matmul]
  rw [addf_apply, Ideal.matmul_constant_zero_apply]
  rfl

theorem pay3_apply (v : Vec Ideal S4096x16 .f32) (b : Vec Ideal S1x16 .f32) (j : S4096x16.Idx) :
    k1_pay3 (F := Ideal) v b j = max (v j + b (ix2 (n0 := 1) (n1 := 16) 0 (j 1))) 0 := by
  unfold k1_pay3
  simp only [shapeCast_self]
  rw [maximumf_apply, addf_apply, broadcast_apply,
    broadcastTo_apply b _ j (ix2 (n0 := 1) (n1 := 16) 0 (j 1)) (fun a => by
      match a with
      | ⟨0, _⟩ => rfl
      | ⟨1, _⟩ => rfl)]
  show max _ (Ideal.ofBits .f32 0x00000000#32) = _
  rw [Ideal.ofBits_zero_f32]

end Cert.KernelIdeal.Reg1

end
-- ==== Proof.KI_R1Arr.lean ====
/-
  Region 1 at exact arithmetic: its output array in closed form. The accumulator after the point of reduction step
  `s` of row block `q` is the sum, over the steps up to `s`, of "adjacency block (q, step) times right-factor block
  (step)", entry by entry (it starts from the zero block); so at the last step it is the full product of the row
  block of the adjacency with the right factor, the reduction axis summed block by block — which on the extended reals
  is the sum over the whole axis, regrouping a sum needing no hypothesis.
-/
import proofs.«155634_j8117488189610_2_alg».proof.Proof.KI_R1Fold
import proofs.«155634_j8117488189610_2_alg».proof.Proof.KI_R1Alg
import proofs.«155634_j8117488189610_2_alg».proof.Proof.LibERealMatrix

set_option maxRecDepth 16384

noncomputable section

namespace Cert.KernelIdeal.Reg1

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The printed index maps, decided over the grid: the adjacency window's block is (row block, reduction step), the
    right factor's (reduction step, 0), the bias row's (0, 0), the output's (row block, 0); the row block is the point's
    number divided by 4, the reduction step its remainder. -/
theorem idx_facts : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = 0 ∧ win1_2.index t (1 : Fin 2) = 0
    ∧ win1_3.index t (0 : Fin 2) = t.val / 4 ∧ win1_3.index t (1 : Fin 2) = 0 :=
  (by decide +kernel : ∀ t : Fin grid1.N, _)

/-- The adjacency block and the right-factor block of point `t`. -/
def blkA (c : Dev nD) (t : Fin cfg1.N) : Vec Ideal S4096x2048 .bf16 := iblk V c 0 t
def blkM (c : Dev nD) (t : Fin cfg1.N) : Vec Ideal S2048x16 .f32 := iblk V c 1 t
def blkB (c : Dev nD) (t : Fin cfg1.N) : Vec Ideal S1x16 .f32 := iblk V c 2 t

/-- The addend of point `n`: the product of its two input blocks, entry by entry (zero past the grid). -/
def addend (c : Dev nD) (n : ℕ) (y : S4096x16.Idx) : EReal :=
  if h : n < cfg1.N then ∑ k : D.contr.Idx, blkA V c ⟨n, h⟩ (D.lhsIdx y k) * blkM V c ⟨n, h⟩ (D.rhsIdx y k) else 0

theorem accStart_apply (c : Dev nD) (n : ℕ) (hn : n < cfg1.N) (y : S4096x16.Idx) :
    accStart V c n hn y = 0 + addend V c n y := by
  unfold accStart addend blkA blkM
  rw [pay2_apply, pay1_apply, dif_pos hn]

theorem accStep_apply (c : Dev nD) (n : ℕ) (hn : n < cfg1.N) (acc : Vec Ideal S4096x16 .f32) (y : S4096x16.Idx) :
    accStep V c n hn acc y = acc y + addend V c n y := by
  unfold accStep addend blkA blkM
  rw [pay2_apply, dif_pos hn]

/-- The accumulator after point `t` is the sum of the addends of its run of reduction steps up to it. -/
theorem accS_apply (c : Dev nD) (t : ℕ) (ht : t < cfg1.N) (y : S4096x16.Idx) :
    accS V c t ht y = 0 + ∑ s ∈ Finset.range (t % 4 + 1), addend V c (4 * (t / 4) + s) y := by
  have h' : 4 * (t / 4) + t % 4 < cfg1.N := by rw [Nat.div_add_mod]; exact ht
  rw [accS_eq_accAt V c t ht h']
  exact Pipeline.accAt_add_apply (accStart V c) (accStep V c) (fun _ => 0) (addend V c) (4 * (t / 4)) 3
    (fun h i => accStart_apply V c _ h i) (fun n h acc i _ _ => accStep_apply V c n h acc i)
    (t % 4) (by omega) h' y

/-! ## The arrays in natural-number coordinates, and the blocks read there -/

/-- The region's three input arrays as it finds them: the (copied) adjacency, the right factor, the bias row. -/
def arrA (c : Dev nD) : Vec Ideal S8192x8192 .bf16 := V c main_v2_1
def arrM (c : Dev nD) : Vec Ideal S8192x16 .f32 := V c main_v22
def arrB (c : Dev nD) : Vec Ideal S1x16 .f32 := V c main_v23

/-- The adjacency's entry at row `R`, column `J` (zero outside the array). -/
def aN (c : Dev nD) (R J : ℕ) : EReal := if h : R < 8192 ∧ J < 8192 then arrA V c (ix2 (n0 := 8192) (n1 := 8192) ⟨R, h.1⟩ ⟨J, h.2⟩) else 0
/-- The right factor's entry at row `J`, column `C` (zero outside the array). -/
def mN (c : Dev nD) (J C : ℕ) : EReal := if h : J < 8192 ∧ C < 16 then arrM V c (ix2 (n0 := 8192) (n1 := 16) ⟨J, h.1⟩ ⟨C, h.2⟩) else 0

theorem blkA_apply (c : Dev nD) (t : Fin cfg1.N) (x : S4096x2048.Idx) :
    blkA V c t x = aN V c (t.val / 4 * 4096 + (x 0).val) (t.val % 4 * 2048 + (x 1).val) := by
  have hN : t.val < 8 := lt_of_lt_of_eq t.isLt (show cfg1.N = 8 from N_1)
  have hx0 : (x 0).val < 4096 := (x 0).isLt
  have hx1 : (x 1).val < 2048 := (x 1).isLt
  obtain ⟨e0, e1, -⟩ := idx_facts t
  unfold blkA iblk aN arrA
  rw [View.read_apply, dif_pos ⟨by omega, by omega⟩]
  show V c main_v2_1 _ = V c main_v2_1 _
  refine congrArg _ (funext fun a => Fin.ext ?_)
  match a with
  | ⟨0, _⟩ => show win1_0.index t (0 : Fin 2) * 4096 + 1 * (x 0).val = t.val / 4 * 4096 + (x 0).val; rw [e0]; omega
  | ⟨1, _⟩ => show win1_0.index t (1 : Fin 2) * 2048 + 1 * (x 1).val = t.val % 4 * 2048 + (x 1).val; rw [e1]; omega

theorem blkM_apply (c : Dev nD) (t : Fin cfg1.N) (x : S2048x16.Idx) :
    blkM V c t x = mN V c (t.val % 4 * 2048 + (x 0).val) (x 1).val := by
  have hN : t.val < 8 := lt_of_lt_of_eq t.isLt (show cfg1.N = 8 from N_1)
  have hx0 : (x 0).val < 2048 := (x 0).isLt
  have hx1 : (x 1).val < 16 := (x 1).isLt
  obtain ⟨-, -, e2, e3, -⟩ := idx_facts t
  unfold blkM iblk mN arrM
  rw [View.read_apply, dif_pos ⟨by omega, by omega⟩]
  show V c main_v22 _ = V c main_v22 _
  refine congrArg _ (funext fun a => Fin.ext ?_)
  match a with
  | ⟨0, _⟩ => show win1_1.index t (0 : Fin 2) * 2048 + 1 * (x 0).val = t.val % 4 * 2048 + (x 0).val; rw [e2]; omega
  | ⟨1, _⟩ => show win1_1.index t (1 : Fin 2) * 16 + 1 * (x 1).val = (x 1).val; rw [e3]; omega

theorem blkB_apply (c : Dev nD) (t : Fin cfg1.N) (x : S1x16.Idx) : blkB V c t x = arrB V c x := by
  obtain ⟨-, -, -, -, e4, e5, -⟩ := idx_facts t
  have hx0 : (x 0).val < 1 := (x 0).isLt
  unfold blkB iblk arrB
  rw [View.read_apply]
  show V c main_v23 _ = V c main_v23 _
  refine congrArg _ (funext fun a => Fin.ext ?_)
  match a with
  | ⟨0, _⟩ => show win1_2.index t (0 : Fin 2) * 1 + 1 * (x 0).val = (x 0).val; rw [e4]; omega
  | ⟨1, _⟩ => show win1_2.index t (1 : Fin 2) * 16 + 1 * (x 1).val = (x 1).val; rw [e5]; omega

/-- A point's addend is the sum over the 2048 positions of its reduction block. -/
theorem addend_eq (c : Dev nD) (n : ℕ) (hn : n < cfg1.N) (y : S4096x16.Idx) :
    addend V c n y = ∑ r ∈ Finset.range 2048, aN V c (n / 4 * 4096 + (y 0).val) (n % 4 * 2048 + r) * mN V c (n % 4 * 2048 + r) (y 1).val := by
  unfold addend
  rw [dif_pos hn, ← Equiv.sum_comp (contrEquiv1 D 2048 rfl rfl).symm,
    ← Fin.sum_univ_eq_sum_range (fun r => aN V c (n / 4 * 4096 + (y 0).val) (n % 4 * 2048 + r) * mN V c (n % 4 * 2048 + r) (y 1).val) 2048]
  refine Finset.sum_congr rfl fun r _ => ?_
  have hk : (((contrEquiv1 D 2048 rfl rfl).symm r) ⟨0, by decide⟩ : ℕ) = r.val := contrEquiv1_symm_val D 2048 rfl rfl r
  rw [blkA_apply, blkM_apply]
  show aN V c (n / 4 * 4096 + (y 0).val) (n % 4 * 2048 + (((contrEquiv1 D 2048 rfl rfl).symm r) ⟨0, by decide⟩ : ℕ))
      * mN V c (n % 4 * 2048 + (((contrEquiv1 D 2048 rfl rfl).symm r) ⟨0, by decide⟩ : ℕ)) (y 1).val = _
  rw [hk]

/-- At the last reduction step of row block `q` the accumulator is the full product of the adjacency's rows with the
    right factor: the reduction axis summed block by block is the sum over the whole axis. -/
theorem accS_last (c : Dev nD) (t : Fin cfg1.N) (h3 : t.val % 4 = 3) (y : S4096x16.Idx) :
    accS V c t.val t.isLt y = 0 + ∑ J ∈ Finset.range 8192, aN V c (t.val / 4 * 4096 + (y 0).val) J * mN V c J (y 1).val := by
  have hN : t.val < 8 := lt_of_lt_of_eq t.isLt (show cfg1.N = 8 from N_1)
  rw [accS_apply, h3, show (8192 : ℕ) = 4 * 2048 from rfl,
    LibERealMatrix.sum_range_mul 4 2048 (fun J => aN V c (t.val / 4 * 4096 + (y 0).val) J * mN V c J (y 1).val)]
  refine congrArg (0 + ·) (Finset.sum_congr rfl fun s hs => ?_)
  have hs4 : s < 4 := Finset.mem_range.mp hs
  have hlt : 4 * (t.val / 4) + s < cfg1.N := lt_of_lt_of_eq (by omega : 4 * (t.val / 4) + s < 8) (show (8 : ℕ) = cfg1.N from N_1.symm)
  rw [addend_eq V c _ hlt y, show (4 * (t.val / 4) + s) / 4 = t.val / 4 from by omega, show (4 * (t.val / 4) + s) % 4 = s from by omega]
  refine Finset.sum_congr rfl fun r _ => ?_
  rw [show s * 2048 + r = r + 2048 * s from by ring]

/-! ## The output array after the run -/

/-- The array the region leaves: at row `R`, column `C`, the product of the adjacency's row `R` with the right factor's
    column `C`, plus the bias row's entry, the maximum with 0 taken. -/
def Gout (c : Dev nD) : Vec Ideal S8192x16 .f32 := fun I =>
  max ((0 + ∑ J ∈ Finset.range 8192, aN V c (I 0).val J * mN V c J (I 1).val) + arrB V c (ix2 (n0 := 1) (n1 := 16) 0 (I 1))) 0

/-- An element of the output block of point `t` sits at row "row block × 4096 + its row", at its own column. -/
theorem emb_out (t : Fin cfg1.N) (y : S4096x16.Idx) (a : Fin 2) :
    ((((cfg1.win 3).blk t).view.emb y) a : ℕ) = if a = 0 then t.val / 4 * 4096 + (y 0).val else (y 1).val := by
  obtain ⟨-, -, -, -, -, -, e6, e7⟩ := idx_facts t
  match a with
  | ⟨0, _⟩ => show win1_3.index t (0 : Fin 2) * 4096 + 1 * (y 0).val = _; rw [e6]; simp
  | ⟨1, _⟩ => show win1_3.index t (1 : Fin 2) * 16 + 1 * (y 1).val = _; rw [e7]; simp

/-- What a point of the last reduction step writes back is its block of `Gout`. -/
theorem flushed_eq (c : Dev nD) (t : Fin cfg1.N) (hf : (cfg1.win 3).flush t = true) :
    (dat V c).flushed 3 t = ((cfg1.win 3).blk t).view.read (Elt Ideal) (Gout V c) := by
  have h3 : t.val % 4 = 3 := (flush1_3 t).mp hf
  show (cfg1.win 3).cut (grid1.coords t) ((dat V c).after 3 t) = _
  rw [after_3, out_last V c t h3]
  funext y
  show k1_pay3 (F := Ideal) (accS V c t.val t.isLt) (blkB V c t) y = Gout V c (((cfg1.win 3).blk t).view.emb y)
  have hy1 : (y 1).val < 16 := (y 1).isLt
  rw [pay3_apply, accS_last V c t h3, blkB_apply]
  unfold Gout
  have r0 : ((((cfg1.win 3).blk t).view.emb y) 0 : ℕ) = t.val / 4 * 4096 + (y 0).val := (emb_out t y 0).trans (if_pos rfl)
  have r1 : ((((cfg1.win 3).blk t).view.emb y) 1 : ℕ) = (y 1).val := (emb_out t y 1).trans (if_neg (by decide))
  have r1' : (((cfg1.win 3).blk t).view.emb y) 1 = y 1 := Fin.ext r1
  rw [r0, r1, r1']

/-- An index of the array is in point `t`'s block iff each coordinate is in the block's range on its axis. -/
theorem mem_blk (t : Fin cfg1.N) (i : S8192x16.Idx) :
    i ∈ ((cfg1.win 3).blk t).view.set ↔ ∀ a : Fin 2, win1_3.index t a * S4096x16.size a ≤ (i a).val ∧ (i a).val < win1_3.index t a * S4096x16.size a + S4096x16.size a := by
  show i ∈ ((View.whole main_v24).slice (win1_3.rect t)).set ↔ _
  rw [View.set_slice_whole, Rect.mem_set_unit]
  exact Iff.rfl

/-- Every index of the array is in the block of the last-step point of its row block. -/
theorem cover (i : S8192x16.Idx) : ∃ t : Fin cfg1.N, (cfg1.win 3).flush t = true ∧ i ∈ ((cfg1.win 3).blk t).view.set := by
  have hi0 : (i 0).val < 8192 := (i 0).isLt
  have hi1 : (i 1).val < 16 := (i 1).isLt
  have htn : 4 * ((i 0).val / 4096) + 3 < cfg1.N := lt_of_lt_of_eq (by omega : 4 * ((i 0).val / 4096) + 3 < 8) (show (8 : ℕ) = cfg1.N from N_1.symm)
  refine ⟨⟨4 * ((i 0).val / 4096) + 3, htn⟩, (flush1_3 _).mpr (by show (4 * ((i 0).val / 4096) + 3) % 4 = 3; omega), ?_⟩
  rw [mem_blk]
  obtain ⟨-, -, -, -, -, -, e6, e7⟩ := idx_facts ⟨4 * ((i 0).val / 4096) + 3, htn⟩
  intro a
  match a with
  | ⟨0, _⟩ =>
    show win1_3.index ⟨4 * ((i 0).val / 4096) + 3, htn⟩ (0 : Fin 2) * 4096 ≤ (i 0).val ∧ (i 0).val < win1_3.index ⟨4 * ((i 0).val / 4096) + 3, htn⟩ (0 : Fin 2) * 4096 + 4096
    rw [e6]; show (4 * ((i 0).val / 4096) + 3) / 4 * 4096 ≤ (i 0).val ∧ (i 0).val < (4 * ((i 0).val / 4096) + 3) / 4 * 4096 + 4096
    rw [show (4 * ((i 0).val / 4096) + 3) / 4 = (i 0).val / 4096 from by omega]; omega
  | ⟨1, _⟩ =>
    show win1_3.index ⟨4 * ((i 0).val / 4096) + 3, htn⟩ (1 : Fin 2) * 16 ≤ (i 1).val ∧ (i 1).val < win1_3.index ⟨4 * ((i 0).val / 4096) + 3, htn⟩ (1 : Fin 2) * 16 + 16
    rw [e7]; omega

/-- The output array after the run. -/
theorem final (c : Dev nD) : (dat V c).arrAt 3 cfg1.N = Gout V c :=
  (dat V c).arrAt_eq_of_cover 3 (Gout V c) (flushed_eq V c) cover

/-- The same with the reduction axis as one index type: the product of the adjacency with the right factor, entry by
    entry, then the epilogue. -/
theorem Gout_apply (c : Dev nD) (I : S8192x16.Idx) :
    Gout V c I = max ((∑ k : Fin 8192, arrA V c (ix2 (n0 := 8192) (n1 := 8192) (I 0) k) * arrM V c (ix2 (n0 := 8192) (n1 := 16) k (I 1))) + arrB V c (ix2 (n0 := 1) (n1 := 16) 0 (I 1))) 0 := by
  unfold Gout
  rw [zero_add, ← Fin.sum_univ_eq_sum_range (fun J => aN V c (I 0).val J * mN V c J (I 1).val) 8192]
  have hs : (∑ k : Fin 8192, aN V c (I 0).val k.val * mN V c k.val (I 1).val) = (∑ k : Fin 8192, arrA V c (ix2 (n0 := 8192) (n1 := 8192) (I 0) k) * arrM V c (ix2 (n0 := 8192) (n1 := 16) k (I 1))) :=
    Finset.sum_congr rfl fun k _ => by
      unfold aN mN
      rw [dif_pos ⟨(I 0).isLt, k.isLt⟩, dif_pos ⟨k.isLt, (I 1).isLt⟩]
      rfl
  rw [hs]

end Cert.KernelIdeal.Reg1

end
-- ==== Proof.KI_R2Val.lean ====
/-
  Region 2: what each case of the kernel body leaves, read back as values. A middle step leaves in the accumulator
  "accumulator + adjacency block × right-factor block"; step 0 the same from the zero block; the last step also stores
  into the output block "max(accumulator + bias row, 0)" (or without the max, as the body says) of the accumulator it has
  just updated. So the accumulator after a point is a running fold over the reduction steps of its row block.
-/
import proofs.«155634_j8117488189610_2_alg».proof.Proof.KI_R2Dat
import Idealize.ShloMosaic.Lib.Pipeline.Value

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem hz : (![0, 0] : Fin 2 → Nat) = fun _ => 0 := funext fun a => by fin_cases a <;> rfl

/-- A middle reduction step: the accumulator `xs` takes the partial product of the two input blocks. -/
theorem sout_B_eq (c : Dev nD) (i : grid2.Coords) (arg2 : Memref sig .tc .vmem S4096x2048 .bf16) (harg2 : arg2.IsWhole) (arg3 : Memref sig .tc .vmem S2048x28 .f32) (harg3 : arg3.IsWhole) (arg4 : Memref sig .tc .vmem S1x28 .f32) (harg4 : arg4.IsWhole) (arg5 : Memref sig .tc .vmem S4096x28 .f32) (harg5 : arg5.IsWhole) (arg6 : Memref sig .tc .vmem S4096x28 .f32) (harg6 : arg6.IsWhole) (hc0 : ¬condFirst i) (hc1 : ¬condLast i) (x0 : Vec F S4096x2048 .bf16) (x1 : Vec F S2048x28 .f32) (x2 : Vec F S1x28 .f32) (xs : Vec F S4096x28 .f32) :
    sout_B c i arg2 harg2 arg3 harg3 arg4 harg4 arg5 harg5 arg6 harg6 hc0 hc1 x0 x1 x2 xs = k2_pay2 x0 xs x1 := by
  unfold sout_B
  rw [View.read_writes_eq_canon _ _ _ (scover_B c i arg2 harg2 arg3 harg3 arg4 harg4 arg5 harg5 arg6 harg6 hc0 hc1 x0 x1 x2 xs)]
  unfold kernelRun_B
  dsimp only
  rw [View.canon_unit_zero hz]
  simp only [View.readAt_eq_ld, harg2.read_unread, harg3.read_unread, harg4.read_unread, harg5.read_unread, harg6.read_unread,
    View.ld_unit_zero (S := S4096x2048) hz, View.ld_unit_zero (S := S2048x28) hz, View.ld_unit_zero (S := S1x28) hz, View.ld_unit_zero (S := S4096x28) hz]

/-- Reduction step 0: the accumulator is reset to the zero block, read back, and takes the first partial product. -/
theorem sout_A_eq (c : Dev nD) (i : grid2.Coords) (arg2 : Memref sig .tc .vmem S4096x2048 .bf16) (harg2 : arg2.IsWhole) (arg3 : Memref sig .tc .vmem S2048x28 .f32) (harg3 : arg3.IsWhole) (arg4 : Memref sig .tc .vmem S1x28 .f32) (harg4 : arg4.IsWhole) (arg5 : Memref sig .tc .vmem S4096x28 .f32) (harg5 : arg5.IsWhole) (arg6 : Memref sig .tc .vmem S4096x28 .f32) (harg6 : arg6.IsWhole) (hc0 : condFirst i) (hc1 : ¬condLast i) (x0 : Vec F S4096x2048 .bf16) (x1 : Vec F S2048x28 .f32) (x2 : Vec F S1x28 .f32) :
    sout_A c i arg2 harg2 arg3 harg3 arg4 harg4 arg5 harg5 arg6 harg6 hc0 hc1 x0 x1 x2 = k2_pay2 x0 (k2_pay1 (F := F)) x1 := by
  unfold sout_A
  rw [View.read_writes_eq_canon _ _ _ (scover_A c i arg2 harg2 arg3 harg3 arg4 harg4 arg5 harg5 arg6 harg6 hc0 hc1 x0 x1 x2)]
  unfold kernelRun_A
  dsimp only
  sl_unfold_words
  rw [View.canon_cons_unit_zero (S := S4096x28) hz, View.readCov_unit_zero (S := S4096x28) _ hz]
  simp only [View.readAt_eq_ld, harg2.read_unread, harg3.read_unread, harg4.read_unread, harg5.read_unread, harg6.read_unread,
    View.ld_unit_zero (S := S4096x2048) hz, View.ld_unit_zero (S := S2048x28) hz, View.ld_unit_zero (S := S1x28) hz, View.ld_unit_zero (S := S4096x28) hz]

/-- The last reduction step, the accumulator: as at a middle step. -/
theorem sout_C_eq (c : Dev nD) (i : grid2.Coords) (arg2 : Memref sig .tc .vmem S4096x2048 .bf16) (harg2 : arg2.IsWhole) (arg3 : Memref sig .tc .vmem S2048x28 .f32) (harg3 : arg3.IsWhole) (arg4 : Memref sig .tc .vmem S1x28 .f32) (harg4 : arg4.IsWhole) (arg5 : Memref sig .tc .vmem S4096x28 .f32) (harg5 : arg5.IsWhole) (arg6 : Memref sig .tc .vmem S4096x28 .f32) (harg6 : arg6.IsWhole) (hc0 : ¬condFirst i) (hc1 : condLast i) (x0 : Vec F S4096x2048 .bf16) (x1 : Vec F S2048x28 .f32) (x2 : Vec F S1x28 .f32) (xs : Vec F S4096x28 .f32) :
    sout_C c i arg2 harg2 arg3 harg3 arg4 harg4 arg5 harg5 arg6 harg6 hc0 hc1 x0 x1 x2 xs = k2_pay2 x0 xs x1 := by
  unfold sout_C
  rw [View.read_writes_eq_canon _ _ _ (scover_C c i arg2 harg2 arg3 harg3 arg4 harg4 arg5 harg5 arg6 harg6 hc0 hc1 x0 x1 x2 xs)]
  unfold kernelRun_C
  dsimp only
  sl_unfold_words
  rw [View.canon_unit_zero hz]
  simp only [View.readAt_eq_ld, harg2.read_unread, harg3.read_unread, harg4.read_unread, harg5.read_unread, harg6.read_unread,
    View.ld_unit_zero (S := S4096x2048) hz, View.ld_unit_zero (S := S2048x28) hz, View.ld_unit_zero (S := S1x28) hz, View.ld_unit_zero (S := S4096x28) hz]

/-- The last reduction step, the output block: the epilogue of the accumulator just updated and the bias row. -/
theorem out_C_eq (c : Dev nD) (i : grid2.Coords) (arg2 : Memref sig .tc .vmem S4096x2048 .bf16) (harg2 : arg2.IsWhole) (arg3 : Memref sig .tc .vmem S2048x28 .f32) (harg3 : arg3.IsWhole) (arg4 : Memref sig .tc .vmem S1x28 .f32) (harg4 : arg4.IsWhole) (arg5 : Memref sig .tc .vmem S4096x28 .f32) (harg5 : arg5.IsWhole) (arg6 : Memref sig .tc .vmem S4096x28 .f32) (harg6 : arg6.IsWhole) (hc0 : ¬condFirst i) (hc1 : condLast i) (x0 : Vec F S4096x2048 .bf16) (x1 : Vec F S2048x28 .f32) (x2 : Vec F S1x28 .f32) (xs : Vec F S4096x28 .f32) :
    out_C c i arg2 harg2 arg3 harg3 arg4 harg4 arg5 harg5 arg6 harg6 hc0 hc1 x0 x1 x2 xs = k2_pay3 (k2_pay2 x0 xs x1) x2 := by
  unfold out_C
  rw [View.read_writes_eq_canon _ _ _ (cover_C c i arg2 harg2 arg3 harg3 arg4 harg4 arg5 harg5 arg6 harg6 hc0 hc1 x0 x1 x2 xs)]
  unfold kernelRun_C
  dsimp only
  sl_unfold_words
  rw [View.canon_unit_zero hz, View.readCov_unit_zero (S := S4096x28) _ hz]
  simp only [View.readAt_eq_ld, harg2.read_unread, harg3.read_unread, harg4.read_unread, harg5.read_unread, harg6.read_unread,
    View.ld_unit_zero (S := S4096x2048) hz, View.ld_unit_zero (S := S2048x28) hz, View.ld_unit_zero (S := S1x28) hz, View.ld_unit_zero (S := S4096x28) hz]

end Cert.KernelIdeal.Reg2

end
-- ==== Proof.KI_R2Fold.lean ====
/-
  Region 2: the accumulator as a fold. It resets at the points whose reduction step is 0 and takes one more partial
  product at every other point, so after any point it is the fold over that point's run of reduction steps; at the last
  step the output block holds the epilogue of that fold and the bias row.
-/
import proofs.«155634_j8117488189610_2_alg».proof.Proof.KI_R2Val

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The accumulator after point `n`. -/
def accS (c : Dev nD) (n : ℕ) (hn : n < cfg2.N) : Vec F S4096x28 .f32 := (outsAt V c n hn).2

/-- What reduction step 0 leaves: the partial product of the point's blocks added to the zero block. -/
def accStart (c : Dev nD) (n : ℕ) (hn : n < cfg2.N) : Vec F S4096x28 .f32 :=
  k2_pay2 (iblk V c 0 ⟨n, hn⟩) (k2_pay1 (F := F)) (iblk V c 1 ⟨n, hn⟩)
/-- What a later step makes of the accumulator: the point's partial product added to it. -/
def accStep (c : Dev nD) (n : ℕ) (hn : n < cfg2.N) (acc : Vec F S4096x28 .f32) : Vec F S4096x28 .f32 :=
  k2_pay2 (iblk V c 0 ⟨n, hn⟩) acc (iblk V c 1 ⟨n, hn⟩)

attribute [local irreducible] sout_A sout_B sout_C out_C outIdle

theorem accS_start (c : Dev nD) (n : ℕ) (hn : n < cfg2.N) (h0 : n % 4 = 0) : accS V c n hn = accStart V c n hn := by
  have h1 : ¬(⟨n, hn⟩ : Fin cfg2.N).val % 4 = 3 := by dsimp only; omega
  have e1 : (outsAt V c n hn).2 = sout_A c (grid2.coords ⟨n, hn⟩) (ms_0 ⟨n, hn⟩) (hs_0 ⟨n, hn⟩) (ms_1 ⟨n, hn⟩) (hs_1 ⟨n, hn⟩) (ms_2 ⟨n, hn⟩) (hs_2 ⟨n, hn⟩) (ms_3 ⟨n, hn⟩) (hs_3 ⟨n, hn⟩) scM (Memref.isWhole_whole _) ((hcondFirst ⟨n, hn⟩).mpr h0) (fun h => h1 ((hcondLast ⟨n, hn⟩).mp h)) (iblk V c 0 ⟨n, hn⟩) (iblk V c 1 ⟨n, hn⟩) (iblk V c 2 ⟨n, hn⟩) :=
    Eq.trans (b := Prod.snd (outIdle, sout_A c (grid2.coords ⟨n, hn⟩) (ms_0 ⟨n, hn⟩) (hs_0 ⟨n, hn⟩) (ms_1 ⟨n, hn⟩) (hs_1 ⟨n, hn⟩) (ms_2 ⟨n, hn⟩) (hs_2 ⟨n, hn⟩) (ms_3 ⟨n, hn⟩) (hs_3 ⟨n, hn⟩) scM (Memref.isWhole_whole _) ((hcondFirst ⟨n, hn⟩).mpr h0) (fun h => h1 ((hcondLast ⟨n, hn⟩).mp h)) (iblk V c 0 ⟨n, hn⟩) (iblk V c 1 ⟨n, hn⟩) (iblk V c 2 ⟨n, hn⟩))) (congrArg Prod.snd (outsAt_A V c ⟨n, hn⟩ h0 h1)) (Eq.refl _)
  exact Eq.trans (b := sout_A c (grid2.coords ⟨n, hn⟩) (ms_0 ⟨n, hn⟩) (hs_0 ⟨n, hn⟩) (ms_1 ⟨n, hn⟩) (hs_1 ⟨n, hn⟩) (ms_2 ⟨n, hn⟩) (hs_2 ⟨n, hn⟩) (ms_3 ⟨n, hn⟩) (hs_3 ⟨n, hn⟩) scM (Memref.isWhole_whole _) ((hcondFirst ⟨n, hn⟩).mpr h0) (fun h => h1 ((hcondLast ⟨n, hn⟩).mp h)) (iblk V c 0 ⟨n, hn⟩) (iblk V c 1 ⟨n, hn⟩) (iblk V c 2 ⟨n, hn⟩)) e1 (sout_A_eq c (grid2.coords ⟨n, hn⟩) (ms_0 ⟨n, hn⟩) (hs_0 ⟨n, hn⟩) (ms_1 ⟨n, hn⟩) (hs_1 ⟨n, hn⟩) (ms_2 ⟨n, hn⟩) (hs_2 ⟨n, hn⟩) (ms_3 ⟨n, hn⟩) (hs_3 ⟨n, hn⟩) scM (Memref.isWhole_whole _) ((hcondFirst ⟨n, hn⟩).mpr h0) (fun h => h1 ((hcondLast ⟨n, hn⟩).mp h)) (iblk V c 0 ⟨n, hn⟩) (iblk V c 1 ⟨n, hn⟩) (iblk V c 2 ⟨n, hn⟩))

theorem accS_step (c : Dev nD) (n : ℕ) (hn : n + 1 < cfg2.N) (h0 : ¬(n + 1) % 4 = 0) :
    accS V c (n + 1) hn = accStep V c (n + 1) hn (accS V c n (Nat.lt_of_succ_lt hn)) := by
  by_cases h1 : (n + 1) % 4 = 3
  · have e1 : (outsAt V c (n + 1) hn).2 = sout_C c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt V c n (Nat.lt_of_succ_lt hn)).2 :=
      Eq.trans (b := Prod.snd (out_C c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt V c n (Nat.lt_of_succ_lt hn)).2, sout_C c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt V c n (Nat.lt_of_succ_lt hn)).2)) (congrArg Prod.snd (outsAt_C V c ⟨n + 1, hn⟩ h0 h1)) (Eq.refl _)
    exact Eq.trans (b := sout_C c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt V c n (Nat.lt_of_succ_lt hn)).2) e1 (sout_C_eq c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt V c n (Nat.lt_of_succ_lt hn)).2)
  · have e1 : (outsAt V c (n + 1) hn).2 = sout_B c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt V c n (Nat.lt_of_succ_lt hn)).2 :=
      Eq.trans (b := Prod.snd (outIdle, sout_B c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt V c n (Nat.lt_of_succ_lt hn)).2)) (congrArg Prod.snd (outsAt_B V c ⟨n + 1, hn⟩ h0 h1)) (Eq.refl _)
    exact Eq.trans (b := sout_B c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt V c n (Nat.lt_of_succ_lt hn)).2) e1 (sout_B_eq c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt V c n (Nat.lt_of_succ_lt hn)).2)

/-- The accumulator after any point is the fold over its run of reduction steps. -/
theorem accS_eq_accAt (c : Dev nD) (t : ℕ) (ht : t < cfg2.N) (h' : 4 * (t / 4) + t % 4 < cfg2.N) :
    accS V c t ht = Pipeline.accAt (accStart V c) (accStep V c) (4 * (t / 4)) (t % 4) h' :=
  Pipeline.eq_accAt_of_mod (accS V c) 4 (accStart V c) (accStep V c)
    (fun n h h0 => accS_start V c n h h0) (fun n h h0 => accS_step V c n h h0) (by decide) t ht h'

/-- At a point of the last reduction step the output block's staging buffer holds the epilogue of that point's
    accumulator and the bias row. -/
theorem out_last (c : Dev nD) (t : Fin cfg2.N) (h1 : t.val % 4 = 3) :
    (outsAt V c t.val t.isLt).1 = k2_pay3 (accS V c t.val t.isLt) (iblk V c 2 t) := by
  have h0 : ¬t.val % 4 = 0 := by omega
  have es : accS V c t.val t.isLt = k2_pay2 (iblk V c 0 t) (outsAt V c (t.val - 1) (Nat.lt_of_le_of_lt (Nat.sub_le _ _) t.isLt)).2 (iblk V c 1 t) :=
    Eq.trans (b := sout_C c (grid2.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2)
      (Eq.trans (b := Prod.snd (out_C c (grid2.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2, sout_C c (grid2.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2)) (congrArg Prod.snd (outsAt_C V c t h0 h1)) (Eq.refl _))
      (sout_C_eq c (grid2.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2)
  have eo : (outsAt V c t.val t.isLt).1 = k2_pay3 (k2_pay2 (iblk V c 0 t) (outsAt V c (t.val - 1) (Nat.lt_of_le_of_lt (Nat.sub_le _ _) t.isLt)).2 (iblk V c 1 t)) (iblk V c 2 t) :=
    Eq.trans (b := out_C c (grid2.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2)
      (Eq.trans (b := Prod.fst (out_C c (grid2.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2, sout_C c (grid2.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2)) (congrArg Prod.fst (outsAt_C V c t h0 h1)) (Eq.refl _))
      (out_C_eq c (grid2.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2)
  rw [eo, es]

end Cert.KernelIdeal.Reg2

end
-- ==== Proof.KI_R2Alg.lean ====
/-
  Region 2's payloads at exact arithmetic, read at an index: the reset block is 0; the accumulation step adds to the
  accumulator's entry the sum over the block's contraction axis of the products of the two input blocks' entries
  (a change of float format being the identity there); the epilogue is the entry plus the bias row's entry of its
  column, then (where the body applies it) the maximum with 0.
-/
import proofs.«155634_j8117488189610_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Reg2

open Cert.KernelIdeal Cert.KernelIdeal.Gen
open Idealize.ShloMosaic Idealize.ShloMosaic.TcCoe Idealize.ShloMosaic.ValueIdx

/-- The dimension numbers of the block product. -/
abbrev D : DotDims S4096x2048 S2048x28 S4096x28 := dot_S4096x2048_S2048x28_S4096x28_1_0_0_1_n_n

theorem pay1_apply (j : S4096x28.Idx) : k2_pay1 (F := Ideal) j = 0 := by
  unfold k2_pay1
  simp only [shapeCast_self]
  exact Ideal.ofBits_zero_f32

theorem pay2_apply (x0 : Vec Ideal S4096x2048 .bf16) (xs : Vec Ideal S4096x28 .f32) (x1 : Vec Ideal S2048x28 .f32) (j : S4096x28.Idx) :
    k2_pay2 (F := Ideal) x0 xs x1 j = xs j + ∑ k : D.contr.Idx, x0 (D.lhsIdx j k) * x1 (D.rhsIdx j k) := by
  unfold k2_pay2
  simp only [shapeCast_self, matmul]
  rw [addf_apply, Ideal.matmul_constant_zero_apply]
  rfl

theorem pay3_apply (v : Vec Ideal S4096x28 .f32) (b : Vec Ideal S1x28 .f32) (j : S4096x28.Idx) :
    k2_pay3 (F := Ideal) v b j = v j + b (ix2 (n0 := 1) (n1 := 28) 0 (j 1)) := by
  unfold k2_pay3
  simp only [shapeCast_self]
  rw [addf_apply,
    broadcastTo_apply b _ j (ix2 (n0 := 1) (n1 := 28) 0 (j 1)) (fun a => by
      match a with
      | ⟨0, _⟩ => rfl
      | ⟨1, _⟩ => rfl)]

end Cert.KernelIdeal.Reg2

end
-- ==== Proof.KI_R2Arr.lean ====
/-
  Region 2 at exact arithmetic: its output array in closed form. The accumulator after the point of reduction step
  `s` of row block `q` is the sum, over the steps up to `s`, of "adjacency block (q, step) times right-factor block
  (step)", entry by entry (it starts from the zero block); so at the last step it is the full product of the row
  block of the adjacency with the right factor, the reduction axis summed block by block — which on the extended reals
  is the sum over the whole axis, regrouping a sum needing no hypothesis.
-/
import proofs.«155634_j8117488189610_2_alg».proof.Proof.KI_R2Fold
import proofs.«155634_j8117488189610_2_alg».proof.Proof.KI_R2Alg
import proofs.«155634_j8117488189610_2_alg».proof.Proof.LibERealMatrix

set_option maxRecDepth 16384

noncomputable section

namespace Cert.KernelIdeal.Reg2

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The printed index maps, decided over the grid: the adjacency window's block is (row block, reduction step), the
    right factor's (reduction step, 0), the bias row's (0, 0), the output's (row block, 0); the row block is the point's
    number divided by 4, the reduction step its remainder. -/
theorem idx_facts : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = 0 ∧ win2_2.index t (1 : Fin 2) = 0
    ∧ win2_3.index t (0 : Fin 2) = t.val / 4 ∧ win2_3.index t (1 : Fin 2) = 0 :=
  (by decide +kernel : ∀ t : Fin grid2.N, _)

/-- The adjacency block and the right-factor block of point `t`. -/
def blkA (c : Dev nD) (t : Fin cfg2.N) : Vec Ideal S4096x2048 .bf16 := iblk V c 0 t
def blkM (c : Dev nD) (t : Fin cfg2.N) : Vec Ideal S2048x28 .f32 := iblk V c 1 t
def blkB (c : Dev nD) (t : Fin cfg2.N) : Vec Ideal S1x28 .f32 := iblk V c 2 t

/-- The addend of point `n`: the product of its two input blocks, entry by entry (zero past the grid). -/
def addend (c : Dev nD) (n : ℕ) (y : S4096x28.Idx) : EReal :=
  if h : n < cfg2.N then ∑ k : D.contr.Idx, blkA V c ⟨n, h⟩ (D.lhsIdx y k) * blkM V c ⟨n, h⟩ (D.rhsIdx y k) else 0

theorem accStart_apply (c : Dev nD) (n : ℕ) (hn : n < cfg2.N) (y : S4096x28.Idx) :
    accStart V c n hn y = 0 + addend V c n y := by
  unfold accStart addend blkA blkM
  rw [pay2_apply, pay1_apply, dif_pos hn]

theorem accStep_apply (c : Dev nD) (n : ℕ) (hn : n < cfg2.N) (acc : Vec Ideal S4096x28 .f32) (y : S4096x28.Idx) :
    accStep V c n hn acc y = acc y + addend V c n y := by
  unfold accStep addend blkA blkM
  rw [pay2_apply, dif_pos hn]

/-- The accumulator after point `t` is the sum of the addends of its run of reduction steps up to it. -/
theorem accS_apply (c : Dev nD) (t : ℕ) (ht : t < cfg2.N) (y : S4096x28.Idx) :
    accS V c t ht y = 0 + ∑ s ∈ Finset.range (t % 4 + 1), addend V c (4 * (t / 4) + s) y := by
  have h' : 4 * (t / 4) + t % 4 < cfg2.N := by rw [Nat.div_add_mod]; exact ht
  rw [accS_eq_accAt V c t ht h']
  exact Pipeline.accAt_add_apply (accStart V c) (accStep V c) (fun _ => 0) (addend V c) (4 * (t / 4)) 3
    (fun h i => accStart_apply V c _ h i) (fun n h acc i _ _ => accStep_apply V c n h acc i)
    (t % 4) (by omega) h' y

/-! ## The arrays in natural-number coordinates, and the blocks read there -/

/-- The region's three input arrays as it finds them: the (copied) adjacency, the right factor, the bias row. -/
def arrA (c : Dev nD) : Vec Ideal S8192x8192 .bf16 := V c main_v2_1
def arrM (c : Dev nD) : Vec Ideal S8192x28 .f32 := V c main_v46
def arrB (c : Dev nD) : Vec Ideal S1x28 .f32 := V c main_v47

/-- The adjacency's entry at row `R`, column `J` (zero outside the array). -/
def aN (c : Dev nD) (R J : ℕ) : EReal := if h : R < 8192 ∧ J < 8192 then arrA V c (ix2 (n0 := 8192) (n1 := 8192) ⟨R, h.1⟩ ⟨J, h.2⟩) else 0
/-- The right factor's entry at row `J`, column `C` (zero outside the array). -/
def mN (c : Dev nD) (J C : ℕ) : EReal := if h : J < 8192 ∧ C < 28 then arrM V c (ix2 (n0 := 8192) (n1 := 28) ⟨J, h.1⟩ ⟨C, h.2⟩) else 0

theorem blkA_apply (c : Dev nD) (t : Fin cfg2.N) (x : S4096x2048.Idx) :
    blkA V c t x = aN V c (t.val / 4 * 4096 + (x 0).val) (t.val % 4 * 2048 + (x 1).val) := by
  have hN : t.val < 8 := lt_of_lt_of_eq t.isLt (show cfg2.N = 8 from N_2)
  have hx0 : (x 0).val < 4096 := (x 0).isLt
  have hx1 : (x 1).val < 2048 := (x 1).isLt
  obtain ⟨e0, e1, -⟩ := idx_facts t
  unfold blkA iblk aN arrA
  rw [View.read_apply, dif_pos ⟨by omega, by omega⟩]
  show V c main_v2_1 _ = V c main_v2_1 _
  refine congrArg _ (funext fun a => Fin.ext ?_)
  match a with
  | ⟨0, _⟩ => show win2_0.index t (0 : Fin 2) * 4096 + 1 * (x 0).val = t.val / 4 * 4096 + (x 0).val; rw [e0]; omega
  | ⟨1, _⟩ => show win2_0.index t (1 : Fin 2) * 2048 + 1 * (x 1).val = t.val % 4 * 2048 + (x 1).val; rw [e1]; omega

theorem blkM_apply (c : Dev nD) (t : Fin cfg2.N) (x : S2048x28.Idx) :
    blkM V c t x = mN V c (t.val % 4 * 2048 + (x 0).val) (x 1).val := by
  have hN : t.val < 8 := lt_of_lt_of_eq t.isLt (show cfg2.N = 8 from N_2)
  have hx0 : (x 0).val < 2048 := (x 0).isLt
  have hx1 : (x 1).val < 28 := (x 1).isLt
  obtain ⟨-, -, e2, e3, -⟩ := idx_facts t
  unfold blkM iblk mN arrM
  rw [View.read_apply, dif_pos ⟨by omega, by omega⟩]
  show V c main_v46 _ = V c main_v46 _
  refine congrArg _ (funext fun a => Fin.ext ?_)
  match a with
  | ⟨0, _⟩ => show win2_1.index t (0 : Fin 2) * 2048 + 1 * (x 0).val = t.val % 4 * 2048 + (x 0).val; rw [e2]; omega
  | ⟨1, _⟩ => show win2_1.index t (1 : Fin 2) * 28 + 1 * (x 1).val = (x 1).val; rw [e3]; omega

theorem blkB_apply (c : Dev nD) (t : Fin cfg2.N) (x : S1x28.Idx) : blkB V c t x = arrB V c x := by
  obtain ⟨-, -, -, -, e4, e5, -⟩ := idx_facts t
  have hx0 : (x 0).val < 1 := (x 0).isLt
  unfold blkB iblk arrB
  rw [View.read_apply]
  show V c main_v47 _ = V c main_v47 _
  refine congrArg _ (funext fun a => Fin.ext ?_)
  match a with
  | ⟨0, _⟩ => show win2_2.index t (0 : Fin 2) * 1 + 1 * (x 0).val = (x 0).val; rw [e4]; omega
  | ⟨1, _⟩ => show win2_2.index t (1 : Fin 2) * 28 + 1 * (x 1).val = (x 1).val; rw [e5]; omega

/-- A point's addend is the sum over the 2048 positions of its reduction block. -/
theorem addend_eq (c : Dev nD) (n : ℕ) (hn : n < cfg2.N) (y : S4096x28.Idx) :
    addend V c n y = ∑ r ∈ Finset.range 2048, aN V c (n / 4 * 4096 + (y 0).val) (n % 4 * 2048 + r) * mN V c (n % 4 * 2048 + r) (y 1).val := by
  unfold addend
  rw [dif_pos hn, ← Equiv.sum_comp (contrEquiv1 D 2048 rfl rfl).symm,
    ← Fin.sum_univ_eq_sum_range (fun r => aN V c (n / 4 * 4096 + (y 0).val) (n % 4 * 2048 + r) * mN V c (n % 4 * 2048 + r) (y 1).val) 2048]
  refine Finset.sum_congr rfl fun r _ => ?_
  have hk : (((contrEquiv1 D 2048 rfl rfl).symm r) ⟨0, by decide⟩ : ℕ) = r.val := contrEquiv1_symm_val D 2048 rfl rfl r
  rw [blkA_apply, blkM_apply]
  show aN V c (n / 4 * 4096 + (y 0).val) (n % 4 * 2048 + (((contrEquiv1 D 2048 rfl rfl).symm r) ⟨0, by decide⟩ : ℕ))
      * mN V c (n % 4 * 2048 + (((contrEquiv1 D 2048 rfl rfl).symm r) ⟨0, by decide⟩ : ℕ)) (y 1).val = _
  rw [hk]

/-- At the last reduction step of row block `q` the accumulator is the full product of the adjacency's rows with the
    right factor: the reduction axis summed block by block is the sum over the whole axis. -/
theorem accS_last (c : Dev nD) (t : Fin cfg2.N) (h3 : t.val % 4 = 3) (y : S4096x28.Idx) :
    accS V c t.val t.isLt y = 0 + ∑ J ∈ Finset.range 8192, aN V c (t.val / 4 * 4096 + (y 0).val) J * mN V c J (y 1).val := by
  have hN : t.val < 8 := lt_of_lt_of_eq t.isLt (show cfg2.N = 8 from N_2)
  rw [accS_apply, h3, show (8192 : ℕ) = 4 * 2048 from rfl,
    LibERealMatrix.sum_range_mul 4 2048 (fun J => aN V c (t.val / 4 * 4096 + (y 0).val) J * mN V c J (y 1).val)]
  refine congrArg (0 + ·) (Finset.sum_congr rfl fun s hs => ?_)
  have hs4 : s < 4 := Finset.mem_range.mp hs
  have hlt : 4 * (t.val / 4) + s < cfg2.N := lt_of_lt_of_eq (by omega : 4 * (t.val / 4) + s < 8) (show (8 : ℕ) = cfg2.N from N_2.symm)
  rw [addend_eq V c _ hlt y, show (4 * (t.val / 4) + s) / 4 = t.val / 4 from by omega, show (4 * (t.val / 4) + s) % 4 = s from by omega]
  refine Finset.sum_congr rfl fun r _ => ?_
  rw [show s * 2048 + r = r + 2048 * s from by ring]

/-! ## The output array after the run -/

/-- The array the region leaves: at row `R`, column `C`, the product of the adjacency's row `R` with the right factor's
    column `C`, plus the bias row's entry. -/
def Gout (c : Dev nD) : Vec Ideal S8192x28 .f32 := fun I =>
  (0 + ∑ J ∈ Finset.range 8192, aN V c (I 0).val J * mN V c J (I 1).val) + arrB V c (ix2 (n0 := 1) (n1 := 28) 0 (I 1))

/-- An element of the output block of point `t` sits at row "row block × 4096 + its row", at its own column. -/
theorem emb_out (t : Fin cfg2.N) (y : S4096x28.Idx) (a : Fin 2) :
    ((((cfg2.win 3).blk t).view.emb y) a : ℕ) = if a = 0 then t.val / 4 * 4096 + (y 0).val else (y 1).val := by
  obtain ⟨-, -, -, -, -, -, e6, e7⟩ := idx_facts t
  match a with
  | ⟨0, _⟩ => show win2_3.index t (0 : Fin 2) * 4096 + 1 * (y 0).val = _; rw [e6]; simp
  | ⟨1, _⟩ => show win2_3.index t (1 : Fin 2) * 28 + 1 * (y 1).val = _; rw [e7]; simp

/-- What a point of the last reduction step writes back is its block of `Gout`. -/
theorem flushed_eq (c : Dev nD) (t : Fin cfg2.N) (hf : (cfg2.win 3).flush t = true) :
    (dat V c).flushed 3 t = ((cfg2.win 3).blk t).view.read (Elt Ideal) (Gout V c) := by
  have h3 : t.val % 4 = 3 := (flush2_3 t).mp hf
  show (cfg2.win 3).cut (grid2.coords t) ((dat V c).after 3 t) = _
  rw [after_3, out_last V c t h3]
  funext y
  show k2_pay3 (F := Ideal) (accS V c t.val t.isLt) (blkB V c t) y = Gout V c (((cfg2.win 3).blk t).view.emb y)
  have hy1 : (y 1).val < 28 := (y 1).isLt
  rw [pay3_apply, accS_last V c t h3, blkB_apply]
  unfold Gout
  have r0 : ((((cfg2.win 3).blk t).view.emb y) 0 : ℕ) = t.val / 4 * 4096 + (y 0).val := (emb_out t y 0).trans (if_pos rfl)
  have r1 : ((((cfg2.win 3).blk t).view.emb y) 1 : ℕ) = (y 1).val := (emb_out t y 1).trans (if_neg (by decide))
  have r1' : (((cfg2.win 3).blk t).view.emb y) 1 = y 1 := Fin.ext r1
  rw [r0, r1, r1']

/-- An index of the array is in point `t`'s block iff each coordinate is in the block's range on its axis. -/
theorem mem_blk (t : Fin cfg2.N) (i : S8192x28.Idx) :
    i ∈ ((cfg2.win 3).blk t).view.set ↔ ∀ a : Fin 2, win2_3.index t a * S4096x28.size a ≤ (i a).val ∧ (i a).val < win2_3.index t a * S4096x28.size a + S4096x28.size a := by
  show i ∈ ((View.whole main_v48).slice (win2_3.rect t)).set ↔ _
  rw [View.set_slice_whole, Rect.mem_set_unit]
  exact Iff.rfl

/-- Every index of the array is in the block of the last-step point of its row block. -/
theorem cover (i : S8192x28.Idx) : ∃ t : Fin cfg2.N, (cfg2.win 3).flush t = true ∧ i ∈ ((cfg2.win 3).blk t).view.set := by
  have hi0 : (i 0).val < 8192 := (i 0).isLt
  have hi1 : (i 1).val < 28 := (i 1).isLt
  have htn : 4 * ((i 0).val / 4096) + 3 < cfg2.N := lt_of_lt_of_eq (by omega : 4 * ((i 0).val / 4096) + 3 < 8) (show (8 : ℕ) = cfg2.N from N_2.symm)
  refine ⟨⟨4 * ((i 0).val / 4096) + 3, htn⟩, (flush2_3 _).mpr (by show (4 * ((i 0).val / 4096) + 3) % 4 = 3; omega), ?_⟩
  rw [mem_blk]
  obtain ⟨-, -, -, -, -, -, e6, e7⟩ := idx_facts ⟨4 * ((i 0).val / 4096) + 3, htn⟩
  intro a
  match a with
  | ⟨0, _⟩ =>
    show win2_3.index ⟨4 * ((i 0).val / 4096) + 3, htn⟩ (0 : Fin 2) * 4096 ≤ (i 0).val ∧ (i 0).val < win2_3.index ⟨4 * ((i 0).val / 4096) + 3, htn⟩ (0 : Fin 2) * 4096 + 4096
    rw [e6]; show (4 * ((i 0).val / 4096) + 3) / 4 * 4096 ≤ (i 0).val ∧ (i 0).val < (4 * ((i 0).val / 4096) + 3) / 4 * 4096 + 4096
    rw [show (4 * ((i 0).val / 4096) + 3) / 4 = (i 0).val / 4096 from by omega]; omega
  | ⟨1, _⟩ =>
    show win2_3.index ⟨4 * ((i 0).val / 4096) + 3, htn⟩ (1 : Fin 2) * 28 ≤ (i 1).val ∧ (i 1).val < win2_3.index ⟨4 * ((i 0).val / 4096) + 3, htn⟩ (1 : Fin 2) * 28 + 28
    rw [e7]; omega

/-- The output array after the run. -/
theorem final (c : Dev nD) : (dat V c).arrAt 3 cfg2.N = Gout V c :=
  (dat V c).arrAt_eq_of_cover 3 (Gout V c) (flushed_eq V c) cover

/-- The same with the reduction axis as one index type: the product of the adjacency with the right factor, entry by
    entry, then the epilogue. -/
theorem Gout_apply (c : Dev nD) (I : S8192x28.Idx) :
    Gout V c I = (∑ k : Fin 8192, arrA V c (ix2 (n0 := 8192) (n1 := 8192) (I 0) k) * arrM V c (ix2 (n0 := 8192) (n1 := 28) k (I 1))) + arrB V c (ix2 (n0 := 1) (n1 := 28) 0 (I 1)) := by
  unfold Gout
  rw [zero_add, ← Fin.sum_univ_eq_sum_range (fun J => aN V c (I 0).val J * mN V c J (I 1).val) 8192]
  have hs : (∑ k : Fin 8192, aN V c (I 0).val k.val * mN V c k.val (I 1).val) = (∑ k : Fin 8192, arrA V c (ix2 (n0 := 8192) (n1 := 8192) (I 0) k) * arrM V c (ix2 (n0 := 8192) (n1 := 28) k (I 1))) :=
    Finset.sum_congr rfl fun k _ => by
      unfold aN mN
      rw [dif_pos ⟨(I 0).isLt, k.isLt⟩, dif_pos ⟨k.isLt, (I 1).isLt⟩]
      rfl
  rw [hs]

end Cert.KernelIdeal.Reg2

end
-- ==== Proof.KI_R3Val.lean ====
/-
  Region 3: what each case of the kernel body leaves, read back as values. A middle step leaves in the accumulator
  "accumulator + adjacency block × right-factor block"; step 0 the same from the zero block; the last step also stores
  into the output block "max(accumulator + bias row, 0)" (or without the max, as the body says) of the accumulator it has
  just updated. So the accumulator after a point is a running fold over the reduction steps of its row block.
-/
import proofs.«155634_j8117488189610_2_alg».proof.Proof.KI_R3Dat
import Idealize.ShloMosaic.Lib.Pipeline.Value

set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem hz : (![0, 0] : Fin 2 → Nat) = fun _ => 0 := funext fun a => by fin_cases a <;> rfl

/-- A middle reduction step: the accumulator `xs` takes the partial product of the two input blocks. -/
theorem sout_B_eq (c : Dev nD) (i : grid3.Coords) (arg2 : Memref sig .tc .vmem S4096x2048 .bf16) (harg2 : arg2.IsWhole) (arg3 : Memref sig .tc .vmem S2048x20 .f32) (harg3 : arg3.IsWhole) (arg4 : Memref sig .tc .vmem S1x20 .f32) (harg4 : arg4.IsWhole) (arg5 : Memref sig .tc .vmem S4096x20 .f32) (harg5 : arg5.IsWhole) (arg6 : Memref sig .tc .vmem S4096x20 .f32) (harg6 : arg6.IsWhole) (hc0 : ¬condFirst i) (hc1 : ¬condLast i) (x0 : Vec F S4096x2048 .bf16) (x1 : Vec F S2048x20 .f32) (x2 : Vec F S1x20 .f32) (xs : Vec F S4096x20 .f32) :
    sout_B c i arg2 harg2 arg3 harg3 arg4 harg4 arg5 harg5 arg6 harg6 hc0 hc1 x0 x1 x2 xs = k3_pay2 x0 xs x1 := by
  unfold sout_B
  rw [View.read_writes_eq_canon _ _ _ (scover_B c i arg2 harg2 arg3 harg3 arg4 harg4 arg5 harg5 arg6 harg6 hc0 hc1 x0 x1 x2 xs)]
  unfold kernelRun_B
  dsimp only
  rw [View.canon_unit_zero hz]
  simp only [View.readAt_eq_ld, harg2.read_unread, harg3.read_unread, harg4.read_unread, harg5.read_unread, harg6.read_unread,
    View.ld_unit_zero (S := S4096x2048) hz, View.ld_unit_zero (S := S2048x20) hz, View.ld_unit_zero (S := S1x20) hz, View.ld_unit_zero (S := S4096x20) hz]

/-- Reduction step 0: the accumulator is reset to the zero block, read back, and takes the first partial product. -/
theorem sout_A_eq (c : Dev nD) (i : grid3.Coords) (arg2 : Memref sig .tc .vmem S4096x2048 .bf16) (harg2 : arg2.IsWhole) (arg3 : Memref sig .tc .vmem S2048x20 .f32) (harg3 : arg3.IsWhole) (arg4 : Memref sig .tc .vmem S1x20 .f32) (harg4 : arg4.IsWhole) (arg5 : Memref sig .tc .vmem S4096x20 .f32) (harg5 : arg5.IsWhole) (arg6 : Memref sig .tc .vmem S4096x20 .f32) (harg6 : arg6.IsWhole) (hc0 : condFirst i) (hc1 : ¬condLast i) (x0 : Vec F S4096x2048 .bf16) (x1 : Vec F S2048x20 .f32) (x2 : Vec F S1x20 .f32) :
    sout_A c i arg2 harg2 arg3 harg3 arg4 harg4 arg5 harg5 arg6 harg6 hc0 hc1 x0 x1 x2 = k3_pay2 x0 (k3_pay1 (F := F)) x1 := by
  unfold sout_A
  rw [View.read_writes_eq_canon _ _ _ (scover_A c i arg2 harg2 arg3 harg3 arg4 harg4 arg5 harg5 arg6 harg6 hc0 hc1 x0 x1 x2)]
  unfold kernelRun_A
  dsimp only
  sl_unfold_words
  rw [View.canon_cons_unit_zero (S := S4096x20) hz, View.readCov_unit_zero (S := S4096x20) _ hz]
  simp only [View.readAt_eq_ld, harg2.read_unread, harg3.read_unread, harg4.read_unread, harg5.read_unread, harg6.read_unread,
    View.ld_unit_zero (S := S4096x2048) hz, View.ld_unit_zero (S := S2048x20) hz, View.ld_unit_zero (S := S1x20) hz, View.ld_unit_zero (S := S4096x20) hz]

/-- The last reduction step, the accumulator: as at a middle step. -/
theorem sout_C_eq (c : Dev nD) (i : grid3.Coords) (arg2 : Memref sig .tc .vmem S4096x2048 .bf16) (harg2 : arg2.IsWhole) (arg3 : Memref sig .tc .vmem S2048x20 .f32) (harg3 : arg3.IsWhole) (arg4 : Memref sig .tc .vmem S1x20 .f32) (harg4 : arg4.IsWhole) (arg5 : Memref sig .tc .vmem S4096x20 .f32) (harg5 : arg5.IsWhole) (arg6 : Memref sig .tc .vmem S4096x20 .f32) (harg6 : arg6.IsWhole) (hc0 : ¬condFirst i) (hc1 : condLast i) (x0 : Vec F S4096x2048 .bf16) (x1 : Vec F S2048x20 .f32) (x2 : Vec F S1x20 .f32) (xs : Vec F S4096x20 .f32) :
    sout_C c i arg2 harg2 arg3 harg3 arg4 harg4 arg5 harg5 arg6 harg6 hc0 hc1 x0 x1 x2 xs = k3_pay2 x0 xs x1 := by
  unfold sout_C
  rw [View.read_writes_eq_canon _ _ _ (scover_C c i arg2 harg2 arg3 harg3 arg4 harg4 arg5 harg5 arg6 harg6 hc0 hc1 x0 x1 x2 xs)]
  unfold kernelRun_C
  dsimp only
  sl_unfold_words
  rw [View.canon_unit_zero hz]
  simp only [View.readAt_eq_ld, harg2.read_unread, harg3.read_unread, harg4.read_unread, harg5.read_unread, harg6.read_unread,
    View.ld_unit_zero (S := S4096x2048) hz, View.ld_unit_zero (S := S2048x20) hz, View.ld_unit_zero (S := S1x20) hz, View.ld_unit_zero (S := S4096x20) hz]

/-- The last reduction step, the output block: the epilogue of the accumulator just updated and the bias row. -/
theorem out_C_eq (c : Dev nD) (i : grid3.Coords) (arg2 : Memref sig .tc .vmem S4096x2048 .bf16) (harg2 : arg2.IsWhole) (arg3 : Memref sig .tc .vmem S2048x20 .f32) (harg3 : arg3.IsWhole) (arg4 : Memref sig .tc .vmem S1x20 .f32) (harg4 : arg4.IsWhole) (arg5 : Memref sig .tc .vmem S4096x20 .f32) (harg5 : arg5.IsWhole) (arg6 : Memref sig .tc .vmem S4096x20 .f32) (harg6 : arg6.IsWhole) (hc0 : ¬condFirst i) (hc1 : condLast i) (x0 : Vec F S4096x2048 .bf16) (x1 : Vec F S2048x20 .f32) (x2 : Vec F S1x20 .f32) (xs : Vec F S4096x20 .f32) :
    out_C c i arg2 harg2 arg3 harg3 arg4 harg4 arg5 harg5 arg6 harg6 hc0 hc1 x0 x1 x2 xs = k3_pay3 (k3_pay2 x0 xs x1) x2 := by
  unfold out_C
  rw [View.read_writes_eq_canon _ _ _ (cover_C c i arg2 harg2 arg3 harg3 arg4 harg4 arg5 harg5 arg6 harg6 hc0 hc1 x0 x1 x2 xs)]
  unfold kernelRun_C
  dsimp only
  sl_unfold_words
  rw [View.canon_unit_zero hz, View.readCov_unit_zero (S := S4096x20) _ hz]
  simp only [View.readAt_eq_ld, harg2.read_unread, harg3.read_unread, harg4.read_unread, harg5.read_unread, harg6.read_unread,
    View.ld_unit_zero (S := S4096x2048) hz, View.ld_unit_zero (S := S2048x20) hz, View.ld_unit_zero (S := S1x20) hz, View.ld_unit_zero (S := S4096x20) hz]

end Cert.KernelIdeal.Reg3

end
-- ==== Proof.KI_R3Fold.lean ====
/-
  Region 3: the accumulator as a fold. It resets at the points whose reduction step is 0 and takes one more partial
  product at every other point, so after any point it is the fold over that point's run of reduction steps; at the last
  step the output block holds the epilogue of that fold and the bias row.
-/
import proofs.«155634_j8117488189610_2_alg».proof.Proof.KI_R3Val

set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The accumulator after point `n`. -/
def accS (c : Dev nD) (n : ℕ) (hn : n < cfg3.N) : Vec F S4096x20 .f32 := (outsAt V c n hn).2

/-- What reduction step 0 leaves: the partial product of the point's blocks added to the zero block. -/
def accStart (c : Dev nD) (n : ℕ) (hn : n < cfg3.N) : Vec F S4096x20 .f32 :=
  k3_pay2 (iblk V c 0 ⟨n, hn⟩) (k3_pay1 (F := F)) (iblk V c 1 ⟨n, hn⟩)
/-- What a later step makes of the accumulator: the point's partial product added to it. -/
def accStep (c : Dev nD) (n : ℕ) (hn : n < cfg3.N) (acc : Vec F S4096x20 .f32) : Vec F S4096x20 .f32 :=
  k3_pay2 (iblk V c 0 ⟨n, hn⟩) acc (iblk V c 1 ⟨n, hn⟩)

attribute [local irreducible] sout_A sout_B sout_C out_C outIdle

theorem accS_start (c : Dev nD) (n : ℕ) (hn : n < cfg3.N) (h0 : n % 4 = 0) : accS V c n hn = accStart V c n hn := by
  have h1 : ¬(⟨n, hn⟩ : Fin cfg3.N).val % 4 = 3 := by dsimp only; omega
  have e1 : (outsAt V c n hn).2 = sout_A c (grid3.coords ⟨n, hn⟩) (ms_0 ⟨n, hn⟩) (hs_0 ⟨n, hn⟩) (ms_1 ⟨n, hn⟩) (hs_1 ⟨n, hn⟩) (ms_2 ⟨n, hn⟩) (hs_2 ⟨n, hn⟩) (ms_3 ⟨n, hn⟩) (hs_3 ⟨n, hn⟩) scM (Memref.isWhole_whole _) ((hcondFirst ⟨n, hn⟩).mpr h0) (fun h => h1 ((hcondLast ⟨n, hn⟩).mp h)) (iblk V c 0 ⟨n, hn⟩) (iblk V c 1 ⟨n, hn⟩) (iblk V c 2 ⟨n, hn⟩) :=
    Eq.trans (b := Prod.snd (outIdle, sout_A c (grid3.coords ⟨n, hn⟩) (ms_0 ⟨n, hn⟩) (hs_0 ⟨n, hn⟩) (ms_1 ⟨n, hn⟩) (hs_1 ⟨n, hn⟩) (ms_2 ⟨n, hn⟩) (hs_2 ⟨n, hn⟩) (ms_3 ⟨n, hn⟩) (hs_3 ⟨n, hn⟩) scM (Memref.isWhole_whole _) ((hcondFirst ⟨n, hn⟩).mpr h0) (fun h => h1 ((hcondLast ⟨n, hn⟩).mp h)) (iblk V c 0 ⟨n, hn⟩) (iblk V c 1 ⟨n, hn⟩) (iblk V c 2 ⟨n, hn⟩))) (congrArg Prod.snd (outsAt_A V c ⟨n, hn⟩ h0 h1)) (Eq.refl _)
  exact Eq.trans (b := sout_A c (grid3.coords ⟨n, hn⟩) (ms_0 ⟨n, hn⟩) (hs_0 ⟨n, hn⟩) (ms_1 ⟨n, hn⟩) (hs_1 ⟨n, hn⟩) (ms_2 ⟨n, hn⟩) (hs_2 ⟨n, hn⟩) (ms_3 ⟨n, hn⟩) (hs_3 ⟨n, hn⟩) scM (Memref.isWhole_whole _) ((hcondFirst ⟨n, hn⟩).mpr h0) (fun h => h1 ((hcondLast ⟨n, hn⟩).mp h)) (iblk V c 0 ⟨n, hn⟩) (iblk V c 1 ⟨n, hn⟩) (iblk V c 2 ⟨n, hn⟩)) e1 (sout_A_eq c (grid3.coords ⟨n, hn⟩) (ms_0 ⟨n, hn⟩) (hs_0 ⟨n, hn⟩) (ms_1 ⟨n, hn⟩) (hs_1 ⟨n, hn⟩) (ms_2 ⟨n, hn⟩) (hs_2 ⟨n, hn⟩) (ms_3 ⟨n, hn⟩) (hs_3 ⟨n, hn⟩) scM (Memref.isWhole_whole _) ((hcondFirst ⟨n, hn⟩).mpr h0) (fun h => h1 ((hcondLast ⟨n, hn⟩).mp h)) (iblk V c 0 ⟨n, hn⟩) (iblk V c 1 ⟨n, hn⟩) (iblk V c 2 ⟨n, hn⟩))

theorem accS_step (c : Dev nD) (n : ℕ) (hn : n + 1 < cfg3.N) (h0 : ¬(n + 1) % 4 = 0) :
    accS V c (n + 1) hn = accStep V c (n + 1) hn (accS V c n (Nat.lt_of_succ_lt hn)) := by
  by_cases h1 : (n + 1) % 4 = 3
  · have e1 : (outsAt V c (n + 1) hn).2 = sout_C c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt V c n (Nat.lt_of_succ_lt hn)).2 :=
      Eq.trans (b := Prod.snd (out_C c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt V c n (Nat.lt_of_succ_lt hn)).2, sout_C c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt V c n (Nat.lt_of_succ_lt hn)).2)) (congrArg Prod.snd (outsAt_C V c ⟨n + 1, hn⟩ h0 h1)) (Eq.refl _)
    exact Eq.trans (b := sout_C c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt V c n (Nat.lt_of_succ_lt hn)).2) e1 (sout_C_eq c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt V c n (Nat.lt_of_succ_lt hn)).2)
  · have e1 : (outsAt V c (n + 1) hn).2 = sout_B c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt V c n (Nat.lt_of_succ_lt hn)).2 :=
      Eq.trans (b := Prod.snd (outIdle, sout_B c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt V c n (Nat.lt_of_succ_lt hn)).2)) (congrArg Prod.snd (outsAt_B V c ⟨n + 1, hn⟩ h0 h1)) (Eq.refl _)
    exact Eq.trans (b := sout_B c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt V c n (Nat.lt_of_succ_lt hn)).2) e1 (sout_B_eq c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt V c n (Nat.lt_of_succ_lt hn)).2)

/-- The accumulator after any point is the fold over its run of reduction steps. -/
theorem accS_eq_accAt (c : Dev nD) (t : ℕ) (ht : t < cfg3.N) (h' : 4 * (t / 4) + t % 4 < cfg3.N) :
    accS V c t ht = Pipeline.accAt (accStart V c) (accStep V c) (4 * (t / 4)) (t % 4) h' :=
  Pipeline.eq_accAt_of_mod (accS V c) 4 (accStart V c) (accStep V c)
    (fun n h h0 => accS_start V c n h h0) (fun n h h0 => accS_step V c n h h0) (by decide) t ht h'

/-- At a point of the last reduction step the output block's staging buffer holds the epilogue of that point's
    accumulator and the bias row. -/
theorem out_last (c : Dev nD) (t : Fin cfg3.N) (h1 : t.val % 4 = 3) :
    (outsAt V c t.val t.isLt).1 = k3_pay3 (accS V c t.val t.isLt) (iblk V c 2 t) := by
  have h0 : ¬t.val % 4 = 0 := by omega
  have es : accS V c t.val t.isLt = k3_pay2 (iblk V c 0 t) (outsAt V c (t.val - 1) (Nat.lt_of_le_of_lt (Nat.sub_le _ _) t.isLt)).2 (iblk V c 1 t) :=
    Eq.trans (b := sout_C c (grid3.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2)
      (Eq.trans (b := Prod.snd (out_C c (grid3.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2, sout_C c (grid3.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2)) (congrArg Prod.snd (outsAt_C V c t h0 h1)) (Eq.refl _))
      (sout_C_eq c (grid3.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2)
  have eo : (outsAt V c t.val t.isLt).1 = k3_pay3 (k3_pay2 (iblk V c 0 t) (outsAt V c (t.val - 1) (Nat.lt_of_le_of_lt (Nat.sub_le _ _) t.isLt)).2 (iblk V c 1 t)) (iblk V c 2 t) :=
    Eq.trans (b := out_C c (grid3.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2)
      (Eq.trans (b := Prod.fst (out_C c (grid3.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2, sout_C c (grid3.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2)) (congrArg Prod.fst (outsAt_C V c t h0 h1)) (Eq.refl _))
      (out_C_eq c (grid3.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2)
  rw [eo, es]

end Cert.KernelIdeal.Reg3

end
-- ==== Proof.KI_R3Alg.lean ====
/-
  Region 3's payloads at exact arithmetic, read at an index: the reset block is 0; the accumulation step adds to the
  accumulator's entry the sum over the block's contraction axis of the products of the two input blocks' entries
  (a change of float format being the identity there); the epilogue is the entry plus the bias row's entry of its
  column, then (where the body applies it) the maximum with 0.
-/
import proofs.«155634_j8117488189610_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Reg3

open Cert.KernelIdeal Cert.KernelIdeal.Gen
open Idealize.ShloMosaic Idealize.ShloMosaic.TcCoe Idealize.ShloMosaic.ValueIdx

/-- The dimension numbers of the block product. -/
abbrev D : DotDims S4096x2048 S2048x20 S4096x20 := dot_S4096x2048_S2048x20_S4096x20_1_0_0_1_n_n

theorem pay1_apply (j : S4096x20.Idx) : k3_pay1 (F := Ideal) j = 0 := by
  unfold k3_pay1
  simp only [shapeCast_self]
  exact Ideal.ofBits_zero_f32

theorem pay2_apply (x0 : Vec Ideal S4096x2048 .bf16) (xs : Vec Ideal S4096x20 .f32) (x1 : Vec Ideal S2048x20 .f32) (j : S4096x20.Idx) :
    k3_pay2 (F := Ideal) x0 xs x1 j = xs j + ∑ k : D.contr.Idx, x0 (D.lhsIdx j k) * x1 (D.rhsIdx j k) := by
  unfold k3_pay2
  simp only [shapeCast_self, matmul]
  rw [addf_apply, Ideal.matmul_constant_zero_apply]
  rfl

theorem pay3_apply (v : Vec Ideal S4096x20 .f32) (b : Vec Ideal S1x20 .f32) (j : S4096x20.Idx) :
    k3_pay3 (F := Ideal) v b j = v j + b (ix2 (n0 := 1) (n1 := 20) 0 (j 1)) := by
  unfold k3_pay3
  simp only [shapeCast_self]
  rw [addf_apply,
    broadcastTo_apply b _ j (ix2 (n0 := 1) (n1 := 20) 0 (j 1)) (fun a => by
      match a with
      | ⟨0, _⟩ => rfl
      | ⟨1, _⟩ => rfl)]

end Cert.KernelIdeal.Reg3

end
-- ==== Proof.KI_R3Arr.lean ====
/-
  Region 3 at exact arithmetic: its output array in closed form. The accumulator after the point of reduction step
  `s` of row block `q` is the sum, over the steps up to `s`, of "adjacency block (q, step) times right-factor block
  (step)", entry by entry (it starts from the zero block); so at the last step it is the full product of the row
  block of the adjacency with the right factor, the reduction axis summed block by block — which on the extended reals
  is the sum over the whole axis, regrouping a sum needing no hypothesis.
-/
import proofs.«155634_j8117488189610_2_alg».proof.Proof.KI_R3Fold
import proofs.«155634_j8117488189610_2_alg».proof.Proof.KI_R3Alg
import proofs.«155634_j8117488189610_2_alg».proof.Proof.LibERealMatrix

set_option maxRecDepth 16384

noncomputable section

namespace Cert.KernelIdeal.Reg3

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The printed index maps, decided over the grid: the adjacency window's block is (row block, reduction step), the
    right factor's (reduction step, 0), the bias row's (0, 0), the output's (row block, 0); the row block is the point's
    number divided by 4, the reduction step its remainder. -/
theorem idx_facts : ∀ t : Fin cfg3.N,
    win3_0.index t (0 : Fin 2) = t.val / 4 ∧ win3_0.index t (1 : Fin 2) = t.val % 4
    ∧ win3_1.index t (0 : Fin 2) = t.val % 4 ∧ win3_1.index t (1 : Fin 2) = 0
    ∧ win3_2.index t (0 : Fin 2) = 0 ∧ win3_2.index t (1 : Fin 2) = 0
    ∧ win3_3.index t (0 : Fin 2) = t.val / 4 ∧ win3_3.index t (1 : Fin 2) = 0 :=
  (by decide +kernel : ∀ t : Fin grid3.N, _)

/-- The adjacency block and the right-factor block of point `t`. -/
def blkA (c : Dev nD) (t : Fin cfg3.N) : Vec Ideal S4096x2048 .bf16 := iblk V c 0 t
def blkM (c : Dev nD) (t : Fin cfg3.N) : Vec Ideal S2048x20 .f32 := iblk V c 1 t
def blkB (c : Dev nD) (t : Fin cfg3.N) : Vec Ideal S1x20 .f32 := iblk V c 2 t

/-- The addend of point `n`: the product of its two input blocks, entry by entry (zero past the grid). -/
def addend (c : Dev nD) (n : ℕ) (y : S4096x20.Idx) : EReal :=
  if h : n < cfg3.N then ∑ k : D.contr.Idx, blkA V c ⟨n, h⟩ (D.lhsIdx y k) * blkM V c ⟨n, h⟩ (D.rhsIdx y k) else 0

theorem accStart_apply (c : Dev nD) (n : ℕ) (hn : n < cfg3.N) (y : S4096x20.Idx) :
    accStart V c n hn y = 0 + addend V c n y := by
  unfold accStart addend blkA blkM
  rw [pay2_apply, pay1_apply, dif_pos hn]

theorem accStep_apply (c : Dev nD) (n : ℕ) (hn : n < cfg3.N) (acc : Vec Ideal S4096x20 .f32) (y : S4096x20.Idx) :
    accStep V c n hn acc y = acc y + addend V c n y := by
  unfold accStep addend blkA blkM
  rw [pay2_apply, dif_pos hn]

/-- The accumulator after point `t` is the sum of the addends of its run of reduction steps up to it. -/
theorem accS_apply (c : Dev nD) (t : ℕ) (ht : t < cfg3.N) (y : S4096x20.Idx) :
    accS V c t ht y = 0 + ∑ s ∈ Finset.range (t % 4 + 1), addend V c (4 * (t / 4) + s) y := by
  have h' : 4 * (t / 4) + t % 4 < cfg3.N := by rw [Nat.div_add_mod]; exact ht
  rw [accS_eq_accAt V c t ht h']
  exact Pipeline.accAt_add_apply (accStart V c) (accStep V c) (fun _ => 0) (addend V c) (4 * (t / 4)) 3
    (fun h i => accStart_apply V c _ h i) (fun n h acc i _ _ => accStep_apply V c n h acc i)
    (t % 4) (by omega) h' y

/-! ## The arrays in natural-number coordinates, and the blocks read there -/

/-- The region's three input arrays as it finds them: the (copied) adjacency, the right factor, the bias row. -/
def arrA (c : Dev nD) : Vec Ideal S8192x8192 .bf16 := V c main_v2_1
def arrM (c : Dev nD) : Vec Ideal S8192x20 .f32 := V c main_v61
def arrB (c : Dev nD) : Vec Ideal S1x20 .f32 := V c main_v63

/-- The adjacency's entry at row `R`, column `J` (zero outside the array). -/
def aN (c : Dev nD) (R J : ℕ) : EReal := if h : R < 8192 ∧ J < 8192 then arrA V c (ix2 (n0 := 8192) (n1 := 8192) ⟨R, h.1⟩ ⟨J, h.2⟩) else 0
/-- The right factor's entry at row `J`, column `C` (zero outside the array). -/
def mN (c : Dev nD) (J C : ℕ) : EReal := if h : J < 8192 ∧ C < 20 then arrM V c (ix2 (n0 := 8192) (n1 := 20) ⟨J, h.1⟩ ⟨C, h.2⟩) else 0

theorem blkA_apply (c : Dev nD) (t : Fin cfg3.N) (x : S4096x2048.Idx) :
    blkA V c t x = aN V c (t.val / 4 * 4096 + (x 0).val) (t.val % 4 * 2048 + (x 1).val) := by
  have hN : t.val < 8 := lt_of_lt_of_eq t.isLt (show cfg3.N = 8 from N_3)
  have hx0 : (x 0).val < 4096 := (x 0).isLt
  have hx1 : (x 1).val < 2048 := (x 1).isLt
  obtain ⟨e0, e1, -⟩ := idx_facts t
  unfold blkA iblk aN arrA
  rw [View.read_apply, dif_pos ⟨by omega, by omega⟩]
  show V c main_v2_1 _ = V c main_v2_1 _
  refine congrArg _ (funext fun a => Fin.ext ?_)
  match a with
  | ⟨0, _⟩ => show win3_0.index t (0 : Fin 2) * 4096 + 1 * (x 0).val = t.val / 4 * 4096 + (x 0).val; rw [e0]; omega
  | ⟨1, _⟩ => show win3_0.index t (1 : Fin 2) * 2048 + 1 * (x 1).val = t.val % 4 * 2048 + (x 1).val; rw [e1]; omega

theorem blkM_apply (c : Dev nD) (t : Fin cfg3.N) (x : S2048x20.Idx) :
    blkM V c t x = mN V c (t.val % 4 * 2048 + (x 0).val) (x 1).val := by
  have hN : t.val < 8 := lt_of_lt_of_eq t.isLt (show cfg3.N = 8 from N_3)
  have hx0 : (x 0).val < 2048 := (x 0).isLt
  have hx1 : (x 1).val < 20 := (x 1).isLt
  obtain ⟨-, -, e2, e3, -⟩ := idx_facts t
  unfold blkM iblk mN arrM
  rw [View.read_apply, dif_pos ⟨by omega, by omega⟩]
  show V c main_v61 _ = V c main_v61 _
  refine congrArg _ (funext fun a => Fin.ext ?_)
  match a with
  | ⟨0, _⟩ => show win3_1.index t (0 : Fin 2) * 2048 + 1 * (x 0).val = t.val % 4 * 2048 + (x 0).val; rw [e2]; omega
  | ⟨1, _⟩ => show win3_1.index t (1 : Fin 2) * 20 + 1 * (x 1).val = (x 1).val; rw [e3]; omega

theorem blkB_apply (c : Dev nD) (t : Fin cfg3.N) (x : S1x20.Idx) : blkB V c t x = arrB V c x := by
  obtain ⟨-, -, -, -, e4, e5, -⟩ := idx_facts t
  have hx0 : (x 0).val < 1 := (x 0).isLt
  unfold blkB iblk arrB
  rw [View.read_apply]
  show V c main_v63 _ = V c main_v63 _
  refine congrArg _ (funext fun a => Fin.ext ?_)
  match a with
  | ⟨0, _⟩ => show win3_2.index t (0 : Fin 2) * 1 + 1 * (x 0).val = (x 0).val; rw [e4]; omega
  | ⟨1, _⟩ => show win3_2.index t (1 : Fin 2) * 20 + 1 * (x 1).val = (x 1).val; rw [e5]; omega

/-- A point's addend is the sum over the 2048 positions of its reduction block. -/
theorem addend_eq (c : Dev nD) (n : ℕ) (hn : n < cfg3.N) (y : S4096x20.Idx) :
    addend V c n y = ∑ r ∈ Finset.range 2048, aN V c (n / 4 * 4096 + (y 0).val) (n % 4 * 2048 + r) * mN V c (n % 4 * 2048 + r) (y 1).val := by
  unfold addend
  rw [dif_pos hn, ← Equiv.sum_comp (contrEquiv1 D 2048 rfl rfl).symm,
    ← Fin.sum_univ_eq_sum_range (fun r => aN V c (n / 4 * 4096 + (y 0).val) (n % 4 * 2048 + r) * mN V c (n % 4 * 2048 + r) (y 1).val) 2048]
  refine Finset.sum_congr rfl fun r _ => ?_
  have hk : (((contrEquiv1 D 2048 rfl rfl).symm r) ⟨0, by decide⟩ : ℕ) = r.val := contrEquiv1_symm_val D 2048 rfl rfl r
  rw [blkA_apply, blkM_apply]
  show aN V c (n / 4 * 4096 + (y 0).val) (n % 4 * 2048 + (((contrEquiv1 D 2048 rfl rfl).symm r) ⟨0, by decide⟩ : ℕ))
      * mN V c (n % 4 * 2048 + (((contrEquiv1 D 2048 rfl rfl).symm r) ⟨0, by decide⟩ : ℕ)) (y 1).val = _
  rw [hk]

/-- At the last reduction step of row block `q` the accumulator is the full product of the adjacency's rows with the
    right factor: the reduction axis summed block by block is the sum over the whole axis. -/
theorem accS_last (c : Dev nD) (t : Fin cfg3.N) (h3 : t.val % 4 = 3) (y : S4096x20.Idx) :
    accS V c t.val t.isLt y = 0 + ∑ J ∈ Finset.range 8192, aN V c (t.val / 4 * 4096 + (y 0).val) J * mN V c J (y 1).val := by
  have hN : t.val < 8 := lt_of_lt_of_eq t.isLt (show cfg3.N = 8 from N_3)
  rw [accS_apply, h3, show (8192 : ℕ) = 4 * 2048 from rfl,
    LibERealMatrix.sum_range_mul 4 2048 (fun J => aN V c (t.val / 4 * 4096 + (y 0).val) J * mN V c J (y 1).val)]
  refine congrArg (0 + ·) (Finset.sum_congr rfl fun s hs => ?_)
  have hs4 : s < 4 := Finset.mem_range.mp hs
  have hlt : 4 * (t.val / 4) + s < cfg3.N := lt_of_lt_of_eq (by omega : 4 * (t.val / 4) + s < 8) (show (8 : ℕ) = cfg3.N from N_3.symm)
  rw [addend_eq V c _ hlt y, show (4 * (t.val / 4) + s) / 4 = t.val / 4 from by omega, show (4 * (t.val / 4) + s) % 4 = s from by omega]
  refine Finset.sum_congr rfl fun r _ => ?_
  rw [show s * 2048 + r = r + 2048 * s from by ring]

/-! ## The output array after the run -/

/-- The array the region leaves: at row `R`, column `C`, the product of the adjacency's row `R` with the right factor's
    column `C`, plus the bias row's entry. -/
def Gout (c : Dev nD) : Vec Ideal S8192x20 .f32 := fun I =>
  (0 + ∑ J ∈ Finset.range 8192, aN V c (I 0).val J * mN V c J (I 1).val) + arrB V c (ix2 (n0 := 1) (n1 := 20) 0 (I 1))

/-- An element of the output block of point `t` sits at row "row block × 4096 + its row", at its own column. -/
theorem emb_out (t : Fin cfg3.N) (y : S4096x20.Idx) (a : Fin 2) :
    ((((cfg3.win 3).blk t).view.emb y) a : ℕ) = if a = 0 then t.val / 4 * 4096 + (y 0).val else (y 1).val := by
  obtain ⟨-, -, -, -, -, -, e6, e7⟩ := idx_facts t
  match a with
  | ⟨0, _⟩ => show win3_3.index t (0 : Fin 2) * 4096 + 1 * (y 0).val = _; rw [e6]; simp
  | ⟨1, _⟩ => show win3_3.index t (1 : Fin 2) * 20 + 1 * (y 1).val = _; rw [e7]; simp

/-- What a point of the last reduction step writes back is its block of `Gout`. -/
theorem flushed_eq (c : Dev nD) (t : Fin cfg3.N) (hf : (cfg3.win 3).flush t = true) :
    (dat V c).flushed 3 t = ((cfg3.win 3).blk t).view.read (Elt Ideal) (Gout V c) := by
  have h3 : t.val % 4 = 3 := (flush3_3 t).mp hf
  show (cfg3.win 3).cut (grid3.coords t) ((dat V c).after 3 t) = _
  rw [after_3, out_last V c t h3]
  funext y
  show k3_pay3 (F := Ideal) (accS V c t.val t.isLt) (blkB V c t) y = Gout V c (((cfg3.win 3).blk t).view.emb y)
  have hy1 : (y 1).val < 20 := (y 1).isLt
  rw [pay3_apply, accS_last V c t h3, blkB_apply]
  unfold Gout
  have r0 : ((((cfg3.win 3).blk t).view.emb y) 0 : ℕ) = t.val / 4 * 4096 + (y 0).val := (emb_out t y 0).trans (if_pos rfl)
  have r1 : ((((cfg3.win 3).blk t).view.emb y) 1 : ℕ) = (y 1).val := (emb_out t y 1).trans (if_neg (by decide))
  have r1' : (((cfg3.win 3).blk t).view.emb y) 1 = y 1 := Fin.ext r1
  rw [r0, r1, r1']

/-- An index of the array is in point `t`'s block iff each coordinate is in the block's range on its axis. -/
theorem mem_blk (t : Fin cfg3.N) (i : S8192x20.Idx) :
    i ∈ ((cfg3.win 3).blk t).view.set ↔ ∀ a : Fin 2, win3_3.index t a * S4096x20.size a ≤ (i a).val ∧ (i a).val < win3_3.index t a * S4096x20.size a + S4096x20.size a := by
  show i ∈ ((View.whole main_v64).slice (win3_3.rect t)).set ↔ _
  rw [View.set_slice_whole, Rect.mem_set_unit]
  exact Iff.rfl

/-- Every index of the array is in the block of the last-step point of its row block. -/
theorem cover (i : S8192x20.Idx) : ∃ t : Fin cfg3.N, (cfg3.win 3).flush t = true ∧ i ∈ ((cfg3.win 3).blk t).view.set := by
  have hi0 : (i 0).val < 8192 := (i 0).isLt
  have hi1 : (i 1).val < 20 := (i 1).isLt
  have htn : 4 * ((i 0).val / 4096) + 3 < cfg3.N := lt_of_lt_of_eq (by omega : 4 * ((i 0).val / 4096) + 3 < 8) (show (8 : ℕ) = cfg3.N from N_3.symm)
  refine ⟨⟨4 * ((i 0).val / 4096) + 3, htn⟩, (flush3_3 _).mpr (by show (4 * ((i 0).val / 4096) + 3) % 4 = 3; omega), ?_⟩
  rw [mem_blk]
  obtain ⟨-, -, -, -, -, -, e6, e7⟩ := idx_facts ⟨4 * ((i 0).val / 4096) + 3, htn⟩
  intro a
  match a with
  | ⟨0, _⟩ =>
    show win3_3.index ⟨4 * ((i 0).val / 4096) + 3, htn⟩ (0 : Fin 2) * 4096 ≤ (i 0).val ∧ (i 0).val < win3_3.index ⟨4 * ((i 0).val / 4096) + 3, htn⟩ (0 : Fin 2) * 4096 + 4096
    rw [e6]; show (4 * ((i 0).val / 4096) + 3) / 4 * 4096 ≤ (i 0).val ∧ (i 0).val < (4 * ((i 0).val / 4096) + 3) / 4 * 4096 + 4096
    rw [show (4 * ((i 0).val / 4096) + 3) / 4 = (i 0).val / 4096 from by omega]; omega
  | ⟨1, _⟩ =>
    show win3_3.index ⟨4 * ((i 0).val / 4096) + 3, htn⟩ (1 : Fin 2) * 20 ≤ (i 1).val ∧ (i 1).val < win3_3.index ⟨4 * ((i 0).val / 4096) + 3, htn⟩ (1 : Fin 2) * 20 + 20
    rw [e7]; omega

/-- The output array after the run. -/
theorem final (c : Dev nD) : (dat V c).arrAt 3 cfg3.N = Gout V c :=
  (dat V c).arrAt_eq_of_cover 3 (Gout V c) (flushed_eq V c) cover

/-- The same with the reduction axis as one index type: the product of the adjacency with the right factor, entry by
    entry, then the epilogue. -/
theorem Gout_apply (c : Dev nD) (I : S8192x20.Idx) :
    Gout V c I = (∑ k : Fin 8192, arrA V c (ix2 (n0 := 8192) (n1 := 8192) (I 0) k) * arrM V c (ix2 (n0 := 8192) (n1 := 20) k (I 1))) + arrB V c (ix2 (n0 := 1) (n1 := 20) 0 (I 1)) := by
  unfold Gout
  rw [zero_add, ← Fin.sum_univ_eq_sum_range (fun J => aN V c (I 0).val J * mN V c J (I 1).val) 8192]
  have hs : (∑ k : Fin 8192, aN V c (I 0).val k.val * mN V c k.val (I 1).val) = (∑ k : Fin 8192, arrA V c (ix2 (n0 := 8192) (n1 := 8192) (I 0) k) * arrM V c (ix2 (n0 := 8192) (n1 := 20) k (I 1))) :=
    Finset.sum_congr rfl fun k _ => by
      unfold aN mN
      rw [dif_pos ⟨(I 0).isLt, k.isLt⟩, dif_pos ⟨k.isLt, (I 1).isLt⟩]
      rfl
  rw [hs]

end Cert.KernelIdeal.Reg3

end
-- ==== Proof.KI_Bridge.lean ====
/-
  The idealized kernel program's boundary contents, read: after each region its output array holds the region's closed
  form of the arrays it was entered with (the product of the adjacency with the right factor, plus the bias row, with
  the layer's epilogue), region 0 also leaves the copy of the adjacency, and a region's input arrays are as entered.
-/
import proofs.«155634_j8117488189610_2_alg».proof.Proof.KI_Run
import proofs.«155634_j8117488189610_2_alg».proof.Proof.KI_R0Arr
import proofs.«155634_j8117488189610_2_alg».proof.Proof.KI_R1Arr
import proofs.«155634_j8117488189610_2_alg».proof.Proof.KI_R2Arr
import proofs.«155634_j8117488189610_2_alg».proof.Proof.KI_R3Arr

noncomputable section

namespace Cert.KernelIdeal.Whole

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## Region 0 -/
theorem W2_out (c : Dev nD) : W2 m ρ c (Proc.devRef .tc main_v2_0) = Reg0.Gout (V1 m ρ) c :=
  (W2_arr m ρ c 3).trans (Reg0.final (V1 m ρ) c)
theorem W2_copy (c : Dev nD) : W2 m ρ c (Proc.devRef .tc main_v2_1) = Reg0.Gcopy (V1 m ρ) c :=
  (W2_arr m ρ c 4).trans (Reg0.final4 (V1 m ρ) c)

/-! ## Region 1 -/
theorem W6_out (c : Dev nD) : W6 m ρ c (Proc.devRef .tc main_v24) = Reg1.Gout (V5 m ρ) c :=
  (W6_arr m ρ c 3).trans (Reg1.final (V5 m ρ) c)
theorem W6_adj (c : Dev nD) : W6 m ρ c (Proc.devRef .tc main_v2_1) = W5 m ρ c (Proc.devRef .tc main_v2_1) :=
  (W6_arr m ρ c 0).trans (((Reg1.dat (V5 m ρ) c).arrAt_in 0 rfl _).trans (Reg1.A_eq (V5 m ρ) c 0))

/-! ## Region 2 -/
theorem W10_out (c : Dev nD) : W10 m ρ c (Proc.devRef .tc main_v48) = Reg2.Gout (V9 m ρ) c :=
  (W10_arr m ρ c 3).trans (Reg2.final (V9 m ρ) c)
theorem W10_adj (c : Dev nD) : W10 m ρ c (Proc.devRef .tc main_v2_1) = W9 m ρ c (Proc.devRef .tc main_v2_1) :=
  (W10_arr m ρ c 0).trans (((Reg2.dat (V9 m ρ) c).arrAt_in 0 rfl _).trans (Reg2.A_eq (V9 m ρ) c 0))

/-! ## Region 3 -/
theorem W12_out (c : Dev nD) : W12 m ρ c (Proc.devRef .tc main_v64) = Reg3.Gout (V11 m ρ) c :=
  (W12_arr m ρ c 3).trans (Reg3.final (V11 m ρ) c)
theorem W12_sl (c : Dev nD) : W12 m ρ c (Proc.devRef .tc main_v61) = W11 m ρ c (Proc.devRef .tc main_v61) :=
  (W12_arr m ρ c 1).trans (((Reg3.dat (V11 m ρ) c).arrAt_in 1 rfl _).trans (Reg3.A_eq (V11 m ρ) c 1))
theorem W12_z (c : Dev nD) : W12 m ρ c (Proc.devRef .tc main_v49) = W11 m ρ c (Proc.devRef .tc main_v49) :=
  W12_of_ne m ρ c main_v49 (by decide)

end Cert.KernelIdeal.Whole

end
-- ==== Proof.Stages.lean ====
/-
  The stages of the graph network, as compositions of exactly the host operations the two printed programs
  spell them with. Both programs — the reference, and the program whose products with the adjacency matrix
  run in kernels — contain these chains operation for operation, so each reads them as the same function:

  * the rectifier `max (v, 0)`;
  * the batch normalisation of the rows of a matrix: with `m` the column means and `s` the column variances
    (the mean of the squared deviations, the count spelled `n - 0` and guarded by `n - 0 > 0`),
    `g · (v - m) · (s + ε)^(-1/2) + b`, at 8192 rows of 16 and at 20 rows of 8;
  * the soft maximum of each row of an 8192 × 20 matrix: `exp (l - max l)` over its row sum, the row
    maximum taken from minus infinity;
  * the tail of the network: from the pooled features (20 × 8) and the pooled adjacency (20 × 20), a third
    layer on the pooled graph, its normalisation, the last layer, and the sum over the twenty rows.

  The shape facts and contraction records are the reference program's; the other program's are equal to them.
-/
import proofs.«155634_j8117488189610_2_alg».proof.Proof.Gen.ReferenceIdeal

noncomputable section

namespace Cert.Stages

open Idealize.ShloMosaic Cert.ReferenceIdeal Cert.ReferenceIdeal.Gen

variable {F : FTy → Type} [FloatOps F]

/-! ### Constants and broadcasts -/

/-- The rank-zero constants the chains use: zero, the row counts 8192 and 20, the epsilon, a NaN, minus
    infinity, and the integer zero. -/
def c0 : FVec F S_ .f32 := constant S_ .f32 0x00000000#32
def c8192 : FVec F S_ .f32 := constant S_ .f32 0x46000000#32
def c20 : FVec F S_ .f32 := constant S_ .f32 0x41A00000#32
def cEps : FVec F S_ .f32 := constant S_ .f32 0x3727C5AC#32
def cNaN : FVec F S_ .f32 := constant S_ .f32 0x7FC00000#32
def cNegInf : FVec F S_ .f32 := constant S_ .f32 0xFF800000#32
def cI0 : IVec S_ 32 := constantI S_ 32 0#32

/-- A vector of 16 as every row of an 8192 × 16 matrix (through 1 × 16). -/
def rows16 (x : FVec F S16 .f32) : FVec F S8192x16 .f32 :=
  broadcastInDim S8192x16 ![0, 1] bcast_S1x16_S8192x16_0_1 (broadcastInDim S1x16 ![1] bcast_S16_S1x16_1 x)

/-- A vector of 8 as every row of a 20 × 8 matrix (through 1 × 8). -/
def rows8 (x : FVec F S8 .f32) : FVec F S20x8 .f32 :=
  broadcastInDim S20x8 ![0, 1] bcast_S1x8_S20x8_0_1 (broadcastInDim S1x8 ![1] bcast_S8_S1x8_1 x)

/-- A vector of 8192 as every column of an 8192 × 20 matrix (through 8192 × 1). -/
def cols20 (x : FVec F S8192 .f32) : FVec F S8192x20 .f32 :=
  broadcastInDim S8192x20 ![0, 1] bcast_S8192x1_S8192x20_0_1 (broadcastInDim S8192x1 ![0] bcast_S8192_S8192x1_0 x)

/-! ### The rectifier -/

def Relu16 (v : FVec F S8192x16 .f32) : FVec F S8192x16 .f32 :=
  maximumf v (broadcastInDim S8192x16 ![] bcast_S_S8192x16 c0)

def Relu8 (v : FVec F S20x8 .f32) : FVec F S20x8 .f32 :=
  maximumf v (broadcastInDim S20x8 ![] bcast_S_S20x8 c0)

/-! ### Batch normalisation of 8192 rows of 16 -/

/-- The column means: the column sums over 8192. -/
def Mean16 (v : FVec F S8192x16 .f32) : FVec F S16 .f32 :=
  Host.divf (Host.reduceAdd v c0 reducesTo_S8192x16_S16_d0 h_S_) (broadcastInDim S16 ![] bcast_S_S16 c8192)

/-- The deviations from the column means as the variance computes them (the means formed at 1 × 16). -/
def Dev16 (v : FVec F S8192x16 .f32) : FVec F S8192x16 .f32 :=
  subf v (broadcastInDim S8192x16 ![0, 1] bcast_S1x16_S8192x16_0_1
    (Host.divf (broadcastInDim S1x16 ![1] bcast_S16_S1x16_1 (Host.reduceAdd v c0 reducesTo_S8192x16_S16_d0 h_S_))
      (broadcastInDim S1x16 ![] bcast_S_S1x16 c8192)))

/-- The count of the variance, `8192 - 0`. -/
def Count16 : FVec F S_ .f32 := subf c8192 (sitofp .f32 cI0)

/-- The column variances: the sums of squared deviations over the count where the count is positive,
    else a NaN. -/
def Var16 (v : FVec F S8192x16 .f32) : FVec F S16 .f32 :=
  select (broadcastInDim S16 ![] bcast_S_S16 (cmpf .ogt (Count16 (F := F)) c0))
    (Host.divf (Host.reduceAdd (mulf (Dev16 v) (Dev16 v)) c0 reducesTo_S8192x16_S16_d0 h_S_)
      (broadcastInDim S16 ![] bcast_S_S16 Count16))
    (broadcastInDim S16 ![] bcast_S_S16 (id cNaN))

/-- The reciprocal standard deviations, `(variance + ε)^(-1/2)`. -/
def Rstd16 (v : FVec F S8192x16 .f32) : FVec F S16 .f32 :=
  Host.rsqrt (addf (Var16 v) (broadcastInDim S16 ![] bcast_S_S16 cEps))

/-- Batch normalisation with scale `g` and shift `bt`. -/
def BN16 (v : FVec F S8192x16 .f32) (g bt : FVec F S16 .f32) : FVec F S8192x16 .f32 :=
  addf (mulf (mulf (rows16 g) (subf v (rows16 (Mean16 v)))) (rows16 (Rstd16 v))) (rows16 bt)

/-! ### Batch normalisation of 20 rows of 8 -/

def Mean8 (v : FVec F S20x8 .f32) : FVec F S8 .f32 :=
  Host.divf (Host.reduceAdd v c0 reducesTo_S20x8_S8_d0 h_S_) (broadcastInDim S8 ![] bcast_S_S8 c20)

def Dev8 (v : FVec F S20x8 .f32) : FVec F S20x8 .f32 :=
  subf v (broadcastInDim S20x8 ![0, 1] bcast_S1x8_S20x8_0_1
    (Host.divf (broadcastInDim S1x8 ![1] bcast_S8_S1x8_1 (Host.reduceAdd v c0 reducesTo_S20x8_S8_d0 h_S_))
      (broadcastInDim S1x8 ![] bcast_S_S1x8 c20)))

def Count8 : FVec F S_ .f32 := subf c20 (sitofp .f32 cI0)

def Var8 (v : FVec F S20x8 .f32) : FVec F S8 .f32 :=
  select (broadcastInDim S8 ![] bcast_S_S8 (cmpf .ogt (Count8 (F := F)) c0))
    (Host.divf (Host.reduceAdd (mulf (Dev8 v) (Dev8 v)) c0 reducesTo_S20x8_S8_d0 h_S_)
      (broadcastInDim S8 ![] bcast_S_S8 Count8))
    (broadcastInDim S8 ![] bcast_S_S8 (id cNaN))

def Rstd8 (v : FVec F S20x8 .f32) : FVec F S8 .f32 :=
  Host.rsqrt (addf (Var8 v) (broadcastInDim S8 ![] bcast_S_S8 cEps))

def BN8 (v : FVec F S20x8 .f32) (g bt : FVec F S8 .f32) : FVec F S20x8 .f32 :=
  addf (mulf (mulf (rows8 g) (subf v (rows8 (Mean8 v)))) (rows8 (Rstd8 v))) (rows8 bt)

/-! ### The soft maximum of the rows of an 8192 × 20 matrix -/

/-- The row maxima, taken from minus infinity (and once more against it). -/
def RowMax20 (l : FVec F S8192x20 .f32) : FVec F S8192 .f32 :=
  maximumf (broadcastInDim S8192 ![] bcast_S_S8192 cNegInf)
    (Host.reduce FloatOps.maximumf l cNegInf reducesTo_S8192x20_S8192_d1 h_S_)

/-- The exponentials of the entries less their row maximum. -/
def SoftmaxExp20 (l : FVec F S8192x20 .f32) : FVec F S8192x20 .f32 :=
  Host.exp (subf l (cols20 (RowMax20 l)))

/-- The row sums of the exponentials. -/
def SoftmaxSum20 (l : FVec F S8192x20 .f32) : FVec F S8192 .f32 :=
  Host.reduceAdd (SoftmaxExp20 l) c0 reducesTo_S8192x20_S8192_d1 h_S_

def Softmax20 (l : FVec F S8192x20 .f32) : FVec F S8192x20 .f32 :=
  Host.divf (SoftmaxExp20 l) (cols20 (SoftmaxSum20 l))

/-! ### The layers and the tail -/

/-- The transpose of the 8192 × 20 assignment matrix. -/
def T20 (s : FVec F S8192x20 .f32) : FVec F S20x8192 .f32 :=
  transpose S20x8192 [1, 0] s transposes_S8192x20_S20x8192_1_0

/-- The third layer on the pooled graph, before its normalisation: `relu (a (h W) + b)`. -/
def Layer3 (hpool : FVec F S20x8 .f32) (a : FVec F S20x20 .f32) (W3 : FVec F S8x8 .f32) (b3 : FVec F S8 .f32) :
    FVec F S20x8 .f32 :=
  Relu8 (addf (Host.dotGeneral dot_S20x20_S20x8_S20x8_1_0_0_1_n_n none a
    (Host.dotGeneral dot_S20x8_S8x8_S20x8_1_0_0_1_n_n none hpool W3)) (rows8 b3))

/-- The last layer on the pooled graph, `a (h W) + b`, summed over the twenty rows, as a 1 × 8 row. -/
def Readout (h3 : FVec F S20x8 .f32) (a : FVec F S20x20 .f32) (We2 : FVec F S8x8 .f32) (be2 : FVec F S8 .f32) :
    FVec F S1x8 .f32 :=
  broadcastInDim S1x8 ![1] bcast_S8_S1x8_1
    (Host.reduceAdd (addf (Host.dotGeneral dot_S20x20_S20x8_S20x8_1_0_0_1_n_n none a
      (Host.dotGeneral dot_S20x8_S8x8_S20x8_1_0_0_1_n_n none h3 We2)) (rows8 be2)) c0 reducesTo_S20x8_S8_d0 h_S_)

/-- Everything after the pooled features and the pooled adjacency. -/
def Tail (hpool : FVec F S20x8 .f32) (a : FVec F S20x20 .f32) (W3 : FVec F S8x8 .f32) (b3 g3 bt3 : FVec F S8 .f32)
    (We2 : FVec F S8x8 .f32) (be2 : FVec F S8 .f32) : FVec F S1x8 .f32 :=
  Readout (BN8 (Layer3 hpool a W3 b3) g3 bt3) a We2 be2

end Cert.Stages

end
-- ==== Proof.LibMatIdx.lean ====
/-
  A host product of two matrices at exact arithmetic, read at an entry: the sum over the contracted axis of the
  products of the left factor's row entries with the right factor's column entries. Stated for any contraction
  record between two-axis shapes whose operand indices are "row of the result, contracted position" and "contracted
  position, column of the result" — facts that hold by computation for the records a product of two matrices prints.
-/
import Idealize.ShloMosaic.Lib.ValueIdx
import Idealize.ShloMosaic.PureOps.Ideal.Laws

noncomputable section

namespace LibMatIdx

open Idealize.ShloMosaic Idealize.ShloMosaic.ValueIdx

theorem dot2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) D prec l r j = ∑ k : Fin K, l (ix2 (n0 := M) (n1 := K) (j 0) k) * r (ix2 (n0 := K) (n1 := N) k (j 1)) := by
  show FloatOps.dotGeneral (F := Ideal) D prec .single l r j = _
  rw [Ideal.dotGeneral_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatIdx

end
-- ==== Proof.BridgeMath.lean ====
/-
  The regions' closed forms against the reference's layer: for an adjacency `A`, a right factor `M` and a bias
  vector `b` laid out as a row, "entry by entry the product of `A`'s row with `M`'s column, plus the bias entry of
  the column, then the maximum with 0" is the rectifier of the host product plus the bias broadcast over the rows.
-/
import proofs.«155634_j8117488189610_2_alg».proof.Proof.Stages
import proofs.«155634_j8117488189610_2_alg».proof.Proof.Gen.KernelIdeal
import proofs.«155634_j8117488189610_2_alg».proof.Proof.LibMatIdx
import proofs.«155634_j8117488189610_2_alg».proof.Proof.LibERealMatrix
import Idealize.ShloMosaic.Lib.Pipeline.Value

noncomputable section

namespace Cert.BridgeMath

open Idealize.ShloMosaic Idealize.ShloMosaic.ValueIdx Cert.ReferenceIdeal Cert.ReferenceIdeal.Gen Cert.Stages

/-- The product read at an entry, for the adjacency against a width-16 factor. -/
theorem dotA16 (A : FVec Ideal S8192x8192 .f32) (M : FVec Ideal S8192x16 .f32) (I : S8192x16.Idx) :
    Host.dotGeneral (F := Ideal) dot_S8192x8192_S8192x16_S8192x16_1_0_0_1_n_n none A M I
      = ∑ k : Fin 8192, A (ix2 (n0 := 8192) (n1 := 8192) (I 0) k) * M (ix2 (n0 := 8192) (n1 := 16) k (I 1)) :=
  LibMatIdx.dot2_apply dot_S8192x8192_S8192x16_S8192x16_1_0_0_1_n_n rfl rfl
    (fun _ _ => rfl) (fun _ _ => rfl) (fun _ _ => rfl) (fun _ _ => rfl) none A M I

/-- A layer's region output, as a function of the arrays it reads. -/
def PB16 (A : FVec Ideal S8192x8192 .f32) (M : FVec Ideal S8192x16 .f32) (B : FVec Ideal S1x16 .f32) : FVec Ideal S8192x16 .f32 := fun I =>
  max ((∑ k : Fin 8192, A (ix2 (n0 := 8192) (n1 := 8192) (I 0) k) * M (ix2 (n0 := 8192) (n1 := 16) k (I 1))) + B (ix2 (n0 := 1) (n1 := 16) 0 (I 1))) 0

theorem rows16_apply (b : FVec Ideal S16 .f32) (I : S8192x16.Idx) : rows16 b I = b (ix1 (n := 16) (I 1)) := by
  unfold rows16
  rw [broadcastInDim_apply _ _ _ I (ix2 (n0 := 1) (n1 := 16) 0 (I 1)) (fun a => by
      match a with
      | ⟨0, _⟩ => rfl
      | ⟨1, _⟩ => rfl),
    broadcastInDim_apply _ _ _ (ix2 (n0 := 1) (n1 := 16) 0 (I 1)) (ix1 (n := 16) (I 1)) (fun a => by
      match a with
      | ⟨0, _⟩ => rfl)]

theorem PB16_eq (A : FVec Ideal S8192x8192 .f32) (M : FVec Ideal S8192x16 .f32) (b : FVec Ideal S16 .f32) (hsc : S16.ShapeCasts S1x16) :
    PB16 A M (shapeCast S1x16 b hsc)
      = Relu16 (addf (Host.dotGeneral dot_S8192x8192_S8192x16_S8192x16_1_0_0_1_n_n none A M) (rows16 b)) := by
  funext I
  unfold PB16 Relu16
  rw [maximumf_apply, addf_apply, dotA16, rows16_apply,
    shapeCast_apply b hsc (ix2 (n0 := 1) (n1 := 16) 0 (I 1)) (ix1 (n := 16) (I 1)) (by
      rw [Shape.rowMajor_val_one, Shape.rowMajor_val_two]; simp)]
  congr 1
  rw [broadcastInDim_apply _ _ _ I ix0 (fun a => a.elim0)]
  exact Ideal.ofBits_zero_f32.symm

/-! ## The pooling stage: one product against the concatenated weights, then two slices -/

theorem dotA8 (l : FVec Ideal S8192x8192 .f32) (r : FVec Ideal S8192x8 .f32) (I : S8192x8.Idx) :
    Host.dotGeneral (F := Ideal) dot_S8192x8192_S8192x8_S8192x8_1_0_0_1_n_n none l r I
      = ∑ k : Fin 8192, l (ix2 (n0 := 8192) (n1 := 8192) (I 0) k) * r (ix2 (n0 := 8192) (n1 := 8) k (I 1)) :=
  LibMatIdx.dot2_apply dot_S8192x8192_S8192x8_S8192x8_1_0_0_1_n_n rfl rfl (fun _ _ => rfl) (fun _ _ => rfl) (fun _ _ => rfl) (fun _ _ => rfl) none l r I

theorem dotA20 (l : FVec Ideal S8192x8192 .f32) (r : FVec Ideal S8192x20 .f32) (I : S8192x20.Idx) :
    Host.dotGeneral (F := Ideal) dot_S8192x8192_S8192x20_S8192x20_1_0_0_1_n_n none l r I
      = ∑ k : Fin 8192, l (ix2 (n0 := 8192) (n1 := 8192) (I 0) k) * r (ix2 (n0 := 8192) (n1 := 20) k (I 1)) :=
  LibMatIdx.dot2_apply dot_S8192x8192_S8192x20_S8192x20_1_0_0_1_n_n rfl rfl (fun _ _ => rfl) (fun _ _ => rfl) (fun _ _ => rfl) (fun _ _ => rfl) none l r I

theorem dotH8 (l : FVec Ideal S8192x16 .f32) (r : FVec Ideal S16x8 .f32) (I : S8192x8.Idx) :
    Host.dotGeneral (F := Ideal) dot_S8192x16_S16x8_S8192x8_1_0_0_1_n_n none l r I
      = ∑ k : Fin 16, l (ix2 (n0 := 8192) (n1 := 16) (I 0) k) * r (ix2 (n0 := 16) (n1 := 8) k (I 1)) :=
  LibMatIdx.dot2_apply dot_S8192x16_S16x8_S8192x8_1_0_0_1_n_n rfl rfl (fun _ _ => rfl) (fun _ _ => rfl) (fun _ _ => rfl) (fun _ _ => rfl) none l r I

theorem dotH20 (l : FVec Ideal S8192x16 .f32) (r : FVec Ideal S16x20 .f32) (I : S8192x20.Idx) :
    Host.dotGeneral (F := Ideal) dot_S8192x16_S16x20_S8192x20_1_0_0_1_n_n none l r I
      = ∑ k : Fin 16, l (ix2 (n0 := 8192) (n1 := 16) (I 0) k) * r (ix2 (n0 := 16) (n1 := 20) k (I 1)) :=
  LibMatIdx.dot2_apply dot_S8192x16_S16x20_S8192x20_1_0_0_1_n_n rfl rfl (fun _ _ => rfl) (fun _ _ => rfl) (fun _ _ => rfl) (fun _ _ => rfl) none l r I

theorem dotH28 (l : FVec Ideal S8192x16 .f32) (r : FVec Ideal Cert.KernelIdeal.S16x28 .f32) (I : Cert.KernelIdeal.S8192x28.Idx) :
    Host.dotGeneral (F := Ideal) Cert.KernelIdeal.dot_S8192x16_S16x28_S8192x28_1_0_0_1_n_n none l r I
      = ∑ k : Fin 16, l (ix2 (n0 := 8192) (n1 := 16) (I 0) k) * r (ix2 (n0 := 16) (n1 := 28) k (I 1)) :=
  LibMatIdx.dot2_apply Cert.KernelIdeal.dot_S8192x16_S16x28_S8192x28_1_0_0_1_n_n rfl rfl (fun _ _ => rfl) (fun _ _ => rfl) (fun _ _ => rfl) (fun _ _ => rfl) none l r I

/-- A region output without rectifier, width 28. -/
def PB28 (A : FVec Ideal S8192x8192 .f32) (M : FVec Ideal Cert.KernelIdeal.S8192x28 .f32) (B : FVec Ideal Cert.KernelIdeal.S1x28 .f32) : FVec Ideal Cert.KernelIdeal.S8192x28 .f32 := fun I =>
  (∑ k : Fin 8192, A (ix2 (n0 := 8192) (n1 := 8192) (I 0) k) * M (ix2 (n0 := 8192) (n1 := 28) k (I 1))) + B (ix2 (n0 := 1) (n1 := 28) 0 (I 1))

/-- A region output without rectifier, width 20. -/
def PB20 (A : FVec Ideal S8192x8192 .f32) (M : FVec Ideal S8192x20 .f32) (B : FVec Ideal S1x20 .f32) : FVec Ideal S8192x20 .f32 := fun I =>
  (∑ k : Fin 8192, A (ix2 (n0 := 8192) (n1 := 8192) (I 0) k) * M (ix2 (n0 := 8192) (n1 := 20) k (I 1))) + B (ix2 (n0 := 1) (n1 := 20) 0 (I 1))

section Pool
variable (A : FVec Ideal S8192x8192 .f32) (h : FVec Ideal S8192x16 .f32) (We1 : FVec Ideal S16x8 .f32) (Wp1 : FVec Ideal S16x20 .f32)
  (be1 : FVec Ideal S8 .f32) (bp1 : FVec Ideal S20 .f32)
  (hcW : Shape.Concatenates [S16x8, S16x20] Cert.KernelIdeal.S16x28 (1 : Fin 2)) (hcb : Shape.Concatenates [S8, S20] Cert.KernelIdeal.S28 (0 : Fin 1))
  (hsc : Cert.KernelIdeal.S28.ShapeCasts Cert.KernelIdeal.S1x28)

/-- The width-28 region output for the concatenated weights and biases. -/
def ZC : FVec Ideal Cert.KernelIdeal.S8192x28 .f32 :=
  PB28 A (Host.dotGeneral Cert.KernelIdeal.dot_S8192x16_S16x28_S8192x28_1_0_0_1_n_n none h
      (concatenate Cert.KernelIdeal.S16x28 (1 : Fin 2) [⟨S16x8, We1⟩, ⟨S16x20, Wp1⟩] hcW))
    (shapeCast Cert.KernelIdeal.S1x28 (concatenate Cert.KernelIdeal.S28 (0 : Fin 1) [⟨S8, be1⟩, ⟨S20, bp1⟩] hcb) hsc)

theorem ZC_left (R : Fin 8192) (c : Fin 8) :
    ZC A h We1 Wp1 be1 bp1 hcW hcb hsc (ix2 (n0 := 8192) (n1 := 28) R ⟨c.val, by omega⟩)
      = (∑ k : Fin 8192, A (ix2 (n0 := 8192) (n1 := 8192) R k) * ∑ i : Fin 16, h (ix2 (n0 := 8192) (n1 := 16) k i) * We1 (ix2 (n0 := 16) (n1 := 8) i c)) + be1 (ix1 (n := 8) c) := by
  unfold ZC PB28
  have hW : ∀ (k : Fin 8192), Host.dotGeneral (F := Ideal) Cert.KernelIdeal.dot_S8192x16_S16x28_S8192x28_1_0_0_1_n_n none h
      (concatenate Cert.KernelIdeal.S16x28 (1 : Fin 2) [⟨S16x8, We1⟩, ⟨S16x20, Wp1⟩] hcW) (ix2 (n0 := 8192) (n1 := 28) k ⟨c.val, by omega⟩)
      = ∑ i : Fin 16, h (ix2 (n0 := 8192) (n1 := 16) k i) * We1 (ix2 (n0 := 16) (n1 := 8) i c) := by
    intro k
    rw [dotH28]
    refine Finset.sum_congr rfl fun i _ => ?_
    refine congrArg (h _ * ·) ?_
    exact concatenate_pair_apply_left (t := Cert.KernelIdeal.S16x28) (s₁ := S16x8) (s₂ := S16x20) (1 : Fin 2) We1 Wp1 hcW (ix2 (n0 := 16) (n1 := 28) i ⟨c.val, by omega⟩) rfl (ix2 (n0 := 16) (n1 := 8) i c) (fun b => by
      match b with
      | ⟨0, _⟩ => rfl
      | ⟨1, _⟩ => rfl)
  have hB : shapeCast Cert.KernelIdeal.S1x28 (concatenate Cert.KernelIdeal.S28 (0 : Fin 1) [⟨S8, be1⟩, ⟨S20, bp1⟩] hcb) hsc (ix2 (n0 := 1) (n1 := 28) 0 ⟨c.val, by omega⟩)
      = be1 (ix1 (n := 8) c) := by
    rw [shapeCast_apply _ hsc (ix2 (n0 := 1) (n1 := 28) 0 ⟨c.val, by omega⟩) (ix1 (n := 28) ⟨c.val, by omega⟩) (by
      rw [Shape.rowMajor_val_one, Shape.rowMajor_val_two]; simp)]
    exact concatenate_pair_apply_left (t := Cert.KernelIdeal.S28) (s₁ := S8) (s₂ := S20) (0 : Fin 1) be1 bp1 hcb (ix1 (n := 28) ⟨c.val, by omega⟩) rfl (ix1 (n := 8) c) (fun b => by
      match b with
      | ⟨0, _⟩ => rfl)
  show (∑ k : Fin 8192, A (ix2 (n0 := 8192) (n1 := 8192) R k) * _) + _ = _
  rw [hB]
  exact congrArg (· + be1 (ix1 (n := 8) c)) (Finset.sum_congr rfl fun k _ => congrArg (A _ * ·) (hW k))

theorem ZC_right (R : Fin 8192) (c : Fin 20) :
    ZC A h We1 Wp1 be1 bp1 hcW hcb hsc (ix2 (n0 := 8192) (n1 := 28) R ⟨8 + c.val, by omega⟩)
      = (∑ k : Fin 8192, A (ix2 (n0 := 8192) (n1 := 8192) R k) * ∑ i : Fin 16, h (ix2 (n0 := 8192) (n1 := 16) k i) * Wp1 (ix2 (n0 := 16) (n1 := 20) i c)) + bp1 (ix1 (n := 20) c) := by
  unfold ZC PB28
  have hW : ∀ (k : Fin 8192), Host.dotGeneral (F := Ideal) Cert.KernelIdeal.dot_S8192x16_S16x28_S8192x28_1_0_0_1_n_n none h
      (concatenate Cert.KernelIdeal.S16x28 (1 : Fin 2) [⟨S16x8, We1⟩, ⟨S16x20, Wp1⟩] hcW) (ix2 (n0 := 8192) (n1 := 28) k ⟨8 + c.val, by omega⟩)
      = ∑ i : Fin 16, h (ix2 (n0 := 8192) (n1 := 16) k i) * Wp1 (ix2 (n0 := 16) (n1 := 20) i c) := by
    intro k
    rw [dotH28]
    refine Finset.sum_congr rfl fun i _ => ?_
    refine congrArg (h _ * ·) ?_
    exact concatenate_pair_apply_right (t := Cert.KernelIdeal.S16x28) (s₁ := S16x8) (s₂ := S16x20) (1 : Fin 2) We1 Wp1 hcW (ix2 (n0 := 16) (n1 := 28) i ⟨8 + c.val, by omega⟩) rfl rfl (ix2 (n0 := 16) (n1 := 20) i c) (fun b hb => by
      match b with
      | ⟨0, _⟩ => rfl
      | ⟨1, _⟩ => exact absurd rfl hb) (by show c.val + 8 = 8 + c.val; omega)
  have hB : shapeCast Cert.KernelIdeal.S1x28 (concatenate Cert.KernelIdeal.S28 (0 : Fin 1) [⟨S8, be1⟩, ⟨S20, bp1⟩] hcb) hsc (ix2 (n0 := 1) (n1 := 28) 0 ⟨8 + c.val, by omega⟩)
      = bp1 (ix1 (n := 20) c) := by
    rw [shapeCast_apply _ hsc (ix2 (n0 := 1) (n1 := 28) 0 ⟨8 + c.val, by omega⟩) (ix1 (n := 28) ⟨8 + c.val, by omega⟩) (by
      rw [Shape.rowMajor_val_one, Shape.rowMajor_val_two]; simp)]
    exact concatenate_pair_apply_right (t := Cert.KernelIdeal.S28) (s₁ := S8) (s₂ := S20) (0 : Fin 1) be1 bp1 hcb (ix1 (n := 28) ⟨8 + c.val, by omega⟩) rfl rfl (ix1 (n := 20) c) (fun b hb => by
      match b with
      | ⟨0, _⟩ => exact absurd rfl hb) (by show c.val + 8 = 8 + c.val; omega)
  show (∑ k : Fin 8192, A (ix2 (n0 := 8192) (n1 := 8192) R k) * _) + _ = _
  rw [hB]
  exact congrArg (· + bp1 (ix1 (n := 20) c)) (Finset.sum_congr rfl fun k _ => congrArg (A _ * ·) (hW k))

end Pool

/-! ## The pooled adjacency: a triple product re-associated -/

theorem dotT20 (l : FVec Ideal S20x8192 .f32) (r : FVec Ideal S8192x20 .f32) (I : S20x20.Idx) :
    Host.dotGeneral (F := Ideal) dot_S20x8192_S8192x20_S20x20_1_0_0_1_n_n none l r I
      = ∑ k : Fin 8192, l (ix2 (n0 := 20) (n1 := 8192) (I 0) k) * r (ix2 (n0 := 8192) (n1 := 20) k (I 1)) :=
  LibMatIdx.dot2_apply dot_S20x8192_S8192x20_S20x20_1_0_0_1_n_n rfl rfl (fun _ _ => rfl) (fun _ _ => rfl) (fun _ _ => rfl) (fun _ _ => rfl) none l r I

theorem dotTA (l : FVec Ideal S20x8192 .f32) (r : FVec Ideal S8192x8192 .f32) (I : S20x8192.Idx) :
    Host.dotGeneral (F := Ideal) dot_S20x8192_S8192x8192_S20x8192_1_0_0_1_n_n none l r I
      = ∑ k : Fin 8192, l (ix2 (n0 := 20) (n1 := 8192) (I 0) k) * r (ix2 (n0 := 8192) (n1 := 8192) k (I 1)) :=
  LibMatIdx.dot2_apply dot_S20x8192_S8192x8192_S20x8192_1_0_0_1_n_n rfl rfl (fun _ _ => rfl) (fun _ _ => rfl) (fun _ _ => rfl) (fun _ _ => rfl) none l r I

theorem T20_apply (s : FVec Ideal S8192x20 .f32) (p : Fin 20) (i : Fin 8192) :
    T20 s (ix2 (n0 := 20) (n1 := 8192) p i) = s (ix2 (n0 := 8192) (n1 := 20) i p) := by
  unfold T20
  exact transpose_apply _ s _ _ (ix2 (n0 := 8192) (n1 := 20) i p) (fun b => by
    match b with
    | ⟨0, _⟩ => rfl
    | ⟨1, _⟩ => rfl)

/-- The pooled adjacency computed as "assignmentᵀ × (adjacency × assignment + a zero row)" is the one computed as
    "(assignmentᵀ × adjacency) × assignment": with every entry of the adjacency and of the assignment a real number, both
    are the same double sum. -/
theorem pooled_adjacency (A : FVec Ideal S8192x8192 .f32) (s : FVec Ideal S8192x20 .f32) (Z : FVec Ideal S1x20 .f32)
    (hA : ∀ i, LibERealMatrix.Fin' (A i)) (hs : ∀ i, LibERealMatrix.Fin' (s i)) (hZ : ∀ i, Z i = 0) :
    Host.dotGeneral (F := Ideal) dot_S20x8192_S8192x20_S20x20_1_0_0_1_n_n none (T20 s) (PB20 A s Z)
      = Host.dotGeneral (F := Ideal) dot_S20x8192_S8192x20_S20x20_1_0_0_1_n_n none
          (Host.dotGeneral (F := Ideal) dot_S20x8192_S8192x8192_S20x8192_1_0_0_1_n_n none (T20 s) A) s := by
  funext I
  obtain ⟨p, q, rfl⟩ : ∃ (p : Fin 20) (q : Fin 20), I = ix2 (n0 := 20) (n1 := 20) p q := ⟨I 0, I 1, eq_ix2 I⟩
  rw [dotT20, dotT20]
  show (∑ i : Fin 8192, T20 s (ix2 (n0 := 20) (n1 := 8192) p i) * PB20 A s Z (ix2 (n0 := 8192) (n1 := 20) i q))
    = ∑ j : Fin 8192, Host.dotGeneral (F := Ideal) dot_S20x8192_S8192x8192_S20x8192_1_0_0_1_n_n none (T20 s) A (ix2 (n0 := 20) (n1 := 8192) p j)
        * s (ix2 (n0 := 8192) (n1 := 20) j q)
  have hL : ∀ i : Fin 8192, T20 s (ix2 (n0 := 20) (n1 := 8192) p i) * PB20 A s Z (ix2 (n0 := 8192) (n1 := 20) i q)
      = s (ix2 (n0 := 8192) (n1 := 20) i p) * ∑ j : Fin 8192, A (ix2 (n0 := 8192) (n1 := 8192) i j) * s (ix2 (n0 := 8192) (n1 := 20) j q) := by
    intro i
    rw [T20_apply]
    unfold PB20
    show _ * ((∑ j : Fin 8192, A (ix2 (n0 := 8192) (n1 := 8192) i j) * s (ix2 (n0 := 8192) (n1 := 20) j q)) + Z _) = _
    rw [hZ, add_zero]
  have hR : ∀ j : Fin 8192, Host.dotGeneral (F := Ideal) dot_S20x8192_S8192x8192_S20x8192_1_0_0_1_n_n none (T20 s) A (ix2 (n0 := 20) (n1 := 8192) p j)
        * s (ix2 (n0 := 8192) (n1 := 20) j q)
      = (∑ i : Fin 8192, s (ix2 (n0 := 8192) (n1 := 20) i p) * A (ix2 (n0 := 8192) (n1 := 8192) i j)) * s (ix2 (n0 := 8192) (n1 := 20) j q) := by
    intro j
    rw [dotTA]
    refine congrArg (· * s _) (Finset.sum_congr rfl fun i _ => ?_)
    show T20 s (ix2 (n0 := 20) (n1 := 8192) p i) * A (ix2 (n0 := 8192) (n1 := 8192) i j) = _
    rw [T20_apply]
  rw [Finset.sum_congr rfl fun i _ => hL i, Finset.sum_congr rfl fun j _ => hR j]
  exact (LibERealMatrix.sum_mul_sum_assoc (fun i : Fin 8192 => s (ix2 (n0 := 8192) (n1 := 20) i p))
    (fun i j : Fin 8192 => A (ix2 (n0 := 8192) (n1 := 8192) i j)) (fun j : Fin 8192 => s (ix2 (n0 := 8192) (n1 := 20) j q))
    (fun _ => hs _) (fun _ _ => hA _) (fun _ => hs _)).symm

/-! ## The two slices against the reference's expressions -/

section Slices
variable (A : FVec Ideal S8192x8192 .f32) (h : FVec Ideal S8192x16 .f32) (We1 : FVec Ideal S16x8 .f32) (Wp1 : FVec Ideal S16x20 .f32)
  (be1 : FVec Ideal S8 .f32) (bp1 : FVec Ideal S20 .f32)
  (hcW : Shape.Concatenates [S16x8, S16x20] Cert.KernelIdeal.S16x28 (1 : Fin 2)) (hcb : Shape.Concatenates [S8, S20] Cert.KernelIdeal.S28 (0 : Fin 1))
  (hsc : Cert.KernelIdeal.S28.ShapeCasts Cert.KernelIdeal.S1x28)

/-- Columns 0 … 7 of the width-28 output are the embedding branch: adjacency × (features × embedding weights) + its bias. -/
theorem slice_z (hsl : Cert.KernelIdeal.S8192x28.Slices ![0, 0] S8192x8) :
    extractStridedSlice S8192x8 ![0, 0] (ZC A h We1 Wp1 be1 bp1 hcW hcb hsc) hsl
      = addf (Host.dotGeneral (F := Ideal) dot_S8192x8192_S8192x8_S8192x8_1_0_0_1_n_n none A
            (Host.dotGeneral (F := Ideal) dot_S8192x16_S16x8_S8192x8_1_0_0_1_n_n none h We1))
          (broadcastInDim S8192x8 ![0, 1] bcast_S1x8_S8192x8_0_1 (broadcastInDim S1x8 ![1] bcast_S8_S1x8_1 be1)) := by
  funext I
  obtain ⟨R, c, rfl⟩ : ∃ (R : Fin 8192) (c : Fin 8), I = ix2 (n0 := 8192) (n1 := 8) R c := ⟨I 0, I 1, eq_ix2 I⟩
  rw [extractStridedSlice_apply ![0, 0] _ hsl (ix2 (n0 := 8192) (n1 := 8) R c) (ix2 (n0 := 8192) (n1 := 28) R ⟨c.val, by omega⟩) (fun a => by
      match a with
      | ⟨0, _⟩ => show R.val = 0 + R.val; omega
      | ⟨1, _⟩ => show c.val = 0 + c.val; omega),
    ZC_left, addf_apply, dotA8]
  have hb : broadcastInDim S8192x8 ![0, 1] bcast_S1x8_S8192x8_0_1 (broadcastInDim S1x8 ![1] bcast_S8_S1x8_1 be1) (ix2 (n0 := 8192) (n1 := 8) R c) = be1 (ix1 (n := 8) c) := by
    rw [broadcastInDim_apply _ _ _ (ix2 (n0 := 8192) (n1 := 8) R c) (ix2 (n0 := 1) (n1 := 8) 0 c) (fun a => by
        match a with
        | ⟨0, _⟩ => rfl
        | ⟨1, _⟩ => rfl),
      broadcastInDim_apply _ _ _ (ix2 (n0 := 1) (n1 := 8) 0 c) (ix1 (n := 8) c) (fun a => by
        match a with
        | ⟨0, _⟩ => rfl)]
  rw [hb]
  refine congrArg (· + be1 (ix1 (n := 8) c)) (Finset.sum_congr rfl fun k _ => ?_)
  show A (ix2 (n0 := 8192) (n1 := 8192) R k) * _ = A (ix2 (n0 := 8192) (n1 := 8192) R k) * Host.dotGeneral (F := Ideal) dot_S8192x16_S16x8_S8192x8_1_0_0_1_n_n none h We1 (ix2 (n0 := 8192) (n1 := 8) k c)
  rw [dotH8]

/-- Columns 8 … 27 are the assignment branch: adjacency × (features × assignment weights) + its bias. -/
theorem slice_l (hsl : Cert.KernelIdeal.S8192x28.Slices ![0, 8] S8192x20) :
    extractStridedSlice S8192x20 ![0, 8] (ZC A h We1 Wp1 be1 bp1 hcW hcb hsc) hsl
      = addf (Host.dotGeneral (F := Ideal) dot_S8192x8192_S8192x20_S8192x20_1_0_0_1_n_n none A
            (Host.dotGeneral (F := Ideal) dot_S8192x16_S16x20_S8192x20_1_0_0_1_n_n none h Wp1))
          (broadcastInDim S8192x20 ![0, 1] bcast_S1x20_S8192x20_0_1 (broadcastInDim S1x20 ![1] bcast_S20_S1x20_1 bp1)) := by
  funext I
  obtain ⟨R, c, rfl⟩ : ∃ (R : Fin 8192) (c : Fin 20), I = ix2 (n0 := 8192) (n1 := 20) R c := ⟨I 0, I 1, eq_ix2 I⟩
  rw [extractStridedSlice_apply ![0, 8] _ hsl (ix2 (n0 := 8192) (n1 := 20) R c) (ix2 (n0 := 8192) (n1 := 28) R ⟨8 + c.val, by omega⟩) (fun a => by
      match a with
      | ⟨0, _⟩ => show R.val = 0 + R.val; omega
      | ⟨1, _⟩ => show 8 + c.val = 8 + c.val; rfl),
    ZC_right, addf_apply, dotA20]
  have hb : broadcastInDim S8192x20 ![0, 1] bcast_S1x20_S8192x20_0_1 (broadcastInDim S1x20 ![1] bcast_S20_S1x20_1 bp1) (ix2 (n0 := 8192) (n1 := 20) R c) = bp1 (ix1 (n := 20) c) := by
    rw [broadcastInDim_apply _ _ _ (ix2 (n0 := 8192) (n1 := 20) R c) (ix2 (n0 := 1) (n1 := 20) 0 c) (fun a => by
        match a with
        | ⟨0, _⟩ => rfl
        | ⟨1, _⟩ => rfl),
      broadcastInDim_apply _ _ _ (ix2 (n0 := 1) (n1 := 20) 0 c) (ix1 (n := 20) c) (fun a => by
        match a with
        | ⟨0, _⟩ => rfl)]
  rw [hb]
  refine congrArg (· + bp1 (ix1 (n := 20) c)) (Finset.sum_congr rfl fun k _ => ?_)
  show A (ix2 (n0 := 8192) (n1 := 8192) R k) * _ = A (ix2 (n0 := 8192) (n1 := 8192) R k) * Host.dotGeneral (F := Ideal) dot_S8192x16_S16x20_S8192x20_1_0_0_1_n_n none h Wp1 (ix2 (n0 := 8192) (n1 := 20) k c)
  rw [dotH20]

end Slices

end Cert.BridgeMath

end
-- ==== Proof.KerRead.lean ====
/-
  The host stretches of the program whose products with the adjacency matrix run in kernels, read as pure
  functions. Between the kernel regions the program runs short lines of host operations; for ANY contents
  `W` of the buffers when a stretch starts, what the stretch leaves in the buffers the rest of the program
  reads is a stage of the network applied to what `W` holds:

    stretch 0:  x W₁, and the first bias as a row;
    stretch 1:  BN (h₁) W₂, and the second bias as a row;
    stretch 2:  BN (h₂) [Wₑ | Wₚ], and [bₑ | bₚ] as a row;
    stretch 3:  the first 8 columns (the embedding), the soft maximum of the other 20, a zero row;
    stretch 4:  the tail of the network on sᵀ z and sᵀ (A s + 0).

  The copy of the adjacency matrix the kernels read is left untouched by every stretch. The stages are the ones
  the reference program is read with; this program's contraction records and shape facts equal the reference's
  (same fields), which is all the equations below use of them.
-/
import proofs.«155634_j8117488189610_2_alg».proof.Proof.Gen.KernelIdeal.Launch
import proofs.«155634_j8117488189610_2_alg».proof.Proof.Stages

noncomputable section

namespace Cert.KernelIdeal.Read

open Cert.KernelIdeal Cert.KernelIdeal.Gen Idealize.ShloMosaic Idealize.ShloMosaic.TcCoe Idealize.SL.Sem Idealize.ShloMosaic.StableHlo Cert.Stages

variable {F : FTy → Type} [FloatOps F]

/-! ### The two programs' contraction records are equal -/

theorem dot_x_W1_eq : dot_S8192x18_S18x16_S8192x16_1_0_0_1_n_n = Cert.ReferenceIdeal.dot_S8192x18_S18x16_S8192x16_1_0_0_1_n_n := rfl
theorem dot_h_W2_eq : dot_S8192x16_S16x16_S8192x16_1_0_0_1_n_n = Cert.ReferenceIdeal.dot_S8192x16_S16x16_S8192x16_1_0_0_1_n_n := rfl
theorem dot_sT_z_eq : dot_S20x8192_S8192x8_S20x8_1_0_0_1_n_n = Cert.ReferenceIdeal.dot_S20x8192_S8192x8_S20x8_1_0_0_1_n_n := rfl
theorem dot_sT_As_eq : dot_S20x8192_S8192x20_S20x20_1_0_0_1_n_n = Cert.ReferenceIdeal.dot_S20x8192_S8192x20_S20x20_1_0_0_1_n_n := rfl
theorem dot_h_W8_eq : dot_S20x8_S8x8_S20x8_1_0_0_1_n_n = Cert.ReferenceIdeal.dot_S20x8_S8x8_S20x8_1_0_0_1_n_n := rfl
theorem dot_a_h_eq : dot_S20x20_S20x8_S20x8_1_0_0_1_n_n = Cert.ReferenceIdeal.dot_S20x20_S20x8_S20x8_1_0_0_1_n_n := rfl

/-! ### The stretches -/

/-- Stretch 1 (with the variance call written out), stretch 2 and stretch 4 as their lines one after the other. -/
abbrev after1 (W : Valuation τ sig (Elt F)) : Valuation τ sig (Elt F) := after hostOps1_2 (after hostOps1_1 (after hostOps1 W))
abbrev after2 (W : Valuation τ sig (Elt F)) : Valuation τ sig (Elt F) := after hostOps2_2 (after hostOps2_1 (after hostOps2 W))
abbrev after4 (W : Valuation τ sig (Elt F)) : Valuation τ sig (Elt F) :=
  after hostOps4_4 (after hostOps4_3 (after hostOps4_2 (after hostOps4_1 (after hostOps4 W))))

set_option maxRecDepth 8192 in
set_option maxHeartbeats 4000000 in
/-- Stretch 0: the product `x W₁`. -/
theorem read0_xW1 (W : Valuation τ sig (Elt F)) :
    after (hostOps0 (F := F)) W (Proc.devRef .tc main_v0)
      = Host.dotGeneral Cert.ReferenceIdeal.dot_S8192x18_S18x16_S8192x16_1_0_0_1_n_n none (W (Proc.devRef .tc main_arg0)) (W (Proc.devRef .tc main_arg2)) := by
  after_results_simp <;> rfl

set_option maxRecDepth 8192 in
set_option maxHeartbeats 4000000 in
/-- Stretch 0: the first bias as a 1 × 16 row. -/
theorem read0_b1 (W : Valuation τ sig (Elt F)) :
    after (hostOps0 (F := F)) W (Proc.devRef .tc main_v1)
      = shapeCast S1x16 (W (Proc.devRef .tc main_arg3)) shapeCasts_S16_S1x16 := by
  after_results_simp <;> rfl

set_option maxRecDepth 8192 in
set_option maxHeartbeats 4000000 in
/-- Stretch 1: the first layer normalised. -/
theorem read1_bn (W : Valuation τ sig (Elt F)) :
    after1 (F := F) W (Proc.devRef .tc main_v21)
      = BN16 (W (Proc.devRef .tc main_v2_0)) (W (Proc.devRef .tc main_arg14)) (W (Proc.devRef .tc main_arg15)) := by
  after_results_simp <;> rfl

set_option maxRecDepth 8192 in
set_option maxHeartbeats 4000000 in
/-- Stretch 1: the normalised first layer times `W₂`. -/
theorem read1_hW2 (W : Valuation τ sig (Elt F)) :
    after1 (F := F) W (Proc.devRef .tc main_v22)
      = Host.dotGeneral Cert.ReferenceIdeal.dot_S8192x16_S16x16_S8192x16_1_0_0_1_n_n none (BN16 (W (Proc.devRef .tc main_v2_0)) (W (Proc.devRef .tc main_arg14)) (W (Proc.devRef .tc main_arg15))) (W (Proc.devRef .tc main_arg4)) := by
  after_results_simp <;> rfl

set_option maxRecDepth 8192 in
set_option maxHeartbeats 4000000 in
/-- Stretch 1: the second bias as a 1 × 16 row. -/
theorem read1_b2 (W : Valuation τ sig (Elt F)) :
    after1 (F := F) W (Proc.devRef .tc main_v23)
      = shapeCast S1x16 (W (Proc.devRef .tc main_arg5)) shapeCasts_S16_S1x16 := by
  after_results_simp <;> rfl

set_option maxRecDepth 8192 in
set_option maxHeartbeats 4000000 in
/-- Stretch 1 leaves the kernels' copy of the adjacency matrix untouched. -/
theorem read1_adj (W : Valuation τ sig (Elt F)) :
    after1 (F := F) W (Proc.devRef .tc main_v2_1) = W (Proc.devRef .tc main_v2_1) := by
  after_results_simp

set_option maxRecDepth 8192 in
set_option maxHeartbeats 4000000 in
/-- Stretch 2: the second layer normalised. -/
theorem read2_bn (W : Valuation τ sig (Elt F)) :
    after2 (F := F) W (Proc.devRef .tc main_v43)
      = BN16 (W (Proc.devRef .tc main_v24)) (W (Proc.devRef .tc main_arg16)) (W (Proc.devRef .tc main_arg17)) := by
  after_results_simp <;> rfl

set_option maxRecDepth 8192 in
set_option maxHeartbeats 4000000 in
/-- Stretch 2: the normalised second layer times `[Wₑ | Wₚ]`. -/
theorem read2_hWeWp (W : Valuation τ sig (Elt F)) :
    after2 (F := F) W (Proc.devRef .tc main_v46)
      = Host.dotGeneral dot_S8192x16_S16x28_S8192x28_1_0_0_1_n_n none (BN16 (W (Proc.devRef .tc main_v24)) (W (Proc.devRef .tc main_arg16)) (W (Proc.devRef .tc main_arg17)))
          (concatenate S16x28 1 [⟨S16x8, (W (Proc.devRef .tc main_arg6))⟩, ⟨S16x20, (W (Proc.devRef .tc main_arg8))⟩] concatenates_S16x8_S16x20_S16x28_d1) := by
  after_results_simp <;> rfl

set_option maxRecDepth 8192 in
set_option maxHeartbeats 4000000 in
/-- Stretch 2: `[bₑ | bₚ]` as a 1 × 28 row. -/
theorem read2_bebp (W : Valuation τ sig (Elt F)) :
    after2 (F := F) W (Proc.devRef .tc main_v47)
      = shapeCast S1x28 (concatenate S28 0 [⟨S8, (W (Proc.devRef .tc main_arg7))⟩, ⟨S20, (W (Proc.devRef .tc main_arg9))⟩] concatenates_S8_S20_S28_d0) shapeCasts_S28_S1x28 := by
  after_results_simp <;> rfl

set_option maxRecDepth 8192 in
set_option maxHeartbeats 4000000 in
/-- Stretch 2 leaves the kernels' copy of the adjacency matrix untouched. -/
theorem read2_adj (W : Valuation τ sig (Elt F)) :
    after2 (F := F) W (Proc.devRef .tc main_v2_1) = W (Proc.devRef .tc main_v2_1) := by
  after_results_simp

set_option maxRecDepth 8192 in
set_option maxHeartbeats 4000000 in
/-- Stretch 3: the embedding, the first 8 of the 28 columns. -/
theorem read3_z (W : Valuation τ sig (Elt F)) :
    after (hostOps3 (F := F)) W (Proc.devRef .tc main_v49)
      = extractStridedSlice S8192x8 ![0, 0] (W (Proc.devRef .tc main_v48)) slices_S8192x28_S8192x8_0_0 := by
  after_results_simp <;> rfl

set_option maxRecDepth 8192 in
set_option maxHeartbeats 4000000 in
/-- Stretch 3: the assignment matrix, the soft maximum of the rows of the other 20 columns. -/
theorem read3_s (W : Valuation τ sig (Elt F)) :
    after (hostOps3 (F := F)) W (Proc.devRef .tc main_v61)
      = Softmax20 (extractStridedSlice S8192x20 ![0, 8] (W (Proc.devRef .tc main_v48)) slices_S8192x28_S8192x20_0_8) := by
  after_results_simp <;> rfl

set_option maxRecDepth 8192 in
set_option maxHeartbeats 4000000 in
/-- Stretch 3: a zero 1 × 20 row (the bias of the product `A s`). -/
theorem read3_zero (W : Valuation τ sig (Elt F)) :
    after (hostOps3 (F := F)) W (Proc.devRef .tc main_v63)
      = shapeCast S1x20 (broadcastInDim S20 ![] bcast_S_S20 (constant S_ .f32 0x00000000#32)) shapeCasts_S20_S1x20 := by
  after_results_simp <;> rfl

set_option maxRecDepth 8192 in
set_option maxHeartbeats 4000000 in
/-- Stretch 3 leaves the kernels' copy of the adjacency matrix untouched. -/
theorem read3_adj (W : Valuation τ sig (Elt F)) :
    after (hostOps3 (F := F)) W (Proc.devRef .tc main_v2_1) = W (Proc.devRef .tc main_v2_1) := by
  after_results_simp

set_option maxRecDepth 8192 in
set_option maxHeartbeats 4000000 in
/-- Stretch 4: the result, the tail of the network on `sᵀ z` and `sᵀ (A s + 0)`. -/
theorem read4_out (W : Valuation τ sig (Elt F)) :
    after4 (F := F) W (Proc.devRef .tc main_v100)
      = Tail (Host.dotGeneral Cert.ReferenceIdeal.dot_S20x8192_S8192x8_S20x8_1_0_0_1_n_n none (T20 (W (Proc.devRef .tc main_v61))) (W (Proc.devRef .tc main_v49)))
          (Host.dotGeneral Cert.ReferenceIdeal.dot_S20x8192_S8192x20_S20x20_1_0_0_1_n_n none (T20 (W (Proc.devRef .tc main_v61))) (W (Proc.devRef .tc main_v64)))
          (W (Proc.devRef .tc main_arg10)) (W (Proc.devRef .tc main_arg11)) (W (Proc.devRef .tc main_arg18)) (W (Proc.devRef .tc main_arg19)) (W (Proc.devRef .tc main_arg12)) (W (Proc.devRef .tc main_arg13)) := by
  after_results_simp <;> rfl

end Cert.KernelIdeal.Read

end
-- ==== Proof.KI_Bridge2.lean ====
/-
  The idealized kernel program's checkpoints in terms of the network's stages: the first layer, the second layer, the
  embedding and assignment branches (one product against the concatenated weights, then two slices), the product of the
  adjacency with the assignment, and the tail.
-/
import proofs.«155634_j8117488189610_2_alg».proof.Proof.KI_Bridge
import proofs.«155634_j8117488189610_2_alg».proof.Proof.BridgeMath
import proofs.«155634_j8117488189610_2_alg».proof.Proof.KerRead

noncomputable section

namespace Cert.KernelIdeal.Whole

open Cert.KernelIdeal Cert.KernelIdeal.Gen
open Idealize.ShloMosaic Idealize.ShloMosaic.TcCoe Idealize.SL.Sem Idealize.ShloMosaic.ValueIdx
open Cert.Stages Cert.BridgeMath

variable (m : (ℓ : Loc nD τ sig) → Buf (Elt Ideal) ℓ) (ρ : Dev nD → PrngReg) (c : Dev nD)

/-! ## The argument arrays, typed -/
abbrev A0 : FVec Ideal S8192x18 .f32 := m ((c : Thread nD τ).loc main_arg0)
abbrev A1 : FVec Ideal S8192x8192 .f32 := m ((c : Thread nD τ).loc main_arg1)
abbrev A2 : FVec Ideal S18x16 .f32 := m ((c : Thread nD τ).loc main_arg2)
abbrev A3 : FVec Ideal S16 .f32 := m ((c : Thread nD τ).loc main_arg3)
abbrev A4 : FVec Ideal S16x16 .f32 := m ((c : Thread nD τ).loc main_arg4)
abbrev A5 : FVec Ideal S16 .f32 := m ((c : Thread nD τ).loc main_arg5)
abbrev A6 : FVec Ideal S16x8 .f32 := m ((c : Thread nD τ).loc main_arg6)
abbrev A7 : FVec Ideal S8 .f32 := m ((c : Thread nD τ).loc main_arg7)
abbrev A8 : FVec Ideal S16x20 .f32 := m ((c : Thread nD τ).loc main_arg8)
abbrev A9 : FVec Ideal S20 .f32 := m ((c : Thread nD τ).loc main_arg9)
abbrev A10 : FVec Ideal S8x8 .f32 := m ((c : Thread nD τ).loc main_arg10)
abbrev A11 : FVec Ideal S8 .f32 := m ((c : Thread nD τ).loc main_arg11)
abbrev A12 : FVec Ideal S8x8 .f32 := m ((c : Thread nD τ).loc main_arg12)
abbrev A13 : FVec Ideal S8 .f32 := m ((c : Thread nD τ).loc main_arg13)
abbrev A14 : FVec Ideal S16 .f32 := m ((c : Thread nD τ).loc main_arg14)
abbrev A15 : FVec Ideal S16 .f32 := m ((c : Thread nD τ).loc main_arg15)
abbrev A16 : FVec Ideal S16 .f32 := m ((c : Thread nD τ).loc main_arg16)
abbrev A17 : FVec Ideal S16 .f32 := m ((c : Thread nD τ).loc main_arg17)
abbrev A18 : FVec Ideal S8 .f32 := m ((c : Thread nD τ).loc main_arg18)
abbrev A19 : FVec Ideal S8 .f32 := m ((c : Thread nD τ).loc main_arg19)

/-! ## The argument arrays at the boundaries where a host stretch reads them -/
theorem W2_arg4 : W2 m ρ c (Proc.devRef .tc main_arg4) = m ((c : Thread nD τ).loc main_arg4) :=
  (W2_of_ne m ρ c main_arg4 (by decide)).trans <| (W1_of m ρ c main_arg4 (by decide))
theorem W2_arg5 : W2 m ρ c (Proc.devRef .tc main_arg5) = m ((c : Thread nD τ).loc main_arg5) :=
  (W2_of_ne m ρ c main_arg5 (by decide)).trans <| (W1_of m ρ c main_arg5 (by decide))
theorem W2_arg14 : W2 m ρ c (Proc.devRef .tc main_arg14) = m ((c : Thread nD τ).loc main_arg14) :=
  (W2_of_ne m ρ c main_arg14 (by decide)).trans <| (W1_of m ρ c main_arg14 (by decide))
theorem W2_arg15 : W2 m ρ c (Proc.devRef .tc main_arg15) = m ((c : Thread nD τ).loc main_arg15) :=
  (W2_of_ne m ρ c main_arg15 (by decide)).trans <| (W1_of m ρ c main_arg15 (by decide))
theorem W6_arg6 : W6 m ρ c (Proc.devRef .tc main_arg6) = m ((c : Thread nD τ).loc main_arg6) :=
  (W6_of_ne m ρ c main_arg6 (by decide)).trans <| (W5_of m ρ c main_arg6 (by decide)).trans <| (W4_of m ρ c main_arg6 (by decide)).trans <| (W3_of m ρ c main_arg6 (by decide)).trans <| (W2_of_ne m ρ c main_arg6 (by decide)).trans <| (W1_of m ρ c main_arg6 (by decide))
theorem W6_arg7 : W6 m ρ c (Proc.devRef .tc main_arg7) = m ((c : Thread nD τ).loc main_arg7) :=
  (W6_of_ne m ρ c main_arg7 (by decide)).trans <| (W5_of m ρ c main_arg7 (by decide)).trans <| (W4_of m ρ c main_arg7 (by decide)).trans <| (W3_of m ρ c main_arg7 (by decide)).trans <| (W2_of_ne m ρ c main_arg7 (by decide)).trans <| (W1_of m ρ c main_arg7 (by decide))
theorem W6_arg8 : W6 m ρ c (Proc.devRef .tc main_arg8) = m ((c : Thread nD τ).loc main_arg8) :=
  (W6_of_ne m ρ c main_arg8 (by decide)).trans <| (W5_of m ρ c main_arg8 (by decide)).trans <| (W4_of m ρ c main_arg8 (by decide)).trans <| (W3_of m ρ c main_arg8 (by decide)).trans <| (W2_of_ne m ρ c main_arg8 (by decide)).trans <| (W1_of m ρ c main_arg8 (by decide))
theorem W6_arg9 : W6 m ρ c (Proc.devRef .tc main_arg9) = m ((c : Thread nD τ).loc main_arg9) :=
  (W6_of_ne m ρ c main_arg9 (by decide)).trans <| (W5_of m ρ c main_arg9 (by decide)).trans <| (W4_of m ρ c main_arg9 (by decide)).trans <| (W3_of m ρ c main_arg9 (by decide)).trans <| (W2_of_ne m ρ c main_arg9 (by decide)).trans <| (W1_of m ρ c main_arg9 (by decide))
theorem W6_arg16 : W6 m ρ c (Proc.devRef .tc main_arg16) = m ((c : Thread nD τ).loc main_arg16) :=
  (W6_of_ne m ρ c main_arg16 (by decide)).trans <| (W5_of m ρ c main_arg16 (by decide)).trans <| (W4_of m ρ c main_arg16 (by decide)).trans <| (W3_of m ρ c main_arg16 (by decide)).trans <| (W2_of_ne m ρ c main_arg16 (by decide)).trans <| (W1_of m ρ c main_arg16 (by decide))
theorem W6_arg17 : W6 m ρ c (Proc.devRef .tc main_arg17) = m ((c : Thread nD τ).loc main_arg17) :=
  (W6_of_ne m ρ c main_arg17 (by decide)).trans <| (W5_of m ρ c main_arg17 (by decide)).trans <| (W4_of m ρ c main_arg17 (by decide)).trans <| (W3_of m ρ c main_arg17 (by decide)).trans <| (W2_of_ne m ρ c main_arg17 (by decide)).trans <| (W1_of m ρ c main_arg17 (by decide))
theorem W12_arg10 : W12 m ρ c (Proc.devRef .tc main_arg10) = m ((c : Thread nD τ).loc main_arg10) :=
  (W12_of_ne m ρ c main_arg10 (by decide)).trans <| (W11_of m ρ c main_arg10 (by decide)).trans <| (W10_of_ne m ρ c main_arg10 (by decide)).trans <| (W9_of m ρ c main_arg10 (by decide)).trans <| (W8_of m ρ c main_arg10 (by decide)).trans <| (W7_of m ρ c main_arg10 (by decide)).trans <| (W6_of_ne m ρ c main_arg10 (by decide)).trans <| (W5_of m ρ c main_arg10 (by decide)).trans <| (W4_of m ρ c main_arg10 (by decide)).trans <| (W3_of m ρ c main_arg10 (by decide)).trans <| (W2_of_ne m ρ c main_arg10 (by decide)).trans <| (W1_of m ρ c main_arg10 (by decide))
theorem W12_arg11 : W12 m ρ c (Proc.devRef .tc main_arg11) = m ((c : Thread nD τ).loc main_arg11) :=
  (W12_of_ne m ρ c main_arg11 (by decide)).trans <| (W11_of m ρ c main_arg11 (by decide)).trans <| (W10_of_ne m ρ c main_arg11 (by decide)).trans <| (W9_of m ρ c main_arg11 (by decide)).trans <| (W8_of m ρ c main_arg11 (by decide)).trans <| (W7_of m ρ c main_arg11 (by decide)).trans <| (W6_of_ne m ρ c main_arg11 (by decide)).trans <| (W5_of m ρ c main_arg11 (by decide)).trans <| (W4_of m ρ c main_arg11 (by decide)).trans <| (W3_of m ρ c main_arg11 (by decide)).trans <| (W2_of_ne m ρ c main_arg11 (by decide)).trans <| (W1_of m ρ c main_arg11 (by decide))
theorem W12_arg12 : W12 m ρ c (Proc.devRef .tc main_arg12) = m ((c : Thread nD τ).loc main_arg12) :=
  (W12_of_ne m ρ c main_arg12 (by decide)).trans <| (W11_of m ρ c main_arg12 (by decide)).trans <| (W10_of_ne m ρ c main_arg12 (by decide)).trans <| (W9_of m ρ c main_arg12 (by decide)).trans <| (W8_of m ρ c main_arg12 (by decide)).trans <| (W7_of m ρ c main_arg12 (by decide)).trans <| (W6_of_ne m ρ c main_arg12 (by decide)).trans <| (W5_of m ρ c main_arg12 (by decide)).trans <| (W4_of m ρ c main_arg12 (by decide)).trans <| (W3_of m ρ c main_arg12 (by decide)).trans <| (W2_of_ne m ρ c main_arg12 (by decide)).trans <| (W1_of m ρ c main_arg12 (by decide))
theorem W12_arg13 : W12 m ρ c (Proc.devRef .tc main_arg13) = m ((c : Thread nD τ).loc main_arg13) :=
  (W12_of_ne m ρ c main_arg13 (by decide)).trans <| (W11_of m ρ c main_arg13 (by decide)).trans <| (W10_of_ne m ρ c main_arg13 (by decide)).trans <| (W9_of m ρ c main_arg13 (by decide)).trans <| (W8_of m ρ c main_arg13 (by decide)).trans <| (W7_of m ρ c main_arg13 (by decide)).trans <| (W6_of_ne m ρ c main_arg13 (by decide)).trans <| (W5_of m ρ c main_arg13 (by decide)).trans <| (W4_of m ρ c main_arg13 (by decide)).trans <| (W3_of m ρ c main_arg13 (by decide)).trans <| (W2_of_ne m ρ c main_arg13 (by decide)).trans <| (W1_of m ρ c main_arg13 (by decide))
theorem W12_arg18 : W12 m ρ c (Proc.devRef .tc main_arg18) = m ((c : Thread nD τ).loc main_arg18) :=
  (W12_of_ne m ρ c main_arg18 (by decide)).trans <| (W11_of m ρ c main_arg18 (by decide)).trans <| (W10_of_ne m ρ c main_arg18 (by decide)).trans <| (W9_of m ρ c main_arg18 (by decide)).trans <| (W8_of m ρ c main_arg18 (by decide)).trans <| (W7_of m ρ c main_arg18 (by decide)).trans <| (W6_of_ne m ρ c main_arg18 (by decide)).trans <| (W5_of m ρ c main_arg18 (by decide)).trans <| (W4_of m ρ c main_arg18 (by decide)).trans <| (W3_of m ρ c main_arg18 (by decide)).trans <| (W2_of_ne m ρ c main_arg18 (by decide)).trans <| (W1_of m ρ c main_arg18 (by decide))
theorem W12_arg19 : W12 m ρ c (Proc.devRef .tc main_arg19) = m ((c : Thread nD τ).loc main_arg19) :=
  (W12_of_ne m ρ c main_arg19 (by decide)).trans <| (W11_of m ρ c main_arg19 (by decide)).trans <| (W10_of_ne m ρ c main_arg19 (by decide)).trans <| (W9_of m ρ c main_arg19 (by decide)).trans <| (W8_of m ρ c main_arg19 (by decide)).trans <| (W7_of m ρ c main_arg19 (by decide)).trans <| (W6_of_ne m ρ c main_arg19 (by decide)).trans <| (W5_of m ρ c main_arg19 (by decide)).trans <| (W4_of m ρ c main_arg19 (by decide)).trans <| (W3_of m ρ c main_arg19 (by decide)).trans <| (W2_of_ne m ρ c main_arg19 (by decide)).trans <| (W1_of m ρ c main_arg19 (by decide))

/-! ## Layer 1 -/

theorem V1_adj : V1 m ρ c main_arg1 = (A1 m c) := W1_of m ρ c main_arg1 (by decide)
theorem V1_xW1 : V1 m ρ c main_v0 = Host.dotGeneral (F := Ideal) Cert.ReferenceIdeal.dot_S8192x18_S18x16_S8192x16_1_0_0_1_n_n none (A0 m c) (A2 m c) := by
  show StableHlo.after hostOps0 (W0 m ρ c) (Proc.devRef .tc main_v0) = _
  exact Read.read0_xW1 (W0 m ρ c)
theorem V1_b1 : V1 m ρ c main_v1 = shapeCast S1x16 (A3 m c) shapeCasts_S16_S1x16 := by
  show StableHlo.after hostOps0 (W0 m ρ c) (Proc.devRef .tc main_v1) = _
  exact Read.read0_b1 (W0 m ρ c)

/-- The first layer before its normalisation. -/
def h1 : FVec Ideal S8192x16 .f32 :=
  Relu16 (addf (Host.dotGeneral (F := Ideal) Cert.ReferenceIdeal.dot_S8192x8192_S8192x16_S8192x16_1_0_0_1_n_n none (A1 m c)
    (Host.dotGeneral (F := Ideal) Cert.ReferenceIdeal.dot_S8192x18_S18x16_S8192x16_1_0_0_1_n_n none (A0 m c) (A2 m c))) (rows16 (A3 m c)))

theorem W2_h1 : W2 m ρ c (Proc.devRef .tc main_v2_0) = h1 m c := by
  rw [W2_out]
  have e : Reg0.Gout (V1 m ρ) c = PB16 (V1 m ρ c main_arg1) (V1 m ρ c main_v0) (V1 m ρ c main_v1) :=
    funext fun I => Reg0.Gout_apply (V1 m ρ) c I
  rw [e, V1_adj, V1_xW1, V1_b1, PB16_eq]
  rfl

/-- The copy of the adjacency is the adjacency. -/
theorem W2_adj : W2 m ρ c (Proc.devRef .tc main_v2_1) = (A1 m c) := by
  rw [W2_copy]
  show (fun I => V1 m ρ c main_arg1 I) = _
  exact V1_adj m ρ c

/-! ## Layer 2 -/

theorem V5_adj : V5 m ρ c main_v2_1 = (A1 m c) := by
  show Read.after1 (W2 m ρ c) (Proc.devRef .tc main_v2_1) = _
  rw [Read.read1_adj, W2_adj]
theorem V5_hW2 : V5 m ρ c main_v22 = Host.dotGeneral (F := Ideal) Cert.ReferenceIdeal.dot_S8192x16_S16x16_S8192x16_1_0_0_1_n_n none (BN16 (h1 m c) (A14 m c) (A15 m c)) (A4 m c) := by
  show Read.after1 (W2 m ρ c) (Proc.devRef .tc main_v22) = _
  rw [Read.read1_hW2, W2_h1, W2_arg14, W2_arg15, W2_arg4]
theorem V5_b2 : V5 m ρ c main_v23 = shapeCast S1x16 (A5 m c) shapeCasts_S16_S1x16 := by
  show Read.after1 (W2 m ρ c) (Proc.devRef .tc main_v23) = _
  rw [Read.read1_b2, W2_arg5]

/-- The second layer before its normalisation. -/
def h2 : FVec Ideal S8192x16 .f32 :=
  Relu16 (addf (Host.dotGeneral (F := Ideal) Cert.ReferenceIdeal.dot_S8192x8192_S8192x16_S8192x16_1_0_0_1_n_n none (A1 m c)
    (Host.dotGeneral (F := Ideal) Cert.ReferenceIdeal.dot_S8192x16_S16x16_S8192x16_1_0_0_1_n_n none (BN16 (h1 m c) (A14 m c) (A15 m c)) (A4 m c))) (rows16 (A5 m c)))

theorem W6_h2 : W6 m ρ c (Proc.devRef .tc main_v24) = h2 m c := by
  rw [W6_out]
  have e : Reg1.Gout (V5 m ρ) c = PB16 (V5 m ρ c main_v2_1) (V5 m ρ c main_v22) (V5 m ρ c main_v23) :=
    funext fun I => Reg1.Gout_apply (V5 m ρ) c I
  rw [e, V5_adj, V5_hW2, V5_b2, PB16_eq]
  rfl
theorem W6_adj' : W6 m ρ c (Proc.devRef .tc main_v2_1) = (A1 m c) := (W6_adj m ρ c).trans (V5_adj m ρ c)

/-! ## The pooling stage -/

/-- The features after the second normalisation. -/
def hB : FVec Ideal S8192x16 .f32 := BN16 (h2 m c) (A16 m c) (A17 m c)

theorem V9_adj : V9 m ρ c main_v2_1 = (A1 m c) := by
  show Read.after2 (W6 m ρ c) (Proc.devRef .tc main_v2_1) = _
  rw [Read.read2_adj, W6_adj']
theorem V9_hWc : V9 m ρ c main_v46 = Host.dotGeneral (F := Ideal) dot_S8192x16_S16x28_S8192x28_1_0_0_1_n_n none (hB m c)
    (concatenate S16x28 1 [⟨S16x8, (A6 m c)⟩, ⟨S16x20, (A8 m c)⟩] concatenates_S16x8_S16x20_S16x28_d1) := by
  show Read.after2 (W6 m ρ c) (Proc.devRef .tc main_v46) = _
  rw [Read.read2_hWeWp, W6_h2, W6_arg16, W6_arg17, W6_arg6, W6_arg8]
  rfl
theorem V9_bc : V9 m ρ c main_v47 = shapeCast S1x28 (concatenate S28 0 [⟨S8, (A7 m c)⟩, ⟨S20, (A9 m c)⟩] concatenates_S8_S20_S28_d0) shapeCasts_S28_S1x28 := by
  show Read.after2 (W6 m ρ c) (Proc.devRef .tc main_v47) = _
  rw [Read.read2_bebp, W6_arg7, W6_arg9]

theorem W10_zc : W10 m ρ c (Proc.devRef .tc main_v48)
    = ZC (A1 m c) (hB m c) (A6 m c) (A8 m c) (A7 m c) (A9 m c) concatenates_S16x8_S16x20_S16x28_d1 concatenates_S8_S20_S28_d0 shapeCasts_S28_S1x28 := by
  rw [W10_out]
  have e : Reg2.Gout (V9 m ρ) c = PB28 (V9 m ρ c main_v2_1) (V9 m ρ c main_v46) (V9 m ρ c main_v47) :=
    funext fun I => Reg2.Gout_apply (V9 m ρ) c I
  rw [e, V9_adj, V9_hWc, V9_bc]
  rfl
theorem W10_adj' : W10 m ρ c (Proc.devRef .tc main_v2_1) = (A1 m c) := (W10_adj m ρ c).trans (V9_adj m ρ c)

/-- The embedding branch and the assignment's logits, as the reference spells them. -/
def zK : FVec Ideal S8192x8 .f32 :=
  addf (Host.dotGeneral (F := Ideal) Cert.ReferenceIdeal.dot_S8192x8192_S8192x8_S8192x8_1_0_0_1_n_n none (A1 m c)
      (Host.dotGeneral (F := Ideal) Cert.ReferenceIdeal.dot_S8192x16_S16x8_S8192x8_1_0_0_1_n_n none (hB m c) (A6 m c)))
    (broadcastInDim S8192x8 ![0, 1] Cert.ReferenceIdeal.Gen.bcast_S1x8_S8192x8_0_1 (broadcastInDim S1x8 ![1] Cert.ReferenceIdeal.Gen.bcast_S8_S1x8_1 (A7 m c)))
def lK : FVec Ideal S8192x20 .f32 :=
  addf (Host.dotGeneral (F := Ideal) Cert.ReferenceIdeal.dot_S8192x8192_S8192x20_S8192x20_1_0_0_1_n_n none (A1 m c)
      (Host.dotGeneral (F := Ideal) Cert.ReferenceIdeal.dot_S8192x16_S16x20_S8192x20_1_0_0_1_n_n none (hB m c) (A8 m c)))
    (broadcastInDim S8192x20 ![0, 1] Cert.ReferenceIdeal.Gen.bcast_S1x20_S8192x20_0_1 (broadcastInDim S1x20 ![1] Cert.ReferenceIdeal.Gen.bcast_S20_S1x20_1 (A9 m c)))

theorem V11_z : V11 m ρ c main_v49 = zK m c := by
  show StableHlo.after hostOps3 (W10 m ρ c) (Proc.devRef .tc main_v49) = _
  rw [Read.read3_z, W10_zc]
  unfold zK
  exact slice_z (A1 m c) (hB m c) (A6 m c) (A8 m c) (A7 m c) (A9 m c) concatenates_S16x8_S16x20_S16x28_d1 concatenates_S8_S20_S28_d0 shapeCasts_S28_S1x28 slices_S8192x28_S8192x8_0_0
theorem V11_s : V11 m ρ c main_v61 = Softmax20 (lK m c) := by
  show StableHlo.after hostOps3 (W10 m ρ c) (Proc.devRef .tc main_v61) = _
  rw [Read.read3_s, W10_zc]
  unfold lK
  exact congrArg Softmax20 (slice_l (A1 m c) (hB m c) (A6 m c) (A8 m c) (A7 m c) (A9 m c) concatenates_S16x8_S16x20_S16x28_d1 concatenates_S8_S20_S28_d0 shapeCasts_S28_S1x28 slices_S8192x28_S8192x20_0_8)
theorem V11_zero : V11 m ρ c main_v63 = shapeCast S1x20 (broadcastInDim S20 ![] bcast_S_S20 (constant (F := Ideal) S_ .f32 0x00000000#32)) shapeCasts_S20_S1x20 := by
  show StableHlo.after hostOps3 (W10 m ρ c) (Proc.devRef .tc main_v63) = _
  exact Read.read3_zero (W10 m ρ c)
theorem V11_adj : V11 m ρ c main_v2_1 = (A1 m c) := by
  show StableHlo.after hostOps3 (W10 m ρ c) (Proc.devRef .tc main_v2_1) = _
  rw [Read.read3_adj, W10_adj']

/-- The product of the adjacency with the assignment, plus the zero row. -/
theorem W12_as : W12 m ρ c (Proc.devRef .tc main_v64)
    = PB20 (A1 m c) (Softmax20 (lK m c)) (shapeCast S1x20 (broadcastInDim S20 ![] bcast_S_S20 (constant (F := Ideal) S_ .f32 0x00000000#32)) shapeCasts_S20_S1x20) := by
  rw [W12_out]
  have e : Reg3.Gout (V11 m ρ) c = PB20 (V11 m ρ c main_v2_1) (V11 m ρ c main_v61) (V11 m ρ c main_v63) :=
    funext fun I => Reg3.Gout_apply (V11 m ρ) c I
  rw [e, V11_adj, V11_s, V11_zero]

/-! ## The result -/

set_option maxHeartbeats 1000000 in
/-- The kernel program's result: the tail of the pooled features and of the pooled adjacency computed as
    "assignmentᵀ × (adjacency × assignment + 0)". -/
theorem W17_out : W17 m ρ c (Proc.devRef .tc main_v100)
    = Tail (Host.dotGeneral (F := Ideal) Cert.ReferenceIdeal.dot_S20x8192_S8192x8_S20x8_1_0_0_1_n_n none (T20 (Softmax20 (lK m c))) (zK m c))
        (Host.dotGeneral (F := Ideal) Cert.ReferenceIdeal.dot_S20x8192_S8192x20_S20x20_1_0_0_1_n_n none (T20 (Softmax20 (lK m c)))
          (PB20 (A1 m c) (Softmax20 (lK m c)) (shapeCast S1x20 (broadcastInDim S20 ![] bcast_S_S20 (constant (F := Ideal) S_ .f32 0x00000000#32)) shapeCasts_S20_S1x20)))
        (A10 m c) (A11 m c) (A18 m c) (A19 m c) (A12 m c) (A13 m c) := by
  have e : W17 m ρ c = Read.after4 (W12 m ρ c) := by unfold W17 W16 W15 W14 W13; rfl
  have es : W11 m ρ c (Proc.devRef .tc main_v61) = Softmax20 (lK m c) := V11_s m ρ c
  have ez : W11 m ρ c (Proc.devRef .tc main_v49) = zK m c := V11_z m ρ c
  rw [e, Read.read4_out, W12_sl, W12_z, W12_as, W12_arg10, W12_arg11, W12_arg18, W12_arg19, W12_arg12, W12_arg13, es, ez]

end Cert.KernelIdeal.Whole

end
-- ==== Proof.RefRead.lean ====
/-
  The reference program's line of host operations read at its checkpoints. For ANY contents `V` of the
  buffers at launch, what the line leaves in each checkpoint buffer is a stage of the network applied to what
  it leaves in the previous checkpoints and to the argument arrays:

    h₁ = relu (A (x W₁) + b₁),  h₁' = BN (h₁),  h₂ = relu (A (h₁' W₂) + b₂),  h₂' = BN (h₂),
    z = A (h₂' Wₑ) + bₑ,  l = A (h₂' Wₚ) + bₚ,  s = softmax (l),
    h_pool = sᵀ z,  a = (sᵀ A) s,  out = tail (h_pool, a).

  Rewriting with these equations from the last to the first expresses the result as one closed composition of
  the stages over the argument arrays. Each equation is the fold of the operations' results computed at the
  buffer, both sides down to the argument arrays, where they are the same term.
-/
import proofs.«155634_j8117488189610_2_alg».proof.Proof.RefRun
import proofs.«155634_j8117488189610_2_alg».proof.Proof.Stages

noncomputable section

namespace Cert.ReferenceIdeal.Read

open Cert.ReferenceIdeal Cert.ReferenceIdeal.Gen Cert.ReferenceIdeal.HandRun Idealize.ShloMosaic Idealize.ShloMosaic.TcCoe Idealize.SL.Sem Idealize.ShloMosaic.StableHlo Cert.Stages

variable {F : FTy → Type} [FloatOps F]

/-- Two lines run one after the other. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- The line is its three windows one after the other. -/
theorem after_ops (V : Valuation τ sig (Elt F)) : after (ops (F := F)) V = after ops2 (after ops1 (after ops0 V)) := by
  rw [show ops (F := F) = ops0 ++ (ops1 ++ ops2) from rfl, after_append', after_append']

/-- A vector of 8 as every row of an 8192 × 8 matrix, and a vector of 20 as every row of an 8192 × 20 one. -/
def rows8192x8 (x : FVec F S8 .f32) : FVec F S8192x8 .f32 :=
  broadcastInDim S8192x8 ![0, 1] bcast_S1x8_S8192x8_0_1 (broadcastInDim S1x8 ![1] bcast_S8_S1x8_1 x)
def rows8192x20 (x : FVec F S20 .f32) : FVec F S8192x20 .f32 :=
  broadcastInDim S8192x20 ![0, 1] bcast_S1x20_S8192x20_0_1 (broadcastInDim S1x20 ![1] bcast_S20_S1x20_1 x)

/-- What the line leaves in buffer `b`, from contents `V`. -/
abbrev fin (V : Valuation τ sig (Elt F)) (b : Ref sig .tc) := after (ops (F := F)) V (Proc.devRef .tc b)

set_option maxRecDepth 8192 in
set_option maxHeartbeats 4000000 in
/-- The first layer before its normalisation: `relu (A (x W₁) + b₁)`. -/
theorem read_h1 (V : Valuation τ sig (Elt F)) :
    fin V main_v5
      = Relu16 (addf (Host.dotGeneral dot_S8192x8192_S8192x16_S8192x16_1_0_0_1_n_n none (V (Proc.devRef .tc main_arg1))
          (Host.dotGeneral dot_S8192x18_S18x16_S8192x16_1_0_0_1_n_n none (V (Proc.devRef .tc main_arg0)) (V (Proc.devRef .tc main_arg2))))
          (rows16 (V (Proc.devRef .tc main_arg3)))) := by
  unfold fin
  rw [after_ops]
  after_results_simp
  rfl

set_option maxRecDepth 8192 in
set_option maxHeartbeats 4000000 in
/-- The first layer normalised. -/
theorem read_bn1 (V : Valuation τ sig (Elt F)) :
    fin V main_v24
      = BN16 (fin V main_v5) (V (Proc.devRef .tc main_arg14)) (V (Proc.devRef .tc main_arg15)) := by
  unfold fin
  rw [after_ops]
  after_results_simp
  rfl

set_option maxRecDepth 8192 in
set_option maxHeartbeats 4000000 in
/-- The second layer before its normalisation: `relu (A (h₁' W₂) + b₂)`. -/
theorem read_h2 (V : Valuation τ sig (Elt F)) :
    fin V main_v30
      = Relu16 (addf (Host.dotGeneral dot_S8192x8192_S8192x16_S8192x16_1_0_0_1_n_n none (V (Proc.devRef .tc main_arg1))
          (Host.dotGeneral dot_S8192x16_S16x16_S8192x16_1_0_0_1_n_n none (fin V main_v24) (V (Proc.devRef .tc main_arg4))))
          (rows16 (V (Proc.devRef .tc main_arg5)))) := by
  unfold fin
  rw [after_ops]
  after_results_simp
  rfl

set_option maxRecDepth 8192 in
set_option maxHeartbeats 4000000 in
/-- The second layer normalised. -/
theorem read_bn2 (V : Valuation τ sig (Elt F)) :
    fin V main_v49
      = BN16 (fin V main_v30) (V (Proc.devRef .tc main_arg16)) (V (Proc.devRef .tc main_arg17)) := by
  unfold fin
  rw [after_ops]
  after_results_simp
  rfl

set_option maxRecDepth 8192 in
set_option maxHeartbeats 4000000 in
/-- The embedding: `A (h₂' Wₑ) + bₑ`. -/
theorem read_z (V : Valuation τ sig (Elt F)) :
    fin V main_v54
      = addf (Host.dotGeneral dot_S8192x8192_S8192x8_S8192x8_1_0_0_1_n_n none (V (Proc.devRef .tc main_arg1))
          (Host.dotGeneral dot_S8192x16_S16x8_S8192x8_1_0_0_1_n_n none (fin V main_v49) (V (Proc.devRef .tc main_arg6))))
          (rows8192x8 (V (Proc.devRef .tc main_arg7))) := by
  unfold fin
  rw [after_ops]
  after_results_simp
  rfl

set_option maxRecDepth 8192 in
set_option maxHeartbeats 4000000 in
/-- The assignment logits: `A (h₂' Wₚ) + bₚ`. -/
theorem read_logits (V : Valuation τ sig (Elt F)) :
    fin V main_v59
      = addf (Host.dotGeneral dot_S8192x8192_S8192x20_S8192x20_1_0_0_1_n_n none (V (Proc.devRef .tc main_arg1))
          (Host.dotGeneral dot_S8192x16_S16x20_S8192x20_1_0_0_1_n_n none (fin V main_v49) (V (Proc.devRef .tc main_arg8))))
          (rows8192x20 (V (Proc.devRef .tc main_arg9))) := by
  unfold fin
  rw [after_ops]
  after_results_simp
  rfl

set_option maxRecDepth 8192 in
set_option maxHeartbeats 4000000 in
/-- The assignment matrix: the soft maximum of each row of the logits. -/
theorem read_s (V : Valuation τ sig (Elt F)) :
    fin V main_v70
      = Softmax20 (fin V main_v59) := by
  unfold fin
  rw [after_ops]
  after_results_simp
  rfl

set_option maxRecDepth 8192 in
set_option maxHeartbeats 4000000 in
/-- The pooled features: `sᵀ z`. -/
theorem read_hpool (V : Valuation τ sig (Elt F)) :
    fin V main_v72
      = Host.dotGeneral dot_S20x8192_S8192x8_S20x8_1_0_0_1_n_n none (T20 (fin V main_v70)) (fin V main_v54) := by
  unfold fin
  rw [after_ops]
  after_results_simp
  rfl

set_option maxRecDepth 8192 in
set_option maxHeartbeats 4000000 in
/-- The pooled adjacency: `(sᵀ A) s`. -/
theorem read_a (V : Valuation τ sig (Elt F)) :
    fin V main_v75
      = Host.dotGeneral dot_S20x8192_S8192x20_S20x20_1_0_0_1_n_n none
          (Host.dotGeneral dot_S20x8192_S8192x8192_S20x8192_1_0_0_1_n_n none (T20 (fin V main_v70)) (V (Proc.devRef .tc main_arg1))) (fin V main_v70) := by
  unfold fin
  rw [after_ops]
  after_results_simp
  rfl

set_option maxRecDepth 8192 in
set_option maxHeartbeats 4000000 in
/-- The result: the tail of the network on the pooled features and adjacency. -/
theorem read_out (V : Valuation τ sig (Elt F)) :
    fin V main_v107
      = Tail (fin V main_v72) (fin V main_v75) (V (Proc.devRef .tc main_arg10)) (V (Proc.devRef .tc main_arg11)) (V (Proc.devRef .tc main_arg18)) (V (Proc.devRef .tc main_arg19)) (V (Proc.devRef .tc main_arg12)) (V (Proc.devRef .tc main_arg13)) := by
  unfold fin
  rw [after_ops]
  after_results_simp
  rfl

/-- An argument array is written by no operation: the line leaves it as launched. -/
theorem fin_arg (V : Valuation τ sig (Elt F)) (r : Ref sig .tc) (hr : r ∉ written) : fin V r = V (Proc.devRef .tc r) :=
  kept V r hr

end Cert.ReferenceIdeal.Read

end
-- ==== Proof.LibIdealFinite.lean ====
/-
  A finiteness calculus for the exact-arithmetic reading of a program's operations.

  At exact arithmetic a float value is an extended real. Sums and products of extended reals commute and
  associate, but a product distributes over a sum only away from the infinities; so a matrix computation can
  be re-associated once every entry is known to be a real number. This file proves that the operations a
  host program is made of keep entries real ("finite": neither infinity):

  * elementwise sums, differences, products and maxima of finite entries are finite;
  * a re-indexing (broadcast, transpose, slice, reshape, concatenation) only moves entries;
  * a contraction (a finite sum of products) and a sum along axes of finite entries are finite, and a sum of
    non-negative entries from zero is non-negative;
  * a quotient of a finite entry by a nonzero real is finite, and non-negative if the entry is non-negative
    and the divisor positive;
  * the reciprocal square root of a positive real is a positive real;
  * the exponential of a real is a positive real;
  * a maximum along a non-empty axis of finite entries, started from minus infinity, is finite;
  * a row of positive reals divided by its sum is a row of reals (the normalisation of a softmax).

  Nothing here mentions a particular program.
-/
import Idealize.ShloMosaic.PureOps.Ideal.Laws
import proofs.«155634_j8117488189610_2_alg».proof.Proof.LibERealMatrix

noncomputable section

namespace LibIdealFinite

open Idealize.ShloMosaic LibERealMatrix

/-! ### Finite extended reals -/

theorem fin_zero : Fin' (0 : EReal) := by
  have h := Fin'.coe 0
  rwa [EReal.coe_zero] at h

theorem fin_neg {x : EReal} (hx : Fin' x) : Fin' (-x) := by
  obtain ⟨a, rfl⟩ := hx.exists_real
  rw [← EReal.coe_neg]; exact Fin'.coe _

theorem fin_sub {x y : EReal} (hx : Fin' x) (hy : Fin' y) : Fin' (x - y) := by
  obtain ⟨a, rfl⟩ := hx.exists_real
  obtain ⟨b, rfl⟩ := hy.exists_real
  rw [← EReal.coe_sub]; exact Fin'.coe _

theorem fin_max {x y : EReal} (hx : Fin' x) (hy : Fin' y) : Fin' (max x y) := by
  rcases max_choice x y with h | h <;> rw [h] <;> assumption

theorem fin_min {x y : EReal} (hx : Fin' x) (hy : Fin' y) : Fin' (min x y) := by
  rcases min_choice x y with h | h <;> rw [h] <;> assumption

/-- A finite extended real that is positive is the image of a positive real. -/
theorem fin_exists_pos_real {x : EReal} (hx : Fin' x) (h0 : 0 < x) : ∃ r : ℝ, 0 < r ∧ x = (r : EReal) := by
  obtain ⟨a, rfl⟩ := hx.exists_real
  exact ⟨a, EReal.coe_pos.mp h0, rfl⟩

/-- A finite extended real that is non-negative is the image of a non-negative real. -/
theorem fin_exists_nonneg_real {x : EReal} (hx : Fin' x) (h0 : 0 ≤ x) : ∃ r : ℝ, 0 ≤ r ∧ x = (r : EReal) := by
  obtain ⟨a, rfl⟩ := hx.exists_real
  exact ⟨a, EReal.coe_nonneg.mp h0, rfl⟩

/-- The square of a finite extended real is non-negative. -/
theorem fin_mul_self_nonneg {x : EReal} (hx : Fin' x) : 0 ≤ x * x := by
  obtain ⟨a, rfl⟩ := hx.exists_real
  rw [← EReal.coe_mul]; exact EReal.coe_nonneg.mpr (mul_self_nonneg a)

/-- The sum of a non-negative and a positive finite extended real is positive. -/
theorem add_pos_of_nonneg_of_pos' {x y : EReal} (hx : 0 ≤ x) (hy : 0 < y) : 0 < x + y :=
  lt_of_lt_of_le hy (le_add_of_nonneg_left hx)

/-! ### Vectors with finite entries -/

/-- Every entry of the vector is a real number. -/
def AllFin {s : Shape} (v : s.Idx → EReal) : Prop := ∀ i, Fin' (v i)

section Elementwise
variable {s : Shape} {φ : FTy}

theorem allFin_addf {a b : FVec Ideal s φ} (ha : AllFin a) (hb : AllFin b) : AllFin (addf (F := Ideal) a b) :=
  fun i => (ha i).add (hb i)

theorem allFin_subf {a b : FVec Ideal s φ} (ha : AllFin a) (hb : AllFin b) : AllFin (subf (F := Ideal) a b) :=
  fun i => fin_sub (ha i) (hb i)

theorem allFin_mulf {a b : FVec Ideal s φ} (ha : AllFin a) (hb : AllFin b) : AllFin (mulf (F := Ideal) a b) :=
  fun i => (ha i).mul (hb i)

theorem allFin_maximumf {a b : FVec Ideal s φ} (ha : AllFin a) (hb : AllFin b) :
    AllFin (maximumf (F := Ideal) a b) :=
  fun i => fin_max (ha i) (hb i)

theorem allFin_minimumf {a b : FVec Ideal s φ} (ha : AllFin a) (hb : AllFin b) :
    AllFin (minimumf (F := Ideal) a b) :=
  fun i => fin_min (ha i) (hb i)

theorem allFin_negf {a : FVec Ideal s φ} (ha : AllFin a) : AllFin (negf (F := Ideal) a) :=
  fun i => fin_neg (ha i)

/-- The entries of an elementwise sum, difference, product and maximum, spelled out. -/
theorem addf_apply (a b : FVec Ideal s φ) (i : s.Idx) : addf (F := Ideal) a b i = a i + b i := rfl
theorem subf_apply (a b : FVec Ideal s φ) (i : s.Idx) : subf (F := Ideal) a b i = a i - b i := rfl
theorem mulf_apply (a b : FVec Ideal s φ) (i : s.Idx) : mulf (F := Ideal) a b i = a i * b i := rfl
theorem maximumf_apply (a b : FVec Ideal s φ) (i : s.Idx) : maximumf (F := Ideal) a b i = max (a i) (b i) := rfl

/-- A square of finite entries has non-negative entries. -/
theorem mulf_self_nonneg {d : FVec Ideal s φ} (hd : AllFin d) (i : s.Idx) : 0 ≤ mulf (F := Ideal) d d i :=
  fin_mul_self_nonneg (hd i)

/-- A maximum against a non-negative vector (a rectifier's zero) is non-negative. -/
theorem maximumf_nonneg_right (a b : FVec Ideal s φ) (hb : ∀ i, 0 ≤ b i) (i : s.Idx) :
    0 ≤ maximumf (F := Ideal) a b i :=
  le_max_of_le_right (hb i)

theorem maximumf_nonneg_left (a b : FVec Ideal s φ) (ha : ∀ i, 0 ≤ a i) (i : s.Idx) :
    0 ≤ maximumf (F := Ideal) a b i :=
  le_max_of_le_left (ha i)

end Elementwise

/-! ### Contractions and sums along axes -/

section Contract

/-- A host contraction of finite operands is finite: each entry is a finite sum of products. -/
theorem allFin_dotGeneral {sl sr so : Shape} {φ₁ φ₂ : FTy} (d : DotDims sl sr so) (prec : Option ContractPrecision)
    {l : FVec Ideal sl φ₁} {r : FVec Ideal sr φ₂} (hl : AllFin l) (hr : AllFin r) :
    AllFin (Host.dotGeneral (F := Ideal) d prec l r) := by
  intro j
  show Fin' (FloatOps.dotGeneral (F := Ideal) d prec .single l r j)
  rw [Ideal.dotGeneral_apply]
  exact Fin'.sum _ _ fun k => (hl _).mul (hr _)

/-- The same from a description of the entries as sums of products, whatever the index type of the sum. -/
theorem allFin_of_sum_mul {sl sr so : Shape} {κ : Type*} [Fintype κ] {l : sl.Idx → EReal} {r : sr.Idx → EReal}
    (res : so.Idx → EReal) (li : so.Idx → κ → sl.Idx) (ri : so.Idx → κ → sr.Idx)
    (h : ∀ i, res i = ∑ k, l (li i k) * r (ri i k)) (hl : AllFin l) (hr : AllFin r) : AllFin res := by
  intro i
  rw [h i]
  exact Fin'.sum _ _ fun k => (hl _).mul (hr _)

/-- A kernel's contraction onto a finite accumulator is finite as well. -/
theorem allFin_matmul {sl sr so : Shape} {φ₁ φ₂ : FTy} (d : DotDims sl sr so) (prec : Option ContractPrecision)
    {l : FVec Ideal sl φ₁} {r : FVec Ideal sr φ₂} {acc : FVec Ideal so .f32} (hl : AllFin l) (hr : AllFin r)
    (hacc : AllFin acc) : AllFin (matmul (F := Ideal) d prec l r acc) := by
  intro j
  show Fin' (FloatOps.matmul (F := Ideal) d prec l r acc j)
  rw [Ideal.matmul_apply]
  exact (hacc j).add (Fin'.sum _ _ fun k => (hl _).mul (hr _))

variable {s t u : Shape} {φ : FTy} {axes : List (Fin s.rank)}

/-- An entry of a host sum along axes: the initial value plus the sum of the entries that reduce to it. -/
theorem reduceAdd_apply (x : FVec Ideal s φ) (init : u.Idx → Ideal φ) (h : s.ReducesTo axes t) (hu : 0 < u.numel)
    (j : t.Idx) :
    Host.reduceAdd (F := Ideal) x init h hu j
      = init (Shape.Idx.first hu) + ∑ i ∈ Finset.univ.filter (fun i => h.drop i = j), x i := rfl

/-- A host sum along axes of finite entries, from a finite initial value, is finite. -/
theorem allFin_reduceAdd {x : FVec Ideal s φ} {init : u.Idx → Ideal φ} (h : s.ReducesTo axes t) (hu : 0 < u.numel)
    (hx : AllFin x) (hinit : Fin' (init (Shape.Idx.first hu))) :
    AllFin (Host.reduceAdd (F := Ideal) x init h hu) := by
  intro j
  rw [reduceAdd_apply]
  exact hinit.add (Fin'.sum _ _ fun i => hx i)

/-- A host sum along axes of non-negative entries, from zero, is non-negative. -/
theorem reduceAdd_nonneg {x : FVec Ideal s φ} {init : u.Idx → Ideal φ} (h : s.ReducesTo axes t) (hu : 0 < u.numel)
    (hx : ∀ i, 0 ≤ x i) (hinit : init (Shape.Idx.first hu) = 0) (j : t.Idx) :
    0 ≤ Host.reduceAdd (F := Ideal) x init h hu j := by
  rw [reduceAdd_apply, hinit, zero_add]
  exact Finset.sum_nonneg fun i _ => hx i

/-- A host sum along axes of positive entries, from zero, is positive wherever some entry reduces to the index. -/
theorem reduceAdd_pos {x : FVec Ideal s φ} {init : u.Idx → Ideal φ} (h : s.ReducesTo axes t) (hu : 0 < u.numel)
    (hx : ∀ i, 0 < x i) (hinit : init (Shape.Idx.first hu) = 0) (j : t.Idx) (hj : ∃ i, h.drop i = j) :
    0 < Host.reduceAdd (F := Ideal) x init h hu j := by
  rw [reduceAdd_apply, hinit, zero_add]
  obtain ⟨i₀, hi₀⟩ := hj
  have hmem : i₀ ∈ Finset.univ.filter (fun i => h.drop i = j) := Finset.mem_filter.2 ⟨Finset.mem_univ _, hi₀⟩
  rw [← Finset.add_sum_erase _ _ hmem]
  exact lt_of_lt_of_le (hx i₀) (le_add_of_nonneg_right (Finset.sum_nonneg fun i _ => (hx i).le))

/-- Along ONE axis of positive extent every result index has an entry reducing to it. -/
theorem exists_drop_eq {a : Fin s.rank} (h' : s.ReducesTo [a] t) (h : s.Reduces [a] t) (ha : 0 < s.size a) (j : t.Idx) :
    ∃ i, h'.drop i = j :=
  ⟨h.lift j ⟨0, ha⟩, by rw [Shape.ReducesTo.drop_eq_drop h' h]; exact h.drop_lift j _⟩

end Contract

/-! ### Re-indexings: the entries of the result are entries of the operand -/

section Reindex

/-- Every entry of `b` is an entry of `w`. What a broadcast, a transpose, a slice or a reshape does. -/
def EntriesOf {ι κ α : Type*} (b : ι → α) (w : κ → α) : Prop := ∀ i, ∃ j, b i = w j

theorem EntriesOf.refl {ι α : Type*} (w : ι → α) : EntriesOf w w := fun i => ⟨i, rfl⟩

theorem EntriesOf.trans {ι κ μ α : Type*} {a : ι → α} {b : κ → α} {c : μ → α} (hab : EntriesOf a b)
    (hbc : EntriesOf b c) : EntriesOf a c := fun i => by
  obtain ⟨j, hj⟩ := hab i
  obtain ⟨k, hk⟩ := hbc j
  exact ⟨k, hj.trans hk⟩

/-- Any property of single entries passes from the operand to the result. -/
theorem EntriesOf.forall {ι κ α : Type*} {b : ι → α} {w : κ → α} (h : EntriesOf b w) (P : α → Prop)
    (hw : ∀ j, P (w j)) (i : ι) : P (b i) := by
  obtain ⟨j, hj⟩ := h i
  rw [hj]; exact hw j

variable {s t : Shape} {α : Type}

theorem entriesOf_broadcastInDim (t : Shape) (dims : Fin s.rank → Fin t.rank) (h : s.BroadcastsInDim t dims)
    (x : s.Idx → α) : EntriesOf (broadcastInDim t dims h x) x := fun _ => ⟨_, rfl⟩

theorem entriesOf_broadcastTo (t : Shape) (x : s.Idx → α) (h : s.Broadcasts t) : EntriesOf (broadcastTo t x h) x :=
  fun _ => ⟨_, rfl⟩

theorem entriesOf_transpose (t : Shape) (perm : List (Fin s.rank)) (x : s.Idx → α) (h : s.Transposes perm t) :
    EntriesOf (transpose t perm x h) x := fun _ => ⟨_, rfl⟩

theorem entriesOf_shapeCast (t : Shape) (x : s.Idx → α) (h : s.ShapeCasts t) : EntriesOf (shapeCast t x h) x :=
  fun _ => ⟨_, rfl⟩

theorem entriesOf_extractStridedSlice (t : Shape) (off : Fin s.rank → Nat) (x : s.Idx → α) (h : s.Slices off t) :
    EntriesOf (extractStridedSlice t off x h) x := fun _ => ⟨_, rfl⟩

theorem entriesOf_hostSlice (t : Shape) (start strides : Fin s.rank → Nat) (x : s.Idx → α)
    (h : s.SlicesBy start strides t) : EntriesOf (Host.slice t start strides x h) x := fun _ => ⟨_, rfl⟩

/-- Every entry of a concatenation is an entry of one of the pieces. -/
theorem concatenate_entry (t : Shape) (a : Fin t.rank) (xs : List ((s : Shape) × (s.Idx → α)))
    (h : Shape.Concatenates (xs.map (·.1)) t a) (j : t.Idx) : ∃ p ∈ xs, ∃ i, concatenate t a xs h j = p.2 i := by
  unfold concatenate
  exact ⟨_, List.getElem_mem _, _, rfl⟩

theorem allFin_of_entriesOf {ι : Type*} {b : s.Idx → EReal} {w : ι → EReal} (h : EntriesOf b w)
    (hw : ∀ j, Fin' (w j)) : AllFin b := h.forall Fin' hw

theorem allFin_broadcastInDim (t : Shape) (dims : Fin s.rank → Fin t.rank) (h : s.BroadcastsInDim t dims)
    {x : s.Idx → EReal} (hx : AllFin x) : AllFin (broadcastInDim t dims h x) := fun _ => hx _

theorem allFin_broadcastTo (t : Shape) {x : s.Idx → EReal} (h : s.Broadcasts t) (hx : AllFin x) :
    AllFin (broadcastTo t x h) := fun _ => hx _

theorem allFin_transpose (t : Shape) (perm : List (Fin s.rank)) {x : s.Idx → EReal} (h : s.Transposes perm t)
    (hx : AllFin x) : AllFin (transpose t perm x h) := fun _ => hx _

theorem allFin_shapeCast (t : Shape) {x : s.Idx → EReal} (h : s.ShapeCasts t) (hx : AllFin x) :
    AllFin (shapeCast t x h) := fun _ => hx _

theorem allFin_extractStridedSlice (t : Shape) (off : Fin s.rank → Nat) {x : s.Idx → EReal} (h : s.Slices off t)
    (hx : AllFin x) : AllFin (extractStridedSlice t off x h) := fun _ => hx _

theorem allFin_hostSlice (t : Shape) (start strides : Fin s.rank → Nat) {x : s.Idx → EReal}
    (h : s.SlicesBy start strides t) (hx : AllFin x) : AllFin (Host.slice t start strides x h) := fun _ => hx _

/-- A concatenation of vectors with finite entries has finite entries. -/
theorem allFin_concatenate (t : Shape) (a : Fin t.rank) (xs : List ((s : Shape) × (s.Idx → EReal)))
    (h : Shape.Concatenates (xs.map (·.1)) t a) (hxs : ∀ p ∈ xs, AllFin p.2) : AllFin (concatenate t a xs h) := by
  intro j
  obtain ⟨p, hp, i, hi⟩ := concatenate_entry t a xs h j
  rw [hi]; exact hxs p hp i

/-- The concatenation of two pieces. -/
theorem allFin_concatenate₂ (t : Shape) (a : Fin t.rank) {s₁ s₂ : Shape} {x₁ : s₁.Idx → EReal} {x₂ : s₂.Idx → EReal}
    (h : Shape.Concatenates (([⟨s₁, x₁⟩, ⟨s₂, x₂⟩] : List ((s : Shape) × (s.Idx → EReal))).map (·.1)) t a)
    (h₁ : AllFin x₁) (h₂ : AllFin x₂) : AllFin (concatenate t a [⟨s₁, x₁⟩, ⟨s₂, x₂⟩] h) := by
  refine allFin_concatenate t a _ h fun p hp => ?_
  rcases List.mem_cons.1 hp with rfl | hp
  · exact h₁
  · rcases List.mem_cons.1 hp with rfl | hp
    · exact h₂
    · exact absurd hp (List.not_mem_nil)

/-- Positivity, non-negativity and being nonzero pass through a broadcast as well. -/
theorem broadcastInDim_pos (t : Shape) (dims : Fin s.rank → Fin t.rank) (h : s.BroadcastsInDim t dims)
    {x : s.Idx → EReal} (hx : ∀ i, 0 < x i) (j : t.Idx) : 0 < broadcastInDim t dims h x j := hx _

theorem broadcastInDim_nonneg (t : Shape) (dims : Fin s.rank → Fin t.rank) (h : s.BroadcastsInDim t dims)
    {x : s.Idx → EReal} (hx : ∀ i, 0 ≤ x i) (j : t.Idx) : 0 ≤ broadcastInDim t dims h x j := hx _

theorem broadcastInDim_ne_zero (t : Shape) (dims : Fin s.rank → Fin t.rank) (h : s.BroadcastsInDim t dims)
    {x : s.Idx → EReal} (hx : ∀ i, x i ≠ 0) (j : t.Idx) : broadcastInDim t dims h x j ≠ 0 := hx _

/-- A broadcast of a vector all of whose entries are one value has that value everywhere. -/
theorem broadcastInDim_eq_const (t : Shape) (dims : Fin s.rank → Fin t.rank) (h : s.BroadcastsInDim t dims)
    {x : s.Idx → α} {c : α} (hx : ∀ i, x i = c) (j : t.Idx) : broadcastInDim t dims h x j = c := hx _

end Reindex

/-! ### Quotients, reciprocal square roots, exponentials -/

section Scalars

/-- The quotient of a finite extended real by a nonzero finite one is finite. -/
theorem fin_div {x y : EReal} (hx : Fin' x) (hy : Fin' y) (h0 : y ≠ 0) : Fin' (Ideal.div x y) := by
  obtain ⟨a, rfl⟩ := hx.exists_real
  obtain ⟨b, rfl⟩ := hy.exists_real
  have hb : b ≠ 0 := fun h => h0 (by rw [h, EReal.coe_zero])
  rw [Ideal.div_coe hb, ← EReal.coe_mul]; exact Fin'.coe _

/-- The quotient of a real by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem div_nonneg_of_fin {x y : EReal} (hx : Fin' x) (hy : Fin' y) (hx0 : 0 ≤ x) (hy0 : 0 < y) :
    0 ≤ Ideal.div x y := by
  obtain ⟨a, ha, rfl⟩ := fin_exists_nonneg_real hx hx0
  obtain ⟨b, hb, rfl⟩ := fin_exists_pos_real hy hy0
  rw [div_coe_coe a hb.ne']
  exact EReal.coe_nonneg.mpr (div_nonneg ha hb.le)

theorem div_pos_of_fin {x y : EReal} (hx : Fin' x) (hy : Fin' y) (hx0 : 0 < x) (hy0 : 0 < y) :
    0 < Ideal.div x y := by
  obtain ⟨a, ha, rfl⟩ := fin_exists_pos_real hx hx0
  obtain ⟨b, hb, rfl⟩ := fin_exists_pos_real hy hy0
  rw [div_coe_coe a hb.ne']
  exact EReal.coe_pos.mpr (div_pos ha hb)

/-- The reciprocal square root of a positive real is a positive real. -/
theorem fin_rsqrt {x : EReal} (hx : Fin' x) (h0 : 0 < x) : Fin' (Ideal.rsqrt x) ∧ 0 < Ideal.rsqrt x := by
  obtain ⟨r, hr, rfl⟩ := fin_exists_pos_real hx h0
  rw [Ideal.rsqrt_coe, if_neg (not_lt.mpr hr.le), if_neg hr.ne']
  exact ⟨Fin'.coe _, EReal.coe_pos.mpr (inv_pos.mpr (Real.sqrt_pos.mpr hr))⟩

/-- The exponential of a real is a positive real. -/
theorem fin_exp {x : EReal} (hx : Fin' x) : Fin' (Ideal.exp x) ∧ 0 < Ideal.exp x := by
  obtain ⟨r, rfl⟩ := hx.exists_real
  rw [Ideal.exp_coe]
  exact ⟨Fin'.coe _, EReal.coe_pos.mpr (Real.exp_pos r)⟩

end Scalars

section Unary
variable {s : Shape} {φ : FTy}

theorem hostDivf_apply (a b : FVec Ideal s φ) (i : s.Idx) : Host.divf (F := Ideal) a b i = Ideal.div (a i) (b i) := rfl
theorem hostRsqrt_apply (v : FVec Ideal s φ) (i : s.Idx) : Host.rsqrt (F := Ideal) v i = Ideal.rsqrt (v i) := rfl
theorem hostExp_apply (v : FVec Ideal s φ) (i : s.Idx) : Host.exp (F := Ideal) v i = Ideal.exp (v i) := rfl

/-- A host quotient of finite entries by finite nonzero entries is finite. -/
theorem allFin_hostDivf {a b : FVec Ideal s φ} (ha : AllFin a) (hb : AllFin b) (hb0 : ∀ i, b i ≠ 0) :
    AllFin (Host.divf (F := Ideal) a b) := fun i => fin_div (ha i) (hb i) (hb0 i)

/-- A host quotient by a vector all of whose entries are one nonzero real (the broadcast of a constant). -/
theorem allFin_hostDivf_const {a b : FVec Ideal s φ} {c : ℝ} (ha : AllFin a) (hb : ∀ i, b i = (c : EReal))
    (hc : c ≠ 0) : AllFin (Host.divf (F := Ideal) a b) := fun i =>
  fin_div (ha i) (by rw [hb i]; exact Fin'.coe c) (by rw [hb i]; exact_mod_cast hc)

theorem hostDivf_nonneg {a b : FVec Ideal s φ} (ha : AllFin a) (hb : AllFin b) (ha0 : ∀ i, 0 ≤ a i)
    (hb0 : ∀ i, 0 < b i) (i : s.Idx) : 0 ≤ Host.divf (F := Ideal) a b i :=
  div_nonneg_of_fin (ha i) (hb i) (ha0 i) (hb0 i)

theorem hostDivf_pos {a b : FVec Ideal s φ} (ha : AllFin a) (hb : AllFin b) (ha0 : ∀ i, 0 < a i)
    (hb0 : ∀ i, 0 < b i) (i : s.Idx) : 0 < Host.divf (F := Ideal) a b i :=
  div_pos_of_fin (ha i) (hb i) (ha0 i) (hb0 i)

/-- Non-negative finite entries divided by one positive real stay non-negative. -/
theorem hostDivf_const_nonneg {a b : FVec Ideal s φ} {c : ℝ} (ha : AllFin a) (ha0 : ∀ i, 0 ≤ a i)
    (hb : ∀ i, b i = (c : EReal)) (hc : 0 < c) (i : s.Idx) : 0 ≤ Host.divf (F := Ideal) a b i :=
  div_nonneg_of_fin (ha i) (by rw [hb i]; exact Fin'.coe c) (ha0 i) (by rw [hb i]; exact EReal.coe_pos.mpr hc)

/-- The host's reciprocal square root of positive reals: positive reals. -/
theorem allFin_hostRsqrt {v : FVec Ideal s φ} (hv : AllFin v) (h0 : ∀ i, 0 < v i) : AllFin (Host.rsqrt (F := Ideal) v) :=
  fun i => (fin_rsqrt (hv i) (h0 i)).1

theorem hostRsqrt_pos {v : FVec Ideal s φ} (hv : AllFin v) (h0 : ∀ i, 0 < v i) (i : s.Idx) :
    0 < Host.rsqrt (F := Ideal) v i := (fin_rsqrt (hv i) (h0 i)).2

/-- The host's exponential of reals: positive reals. -/
theorem allFin_hostExp {v : FVec Ideal s φ} (hv : AllFin v) : AllFin (Host.exp (F := Ideal) v) :=
  fun i => (fin_exp (hv i)).1

theorem hostExp_pos {v : FVec Ideal s φ} (hv : AllFin v) (i : s.Idx) : 0 < Host.exp (F := Ideal) v i :=
  (fin_exp (hv i)).2

/-- A sum of a non-negative and a positive vector (a variance plus a positive constant) is positive. -/
theorem addf_pos_of_nonneg_of_pos {a b : FVec Ideal s φ} (ha : ∀ i, 0 ≤ a i) (hb : ∀ i, 0 < b i) (i : s.Idx) :
    0 < addf (F := Ideal) a b i := add_pos_of_nonneg_of_pos' (ha i) (hb i)

end Unary

/-! ### A maximum along axes -/

section ReduceMax
variable {s t u : Shape} {φ : FTy} {axes : List (Fin s.rank)}

/-- An entry of a host maximum along axes: the maximum, from the initial value, over the entries that reduce
    to it, in any order. -/
theorem reduceMax_apply (x : FVec Ideal s φ) (init : u.Idx → Ideal φ) (h : s.ReducesTo axes t) (hu : 0 < u.numel)
    (j : t.Idx) :
    Host.reduce (FloatOps.maximumf (F := Ideal) (φ := φ)) x init h hu j
      = (Finset.univ.filter fun i => h.drop i = j).fold max (init (Shape.Idx.first hu)) x :=
  Host.reduce_eq_fold _ x init h hu j

/-- A host maximum along axes of finite entries, from an initial value that is not plus infinity (minus
    infinity, usually), is finite wherever some entry reduces to the index. -/
theorem allFin_reduceMax {x : FVec Ideal s φ} {init : u.Idx → Ideal φ} (h : s.ReducesTo axes t) (hu : 0 < u.numel)
    (hx : AllFin x) (hinit : init (Shape.Idx.first hu) ≠ ⊤) (hsurj : ∀ j, ∃ i, h.drop i = j) :
    AllFin (Host.reduce (FloatOps.maximumf (F := Ideal) (φ := φ)) x init h hu) := by
  intro j
  rw [reduceMax_apply]
  constructor
  · refine ne_of_lt ((Finset.fold_max_lt _).2 ⟨lt_top_iff_ne_top.mpr hinit, fun i _ => lt_top_iff_ne_top.mpr (hx i).1⟩)
  · obtain ⟨i, hi⟩ := hsurj j
    exact ne_of_gt ((Finset.lt_fold_max _).2 (Or.inr ⟨i, Finset.mem_filter.2 ⟨Finset.mem_univ _, hi⟩,
      bot_lt_iff_ne_bot.mpr (hx i).2⟩))

/-- The same along ONE axis of positive extent. -/
theorem allFin_reduceMax_single {a : Fin s.rank} {x : FVec Ideal s φ} {init : u.Idx → Ideal φ}
    (h' : s.ReducesTo [a] t) (h : s.Reduces [a] t) (ha : 0 < s.size a) (hu : 0 < u.numel) (hx : AllFin x)
    (hinit : init (Shape.Idx.first hu) ≠ ⊤) :
    AllFin (Host.reduce (FloatOps.maximumf (F := Ideal) (φ := φ)) x init h' hu) :=
  allFin_reduceMax h' hu hx hinit (exists_drop_eq h' h ha)

/-- Every entry that reduces to an index is at most the maximum there. -/
theorem le_reduceMax (x : FVec Ideal s φ) (init : u.Idx → Ideal φ) (h : s.ReducesTo axes t) (hu : 0 < u.numel)
    (i : s.Idx) : x i ≤ Host.reduce (FloatOps.maximumf (F := Ideal) (φ := φ)) x init h hu (h.drop i) := by
  rw [reduceMax_apply]
  exact (Finset.le_fold_max _).2 (Or.inr ⟨i, Finset.mem_filter.2 ⟨Finset.mem_univ _, rfl⟩, le_rfl⟩)

/-- A maximum against a vector of minus infinities is the other operand. -/
theorem maximumf_bot_left {b w : FVec Ideal s φ} (hb : ∀ i, b i = ⊥) : maximumf (F := Ideal) b w = w :=
  funext fun i => by
    show max (b i) (w i) = w i
    rw [hb i]; exact max_bot_left _

theorem maximumf_bot_right {b w : FVec Ideal s φ} (hb : ∀ i, b i = ⊥) : maximumf (F := Ideal) w b = w :=
  funext fun i => by
    show max (w i) (b i) = w i
    rw [hb i]; exact max_bot_right _

end ReduceMax

/-! ### The normalisation of a row of positive reals by its sum -/

section Normalise
variable {s t u : Shape} {φ : FTy} {axes : List (Fin s.rank)}

/-- The sum along axes, from zero, of positive reals is a vector of positive reals, provided every result
    index has some entry reducing to it. -/
theorem reduceAdd_pos_fin {e : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j) :
    AllFin (Host.reduceAdd (F := Ideal) e init h hu) ∧ ∀ j, 0 < Host.reduceAdd (F := Ideal) e init h hu j :=
  ⟨allFin_reduceAdd h hu he (by rw [hinit]; exact fin_zero), fun j => reduceAdd_pos h hu hpos hinit j (hsurj j)⟩

/-- Positive reals divided by (a re-indexing of) their sums along axes: real, and positive. `b` is the
    divisor as the program builds it; all that is used of it is that each of its entries is an entry of the
    vector of sums. -/
theorem normalise_fin_pos {e b : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j)
    (hb : EntriesOf b (Host.reduceAdd (F := Ideal) e init h hu)) :
    AllFin (Host.divf (F := Ideal) e b) ∧ ∀ i, 0 < Host.divf (F := Ideal) e b i := by
  obtain ⟨hS, hS0⟩ := reduceAdd_pos_fin h hu he hpos hinit hsurj
  have hbF : AllFin b := hb.forall Fin' hS
  have hb0 : ∀ i, 0 < b i := hb.forall (fun y => 0 < y) hS0
  exact ⟨allFin_hostDivf he hbF fun i => (hb0 i).ne', hostDivf_pos he hbF hpos hb0⟩

/-- The normalised row has real entries. -/
theorem allFin_normalise {e b : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j)
    (hb : EntriesOf b (Host.reduceAdd (F := Ideal) e init h hu)) : AllFin (Host.divf (F := Ideal) e b) :=
  (normalise_fin_pos h hu he hpos hinit hsurj hb).1

/-- The normalised row has positive entries. -/
theorem normalise_pos {e b : FVec Ideal s φ} {init : u.Idx → Ideal φ} (h : s.ReducesTo axes t) (hu : 0 < u.numel)
    (he : AllFin e) (hpos : ∀ i, 0 < e i) (hinit : init (Shape.Idx.first hu) = 0) (hsurj : ∀ j, ∃ i, h.drop i = j)
    (hb : EntriesOf b (Host.reduceAdd (F := Ideal) e init h hu)) (i : s.Idx) : 0 < Host.divf (F := Ideal) e b i :=
  (normalise_fin_pos h hu he hpos hinit hsurj hb).2 i

/-- An entry of a normalised row is that entry over the sum it reduces to, when the divisor reads at each
    entry the sum of its own row (`hb`). -/
theorem normalise_entry {e b : FVec Ideal s φ} {init : u.Idx → Ideal φ} (h : s.ReducesTo axes t) (hu : 0 < u.numel)
    (hb : ∀ i, b i = Host.reduceAdd (F := Ideal) e init h hu (h.drop i)) (i : s.Idx) :
    Host.divf (F := Ideal) e b i = Ideal.div (e i) (Host.reduceAdd (F := Ideal) e init h hu (h.drop i)) := by
  rw [hostDivf_apply, hb i]

end Normalise

/-! ### Constants -/

section Constants

theorem constant_apply (s : Shape) (φ : FTy) (w : BitVec φ.bits) (i : s.Idx) :
    constant (F := Ideal) s φ w i = Ideal.ofBits φ w := rfl

/-- A constant whose word denotes a real has finite entries. -/
theorem allFin_constant (s : Shape) {φ : FTy} {w : BitVec φ.bits} {c : ℝ} (hc : Ideal.ofBits φ w = (c : EReal)) :
    AllFin (constant (F := Ideal) s φ w) := fun _ => by
  show Fin' (Ideal.ofBits φ w)
  rw [hc]; exact Fin'.coe c

/-- The word of `0.0` denotes zero. -/
theorem ofBits_zero : Ideal.ofBits .f32 0x00000000#32 = 0 := Ideal.ofBits_zero_f32

theorem ofBits_zero_coe : Ideal.ofBits .f32 0x00000000#32 = ((0 : ℝ) : EReal) := by
  rw [ofBits_zero, EReal.coe_zero]

/-- The word of `8192.0` denotes the real 8192. -/
theorem ofBits_8192 : Ideal.ofBits .f32 0x46000000#32 = ((8192 : ℝ) : EReal) := by
  simp [Ideal.ofBits, Ideal.ieee, -EReal.coe_mul]; norm_num

/-- The word of `20.0` denotes the real 20. -/
theorem ofBits_20 : Ideal.ofBits .f32 0x41A00000#32 = ((20 : ℝ) : EReal) := by
  simp [Ideal.ofBits, Ideal.ieee, -EReal.coe_mul]; norm_num

/-- The single-precision number nearest to one hundred-thousandth is `10995116 · 2⁻⁴⁰`. -/
theorem ofBits_1em5 : Ideal.ofBits .f32 0x3727C5AC#32 = ((10995116 * (2 : ℝ) ^ (-40 : Int) : ℝ) : EReal) := by
  simp [Ideal.ofBits, Ideal.ieee, -EReal.coe_mul]

theorem ofBits_1em5_pos : ∃ r : ℝ, 0 < r ∧ Ideal.ofBits .f32 0x3727C5AC#32 = (r : EReal) :=
  ⟨_, by positivity, ofBits_1em5⟩

/-- The word of minus infinity denotes it. -/
theorem ofBits_neg_inf : Ideal.ofBits .f32 0xFF800000#32 = ⊥ := by
  simp [Ideal.ofBits, Ideal.ieee]

theorem constant_neg_inf_apply (s : Shape) (i : s.Idx) : constant (F := Ideal) s .f32 0xFF800000#32 i = ⊥ :=
  ofBits_neg_inf

theorem constant_zero_apply (s : Shape) (i : s.Idx) : constant (F := Ideal) s .f32 0x00000000#32 i = 0 :=
  ofBits_zero

theorem constant_8192_apply (s : Shape) (i : s.Idx) :
    constant (F := Ideal) s .f32 0x46000000#32 i = ((8192 : ℝ) : EReal) := ofBits_8192

theorem constant_20_apply (s : Shape) (i : s.Idx) :
    constant (F := Ideal) s .f32 0x41A00000#32 i = ((20 : ℝ) : EReal) := ofBits_20

/-- A signed integer read as a float is a real number; the integer zero reads as zero. -/
theorem allFin_sitofp {s : Shape} {w : Nat} (φ : FTy) (x : IVec s w) : AllFin (sitofp (F := Ideal) φ x) :=
  fun _ => Fin'.coe _

theorem sitofp_zero_apply {s : Shape} (φ : FTy) (x : IVec s 32) (i : s.Idx) (hx : x i = 0#32) :
    sitofp (F := Ideal) φ x i = ((0 : ℝ) : EReal) := by
  show (((x i).toInt : ℝ) : EReal) = ((0 : ℝ) : EReal)
  rw [hx]; simp

/-- A selection between two vectors with finite entries has finite entries. -/
theorem allFin_select {s : Shape} (c : IVec s 1) {a b : s.Idx → EReal} (ha : AllFin a) (hb : AllFin b) :
    AllFin (select c a b) := fun i => by
  show Fin' (if c i = 1 then a i else b i)
  split <;> [exact ha i; exact hb i]

/-- Where the condition holds a selection is its first operand, whatever the second. -/
theorem select_of_true {s : Shape} {α : Type} (c : IVec s 1) (a b : s.Idx → α) (hc : ∀ i, c i = 1) : select c a b = a :=
  funext fun i => by
    show (if c i = 1 then a i else b i) = a i
    rw [if_pos (hc i)]

end Constants

/-! ### The same facts on the shapes a printed program writes

A proof about a printed program meets these operations applied to broadcasts of constants; stated on that
shape the lemmas apply without unfolding anything. -/

section Printed

/-- The maximum against a broadcast of the constant minus infinity is the other operand. -/
theorem maximumf_bcast_neg_inf_left {s t : Shape} (dims : Fin s.rank → Fin t.rank) (h : s.BroadcastsInDim t dims)
    (w : FVec Ideal t .f32) :
    maximumf (F := Ideal) (broadcastInDim t dims h (constant (F := Ideal) s .f32 0xFF800000#32)) w = w :=
  maximumf_bot_left fun _ => ofBits_neg_inf

theorem maximumf_bcast_neg_inf_right {s t : Shape} (dims : Fin s.rank → Fin t.rank) (h : s.BroadcastsInDim t dims)
    (w : FVec Ideal t .f32) :
    maximumf (F := Ideal) w (broadcastInDim t dims h (constant (F := Ideal) s .f32 0xFF800000#32)) = w :=
  maximumf_bot_right fun _ => ofBits_neg_inf

/-- A rectifier: the maximum against a broadcast of the constant zero keeps finite entries finite and is
    non-negative. -/
theorem allFin_maximumf_bcast_zero {s t : Shape} (dims : Fin s.rank → Fin t.rank) (h : s.BroadcastsInDim t dims)
    {w : FVec Ideal t .f32} (hw : AllFin w) :
    AllFin (maximumf (F := Ideal) w (broadcastInDim t dims h (constant (F := Ideal) s .f32 0x00000000#32))) :=
  allFin_maximumf hw fun _ => by
    show Fin' (Ideal.ofBits .f32 0x00000000#32)
    rw [ofBits_zero]; exact fin_zero

theorem maximumf_bcast_zero_nonneg {s t : Shape} (dims : Fin s.rank → Fin t.rank) (h : s.BroadcastsInDim t dims)
    (w : FVec Ideal t .f32) (i : t.Idx) :
    0 ≤ maximumf (F := Ideal) w (broadcastInDim t dims h (constant (F := Ideal) s .f32 0x00000000#32)) i :=
  maximumf_nonneg_right _ _ (fun _ => by
    show 0 ≤ Ideal.ofBits .f32 0x00000000#32
    rw [ofBits_zero]) i

/-- A host quotient by a broadcast of a constant that denotes a nonzero real. -/
theorem allFin_hostDivf_bcast_constant {s t : Shape} {φ : FTy} (dims : Fin s.rank → Fin t.rank)
    (h : s.BroadcastsInDim t dims) {w : BitVec φ.bits} {c : ℝ} (hw : Ideal.ofBits φ w = (c : EReal)) (hc : c ≠ 0)
    {a : FVec Ideal t φ} (ha : AllFin a) :
    AllFin (Host.divf (F := Ideal) a (broadcastInDim t dims h (constant (F := Ideal) s φ w))) :=
  allFin_hostDivf_const ha (fun _ => hw) hc

/-- ... and it is non-negative when the entries are and the real is positive. -/
theorem hostDivf_bcast_constant_nonneg {s t : Shape} {φ : FTy} (dims : Fin s.rank → Fin t.rank)
    (h : s.BroadcastsInDim t dims) {w : BitVec φ.bits} {c : ℝ} (hw : Ideal.ofBits φ w = (c : EReal)) (hc : 0 < c)
    {a : FVec Ideal t φ} (ha : AllFin a) (ha0 : ∀ i, 0 ≤ a i) (i : t.Idx) :
    0 ≤ Host.divf (F := Ideal) a (broadcastInDim t dims h (constant (F := Ideal) s φ w)) i :=
  hostDivf_const_nonneg ha ha0 (fun _ => hw) hc i

/-- A sum with a broadcast of a constant that denotes a positive real, of non-negative entries, is positive. -/
theorem addf_bcast_constant_pos {s t : Shape} {φ : FTy} (dims : Fin s.rank → Fin t.rank)
    (h : s.BroadcastsInDim t dims) {w : BitVec φ.bits} {c : ℝ} (hw : Ideal.ofBits φ w = (c : EReal)) (hc : 0 < c)
    {a : FVec Ideal t φ} (ha0 : ∀ i, 0 ≤ a i) (i : t.Idx) :
    0 < addf (F := Ideal) a (broadcastInDim t dims h (constant (F := Ideal) s φ w)) i :=
  addf_pos_of_nonneg_of_pos ha0 (fun _ => by
    show 0 < Ideal.ofBits φ w
    rw [hw]; exact EReal.coe_pos.mpr hc) i

theorem allFin_bcast_constant {s t : Shape} {φ : FTy} (dims : Fin s.rank → Fin t.rank)
    (h : s.BroadcastsInDim t dims) {w : BitVec φ.bits} {c : ℝ} (hw : Ideal.ofBits φ w = (c : EReal)) :
    AllFin (broadcastInDim t dims h (constant (F := Ideal) s φ w)) :=
  allFin_broadcastInDim t dims h (allFin_constant s hw)

/-- A constant minus the integer zero read as a float: the constant. (A count `n - 0` of a variance.) -/
theorem subf_constant_sitofp_zero_apply (s : Shape) {w : BitVec 32} {c : ℝ} (hw : Ideal.ofBits .f32 w = (c : EReal))
    (i : s.Idx) :
    subf (F := Ideal) (constant (F := Ideal) s .f32 w) (sitofp (F := Ideal) .f32 (constantI s 32 0#32)) i = (c : EReal) := by
  show Ideal.ofBits .f32 w - ((((0#32 : BitVec 32).toInt : ℝ)) : EReal) = (c : EReal)
  rw [hw]; simp

/-- The comparison "greater than" answers one where it holds. -/
theorem cmpf_ogt_eq_one {s : Shape} {φ : FTy} (x y : FVec Ideal s φ) (i : s.Idx) (h : y i < x i) :
    cmpf (F := Ideal) .ogt x y i = 1#1 := by
  show BitVec.ofBool (decide (y i < x i)) = 1#1
  rw [decide_eq_true h]; rfl

end Printed

end LibIdealFinite

end
-- ==== Proof.StagesFinite.lean ====
/-
  The stages of the network keep entries real. At exact arithmetic, from matrices and vectors all of whose
  entries are real numbers:

  * the rectifier gives real, non-negative entries;
  * the batch normalisation gives real entries: the count `n - 0` is the positive real `n`, so the guarded
    quotient is the quotient, the variance is a non-negative real, and the variance plus the positive epsilon
    has a real reciprocal square root;
  * the soft maximum gives real, positive entries: every row has twenty entries, so its maximum from minus
    infinity is real, the exponentials are positive reals, and so is their row sum.
-/
import proofs.«155634_j8117488189610_2_alg».proof.Proof.Stages
import proofs.«155634_j8117488189610_2_alg».proof.Proof.LibIdealFinite

noncomputable section

namespace Cert.Stages

open Idealize.ShloMosaic Cert.ReferenceIdeal Cert.ReferenceIdeal.Gen LibERealMatrix LibIdealFinite

/-! ### Broadcasts -/

theorem allFin_rows16 {x : FVec Ideal S16 .f32} (hx : AllFin x) : AllFin (rows16 (F := Ideal) x) := by
  unfold rows16
  exact allFin_broadcastInDim _ _ _ (allFin_broadcastInDim _ _ _ hx)

theorem allFin_rows8 {x : FVec Ideal S8 .f32} (hx : AllFin x) : AllFin (rows8 (F := Ideal) x) := by
  unfold rows8
  exact allFin_broadcastInDim _ _ _ (allFin_broadcastInDim _ _ _ hx)

theorem allFin_cols20 {x : FVec Ideal S8192 .f32} (hx : AllFin x) : AllFin (cols20 (F := Ideal) x) := by
  unfold cols20
  exact allFin_broadcastInDim _ _ _ (allFin_broadcastInDim _ _ _ hx)

theorem entriesOf_cols20 (x : FVec Ideal S8192 .f32) : EntriesOf (cols20 (F := Ideal) x) x := by
  unfold cols20
  exact (entriesOf_broadcastInDim _ _ _ _).trans (entriesOf_broadcastInDim _ _ _ _)

/-! ### The rectifier -/

theorem allFin_Relu16 {v : FVec Ideal S8192x16 .f32} (hv : AllFin v) : AllFin (Relu16 (F := Ideal) v) := by
  unfold Relu16 c0
  exact allFin_maximumf_bcast_zero _ _ hv

theorem Relu16_nonneg (v : FVec Ideal S8192x16 .f32) (i : S8192x16.Idx) : 0 ≤ Relu16 (F := Ideal) v i := by
  unfold Relu16 c0
  exact maximumf_bcast_zero_nonneg _ _ v i

theorem allFin_Relu8 {v : FVec Ideal S20x8 .f32} (hv : AllFin v) : AllFin (Relu8 (F := Ideal) v) := by
  unfold Relu8 c0
  exact allFin_maximumf_bcast_zero _ _ hv

/-! ### Batch normalisation of 8192 rows of 16 -/

theorem allFin_Mean16 {v : FVec Ideal S8192x16 .f32} (hv : AllFin v) : AllFin (Mean16 (F := Ideal) v) := by
  unfold Mean16 c8192
  refine allFin_hostDivf_bcast_constant _ _ ofBits_8192 (by norm_num) ?_
  refine allFin_reduceAdd _ _ hv ?_
  show Fin' (Ideal.ofBits .f32 0x00000000#32)
  rw [ofBits_zero]; exact fin_zero

theorem allFin_Dev16 {v : FVec Ideal S8192x16 .f32} (hv : AllFin v) : AllFin (Dev16 (F := Ideal) v) := by
  unfold Dev16 c8192
  refine allFin_subf hv (allFin_broadcastInDim _ _ _ ?_)
  refine allFin_hostDivf_bcast_constant _ _ ofBits_8192 (by norm_num) (allFin_broadcastInDim _ _ _ ?_)
  refine allFin_reduceAdd _ _ hv ?_
  show Fin' (Ideal.ofBits .f32 0x00000000#32)
  rw [ofBits_zero]; exact fin_zero

/-- The count `8192 - 0` is the real 8192. -/
theorem Count16_apply (i : S_.Idx) : Count16 (F := Ideal) i = ((8192 : ℝ) : EReal) := by
  unfold Count16 c8192 cI0
  exact subf_constant_sitofp_zero_apply S_ ofBits_8192 i

/-- The guarded quotient of the variance is the quotient: the count is positive. -/
theorem Var16_eq (v : FVec Ideal S8192x16 .f32) :
    Var16 (F := Ideal) v
      = Host.divf (Host.reduceAdd (mulf (Dev16 v) (Dev16 v)) c0 reducesTo_S8192x16_S16_d0 h_S_)
          (broadcastInDim S16 ![] bcast_S_S16 Count16) := by
  unfold Var16
  refine select_of_true _ _ _ fun i => ?_
  refine cmpf_ogt_eq_one _ _ _ ?_
  rw [Count16_apply]
  show Ideal.ofBits .f32 0x00000000#32 < _
  rw [ofBits_zero]; exact EReal.coe_pos.mpr (by norm_num)

theorem allFin_Var16 {v : FVec Ideal S8192x16 .f32} (hv : AllFin v) :
    AllFin (Var16 (F := Ideal) v) ∧ ∀ i, 0 ≤ Var16 (F := Ideal) v i := by
  rw [Var16_eq]
  have hd := allFin_Dev16 hv
  have hss : AllFin (Host.reduceAdd (F := Ideal) (mulf (Dev16 v) (Dev16 v)) c0 reducesTo_S8192x16_S16_d0 h_S_) := by
    refine allFin_reduceAdd _ _ (allFin_mulf hd hd) ?_
    show Fin' (Ideal.ofBits .f32 0x00000000#32)
    rw [ofBits_zero]; exact fin_zero
  have hss0 : ∀ j, 0 ≤ Host.reduceAdd (F := Ideal) (mulf (Dev16 v) (Dev16 v)) c0 reducesTo_S8192x16_S16_d0 h_S_ j :=
    reduceAdd_nonneg _ _ (mulf_self_nonneg hd) ofBits_zero
  have hn : ∀ i, broadcastInDim S16 ![] bcast_S_S16 (Count16 (F := Ideal)) i = ((8192 : ℝ) : EReal) :=
    fun i => Count16_apply _
  exact ⟨allFin_hostDivf_const hss hn (by norm_num), hostDivf_const_nonneg hss hss0 hn (by norm_num)⟩

theorem allFin_Rstd16 {v : FVec Ideal S8192x16 .f32} (hv : AllFin v) : AllFin (Rstd16 (F := Ideal) v) := by
  obtain ⟨hvar, hvar0⟩ := allFin_Var16 hv
  unfold Rstd16 cEps
  exact allFin_hostRsqrt (allFin_addf hvar (allFin_bcast_constant _ _ ofBits_1em5))
    (addf_bcast_constant_pos _ _ ofBits_1em5 (by positivity) hvar0)

theorem allFin_BN16 {v : FVec Ideal S8192x16 .f32} {g bt : FVec Ideal S16 .f32} (hv : AllFin v) (hg : AllFin g)
    (hbt : AllFin bt) : AllFin (BN16 (F := Ideal) v g bt) := by
  unfold BN16
  exact allFin_addf (allFin_mulf (allFin_mulf (allFin_rows16 hg) (allFin_subf hv (allFin_rows16 (allFin_Mean16 hv))))
    (allFin_rows16 (allFin_Rstd16 hv))) (allFin_rows16 hbt)

/-! ### Batch normalisation of 20 rows of 8 -/

theorem allFin_Mean8 {v : FVec Ideal S20x8 .f32} (hv : AllFin v) : AllFin (Mean8 (F := Ideal) v) := by
  unfold Mean8 c20
  refine allFin_hostDivf_bcast_constant _ _ ofBits_20 (by norm_num) ?_
  refine allFin_reduceAdd _ _ hv ?_
  show Fin' (Ideal.ofBits .f32 0x00000000#32)
  rw [ofBits_zero]; exact fin_zero

theorem allFin_Dev8 {v : FVec Ideal S20x8 .f32} (hv : AllFin v) : AllFin (Dev8 (F := Ideal) v) := by
  unfold Dev8 c20
  refine allFin_subf hv (allFin_broadcastInDim _ _ _ ?_)
  refine allFin_hostDivf_bcast_constant _ _ ofBits_20 (by norm_num) (allFin_broadcastInDim _ _ _ ?_)
  refine allFin_reduceAdd _ _ hv ?_
  show Fin' (Ideal.ofBits .f32 0x00000000#32)
  rw [ofBits_zero]; exact fin_zero

theorem Count8_apply (i : S_.Idx) : Count8 (F := Ideal) i = ((20 : ℝ) : EReal) := by
  unfold Count8 c20 cI0
  exact subf_constant_sitofp_zero_apply S_ ofBits_20 i

theorem Var8_eq (v : FVec Ideal S20x8 .f32) :
    Var8 (F := Ideal) v
      = Host.divf (Host.reduceAdd (mulf (Dev8 v) (Dev8 v)) c0 reducesTo_S20x8_S8_d0 h_S_)
          (broadcastInDim S8 ![] bcast_S_S8 Count8) := by
  unfold Var8
  refine select_of_true _ _ _ fun i => ?_
  refine cmpf_ogt_eq_one _ _ _ ?_
  rw [Count8_apply]
  show Ideal.ofBits .f32 0x00000000#32 < _
  rw [ofBits_zero]; exact EReal.coe_pos.mpr (by norm_num)

theorem allFin_Var8 {v : FVec Ideal S20x8 .f32} (hv : AllFin v) :
    AllFin (Var8 (F := Ideal) v) ∧ ∀ i, 0 ≤ Var8 (F := Ideal) v i := by
  rw [Var8_eq]
  have hd := allFin_Dev8 hv
  have hss : AllFin (Host.reduceAdd (F := Ideal) (mulf (Dev8 v) (Dev8 v)) c0 reducesTo_S20x8_S8_d0 h_S_) := by
    refine allFin_reduceAdd _ _ (allFin_mulf hd hd) ?_
    show Fin' (Ideal.ofBits .f32 0x00000000#32)
    rw [ofBits_zero]; exact fin_zero
  have hss0 : ∀ j, 0 ≤ Host.reduceAdd (F := Ideal) (mulf (Dev8 v) (Dev8 v)) c0 reducesTo_S20x8_S8_d0 h_S_ j :=
    reduceAdd_nonneg _ _ (mulf_self_nonneg hd) ofBits_zero
  have hn : ∀ i, broadcastInDim S8 ![] bcast_S_S8 (Count8 (F := Ideal)) i = ((20 : ℝ) : EReal) :=
    fun i => Count8_apply _
  exact ⟨allFin_hostDivf_const hss hn (by norm_num), hostDivf_const_nonneg hss hss0 hn (by norm_num)⟩

theorem allFin_Rstd8 {v : FVec Ideal S20x8 .f32} (hv : AllFin v) : AllFin (Rstd8 (F := Ideal) v) := by
  obtain ⟨hvar, hvar0⟩ := allFin_Var8 hv
  unfold Rstd8 cEps
  exact allFin_hostRsqrt (allFin_addf hvar (allFin_bcast_constant _ _ ofBits_1em5))
    (addf_bcast_constant_pos _ _ ofBits_1em5 (by positivity) hvar0)

theorem allFin_BN8 {v : FVec Ideal S20x8 .f32} {g bt : FVec Ideal S8 .f32} (hv : AllFin v) (hg : AllFin g)
    (hbt : AllFin bt) : AllFin (BN8 (F := Ideal) v g bt) := by
  unfold BN8
  exact allFin_addf (allFin_mulf (allFin_mulf (allFin_rows8 hg) (allFin_subf hv (allFin_rows8 (allFin_Mean8 hv))))
    (allFin_rows8 (allFin_Rstd8 hv))) (allFin_rows8 hbt)

/-! ### The soft maximum -/

/-- Every row of an 8192 × 20 matrix has an entry. -/
theorem rows20_nonempty : ∀ j : S8192.Idx, ∃ i, reducesTo_S8192x20_S8192_d1.drop i = j :=
  exists_drop_eq reducesTo_S8192x20_S8192_d1 (by decide : S8192x20.Reduces [1] S8192) (by decide)

theorem RowMax20_eq (l : FVec Ideal S8192x20 .f32) :
    RowMax20 (F := Ideal) l = Host.reduce FloatOps.maximumf l cNegInf reducesTo_S8192x20_S8192_d1 h_S_ := by
  unfold RowMax20 cNegInf
  exact maximumf_bcast_neg_inf_left _ _ _

theorem allFin_RowMax20 {l : FVec Ideal S8192x20 .f32} (hl : AllFin l) : AllFin (RowMax20 (F := Ideal) l) := by
  rw [RowMax20_eq]
  unfold cNegInf
  refine allFin_reduceMax _ _ hl ?_ rows20_nonempty
  show Ideal.ofBits .f32 0xFF800000#32 ≠ ⊤
  rw [ofBits_neg_inf]; exact bot_ne_top

theorem allFin_SoftmaxExp20 {l : FVec Ideal S8192x20 .f32} (hl : AllFin l) :
    AllFin (SoftmaxExp20 (F := Ideal) l) ∧ ∀ i, 0 < SoftmaxExp20 (F := Ideal) l i := by
  unfold SoftmaxExp20
  have h := allFin_subf hl (allFin_cols20 (allFin_RowMax20 hl))
  exact ⟨allFin_hostExp h, hostExp_pos h⟩

/-- The soft maximum of real logits has real, positive entries. -/
theorem allFin_Softmax20 {l : FVec Ideal S8192x20 .f32} (hl : AllFin l) : AllFin (Softmax20 (F := Ideal) l) := by
  obtain ⟨he, hp⟩ := allFin_SoftmaxExp20 hl
  unfold Softmax20 SoftmaxSum20 c0
  exact allFin_normalise _ _ he hp ofBits_zero rows20_nonempty (entriesOf_cols20 _)

theorem Softmax20_pos {l : FVec Ideal S8192x20 .f32} (hl : AllFin l) (i : S8192x20.Idx) :
    0 < Softmax20 (F := Ideal) l i := by
  obtain ⟨he, hp⟩ := allFin_SoftmaxExp20 hl
  unfold Softmax20 SoftmaxSum20 c0
  exact normalise_pos _ _ he hp ofBits_zero rows20_nonempty (entriesOf_cols20 _) i

theorem allFin_T20 {s : FVec Ideal S8192x20 .f32} (hs : AllFin s) : AllFin (T20 (F := Ideal) s) := by
  unfold T20
  exact allFin_transpose _ _ _ hs

/-! ### The tail -/

theorem allFin_Layer3 {hpool : FVec Ideal S20x8 .f32} {a : FVec Ideal S20x20 .f32} {W3 : FVec Ideal S8x8 .f32}
    {b3 : FVec Ideal S8 .f32} (hh : AllFin hpool) (ha : AllFin a) (hW : AllFin W3) (hb : AllFin b3) :
    AllFin (Layer3 (F := Ideal) hpool a W3 b3) := by
  unfold Layer3
  exact allFin_Relu8 (allFin_addf (allFin_dotGeneral _ _ ha (allFin_dotGeneral _ _ hh hW)) (allFin_rows8 hb))

theorem allFin_Readout {h3 : FVec Ideal S20x8 .f32} {a : FVec Ideal S20x20 .f32} {We2 : FVec Ideal S8x8 .f32}
    {be2 : FVec Ideal S8 .f32} (hh : AllFin h3) (ha : AllFin a) (hW : AllFin We2) (hb : AllFin be2) :
    AllFin (Readout (F := Ideal) h3 a We2 be2) := by
  unfold Readout c0
  refine allFin_broadcastInDim _ _ _ (allFin_reduceAdd _ _
    (allFin_addf (allFin_dotGeneral _ _ ha (allFin_dotGeneral _ _ hh hW)) (allFin_rows8 hb)) ?_)
  show Fin' (Ideal.ofBits .f32 0x00000000#32)
  rw [ofBits_zero]; exact fin_zero

theorem allFin_Tail {hpool : FVec Ideal S20x8 .f32} {a : FVec Ideal S20x20 .f32} {W3 : FVec Ideal S8x8 .f32}
    {b3 g3 bt3 : FVec Ideal S8 .f32} {We2 : FVec Ideal S8x8 .f32} {be2 : FVec Ideal S8 .f32} (hh : AllFin hpool)
    (ha : AllFin a) (hW3 : AllFin W3) (hb3 : AllFin b3) (hg3 : AllFin g3) (hbt3 : AllFin bt3) (hWe2 : AllFin We2)
    (hbe2 : AllFin be2) : AllFin (Tail (F := Ideal) hpool a W3 b3 g3 bt3 We2 be2) := by
  unfold Tail
  exact allFin_Readout (allFin_BN8 (allFin_Layer3 hh ha hW3 hb3) hg3 hbt3) ha hWe2 hbe2

end Cert.Stages

end
-- ==== Proof.AssignFinite.lean ====
/-
  The assignment matrix is real. From a feature matrix, an adjacency matrix, the weights and biases of two
  layers and of the assignment head, and the scales and shifts of the two normalisations, all with real
  entries, the network forms

    h₁ = relu (A (x W₁) + b₁),  h₂ = relu (A (BN (h₁) W₂) + b₂),  l = A (BN (h₂) Wₚ) + bₚ,  s = softmax (l).

  Every stage keeps entries real, so the assignment matrix `s` has real entries: what the re-association of
  `(sᵀ A) s` into `sᵀ (A s)` needs.
-/
import proofs.«155634_j8117488189610_2_alg».proof.Proof.Stages
import proofs.«155634_j8117488189610_2_alg».proof.Proof.StagesFinite
import proofs.«155634_j8117488189610_2_alg».proof.Proof.LibIdealFinite

noncomputable section

namespace Cert.Stages

open Idealize.ShloMosaic LibERealMatrix LibIdealFinite

/-- A layer on the full graph before its normalisation: `relu (A hw + b)`, `hw` the features already
    multiplied by the layer's weights. -/
def Layer16 (adj : FVec Ideal Cert.ReferenceIdeal.S8192x8192 .f32) (hw : FVec Ideal Cert.ReferenceIdeal.S8192x16 .f32) (b : FVec Ideal Cert.ReferenceIdeal.S16 .f32) :
    FVec Ideal Cert.ReferenceIdeal.S8192x16 .f32 :=
  Relu16 (addf (Host.dotGeneral (F := Ideal) Cert.ReferenceIdeal.dot_S8192x8192_S8192x16_S8192x16_1_0_0_1_n_n none adj hw) (rows16 b))

theorem allFin_Layer16 {adj : FVec Ideal Cert.ReferenceIdeal.S8192x8192 .f32} {hw : FVec Ideal Cert.ReferenceIdeal.S8192x16 .f32}
    {b : FVec Ideal Cert.ReferenceIdeal.S16 .f32} (hadj : AllFin adj) (hhw : AllFin hw) (hb : AllFin b) : AllFin (Layer16 adj hw b) := by
  unfold Layer16
  exact allFin_Relu16 (allFin_addf (allFin_dotGeneral _ _ hadj hhw) (allFin_rows16 hb))

/-- The assignment matrix computed from real arguments has real entries. -/
theorem allFin_assignment (x : FVec Ideal Cert.ReferenceIdeal.S8192x18 .f32) (adj : FVec Ideal Cert.ReferenceIdeal.S8192x8192 .f32)
    (W1 : FVec Ideal Cert.ReferenceIdeal.S18x16 .f32) (b1 : FVec Ideal Cert.ReferenceIdeal.S16 .f32) (W2 : FVec Ideal Cert.ReferenceIdeal.S16x16 .f32)
    (b2 : FVec Ideal Cert.ReferenceIdeal.S16 .f32) (Wp1 : FVec Ideal Cert.ReferenceIdeal.S16x20 .f32) (bp1 : FVec Ideal Cert.ReferenceIdeal.S20 .f32)
    (g1 bt1 g2 bt2 : FVec Ideal Cert.ReferenceIdeal.S16 .f32)
    (hx : AllFin x) (hadj : AllFin adj) (hW1 : AllFin W1) (hb1 : AllFin b1) (hW2 : AllFin W2) (hb2 : AllFin b2)
    (hWp1 : AllFin Wp1) (hbp1 : AllFin bp1) (hg1 : AllFin g1) (hbt1 : AllFin bt1) (hg2 : AllFin g2) (hbt2 : AllFin bt2) :
    AllFin (Softmax20 (addf (Host.dotGeneral (F := Ideal) Cert.ReferenceIdeal.dot_S8192x8192_S8192x20_S8192x20_1_0_0_1_n_n none adj
        (Host.dotGeneral (F := Ideal) Cert.ReferenceIdeal.dot_S8192x16_S16x20_S8192x20_1_0_0_1_n_n none
          (BN16 (Relu16 (addf (Host.dotGeneral (F := Ideal) Cert.ReferenceIdeal.dot_S8192x8192_S8192x16_S8192x16_1_0_0_1_n_n none adj
              (Host.dotGeneral (F := Ideal) Cert.ReferenceIdeal.dot_S8192x16_S16x16_S8192x16_1_0_0_1_n_n none
                (BN16 (Relu16 (addf (Host.dotGeneral (F := Ideal) Cert.ReferenceIdeal.dot_S8192x8192_S8192x16_S8192x16_1_0_0_1_n_n none adj
                    (Host.dotGeneral (F := Ideal) Cert.ReferenceIdeal.dot_S8192x18_S18x16_S8192x16_1_0_0_1_n_n none x W1)) (rows16 b1))) g1 bt1) W2)) (rows16 b2))) g2 bt2) Wp1))
        (broadcastInDim Cert.ReferenceIdeal.S8192x20 ![0, 1] Cert.ReferenceIdeal.Gen.bcast_S1x20_S8192x20_0_1 (broadcastInDim Cert.ReferenceIdeal.S1x20 ![1] Cert.ReferenceIdeal.Gen.bcast_S20_S1x20_1 bp1)))) := by
  have h1 := allFin_Layer16 hadj (allFin_dotGeneral Cert.ReferenceIdeal.dot_S8192x18_S18x16_S8192x16_1_0_0_1_n_n none hx hW1) hb1
  have n1 := allFin_BN16 h1 hg1 hbt1
  have h2 := allFin_Layer16 hadj (allFin_dotGeneral Cert.ReferenceIdeal.dot_S8192x16_S16x16_S8192x16_1_0_0_1_n_n none n1 hW2) hb2
  have n2 := allFin_BN16 h2 hg2 hbt2
  have hl := allFin_addf
    (allFin_dotGeneral Cert.ReferenceIdeal.dot_S8192x8192_S8192x20_S8192x20_1_0_0_1_n_n none hadj
      (allFin_dotGeneral Cert.ReferenceIdeal.dot_S8192x16_S16x20_S8192x20_1_0_0_1_n_n none n2 hWp1))
    (allFin_broadcastInDim Cert.ReferenceIdeal.S8192x20 ![0, 1] Cert.ReferenceIdeal.Gen.bcast_S1x20_S8192x20_0_1
      (allFin_broadcastInDim Cert.ReferenceIdeal.S1x20 ![1] Cert.ReferenceIdeal.Gen.bcast_S20_S1x20_1 hbp1))
  exact allFin_Softmax20 hl

/-- ... and positive ones. -/
theorem assignment_pos (x : FVec Ideal Cert.ReferenceIdeal.S8192x18 .f32) (adj : FVec Ideal Cert.ReferenceIdeal.S8192x8192 .f32)
    (W1 : FVec Ideal Cert.ReferenceIdeal.S18x16 .f32) (b1 : FVec Ideal Cert.ReferenceIdeal.S16 .f32) (W2 : FVec Ideal Cert.ReferenceIdeal.S16x16 .f32)
    (b2 : FVec Ideal Cert.ReferenceIdeal.S16 .f32) (Wp1 : FVec Ideal Cert.ReferenceIdeal.S16x20 .f32) (bp1 : FVec Ideal Cert.ReferenceIdeal.S20 .f32)
    (g1 bt1 g2 bt2 : FVec Ideal Cert.ReferenceIdeal.S16 .f32)
    (hx : AllFin x) (hadj : AllFin adj) (hW1 : AllFin W1) (hb1 : AllFin b1) (hW2 : AllFin W2) (hb2 : AllFin b2)
    (hWp1 : AllFin Wp1) (hbp1 : AllFin bp1) (hg1 : AllFin g1) (hbt1 : AllFin bt1) (hg2 : AllFin g2) (hbt2 : AllFin bt2)
    (i : Cert.ReferenceIdeal.S8192x20.Idx) :
    0 < (Softmax20 (addf (Host.dotGeneral (F := Ideal) Cert.ReferenceIdeal.dot_S8192x8192_S8192x20_S8192x20_1_0_0_1_n_n none adj
        (Host.dotGeneral (F := Ideal) Cert.ReferenceIdeal.dot_S8192x16_S16x20_S8192x20_1_0_0_1_n_n none
          (BN16 (Relu16 (addf (Host.dotGeneral (F := Ideal) Cert.ReferenceIdeal.dot_S8192x8192_S8192x16_S8192x16_1_0_0_1_n_n none adj
              (Host.dotGeneral (F := Ideal) Cert.ReferenceIdeal.dot_S8192x16_S16x16_S8192x16_1_0_0_1_n_n none
                (BN16 (Relu16 (addf (Host.dotGeneral (F := Ideal) Cert.ReferenceIdeal.dot_S8192x8192_S8192x16_S8192x16_1_0_0_1_n_n none adj
                    (Host.dotGeneral (F := Ideal) Cert.ReferenceIdeal.dot_S8192x18_S18x16_S8192x16_1_0_0_1_n_n none x W1)) (rows16 b1))) g1 bt1) W2)) (rows16 b2))) g2 bt2) Wp1))
        (broadcastInDim Cert.ReferenceIdeal.S8192x20 ![0, 1] Cert.ReferenceIdeal.Gen.bcast_S1x20_S8192x20_0_1 (broadcastInDim Cert.ReferenceIdeal.S1x20 ![1] Cert.ReferenceIdeal.Gen.bcast_S20_S1x20_1 bp1)))) i := by
  have h1 := allFin_Layer16 hadj (allFin_dotGeneral Cert.ReferenceIdeal.dot_S8192x18_S18x16_S8192x16_1_0_0_1_n_n none hx hW1) hb1
  have n1 := allFin_BN16 h1 hg1 hbt1
  have h2 := allFin_Layer16 hadj (allFin_dotGeneral Cert.ReferenceIdeal.dot_S8192x16_S16x16_S8192x16_1_0_0_1_n_n none n1 hW2) hb2
  have n2 := allFin_BN16 h2 hg2 hbt2
  have hl := allFin_addf
    (allFin_dotGeneral Cert.ReferenceIdeal.dot_S8192x8192_S8192x20_S8192x20_1_0_0_1_n_n none hadj
      (allFin_dotGeneral Cert.ReferenceIdeal.dot_S8192x16_S16x20_S8192x20_1_0_0_1_n_n none n2 hWp1))
    (allFin_broadcastInDim Cert.ReferenceIdeal.S8192x20 ![0, 1] Cert.ReferenceIdeal.Gen.bcast_S1x20_S8192x20_0_1
      (allFin_broadcastInDim Cert.ReferenceIdeal.S1x20 ![1] Cert.ReferenceIdeal.Gen.bcast_S20_S1x20_1 hbp1))
  exact Softmax20_pos hl i

end Cert.Stages

end
-- ==== Proof.PreFinite.lean ====
/-
  The precondition decoded. The precondition of the claims is a printed predicate of the twenty argument
  arrays: for each array, the test that every entry has absolute value below plus infinity, all twenty tests
  conjoined. At exact arithmetic an entry is an extended real, its absolute value is `max x (-x)`, and that
  is below plus infinity exactly when `x` is neither infinity. So where the predicate answers one, every
  entry of every argument array is a real number.
-/
import proofs.«155634_j8117488189610_2_alg».proof.Pre_finite_inputs
import Idealize.ShloMosaic.Lib.ReduceAll
import Idealize.ShloMosaic.PureOps.Ideal
import proofs.«155634_j8117488189610_2_alg».proof.Proof.LibIdealFinite

noncomputable section

namespace Cert.Pre_finite_inputs.Decode

open Idealize.ShloMosaic Cert.Pre_finite_inputs LibERealMatrix LibIdealFinite

/-- A rank-zero array has one index. -/
instance : Subsingleton S_.Idx := ⟨fun _ _ => funext fun d => d.elim0⟩

/-- The word `0x7F800000` denotes plus infinity. -/
theorem ofBits_inf : Ideal.ofBits .f32 0x7F800000#32 = ⊤ := by
  simp [Ideal.ofBits, Ideal.ieee]

/-- An extended real whose absolute value is below plus infinity is neither infinity. -/
theorem fin_of_abs_lt_top (x : EReal) (h : max x (-x) < ⊤) : Fin' x := by
  induction x using EReal.rec with
  | bot => exact absurd h (by simp)
  | top => exact absurd h (by simp)
  | coe r => exact Fin'.coe r

/-- The element test of the predicate, read back: where the comparison of `|x|` with plus infinity answers
    one, `x` is a real number. -/
theorem fin_of_test (x : EReal)
    (h : FloatOps.cmpf (F := Ideal) (φ := .f32) .olt (FloatOps.hostAbsf (F := Ideal) (φ := .f32) x)
      (FloatOps.ofBits (F := Ideal) .f32 0x7F800000#32) = 1#1) : Fin' x := by
  refine fin_of_abs_lt_top x ?_
  have h' : BitVec.ofBool (decide (max x (-x) < Ideal.ofBits .f32 0x7F800000#32)) = 1#1 := h
  rw [ofBits_inf] at h'
  by_contra hn
  rw [decide_eq_false hn] at h'
  exact absurd h' (by decide)

/-- One conjunct of the predicate, read back: where the test "every entry has absolute value below plus
    infinity" answers one, every entry of the array is a real number. -/
theorem allFin_of_all {s : Shape} {axes : List (Fin s.rank)} (a : FVec Ideal s .f32)
    (hb : S_.BroadcastsInDim s (![] : Fin 0 → Fin s.rank)) (hr : s.ReducesTo axes S_) (hS : 0 < S_.numel) (j : S_.Idx)
    (e : Host.reduce IntOp.andi
        (cmpf (F := Ideal) .olt (Host.absf a) (broadcastInDim s ![] hb (constant S_ .f32 0x7F800000#32)))
        (constantI S_ 1 1#1) hr hS j = 1#1) : AllFin a :=
  fun i => fin_of_test (a i) (Host.reduce_andi_all _ _ hr hS j e i)

variable [Facts]

set_option maxRecDepth 8192 in
/-- THE PRECONDITION DECODED: where the predicate answers one, all twenty argument arrays hold real numbers. -/
theorem allFin_of_pre (a0 : FVec Ideal S8192x18 .f32) (a1 : FVec Ideal S8192x8192 .f32) (a2 : FVec Ideal S18x16 .f32) (a3 : FVec Ideal S16 .f32) (a4 : FVec Ideal S16x16 .f32) (a5 : FVec Ideal S16 .f32) (a6 : FVec Ideal S16x8 .f32) (a7 : FVec Ideal S8 .f32) (a8 : FVec Ideal S16x20 .f32) (a9 : FVec Ideal S20 .f32) (a10 : FVec Ideal S8x8 .f32) (a11 : FVec Ideal S8 .f32) (a12 : FVec Ideal S8x8 .f32) (a13 : FVec Ideal S8 .f32) (a14 : FVec Ideal S16 .f32) (a15 : FVec Ideal S16 .f32) (a16 : FVec Ideal S16 .f32) (a17 : FVec Ideal S16 .f32) (a18 : FVec Ideal S8 .f32) (a19 : FVec Ideal S8 .f32)
    (h : fn (F := Ideal) a0 a1 a2 a3 a4 a5 a6 a7 a8 a9 a10 a11 a12 a13 a14 a15 a16 a17 a18 a19 = fun _ => 1#1) :
    AllFin a0 ∧ AllFin a1 ∧ AllFin a2 ∧ AllFin a3 ∧ AllFin a4 ∧ AllFin a5 ∧ AllFin a6 ∧ AllFin a7 ∧ AllFin a8 ∧ AllFin a9 ∧ AllFin a10 ∧ AllFin a11 ∧ AllFin a12 ∧ AllFin a13 ∧ AllFin a14 ∧ AllFin a15 ∧ AllFin a16 ∧ AllFin a17 ∧ AllFin a18 ∧ AllFin a19 := by
  have e := congrFun h (Shape.Idx.first Facts.h_S_)
  simp only [fn, fn_part1, fn_part2, fn_part3, fn_part4, fn_part5, andi, IntOp.andi_eq_one] at e
  obtain ⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩ := e
  exact ⟨allFin_of_all _ _ _ _ _ h0, allFin_of_all _ _ _ _ _ h1, allFin_of_all _ _ _ _ _ h2, allFin_of_all _ _ _ _ _ h3, allFin_of_all _ _ _ _ _ h4, allFin_of_all _ _ _ _ _ h5, allFin_of_all _ _ _ _ _ h6, allFin_of_all _ _ _ _ _ h7, allFin_of_all _ _ _ _ _ h8, allFin_of_all _ _ _ _ _ h9, allFin_of_all _ _ _ _ _ h10, allFin_of_all _ _ _ _ _ h11, allFin_of_all _ _ _ _ _ h12, allFin_of_all _ _ _ _ _ h13, allFin_of_all _ _ _ _ _ h14, allFin_of_all _ _ _ _ _ h15, allFin_of_all _ _ _ _ _ h16, allFin_of_all _ _ _ _ _ h17, allFin_of_all _ _ _ _ _ h18, allFin_of_all _ _ _ _ _ h19⟩

end Cert.Pre_finite_inputs.Decode

end
-- ==== Proof.Final.lean ====
/-
  The equality of the two idealized programs' results. Unfolded through its checkpoints, the reference's result is the
  network's tail applied to the pooled features and to the pooled adjacency "(assignmentᵀ × adjacency) × assignment";
  the kernel program's is the same tail applied to the same pooled features and to "assignmentᵀ × (adjacency ×
  assignment + 0)". Every entry of the adjacency is finite by the precondition, and every entry of the assignment — a
  soft maximum of finite logits, themselves products, rectifiers and normalisations of finite data — is finite; so the
  two triple products are the same double sum.
-/
import proofs.«155634_j8117488189610_2_alg».proof.Proof.KI_Bridge2
import proofs.«155634_j8117488189610_2_alg».proof.Proof.RefRead
import proofs.«155634_j8117488189610_2_alg».proof.Proof.AssignFinite
import proofs.«155634_j8117488189610_2_alg».proof.Proof.PreFinite

noncomputable section

namespace Cert.Final

open Idealize.ShloMosaic Idealize.ShloMosaic.TcCoe Idealize.SL.Sem Idealize.ShloMosaic.ValueIdx Idealize.ShloMosaic.StableHlo
open Cert.Stages Cert.BridgeMath LibIdealFinite

/-- The zero row the last region adds is zero everywhere. -/
theorem zero_row (i : Cert.ReferenceIdeal.S1x20.Idx) :
    shapeCast Cert.KernelIdeal.S1x20 (broadcastInDim Cert.KernelIdeal.S20 ![] Cert.KernelIdeal.Gen.bcast_S_S20 (constant (F := Ideal) Cert.KernelIdeal.S_ .f32 0x00000000#32)) Cert.KernelIdeal.Gen.shapeCasts_S20_S1x20 i = 0 := by
  obtain ⟨p, q, rfl⟩ : ∃ (p : Fin 1) (q : Fin 20), i = ix2 (n0 := 1) (n1 := 20) p q := ⟨i 0, i 1, eq_ix2 i⟩
  rw [shapeCast_apply _ Cert.KernelIdeal.Gen.shapeCasts_S20_S1x20 (ix2 (n0 := 1) (n1 := 20) p q) (ix1 (n := 20) q) (by
      rw [Shape.rowMajor_val_one, Shape.rowMajor_val_two]
      have hp : p.val = 0 := by omega
      simp [hp]),
    broadcastInDim_apply _ _ _ (ix1 (n := 20) q) ix0 (fun a => a.elim0)]
  exact Ideal.ofBits_zero_f32

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)
  (V' : Valuation Cert.ReferenceIdeal.τ Cert.ReferenceIdeal.sig (Elt Ideal))

/-- From contents agreeing on the arguments, all finite: the reference's result buffer ends holding what the kernel
    program's does. -/
theorem bridge
    (a0 : V' (Proc.devRef .tc Cert.ReferenceIdeal.main_arg0) = (m ((c : Thread Cert.KernelIdeal.nD Cert.KernelIdeal.τ).loc Cert.KernelIdeal.main_arg0)))
    (a1 : V' (Proc.devRef .tc Cert.ReferenceIdeal.main_arg1) = (m ((c : Thread Cert.KernelIdeal.nD Cert.KernelIdeal.τ).loc Cert.KernelIdeal.main_arg1)))
    (a2 : V' (Proc.devRef .tc Cert.ReferenceIdeal.main_arg2) = (m ((c : Thread Cert.KernelIdeal.nD Cert.KernelIdeal.τ).loc Cert.KernelIdeal.main_arg2)))
    (a3 : V' (Proc.devRef .tc Cert.ReferenceIdeal.main_arg3) = (m ((c : Thread Cert.KernelIdeal.nD Cert.KernelIdeal.τ).loc Cert.KernelIdeal.main_arg3)))
    (a4 : V' (Proc.devRef .tc Cert.ReferenceIdeal.main_arg4) = (m ((c : Thread Cert.KernelIdeal.nD Cert.KernelIdeal.τ).loc Cert.KernelIdeal.main_arg4)))
    (a5 : V' (Proc.devRef .tc Cert.ReferenceIdeal.main_arg5) = (m ((c : Thread Cert.KernelIdeal.nD Cert.KernelIdeal.τ).loc Cert.KernelIdeal.main_arg5)))
    (a6 : V' (Proc.devRef .tc Cert.ReferenceIdeal.main_arg6) = (m ((c : Thread Cert.KernelIdeal.nD Cert.KernelIdeal.τ).loc Cert.KernelIdeal.main_arg6)))
    (a7 : V' (Proc.devRef .tc Cert.ReferenceIdeal.main_arg7) = (m ((c : Thread Cert.KernelIdeal.nD Cert.KernelIdeal.τ).loc Cert.KernelIdeal.main_arg7)))
    (a8 : V' (Proc.devRef .tc Cert.ReferenceIdeal.main_arg8) = (m ((c : Thread Cert.KernelIdeal.nD Cert.KernelIdeal.τ).loc Cert.KernelIdeal.main_arg8)))
    (a9 : V' (Proc.devRef .tc Cert.ReferenceIdeal.main_arg9) = (m ((c : Thread Cert.KernelIdeal.nD Cert.KernelIdeal.τ).loc Cert.KernelIdeal.main_arg9)))
    (a10 : V' (Proc.devRef .tc Cert.ReferenceIdeal.main_arg10) = (m ((c : Thread Cert.KernelIdeal.nD Cert.KernelIdeal.τ).loc Cert.KernelIdeal.main_arg10)))
    (a11 : V' (Proc.devRef .tc Cert.ReferenceIdeal.main_arg11) = (m ((c : Thread Cert.KernelIdeal.nD Cert.KernelIdeal.τ).loc Cert.KernelIdeal.main_arg11)))
    (a12 : V' (Proc.devRef .tc Cert.ReferenceIdeal.main_arg12) = (m ((c : Thread Cert.KernelIdeal.nD Cert.KernelIdeal.τ).loc Cert.KernelIdeal.main_arg12)))
    (a13 : V' (Proc.devRef .tc Cert.ReferenceIdeal.main_arg13) = (m ((c : Thread Cert.KernelIdeal.nD Cert.KernelIdeal.τ).loc Cert.KernelIdeal.main_arg13)))
    (a14 : V' (Proc.devRef .tc Cert.ReferenceIdeal.main_arg14) = (m ((c : Thread Cert.KernelIdeal.nD Cert.KernelIdeal.τ).loc Cert.KernelIdeal.main_arg14)))
    (a15 : V' (Proc.devRef .tc Cert.ReferenceIdeal.main_arg15) = (m ((c : Thread Cert.KernelIdeal.nD Cert.KernelIdeal.τ).loc Cert.KernelIdeal.main_arg15)))
    (a16 : V' (Proc.devRef .tc Cert.ReferenceIdeal.main_arg16) = (m ((c : Thread Cert.KernelIdeal.nD Cert.KernelIdeal.τ).loc Cert.KernelIdeal.main_arg16)))
    (a17 : V' (Proc.devRef .tc Cert.ReferenceIdeal.main_arg17) = (m ((c : Thread Cert.KernelIdeal.nD Cert.KernelIdeal.τ).loc Cert.KernelIdeal.main_arg17)))
    (a18 : V' (Proc.devRef .tc Cert.ReferenceIdeal.main_arg18) = (m ((c : Thread Cert.KernelIdeal.nD Cert.KernelIdeal.τ).loc Cert.KernelIdeal.main_arg18)))
    (a19 : V' (Proc.devRef .tc Cert.ReferenceIdeal.main_arg19) = (m ((c : Thread Cert.KernelIdeal.nD Cert.KernelIdeal.τ).loc Cert.KernelIdeal.main_arg19)))
    (f0 : AllFin (Cert.KernelIdeal.Whole.A0 m c))
    (f1 : AllFin (Cert.KernelIdeal.Whole.A1 m c))
    (f2 : AllFin (Cert.KernelIdeal.Whole.A2 m c))
    (f3 : AllFin (Cert.KernelIdeal.Whole.A3 m c))
    (f4 : AllFin (Cert.KernelIdeal.Whole.A4 m c))
    (f5 : AllFin (Cert.KernelIdeal.Whole.A5 m c))
    (f8 : AllFin (Cert.KernelIdeal.Whole.A8 m c))
    (f9 : AllFin (Cert.KernelIdeal.Whole.A9 m c))
    (f14 : AllFin (Cert.KernelIdeal.Whole.A14 m c))
    (f15 : AllFin (Cert.KernelIdeal.Whole.A15 m c))
    (f16 : AllFin (Cert.KernelIdeal.Whole.A16 m c))
    (f17 : AllFin (Cert.KernelIdeal.Whole.A17 m c)) :
    Cert.ReferenceIdeal.Read.fin V' Cert.ReferenceIdeal.main_v107 = Cert.KernelIdeal.Whole.W17 m ρ c (Proc.devRef .tc Cert.KernelIdeal.main_v100) := by
  have hs : AllFin (Softmax20 (Cert.KernelIdeal.Whole.lK m c)) := by
    unfold Cert.KernelIdeal.Whole.lK Cert.KernelIdeal.Whole.hB Cert.KernelIdeal.Whole.h2 Cert.KernelIdeal.Whole.h1
    exact allFin_assignment _ _ _ _ _ _ _ _ _ _ _ _ f0 f1 f2 f3 f4 f5 f8 f9 f14 f15 f16 f17
  rw [Cert.KernelIdeal.Whole.W17_out, pooled_adjacency _ _ _ f1 hs zero_row,
    Cert.ReferenceIdeal.Read.read_out, Cert.ReferenceIdeal.Read.read_hpool, Cert.ReferenceIdeal.Read.read_a, Cert.ReferenceIdeal.Read.read_s, Cert.ReferenceIdeal.Read.read_z, Cert.ReferenceIdeal.Read.read_logits,
    Cert.ReferenceIdeal.Read.read_bn2, Cert.ReferenceIdeal.Read.read_h2, Cert.ReferenceIdeal.Read.read_bn1, Cert.ReferenceIdeal.Read.read_h1]
  rw [a0, a1, a2, a3, a4, a5, a6, a7, a8, a9, a10, a11, a12, a13, a14, a15, a16, a17, a18, a19]
  unfold Cert.KernelIdeal.Whole.zK Cert.KernelIdeal.Whole.lK Cert.KernelIdeal.Whole.hB Cert.KernelIdeal.Whole.h2 Cert.KernelIdeal.Whole.h1 Cert.ReferenceIdeal.Read.rows8192x8 Cert.ReferenceIdeal.Read.rows8192x20
  rfl

end Cert.Final

end
-- ==== Proof.lean ====
/-
  The certificate's claim: the three programs' frames, the idealization's ledger, and the equality of the idealized
  kernel with the idealized reference.

  The kernel program runs four "adjacency times a thin matrix" passes as kernel regions, each accumulating over four
  blocks of the reduction axis in a scratch buffer it carries from grid point to grid point and storing its output
  block at the last reduction step; around them are host operations (batch normalisation, a softmax, thin products).
  Its frame is the composition of the seventeen items of @main; the reference's is the run of its straight line of host
  operations; the ideal pass rewrote nothing, so the ledger is empty.
-/
import proofs.«155634_j8117488189610_2_alg».proof.Defs
import proofs.«155634_j8117488189610_2_alg».proof.Proof.Gen.Kernel
import proofs.«155634_j8117488189610_2_alg».proof.Proof.Gen.KernelIdeal
import proofs.«155634_j8117488189610_2_alg».proof.Proof.Gen.ReferenceIdeal
import proofs.«155634_j8117488189610_2_alg».proof.Proof.Gen.Pre_finite_inputs
import proofs.«155634_j8117488189610_2_alg».proof.Proof.K_Run
import proofs.«155634_j8117488189610_2_alg».proof.Proof.KI_Run
import proofs.«155634_j8117488189610_2_alg».proof.Proof.RefRun
import proofs.«155634_j8117488189610_2_alg».proof.Proof.Final
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Whole.frame (F := Bits) m ρ

theorem frame_ki : @Cert.frame_KernelIdeal Cert.KernelIdeal.Gen.facts Cert.Pre_finite_inputs.Gen.facts :=
  fun m ρ _ => Cert.KernelIdeal.Whole.frame (F := Ideal) m ρ

theorem frame_ri : @Cert.frame_ReferenceIdeal Cert.ReferenceIdeal.Gen.facts Cert.Pre_finite_inputs.Gen.facts :=
  fun m ρ _ => Cert.ReferenceIdeal.HandRun.frame (F := Ideal) m ρ

/-- The ideal pass rewrote no operation: the ledger is empty. -/
theorem preserves : Cert.preserves_Kernel_KernelIdeal := trivial

/-- Both idealized programs run, from memories agreeing on the arguments, to equal results: the kernel program's
    result buffer ends at the last boundary's contents there, the reference's at its fold there, and under the
    precondition the two are the same extended reals, entry by entry. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Whole.W17 m ρ c (Proc.devRef .tc Cert.KernelIdeal.main_v100),
    Cert.KernelIdeal.Whole.run_result (F := Ideal) m ρ, ?_⟩
  refine (θ_run Cert.ReferenceIdeal.defs _ _).mono (fun _ h c => ?_) (Cert.ReferenceIdeal.HandRun.run_main (F := Ideal) m' ρ')
  obtain ⟨g0, g1, g2, g3, g4, g5, g6, g7, g8, g9, g10, g11, g12, g13, g14, g15, g16, g17, g18, g19⟩ := hagree c
  obtain ⟨f0, f1, f2, f3, f4, f5, f6, f7, f8, f9, f10, f11, f12, f13, f14, f15, f16, f17, f18, f19⟩ := @Cert.Pre_finite_inputs.Decode.allFin_of_pre Cert.Pre_finite_inputs.Gen.facts
    _ _ _ _ _ _ _ _ _ _ _ _ _ _ _ _ _ _ _ _ (hpre c)
  exact ⟨(h c Cert.ReferenceIdeal.main_v107).trans
      (Cert.Final.bridge m ρ c (StableHlo.launchContents m' c) g0 g1 g2 g3 g4 g5 g6 g7 g8 g9 g10 g11 g12 g13 g14 g15 g16 g17 g18 g19 f0 f1 f2 f3 f4 f5 f8 f9 f14 f15 f16 f17),
    (h c Cert.ReferenceIdeal.main_arg0).trans (Cert.ReferenceIdeal.HandRun.kept _ Cert.ReferenceIdeal.main_arg0 (by decide)),
    (h c Cert.ReferenceIdeal.main_arg1).trans (Cert.ReferenceIdeal.HandRun.kept _ Cert.ReferenceIdeal.main_arg1 (by decide)),
    (h c Cert.ReferenceIdeal.main_arg2).trans (Cert.ReferenceIdeal.HandRun.kept _ Cert.ReferenceIdeal.main_arg2 (by decide)),
    (h c Cert.ReferenceIdeal.main_arg3).trans (Cert.ReferenceIdeal.HandRun.kept _ Cert.ReferenceIdeal.main_arg3 (by decide)),
    (h c Cert.ReferenceIdeal.main_arg4).trans (Cert.ReferenceIdeal.HandRun.kept _ Cert.ReferenceIdeal.main_arg4 (by decide)),
    (h c Cert.ReferenceIdeal.main_arg5).trans (Cert.ReferenceIdeal.HandRun.kept _ Cert.ReferenceIdeal.main_arg5 (by decide)),
    (h c Cert.ReferenceIdeal.main_arg6).trans (Cert.ReferenceIdeal.HandRun.kept _ Cert.ReferenceIdeal.main_arg6 (by decide)),
    (h c Cert.ReferenceIdeal.main_arg7).trans (Cert.ReferenceIdeal.HandRun.kept _ Cert.ReferenceIdeal.main_arg7 (by decide)),
    (h c Cert.ReferenceIdeal.main_arg8).trans (Cert.ReferenceIdeal.HandRun.kept _ Cert.ReferenceIdeal.main_arg8 (by decide)),
    (h c Cert.ReferenceIdeal.main_arg9).trans (Cert.ReferenceIdeal.HandRun.kept _ Cert.ReferenceIdeal.main_arg9 (by decide)),
    (h c Cert.ReferenceIdeal.main_arg10).trans (Cert.ReferenceIdeal.HandRun.kept _ Cert.ReferenceIdeal.main_arg10 (by decide)),
    (h c Cert.ReferenceIdeal.main_arg11).trans (Cert.ReferenceIdeal.HandRun.kept _ Cert.ReferenceIdeal.main_arg11 (by decide)),
    (h c Cert.ReferenceIdeal.main_arg12).trans (Cert.ReferenceIdeal.HandRun.kept _ Cert.ReferenceIdeal.main_arg12 (by decide)),
    (h c Cert.ReferenceIdeal.main_arg13).trans (Cert.ReferenceIdeal.HandRun.kept _ Cert.ReferenceIdeal.main_arg13 (by decide)),
    (h c Cert.ReferenceIdeal.main_arg14).trans (Cert.ReferenceIdeal.HandRun.kept _ Cert.ReferenceIdeal.main_arg14 (by decide)),
    (h c Cert.ReferenceIdeal.main_arg15).trans (Cert.ReferenceIdeal.HandRun.kept _ Cert.ReferenceIdeal.main_arg15 (by decide)),
    (h c Cert.ReferenceIdeal.main_arg16).trans (Cert.ReferenceIdeal.HandRun.kept _ Cert.ReferenceIdeal.main_arg16 (by decide)),
    (h c Cert.ReferenceIdeal.main_arg17).trans (Cert.ReferenceIdeal.HandRun.kept _ Cert.ReferenceIdeal.main_arg17 (by decide)),
    (h c Cert.ReferenceIdeal.main_arg18).trans (Cert.ReferenceIdeal.HandRun.kept _ Cert.ReferenceIdeal.main_arg18 (by decide)),
    (h c Cert.ReferenceIdeal.main_arg19).trans (Cert.ReferenceIdeal.HandRun.kept _ Cert.ReferenceIdeal.main_arg19 (by decide))⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
